-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v536)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v536) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v663) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S3x800000 : Shape := ⟨2, ![3, 800000]⟩
abbrev S3x128x128 : Shape := ⟨3, ![3, 128, 128]⟩
abbrev S3x128 : Shape := ⟨2, ![3, 128]⟩
abbrev S4x3x128x128 : Shape := ⟨4, ![4, 3, 128, 128]⟩
abbrev S4x3x128 : Shape := ⟨3, ![4, 3, 128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S4x3x128x128 : S_.BroadcastsInDim S4x3x128x128 (![] : Fin 0 → Fin S4x3x128x128.rank)
  reducesTo_S4x3x128x128_S_d0_1_2_3 : S4x3x128x128.ReducesTo [0, 1, 2, 3] S_
  bcast_S_S4x3x128 : S_.BroadcastsInDim S4x3x128 (![] : Fin 0 → Fin S4x3x128.rank)
  reducesTo_S4x3x128_S_d0_1_2 : S4x3x128.ReducesTo [0, 1, 2] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S4x3x128 .f32) (main_arg7 : FVec F S128x64 .f32) (main_arg8 : FVec F S64 .f32) (main_v13 : IVec S_ 1) (main_v16 : IVec S4x3x128x128 1) : IVec S_ 1 :=
  let main_c_5 : IVec S_ 1 := constantI S_ 1 1#1
  let main_v17 : IVec S_ 1 := (fun x v => Host.reduce IntOp.andi x v reducesTo_S4x3x128x128_S_d0_1_2_3 h_S_) main_v16 main_c_5
  let main_v18 : IVec S_ 1 := andi main_v13 main_v17
  let main_v19 : FVec F S4x3x128 .f32 := Host.absf main_arg6
  let main_cst_6 : FVec F S_ .f32 := constant S_ .f32 0x7F800000#32
  let main_v20 : FVec F S4x3x128 .f32 := broadcastInDim S4x3x128 ![] bcast_S_S4x3x128 main_cst_6
  let main_v21 : IVec S4x3x128 1 := cmpf .olt main_v19 main_v20
  let main_c_7 : IVec S_ 1 := constantI S_ 1 1#1
  let main_v22 : IVec S_ 1 := (fun x v => Host.reduce IntOp.andi x v reducesTo_S4x3x128_S_d0_1_2 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S3x800000 32) (main_arg2 : IVec S3x800000 32) (main_arg3 : FVec F S3x128x128 .f32) (main_arg4 : FVec F S3x128 .f32) (main_arg5 : FVec F S4x3x128x128 .f32) (main_arg6 : FVec F S4x3x128 .f32) (main_arg7 : FVec F S128x64 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S4x3x128x128 .f32 := Host.absf main_arg5
  let main_cst_4 : FVec F S_ .f32 := constant S_ .f32 0x7F800000#32
  let main_v15 : FVec F S4x3x128x128 .f32 := broadcastInDim S4x3x128x128 ![] bcast_S_S4x3x128x128 main_cst_4
  let main_v16 : IVec S4x3x128x128 1 := cmpf .olt main_v14 main_v15
  fn_part1 (F := F) main_arg6 main_arg7 main_arg8 main_v13 main_v16
-- ==== Kernel.lean ====
abbrev S50000x128 : Shape := ⟨2, ![50000, 128]⟩
abbrev S3x800000 : Shape := ⟨2, ![3, 800000]⟩
abbrev S3x128x128 : Shape := ⟨3, ![3, 128, 128]⟩
abbrev S3x128 : Shape := ⟨2, ![3, 128]⟩
abbrev S4x3x128x128 : Shape := ⟨4, ![4, 3, 128, 128]⟩
abbrev S4x3x128 : Shape := ⟨3, ![4, 3, 128]⟩
abbrev S128x64 : Shape := ⟨2, ![128, 64]⟩
abbrev S64 : Shape := ⟨1, ![64]⟩
abbrev S_ : Shape := ⟨0, ![]⟩
abbrev S800000 : Shape := ⟨1, ![800000]⟩
abbrev S1x800000 : Shape := ⟨2, ![1, 800000]⟩
abbrev S50000 : Shape := ⟨1, ![50000]⟩
abbrev S800000x1 : Shape := ⟨2, ![800000, 1]⟩
abbrev S1x50000 : Shape := ⟨2, ![1, 50000]⟩
abbrev S3x50000 : Shape := ⟨2, ![3, 50000]⟩
abbrev S50000x1 : Shape := ⟨2, ![50000, 1]⟩
abbrev S800000x128 : Shape := ⟨2, ![800000, 128]⟩
abbrev S1x50000x128 : Shape := ⟨3, ![1, 50000, 128]⟩
abbrev S3x50000x128 : Shape := ⟨3, ![3, 50000, 128]⟩
abbrev S3x1x128 : Shape := ⟨3, ![3, 1, 128]⟩
abbrev S1x2000x128 : Shape := ⟨3, ![1, 2000, 128]⟩
abbrev S1x128x128 : Shape := ⟨3, ![1, 128, 128]⟩
abbrev S1x1x128 : Shape := ⟨3, ![1, 1, 128]⟩
abbrev S2000x128 : Shape := ⟨2, ![2000, 128]⟩
abbrev S128x128 : Shape := ⟨2, ![128, 128]⟩
abbrev S1x128 : Shape := ⟨2, ![1, 128]⟩
abbrev S1x3x128x128 : Shape := ⟨4, ![1, 3, 128, 128]⟩
abbrev S1x3x128 : Shape := ⟨3, ![1, 3, 128]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 628
  | .vmem => 51
  | .smem => 0
  | _ => 0

abbrev hbmTy0_0 (i : Nat) : BufTy := match i % 128 with
  | 0 => ⟨S50000x128, .f32⟩
  | 1 => ⟨S3x800000, .i32⟩
  | 2 => ⟨S3x800000, .i32⟩
  | 3 => ⟨S3x128x128, .f32⟩
  | 4 => ⟨S3x128, .f32⟩
  | 5 => ⟨S4x3x128x128, .f32⟩
  | 6 => ⟨S4x3x128, .f32⟩
  | 7 => ⟨S128x64, .f32⟩
  | 8 => ⟨S64, .f32⟩
  | 9 => ⟨S_, .f32⟩
  | 10 => ⟨S800000, .f32⟩
  | 11 => ⟨S1x800000, .i32⟩
  | 12 => ⟨S800000, .i32⟩
  | 13 => ⟨S_, .f32⟩
  | 14 => ⟨S50000, .f32⟩
  | 15 => ⟨S800000x1, .i32⟩
  | 16 => ⟨S50000, .f32⟩
  | 17 => ⟨S1x800000, .i32⟩
  | 18 => ⟨S800000, .i32⟩
  | 19 => ⟨S_, .f32⟩
  | 20 => ⟨S50000, .f32⟩
  | 21 => ⟨S800000x1, .i32⟩
  | 22 => ⟨S50000, .f32⟩
  | 23 => ⟨S1x800000, .i32⟩
  | 24 => ⟨S800000, .i32⟩
  | 25 => ⟨S_, .f32⟩
  | 26 => ⟨S50000, .f32⟩
  | 27 => ⟨S800000x1, .i32⟩
  | 28 => ⟨S50000, .f32⟩
  | 29 => ⟨S1x50000, .f32⟩
  | 30 => ⟨S1x50000, .f32⟩
  | 31 => ⟨S1x50000, .f32⟩
  | 32 => ⟨S3x50000, .f32⟩
  | 33 => ⟨S1x800000, .i32⟩
  | 34 => ⟨S800000, .i32⟩
  | 35 => ⟨S_, .f32⟩
  | 36 => ⟨S50000, .f32⟩
  | 37 => ⟨S800000x1, .i32⟩
  | 38 => ⟨S50000, .f32⟩
  | 39 => ⟨S1x800000, .i32⟩
  | 40 => ⟨S800000, .i32⟩
  | 41 => ⟨S_, .f32⟩
  | 42 => ⟨S50000, .f32⟩
  | 43 => ⟨S800000x1, .i32⟩
  | 44 => ⟨S50000, .f32⟩
  | 45 => ⟨S1x800000, .i32⟩
  | 46 => ⟨S800000, .i32⟩
  | 47 => ⟨S_, .f32⟩
  | 48 => ⟨S50000, .f32⟩
  | 49 => ⟨S800000x1, .i32⟩
  | 50 => ⟨S50000, .f32⟩
  | 51 => ⟨S1x50000, .f32⟩
  | 52 => ⟨S1x50000, .f32⟩
  | 53 => ⟨S1x50000, .f32⟩
  | 54 => ⟨S3x50000, .f32⟩
  | 55 => ⟨S1x800000, .i32⟩
  | 56 => ⟨S800000, .i32⟩
  | 57 => ⟨S1x800000, .i32⟩
  | 58 => ⟨S800000, .i32⟩
  | 59 => ⟨S1x50000, .f32⟩
  | 60 => ⟨S50000, .f32⟩
  | 61 => ⟨S_, .f32⟩
  | 62 => ⟨S50000, .f32⟩
  | 63 => ⟨S50000, .f32⟩
  | 64 => ⟨S50000, .f32⟩
  | 65 => ⟨S50000x1, .f32⟩
  | 66 => ⟨S50000x128, .f32⟩
  | 67 => ⟨S50000x128, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x128, .f32⟩
  | 77 => ⟨S_, .f32⟩
  | 78 => ⟨S50000x128, .f32⟩
  | 79 => ⟨S800000x1, .i32⟩
  | 80 => ⟨S50000x128, .f32⟩
  | 81 => ⟨S1x50000, .f32⟩
  | 82 => ⟨S50000, .f32⟩
  | 83 => ⟨S_, .f32⟩
  | 84 => ⟨S50000, .f32⟩
  | 85 => ⟨S50000, .f32⟩
  | 86 => ⟨S50000, .f32⟩
  | 87 => ⟨S50000x1, .f32⟩
  | 88 => ⟨S50000x128, .f32⟩
  | 89 => ⟨S50000x128, .f32⟩
  | 90 => ⟨S1x800000, .i32⟩
  | 91 => ⟨S800000, .i32⟩
  | 92 => ⟨S1x800000, .i32⟩
  | 93 => ⟨S800000, .i32⟩
  | 94 => ⟨S1x50000, .f32⟩
  | 95 => ⟨S50000, .f32⟩
  | 96 => ⟨S_, .f32⟩
  | 97 => ⟨S50000, .f32⟩
  | 98 => ⟨S50000, .f32⟩
  | 99 => ⟨S50000, .f32⟩
  | 100 => ⟨S50000x1, .f32⟩
  | 101 => ⟨S50000x128, .f32⟩
  | 102 => ⟨S50000x128, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x128, .f32⟩
  | 112 => ⟨S_, .f32⟩
  | 113 => ⟨S50000x128, .f32⟩
  | 114 => ⟨S800000x1, .i32⟩
  | 115 => ⟨S50000x128, .f32⟩
  | 116 => ⟨S1x50000, .f32⟩
  | 117 => ⟨S50000, .f32⟩
  | 118 => ⟨S_, .f32⟩
  | 119 => ⟨S50000, .f32⟩
  | 120 => ⟨S50000, .f32⟩
  | 121 => ⟨S50000, .f32⟩
  | 122 => ⟨S50000x1, .f32⟩
  | 123 => ⟨S50000x128, .f32⟩
  | 124 => ⟨S50000x128, .f32⟩
  | 125 => ⟨S1x800000, .i32⟩
  | 126 => ⟨S800000, .i32⟩
  | 127 => ⟨S1x800000, .i32⟩
  | _ => ⟨S50000x128, .f32⟩

abbrev hbmTy0_1 (i : Nat) : BufTy := match i % 128 with
  | 0 => ⟨S800000, .i32⟩
  | 1 => ⟨S1x50000, .f32⟩
  | 2 => ⟨S50000, .f32⟩
  | 3 => ⟨S_, .f32⟩
  | 4 => ⟨S50000, .f32⟩
  | 5 => ⟨S50000, .f32⟩
  | 6 => ⟨S50000, .f32⟩
  | 7 => ⟨S50000x1, .f32⟩
  | 8 => ⟨S50000x128, .f32⟩
  | 9 => ⟨S50000x128, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x128, .f32⟩
  | 19 => ⟨S_, .f32⟩
  | 20 => ⟨S50000x128, .f32⟩
  | 21 => ⟨S800000x1, .i32⟩
  | 22 => ⟨S50000x128, .f32⟩
  | 23 => ⟨S1x50000, .f32⟩
  | 24 => ⟨S50000, .f32⟩
  | 25 => ⟨S_, .f32⟩
  | 26 => ⟨S50000, .f32⟩
  | 27 => ⟨S50000, .f32⟩
  | 28 => ⟨S50000, .f32⟩
  | 29 => ⟨S50000x1, .f32⟩
  | 30 => ⟨S50000x128, .f32⟩
  | 31 => ⟨S50000x128, .f32⟩
  | 32 => ⟨S1x50000x128, .f32⟩
  | 33 => ⟨S1x50000x128, .f32⟩
  | 34 => ⟨S1x50000x128, .f32⟩
  | 35 => ⟨S3x50000x128, .f32⟩
  | 36 => ⟨S3x1x128, .f32⟩
  | 37 => ⟨S50000x128, .f32⟩
  | 38 => ⟨S1x3x128x128, .f32⟩
  | 39 => ⟨S3x128x128, .f32⟩
  | 40 => ⟨S1x3x128, .f32⟩
  | 41 => ⟨S3x128, .f32⟩
  | 42 => ⟨S1x800000, .i32⟩
  | 43 => ⟨S800000, .i32⟩
  | 44 => ⟨S1x800000, .i32⟩
  | 45 => ⟨S800000, .i32⟩
  | 46 => ⟨S1x50000, .f32⟩
  | 47 => ⟨S50000, .f32⟩
  | 48 => ⟨S_, .f32⟩
  | 49 => ⟨S50000, .f32⟩
  | 50 => ⟨S50000, .f32⟩
  | 51 => ⟨S50000, .f32⟩
  | 52 => ⟨S50000x1, .f32⟩
  | 53 => ⟨S50000x128, .f32⟩
  | 54 => ⟨S50000x128, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S_, .f32⟩
  | 65 => ⟨S50000x128, .f32⟩
  | 66 => ⟨S800000x1, .i32⟩
  | 67 => ⟨S50000x128, .f32⟩
  | 68 => ⟨S1x50000, .f32⟩
  | 69 => ⟨S50000, .f32⟩
  | 70 => ⟨S_, .f32⟩
  | 71 => ⟨S50000, .f32⟩
  | 72 => ⟨S50000, .f32⟩
  | 73 => ⟨S50000, .f32⟩
  | 74 => ⟨S50000x1, .f32⟩
  | 75 => ⟨S50000x128, .f32⟩
  | 76 => ⟨S50000x128, .f32⟩
  | 77 => ⟨S1x800000, .i32⟩
  | 78 => ⟨S800000, .i32⟩
  | 79 => ⟨S1x800000, .i32⟩
  | 80 => ⟨S800000, .i32⟩
  | 81 => ⟨S1x50000, .f32⟩
  | 82 => ⟨S50000, .f32⟩
  | 83 => ⟨S_, .f32⟩
  | 84 => ⟨S50000, .f32⟩
  | 85 => ⟨S50000, .f32⟩
  | 86 => ⟨S50000, .f32⟩
  | 87 => ⟨S50000x1, .f32⟩
  | 88 => ⟨S50000x128, .f32⟩
  | 89 => ⟨S50000x128, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x128, .f32⟩
  | 99 => ⟨S_, .f32⟩
  | 100 => ⟨S50000x128, .f32⟩
  | 101 => ⟨S800000x1, .i32⟩
  | 102 => ⟨S50000x128, .f32⟩
  | 103 => ⟨S1x50000, .f32⟩
  | 104 => ⟨S50000, .f32⟩
  | 105 => ⟨S_, .f32⟩
  | 106 => ⟨S50000, .f32⟩
  | 107 => ⟨S50000, .f32⟩
  | 108 => ⟨S50000, .f32⟩
  | 109 => ⟨S50000x1, .f32⟩
  | 110 => ⟨S50000x128, .f32⟩
  | 111 => ⟨S50000x128, .f32⟩
  | 112 => ⟨S1x800000, .i32⟩
  | 113 => ⟨S800000, .i32⟩
  | 114 => ⟨S1x800000, .i32⟩
  | 115 => ⟨S800000, .i32⟩
  | 116 => ⟨S1x50000, .f32⟩
  | 117 => ⟨S50000, .f32⟩
  | 118 => ⟨S_, .f32⟩
  | 119 => ⟨S50000, .f32⟩
  | 120 => ⟨S50000, .f32⟩
  | 121 => ⟨S50000, .f32⟩
  | 122 => ⟨S50000x1, .f32⟩
  | 123 => ⟨S50000x128, .f32⟩
  | 124 => ⟨S50000x128, .f32⟩
  | 125 => ⟨S_, .i32⟩
  | 126 => ⟨S800000, .i32⟩
  | 127 => ⟨S800000, .i1⟩
  | _ => ⟨S50000x128, .f32⟩

abbrev hbmTy0_2 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x128, .f32⟩
  | 6 => ⟨S_, .f32⟩
  | 7 => ⟨S50000x128, .f32⟩
  | 8 => ⟨S800000x1, .i32⟩
  | 9 => ⟨S50000x128, .f32⟩
  | 10 => ⟨S1x50000, .f32⟩
  | 11 => ⟨S50000, .f32⟩
  | 12 => ⟨S_, .f32⟩
  | 13 => ⟨S50000, .f32⟩
  | 14 => ⟨S50000, .f32⟩
  | 15 => ⟨S50000, .f32⟩
  | 16 => ⟨S50000x1, .f32⟩
  | 17 => ⟨S50000x128, .f32⟩
  | 18 => ⟨S50000x128, .f32⟩
  | 19 => ⟨S1x50000x128, .f32⟩
  | 20 => ⟨S1x50000x128, .f32⟩
  | 21 => ⟨S1x50000x128, .f32⟩
  | 22 => ⟨S3x50000x128, .f32⟩
  | 23 => ⟨S3x1x128, .f32⟩
  | 24 => ⟨S50000x128, .f32⟩
  | 25 => ⟨S1x3x128x128, .f32⟩
  | 26 => ⟨S3x128x128, .f32⟩
  | 27 => ⟨S1x3x128, .f32⟩
  | 28 => ⟨S3x128, .f32⟩
  | 29 => ⟨S1x800000, .i32⟩
  | 30 => ⟨S800000, .i32⟩
  | 31 => ⟨S1x800000, .i32⟩
  | 32 => ⟨S800000, .i32⟩
  | 33 => ⟨S1x50000, .f32⟩
  | 34 => ⟨S50000, .f32⟩
  | 35 => ⟨S_, .f32⟩
  | 36 => ⟨S50000, .f32⟩
  | 37 => ⟨S50000, .f32⟩
  | 38 => ⟨S50000, .f32⟩
  | 39 => ⟨S50000x1, .f32⟩
  | 40 => ⟨S50000x128, .f32⟩
  | 41 => ⟨S50000x128, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S_, .f32⟩
  | 52 => ⟨S50000x128, .f32⟩
  | 53 => ⟨S800000x1, .i32⟩
  | 54 => ⟨S50000x128, .f32⟩
  | 55 => ⟨S1x50000, .f32⟩
  | 56 => ⟨S50000, .f32⟩
  | 57 => ⟨S_, .f32⟩
  | 58 => ⟨S50000, .f32⟩
  | 59 => ⟨S50000, .f32⟩
  | 60 => ⟨S50000, .f32⟩
  | 61 => ⟨S50000x1, .f32⟩
  | 62 => ⟨S50000x128, .f32⟩
  | 63 => ⟨S50000x128, .f32⟩
  | 64 => ⟨S1x800000, .i32⟩
  | 65 => ⟨S800000, .i32⟩
  | 66 => ⟨S1x800000, .i32⟩
  | 67 => ⟨S800000, .i32⟩
  | 68 => ⟨S1x50000, .f32⟩
  | 69 => ⟨S50000, .f32⟩
  | 70 => ⟨S_, .f32⟩
  | 71 => ⟨S50000, .f32⟩
  | 72 => ⟨S50000, .f32⟩
  | 73 => ⟨S50000, .f32⟩
  | 74 => ⟨S50000x1, .f32⟩
  | 75 => ⟨S50000x128, .f32⟩
  | 76 => ⟨S50000x128, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S1x50000, .f32⟩
  | 91 => ⟨S50000, .f32⟩
  | 92 => ⟨S_, .f32⟩
  | 93 => ⟨S50000, .f32⟩
  | 94 => ⟨S50000, .f32⟩
  | 95 => ⟨S50000, .f32⟩
  | 96 => ⟨S50000x1, .f32⟩
  | 97 => ⟨S50000x128, .f32⟩
  | 98 => ⟨S50000x128, .f32⟩
  | 99 => ⟨S1x800000, .i32⟩
  | 100 => ⟨S800000, .i32⟩
  | 101 => ⟨S1x800000, .i32⟩
  | 102 => ⟨S800000, .i32⟩
  | 103 => ⟨S1x50000, .f32⟩
  | 104 => ⟨S50000, .f32⟩
  | 105 => ⟨S_, .f32⟩
  | 106 => ⟨S50000, .f32⟩
  | 107 => ⟨S50000, .f32⟩
  | 108 => ⟨S50000, .f32⟩
  | 109 => ⟨S50000x1, .f32⟩
  | 110 => ⟨S50000x128, .f32⟩
  | 111 => ⟨S50000x128, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x128, .f32⟩
  | 121 => ⟨S_, .f32⟩
  | 122 => ⟨S50000x128, .f32⟩
  | 123 => ⟨S800000x1, .i32⟩
  | 124 => ⟨S50000x128, .f32⟩
  | 125 => ⟨S1x50000, .f32⟩
  | 126 => ⟨S50000, .f32⟩
  | 127 => ⟨S_, .f32⟩
  | _ => ⟨S50000x128, .f32⟩

abbrev hbmTy0_3 (i : Nat) : BufTy := match i % 128 with
  | 0 => ⟨S50000, .f32⟩
  | 1 => ⟨S50000, .f32⟩
  | 2 => ⟨S50000, .f32⟩
  | 3 => ⟨S50000x1, .f32⟩
  | 4 => ⟨S50000x128, .f32⟩
  | 5 => ⟨S50000x128, .f32⟩
  | 6 => ⟨S1x50000x128, .f32⟩
  | 7 => ⟨S1x50000x128, .f32⟩
  | 8 => ⟨S1x50000x128, .f32⟩
  | 9 => ⟨S3x50000x128, .f32⟩
  | 10 => ⟨S3x1x128, .f32⟩
  | 11 => ⟨S50000x128, .f32⟩
  | 12 => ⟨S1x3x128x128, .f32⟩
  | 13 => ⟨S3x128x128, .f32⟩
  | 14 => ⟨S1x3x128, .f32⟩
  | 15 => ⟨S3x128, .f32⟩
  | 16 => ⟨S1x800000, .i32⟩
  | 17 => ⟨S800000, .i32⟩
  | 18 => ⟨S1x800000, .i32⟩
  | 19 => ⟨S800000, .i32⟩
  | 20 => ⟨S1x50000, .f32⟩
  | 21 => ⟨S50000, .f32⟩
  | 22 => ⟨S_, .f32⟩
  | 23 => ⟨S50000, .f32⟩
  | 24 => ⟨S50000, .f32⟩
  | 25 => ⟨S50000, .f32⟩
  | 26 => ⟨S50000x1, .f32⟩
  | 27 => ⟨S50000x128, .f32⟩
  | 28 => ⟨S50000x128, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S1x50000, .f32⟩
  | 43 => ⟨S50000, .f32⟩
  | 44 => ⟨S_, .f32⟩
  | 45 => ⟨S50000, .f32⟩
  | 46 => ⟨S50000, .f32⟩
  | 47 => ⟨S50000, .f32⟩
  | 48 => ⟨S50000x1, .f32⟩
  | 49 => ⟨S50000x128, .f32⟩
  | 50 => ⟨S50000x128, .f32⟩
  | 51 => ⟨S1x800000, .i32⟩
  | 52 => ⟨S800000, .i32⟩
  | 53 => ⟨S1x800000, .i32⟩
  | 54 => ⟨S800000, .i32⟩
  | 55 => ⟨S1x50000, .f32⟩
  | 56 => ⟨S50000, .f32⟩
  | 57 => ⟨S_, .f32⟩
  | 58 => ⟨S50000, .f32⟩
  | 59 => ⟨S50000, .f32⟩
  | 60 => ⟨S50000, .f32⟩
  | 61 => ⟨S50000x1, .f32⟩
  | 62 => ⟨S50000x128, .f32⟩
  | 63 => ⟨S50000x128, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S1x50000, .f32⟩
  | 78 => ⟨S50000, .f32⟩
  | 79 => ⟨S_, .f32⟩
  | 80 => ⟨S50000, .f32⟩
  | 81 => ⟨S50000, .f32⟩
  | 82 => ⟨S50000, .f32⟩
  | 83 => ⟨S50000x1, .f32⟩
  | 84 => ⟨S50000x128, .f32⟩
  | 85 => ⟨S50000x128, .f32⟩
  | 86 => ⟨S1x800000, .i32⟩
  | 87 => ⟨S800000, .i32⟩
  | 88 => ⟨S1x800000, .i32⟩
  | 89 => ⟨S800000, .i32⟩
  | 90 => ⟨S1x50000, .f32⟩
  | 91 => ⟨S50000, .f32⟩
  | 92 => ⟨S_, .f32⟩
  | 93 => ⟨S50000, .f32⟩
  | 94 => ⟨S50000, .f32⟩
  | 95 => ⟨S50000, .f32⟩
  | 96 => ⟨S50000x1, .f32⟩
  | 97 => ⟨S50000x128, .f32⟩
  | 98 => ⟨S50000x128, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x128, .f32⟩
  | 108 => ⟨S_, .f32⟩
  | 109 => ⟨S50000x128, .f32⟩
  | 110 => ⟨S800000x1, .i32⟩
  | 111 => ⟨S50000x128, .f32⟩
  | 112 => ⟨S1x50000, .f32⟩
  | 113 => ⟨S50000, .f32⟩
  | 114 => ⟨S_, .f32⟩
  | 115 => ⟨S50000, .f32⟩
  | 116 => ⟨S50000, .f32⟩
  | 117 => ⟨S50000, .f32⟩
  | 118 => ⟨S50000x1, .f32⟩
  | 119 => ⟨S50000x128, .f32⟩
  | 120 => ⟨S50000x128, .f32⟩
  | 121 => ⟨S1x50000x128, .f32⟩
  | 122 => ⟨S1x50000x128, .f32⟩
  | 123 => ⟨S1x50000x128, .f32⟩
  | 124 => ⟨S3x50000x128, .f32⟩
  | 125 => ⟨S3x1x128, .f32⟩
  | 126 => ⟨S50000x128, .f32⟩
  | 127 => ⟨S1x3x128x128, .f32⟩
  | _ => ⟨S50000x128, .f32⟩

abbrev hbmTy0_4 (i : Nat) : BufTy := match i % 128 with
  | 0 => ⟨S3x128x128, .f32⟩
  | 1 => ⟨S1x3x128, .f32⟩
  | 2 => ⟨S3x128, .f32⟩
  | 3 => ⟨S1x800000, .i32⟩
  | 4 => ⟨S800000, .i32⟩
  | 5 => ⟨S1x800000, .i32⟩
  | 6 => ⟨S800000, .i32⟩
  | 7 => ⟨S1x50000, .f32⟩
  | 8 => ⟨S50000, .f32⟩
  | 9 => ⟨S_, .f32⟩
  | 10 => ⟨S50000, .f32⟩
  | 11 => ⟨S50000, .f32⟩
  | 12 => ⟨S50000, .f32⟩
  | 13 => ⟨S50000x1, .f32⟩
  | 14 => ⟨S50000x128, .f32⟩
  | 15 => ⟨S50000x128, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S1x50000, .f32⟩
  | 30 => ⟨S50000, .f32⟩
  | 31 => ⟨S_, .f32⟩
  | 32 => ⟨S50000, .f32⟩
  | 33 => ⟨S50000, .f32⟩
  | 34 => ⟨S50000, .f32⟩
  | 35 => ⟨S50000x1, .f32⟩
  | 36 => ⟨S50000x128, .f32⟩
  | 37 => ⟨S50000x128, .f32⟩
  | 38 => ⟨S1x800000, .i32⟩
  | 39 => ⟨S800000, .i32⟩
  | 40 => ⟨S1x800000, .i32⟩
  | 41 => ⟨S800000, .i32⟩
  | 42 => ⟨S1x50000, .f32⟩
  | 43 => ⟨S50000, .f32⟩
  | 44 => ⟨S_, .f32⟩
  | 45 => ⟨S50000, .f32⟩
  | 46 => ⟨S50000, .f32⟩
  | 47 => ⟨S50000, .f32⟩
  | 48 => ⟨S50000x1, .f32⟩
  | 49 => ⟨S50000x128, .f32⟩
  | 50 => ⟨S50000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S1x50000, .f32⟩
  | 65 => ⟨S50000, .f32⟩
  | 66 => ⟨S_, .f32⟩
  | 67 => ⟨S50000, .f32⟩
  | 68 => ⟨S50000, .f32⟩
  | 69 => ⟨S50000, .f32⟩
  | 70 => ⟨S50000x1, .f32⟩
  | 71 => ⟨S50000x128, .f32⟩
  | 72 => ⟨S50000x128, .f32⟩
  | 73 => ⟨S1x800000, .i32⟩
  | 74 => ⟨S800000, .i32⟩
  | 75 => ⟨S1x800000, .i32⟩
  | 76 => ⟨S800000, .i32⟩
  | 77 => ⟨S1x50000, .f32⟩
  | 78 => ⟨S50000, .f32⟩
  | 79 => ⟨S_, .f32⟩
  | 80 => ⟨S50000, .f32⟩
  | 81 => ⟨S50000, .f32⟩
  | 82 => ⟨S50000, .f32⟩
  | 83 => ⟨S50000x1, .f32⟩
  | 84 => ⟨S50000x128, .f32⟩
  | 85 => ⟨S50000x128, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x128, .f32⟩
  | 95 => ⟨S_, .f32⟩
  | 96 => ⟨S50000x128, .f32⟩
  | 97 => ⟨S800000x1, .i32⟩
  | 98 => ⟨S50000x128, .f32⟩
  | 99 => ⟨S1x50000, .f32⟩
  | 100 => ⟨S50000, .f32⟩
  | 101 => ⟨S_, .f32⟩
  | 102 => ⟨S50000, .f32⟩
  | 103 => ⟨S50000, .f32⟩
  | 104 => ⟨S50000, .f32⟩
  | 105 => ⟨S50000x1, .f32⟩
  | 106 => ⟨S50000x128, .f32⟩
  | 107 => ⟨S50000x128, .f32⟩
  | 108 => ⟨S1x50000x128, .f32⟩
  | 109 => ⟨S1x50000x128, .f32⟩
  | 110 => ⟨S1x50000x128, .f32⟩
  | 111 => ⟨S3x50000x128, .f32⟩
  | 112 => ⟨S3x1x128, .f32⟩
  | 113 => ⟨S50000x128, .f32⟩
  | 114 => ⟨S1x64, .f32⟩
  | 115 => ⟨S50000x64, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x128, .f32⟩

abbrev bufTy : (tb : Table) → Fin (tcTables nBuf tb) → BufTy
  | .hbm, ⟨i, _⟩ => hbmTy i
  | .local _ .vmem, ⟨0, _⟩ => ⟨S1x2000x128, .f32⟩
  | .local _ .vmem, ⟨1, _⟩ => ⟨S1x2000x128, .f32⟩
  | .local _ .vmem, ⟨2, _⟩ => ⟨S1x128x128, .f32⟩
  | .local _ .vmem, ⟨3, _⟩ => ⟨S1x128x128, .f32⟩
  | .local _ .vmem, ⟨4, _⟩ => ⟨S1x1x128, .f32⟩
  | .local _ .vmem, ⟨5, _⟩ => ⟨S1x1x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S1x2000x128, .f32⟩
  | .local _ .vmem, ⟨10, _⟩ => ⟨S1x2000x128, .f32⟩
  | .local _ .vmem, ⟨11, _⟩ => ⟨S1x128x128, .f32⟩
  | .local _ .vmem, ⟨12, _⟩ => ⟨S1x128x128, .f32⟩
  | .local _ .vmem, ⟨13, _⟩ => ⟨S1x1x128, .f32⟩
  | .local _ .vmem, ⟨14, _⟩ => ⟨S1x1x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S1x2000x128, .f32⟩
  | .local _ .vmem, ⟨19, _⟩ => ⟨S1x2000x128, .f32⟩
  | .local _ .vmem, ⟨20, _⟩ => ⟨S1x128x128, .f32⟩
  | .local _ .vmem, ⟨21, _⟩ => ⟨S1x128x128, .f32⟩
  | .local _ .vmem, ⟨22, _⟩ => ⟨S1x1x128, .f32⟩
  | .local _ .vmem, ⟨23, _⟩ => ⟨S1x1x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S1x2000x128, .f32⟩
  | .local _ .vmem, ⟨28, _⟩ => ⟨S1x2000x128, .f32⟩
  | .local _ .vmem, ⟨29, _⟩ => ⟨S1x128x128, .f32⟩
  | .local _ .vmem, ⟨30, _⟩ => ⟨S1x128x128, .f32⟩
  | .local _ .vmem, ⟨31, _⟩ => ⟨S1x1x128, .f32⟩
  | .local _ .vmem, ⟨32, _⟩ => ⟨S1x1x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S1x2000x128, .f32⟩
  | .local _ .vmem, ⟨37, _⟩ => ⟨S1x2000x128, .f32⟩
  | .local _ .vmem, ⟨38, _⟩ => ⟨S1x128x128, .f32⟩
  | .local _ .vmem, ⟨39, _⟩ => ⟨S1x128x128, .f32⟩
  | .local _ .vmem, ⟨40, _⟩ => ⟨S1x1x128, .f32⟩
  | .local _ .vmem, ⟨41, _⟩ => ⟨S1x1x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S128x64, .f32⟩
  | .local _ .vmem, ⟨48, _⟩ => ⟨S1x64, .f32⟩
  | .local _ .vmem, ⟨49, _⟩ => ⟨S2000x64, .f32⟩
  | .local _ .vmem, ⟨50, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c : Ref sig .tc := ⟨.hbm, 68, rfl⟩
abbrev main_v51 : Ref sig .tc := ⟨.hbm, 69, rfl⟩
abbrev main_v52 : Ref sig .tc := ⟨.hbm, 70, rfl⟩
abbrev main_c_7 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_8 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_10 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_c_11 : Ref sig .tc := ⟨.hbm, 103, rfl⟩
abbrev main_v81 : Ref sig .tc := ⟨.hbm, 104, rfl⟩
abbrev main_v82 : Ref sig .tc := ⟨.hbm, 105, rfl⟩
abbrev main_c_12 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_13 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_14 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_cst_15 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_c_16 : Ref sig .tc := ⟨.hbm, 138, rfl⟩
abbrev main_v111 : Ref sig .tc := ⟨.hbm, 139, rfl⟩
abbrev main_v112 : Ref sig .tc := ⟨.hbm, 140, rfl⟩
abbrev main_c_17 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_cst_18 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_cst_19 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_cst_20 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_c_21 : Ref sig .tc := ⟨.hbm, 183, rfl⟩
abbrev main_v151 : Ref sig .tc := ⟨.hbm, 184, rfl⟩
abbrev main_v152 : Ref sig .tc := ⟨.hbm, 185, rfl⟩
abbrev main_c_22 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_cst_23 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_cst_24 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_cst_25 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_c_26 : Ref sig .tc := ⟨.hbm, 218, rfl⟩
abbrev main_v181 : Ref sig .tc := ⟨.hbm, 219, rfl⟩
abbrev main_v182 : Ref sig .tc := ⟨.hbm, 220, rfl⟩
abbrev main_c_27 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_cst_28 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_cst_29 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_cst_30 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_c_31 : Ref sig .tc := ⟨.hbm, 253, rfl⟩
abbrev main_v211 : Ref sig .tc := ⟨.hbm, 254, rfl⟩
abbrev main_v212 : Ref sig .tc := ⟨.hbm, 255, rfl⟩
abbrev main_c_32 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_cst_33 : Ref sig .tc := ⟨.hbm, 262, rfl⟩
abbrev main_v218 : Ref sig .tc := ⟨.hbm, 263, rfl⟩
abbrev main_v219 : Ref sig .tc := ⟨.hbm, 264, rfl⟩
abbrev main_v220 : Ref sig .tc := ⟨.hbm, 265, rfl⟩
abbrev main_v221 : Ref sig .tc := ⟨.hbm, 266, rfl⟩
abbrev main_v222 : Ref sig .tc := ⟨.hbm, 267, rfl⟩
abbrev main_cst_34 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩
abbrev main_v228 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_cst_35 : Ref sig .tc := ⟨.hbm, 291, rfl⟩
abbrev main_v245 : Ref sig .tc := ⟨.hbm, 292, rfl⟩
abbrev main_v246 : Ref sig .tc := ⟨.hbm, 293, rfl⟩
abbrev main_v247 : Ref sig .tc := ⟨.hbm, 294, rfl⟩
abbrev main_v248 : Ref sig .tc := ⟨.hbm, 295, rfl⟩
abbrev main_v249 : Ref sig .tc := ⟨.hbm, 296, rfl⟩
abbrev main_v250 : Ref sig .tc := ⟨.hbm, 297, rfl⟩
abbrev main_c_36 : Ref sig .tc := ⟨.hbm, 298, rfl⟩
abbrev main_v251 : Ref sig .tc := ⟨.hbm, 299, rfl⟩
abbrev main_v252 : Ref sig .tc := ⟨.hbm, 300, rfl⟩
abbrev main_c_37 : Ref sig .tc := ⟨.hbm, 301, rfl⟩
abbrev main_v253 : Ref sig .tc := ⟨.hbm, 302, rfl⟩
abbrev main_v254 : Ref sig .tc := ⟨.hbm, 303, rfl⟩
abbrev main_v255 : Ref sig .tc := ⟨.hbm, 304, rfl⟩
abbrev main_v256 : Ref sig .tc := ⟨.hbm, 305, rfl⟩
abbrev main_v257 : Ref sig .tc := ⟨.hbm, 306, rfl⟩
abbrev main_cst_38 : Ref sig .tc := ⟨.hbm, 307, rfl⟩
abbrev main_v258 : Ref sig .tc := ⟨.hbm, 308, rfl⟩
abbrev main_v259 : Ref sig .tc := ⟨.hbm, 309, rfl⟩
abbrev main_v260 : Ref sig .tc := ⟨.hbm, 310, rfl⟩
abbrev main_v261 : Ref sig .tc := ⟨.hbm, 311, rfl⟩
abbrev main_v262 : Ref sig .tc := ⟨.hbm, 312, rfl⟩
abbrev main_cst_39 : Ref sig .tc := ⟨.hbm, 313, rfl⟩
abbrev main_v263 : Ref sig .tc := ⟨.hbm, 314, rfl⟩
abbrev main_v264 : Ref sig .tc := ⟨.hbm, 315, rfl⟩
abbrev main_v265 : Ref sig .tc := ⟨.hbm, 316, rfl⟩
abbrev main_v266 : Ref sig .tc := ⟨.hbm, 317, rfl⟩
abbrev main_v267 : Ref sig .tc := ⟨.hbm, 318, rfl⟩
abbrev main_v268 : Ref sig .tc := ⟨.hbm, 319, rfl⟩
abbrev main_v269 : Ref sig .tc := ⟨.hbm, 320, rfl⟩
abbrev main_v270 : Ref sig .tc := ⟨.hbm, 321, rfl⟩
abbrev main_v271 : Ref sig .tc := ⟨.hbm, 322, rfl⟩
abbrev main_v272 : Ref sig .tc := ⟨.hbm, 323, rfl⟩
abbrev main_v273 : Ref sig .tc := ⟨.hbm, 324, rfl⟩
abbrev main_v274 : Ref sig .tc := ⟨.hbm, 325, rfl⟩
abbrev main_cst_40 : Ref sig .tc := ⟨.hbm, 326, rfl⟩
abbrev main_v275 : Ref sig .tc := ⟨.hbm, 327, rfl⟩
abbrev main_v276 : Ref sig .tc := ⟨.hbm, 328, rfl⟩
abbrev main_v277 : Ref sig .tc := ⟨.hbm, 329, rfl⟩
abbrev main_v278 : Ref sig .tc := ⟨.hbm, 330, rfl⟩
abbrev main_v279 : Ref sig .tc := ⟨.hbm, 331, rfl⟩
abbrev main_v280 : Ref sig .tc := ⟨.hbm, 332, rfl⟩
abbrev main_c_41 : Ref sig .tc := ⟨.hbm, 333, rfl⟩
abbrev main_v281 : Ref sig .tc := ⟨.hbm, 334, rfl⟩
abbrev main_v282 : Ref sig .tc := ⟨.hbm, 335, rfl⟩
abbrev main_c_42 : Ref sig .tc := ⟨.hbm, 336, rfl⟩
abbrev main_v283 : Ref sig .tc := ⟨.hbm, 337, rfl⟩
abbrev main_v284 : Ref sig .tc := ⟨.hbm, 338, rfl⟩
abbrev main_v285 : Ref sig .tc := ⟨.hbm, 339, rfl⟩
abbrev main_v286 : Ref sig .tc := ⟨.hbm, 340, rfl⟩
abbrev main_v287 : Ref sig .tc := ⟨.hbm, 341, rfl⟩
abbrev main_cst_43 : Ref sig .tc := ⟨.hbm, 342, rfl⟩
abbrev main_v288 : Ref sig .tc := ⟨.hbm, 343, rfl⟩
abbrev main_v289 : Ref sig .tc := ⟨.hbm, 344, rfl⟩
abbrev main_v290 : Ref sig .tc := ⟨.hbm, 345, rfl⟩
abbrev main_v291 : Ref sig .tc := ⟨.hbm, 346, rfl⟩
abbrev main_v292 : Ref sig .tc := ⟨.hbm, 347, rfl⟩
abbrev main_cst_44 : Ref sig .tc := ⟨.hbm, 348, rfl⟩
abbrev main_v293 : Ref sig .tc := ⟨.hbm, 349, rfl⟩
abbrev main_v294 : Ref sig .tc := ⟨.hbm, 350, rfl⟩
abbrev main_v295 : Ref sig .tc := ⟨.hbm, 351, rfl⟩
abbrev main_v296 : Ref sig .tc := ⟨.hbm, 352, rfl⟩
abbrev main_v297 : Ref sig .tc := ⟨.hbm, 353, rfl⟩
abbrev main_v298 : Ref sig .tc := ⟨.hbm, 354, rfl⟩
abbrev main_v299 : Ref sig .tc := ⟨.hbm, 355, rfl⟩
abbrev main_v300 : Ref sig .tc := ⟨.hbm, 356, rfl⟩
abbrev main_v301 : Ref sig .tc := ⟨.hbm, 357, rfl⟩
abbrev main_v302 : Ref sig .tc := ⟨.hbm, 358, rfl⟩
abbrev main_v303 : Ref sig .tc := ⟨.hbm, 359, rfl⟩
abbrev main_v304 : Ref sig .tc := ⟨.hbm, 360, rfl⟩
abbrev main_cst_45 : Ref sig .tc := ⟨.hbm, 361, rfl⟩
abbrev main_v305 : Ref sig .tc := ⟨.hbm, 362, rfl⟩
abbrev main_v306 : Ref sig .tc := ⟨.hbm, 363, rfl⟩
abbrev main_v307 : Ref sig .tc := ⟨.hbm, 364, rfl⟩
abbrev main_v308 : Ref sig .tc := ⟨.hbm, 365, rfl⟩
abbrev main_v309 : Ref sig .tc := ⟨.hbm, 366, rfl⟩
abbrev main_v310 : Ref sig .tc := ⟨.hbm, 367, rfl⟩
abbrev main_c_46 : Ref sig .tc := ⟨.hbm, 368, rfl⟩
abbrev main_v311 : Ref sig .tc := ⟨.hbm, 369, rfl⟩
abbrev main_v312 : Ref sig .tc := ⟨.hbm, 370, rfl⟩
abbrev main_c_47 : Ref sig .tc := ⟨.hbm, 371, rfl⟩
abbrev main_v313 : Ref sig .tc := ⟨.hbm, 372, rfl⟩
abbrev main_v314 : Ref sig .tc := ⟨.hbm, 373, rfl⟩
abbrev main_v315 : Ref sig .tc := ⟨.hbm, 374, rfl⟩
abbrev main_v316 : Ref sig .tc := ⟨.hbm, 375, rfl⟩
abbrev main_v317 : Ref sig .tc := ⟨.hbm, 376, rfl⟩
abbrev main_cst_48 : Ref sig .tc := ⟨.hbm, 377, rfl⟩
abbrev main_v318 : Ref sig .tc := ⟨.hbm, 378, rfl⟩
abbrev main_v319 : Ref sig .tc := ⟨.hbm, 379, rfl⟩
abbrev main_v320 : Ref sig .tc := ⟨.hbm, 380, rfl⟩
abbrev main_v321 : Ref sig .tc := ⟨.hbm, 381, rfl⟩
abbrev main_v322 : Ref sig .tc := ⟨.hbm, 382, rfl⟩
abbrev main_cst_49 : Ref sig .tc := ⟨.hbm, 383, rfl⟩
abbrev main_v323 : Ref sig .tc := ⟨.hbm, 384, rfl⟩
abbrev main_v324 : Ref sig .tc := ⟨.hbm, 385, rfl⟩
abbrev main_v325 : Ref sig .tc := ⟨.hbm, 386, rfl⟩
abbrev main_v326 : Ref sig .tc := ⟨.hbm, 387, rfl⟩
abbrev main_v327 : Ref sig .tc := ⟨.hbm, 388, rfl⟩
abbrev main_v328 : Ref sig .tc := ⟨.hbm, 389, rfl⟩
abbrev main_v329 : Ref sig .tc := ⟨.hbm, 390, rfl⟩
abbrev main_v330 : Ref sig .tc := ⟨.hbm, 391, rfl⟩
abbrev main_v331 : Ref sig .tc := ⟨.hbm, 392, rfl⟩
abbrev main_v332 : Ref sig .tc := ⟨.hbm, 393, rfl⟩
abbrev main_v333 : Ref sig .tc := ⟨.hbm, 394, rfl⟩
abbrev main_v334 : Ref sig .tc := ⟨.hbm, 395, rfl⟩
abbrev main_v335 : Ref sig .tc := ⟨.hbm, 396, rfl⟩
abbrev main_v336 : Ref sig .tc := ⟨.hbm, 397, rfl⟩
abbrev main_v337 : Ref sig .tc := ⟨.hbm, 398, rfl⟩
abbrev main_v338 : Ref sig .tc := ⟨.hbm, 399, rfl⟩
abbrev main_v339 : Ref sig .tc := ⟨.hbm, 400, rfl⟩
abbrev main_v340 : Ref sig .tc := ⟨.hbm, 401, rfl⟩
abbrev main_v341 : Ref sig .tc := ⟨.hbm, 402, rfl⟩
abbrev main_v342 : Ref sig .tc := ⟨.hbm, 403, rfl⟩
abbrev main_v343 : Ref sig .tc := ⟨.hbm, 404, rfl⟩
abbrev main_v344 : Ref sig .tc := ⟨.hbm, 405, rfl⟩
abbrev main_cst_50 : Ref sig .tc := ⟨.hbm, 406, rfl⟩
abbrev main_v345 : Ref sig .tc := ⟨.hbm, 407, rfl⟩
abbrev main_v346 : Ref sig .tc := ⟨.hbm, 408, rfl⟩
abbrev main_v347 : Ref sig .tc := ⟨.hbm, 409, rfl⟩
abbrev main_v348 : Ref sig .tc := ⟨.hbm, 410, rfl⟩
abbrev main_v349 : Ref sig .tc := ⟨.hbm, 411, rfl⟩
abbrev main_v350 : Ref sig .tc := ⟨.hbm, 412, rfl⟩
abbrev main_c_51 : Ref sig .tc := ⟨.hbm, 413, rfl⟩
abbrev main_v351 : Ref sig .tc := ⟨.hbm, 414, rfl⟩
abbrev main_v352 : Ref sig .tc := ⟨.hbm, 415, rfl⟩
abbrev main_c_52 : Ref sig .tc := ⟨.hbm, 416, rfl⟩
abbrev main_v353 : Ref sig .tc := ⟨.hbm, 417, rfl⟩
abbrev main_v354 : Ref sig .tc := ⟨.hbm, 418, rfl⟩
abbrev main_v355 : Ref sig .tc := ⟨.hbm, 419, rfl⟩
abbrev main_v356 : Ref sig .tc := ⟨.hbm, 420, rfl⟩
abbrev main_v357 : Ref sig .tc := ⟨.hbm, 421, rfl⟩
abbrev main_cst_53 : Ref sig .tc := ⟨.hbm, 422, rfl⟩
abbrev main_v358 : Ref sig .tc := ⟨.hbm, 423, rfl⟩
abbrev main_v359 : Ref sig .tc := ⟨.hbm, 424, rfl⟩
abbrev main_v360 : Ref sig .tc := ⟨.hbm, 425, rfl⟩
abbrev main_v361 : Ref sig .tc := ⟨.hbm, 426, rfl⟩
abbrev main_v362 : Ref sig .tc := ⟨.hbm, 427, rfl⟩
abbrev main_cst_54 : Ref sig .tc := ⟨.hbm, 428, rfl⟩
abbrev main_v363 : Ref sig .tc := ⟨.hbm, 429, rfl⟩
abbrev main_v364 : Ref sig .tc := ⟨.hbm, 430, rfl⟩
abbrev main_v365 : Ref sig .tc := ⟨.hbm, 431, rfl⟩
abbrev main_v366 : Ref sig .tc := ⟨.hbm, 432, rfl⟩
abbrev main_v367 : Ref sig .tc := ⟨.hbm, 433, rfl⟩
abbrev main_v368 : Ref sig .tc := ⟨.hbm, 434, rfl⟩
abbrev main_v369 : Ref sig .tc := ⟨.hbm, 435, rfl⟩
abbrev main_v370 : Ref sig .tc := ⟨.hbm, 436, rfl⟩
abbrev main_v371 : Ref sig .tc := ⟨.hbm, 437, rfl⟩
abbrev main_v372 : Ref sig .tc := ⟨.hbm, 438, rfl⟩
abbrev main_v373 : Ref sig .tc := ⟨.hbm, 439, rfl⟩
abbrev main_v374 : Ref sig .tc := ⟨.hbm, 440, rfl⟩
abbrev main_cst_55 : Ref sig .tc := ⟨.hbm, 441, rfl⟩
abbrev main_v375 : Ref sig .tc := ⟨.hbm, 442, rfl⟩
abbrev main_v376 : Ref sig .tc := ⟨.hbm, 443, rfl⟩
abbrev main_v377 : Ref sig .tc := ⟨.hbm, 444, rfl⟩
abbrev main_v378 : Ref sig .tc := ⟨.hbm, 445, rfl⟩
abbrev main_v379 : Ref sig .tc := ⟨.hbm, 446, rfl⟩
abbrev main_v380 : Ref sig .tc := ⟨.hbm, 447, rfl⟩
abbrev main_c_56 : Ref sig .tc := ⟨.hbm, 448, rfl⟩
abbrev main_v381 : Ref sig .tc := ⟨.hbm, 449, rfl⟩
abbrev main_v382 : Ref sig .tc := ⟨.hbm, 450, rfl⟩
abbrev main_c_57 : Ref sig .tc := ⟨.hbm, 451, rfl⟩
abbrev main_v383 : Ref sig .tc := ⟨.hbm, 452, rfl⟩
abbrev main_v384 : Ref sig .tc := ⟨.hbm, 453, rfl⟩
abbrev main_v385 : Ref sig .tc := ⟨.hbm, 454, rfl⟩
abbrev main_v386 : Ref sig .tc := ⟨.hbm, 455, rfl⟩
abbrev main_v387 : Ref sig .tc := ⟨.hbm, 456, rfl⟩
abbrev main_cst_58 : Ref sig .tc := ⟨.hbm, 457, rfl⟩
abbrev main_v388 : Ref sig .tc := ⟨.hbm, 458, rfl⟩
abbrev main_v389 : Ref sig .tc := ⟨.hbm, 459, rfl⟩
abbrev main_v390 : Ref sig .tc := ⟨.hbm, 460, rfl⟩
abbrev main_v391 : Ref sig .tc := ⟨.hbm, 461, rfl⟩
abbrev main_v392 : Ref sig .tc := ⟨.hbm, 462, rfl⟩
abbrev main_cst_59 : Ref sig .tc := ⟨.hbm, 463, rfl⟩
abbrev main_v393 : Ref sig .tc := ⟨.hbm, 464, rfl⟩
abbrev main_v394 : Ref sig .tc := ⟨.hbm, 465, rfl⟩
abbrev main_v395 : Ref sig .tc := ⟨.hbm, 466, rfl⟩
abbrev main_v396 : Ref sig .tc := ⟨.hbm, 467, rfl⟩
abbrev main_v397 : Ref sig .tc := ⟨.hbm, 468, rfl⟩
abbrev main_v398 : Ref sig .tc := ⟨.hbm, 469, rfl⟩
abbrev main_v399 : Ref sig .tc := ⟨.hbm, 470, rfl⟩
abbrev main_v400 : Ref sig .tc := ⟨.hbm, 471, rfl⟩
abbrev main_v401 : Ref sig .tc := ⟨.hbm, 472, rfl⟩
abbrev main_v402 : Ref sig .tc := ⟨.hbm, 473, rfl⟩
abbrev main_v403 : Ref sig .tc := ⟨.hbm, 474, rfl⟩
abbrev main_v404 : Ref sig .tc := ⟨.hbm, 475, rfl⟩
abbrev main_cst_60 : Ref sig .tc := ⟨.hbm, 476, rfl⟩
abbrev main_v405 : Ref sig .tc := ⟨.hbm, 477, rfl⟩
abbrev main_v406 : Ref sig .tc := ⟨.hbm, 478, rfl⟩
abbrev main_v407 : Ref sig .tc := ⟨.hbm, 479, rfl⟩
abbrev main_v408 : Ref sig .tc := ⟨.hbm, 480, rfl⟩
abbrev main_v409 : Ref sig .tc := ⟨.hbm, 481, rfl⟩
abbrev main_v410 : Ref sig .tc := ⟨.hbm, 482, rfl⟩
abbrev main_c_61 : Ref sig .tc := ⟨.hbm, 483, rfl⟩
abbrev main_v411 : Ref sig .tc := ⟨.hbm, 484, rfl⟩
abbrev main_v412 : Ref sig .tc := ⟨.hbm, 485, rfl⟩
abbrev main_c_62 : Ref sig .tc := ⟨.hbm, 486, rfl⟩
abbrev main_v413 : Ref sig .tc := ⟨.hbm, 487, rfl⟩
abbrev main_v414 : Ref sig .tc := ⟨.hbm, 488, rfl⟩
abbrev main_v415 : Ref sig .tc := ⟨.hbm, 489, rfl⟩
abbrev main_v416 : Ref sig .tc := ⟨.hbm, 490, rfl⟩
abbrev main_v417 : Ref sig .tc := ⟨.hbm, 491, rfl⟩
abbrev main_cst_63 : Ref sig .tc := ⟨.hbm, 492, rfl⟩
abbrev main_v418 : Ref sig .tc := ⟨.hbm, 493, rfl⟩
abbrev main_v419 : Ref sig .tc := ⟨.hbm, 494, rfl⟩
abbrev main_v420 : Ref sig .tc := ⟨.hbm, 495, rfl⟩
abbrev main_v421 : Ref sig .tc := ⟨.hbm, 496, rfl⟩
abbrev main_v422 : Ref sig .tc := ⟨.hbm, 497, rfl⟩
abbrev main_cst_64 : Ref sig .tc := ⟨.hbm, 498, rfl⟩
abbrev main_v423 : Ref sig .tc := ⟨.hbm, 499, rfl⟩
abbrev main_v424 : Ref sig .tc := ⟨.hbm, 500, rfl⟩
abbrev main_v425 : Ref sig .tc := ⟨.hbm, 501, rfl⟩
abbrev main_v426 : Ref sig .tc := ⟨.hbm, 502, rfl⟩
abbrev main_v427 : Ref sig .tc := ⟨.hbm, 503, rfl⟩
abbrev main_v428 : Ref sig .tc := ⟨.hbm, 504, rfl⟩
abbrev main_v429 : Ref sig .tc := ⟨.hbm, 505, rfl⟩
abbrev main_v430 : Ref sig .tc := ⟨.hbm, 506, rfl⟩
abbrev main_v431 : Ref sig .tc := ⟨.hbm, 507, rfl⟩
abbrev main_v432 : Ref sig .tc := ⟨.hbm, 508, rfl⟩
abbrev main_v433 : Ref sig .tc := ⟨.hbm, 509, rfl⟩
abbrev main_v434 : Ref sig .tc := ⟨.hbm, 510, rfl⟩
abbrev main_v435 : Ref sig .tc := ⟨.hbm, 511, rfl⟩
abbrev main_v436 : Ref sig .tc := ⟨.hbm, 512, rfl⟩
abbrev main_v437 : Ref sig .tc := ⟨.hbm, 513, rfl⟩
abbrev main_v438 : Ref sig .tc := ⟨.hbm, 514, rfl⟩
abbrev main_v439 : Ref sig .tc := ⟨.hbm, 515, rfl⟩
abbrev main_v440 : Ref sig .tc := ⟨.hbm, 516, rfl⟩
abbrev main_v441 : Ref sig .tc := ⟨.hbm, 517, rfl⟩
abbrev main_v442 : Ref sig .tc := ⟨.hbm, 518, rfl⟩
abbrev main_v443 : Ref sig .tc := ⟨.hbm, 519, rfl⟩
abbrev main_v444 : Ref sig .tc := ⟨.hbm, 520, rfl⟩
abbrev main_cst_65 : Ref sig .tc := ⟨.hbm, 521, rfl⟩
abbrev main_v445 : Ref sig .tc := ⟨.hbm, 522, rfl⟩
abbrev main_v446 : Ref sig .tc := ⟨.hbm, 523, rfl⟩
abbrev main_v447 : Ref sig .tc := ⟨.hbm, 524, rfl⟩
abbrev main_v448 : Ref sig .tc := ⟨.hbm, 525, rfl⟩
abbrev main_v449 : Ref sig .tc := ⟨.hbm, 526, rfl⟩
abbrev main_v450 : Ref sig .tc := ⟨.hbm, 527, rfl⟩
abbrev main_c_66 : Ref sig .tc := ⟨.hbm, 528, rfl⟩
abbrev main_v451 : Ref sig .tc := ⟨.hbm, 529, rfl⟩
abbrev main_v452 : Ref sig .tc := ⟨.hbm, 530, rfl⟩
abbrev main_c_67 : Ref sig .tc := ⟨.hbm, 531, rfl⟩
abbrev main_v453 : Ref sig .tc := ⟨.hbm, 532, rfl⟩
abbrev main_v454 : Ref sig .tc := ⟨.hbm, 533, rfl⟩
abbrev main_v455 : Ref sig .tc := ⟨.hbm, 534, rfl⟩
abbrev main_v456 : Ref sig .tc := ⟨.hbm, 535, rfl⟩
abbrev main_v457 : Ref sig .tc := ⟨.hbm, 536, rfl⟩
abbrev main_cst_68 : Ref sig .tc := ⟨.hbm, 537, rfl⟩
abbrev main_v458 : Ref sig .tc := ⟨.hbm, 538, rfl⟩
abbrev main_v459 : Ref sig .tc := ⟨.hbm, 539, rfl⟩
abbrev main_v460 : Ref sig .tc := ⟨.hbm, 540, rfl⟩
abbrev main_v461 : Ref sig .tc := ⟨.hbm, 541, rfl⟩
abbrev main_v462 : Ref sig .tc := ⟨.hbm, 542, rfl⟩
abbrev main_cst_69 : Ref sig .tc := ⟨.hbm, 543, rfl⟩
abbrev main_v463 : Ref sig .tc := ⟨.hbm, 544, rfl⟩
abbrev main_v464 : Ref sig .tc := ⟨.hbm, 545, rfl⟩
abbrev main_v465 : Ref sig .tc := ⟨.hbm, 546, rfl⟩
abbrev main_v466 : Ref sig .tc := ⟨.hbm, 547, rfl⟩
abbrev main_v467 : Ref sig .tc := ⟨.hbm, 548, rfl⟩
abbrev main_v468 : Ref sig .tc := ⟨.hbm, 549, rfl⟩
abbrev main_v469 : Ref sig .tc := ⟨.hbm, 550, rfl⟩
abbrev main_v470 : Ref sig .tc := ⟨.hbm, 551, rfl⟩
abbrev main_v471 : Ref sig .tc := ⟨.hbm, 552, rfl⟩
abbrev main_v472 : Ref sig .tc := ⟨.hbm, 553, rfl⟩
abbrev main_v473 : Ref sig .tc := ⟨.hbm, 554, rfl⟩
abbrev main_v474 : Ref sig .tc := ⟨.hbm, 555, rfl⟩
abbrev main_cst_70 : Ref sig .tc := ⟨.hbm, 556, rfl⟩
abbrev main_v475 : Ref sig .tc := ⟨.hbm, 557, rfl⟩
abbrev main_v476 : Ref sig .tc := ⟨.hbm, 558, rfl⟩
abbrev main_v477 : Ref sig .tc := ⟨.hbm, 559, rfl⟩
abbrev main_v478 : Ref sig .tc := ⟨.hbm, 560, rfl⟩
abbrev main_v479 : Ref sig .tc := ⟨.hbm, 561, rfl⟩
abbrev main_v480 : Ref sig .tc := ⟨.hbm, 562, rfl⟩
abbrev main_c_71 : Ref sig .tc := ⟨.hbm, 563, rfl⟩
abbrev main_v481 : Ref sig .tc := ⟨.hbm, 564, rfl⟩
abbrev main_v482 : Ref sig .tc := ⟨.hbm, 565, rfl⟩
abbrev main_c_72 : Ref sig .tc := ⟨.hbm, 566, rfl⟩
abbrev main_v483 : Ref sig .tc := ⟨.hbm, 567, rfl⟩
abbrev main_v484 : Ref sig .tc := ⟨.hbm, 568, rfl⟩
abbrev main_v485 : Ref sig .tc := ⟨.hbm, 569, rfl⟩
abbrev main_v486 : Ref sig .tc := ⟨.hbm, 570, rfl⟩
abbrev main_v487 : Ref sig .tc := ⟨.hbm, 571, rfl⟩
abbrev main_cst_73 : Ref sig .tc := ⟨.hbm, 572, rfl⟩
abbrev main_v488 : Ref sig .tc := ⟨.hbm, 573, rfl⟩
abbrev main_v489 : Ref sig .tc := ⟨.hbm, 574, rfl⟩
abbrev main_v490 : Ref sig .tc := ⟨.hbm, 575, rfl⟩
abbrev main_v491 : Ref sig .tc := ⟨.hbm, 576, rfl⟩
abbrev main_v492 : Ref sig .tc := ⟨.hbm, 577, rfl⟩
abbrev main_cst_74 : Ref sig .tc := ⟨.hbm, 578, rfl⟩
abbrev main_v493 : Ref sig .tc := ⟨.hbm, 579, rfl⟩
abbrev main_v494 : Ref sig .tc := ⟨.hbm, 580, rfl⟩
abbrev main_v495 : Ref sig .tc := ⟨.hbm, 581, rfl⟩
abbrev main_v496 : Ref sig .tc := ⟨.hbm, 582, rfl⟩
abbrev main_v497 : Ref sig .tc := ⟨.hbm, 583, rfl⟩
abbrev main_v498 : Ref sig .tc := ⟨.hbm, 584, rfl⟩
abbrev main_v499 : Ref sig .tc := ⟨.hbm, 585, rfl⟩
abbrev main_v500 : Ref sig .tc := ⟨.hbm, 586, rfl⟩
abbrev main_v501 : Ref sig .tc := ⟨.hbm, 587, rfl⟩
abbrev main_v502 : Ref sig .tc := ⟨.hbm, 588, rfl⟩
abbrev main_v503 : Ref sig .tc := ⟨.hbm, 589, rfl⟩
abbrev main_v504 : Ref sig .tc := ⟨.hbm, 590, rfl⟩
abbrev main_cst_75 : Ref sig .tc := ⟨.hbm, 591, rfl⟩
abbrev main_v505 : Ref sig .tc := ⟨.hbm, 592, rfl⟩
abbrev main_v506 : Ref sig .tc := ⟨.hbm, 593, rfl⟩
abbrev main_v507 : Ref sig .tc := ⟨.hbm, 594, rfl⟩
abbrev main_v508 : Ref sig .tc := ⟨.hbm, 595, rfl⟩
abbrev main_v509 : Ref sig .tc := ⟨.hbm, 596, rfl⟩
abbrev main_v510 : Ref sig .tc := ⟨.hbm, 597, rfl⟩
abbrev main_c_76 : Ref sig .tc := ⟨.hbm, 598, rfl⟩
abbrev main_v511 : Ref sig .tc := ⟨.hbm, 599, rfl⟩
abbrev main_v512 : Ref sig .tc := ⟨.hbm, 600, rfl⟩
abbrev main_c_77 : Ref sig .tc := ⟨.hbm, 601, rfl⟩
abbrev main_v513 : Ref sig .tc := ⟨.hbm, 602, rfl⟩
abbrev main_v514 : Ref sig .tc := ⟨.hbm, 603, rfl⟩
abbrev main_v515 : Ref sig .tc := ⟨.hbm, 604, rfl⟩
abbrev main_v516 : Ref sig .tc := ⟨.hbm, 605, rfl⟩
abbrev main_v517 : Ref sig .tc := ⟨.hbm, 606, rfl⟩
abbrev main_cst_78 : Ref sig .tc := ⟨.hbm, 607, rfl⟩
abbrev main_v518 : Ref sig .tc := ⟨.hbm, 608, rfl⟩
abbrev main_v519 : Ref sig .tc := ⟨.hbm, 609, rfl⟩
abbrev main_v520 : Ref sig .tc := ⟨.hbm, 610, rfl⟩
abbrev main_v521 : Ref sig .tc := ⟨.hbm, 611, rfl⟩
abbrev main_v522 : Ref sig .tc := ⟨.hbm, 612, rfl⟩
abbrev main_cst_79 : Ref sig .tc := ⟨.hbm, 613, rfl⟩
abbrev main_v523 : Ref sig .tc := ⟨.hbm, 614, rfl⟩
abbrev main_v524 : Ref sig .tc := ⟨.hbm, 615, rfl⟩
abbrev main_v525 : Ref sig .tc := ⟨.hbm, 616, rfl⟩
abbrev main_v526 : Ref sig .tc := ⟨.hbm, 617, rfl⟩
abbrev main_v527 : Ref sig .tc := ⟨.hbm, 618, rfl⟩
abbrev main_v528 : Ref sig .tc := ⟨.hbm, 619, rfl⟩
abbrev main_v529 : Ref sig .tc := ⟨.hbm, 620, rfl⟩
abbrev main_v530 : Ref sig .tc := ⟨.hbm, 621, rfl⟩
abbrev main_v531 : Ref sig .tc := ⟨.hbm, 622, rfl⟩
abbrev main_v532 : Ref sig .tc := ⟨.hbm, 623, rfl⟩
abbrev main_v533 : Ref sig .tc := ⟨.hbm, 624, rfl⟩
abbrev main_v534 : Ref sig .tc := ⟨.hbm, 625, rfl⟩
abbrev main_v535 : Ref sig .tc := ⟨.hbm, 626, rfl⟩
abbrev main_v536 : Ref sig .tc := ⟨.hbm, 627, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_scratch0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg3_1 : Ref sig .tc := ⟨.vmem, 43, rfl⟩
abbrev cc4_scratch0 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg3_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem3_1 : DmaSem sig := 45

abbrev nD : Nat := 1
abbrev τ : Topo := Topo.v7x

variable {F : FTy → Type} [FloatOps F]

abbrev grid0 : Pipeline.Grid := ⟨2, ![25, 3], ![false, false]⟩

def k0_cond2 (i : grid0.Coords) : BitVec 1 :=
  let arg1 : BitVec 32 := BitVec.ofNat 32 (i 1).val
  let c2_i32 : BitVec 32 := 2#32
  let v17 : BitVec 1 := Scalar.cmpi .eq arg1 c2_i32
  let v18 : BitVec 32 := Scalar.extui v17
  let c0_i32_13 : BitVec 32 := 0#32
  let v19 : BitVec 1 := Scalar.cmpi .ne v18 c0_i32_13
  v19

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![25, 3], ![false, false]⟩

def k1_cond2 (i : grid1.Coords) : BitVec 1 :=
  let arg1 : BitVec 32 := BitVec.ofNat 32 (i 1).val
  let c2_i32 : BitVec 32 := 2#32
  let v17 : BitVec 1 := Scalar.cmpi .eq arg1 c2_i32
  let v18 : BitVec 32 := Scalar.extui v17
  let c0_i32_13 : BitVec 32 := 0#32
  let v19 : BitVec 1 := Scalar.cmpi .ne v18 c0_i32_13
  v19

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![25, 3], ![false, false]⟩

def k2_cond2 (i : grid2.Coords) : BitVec 1 :=
  let arg1 : BitVec 32 := BitVec.ofNat 32 (i 1).val
  let c2_i32 : BitVec 32 := 2#32
  let v17 : BitVec 1 := Scalar.cmpi .eq arg1 c2_i32
  let v18 : BitVec 32 := Scalar.extui v17
  let c0_i32_13 : BitVec 32 := 0#32
  let v19 : BitVec 1 := Scalar.cmpi .ne v18 c0_i32_13
  v19

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![25, 3], ![false, false]⟩

def k3_cond2 (i : grid3.Coords) : BitVec 1 :=
  let arg1 : BitVec 32 := BitVec.ofNat 32 (i 1).val
  let c2_i32 : BitVec 32 := 2#32
  let v17 : BitVec 1 := Scalar.cmpi .eq arg1 c2_i32
  let v18 : BitVec 32 := Scalar.extui v17
  let c0_i32_13 : BitVec 32 := 0#32
  let v19 : BitVec 1 := Scalar.cmpi .ne v18 c0_i32_13
  v19

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1x2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x128x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![25, 3], ![false, false]⟩

def k4_cond2 (i : grid4.Coords) : BitVec 1 :=
  let arg1 : BitVec 32 := BitVec.ofNat 32 (i 1).val
  let c2_i32 : BitVec 32 := 2#32
  let v17 : BitVec 1 := Scalar.cmpi .eq arg1 c2_i32
  let v18 : BitVec 32 := Scalar.extui v17
  let c0_i32_13 : BitVec 32 := 0#32
  let v19 : BitVec 1 := Scalar.cmpi .ne v18 c0_i32_13
  v19

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1x2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x128x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x1x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S800000 : S_.BroadcastsInDim S800000 (![] : Fin 0 → Fin S800000.rank)
  slices_S3x800000_S1x800000_0_0 : S3x800000.Slices ![0, 0] S1x800000
  shapeCasts_S1x800000_S800000 : S1x800000.ShapeCasts S800000
  bcast_S_S50000 : S_.BroadcastsInDim S50000 (![] : Fin 0 → Fin S50000.rank)
  bcast_S800000_S800000x1_0 : S800000.BroadcastsInDim S800000x1 (![0] : Fin 1 → Fin S800000x1.rank)
  slices_S3x800000_S1x800000_1_0 : S3x800000.Slices ![1, 0] S1x800000
  slices_S3x800000_S1x800000_2_0 : S3x800000.Slices ![2, 0] S1x800000
  bcast_S50000_S1x50000_1 : S50000.BroadcastsInDim S1x50000 (![1] : Fin 1 → Fin S1x50000.rank)
  concatenates_S1x50000_S1x50000_S1x50000_S3x50000_d0 : Shape.Concatenates [S1x50000, S1x50000, S1x50000] S3x50000 0
  slices_S3x50000_S1x50000_0_0 : S3x50000.Slices ![0, 0] S1x50000
  shapeCasts_S1x50000_S50000 : S1x50000.ShapeCasts S50000
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  slices_S3x50000_S1x50000_1_0 : S3x50000.Slices ![1, 0] S1x50000
  slices_S3x50000_S1x50000_2_0 : S3x50000.Slices ![2, 0] S1x50000
  bcast_S50000x128_S1x50000x128_1_2 : S50000x128.BroadcastsInDim S1x50000x128 (![1, 2] : Fin 2 → Fin S1x50000x128.rank)
  concatenates_S1x50000x128_S1x50000x128_S1x50000x128_S3x50000x128_d0 : Shape.Concatenates [S1x50000x128, S1x50000x128, S1x50000x128] S3x50000x128 0
  shapeCasts_S3x128_S3x1x128 : S3x128.ShapeCasts S3x1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x2000x128_S1x2000x128_0_0_0 : ∀ a, (![0, 0, 0] : Fin 3 → Nat) a + S1x2000x128.size a ≤ S1x2000x128.size a
  h_S1x2000x128 : 0 < S1x2000x128.numel
  shapeCasts_S1x2000x128_S2000x128 : S1x2000x128.ShapeCasts S2000x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S2000x128 : S1x128.Broadcasts S2000x128
  slices_S4x3x128x128_S1x3x128x128_0_0_0_0 : S4x3x128x128.Slices ![0, 0, 0, 0] S1x3x128x128
  shapeCasts_S1x3x128x128_S3x128x128 : S1x3x128x128.ShapeCasts S3x128x128
  slices_S4x3x128_S1x3x128_0_0_0 : S4x3x128.Slices ![0, 0, 0] S1x3x128
  shapeCasts_S1x3x128_S3x128 : S1x3x128.ShapeCasts S3x128
  slices_S4x3x128x128_S1x3x128x128_1_0_0_0 : S4x3x128x128.Slices ![1, 0, 0, 0] S1x3x128x128
  slices_S4x3x128_S1x3x128_1_0_0 : S4x3x128.Slices ![1, 0, 0] S1x3x128
  slices_S4x3x128x128_S1x3x128x128_2_0_0_0 : S4x3x128x128.Slices ![2, 0, 0, 0] S1x3x128x128
  slices_S4x3x128_S1x3x128_2_0_0 : S4x3x128.Slices ![2, 0, 0] S1x3x128
  slices_S4x3x128x128_S1x3x128x128_3_0_0_0 : S4x3x128x128.Slices ![3, 0, 0, 0] S1x3x128x128
  slices_S4x3x128_S1x3x128_3_0_0 : S4x3x128.Slices ![3, 0, 0] S1x3x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x128.size a ≤ S3x50000x128.size a
  hwx0_0 : ∀ i : grid0.Coords, EltTy.bits .f32 = 32 ∨ (Rect.block (s := S3x50000x128) S1x2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S3x128x128.size a
  hwx0_1 : ∀ i : grid0.Coords, EltTy.bits .f32 = 32 ∨ (Rect.block (s := S3x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S3x1x128.size a
  hwx0_2 : ∀ i : grid0.Coords, EltTy.bits .f32 = 32 ∨ (Rect.block (s := S3x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2000x128.size a ≤ S3x50000x128.size a
  hwx1_0 : ∀ i : grid1.Coords, EltTy.bits .f32 = 32 ∨ (Rect.block (s := S3x50000x128) S1x2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x128.size a ≤ S3x128x128.size a
  hwx1_1 : ∀ i : grid1.Coords, EltTy.bits .f32 = 32 ∨ (Rect.block (s := S3x128x128) S1x128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x128.size a ≤ S3x1x128.size a
  hwx1_2 : ∀ i : grid1.Coords, EltTy.bits .f32 = 32 ∨ (Rect.block (s := S3x1x128) S1x1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2000x128.size a ≤ S3x50000x128.size a
  hwx2_0 : ∀ i : grid2.Coords, EltTy.bits .f32 = 32 ∨ (Rect.block (s := S3x50000x128) S1x2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x128x128.size a ≤ S3x128x128.size a
  hwx2_1 : ∀ i : grid2.Coords, EltTy.bits .f32 = 32 ∨ (Rect.block (s := S3x128x128) S1x128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x128.size a ≤ S3x1x128.size a
  hwx2_2 : ∀ i : grid2.Coords, EltTy.bits .f32 = 32 ∨ (Rect.block (s := S3x1x128) S1x1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x2000x128.size a ≤ S3x50000x128.size a
  hwx3_0 : ∀ i : grid3.Coords, EltTy.bits .f32 = 32 ∨ (Rect.block (s := S3x50000x128) S1x2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x128x128.size a ≤ S3x128x128.size a
  hwx3_1 : ∀ i : grid3.Coords, EltTy.bits .f32 = 32 ∨ (Rect.block (s := S3x128x128) S1x128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x128.size a ≤ S3x1x128.size a
  hwx3_2 : ∀ i : grid3.Coords, EltTy.bits .f32 = 32 ∨ (Rect.block (s := S3x1x128) S1x1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x2000x128.size a ≤ S3x50000x128.size a
  hwx4_0 : ∀ i : grid4.Coords, EltTy.bits .f32 = 32 ∨ (Rect.block (s := S3x50000x128) S1x2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x128x128.size a ≤ S3x128x128.size a
  hwx4_1 : ∀ i : grid4.Coords, EltTy.bits .f32 = 32 ∨ (Rect.block (s := S3x128x128) S1x128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1x128.size a ≤ S3x1x128.size a
  hwx4_2 : ∀ i : grid4.Coords, EltTy.bits .f32 = 32 ∨ (Rect.block (s := S3x1x128) S1x1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S50000x64.size a
  hwx5_3 : ∀ i : grid5.Coords, EltTy.bits .f32 = 32 ∨ (Rect.block (s := S50000x64) S2000x64.size (cc5_transform_3 i) (hinb5_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v132) S1x2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v133) S1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v134) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v232) S1x2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v136) S1x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v233) S1x1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v234) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v332) S1x2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v236) S1x128x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v333) S1x1x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v334) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v432) S1x2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v336) S1x128x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v433) S1x1x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v434) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v532) S1x2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v436) S1x128x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v533) S1x1x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v534) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v534) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v535) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v536) S2000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x128 : Shape := ⟨2, ![50000, 128]⟩
abbrev S3x800000 : Shape := ⟨2, ![3, 800000]⟩
abbrev S3x128x128 : Shape := ⟨3, ![3, 128, 128]⟩
abbrev S3x128 : Shape := ⟨2, ![3, 128]⟩
abbrev S4x3x128x128 : Shape := ⟨4, ![4, 3, 128, 128]⟩
abbrev S4x3x128 : Shape := ⟨3, ![4, 3, 128]⟩
abbrev S128x64 : Shape := ⟨2, ![128, 64]⟩
abbrev S64 : Shape := ⟨1, ![64]⟩
abbrev S_ : Shape := ⟨0, ![]⟩
abbrev S800000 : Shape := ⟨1, ![800000]⟩
abbrev S1x800000 : Shape := ⟨2, ![1, 800000]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x50000x128 : Shape := ⟨3, ![1, 50000, 128]⟩
abbrev S3x50000x128 : Shape := ⟨3, ![3, 50000, 128]⟩
abbrev S1x3x128x128 : Shape := ⟨4, ![1, 3, 128, 128]⟩
abbrev S1x3x128 : Shape := ⟨3, ![1, 3, 128]⟩
abbrev S50000x64 : Shape := ⟨2, ![50000, 64]⟩
abbrev S1x64 : Shape := ⟨2, ![1, 64]⟩

abbrev nBuf : Space → Nat
  | .hbm => 821
  | .vmem => 0
  | .smem => 0
  | _ => 0

abbrev hbmTy0_0 (i : Nat) : BufTy := match i % 128 with
  | 0 => ⟨S50000x128, .f32⟩
  | 1 => ⟨S3x800000, .i32⟩
  | 2 => ⟨S3x800000, .i32⟩
  | 3 => ⟨S3x128x128, .f32⟩
  | 4 => ⟨S3x128, .f32⟩
  | 5 => ⟨S4x3x128x128, .f32⟩
  | 6 => ⟨S4x3x128, .f32⟩
  | 7 => ⟨S128x64, .f32⟩
  | 8 => ⟨S64, .f32⟩
  | 9 => ⟨S_, .f32⟩
  | 10 => ⟨S800000, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S50000x1, .f32⟩
  | 28 => ⟨S50000x128, .f32⟩
  | 29 => ⟨S50000x128, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x128, .f32⟩
  | 39 => ⟨S_, .f32⟩
  | 40 => ⟨S50000x128, .f32⟩
  | 41 => ⟨S800000x1, .i32⟩
  | 42 => ⟨S50000x128, .f32⟩
  | 43 => ⟨S_, .f32⟩
  | 44 => ⟨S50000, .f32⟩
  | 45 => ⟨S50000, .f32⟩
  | 46 => ⟨S50000, .f32⟩
  | 47 => ⟨S50000x1, .f32⟩
  | 48 => ⟨S50000x128, .f32⟩
  | 49 => ⟨S50000x128, .f32⟩
  | 50 => ⟨S1x128x128, .f32⟩
  | 51 => ⟨S128x128, .f32⟩
  | 52 => ⟨S50000x128, .f32⟩
  | 53 => ⟨S1x128, .f32⟩
  | 54 => ⟨S128, .f32⟩
  | 55 => ⟨S1x128, .f32⟩
  | 56 => ⟨S50000x128, .f32⟩
  | 57 => ⟨S50000x128, .f32⟩
  | 58 => ⟨S1x800000, .i32⟩
  | 59 => ⟨S800000, .i32⟩
  | 60 => ⟨S1x800000, .i32⟩
  | 61 => ⟨S800000, .i32⟩
  | 62 => ⟨S_, .f32⟩
  | 63 => ⟨S50000, .f32⟩
  | 64 => ⟨S800000x1, .i32⟩
  | 65 => ⟨S50000, .f32⟩
  | 66 => ⟨S_, .f32⟩
  | 67 => ⟨S50000, .f32⟩
  | 68 => ⟨S800000x1, .i32⟩
  | 69 => ⟨S50000, .f32⟩
  | 70 => ⟨S_, .f32⟩
  | 71 => ⟨S50000, .f32⟩
  | 72 => ⟨S50000, .f32⟩
  | 73 => ⟨S50000, .f32⟩
  | 74 => ⟨S50000x1, .f32⟩
  | 75 => ⟨S50000x128, .f32⟩
  | 76 => ⟨S50000x128, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S_, .f32⟩
  | 91 => ⟨S50000, .f32⟩
  | 92 => ⟨S50000, .f32⟩
  | 93 => ⟨S50000, .f32⟩
  | 94 => ⟨S50000x1, .f32⟩
  | 95 => ⟨S50000x128, .f32⟩
  | 96 => ⟨S50000x128, .f32⟩
  | 97 => ⟨S1x128x128, .f32⟩
  | 98 => ⟨S128x128, .f32⟩
  | 99 => ⟨S50000x128, .f32⟩
  | 100 => ⟨S1x128, .f32⟩
  | 101 => ⟨S128, .f32⟩
  | 102 => ⟨S1x128, .f32⟩
  | 103 => ⟨S50000x128, .f32⟩
  | 104 => ⟨S50000x128, .f32⟩
  | 105 => ⟨S1x800000, .i32⟩
  | 106 => ⟨S800000, .i32⟩
  | 107 => ⟨S1x800000, .i32⟩
  | 108 => ⟨S800000, .i32⟩
  | 109 => ⟨S_, .f32⟩
  | 110 => ⟨S50000, .f32⟩
  | 111 => ⟨S800000x1, .i32⟩
  | 112 => ⟨S50000, .f32⟩
  | 113 => ⟨S_, .f32⟩
  | 114 => ⟨S50000, .f32⟩
  | 115 => ⟨S800000x1, .i32⟩
  | 116 => ⟨S50000, .f32⟩
  | 117 => ⟨S_, .f32⟩
  | 118 => ⟨S50000, .f32⟩
  | 119 => ⟨S50000, .f32⟩
  | 120 => ⟨S50000, .f32⟩
  | 121 => ⟨S50000x1, .f32⟩
  | 122 => ⟨S50000x128, .f32⟩
  | 123 => ⟨S50000x128, .f32⟩
  | 124 => ⟨S_, .i32⟩
  | 125 => ⟨S800000, .i32⟩
  | 126 => ⟨S800000, .i1⟩
  | 127 => ⟨S_, .i32⟩
  | _ => ⟨S50000x128, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S800000x128, .f32⟩
  | 5 => ⟨S_, .f32⟩
  | 6 => ⟨S50000x128, .f32⟩
  | 7 => ⟨S800000x1, .i32⟩
  | 8 => ⟨S50000x128, .f32⟩
  | 9 => ⟨S_, .f32⟩
  | 10 => ⟨S50000, .f32⟩
  | 11 => ⟨S50000, .f32⟩
  | 12 => ⟨S50000, .f32⟩
  | 13 => ⟨S50000x1, .f32⟩
  | 14 => ⟨S50000x128, .f32⟩
  | 15 => ⟨S50000x128, .f32⟩
  | 16 => ⟨S1x128x128, .f32⟩
  | 17 => ⟨S128x128, .f32⟩
  | 18 => ⟨S50000x128, .f32⟩
  | 19 => ⟨S1x128, .f32⟩
  | 20 => ⟨S128, .f32⟩
  | 21 => ⟨S1x128, .f32⟩
  | 22 => ⟨S50000x128, .f32⟩
  | 23 => ⟨S50000x128, .f32⟩
  | 24 => ⟨S1x50000x128, .f32⟩
  | 25 => ⟨S1x50000x128, .f32⟩
  | 26 => ⟨S1x50000x128, .f32⟩
  | 27 => ⟨S3x50000x128, .f32⟩
  | 28 => ⟨S_, .f32⟩
  | 29 => ⟨S50000x128, .f32⟩
  | 30 => ⟨S_, .f32⟩
  | 31 => ⟨S50000x128, .f32⟩
  | 32 => ⟨S50000x128, .f32⟩
  | 33 => ⟨S_, .f32⟩
  | 34 => ⟨S_, .f32⟩
  | 35 => ⟨S50000x128, .f32⟩
  | 36 => ⟨S50000x128, .i1⟩
  | 37 => ⟨S_, .f32⟩
  | 38 => ⟨S50000x128, .f32⟩
  | 39 => ⟨S50000x128, .f32⟩
  | 40 => ⟨S50000x128, .f32⟩
  | 41 => ⟨S1x3x128x128, .f32⟩
  | 42 => ⟨S3x128x128, .f32⟩
  | 43 => ⟨S1x3x128, .f32⟩
  | 44 => ⟨S3x128, .f32⟩
  | 45 => ⟨S_, .f32⟩
  | 46 => ⟨S800000, .f32⟩
  | 47 => ⟨S1x800000, .i32⟩
  | 48 => ⟨S800000, .i32⟩
  | 49 => ⟨S1x800000, .i32⟩
  | 50 => ⟨S800000, .i32⟩
  | 51 => ⟨S_, .f32⟩
  | 52 => ⟨S50000, .f32⟩
  | 53 => ⟨S800000x1, .i32⟩
  | 54 => ⟨S50000, .f32⟩
  | 55 => ⟨S_, .f32⟩
  | 56 => ⟨S50000, .f32⟩
  | 57 => ⟨S800000x1, .i32⟩
  | 58 => ⟨S50000, .f32⟩
  | 59 => ⟨S_, .f32⟩
  | 60 => ⟨S50000, .f32⟩
  | 61 => ⟨S50000, .f32⟩
  | 62 => ⟨S50000, .f32⟩
  | 63 => ⟨S50000x1, .f32⟩
  | 64 => ⟨S50000x128, .f32⟩
  | 65 => ⟨S50000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S_, .f32⟩
  | 76 => ⟨S50000x128, .f32⟩
  | 77 => ⟨S800000x1, .i32⟩
  | 78 => ⟨S50000x128, .f32⟩
  | 79 => ⟨S_, .f32⟩
  | 80 => ⟨S50000, .f32⟩
  | 81 => ⟨S50000, .f32⟩
  | 82 => ⟨S50000, .f32⟩
  | 83 => ⟨S50000x1, .f32⟩
  | 84 => ⟨S50000x128, .f32⟩
  | 85 => ⟨S50000x128, .f32⟩
  | 86 => ⟨S1x128x128, .f32⟩
  | 87 => ⟨S128x128, .f32⟩
  | 88 => ⟨S50000x128, .f32⟩
  | 89 => ⟨S1x128, .f32⟩
  | 90 => ⟨S128, .f32⟩
  | 91 => ⟨S1x128, .f32⟩
  | 92 => ⟨S50000x128, .f32⟩
  | 93 => ⟨S50000x128, .f32⟩
  | 94 => ⟨S1x800000, .i32⟩
  | 95 => ⟨S800000, .i32⟩
  | 96 => ⟨S1x800000, .i32⟩
  | 97 => ⟨S800000, .i32⟩
  | 98 => ⟨S_, .f32⟩
  | 99 => ⟨S50000, .f32⟩
  | 100 => ⟨S800000x1, .i32⟩
  | 101 => ⟨S50000, .f32⟩
  | 102 => ⟨S_, .f32⟩
  | 103 => ⟨S50000, .f32⟩
  | 104 => ⟨S800000x1, .i32⟩
  | 105 => ⟨S50000, .f32⟩
  | 106 => ⟨S_, .f32⟩
  | 107 => ⟨S50000, .f32⟩
  | 108 => ⟨S50000, .f32⟩
  | 109 => ⟨S50000, .f32⟩
  | 110 => ⟨S50000x1, .f32⟩
  | 111 => ⟨S50000x128, .f32⟩
  | 112 => ⟨S50000x128, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x128, .f32⟩
  | 122 => ⟨S_, .f32⟩
  | 123 => ⟨S50000x128, .f32⟩
  | 124 => ⟨S800000x1, .i32⟩
  | 125 => ⟨S50000x128, .f32⟩
  | 126 => ⟨S_, .f32⟩
  | 127 => ⟨S50000, .f32⟩
  | _ => ⟨S50000x128, .f32⟩

abbrev hbmTy0_2 (i : Nat) : BufTy := match i % 128 with
  | 0 => ⟨S50000, .f32⟩
  | 1 => ⟨S50000, .f32⟩
  | 2 => ⟨S50000x1, .f32⟩
  | 3 => ⟨S50000x128, .f32⟩
  | 4 => ⟨S50000x128, .f32⟩
  | 5 => ⟨S1x128x128, .f32⟩
  | 6 => ⟨S128x128, .f32⟩
  | 7 => ⟨S50000x128, .f32⟩
  | 8 => ⟨S1x128, .f32⟩
  | 9 => ⟨S128, .f32⟩
  | 10 => ⟨S1x128, .f32⟩
  | 11 => ⟨S50000x128, .f32⟩
  | 12 => ⟨S50000x128, .f32⟩
  | 13 => ⟨S1x800000, .i32⟩
  | 14 => ⟨S800000, .i32⟩
  | 15 => ⟨S1x800000, .i32⟩
  | 16 => ⟨S800000, .i32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S50000x1, .f32⟩
  | 30 => ⟨S50000x128, .f32⟩
  | 31 => ⟨S50000x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S_, .f32⟩
  | 42 => ⟨S50000x128, .f32⟩
  | 43 => ⟨S800000x1, .i32⟩
  | 44 => ⟨S50000x128, .f32⟩
  | 45 => ⟨S_, .f32⟩
  | 46 => ⟨S50000, .f32⟩
  | 47 => ⟨S50000, .f32⟩
  | 48 => ⟨S50000, .f32⟩
  | 49 => ⟨S50000x1, .f32⟩
  | 50 => ⟨S50000x128, .f32⟩
  | 51 => ⟨S50000x128, .f32⟩
  | 52 => ⟨S1x128x128, .f32⟩
  | 53 => ⟨S128x128, .f32⟩
  | 54 => ⟨S50000x128, .f32⟩
  | 55 => ⟨S1x128, .f32⟩
  | 56 => ⟨S128, .f32⟩
  | 57 => ⟨S1x128, .f32⟩
  | 58 => ⟨S50000x128, .f32⟩
  | 59 => ⟨S50000x128, .f32⟩
  | 60 => ⟨S1x50000x128, .f32⟩
  | 61 => ⟨S1x50000x128, .f32⟩
  | 62 => ⟨S1x50000x128, .f32⟩
  | 63 => ⟨S3x50000x128, .f32⟩
  | 64 => ⟨S_, .f32⟩
  | 65 => ⟨S50000x128, .f32⟩
  | 66 => ⟨S_, .f32⟩
  | 67 => ⟨S50000x128, .f32⟩
  | 68 => ⟨S50000x128, .f32⟩
  | 69 => ⟨S_, .f32⟩
  | 70 => ⟨S_, .f32⟩
  | 71 => ⟨S50000x128, .f32⟩
  | 72 => ⟨S50000x128, .i1⟩
  | 73 => ⟨S_, .f32⟩
  | 74 => ⟨S50000x128, .f32⟩
  | 75 => ⟨S50000x128, .f32⟩
  | 76 => ⟨S50000x128, .f32⟩
  | 77 => ⟨S1x3x128x128, .f32⟩
  | 78 => ⟨S3x128x128, .f32⟩
  | 79 => ⟨S1x3x128, .f32⟩
  | 80 => ⟨S3x128, .f32⟩
  | 81 => ⟨S_, .f32⟩
  | 82 => ⟨S800000, .f32⟩
  | 83 => ⟨S1x800000, .i32⟩
  | 84 => ⟨S800000, .i32⟩
  | 85 => ⟨S1x800000, .i32⟩
  | 86 => ⟨S800000, .i32⟩
  | 87 => ⟨S_, .f32⟩
  | 88 => ⟨S50000, .f32⟩
  | 89 => ⟨S800000x1, .i32⟩
  | 90 => ⟨S50000, .f32⟩
  | 91 => ⟨S_, .f32⟩
  | 92 => ⟨S50000, .f32⟩
  | 93 => ⟨S800000x1, .i32⟩
  | 94 => ⟨S50000, .f32⟩
  | 95 => ⟨S_, .f32⟩
  | 96 => ⟨S50000, .f32⟩
  | 97 => ⟨S50000, .f32⟩
  | 98 => ⟨S50000, .f32⟩
  | 99 => ⟨S50000x1, .f32⟩
  | 100 => ⟨S50000x128, .f32⟩
  | 101 => ⟨S50000x128, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S_, .f32⟩
  | 112 => ⟨S50000x128, .f32⟩
  | 113 => ⟨S800000x1, .i32⟩
  | 114 => ⟨S50000x128, .f32⟩
  | 115 => ⟨S_, .f32⟩
  | 116 => ⟨S50000, .f32⟩
  | 117 => ⟨S50000, .f32⟩
  | 118 => ⟨S50000, .f32⟩
  | 119 => ⟨S50000x1, .f32⟩
  | 120 => ⟨S50000x128, .f32⟩
  | 121 => ⟨S50000x128, .f32⟩
  | 122 => ⟨S1x128x128, .f32⟩
  | 123 => ⟨S128x128, .f32⟩
  | 124 => ⟨S50000x128, .f32⟩
  | 125 => ⟨S1x128, .f32⟩
  | 126 => ⟨S128, .f32⟩
  | 127 => ⟨S1x128, .f32⟩
  | _ => ⟨S50000x128, .f32⟩

abbrev hbmTy0_3 (i : Nat) : BufTy := match i % 128 with
  | 0 => ⟨S50000x128, .f32⟩
  | 1 => ⟨S50000x128, .f32⟩
  | 2 => ⟨S1x800000, .i32⟩
  | 3 => ⟨S800000, .i32⟩
  | 4 => ⟨S1x800000, .i32⟩
  | 5 => ⟨S800000, .i32⟩
  | 6 => ⟨S_, .f32⟩
  | 7 => ⟨S50000, .f32⟩
  | 8 => ⟨S800000x1, .i32⟩
  | 9 => ⟨S50000, .f32⟩
  | 10 => ⟨S_, .f32⟩
  | 11 => ⟨S50000, .f32⟩
  | 12 => ⟨S800000x1, .i32⟩
  | 13 => ⟨S50000, .f32⟩
  | 14 => ⟨S_, .f32⟩
  | 15 => ⟨S50000, .f32⟩
  | 16 => ⟨S50000, .f32⟩
  | 17 => ⟨S50000, .f32⟩
  | 18 => ⟨S50000x1, .f32⟩
  | 19 => ⟨S50000x128, .f32⟩
  | 20 => ⟨S50000x128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S_, .f32⟩
  | 35 => ⟨S50000, .f32⟩
  | 36 => ⟨S50000, .f32⟩
  | 37 => ⟨S50000, .f32⟩
  | 38 => ⟨S50000x1, .f32⟩
  | 39 => ⟨S50000x128, .f32⟩
  | 40 => ⟨S50000x128, .f32⟩
  | 41 => ⟨S1x128x128, .f32⟩
  | 42 => ⟨S128x128, .f32⟩
  | 43 => ⟨S50000x128, .f32⟩
  | 44 => ⟨S1x128, .f32⟩
  | 45 => ⟨S128, .f32⟩
  | 46 => ⟨S1x128, .f32⟩
  | 47 => ⟨S50000x128, .f32⟩
  | 48 => ⟨S50000x128, .f32⟩
  | 49 => ⟨S1x800000, .i32⟩
  | 50 => ⟨S800000, .i32⟩
  | 51 => ⟨S1x800000, .i32⟩
  | 52 => ⟨S800000, .i32⟩
  | 53 => ⟨S_, .f32⟩
  | 54 => ⟨S50000, .f32⟩
  | 55 => ⟨S800000x1, .i32⟩
  | 56 => ⟨S50000, .f32⟩
  | 57 => ⟨S_, .f32⟩
  | 58 => ⟨S50000, .f32⟩
  | 59 => ⟨S800000x1, .i32⟩
  | 60 => ⟨S50000, .f32⟩
  | 61 => ⟨S_, .f32⟩
  | 62 => ⟨S50000, .f32⟩
  | 63 => ⟨S50000, .f32⟩
  | 64 => ⟨S50000, .f32⟩
  | 65 => ⟨S50000x1, .f32⟩
  | 66 => ⟨S50000x128, .f32⟩
  | 67 => ⟨S50000x128, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x128, .f32⟩
  | 77 => ⟨S_, .f32⟩
  | 78 => ⟨S50000x128, .f32⟩
  | 79 => ⟨S800000x1, .i32⟩
  | 80 => ⟨S50000x128, .f32⟩
  | 81 => ⟨S_, .f32⟩
  | 82 => ⟨S50000, .f32⟩
  | 83 => ⟨S50000, .f32⟩
  | 84 => ⟨S50000, .f32⟩
  | 85 => ⟨S50000x1, .f32⟩
  | 86 => ⟨S50000x128, .f32⟩
  | 87 => ⟨S50000x128, .f32⟩
  | 88 => ⟨S1x128x128, .f32⟩
  | 89 => ⟨S128x128, .f32⟩
  | 90 => ⟨S50000x128, .f32⟩
  | 91 => ⟨S1x128, .f32⟩
  | 92 => ⟨S128, .f32⟩
  | 93 => ⟨S1x128, .f32⟩
  | 94 => ⟨S50000x128, .f32⟩
  | 95 => ⟨S50000x128, .f32⟩
  | 96 => ⟨S1x50000x128, .f32⟩
  | 97 => ⟨S1x50000x128, .f32⟩
  | 98 => ⟨S1x50000x128, .f32⟩
  | 99 => ⟨S3x50000x128, .f32⟩
  | 100 => ⟨S_, .f32⟩
  | 101 => ⟨S50000x128, .f32⟩
  | 102 => ⟨S_, .f32⟩
  | 103 => ⟨S50000x128, .f32⟩
  | 104 => ⟨S50000x128, .f32⟩
  | 105 => ⟨S_, .f32⟩
  | 106 => ⟨S_, .f32⟩
  | 107 => ⟨S50000x128, .f32⟩
  | 108 => ⟨S50000x128, .i1⟩
  | 109 => ⟨S_, .f32⟩
  | 110 => ⟨S50000x128, .f32⟩
  | 111 => ⟨S50000x128, .f32⟩
  | 112 => ⟨S50000x128, .f32⟩
  | 113 => ⟨S1x3x128x128, .f32⟩
  | 114 => ⟨S3x128x128, .f32⟩
  | 115 => ⟨S1x3x128, .f32⟩
  | 116 => ⟨S3x128, .f32⟩
  | 117 => ⟨S_, .f32⟩
  | 118 => ⟨S800000, .f32⟩
  | 119 => ⟨S1x800000, .i32⟩
  | 120 => ⟨S800000, .i32⟩
  | 121 => ⟨S1x800000, .i32⟩
  | 122 => ⟨S800000, .i32⟩
  | 123 => ⟨S_, .f32⟩
  | 124 => ⟨S50000, .f32⟩
  | 125 => ⟨S800000x1, .i32⟩
  | 126 => ⟨S50000, .f32⟩
  | 127 => ⟨S_, .f32⟩
  | _ => ⟨S50000x128, .f32⟩

abbrev hbmTy0_4 (i : Nat) : BufTy := match i % 128 with
  | 0 => ⟨S50000, .f32⟩
  | 1 => ⟨S800000x1, .i32⟩
  | 2 => ⟨S50000, .f32⟩
  | 3 => ⟨S_, .f32⟩
  | 4 => ⟨S50000, .f32⟩
  | 5 => ⟨S50000, .f32⟩
  | 6 => ⟨S50000, .f32⟩
  | 7 => ⟨S50000x1, .f32⟩
  | 8 => ⟨S50000x128, .f32⟩
  | 9 => ⟨S50000x128, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x128, .f32⟩
  | 19 => ⟨S_, .f32⟩
  | 20 => ⟨S50000x128, .f32⟩
  | 21 => ⟨S800000x1, .i32⟩
  | 22 => ⟨S50000x128, .f32⟩
  | 23 => ⟨S_, .f32⟩
  | 24 => ⟨S50000, .f32⟩
  | 25 => ⟨S50000, .f32⟩
  | 26 => ⟨S50000, .f32⟩
  | 27 => ⟨S50000x1, .f32⟩
  | 28 => ⟨S50000x128, .f32⟩
  | 29 => ⟨S50000x128, .f32⟩
  | 30 => ⟨S1x128x128, .f32⟩
  | 31 => ⟨S128x128, .f32⟩
  | 32 => ⟨S50000x128, .f32⟩
  | 33 => ⟨S1x128, .f32⟩
  | 34 => ⟨S128, .f32⟩
  | 35 => ⟨S1x128, .f32⟩
  | 36 => ⟨S50000x128, .f32⟩
  | 37 => ⟨S50000x128, .f32⟩
  | 38 => ⟨S1x800000, .i32⟩
  | 39 => ⟨S800000, .i32⟩
  | 40 => ⟨S1x800000, .i32⟩
  | 41 => ⟨S800000, .i32⟩
  | 42 => ⟨S_, .f32⟩
  | 43 => ⟨S50000, .f32⟩
  | 44 => ⟨S800000x1, .i32⟩
  | 45 => ⟨S50000, .f32⟩
  | 46 => ⟨S_, .f32⟩
  | 47 => ⟨S50000, .f32⟩
  | 48 => ⟨S800000x1, .i32⟩
  | 49 => ⟨S50000, .f32⟩
  | 50 => ⟨S_, .f32⟩
  | 51 => ⟨S50000, .f32⟩
  | 52 => ⟨S50000, .f32⟩
  | 53 => ⟨S50000, .f32⟩
  | 54 => ⟨S50000x1, .f32⟩
  | 55 => ⟨S50000x128, .f32⟩
  | 56 => ⟨S50000x128, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S_, .f32⟩
  | 71 => ⟨S50000, .f32⟩
  | 72 => ⟨S50000, .f32⟩
  | 73 => ⟨S50000, .f32⟩
  | 74 => ⟨S50000x1, .f32⟩
  | 75 => ⟨S50000x128, .f32⟩
  | 76 => ⟨S50000x128, .f32⟩
  | 77 => ⟨S1x128x128, .f32⟩
  | 78 => ⟨S128x128, .f32⟩
  | 79 => ⟨S50000x128, .f32⟩
  | 80 => ⟨S1x128, .f32⟩
  | 81 => ⟨S128, .f32⟩
  | 82 => ⟨S1x128, .f32⟩
  | 83 => ⟨S50000x128, .f32⟩
  | 84 => ⟨S50000x128, .f32⟩
  | 85 => ⟨S1x800000, .i32⟩
  | 86 => ⟨S800000, .i32⟩
  | 87 => ⟨S1x800000, .i32⟩
  | 88 => ⟨S800000, .i32⟩
  | 89 => ⟨S_, .f32⟩
  | 90 => ⟨S50000, .f32⟩
  | 91 => ⟨S800000x1, .i32⟩
  | 92 => ⟨S50000, .f32⟩
  | 93 => ⟨S_, .f32⟩
  | 94 => ⟨S50000, .f32⟩
  | 95 => ⟨S800000x1, .i32⟩
  | 96 => ⟨S50000, .f32⟩
  | 97 => ⟨S_, .f32⟩
  | 98 => ⟨S50000, .f32⟩
  | 99 => ⟨S50000, .f32⟩
  | 100 => ⟨S50000, .f32⟩
  | 101 => ⟨S50000x1, .f32⟩
  | 102 => ⟨S50000x128, .f32⟩
  | 103 => ⟨S50000x128, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x128, .f32⟩
  | 113 => ⟨S_, .f32⟩
  | 114 => ⟨S50000x128, .f32⟩
  | 115 => ⟨S800000x1, .i32⟩
  | 116 => ⟨S50000x128, .f32⟩
  | 117 => ⟨S_, .f32⟩
  | 118 => ⟨S50000, .f32⟩
  | 119 => ⟨S50000, .f32⟩
  | 120 => ⟨S50000, .f32⟩
  | 121 => ⟨S50000x1, .f32⟩
  | 122 => ⟨S50000x128, .f32⟩
  | 123 => ⟨S50000x128, .f32⟩
  | 124 => ⟨S1x128x128, .f32⟩
  | 125 => ⟨S128x128, .f32⟩
  | 126 => ⟨S50000x128, .f32⟩
  | 127 => ⟨S1x128, .f32⟩
  | _ => ⟨S50000x128, .f32⟩

abbrev hbmTy0_5 (i : Nat) : BufTy := match i % 128 with
  | 0 => ⟨S128, .f32⟩
  | 1 => ⟨S1x128, .f32⟩
  | 2 => ⟨S50000x128, .f32⟩
  | 3 => ⟨S50000x128, .f32⟩
  | 4 => ⟨S1x50000x128, .f32⟩
  | 5 => ⟨S1x50000x128, .f32⟩
  | 6 => ⟨S1x50000x128, .f32⟩
  | 7 => ⟨S3x50000x128, .f32⟩
  | 8 => ⟨S_, .f32⟩
  | 9 => ⟨S50000x128, .f32⟩
  | 10 => ⟨S_, .f32⟩
  | 11 => ⟨S50000x128, .f32⟩
  | 12 => ⟨S50000x128, .f32⟩
  | 13 => ⟨S_, .f32⟩
  | 14 => ⟨S_, .f32⟩
  | 15 => ⟨S50000x128, .f32⟩
  | 16 => ⟨S50000x128, .i1⟩
  | 17 => ⟨S_, .f32⟩
  | 18 => ⟨S50000x128, .f32⟩
  | 19 => ⟨S50000x128, .f32⟩
  | 20 => ⟨S50000x128, .f32⟩
  | 21 => ⟨S1x3x128x128, .f32⟩
  | 22 => ⟨S3x128x128, .f32⟩
  | 23 => ⟨S1x3x128, .f32⟩
  | 24 => ⟨S3x128, .f32⟩
  | 25 => ⟨S_, .f32⟩
  | 26 => ⟨S800000, .f32⟩
  | 27 => ⟨S1x800000, .i32⟩
  | 28 => ⟨S800000, .i32⟩
  | 29 => ⟨S1x800000, .i32⟩
  | 30 => ⟨S800000, .i32⟩
  | 31 => ⟨S_, .f32⟩
  | 32 => ⟨S50000, .f32⟩
  | 33 => ⟨S800000x1, .i32⟩
  | 34 => ⟨S50000, .f32⟩
  | 35 => ⟨S_, .f32⟩
  | 36 => ⟨S50000, .f32⟩
  | 37 => ⟨S800000x1, .i32⟩
  | 38 => ⟨S50000, .f32⟩
  | 39 => ⟨S_, .f32⟩
  | 40 => ⟨S50000, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S_, .f32⟩
  | 56 => ⟨S50000x128, .f32⟩
  | 57 => ⟨S800000x1, .i32⟩
  | 58 => ⟨S50000x128, .f32⟩
  | 59 => ⟨S_, .f32⟩
  | 60 => ⟨S50000, .f32⟩
  | 61 => ⟨S50000, .f32⟩
  | 62 => ⟨S50000, .f32⟩
  | 63 => ⟨S50000x1, .f32⟩
  | 64 => ⟨S50000x128, .f32⟩
  | 65 => ⟨S50000x128, .f32⟩
  | 66 => ⟨S1x128x128, .f32⟩
  | 67 => ⟨S128x128, .f32⟩
  | 68 => ⟨S50000x128, .f32⟩
  | 69 => ⟨S1x128, .f32⟩
  | 70 => ⟨S128, .f32⟩
  | 71 => ⟨S1x128, .f32⟩
  | 72 => ⟨S50000x128, .f32⟩
  | 73 => ⟨S50000x128, .f32⟩
  | 74 => ⟨S1x800000, .i32⟩
  | 75 => ⟨S800000, .i32⟩
  | 76 => ⟨S1x800000, .i32⟩
  | 77 => ⟨S800000, .i32⟩
  | 78 => ⟨S_, .f32⟩
  | 79 => ⟨S50000, .f32⟩
  | 80 => ⟨S800000x1, .i32⟩
  | 81 => ⟨S50000, .f32⟩
  | 82 => ⟨S_, .f32⟩
  | 83 => ⟨S50000, .f32⟩
  | 84 => ⟨S800000x1, .i32⟩
  | 85 => ⟨S50000, .f32⟩
  | 86 => ⟨S_, .f32⟩
  | 87 => ⟨S50000, .f32⟩
  | 88 => ⟨S50000, .f32⟩
  | 89 => ⟨S50000, .f32⟩
  | 90 => ⟨S50000x1, .f32⟩
  | 91 => ⟨S50000x128, .f32⟩
  | 92 => ⟨S50000x128, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x128, .f32⟩
  | 102 => ⟨S_, .f32⟩
  | 103 => ⟨S50000x128, .f32⟩
  | 104 => ⟨S800000x1, .i32⟩
  | 105 => ⟨S50000x128, .f32⟩
  | 106 => ⟨S_, .f32⟩
  | 107 => ⟨S50000, .f32⟩
  | 108 => ⟨S50000, .f32⟩
  | 109 => ⟨S50000, .f32⟩
  | 110 => ⟨S50000x1, .f32⟩
  | 111 => ⟨S50000x128, .f32⟩
  | 112 => ⟨S50000x128, .f32⟩
  | 113 => ⟨S1x128x128, .f32⟩
  | 114 => ⟨S128x128, .f32⟩
  | 115 => ⟨S50000x128, .f32⟩
  | 116 => ⟨S1x128, .f32⟩
  | 117 => ⟨S128, .f32⟩
  | 118 => ⟨S1x128, .f32⟩
  | 119 => ⟨S50000x128, .f32⟩
  | 120 => ⟨S50000x128, .f32⟩
  | 121 => ⟨S1x800000, .i32⟩
  | 122 => ⟨S800000, .i32⟩
  | 123 => ⟨S1x800000, .i32⟩
  | 124 => ⟨S800000, .i32⟩
  | 125 => ⟨S_, .f32⟩
  | 126 => ⟨S50000, .f32⟩
  | 127 => ⟨S800000x1, .i32⟩
  | _ => ⟨S50000x128, .f32⟩

abbrev hbmTy0_6 (i : Nat) : BufTy := match i % 128 with
  | 0 => ⟨S50000, .f32⟩
  | 1 => ⟨S_, .f32⟩
  | 2 => ⟨S50000, .f32⟩
  | 3 => ⟨S800000x1, .i32⟩
  | 4 => ⟨S50000, .f32⟩
  | 5 => ⟨S_, .f32⟩
  | 6 => ⟨S50000, .f32⟩
  | 7 => ⟨S50000, .f32⟩
  | 8 => ⟨S50000, .f32⟩
  | 9 => ⟨S50000x1, .f32⟩
  | 10 => ⟨S50000x128, .f32⟩
  | 11 => ⟨S50000x128, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x128, .f32⟩
  | 21 => ⟨S_, .f32⟩
  | 22 => ⟨S50000x128, .f32⟩
  | 23 => ⟨S800000x1, .i32⟩
  | 24 => ⟨S50000x128, .f32⟩
  | 25 => ⟨S_, .f32⟩
  | 26 => ⟨S50000, .f32⟩
  | 27 => ⟨S50000, .f32⟩
  | 28 => ⟨S50000, .f32⟩
  | 29 => ⟨S50000x1, .f32⟩
  | 30 => ⟨S50000x128, .f32⟩
  | 31 => ⟨S50000x128, .f32⟩
  | 32 => ⟨S1x128x128, .f32⟩
  | 33 => ⟨S128x128, .f32⟩
  | 34 => ⟨S50000x128, .f32⟩
  | 35 => ⟨S1x128, .f32⟩
  | 36 => ⟨S128, .f32⟩
  | 37 => ⟨S1x128, .f32⟩
  | 38 => ⟨S50000x128, .f32⟩
  | 39 => ⟨S50000x128, .f32⟩
  | 40 => ⟨S1x50000x128, .f32⟩
  | 41 => ⟨S1x50000x128, .f32⟩
  | 42 => ⟨S1x50000x128, .f32⟩
  | 43 => ⟨S3x50000x128, .f32⟩
  | 44 => ⟨S_, .f32⟩
  | 45 => ⟨S50000x128, .f32⟩
  | 46 => ⟨S_, .f32⟩
  | 47 => ⟨S50000x128, .f32⟩
  | 48 => ⟨S50000x128, .f32⟩
  | 49 => ⟨S50000x64, .f32⟩
  | 50 => ⟨S1x64, .f32⟩
  | 51 => ⟨S50000x64, .f32⟩
  | 52 => ⟨S50000x64, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_9 : Ref sig .tc := ⟨.hbm, 77, rfl⟩
abbrev main_v57 : Ref sig .tc := ⟨.hbm, 78, rfl⟩
abbrev main_v58 : Ref sig .tc := ⟨.hbm, 79, rfl⟩
abbrev main_c_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_13 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_14 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_15 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_c_16 : Ref sig .tc := ⟨.hbm, 124, rfl⟩
abbrev main_v97 : Ref sig .tc := ⟨.hbm, 125, rfl⟩
abbrev main_v98 : Ref sig .tc := ⟨.hbm, 126, rfl⟩
abbrev main_c_17 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_18 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_19 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_cst_20 : Ref sig .tc := ⟨.hbm, 156, rfl⟩
abbrev main_v125 : Ref sig .tc := ⟨.hbm, 157, rfl⟩
abbrev main_cst_21 : Ref sig .tc := ⟨.hbm, 158, rfl⟩
abbrev main_v126 : Ref sig .tc := ⟨.hbm, 159, rfl⟩
abbrev main_v127 : Ref sig .tc := ⟨.hbm, 160, rfl⟩
abbrev main_cst_22 : Ref sig .tc := ⟨.hbm, 161, rfl⟩
abbrev main_call0_cst : Ref sig .tc := ⟨.hbm, 162, rfl⟩
abbrev main_call0_v0 : Ref sig .tc := ⟨.hbm, 163, rfl⟩
abbrev main_call0_v1 : Ref sig .tc := ⟨.hbm, 164, rfl⟩
abbrev main_call0_v2 : Ref sig .tc := ⟨.hbm, 165, rfl⟩
abbrev main_call0_v3 : Ref sig .tc := ⟨.hbm, 166, rfl⟩
abbrev main_call0_v4 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_cst_23 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_cst_24 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_cst_25 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_cst_26 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_c_27 : Ref sig .tc := ⟨.hbm, 194, rfl⟩
abbrev main_v150 : Ref sig .tc := ⟨.hbm, 195, rfl⟩
abbrev main_v151 : Ref sig .tc := ⟨.hbm, 196, rfl⟩
abbrev main_c_28 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_cst_29 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_cst_30 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_cst_31 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_cst_32 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_cst_33 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_c_34 : Ref sig .tc := ⟨.hbm, 241, rfl⟩
abbrev main_v190 : Ref sig .tc := ⟨.hbm, 242, rfl⟩
abbrev main_v191 : Ref sig .tc := ⟨.hbm, 243, rfl⟩
abbrev main_c_35 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_cst_36 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_cst_37 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_cst_38 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_cst_39 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_cst_40 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_c_41 : Ref sig .tc := ⟨.hbm, 288, rfl⟩
abbrev main_v230 : Ref sig .tc := ⟨.hbm, 289, rfl⟩
abbrev main_v231 : Ref sig .tc := ⟨.hbm, 290, rfl⟩
abbrev main_c_42 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_cst_43 : Ref sig .tc := ⟨.hbm, 297, rfl⟩
abbrev main_v237 : Ref sig .tc := ⟨.hbm, 298, rfl⟩
abbrev main_v238 : Ref sig .tc := ⟨.hbm, 299, rfl⟩
abbrev main_v239 : Ref sig .tc := ⟨.hbm, 300, rfl⟩
abbrev main_cst_44 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_cst_45 : Ref sig .tc := ⟨.hbm, 320, rfl⟩
abbrev main_v258 : Ref sig .tc := ⟨.hbm, 321, rfl⟩
abbrev main_cst_46 : Ref sig .tc := ⟨.hbm, 322, rfl⟩
abbrev main_v259 : Ref sig .tc := ⟨.hbm, 323, rfl⟩
abbrev main_v260 : Ref sig .tc := ⟨.hbm, 324, rfl⟩
abbrev main_cst_47 : Ref sig .tc := ⟨.hbm, 325, rfl⟩
abbrev main_call1_cst : Ref sig .tc := ⟨.hbm, 326, rfl⟩
abbrev main_call1_v0 : Ref sig .tc := ⟨.hbm, 327, rfl⟩
abbrev main_call1_v1 : Ref sig .tc := ⟨.hbm, 328, rfl⟩
abbrev main_call1_v2 : Ref sig .tc := ⟨.hbm, 329, rfl⟩
abbrev main_call1_v3 : Ref sig .tc := ⟨.hbm, 330, rfl⟩
abbrev main_call1_v4 : Ref sig .tc := ⟨.hbm, 331, rfl⟩
abbrev main_v261 : Ref sig .tc := ⟨.hbm, 332, rfl⟩
abbrev main_v262 : Ref sig .tc := ⟨.hbm, 333, rfl⟩
abbrev main_v263 : Ref sig .tc := ⟨.hbm, 334, rfl⟩
abbrev main_v264 : Ref sig .tc := ⟨.hbm, 335, rfl⟩
abbrev main_v265 : Ref sig .tc := ⟨.hbm, 336, rfl⟩
abbrev main_cst_48 : Ref sig .tc := ⟨.hbm, 337, rfl⟩
abbrev main_v266 : Ref sig .tc := ⟨.hbm, 338, rfl⟩
abbrev main_v267 : Ref sig .tc := ⟨.hbm, 339, rfl⟩
abbrev main_v268 : Ref sig .tc := ⟨.hbm, 340, rfl⟩
abbrev main_v269 : Ref sig .tc := ⟨.hbm, 341, rfl⟩
abbrev main_v270 : Ref sig .tc := ⟨.hbm, 342, rfl⟩
abbrev main_cst_49 : Ref sig .tc := ⟨.hbm, 343, rfl⟩
abbrev main_v271 : Ref sig .tc := ⟨.hbm, 344, rfl⟩
abbrev main_v272 : Ref sig .tc := ⟨.hbm, 345, rfl⟩
abbrev main_v273 : Ref sig .tc := ⟨.hbm, 346, rfl⟩
abbrev main_cst_50 : Ref sig .tc := ⟨.hbm, 347, rfl⟩
abbrev main_v274 : Ref sig .tc := ⟨.hbm, 348, rfl⟩
abbrev main_v275 : Ref sig .tc := ⟨.hbm, 349, rfl⟩
abbrev main_v276 : Ref sig .tc := ⟨.hbm, 350, rfl⟩
abbrev main_cst_51 : Ref sig .tc := ⟨.hbm, 351, rfl⟩
abbrev main_v277 : Ref sig .tc := ⟨.hbm, 352, rfl⟩
abbrev main_v278 : Ref sig .tc := ⟨.hbm, 353, rfl⟩
abbrev main_v279 : Ref sig .tc := ⟨.hbm, 354, rfl⟩
abbrev main_v280 : Ref sig .tc := ⟨.hbm, 355, rfl⟩
abbrev main_v281 : Ref sig .tc := ⟨.hbm, 356, rfl⟩
abbrev main_v282 : Ref sig .tc := ⟨.hbm, 357, rfl⟩
abbrev main_c_52 : Ref sig .tc := ⟨.hbm, 358, rfl⟩
abbrev main_v283 : Ref sig .tc := ⟨.hbm, 359, rfl⟩
abbrev main_v284 : Ref sig .tc := ⟨.hbm, 360, rfl⟩
abbrev main_c_53 : Ref sig .tc := ⟨.hbm, 361, rfl⟩
abbrev main_v285 : Ref sig .tc := ⟨.hbm, 362, rfl⟩
abbrev main_v286 : Ref sig .tc := ⟨.hbm, 363, rfl⟩
abbrev main_v287 : Ref sig .tc := ⟨.hbm, 364, rfl⟩
abbrev main_v288 : Ref sig .tc := ⟨.hbm, 365, rfl⟩
abbrev main_v289 : Ref sig .tc := ⟨.hbm, 366, rfl⟩
abbrev main_cst_54 : Ref sig .tc := ⟨.hbm, 367, rfl⟩
abbrev main_v290 : Ref sig .tc := ⟨.hbm, 368, rfl⟩
abbrev main_v291 : Ref sig .tc := ⟨.hbm, 369, rfl⟩
abbrev main_v292 : Ref sig .tc := ⟨.hbm, 370, rfl⟩
abbrev main_cst_55 : Ref sig .tc := ⟨.hbm, 371, rfl⟩
abbrev main_v293 : Ref sig .tc := ⟨.hbm, 372, rfl⟩
abbrev main_v294 : Ref sig .tc := ⟨.hbm, 373, rfl⟩
abbrev main_v295 : Ref sig .tc := ⟨.hbm, 374, rfl⟩
abbrev main_v296 : Ref sig .tc := ⟨.hbm, 375, rfl⟩
abbrev main_v297 : Ref sig .tc := ⟨.hbm, 376, rfl⟩
abbrev main_v298 : Ref sig .tc := ⟨.hbm, 377, rfl⟩
abbrev main_v299 : Ref sig .tc := ⟨.hbm, 378, rfl⟩
abbrev main_v300 : Ref sig .tc := ⟨.hbm, 379, rfl⟩
abbrev main_v301 : Ref sig .tc := ⟨.hbm, 380, rfl⟩
abbrev main_v302 : Ref sig .tc := ⟨.hbm, 381, rfl⟩
abbrev main_v303 : Ref sig .tc := ⟨.hbm, 382, rfl⟩
abbrev main_v304 : Ref sig .tc := ⟨.hbm, 383, rfl⟩
abbrev main_v305 : Ref sig .tc := ⟨.hbm, 384, rfl⟩
abbrev main_v306 : Ref sig .tc := ⟨.hbm, 385, rfl⟩
abbrev main_v307 : Ref sig .tc := ⟨.hbm, 386, rfl⟩
abbrev main_v308 : Ref sig .tc := ⟨.hbm, 387, rfl⟩
abbrev main_v309 : Ref sig .tc := ⟨.hbm, 388, rfl⟩
abbrev main_v310 : Ref sig .tc := ⟨.hbm, 389, rfl⟩
abbrev main_cst_56 : Ref sig .tc := ⟨.hbm, 390, rfl⟩
abbrev main_v311 : Ref sig .tc := ⟨.hbm, 391, rfl⟩
abbrev main_v312 : Ref sig .tc := ⟨.hbm, 392, rfl⟩
abbrev main_v313 : Ref sig .tc := ⟨.hbm, 393, rfl⟩
abbrev main_cst_57 : Ref sig .tc := ⟨.hbm, 394, rfl⟩
abbrev main_v314 : Ref sig .tc := ⟨.hbm, 395, rfl⟩
abbrev main_v315 : Ref sig .tc := ⟨.hbm, 396, rfl⟩
abbrev main_v316 : Ref sig .tc := ⟨.hbm, 397, rfl⟩
abbrev main_cst_58 : Ref sig .tc := ⟨.hbm, 398, rfl⟩
abbrev main_v317 : Ref sig .tc := ⟨.hbm, 399, rfl⟩
abbrev main_v318 : Ref sig .tc := ⟨.hbm, 400, rfl⟩
abbrev main_v319 : Ref sig .tc := ⟨.hbm, 401, rfl⟩
abbrev main_v320 : Ref sig .tc := ⟨.hbm, 402, rfl⟩
abbrev main_v321 : Ref sig .tc := ⟨.hbm, 403, rfl⟩
abbrev main_v322 : Ref sig .tc := ⟨.hbm, 404, rfl⟩
abbrev main_c_59 : Ref sig .tc := ⟨.hbm, 405, rfl⟩
abbrev main_v323 : Ref sig .tc := ⟨.hbm, 406, rfl⟩
abbrev main_v324 : Ref sig .tc := ⟨.hbm, 407, rfl⟩
abbrev main_c_60 : Ref sig .tc := ⟨.hbm, 408, rfl⟩
abbrev main_v325 : Ref sig .tc := ⟨.hbm, 409, rfl⟩
abbrev main_v326 : Ref sig .tc := ⟨.hbm, 410, rfl⟩
abbrev main_v327 : Ref sig .tc := ⟨.hbm, 411, rfl⟩
abbrev main_v328 : Ref sig .tc := ⟨.hbm, 412, rfl⟩
abbrev main_v329 : Ref sig .tc := ⟨.hbm, 413, rfl⟩
abbrev main_cst_61 : Ref sig .tc := ⟨.hbm, 414, rfl⟩
abbrev main_v330 : Ref sig .tc := ⟨.hbm, 415, rfl⟩
abbrev main_v331 : Ref sig .tc := ⟨.hbm, 416, rfl⟩
abbrev main_v332 : Ref sig .tc := ⟨.hbm, 417, rfl⟩
abbrev main_cst_62 : Ref sig .tc := ⟨.hbm, 418, rfl⟩
abbrev main_v333 : Ref sig .tc := ⟨.hbm, 419, rfl⟩
abbrev main_v334 : Ref sig .tc := ⟨.hbm, 420, rfl⟩
abbrev main_v335 : Ref sig .tc := ⟨.hbm, 421, rfl⟩
abbrev main_v336 : Ref sig .tc := ⟨.hbm, 422, rfl⟩
abbrev main_v337 : Ref sig .tc := ⟨.hbm, 423, rfl⟩
abbrev main_v338 : Ref sig .tc := ⟨.hbm, 424, rfl⟩
abbrev main_v339 : Ref sig .tc := ⟨.hbm, 425, rfl⟩
abbrev main_v340 : Ref sig .tc := ⟨.hbm, 426, rfl⟩
abbrev main_v341 : Ref sig .tc := ⟨.hbm, 427, rfl⟩
abbrev main_v342 : Ref sig .tc := ⟨.hbm, 428, rfl⟩
abbrev main_v343 : Ref sig .tc := ⟨.hbm, 429, rfl⟩
abbrev main_v344 : Ref sig .tc := ⟨.hbm, 430, rfl⟩
abbrev main_v345 : Ref sig .tc := ⟨.hbm, 431, rfl⟩
abbrev main_v346 : Ref sig .tc := ⟨.hbm, 432, rfl⟩
abbrev main_v347 : Ref sig .tc := ⟨.hbm, 433, rfl⟩
abbrev main_v348 : Ref sig .tc := ⟨.hbm, 434, rfl⟩
abbrev main_v349 : Ref sig .tc := ⟨.hbm, 435, rfl⟩
abbrev main_v350 : Ref sig .tc := ⟨.hbm, 436, rfl⟩
abbrev main_cst_63 : Ref sig .tc := ⟨.hbm, 437, rfl⟩
abbrev main_v351 : Ref sig .tc := ⟨.hbm, 438, rfl⟩
abbrev main_v352 : Ref sig .tc := ⟨.hbm, 439, rfl⟩
abbrev main_v353 : Ref sig .tc := ⟨.hbm, 440, rfl⟩
abbrev main_cst_64 : Ref sig .tc := ⟨.hbm, 441, rfl⟩
abbrev main_v354 : Ref sig .tc := ⟨.hbm, 442, rfl⟩
abbrev main_v355 : Ref sig .tc := ⟨.hbm, 443, rfl⟩
abbrev main_v356 : Ref sig .tc := ⟨.hbm, 444, rfl⟩
abbrev main_cst_65 : Ref sig .tc := ⟨.hbm, 445, rfl⟩
abbrev main_v357 : Ref sig .tc := ⟨.hbm, 446, rfl⟩
abbrev main_v358 : Ref sig .tc := ⟨.hbm, 447, rfl⟩
abbrev main_v359 : Ref sig .tc := ⟨.hbm, 448, rfl⟩
abbrev main_v360 : Ref sig .tc := ⟨.hbm, 449, rfl⟩
abbrev main_v361 : Ref sig .tc := ⟨.hbm, 450, rfl⟩
abbrev main_v362 : Ref sig .tc := ⟨.hbm, 451, rfl⟩
abbrev main_c_66 : Ref sig .tc := ⟨.hbm, 452, rfl⟩
abbrev main_v363 : Ref sig .tc := ⟨.hbm, 453, rfl⟩
abbrev main_v364 : Ref sig .tc := ⟨.hbm, 454, rfl⟩
abbrev main_c_67 : Ref sig .tc := ⟨.hbm, 455, rfl⟩
abbrev main_v365 : Ref sig .tc := ⟨.hbm, 456, rfl⟩
abbrev main_v366 : Ref sig .tc := ⟨.hbm, 457, rfl⟩
abbrev main_v367 : Ref sig .tc := ⟨.hbm, 458, rfl⟩
abbrev main_v368 : Ref sig .tc := ⟨.hbm, 459, rfl⟩
abbrev main_v369 : Ref sig .tc := ⟨.hbm, 460, rfl⟩
abbrev main_cst_68 : Ref sig .tc := ⟨.hbm, 461, rfl⟩
abbrev main_v370 : Ref sig .tc := ⟨.hbm, 462, rfl⟩
abbrev main_v371 : Ref sig .tc := ⟨.hbm, 463, rfl⟩
abbrev main_v372 : Ref sig .tc := ⟨.hbm, 464, rfl⟩
abbrev main_cst_69 : Ref sig .tc := ⟨.hbm, 465, rfl⟩
abbrev main_v373 : Ref sig .tc := ⟨.hbm, 466, rfl⟩
abbrev main_v374 : Ref sig .tc := ⟨.hbm, 467, rfl⟩
abbrev main_v375 : Ref sig .tc := ⟨.hbm, 468, rfl⟩
abbrev main_v376 : Ref sig .tc := ⟨.hbm, 469, rfl⟩
abbrev main_v377 : Ref sig .tc := ⟨.hbm, 470, rfl⟩
abbrev main_v378 : Ref sig .tc := ⟨.hbm, 471, rfl⟩
abbrev main_v379 : Ref sig .tc := ⟨.hbm, 472, rfl⟩
abbrev main_v380 : Ref sig .tc := ⟨.hbm, 473, rfl⟩
abbrev main_v381 : Ref sig .tc := ⟨.hbm, 474, rfl⟩
abbrev main_v382 : Ref sig .tc := ⟨.hbm, 475, rfl⟩
abbrev main_v383 : Ref sig .tc := ⟨.hbm, 476, rfl⟩
abbrev main_v384 : Ref sig .tc := ⟨.hbm, 477, rfl⟩
abbrev main_v385 : Ref sig .tc := ⟨.hbm, 478, rfl⟩
abbrev main_v386 : Ref sig .tc := ⟨.hbm, 479, rfl⟩
abbrev main_v387 : Ref sig .tc := ⟨.hbm, 480, rfl⟩
abbrev main_v388 : Ref sig .tc := ⟨.hbm, 481, rfl⟩
abbrev main_v389 : Ref sig .tc := ⟨.hbm, 482, rfl⟩
abbrev main_v390 : Ref sig .tc := ⟨.hbm, 483, rfl⟩
abbrev main_cst_70 : Ref sig .tc := ⟨.hbm, 484, rfl⟩
abbrev main_v391 : Ref sig .tc := ⟨.hbm, 485, rfl⟩
abbrev main_cst_71 : Ref sig .tc := ⟨.hbm, 486, rfl⟩
abbrev main_v392 : Ref sig .tc := ⟨.hbm, 487, rfl⟩
abbrev main_v393 : Ref sig .tc := ⟨.hbm, 488, rfl⟩
abbrev main_cst_72 : Ref sig .tc := ⟨.hbm, 489, rfl⟩
abbrev main_call2_cst : Ref sig .tc := ⟨.hbm, 490, rfl⟩
abbrev main_call2_v0 : Ref sig .tc := ⟨.hbm, 491, rfl⟩
abbrev main_call2_v1 : Ref sig .tc := ⟨.hbm, 492, rfl⟩
abbrev main_call2_v2 : Ref sig .tc := ⟨.hbm, 493, rfl⟩
abbrev main_call2_v3 : Ref sig .tc := ⟨.hbm, 494, rfl⟩
abbrev main_call2_v4 : Ref sig .tc := ⟨.hbm, 495, rfl⟩
abbrev main_v394 : Ref sig .tc := ⟨.hbm, 496, rfl⟩
abbrev main_v395 : Ref sig .tc := ⟨.hbm, 497, rfl⟩
abbrev main_v396 : Ref sig .tc := ⟨.hbm, 498, rfl⟩
abbrev main_v397 : Ref sig .tc := ⟨.hbm, 499, rfl⟩
abbrev main_v398 : Ref sig .tc := ⟨.hbm, 500, rfl⟩
abbrev main_cst_73 : Ref sig .tc := ⟨.hbm, 501, rfl⟩
abbrev main_v399 : Ref sig .tc := ⟨.hbm, 502, rfl⟩
abbrev main_v400 : Ref sig .tc := ⟨.hbm, 503, rfl⟩
abbrev main_v401 : Ref sig .tc := ⟨.hbm, 504, rfl⟩
abbrev main_v402 : Ref sig .tc := ⟨.hbm, 505, rfl⟩
abbrev main_v403 : Ref sig .tc := ⟨.hbm, 506, rfl⟩
abbrev main_cst_74 : Ref sig .tc := ⟨.hbm, 507, rfl⟩
abbrev main_v404 : Ref sig .tc := ⟨.hbm, 508, rfl⟩
abbrev main_v405 : Ref sig .tc := ⟨.hbm, 509, rfl⟩
abbrev main_v406 : Ref sig .tc := ⟨.hbm, 510, rfl⟩
abbrev main_cst_75 : Ref sig .tc := ⟨.hbm, 511, rfl⟩
abbrev main_v407 : Ref sig .tc := ⟨.hbm, 512, rfl⟩
abbrev main_v408 : Ref sig .tc := ⟨.hbm, 513, rfl⟩
abbrev main_v409 : Ref sig .tc := ⟨.hbm, 514, rfl⟩
abbrev main_cst_76 : Ref sig .tc := ⟨.hbm, 515, rfl⟩
abbrev main_v410 : Ref sig .tc := ⟨.hbm, 516, rfl⟩
abbrev main_v411 : Ref sig .tc := ⟨.hbm, 517, rfl⟩
abbrev main_v412 : Ref sig .tc := ⟨.hbm, 518, rfl⟩
abbrev main_v413 : Ref sig .tc := ⟨.hbm, 519, rfl⟩
abbrev main_v414 : Ref sig .tc := ⟨.hbm, 520, rfl⟩
abbrev main_v415 : Ref sig .tc := ⟨.hbm, 521, rfl⟩
abbrev main_c_77 : Ref sig .tc := ⟨.hbm, 522, rfl⟩
abbrev main_v416 : Ref sig .tc := ⟨.hbm, 523, rfl⟩
abbrev main_v417 : Ref sig .tc := ⟨.hbm, 524, rfl⟩
abbrev main_c_78 : Ref sig .tc := ⟨.hbm, 525, rfl⟩
abbrev main_v418 : Ref sig .tc := ⟨.hbm, 526, rfl⟩
abbrev main_v419 : Ref sig .tc := ⟨.hbm, 527, rfl⟩
abbrev main_v420 : Ref sig .tc := ⟨.hbm, 528, rfl⟩
abbrev main_v421 : Ref sig .tc := ⟨.hbm, 529, rfl⟩
abbrev main_v422 : Ref sig .tc := ⟨.hbm, 530, rfl⟩
abbrev main_cst_79 : Ref sig .tc := ⟨.hbm, 531, rfl⟩
abbrev main_v423 : Ref sig .tc := ⟨.hbm, 532, rfl⟩
abbrev main_v424 : Ref sig .tc := ⟨.hbm, 533, rfl⟩
abbrev main_v425 : Ref sig .tc := ⟨.hbm, 534, rfl⟩
abbrev main_cst_80 : Ref sig .tc := ⟨.hbm, 535, rfl⟩
abbrev main_v426 : Ref sig .tc := ⟨.hbm, 536, rfl⟩
abbrev main_v427 : Ref sig .tc := ⟨.hbm, 537, rfl⟩
abbrev main_v428 : Ref sig .tc := ⟨.hbm, 538, rfl⟩
abbrev main_v429 : Ref sig .tc := ⟨.hbm, 539, rfl⟩
abbrev main_v430 : Ref sig .tc := ⟨.hbm, 540, rfl⟩
abbrev main_v431 : Ref sig .tc := ⟨.hbm, 541, rfl⟩
abbrev main_v432 : Ref sig .tc := ⟨.hbm, 542, rfl⟩
abbrev main_v433 : Ref sig .tc := ⟨.hbm, 543, rfl⟩
abbrev main_v434 : Ref sig .tc := ⟨.hbm, 544, rfl⟩
abbrev main_v435 : Ref sig .tc := ⟨.hbm, 545, rfl⟩
abbrev main_v436 : Ref sig .tc := ⟨.hbm, 546, rfl⟩
abbrev main_v437 : Ref sig .tc := ⟨.hbm, 547, rfl⟩
abbrev main_v438 : Ref sig .tc := ⟨.hbm, 548, rfl⟩
abbrev main_v439 : Ref sig .tc := ⟨.hbm, 549, rfl⟩
abbrev main_v440 : Ref sig .tc := ⟨.hbm, 550, rfl⟩
abbrev main_v441 : Ref sig .tc := ⟨.hbm, 551, rfl⟩
abbrev main_v442 : Ref sig .tc := ⟨.hbm, 552, rfl⟩
abbrev main_v443 : Ref sig .tc := ⟨.hbm, 553, rfl⟩
abbrev main_cst_81 : Ref sig .tc := ⟨.hbm, 554, rfl⟩
abbrev main_v444 : Ref sig .tc := ⟨.hbm, 555, rfl⟩
abbrev main_v445 : Ref sig .tc := ⟨.hbm, 556, rfl⟩
abbrev main_v446 : Ref sig .tc := ⟨.hbm, 557, rfl⟩
abbrev main_cst_82 : Ref sig .tc := ⟨.hbm, 558, rfl⟩
abbrev main_v447 : Ref sig .tc := ⟨.hbm, 559, rfl⟩
abbrev main_v448 : Ref sig .tc := ⟨.hbm, 560, rfl⟩
abbrev main_v449 : Ref sig .tc := ⟨.hbm, 561, rfl⟩
abbrev main_cst_83 : Ref sig .tc := ⟨.hbm, 562, rfl⟩
abbrev main_v450 : Ref sig .tc := ⟨.hbm, 563, rfl⟩
abbrev main_v451 : Ref sig .tc := ⟨.hbm, 564, rfl⟩
abbrev main_v452 : Ref sig .tc := ⟨.hbm, 565, rfl⟩
abbrev main_v453 : Ref sig .tc := ⟨.hbm, 566, rfl⟩
abbrev main_v454 : Ref sig .tc := ⟨.hbm, 567, rfl⟩
abbrev main_v455 : Ref sig .tc := ⟨.hbm, 568, rfl⟩
abbrev main_c_84 : Ref sig .tc := ⟨.hbm, 569, rfl⟩
abbrev main_v456 : Ref sig .tc := ⟨.hbm, 570, rfl⟩
abbrev main_v457 : Ref sig .tc := ⟨.hbm, 571, rfl⟩
abbrev main_c_85 : Ref sig .tc := ⟨.hbm, 572, rfl⟩
abbrev main_v458 : Ref sig .tc := ⟨.hbm, 573, rfl⟩
abbrev main_v459 : Ref sig .tc := ⟨.hbm, 574, rfl⟩
abbrev main_v460 : Ref sig .tc := ⟨.hbm, 575, rfl⟩
abbrev main_v461 : Ref sig .tc := ⟨.hbm, 576, rfl⟩
abbrev main_v462 : Ref sig .tc := ⟨.hbm, 577, rfl⟩
abbrev main_cst_86 : Ref sig .tc := ⟨.hbm, 578, rfl⟩
abbrev main_v463 : Ref sig .tc := ⟨.hbm, 579, rfl⟩
abbrev main_v464 : Ref sig .tc := ⟨.hbm, 580, rfl⟩
abbrev main_v465 : Ref sig .tc := ⟨.hbm, 581, rfl⟩
abbrev main_cst_87 : Ref sig .tc := ⟨.hbm, 582, rfl⟩
abbrev main_v466 : Ref sig .tc := ⟨.hbm, 583, rfl⟩
abbrev main_v467 : Ref sig .tc := ⟨.hbm, 584, rfl⟩
abbrev main_v468 : Ref sig .tc := ⟨.hbm, 585, rfl⟩
abbrev main_v469 : Ref sig .tc := ⟨.hbm, 586, rfl⟩
abbrev main_v470 : Ref sig .tc := ⟨.hbm, 587, rfl⟩
abbrev main_v471 : Ref sig .tc := ⟨.hbm, 588, rfl⟩
abbrev main_v472 : Ref sig .tc := ⟨.hbm, 589, rfl⟩
abbrev main_v473 : Ref sig .tc := ⟨.hbm, 590, rfl⟩
abbrev main_v474 : Ref sig .tc := ⟨.hbm, 591, rfl⟩
abbrev main_v475 : Ref sig .tc := ⟨.hbm, 592, rfl⟩
abbrev main_v476 : Ref sig .tc := ⟨.hbm, 593, rfl⟩
abbrev main_v477 : Ref sig .tc := ⟨.hbm, 594, rfl⟩
abbrev main_v478 : Ref sig .tc := ⟨.hbm, 595, rfl⟩
abbrev main_v479 : Ref sig .tc := ⟨.hbm, 596, rfl⟩
abbrev main_v480 : Ref sig .tc := ⟨.hbm, 597, rfl⟩
abbrev main_v481 : Ref sig .tc := ⟨.hbm, 598, rfl⟩
abbrev main_v482 : Ref sig .tc := ⟨.hbm, 599, rfl⟩
abbrev main_v483 : Ref sig .tc := ⟨.hbm, 600, rfl⟩
abbrev main_cst_88 : Ref sig .tc := ⟨.hbm, 601, rfl⟩
abbrev main_v484 : Ref sig .tc := ⟨.hbm, 602, rfl⟩
abbrev main_v485 : Ref sig .tc := ⟨.hbm, 603, rfl⟩
abbrev main_v486 : Ref sig .tc := ⟨.hbm, 604, rfl⟩
abbrev main_cst_89 : Ref sig .tc := ⟨.hbm, 605, rfl⟩
abbrev main_v487 : Ref sig .tc := ⟨.hbm, 606, rfl⟩
abbrev main_v488 : Ref sig .tc := ⟨.hbm, 607, rfl⟩
abbrev main_v489 : Ref sig .tc := ⟨.hbm, 608, rfl⟩
abbrev main_cst_90 : Ref sig .tc := ⟨.hbm, 609, rfl⟩
abbrev main_v490 : Ref sig .tc := ⟨.hbm, 610, rfl⟩
abbrev main_v491 : Ref sig .tc := ⟨.hbm, 611, rfl⟩
abbrev main_v492 : Ref sig .tc := ⟨.hbm, 612, rfl⟩
abbrev main_v493 : Ref sig .tc := ⟨.hbm, 613, rfl⟩
abbrev main_v494 : Ref sig .tc := ⟨.hbm, 614, rfl⟩
abbrev main_v495 : Ref sig .tc := ⟨.hbm, 615, rfl⟩
abbrev main_c_91 : Ref sig .tc := ⟨.hbm, 616, rfl⟩
abbrev main_v496 : Ref sig .tc := ⟨.hbm, 617, rfl⟩
abbrev main_v497 : Ref sig .tc := ⟨.hbm, 618, rfl⟩
abbrev main_c_92 : Ref sig .tc := ⟨.hbm, 619, rfl⟩
abbrev main_v498 : Ref sig .tc := ⟨.hbm, 620, rfl⟩
abbrev main_v499 : Ref sig .tc := ⟨.hbm, 621, rfl⟩
abbrev main_v500 : Ref sig .tc := ⟨.hbm, 622, rfl⟩
abbrev main_v501 : Ref sig .tc := ⟨.hbm, 623, rfl⟩
abbrev main_v502 : Ref sig .tc := ⟨.hbm, 624, rfl⟩
abbrev main_cst_93 : Ref sig .tc := ⟨.hbm, 625, rfl⟩
abbrev main_v503 : Ref sig .tc := ⟨.hbm, 626, rfl⟩
abbrev main_v504 : Ref sig .tc := ⟨.hbm, 627, rfl⟩
abbrev main_v505 : Ref sig .tc := ⟨.hbm, 628, rfl⟩
abbrev main_cst_94 : Ref sig .tc := ⟨.hbm, 629, rfl⟩
abbrev main_v506 : Ref sig .tc := ⟨.hbm, 630, rfl⟩
abbrev main_v507 : Ref sig .tc := ⟨.hbm, 631, rfl⟩
abbrev main_v508 : Ref sig .tc := ⟨.hbm, 632, rfl⟩
abbrev main_v509 : Ref sig .tc := ⟨.hbm, 633, rfl⟩
abbrev main_v510 : Ref sig .tc := ⟨.hbm, 634, rfl⟩
abbrev main_v511 : Ref sig .tc := ⟨.hbm, 635, rfl⟩
abbrev main_v512 : Ref sig .tc := ⟨.hbm, 636, rfl⟩
abbrev main_v513 : Ref sig .tc := ⟨.hbm, 637, rfl⟩
abbrev main_v514 : Ref sig .tc := ⟨.hbm, 638, rfl⟩
abbrev main_v515 : Ref sig .tc := ⟨.hbm, 639, rfl⟩
abbrev main_v516 : Ref sig .tc := ⟨.hbm, 640, rfl⟩
abbrev main_v517 : Ref sig .tc := ⟨.hbm, 641, rfl⟩
abbrev main_v518 : Ref sig .tc := ⟨.hbm, 642, rfl⟩
abbrev main_v519 : Ref sig .tc := ⟨.hbm, 643, rfl⟩
abbrev main_v520 : Ref sig .tc := ⟨.hbm, 644, rfl⟩
abbrev main_v521 : Ref sig .tc := ⟨.hbm, 645, rfl⟩
abbrev main_v522 : Ref sig .tc := ⟨.hbm, 646, rfl⟩
abbrev main_v523 : Ref sig .tc := ⟨.hbm, 647, rfl⟩
abbrev main_cst_95 : Ref sig .tc := ⟨.hbm, 648, rfl⟩
abbrev main_v524 : Ref sig .tc := ⟨.hbm, 649, rfl⟩
abbrev main_cst_96 : Ref sig .tc := ⟨.hbm, 650, rfl⟩
abbrev main_v525 : Ref sig .tc := ⟨.hbm, 651, rfl⟩
abbrev main_v526 : Ref sig .tc := ⟨.hbm, 652, rfl⟩
abbrev main_cst_97 : Ref sig .tc := ⟨.hbm, 653, rfl⟩
abbrev main_call3_cst : Ref sig .tc := ⟨.hbm, 654, rfl⟩
abbrev main_call3_v0 : Ref sig .tc := ⟨.hbm, 655, rfl⟩
abbrev main_call3_v1 : Ref sig .tc := ⟨.hbm, 656, rfl⟩
abbrev main_call3_v2 : Ref sig .tc := ⟨.hbm, 657, rfl⟩
abbrev main_call3_v3 : Ref sig .tc := ⟨.hbm, 658, rfl⟩
abbrev main_call3_v4 : Ref sig .tc := ⟨.hbm, 659, rfl⟩
abbrev main_v527 : Ref sig .tc := ⟨.hbm, 660, rfl⟩
abbrev main_v528 : Ref sig .tc := ⟨.hbm, 661, rfl⟩
abbrev main_v529 : Ref sig .tc := ⟨.hbm, 662, rfl⟩
abbrev main_v530 : Ref sig .tc := ⟨.hbm, 663, rfl⟩
abbrev main_v531 : Ref sig .tc := ⟨.hbm, 664, rfl⟩
abbrev main_cst_98 : Ref sig .tc := ⟨.hbm, 665, rfl⟩
abbrev main_v532 : Ref sig .tc := ⟨.hbm, 666, rfl⟩
abbrev main_v533 : Ref sig .tc := ⟨.hbm, 667, rfl⟩
abbrev main_v534 : Ref sig .tc := ⟨.hbm, 668, rfl⟩
abbrev main_v535 : Ref sig .tc := ⟨.hbm, 669, rfl⟩
abbrev main_v536 : Ref sig .tc := ⟨.hbm, 670, rfl⟩
abbrev main_cst_99 : Ref sig .tc := ⟨.hbm, 671, rfl⟩
abbrev main_v537 : Ref sig .tc := ⟨.hbm, 672, rfl⟩
abbrev main_v538 : Ref sig .tc := ⟨.hbm, 673, rfl⟩
abbrev main_v539 : Ref sig .tc := ⟨.hbm, 674, rfl⟩
abbrev main_cst_100 : Ref sig .tc := ⟨.hbm, 675, rfl⟩
abbrev main_v540 : Ref sig .tc := ⟨.hbm, 676, rfl⟩
abbrev main_v541 : Ref sig .tc := ⟨.hbm, 677, rfl⟩
abbrev main_v542 : Ref sig .tc := ⟨.hbm, 678, rfl⟩
abbrev main_cst_101 : Ref sig .tc := ⟨.hbm, 679, rfl⟩
abbrev main_v543 : Ref sig .tc := ⟨.hbm, 680, rfl⟩
abbrev main_v544 : Ref sig .tc := ⟨.hbm, 681, rfl⟩
abbrev main_v545 : Ref sig .tc := ⟨.hbm, 682, rfl⟩
abbrev main_v546 : Ref sig .tc := ⟨.hbm, 683, rfl⟩
abbrev main_v547 : Ref sig .tc := ⟨.hbm, 684, rfl⟩
abbrev main_v548 : Ref sig .tc := ⟨.hbm, 685, rfl⟩
abbrev main_c_102 : Ref sig .tc := ⟨.hbm, 686, rfl⟩
abbrev main_v549 : Ref sig .tc := ⟨.hbm, 687, rfl⟩
abbrev main_v550 : Ref sig .tc := ⟨.hbm, 688, rfl⟩
abbrev main_c_103 : Ref sig .tc := ⟨.hbm, 689, rfl⟩
abbrev main_v551 : Ref sig .tc := ⟨.hbm, 690, rfl⟩
abbrev main_v552 : Ref sig .tc := ⟨.hbm, 691, rfl⟩
abbrev main_v553 : Ref sig .tc := ⟨.hbm, 692, rfl⟩
abbrev main_v554 : Ref sig .tc := ⟨.hbm, 693, rfl⟩
abbrev main_v555 : Ref sig .tc := ⟨.hbm, 694, rfl⟩
abbrev main_cst_104 : Ref sig .tc := ⟨.hbm, 695, rfl⟩
abbrev main_v556 : Ref sig .tc := ⟨.hbm, 696, rfl⟩
abbrev main_v557 : Ref sig .tc := ⟨.hbm, 697, rfl⟩
abbrev main_v558 : Ref sig .tc := ⟨.hbm, 698, rfl⟩
abbrev main_cst_105 : Ref sig .tc := ⟨.hbm, 699, rfl⟩
abbrev main_v559 : Ref sig .tc := ⟨.hbm, 700, rfl⟩
abbrev main_v560 : Ref sig .tc := ⟨.hbm, 701, rfl⟩
abbrev main_v561 : Ref sig .tc := ⟨.hbm, 702, rfl⟩
abbrev main_v562 : Ref sig .tc := ⟨.hbm, 703, rfl⟩
abbrev main_v563 : Ref sig .tc := ⟨.hbm, 704, rfl⟩
abbrev main_v564 : Ref sig .tc := ⟨.hbm, 705, rfl⟩
abbrev main_v565 : Ref sig .tc := ⟨.hbm, 706, rfl⟩
abbrev main_v566 : Ref sig .tc := ⟨.hbm, 707, rfl⟩
abbrev main_v567 : Ref sig .tc := ⟨.hbm, 708, rfl⟩
abbrev main_v568 : Ref sig .tc := ⟨.hbm, 709, rfl⟩
abbrev main_v569 : Ref sig .tc := ⟨.hbm, 710, rfl⟩
abbrev main_v570 : Ref sig .tc := ⟨.hbm, 711, rfl⟩
abbrev main_v571 : Ref sig .tc := ⟨.hbm, 712, rfl⟩
abbrev main_v572 : Ref sig .tc := ⟨.hbm, 713, rfl⟩
abbrev main_v573 : Ref sig .tc := ⟨.hbm, 714, rfl⟩
abbrev main_v574 : Ref sig .tc := ⟨.hbm, 715, rfl⟩
abbrev main_v575 : Ref sig .tc := ⟨.hbm, 716, rfl⟩
abbrev main_v576 : Ref sig .tc := ⟨.hbm, 717, rfl⟩
abbrev main_cst_106 : Ref sig .tc := ⟨.hbm, 718, rfl⟩
abbrev main_v577 : Ref sig .tc := ⟨.hbm, 719, rfl⟩
abbrev main_v578 : Ref sig .tc := ⟨.hbm, 720, rfl⟩
abbrev main_v579 : Ref sig .tc := ⟨.hbm, 721, rfl⟩
abbrev main_cst_107 : Ref sig .tc := ⟨.hbm, 722, rfl⟩
abbrev main_v580 : Ref sig .tc := ⟨.hbm, 723, rfl⟩
abbrev main_v581 : Ref sig .tc := ⟨.hbm, 724, rfl⟩
abbrev main_v582 : Ref sig .tc := ⟨.hbm, 725, rfl⟩
abbrev main_cst_108 : Ref sig .tc := ⟨.hbm, 726, rfl⟩
abbrev main_v583 : Ref sig .tc := ⟨.hbm, 727, rfl⟩
abbrev main_v584 : Ref sig .tc := ⟨.hbm, 728, rfl⟩
abbrev main_v585 : Ref sig .tc := ⟨.hbm, 729, rfl⟩
abbrev main_v586 : Ref sig .tc := ⟨.hbm, 730, rfl⟩
abbrev main_v587 : Ref sig .tc := ⟨.hbm, 731, rfl⟩
abbrev main_v588 : Ref sig .tc := ⟨.hbm, 732, rfl⟩
abbrev main_c_109 : Ref sig .tc := ⟨.hbm, 733, rfl⟩
abbrev main_v589 : Ref sig .tc := ⟨.hbm, 734, rfl⟩
abbrev main_v590 : Ref sig .tc := ⟨.hbm, 735, rfl⟩
abbrev main_c_110 : Ref sig .tc := ⟨.hbm, 736, rfl⟩
abbrev main_v591 : Ref sig .tc := ⟨.hbm, 737, rfl⟩
abbrev main_v592 : Ref sig .tc := ⟨.hbm, 738, rfl⟩
abbrev main_v593 : Ref sig .tc := ⟨.hbm, 739, rfl⟩
abbrev main_v594 : Ref sig .tc := ⟨.hbm, 740, rfl⟩
abbrev main_v595 : Ref sig .tc := ⟨.hbm, 741, rfl⟩
abbrev main_cst_111 : Ref sig .tc := ⟨.hbm, 742, rfl⟩
abbrev main_v596 : Ref sig .tc := ⟨.hbm, 743, rfl⟩
abbrev main_v597 : Ref sig .tc := ⟨.hbm, 744, rfl⟩
abbrev main_v598 : Ref sig .tc := ⟨.hbm, 745, rfl⟩
abbrev main_cst_112 : Ref sig .tc := ⟨.hbm, 746, rfl⟩
abbrev main_v599 : Ref sig .tc := ⟨.hbm, 747, rfl⟩
abbrev main_v600 : Ref sig .tc := ⟨.hbm, 748, rfl⟩
abbrev main_v601 : Ref sig .tc := ⟨.hbm, 749, rfl⟩
abbrev main_v602 : Ref sig .tc := ⟨.hbm, 750, rfl⟩
abbrev main_v603 : Ref sig .tc := ⟨.hbm, 751, rfl⟩
abbrev main_v604 : Ref sig .tc := ⟨.hbm, 752, rfl⟩
abbrev main_v605 : Ref sig .tc := ⟨.hbm, 753, rfl⟩
abbrev main_v606 : Ref sig .tc := ⟨.hbm, 754, rfl⟩
abbrev main_v607 : Ref sig .tc := ⟨.hbm, 755, rfl⟩
abbrev main_v608 : Ref sig .tc := ⟨.hbm, 756, rfl⟩
abbrev main_v609 : Ref sig .tc := ⟨.hbm, 757, rfl⟩
abbrev main_v610 : Ref sig .tc := ⟨.hbm, 758, rfl⟩
abbrev main_v611 : Ref sig .tc := ⟨.hbm, 759, rfl⟩
abbrev main_v612 : Ref sig .tc := ⟨.hbm, 760, rfl⟩
abbrev main_v613 : Ref sig .tc := ⟨.hbm, 761, rfl⟩
abbrev main_v614 : Ref sig .tc := ⟨.hbm, 762, rfl⟩
abbrev main_v615 : Ref sig .tc := ⟨.hbm, 763, rfl⟩
abbrev main_v616 : Ref sig .tc := ⟨.hbm, 764, rfl⟩
abbrev main_cst_113 : Ref sig .tc := ⟨.hbm, 765, rfl⟩
abbrev main_v617 : Ref sig .tc := ⟨.hbm, 766, rfl⟩
abbrev main_v618 : Ref sig .tc := ⟨.hbm, 767, rfl⟩
abbrev main_v619 : Ref sig .tc := ⟨.hbm, 768, rfl⟩
abbrev main_cst_114 : Ref sig .tc := ⟨.hbm, 769, rfl⟩
abbrev main_v620 : Ref sig .tc := ⟨.hbm, 770, rfl⟩
abbrev main_v621 : Ref sig .tc := ⟨.hbm, 771, rfl⟩
abbrev main_v622 : Ref sig .tc := ⟨.hbm, 772, rfl⟩
abbrev main_cst_115 : Ref sig .tc := ⟨.hbm, 773, rfl⟩
abbrev main_v623 : Ref sig .tc := ⟨.hbm, 774, rfl⟩
abbrev main_v624 : Ref sig .tc := ⟨.hbm, 775, rfl⟩
abbrev main_v625 : Ref sig .tc := ⟨.hbm, 776, rfl⟩
abbrev main_v626 : Ref sig .tc := ⟨.hbm, 777, rfl⟩
abbrev main_v627 : Ref sig .tc := ⟨.hbm, 778, rfl⟩
abbrev main_v628 : Ref sig .tc := ⟨.hbm, 779, rfl⟩
abbrev main_c_116 : Ref sig .tc := ⟨.hbm, 780, rfl⟩
abbrev main_v629 : Ref sig .tc := ⟨.hbm, 781, rfl⟩
abbrev main_v630 : Ref sig .tc := ⟨.hbm, 782, rfl⟩
abbrev main_c_117 : Ref sig .tc := ⟨.hbm, 783, rfl⟩
abbrev main_v631 : Ref sig .tc := ⟨.hbm, 784, rfl⟩
abbrev main_v632 : Ref sig .tc := ⟨.hbm, 785, rfl⟩
abbrev main_v633 : Ref sig .tc := ⟨.hbm, 786, rfl⟩
abbrev main_v634 : Ref sig .tc := ⟨.hbm, 787, rfl⟩
abbrev main_v635 : Ref sig .tc := ⟨.hbm, 788, rfl⟩
abbrev main_cst_118 : Ref sig .tc := ⟨.hbm, 789, rfl⟩
abbrev main_v636 : Ref sig .tc := ⟨.hbm, 790, rfl⟩
abbrev main_v637 : Ref sig .tc := ⟨.hbm, 791, rfl⟩
abbrev main_v638 : Ref sig .tc := ⟨.hbm, 792, rfl⟩
abbrev main_cst_119 : Ref sig .tc := ⟨.hbm, 793, rfl⟩
abbrev main_v639 : Ref sig .tc := ⟨.hbm, 794, rfl⟩
abbrev main_v640 : Ref sig .tc := ⟨.hbm, 795, rfl⟩
abbrev main_v641 : Ref sig .tc := ⟨.hbm, 796, rfl⟩
abbrev main_v642 : Ref sig .tc := ⟨.hbm, 797, rfl⟩
abbrev main_v643 : Ref sig .tc := ⟨.hbm, 798, rfl⟩
abbrev main_v644 : Ref sig .tc := ⟨.hbm, 799, rfl⟩
abbrev main_v645 : Ref sig .tc := ⟨.hbm, 800, rfl⟩
abbrev main_v646 : Ref sig .tc := ⟨.hbm, 801, rfl⟩
abbrev main_v647 : Ref sig .tc := ⟨.hbm, 802, rfl⟩
abbrev main_v648 : Ref sig .tc := ⟨.hbm, 803, rfl⟩
abbrev main_v649 : Ref sig .tc := ⟨.hbm, 804, rfl⟩
abbrev main_v650 : Ref sig .tc := ⟨.hbm, 805, rfl⟩
abbrev main_v651 : Ref sig .tc := ⟨.hbm, 806, rfl⟩
abbrev main_v652 : Ref sig .tc := ⟨.hbm, 807, rfl⟩
abbrev main_v653 : Ref sig .tc := ⟨.hbm, 808, rfl⟩
abbrev main_v654 : Ref sig .tc := ⟨.hbm, 809, rfl⟩
abbrev main_v655 : Ref sig .tc := ⟨.hbm, 810, rfl⟩
abbrev main_v656 : Ref sig .tc := ⟨.hbm, 811, rfl⟩
abbrev main_cst_120 : Ref sig .tc := ⟨.hbm, 812, rfl⟩
abbrev main_v657 : Ref sig .tc := ⟨.hbm, 813, rfl⟩
abbrev main_cst_121 : Ref sig .tc := ⟨.hbm, 814, rfl⟩
abbrev main_v658 : Ref sig .tc := ⟨.hbm, 815, rfl⟩
abbrev main_v659 : Ref sig .tc := ⟨.hbm, 816, rfl⟩
abbrev main_v660 : Ref sig .tc := ⟨.hbm, 817, rfl⟩
abbrev main_v661 : Ref sig .tc := ⟨.hbm, 818, rfl⟩
abbrev main_v662 : Ref sig .tc := ⟨.hbm, 819, rfl⟩
abbrev main_v663 : Ref sig .tc := ⟨.hbm, 820, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  slices_S3x800000_S1x800000_0_0 : S3x800000.Slices ![0, 0] S1x800000
  shapeCasts_S1x800000_S800000 : S1x800000.ShapeCasts S800000
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x800000_S1x800000_1_0 : S3x800000.Slices ![1, 0] S1x800000
  slices_S3x128x128_S1x128x128_1_0_0 : S3x128x128.Slices ![1, 0, 0] S1x128x128
  slices_S3x128_S1x128_1_0 : S3x128.Slices ![1, 0] S1x128
  slices_S3x800000_S1x800000_2_0 : S3x800000.Slices ![2, 0] S1x800000
  slices_S3x128x128_S1x128x128_2_0_0 : S3x128x128.Slices ![2, 0, 0] S1x128x128
  slices_S3x128_S1x128_2_0 : S3x128.Slices ![2, 0] S1x128
  bcast_S50000x128_S1x50000x128_1_2 : S50000x128.BroadcastsInDim S1x50000x128 (![1, 2] : Fin 2 → Fin S1x50000x128.rank)
  concatenates_S1x50000x128_S1x50000x128_S1x50000x128_S3x50000x128_d0 : Shape.Concatenates [S1x50000x128, S1x50000x128, S1x50000x128] S3x50000x128 0
  reducesTo_S3x50000x128_S50000x128_d0 : S3x50000x128.ReducesTo [0] S50000x128
  h_S_ : 0 < S_.numel
  slices_S4x3x128x128_S1x3x128x128_0_0_0_0 : S4x3x128x128.Slices ![0, 0, 0, 0] S1x3x128x128
  shapeCasts_S1x3x128x128_S3x128x128 : S1x3x128x128.ShapeCasts S3x128x128
  slices_S4x3x128_S1x3x128_0_0_0 : S4x3x128.Slices ![0, 0, 0] S1x3x128
  shapeCasts_S1x3x128_S3x128 : S1x3x128.ShapeCasts S3x128
  slices_S4x3x128x128_S1x3x128x128_1_0_0_0 : S4x3x128x128.Slices ![1, 0, 0, 0] S1x3x128x128
  slices_S4x3x128_S1x3x128_1_0_0 : S4x3x128.Slices ![1, 0, 0] S1x3x128
  slices_S4x3x128x128_S1x3x128x128_2_0_0_0 : S4x3x128x128.Slices ![2, 0, 0, 0] S1x3x128x128
  slices_S4x3x128_S1x3x128_2_0_0 : S4x3x128.Slices ![2, 0, 0] S1x3x128
  slices_S4x3x128x128_S1x3x128x128_3_0_0_0 : S4x3x128x128.Slices ![3, 0, 0, 0] S1x3x128x128
  slices_S4x3x128_S1x3x128_3_0_0 : S4x3x128.Slices ![3, 0, 0] S1x3x128
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KBase0.lean ====
/-
  Region 0 (the first graph-convolution layer's fused kernel): the schedule facts its body's runs are stated
  over. The grid is 25 row tiles by 3 relations, walked row tile by row tile; a point t is (t / 3, t % 3).
  The body zeroes its accumulator at relation 0, adds one relation's tile product at every point, and
  stores the activated mean into the output block at relation 2 only.
-/
import proofs.«165758_j22333829939343_1_alg».proof.Proof.Gen.KernelIdeal.Launch
import proofs.«165758_j22333829939343_1_alg».proof.Proof.Gen.KernelIdeal.Skeleton
import proofs.«165758_j22333829939343_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's two conditions over the grid -/

/-- "This is relation 0": the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 3 = 0 :=
  (by decide +kernel : ∀ t : Fin grid0.N, cond0_0 (grid0.coords t) ↔ t.val % 3 = 0)

/-- "This is relation 2": the output block is stored. -/
abbrev cond0_1 (i : grid0.Coords) : Prop := k0_cond2 i = 1#1
theorem hcond0_1 : ∀ t : Fin cfg0.N, cond0_1 (grid0.coords t) ↔ t.val % 3 = 2 :=
  (by decide +kernel : ∀ t : Fin grid0.N, cond0_1 (grid0.coords t) ↔ t.val % 3 = 2)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem liveAt0_3_C : ∀ t : Fin cfg0.N, ¬cond0_0 (grid0.coords t) → cond0_1 (grid0.coords t) → cfg0.idle 3 (grid0.coords t) = false := by decide +kernel

/-! ## The memrefs the body is called with -/

abbrev VO0_3 : View sig .tc .vmem S2000x128 .f32 := (Memref.whole cc0_stg3_0 : Memref sig .tc .vmem S2000x128 .f32).view
abbrev ms0_0 (t : Fin cfg0.N) : Memref sig .tc .vmem S1x2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2000x128 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S2000x128 .f32 := Memref.whole cc0_scratch0
abbrev VS0_0 : View sig .tc .vmem S2000x128 .f32 := scM0_0.view

/-- The region's resting invariant with the accumulator split out as a memref owned at some contents. -/
theorem PhiA0_eq (c : Dev nD) :
    (Pipeline.ΦA spec0 c : sProp 𝕄)
      = iprop(iprop((∃ d, owns (c : Thread nD τ) scM0_0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.KernelIdeal.Hand

end
-- ==== Proof.KRun0A.lean ====
/-
  Region 0: the kernel body run once in case A of its two conditions.
-/
import proofs.«165758_j22333829939343_1_alg».proof.Proof.KBase0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body in case A on whole memrefs: the three input blocks at their contents, the output block at any
    contents (this case leaves it as it is), the accumulator at anything (it is overwritten with zeros first); it ends
    with the inputs and the output block as they were and the accumulator with the listed pieces written (last first). -/
noncomputable def kernelRun0_A (c : Dev nD) (i : grid0.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond0_0 i) (hc1 : ¬cond0_1 i)
    (x0 : Vec F S1x2000x128 .f32) (x1 : Vec F S1x128x128 .f32) (x2 : Vec F S1x1x128 .f32) :
    { LS0 : List (View.Piece (Elt F) S2000x128 .f32) //
      ∀ (e3 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare e3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare e3 ∗ (∃ f, arg6.view.loc (c : Thread nD τ) ↦[arg6.view.set]{fullShare} arg6.view.writes (Elt F) f LS0)) -∗ K ⟨⟩))
          ⊢ wp frame (wpE (defs₀ (F := F)) Variants.none c none) E (cc0__gconv_kernel i arg2 harg2 arg3 harg3 arg4 harg4 arg5 harg5 arg6 harg6) K } := by
  refine ⟨?_, fun e3 E K => ?run⟩
  case run =>
    simp only [cc0__gconv_kernel_eq_skeleton]; unfold cc0__gconv_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists f3; isplitr; · ipureintro; exact hf3
      iexact H3
    iexists _; iexact HS0

end Cert.KernelIdeal.Hand

end
-- ==== Proof.KRun0B.lean ====
/-
  Region 0: the kernel body run once in case B of its two conditions.
-/
import proofs.«165758_j22333829939343_1_alg».proof.Proof.KBase0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body in case B on whole memrefs: the three input blocks at their contents, the output block at any
    contents (this case leaves it as it is), the accumulator at what the point before left; it ends
    with the inputs and the output block as they were and the accumulator with the listed pieces written (last first). -/
noncomputable def kernelRun0_B (c : Dev nD) (i : grid0.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond0_0 i) (hc1 : ¬cond0_1 i)
    (x0 : Vec F S1x2000x128 .f32) (x1 : Vec F S1x128x128 .f32) (x2 : Vec F S1x1x128 .f32) (xs0 : Vec F S2000x128 .f32) :
    { LS0 : List (View.Piece (Elt F) S2000x128 .f32) //
      ∀ (e3 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare e3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare e3 ∗ (∃ f, arg6.view.loc (c : Thread nD τ) ↦[arg6.view.set]{fullShare} arg6.view.writes (Elt F) f LS0)) -∗ K ⟨⟩))
          ⊢ wp frame (wpE (defs₀ (F := F)) Variants.none c none) E (cc0__gconv_kernel i arg2 harg2 arg3 harg3 arg4 harg4 arg5 harg5 arg6 harg6) K } := by
  refine ⟨?_, fun e3 E K => ?run⟩
  case run =>
    simp only [cc0__gconv_kernel_eq_skeleton]; unfold cc0__gconv_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists f3; isplitr; · ipureintro; exact hf3
      iexact H3
    iexists _; iexact HS0

end Cert.KernelIdeal.Hand

end
-- ==== Proof.KRun0C.lean ====
/-
  Region 0: the kernel body run once in case C of its two conditions.
-/
import proofs.«165758_j22333829939343_1_alg».proof.Proof.KBase0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body in case C on whole memrefs: the three input blocks at their contents, the output block at anything,
    the accumulator at what the point before left; it ends with the inputs as they were and the
    output block and the accumulator with the listed pieces written (last first). -/
noncomputable def kernelRun0_C (c : Dev nD) (i : grid0.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond0_0 i) (hc1 : cond0_1 i)
    (x0 : Vec F S1x2000x128 .f32) (x1 : Vec F S1x128x128 .f32) (x2 : Vec F S1x1x128 .f32) (xs0 : Vec F S2000x128 .f32) :
    Σ' (L3 : List (View.Piece (Elt F) S2000x128 .f32)), { LS0 : List (View.Piece (Elt F) S2000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gconv_kernel i arg2 harg2 arg3 harg3 arg4 harg4 arg5 harg5 arg6 harg6) K } := by
  refine ⟨?_, ?_, fun E K => ?run⟩
  case run =>
    simp only [cc0__gconv_kernel_eq_skeleton]; unfold cc0__gconv_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KFrame0.lean ====
/-
  Region 0: what the accumulator and the output block hold after each grid point, the region's proof data, and
  the body obligation. The accumulator after point t holds the sum of the relations' tile products up to
  relation t % 3 of row tile t / 3; the output block is stored at relation 2 and is idle elsewhere.
-/
import proofs.«165758_j22333829939343_1_alg».proof.Proof.KRun0A
import proofs.«165758_j22333829939343_1_alg».proof.Proof.KRun0B
import proofs.«165758_j22333829939343_1_alg».proof.Proof.KRun0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

theorem scover0_A_0 (c : Dev nD) (i : grid0.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond0_0 i) (hc1 : ¬cond0_1 i) (x0 : Vec F S1x2000x128 .f32) (x1 : Vec F S1x128x128 .f32) (x2 : Vec F S1x1x128 .f32) (y : S2000x128.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S2000x128.size (by sl_kernel_rfl) y
/-- The accumulator after a relation-0 point. -/
def sout0_A_0 (c : Dev nD) (i : grid0.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond0_0 i) (hc1 : ¬cond0_1 i) (x0 : Vec F S1x2000x128 .f32) (x1 : Vec F S1x128x128 .f32) (x2 : Vec F S1x1x128 .f32) : Vec F S2000x128 .f32 :=
  VS0_0.read (Elt F) (VS0_0.writes (Elt F) VS0_0.junk (kernelRun0_A c i arg2 harg2 arg3 harg3 arg4 harg4 arg5 harg5 arg6 harg6 hc0 hc1 x0 x1 x2).1)

theorem scover0_B_0 (c : Dev nD) (i : grid0.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond0_0 i) (hc1 : ¬cond0_1 i) (x0 : Vec F S1x2000x128 .f32) (x1 : Vec F S1x128x128 .f32) (x2 : Vec F S1x1x128 .f32) (xs0 : Vec F S2000x128 .f32) (y : S2000x128.Idx) :
    ∃ pc ∈ (kernelRun0_B c i arg2 harg2 arg3 harg3 arg4 harg4 arg5 harg5 arg6 harg6 hc0 hc1 x0 x1 x2 xs0).1, y ∈ pc.1.set :=
  View.cover_of_tiledL (kernelRun0_B c i arg2 harg2 arg3 harg3 arg4 harg4 arg5 harg5 arg6 harg6 hc0 hc1 x0 x1 x2 xs0).1 S2000x128.size (by sl_kernel_rfl) y
/-- The accumulator after a relation-1 point. -/
def sout0_B_0 (c : Dev nD) (i : grid0.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond0_0 i) (hc1 : ¬cond0_1 i) (x0 : Vec F S1x2000x128 .f32) (x1 : Vec F S1x128x128 .f32) (x2 : Vec F S1x1x128 .f32) (xs0 : Vec F S2000x128 .f32) : Vec F S2000x128 .f32 :=
  VS0_0.read (Elt F) (VS0_0.writes (Elt F) VS0_0.junk (kernelRun0_B c i arg2 harg2 arg3 harg3 arg4 harg4 arg5 harg5 arg6 harg6 hc0 hc1 x0 x1 x2 xs0).1)

theorem cover0_C_3 (c : Dev nD) (i : grid0.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond0_0 i) (hc1 : cond0_1 i) (x0 : Vec F S1x2000x128 .f32) (x1 : Vec F S1x128x128 .f32) (x2 : Vec F S1x1x128 .f32) (xs0 : Vec F S2000x128 .f32) (y : S2000x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S2000x128.size (by sl_kernel_rfl) y
/-- The output block after a relation-2 point. -/
def out0_C_3 (c : Dev nD) (i : grid0.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond0_0 i) (hc1 : cond0_1 i) (x0 : Vec F S1x2000x128 .f32) (x1 : Vec F S1x128x128 .f32) (x2 : Vec F S1x1x128 .f32) (xs0 : Vec F S2000x128 .f32) : Vec F S2000x128 .f32 :=
  VO0_3.read (Elt F) (VO0_3.writes (Elt F) VO0_3.junk (kernelRun0_C c i arg2 harg2 arg3 harg3 arg4 harg4 arg5 harg5 arg6 harg6 hc0 hc1 x0 x1 x2 xs0).1)
theorem scover0_C_0 (c : Dev nD) (i : grid0.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond0_0 i) (hc1 : cond0_1 i) (x0 : Vec F S1x2000x128 .f32) (x1 : Vec F S1x128x128 .f32) (x2 : Vec F S1x1x128 .f32) (xs0 : Vec F S2000x128 .f32) (y : S2000x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S2000x128.size (by sl_kernel_rfl) y
/-- The accumulator after a relation-2 point. -/
def sout0_C_0 (c : Dev nD) (i : grid0.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond0_0 i) (hc1 : cond0_1 i) (x0 : Vec F S1x2000x128 .f32) (x1 : Vec F S1x128x128 .f32) (x2 : Vec F S1x1x128 .f32) (xs0 : Vec F S2000x128 .f32) : Vec F S2000x128 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## Point by point -/

/-- What the output block's staging buffer and the accumulator hold after the body at position n (the output
    component is a placeholder at the points where the block is idle: nothing reads it there). -/
def outsAt0 (c : Dev nD) : (n : ℕ) → n < cfg0.N → Vec F S2000x128 .f32 × Vec F S2000x128 .f32
  | 0, hn => (VO0_3.junk, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 3 = 0 then
      (VO0_3.junk, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 3 = 2 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (VO0_3.junk, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

set_option maxHeartbeats 2000000 in
theorem outsAt0_A (c : Dev nD) (t : Fin cfg0.N) (h0 : t.val % 3 = 0) (hc1 : ¬cond0_1 (grid0.coords t)) :
    outsAt0 V c t.val t.isLt = (VO0_3.junk, sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) hc1 (iblk0 V c 0 t) (iblk0 V c 1 t) (iblk0 V c 2 t)) := by
  obtain ⟨n, hn⟩ := t
  cases n with
  | zero => exact rfl
  | succ n => exact (dif_pos h0).trans rfl

set_option maxHeartbeats 2000000 in
theorem outsAt0_B (c : Dev nD) (t : Fin cfg0.N) (h0 : ¬t.val % 3 = 0) (h1 : ¬t.val % 3 = 2) :
    outsAt0 V c t.val t.isLt = (VO0_3.junk, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact ((dif_neg h0).trans (dif_neg h1)).trans rfl

set_option maxHeartbeats 2000000 in
theorem outsAt0_C (c : Dev nD) (t : Fin cfg0.N) (h0 : ¬t.val % 3 = 0) (h1 : t.val % 3 = 2) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact ((dif_neg h0).trans (dif_pos h1)).trans rfl

/-- The region invariant before position n: at the first point the resting one; afterwards the accumulator at
    what the point before left, the rest of the scoped buffers unopened, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.KernelIdeal.Hand

end
-- ==== Proof.KBody0.lean ====
/-
  Region 0: the body obligation at every grid point, and the invariant's two ends. The point's relation
  (t % 3) selects the case; the invariant hands the body the accumulator at what the point before left
  (at anything before the first point) and takes it back at this point's contents.
-/
import proofs.«165758_j22333829939343_1_alg».proof.Proof.KFrame0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]; try rfl
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]; try rfl
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]; try rfl

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 75 := lt_of_lt_of_eq t.isLt (show cfg0.N = 75 from N_0)
  by_cases h0 : t.val % 3 = 0
  · have hc1 : ¬cond0_1 (grid0.coords t) := fun h => by have := (hcond0_1 t).mp h; omega
    rw [Dat.leavesExact_idle (dat0 V c) 3 t (idleAt0_3_A t ((hcond0_0 t).mpr h0) hc1) (noFlush0_3_A t ((hcond0_0 t).mpr h0) hc1)]
    rw [outsAt0_A V c t h0 hc1]
    unfold sout0_A_0; (try dsimp only)
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) ((hcond0_0 t).mpr h0) hc1 (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) ((hcond0_0 t).mpr h0) hc1 (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 3 = 2
    · rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_3 sout0_C_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the resting one back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 75 := N_0; omega)

end Cert.KernelIdeal.Hand

end
-- ==== Proof.KBase1.lean ====
/-
  Region 1 (graph-convolution layer 1's fused kernel): the schedule facts its body's runs are stated
  over. The grid is 25 row tiles by 3 relations, walked row tile by row tile; a point t is (t / 3, t % 3).
  The body zeroes its accumulator at relation 0, adds one relation's tile product at every point, and
  stores the activated mean into the output block at relation 2 only.
-/
import proofs.«165758_j22333829939343_1_alg».proof.Proof.Gen.KernelIdeal.Launch
import proofs.«165758_j22333829939343_1_alg».proof.Proof.Gen.KernelIdeal.Skeleton
import proofs.«165758_j22333829939343_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's two conditions over the grid -/

/-- "This is relation 0": the accumulator is reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 3 = 0 :=
  (by decide +kernel : ∀ t : Fin grid1.N, cond1_0 (grid1.coords t) ↔ t.val % 3 = 0)

/-- "This is relation 2": the output block is stored. -/
abbrev cond1_1 (i : grid1.Coords) : Prop := k1_cond2 i = 1#1
theorem hcond1_1 : ∀ t : Fin cfg1.N, cond1_1 (grid1.coords t) ↔ t.val % 3 = 2 :=
  (by decide +kernel : ∀ t : Fin grid1.N, cond1_1 (grid1.coords t) ↔ t.val % 3 = 2)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called with -/

abbrev VO1_3 : View sig .tc .vmem S2000x128 .f32 := (Memref.whole cc1_stg3_0 : Memref sig .tc .vmem S2000x128 .f32).view
abbrev ms1_0 (t : Fin cfg1.N) : Memref sig .tc .vmem S1x2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2000x128 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S2000x128 .f32 := Memref.whole cc1_scratch0
abbrev VS1_0 : View sig .tc .vmem S2000x128 .f32 := scM1_0.view

/-- The region's resting invariant with the accumulator split out as a memref owned at some contents. -/
theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.KernelIdeal.Hand

end
-- ==== Proof.KRun1A.lean ====
/-
  Region 1: the kernel body run once in case A of its two conditions.
-/
import proofs.«165758_j22333829939343_1_alg».proof.Proof.KBase1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body in case A on whole memrefs: the three input blocks at their contents, the output block at any
    contents (this case leaves it as it is), the accumulator at anything (it is overwritten with zeros first); it ends
    with the inputs and the output block as they were and the accumulator with the listed pieces written (last first). -/
noncomputable def kernelRun1_A (c : Dev nD) (i : grid1.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond1_0 i) (hc1 : ¬cond1_1 i)
    (x0 : Vec F S1x2000x128 .f32) (x1 : Vec F S1x128x128 .f32) (x2 : Vec F S1x1x128 .f32) :
    { LS0 : List (View.Piece (Elt F) S2000x128 .f32) //
      ∀ (e3 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare e3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare e3 ∗ (∃ f, arg6.view.loc (c : Thread nD τ) ↦[arg6.view.set]{fullShare} arg6.view.writes (Elt F) f LS0)) -∗ K ⟨⟩))
          ⊢ wp frame (wpE (defs₀ (F := F)) Variants.none c none) E (cc1__gconv_kernel i arg2 harg2 arg3 harg3 arg4 harg4 arg5 harg5 arg6 harg6) K } := by
  refine ⟨?_, fun e3 E K => ?run⟩
  case run =>
    simp only [cc1__gconv_kernel_eq_skeleton]; unfold cc1__gconv_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists f3; isplitr; · ipureintro; exact hf3
      iexact H3
    iexists _; iexact HS0

end Cert.KernelIdeal.Hand

end
-- ==== Proof.KRun1B.lean ====
/-
  Region 1: the kernel body run once in case B of its two conditions.
-/
import proofs.«165758_j22333829939343_1_alg».proof.Proof.KBase1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body in case B on whole memrefs: the three input blocks at their contents, the output block at any
    contents (this case leaves it as it is), the accumulator at what the point before left; it ends
    with the inputs and the output block as they were and the accumulator with the listed pieces written (last first). -/
noncomputable def kernelRun1_B (c : Dev nD) (i : grid1.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond1_0 i) (hc1 : ¬cond1_1 i)
    (x0 : Vec F S1x2000x128 .f32) (x1 : Vec F S1x128x128 .f32) (x2 : Vec F S1x1x128 .f32) (xs0 : Vec F S2000x128 .f32) :
    { LS0 : List (View.Piece (Elt F) S2000x128 .f32) //
      ∀ (e3 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare e3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare e3 ∗ (∃ f, arg6.view.loc (c : Thread nD τ) ↦[arg6.view.set]{fullShare} arg6.view.writes (Elt F) f LS0)) -∗ K ⟨⟩))
          ⊢ wp frame (wpE (defs₀ (F := F)) Variants.none c none) E (cc1__gconv_kernel i arg2 harg2 arg3 harg3 arg4 harg4 arg5 harg5 arg6 harg6) K } := by
  refine ⟨?_, fun e3 E K => ?run⟩
  case run =>
    simp only [cc1__gconv_kernel_eq_skeleton]; unfold cc1__gconv_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists f3; isplitr; · ipureintro; exact hf3
      iexact H3
    iexists _; iexact HS0

end Cert.KernelIdeal.Hand

end
-- ==== Proof.KRun1C.lean ====
/-
  Region 1: the kernel body run once in case C of its two conditions.
-/
import proofs.«165758_j22333829939343_1_alg».proof.Proof.KBase1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body in case C on whole memrefs: the three input blocks at their contents, the output block at anything,
    the accumulator at what the point before left; it ends with the inputs as they were and the
    output block and the accumulator with the listed pieces written (last first). -/
noncomputable def kernelRun1_C (c : Dev nD) (i : grid1.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond1_0 i) (hc1 : cond1_1 i)
    (x0 : Vec F S1x2000x128 .f32) (x1 : Vec F S1x128x128 .f32) (x2 : Vec F S1x1x128 .f32) (xs0 : Vec F S2000x128 .f32) :
    Σ' (L3 : List (View.Piece (Elt F) S2000x128 .f32)), { LS0 : List (View.Piece (Elt F) S2000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gconv_kernel i arg2 harg2 arg3 harg3 arg4 harg4 arg5 harg5 arg6 harg6) K } := by
  refine ⟨?_, ?_, fun E K => ?run⟩
  case run =>
    simp only [cc1__gconv_kernel_eq_skeleton]; unfold cc1__gconv_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KFrame1.lean ====
/-
  Region 1: what the accumulator and the output block hold after each grid point, the region's proof data, and
  the body obligation. The accumulator after point t holds the sum of the relations' tile products up to
  relation t % 3 of row tile t / 3; the output block is stored at relation 2 and is idle elsewhere.
-/
import proofs.«165758_j22333829939343_1_alg».proof.Proof.KRun1A
import proofs.«165758_j22333829939343_1_alg».proof.Proof.KRun1B
import proofs.«165758_j22333829939343_1_alg».proof.Proof.KRun1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

theorem scover1_A_0 (c : Dev nD) (i : grid1.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond1_0 i) (hc1 : ¬cond1_1 i) (x0 : Vec F S1x2000x128 .f32) (x1 : Vec F S1x128x128 .f32) (x2 : Vec F S1x1x128 .f32) (y : S2000x128.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S2000x128.size (by sl_kernel_rfl) y
/-- The accumulator after a relation-0 point. -/
def sout1_A_0 (c : Dev nD) (i : grid1.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond1_0 i) (hc1 : ¬cond1_1 i) (x0 : Vec F S1x2000x128 .f32) (x1 : Vec F S1x128x128 .f32) (x2 : Vec F S1x1x128 .f32) : Vec F S2000x128 .f32 :=
  VS1_0.read (Elt F) (VS1_0.writes (Elt F) VS1_0.junk (kernelRun1_A c i arg2 harg2 arg3 harg3 arg4 harg4 arg5 harg5 arg6 harg6 hc0 hc1 x0 x1 x2).1)

theorem scover1_B_0 (c : Dev nD) (i : grid1.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond1_0 i) (hc1 : ¬cond1_1 i) (x0 : Vec F S1x2000x128 .f32) (x1 : Vec F S1x128x128 .f32) (x2 : Vec F S1x1x128 .f32) (xs0 : Vec F S2000x128 .f32) (y : S2000x128.Idx) :
    ∃ pc ∈ (kernelRun1_B c i arg2 harg2 arg3 harg3 arg4 harg4 arg5 harg5 arg6 harg6 hc0 hc1 x0 x1 x2 xs0).1, y ∈ pc.1.set :=
  View.cover_of_tiledL (kernelRun1_B c i arg2 harg2 arg3 harg3 arg4 harg4 arg5 harg5 arg6 harg6 hc0 hc1 x0 x1 x2 xs0).1 S2000x128.size (by sl_kernel_rfl) y
/-- The accumulator after a relation-1 point. -/
def sout1_B_0 (c : Dev nD) (i : grid1.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond1_0 i) (hc1 : ¬cond1_1 i) (x0 : Vec F S1x2000x128 .f32) (x1 : Vec F S1x128x128 .f32) (x2 : Vec F S1x1x128 .f32) (xs0 : Vec F S2000x128 .f32) : Vec F S2000x128 .f32 :=
  VS1_0.read (Elt F) (VS1_0.writes (Elt F) VS1_0.junk (kernelRun1_B c i arg2 harg2 arg3 harg3 arg4 harg4 arg5 harg5 arg6 harg6 hc0 hc1 x0 x1 x2 xs0).1)

theorem cover1_C_3 (c : Dev nD) (i : grid1.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond1_0 i) (hc1 : cond1_1 i) (x0 : Vec F S1x2000x128 .f32) (x1 : Vec F S1x128x128 .f32) (x2 : Vec F S1x1x128 .f32) (xs0 : Vec F S2000x128 .f32) (y : S2000x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2000x128.size (by sl_kernel_rfl) y
/-- The output block after a relation-2 point. -/
def out1_C_3 (c : Dev nD) (i : grid1.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond1_0 i) (hc1 : cond1_1 i) (x0 : Vec F S1x2000x128 .f32) (x1 : Vec F S1x128x128 .f32) (x2 : Vec F S1x1x128 .f32) (xs0 : Vec F S2000x128 .f32) : Vec F S2000x128 .f32 :=
  VO1_3.read (Elt F) (VO1_3.writes (Elt F) VO1_3.junk (kernelRun1_C c i arg2 harg2 arg3 harg3 arg4 harg4 arg5 harg5 arg6 harg6 hc0 hc1 x0 x1 x2 xs0).1)
theorem scover1_C_0 (c : Dev nD) (i : grid1.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond1_0 i) (hc1 : cond1_1 i) (x0 : Vec F S1x2000x128 .f32) (x1 : Vec F S1x128x128 .f32) (x2 : Vec F S1x1x128 .f32) (xs0 : Vec F S2000x128 .f32) (y : S2000x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2000x128.size (by sl_kernel_rfl) y
/-- The accumulator after a relation-2 point. -/
def sout1_C_0 (c : Dev nD) (i : grid1.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond1_0 i) (hc1 : cond1_1 i) (x0 : Vec F S1x2000x128 .f32) (x1 : Vec F S1x128x128 .f32) (x2 : Vec F S1x1x128 .f32) (xs0 : Vec F S2000x128 .f32) : Vec F S2000x128 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## Point by point -/

/-- What the output block's staging buffer and the accumulator hold after the body at position n (the output
    component is a placeholder at the points where the block is idle: nothing reads it there). -/
def outsAt1 (c : Dev nD) : (n : ℕ) → n < cfg1.N → Vec F S2000x128 .f32 × Vec F S2000x128 .f32
  | 0, hn => (VO1_3.junk, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 3 = 0 then
      (VO1_3.junk, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 3 = 2 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (VO1_3.junk, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

set_option maxHeartbeats 2000000 in
theorem outsAt1_A (c : Dev nD) (t : Fin cfg1.N) (h0 : t.val % 3 = 0) (hc1 : ¬cond1_1 (grid1.coords t)) :
    outsAt1 V c t.val t.isLt = (VO1_3.junk, sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) hc1 (iblk1 V c 0 t) (iblk1 V c 1 t) (iblk1 V c 2 t)) := by
  obtain ⟨n, hn⟩ := t
  cases n with
  | zero => exact rfl
  | succ n => exact (dif_pos h0).trans rfl

set_option maxHeartbeats 2000000 in
theorem outsAt1_B (c : Dev nD) (t : Fin cfg1.N) (h0 : ¬t.val % 3 = 0) (h1 : ¬t.val % 3 = 2) :
    outsAt1 V c t.val t.isLt = (VO1_3.junk, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact ((dif_neg h0).trans (dif_neg h1)).trans rfl

set_option maxHeartbeats 2000000 in
theorem outsAt1_C (c : Dev nD) (t : Fin cfg1.N) (h0 : ¬t.val % 3 = 0) (h1 : t.val % 3 = 2) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact ((dif_neg h0).trans (dif_pos h1)).trans rfl

/-- The region invariant before position n: at the first point the resting one; afterwards the accumulator at
    what the point before left, the rest of the scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Hand

end
-- ==== Proof.KBody1.lean ====
/-
  Region 1: the body obligation at every grid point, and the invariant's two ends. The point's relation
  (t % 3) selects the case; the invariant hands the body the accumulator at what the point before left
  (at anything before the first point) and takes it back at this point's contents.
-/
import proofs.«165758_j22333829939343_1_alg».proof.Proof.KFrame1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]; try rfl
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]; try rfl
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]; try rfl

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 75 := lt_of_lt_of_eq t.isLt (show cfg1.N = 75 from N_1)
  by_cases h0 : t.val % 3 = 0
  · have hc1 : ¬cond1_1 (grid1.coords t) := fun h => by have := (hcond1_1 t).mp h; omega
    rw [Dat.leavesExact_idle (dat1 V c) 3 t (idleAt1_3_A t ((hcond1_0 t).mpr h0) hc1) (noFlush1_3_A t ((hcond1_0 t).mpr h0) hc1)]
    rw [outsAt1_A V c t h0 hc1]
    unfold sout1_A_0; (try dsimp only)
    by_cases hz : t.val = 0
    · rw [PhiS1_castSucc V c t, PhiS1_zero V c _ _ hz, PhiA1_eq]
      iintro ⟨⟨⟨HS0, Hrest⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) hc1 (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) hc1 (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 3 = 2
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the resting one back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 75 := N_1; omega)

end Cert.KernelIdeal.Hand

end
-- ==== Proof.KBase2.lean ====
/-
  Region 2 (graph-convolution layer 2's fused kernel): the schedule facts its body's runs are stated
  over. The grid is 25 row tiles by 3 relations, walked row tile by row tile; a point t is (t / 3, t % 3).
  The body zeroes its accumulator at relation 0, adds one relation's tile product at every point, and
  stores the activated mean into the output block at relation 2 only.
-/
import proofs.«165758_j22333829939343_1_alg».proof.Proof.Gen.KernelIdeal.Launch
import proofs.«165758_j22333829939343_1_alg».proof.Proof.Gen.KernelIdeal.Skeleton
import proofs.«165758_j22333829939343_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's two conditions over the grid -/

/-- "This is relation 0": the accumulator is reset. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 3 = 0 :=
  (by decide +kernel : ∀ t : Fin grid2.N, cond2_0 (grid2.coords t) ↔ t.val % 3 = 0)

/-- "This is relation 2": the output block is stored. -/
abbrev cond2_1 (i : grid2.Coords) : Prop := k2_cond2 i = 1#1
theorem hcond2_1 : ∀ t : Fin cfg2.N, cond2_1 (grid2.coords t) ↔ t.val % 3 = 2 :=
  (by decide +kernel : ∀ t : Fin grid2.N, cond2_1 (grid2.coords t) ↔ t.val % 3 = 2)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
theorem liveAt2_3_C : ∀ t : Fin cfg2.N, ¬cond2_0 (grid2.coords t) → cond2_1 (grid2.coords t) → cfg2.idle 3 (grid2.coords t) = false := by decide +kernel

/-! ## The memrefs the body is called with -/

abbrev VO2_3 : View sig .tc .vmem S2000x128 .f32 := (Memref.whole cc2_stg3_0 : Memref sig .tc .vmem S2000x128 .f32).view
abbrev ms2_0 (t : Fin cfg2.N) : Memref sig .tc .vmem S1x2000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2000x128 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2_0 : Memref sig .tc .vmem S2000x128 .f32 := Memref.whole cc2_scratch0
abbrev VS2_0 : View sig .tc .vmem S2000x128 .f32 := scM2_0.view

/-- The region's resting invariant with the accumulator split out as a memref owned at some contents. -/
theorem PhiA2_eq (c : Dev nD) :
    (Pipeline.ΦA spec2 c : sProp 𝕄)
      = iprop(iprop((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.KernelIdeal.Hand

end
-- ==== Proof.KRun2A.lean ====
/-
  Region 2: the kernel body run once in case A of its two conditions.
-/
import proofs.«165758_j22333829939343_1_alg».proof.Proof.KBase2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body in case A on whole memrefs: the three input blocks at their contents, the output block at any
    contents (this case leaves it as it is), the accumulator at anything (it is overwritten with zeros first); it ends
    with the inputs and the output block as they were and the accumulator with the listed pieces written (last first). -/
noncomputable def kernelRun2_A (c : Dev nD) (i : grid2.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond2_0 i) (hc1 : ¬cond2_1 i)
    (x0 : Vec F S1x2000x128 .f32) (x1 : Vec F S1x128x128 .f32) (x2 : Vec F S1x1x128 .f32) :
    { LS0 : List (View.Piece (Elt F) S2000x128 .f32) //
      ∀ (e3 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare e3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare e3 ∗ (∃ f, arg6.view.loc (c : Thread nD τ) ↦[arg6.view.set]{fullShare} arg6.view.writes (Elt F) f LS0)) -∗ K ⟨⟩))
          ⊢ wp frame (wpE (defs₀ (F := F)) Variants.none c none) E (cc2__gconv_kernel i arg2 harg2 arg3 harg3 arg4 harg4 arg5 harg5 arg6 harg6) K } := by
  refine ⟨?_, fun e3 E K => ?run⟩
  case run =>
    simp only [cc2__gconv_kernel_eq_skeleton]; unfold cc2__gconv_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists f3; isplitr; · ipureintro; exact hf3
      iexact H3
    iexists _; iexact HS0

end Cert.KernelIdeal.Hand

end
-- ==== Proof.KRun2B.lean ====
/-
  Region 2: the kernel body run once in case B of its two conditions.
-/
import proofs.«165758_j22333829939343_1_alg».proof.Proof.KBase2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body in case B on whole memrefs: the three input blocks at their contents, the output block at any
    contents (this case leaves it as it is), the accumulator at what the point before left; it ends
    with the inputs and the output block as they were and the accumulator with the listed pieces written (last first). -/
noncomputable def kernelRun2_B (c : Dev nD) (i : grid2.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : ¬cond2_1 i)
    (x0 : Vec F S1x2000x128 .f32) (x1 : Vec F S1x128x128 .f32) (x2 : Vec F S1x1x128 .f32) (xs0 : Vec F S2000x128 .f32) :
    { LS0 : List (View.Piece (Elt F) S2000x128 .f32) //
      ∀ (e3 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare e3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare e3 ∗ (∃ f, arg6.view.loc (c : Thread nD τ) ↦[arg6.view.set]{fullShare} arg6.view.writes (Elt F) f LS0)) -∗ K ⟨⟩))
          ⊢ wp frame (wpE (defs₀ (F := F)) Variants.none c none) E (cc2__gconv_kernel i arg2 harg2 arg3 harg3 arg4 harg4 arg5 harg5 arg6 harg6) K } := by
  refine ⟨?_, fun e3 E K => ?run⟩
  case run =>
    simp only [cc2__gconv_kernel_eq_skeleton]; unfold cc2__gconv_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists f3; isplitr; · ipureintro; exact hf3
      iexact H3
    iexists _; iexact HS0

end Cert.KernelIdeal.Hand

end
-- ==== Proof.KRun2C.lean ====
/-
  Region 2: the kernel body run once in case C of its two conditions.
-/
import proofs.«165758_j22333829939343_1_alg».proof.Proof.KBase2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body in case C on whole memrefs: the three input blocks at their contents, the output block at anything,
    the accumulator at what the point before left; it ends with the inputs as they were and the
    output block and the accumulator with the listed pieces written (last first). -/
noncomputable def kernelRun2_C (c : Dev nD) (i : grid2.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : cond2_1 i)
    (x0 : Vec F S1x2000x128 .f32) (x1 : Vec F S1x128x128 .f32) (x2 : Vec F S1x1x128 .f32) (xs0 : Vec F S2000x128 .f32) :
    Σ' (L3 : List (View.Piece (Elt F) S2000x128 .f32)), { LS0 : List (View.Piece (Elt F) S2000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__gconv_kernel i arg2 harg2 arg3 harg3 arg4 harg4 arg5 harg5 arg6 harg6) K } := by
  refine ⟨?_, ?_, fun E K => ?run⟩
  case run =>
    simp only [cc2__gconv_kernel_eq_skeleton]; unfold cc2__gconv_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KFrame2.lean ====
/-
  Region 2: what the accumulator and the output block hold after each grid point, the region's proof data, and
  the body obligation. The accumulator after point t holds the sum of the relations' tile products up to
  relation t % 3 of row tile t / 3; the output block is stored at relation 2 and is idle elsewhere.
-/
import proofs.«165758_j22333829939343_1_alg».proof.Proof.KRun2A
import proofs.«165758_j22333829939343_1_alg».proof.Proof.KRun2B
import proofs.«165758_j22333829939343_1_alg».proof.Proof.KRun2C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

theorem scover2_A_0 (c : Dev nD) (i : grid2.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond2_0 i) (hc1 : ¬cond2_1 i) (x0 : Vec F S1x2000x128 .f32) (x1 : Vec F S1x128x128 .f32) (x2 : Vec F S1x1x128 .f32) (y : S2000x128.Idx) :
    ∃ pc ∈ (kernelRun2_A c i arg2 harg2 arg3 harg3 arg4 harg4 arg5 harg5 arg6 harg6 hc0 hc1 x0 x1 x2).1, y ∈ pc.1.set :=
  View.cover_of_tiledL (kernelRun2_A c i arg2 harg2 arg3 harg3 arg4 harg4 arg5 harg5 arg6 harg6 hc0 hc1 x0 x1 x2).1 S2000x128.size (by sl_kernel_rfl) y
/-- The accumulator after a relation-0 point. -/
def sout2_A_0 (c : Dev nD) (i : grid2.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond2_0 i) (hc1 : ¬cond2_1 i) (x0 : Vec F S1x2000x128 .f32) (x1 : Vec F S1x128x128 .f32) (x2 : Vec F S1x1x128 .f32) : Vec F S2000x128 .f32 :=
  VS2_0.read (Elt F) (VS2_0.writes (Elt F) VS2_0.junk (kernelRun2_A c i arg2 harg2 arg3 harg3 arg4 harg4 arg5 harg5 arg6 harg6 hc0 hc1 x0 x1 x2).1)

theorem scover2_B_0 (c : Dev nD) (i : grid2.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : ¬cond2_1 i) (x0 : Vec F S1x2000x128 .f32) (x1 : Vec F S1x128x128 .f32) (x2 : Vec F S1x1x128 .f32) (xs0 : Vec F S2000x128 .f32) (y : S2000x128.Idx) :
    ∃ pc ∈ (kernelRun2_B c i arg2 harg2 arg3 harg3 arg4 harg4 arg5 harg5 arg6 harg6 hc0 hc1 x0 x1 x2 xs0).1, y ∈ pc.1.set :=
  View.cover_of_tiledL (kernelRun2_B c i arg2 harg2 arg3 harg3 arg4 harg4 arg5 harg5 arg6 harg6 hc0 hc1 x0 x1 x2 xs0).1 S2000x128.size (by sl_kernel_rfl) y
/-- The accumulator after a relation-1 point. -/
def sout2_B_0 (c : Dev nD) (i : grid2.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : ¬cond2_1 i) (x0 : Vec F S1x2000x128 .f32) (x1 : Vec F S1x128x128 .f32) (x2 : Vec F S1x1x128 .f32) (xs0 : Vec F S2000x128 .f32) : Vec F S2000x128 .f32 :=
  VS2_0.read (Elt F) (VS2_0.writes (Elt F) VS2_0.junk (kernelRun2_B c i arg2 harg2 arg3 harg3 arg4 harg4 arg5 harg5 arg6 harg6 hc0 hc1 x0 x1 x2 xs0).1)

theorem cover2_C_3 (c : Dev nD) (i : grid2.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : cond2_1 i) (x0 : Vec F S1x2000x128 .f32) (x1 : Vec F S1x128x128 .f32) (x2 : Vec F S1x1x128 .f32) (xs0 : Vec F S2000x128 .f32) (y : S2000x128.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S2000x128.size (by sl_kernel_rfl) y
/-- The output block after a relation-2 point. -/
def out2_C_3 (c : Dev nD) (i : grid2.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : cond2_1 i) (x0 : Vec F S1x2000x128 .f32) (x1 : Vec F S1x128x128 .f32) (x2 : Vec F S1x1x128 .f32) (xs0 : Vec F S2000x128 .f32) : Vec F S2000x128 .f32 :=
  VO2_3.read (Elt F) (VO2_3.writes (Elt F) VO2_3.junk (kernelRun2_C c i arg2 harg2 arg3 harg3 arg4 harg4 arg5 harg5 arg6 harg6 hc0 hc1 x0 x1 x2 xs0).1)
theorem scover2_C_0 (c : Dev nD) (i : grid2.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : cond2_1 i) (x0 : Vec F S1x2000x128 .f32) (x1 : Vec F S1x128x128 .f32) (x2 : Vec F S1x1x128 .f32) (xs0 : Vec F S2000x128 .f32) (y : S2000x128.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S2000x128.size (by sl_kernel_rfl) y
/-- The accumulator after a relation-2 point. -/
def sout2_C_0 (c : Dev nD) (i : grid2.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : cond2_1 i) (x0 : Vec F S1x2000x128 .f32) (x1 : Vec F S1x128x128 .f32) (x2 : Vec F S1x1x128 .f32) (xs0 : Vec F S2000x128 .f32) : Vec F S2000x128 .f32 :=
  VS2_0.read (Elt F) (VS2_0.writes (Elt F) VS2_0.junk (kernelRun2_C c i arg2 harg2 arg3 harg3 arg4 harg4 arg5 harg5 arg6 harg6 hc0 hc1 x0 x1 x2 xs0).2.1)

/-! ## Point by point -/

/-- What the output block's staging buffer and the accumulator hold after the body at position n (the output
    component is a placeholder at the points where the block is idle: nothing reads it there). -/
def outsAt2 (c : Dev nD) : (n : ℕ) → n < cfg2.N → Vec F S2000x128 .f32 × Vec F S2000x128 .f32
  | 0, hn => (VO2_3.junk, sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 3 = 0 then
      (VO2_3.junk, sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 3 = 2 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2,
         sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (VO2_3.junk, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

set_option maxHeartbeats 2000000 in
theorem outsAt2_A (c : Dev nD) (t : Fin cfg2.N) (h0 : t.val % 3 = 0) (hc1 : ¬cond2_1 (grid2.coords t)) :
    outsAt2 V c t.val t.isLt = (VO2_3.junk, sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) hc1 (iblk2 V c 0 t) (iblk2 V c 1 t) (iblk2 V c 2 t)) := by
  obtain ⟨n, hn⟩ := t
  cases n with
  | zero => exact rfl
  | succ n => exact (dif_pos h0).trans rfl

set_option maxHeartbeats 2000000 in
theorem outsAt2_B (c : Dev nD) (t : Fin cfg2.N) (h0 : ¬t.val % 3 = 0) (h1 : ¬t.val % 3 = 2) :
    outsAt2 V c t.val t.isLt = (VO2_3.junk, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact ((dif_neg h0).trans (dif_neg h1)).trans rfl

set_option maxHeartbeats 2000000 in
theorem outsAt2_C (c : Dev nD) (t : Fin cfg2.N) (h0 : ¬t.val % 3 = 0) (h1 : t.val % 3 = 2) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact ((dif_neg h0).trans (dif_pos h1)).trans rfl

/-- The region invariant before position n: at the first point the resting one; afterwards the accumulator at
    what the point before left, the rest of the scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

end Cert.KernelIdeal.Hand

end
-- ==== Proof.KBody2.lean ====
/-
  Region 2: the body obligation at every grid point, and the invariant's two ends. The point's relation
  (t % 3) selects the case; the invariant hands the body the accumulator at what the point before left
  (at anything before the first point) and takes it back at this point's contents.
-/
import proofs.«165758_j22333829939343_1_alg».proof.Proof.KFrame2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]; try rfl
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]; try rfl
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]; try rfl

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2]
  have hN : t.val < 75 := lt_of_lt_of_eq t.isLt (show cfg2.N = 75 from N_2)
  by_cases h0 : t.val % 3 = 0
  · have hc1 : ¬cond2_1 (grid2.coords t) := fun h => by have := (hcond2_1 t).mp h; omega
    rw [Dat.leavesExact_idle (dat2 V c) 3 t (idleAt2_3_A t ((hcond2_0 t).mpr h0) hc1) (noFlush2_3_A t ((hcond2_0 t).mpr h0) hc1)]
    rw [outsAt2_A V c t h0 hc1]
    unfold sout2_A_0; (try dsimp only)
    by_cases hz : t.val = 0
    · rw [PhiS2_castSucc V c t, PhiS2_zero V c _ _ hz, PhiA2_eq]
      iintro ⟨⟨⟨HS0, Hrest⟩, Hg⟩, Ho, ⟨%d0, H0⟩, ⟨%d1, H1⟩, ⟨%d2, H2⟩, ⟨%d3, H3⟩⟩
      iapply ((kernelRun2_A c (grid2.coords t) (ms2_0 t) (hs2_0 t) (ms2_1 t) (hs2_1 t) (ms2_2 t) (hs2_2 t) (ms2_3 t) (hs2_3 t) scM2_0 (Memref.isWhole_whole _) ((hcond2_0 t).mpr h0) hc1 (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_A c (grid2.coords t) (ms2_0 t) (hs2_0 t) (ms2_1 t) (hs2_1 t) (ms2_2 t) (hs2_2 t) (ms2_3 t) (hs2_3 t) scM2_0 (Memref.isWhole_whole _) ((hcond2_0 t).mpr h0) hc1 (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 3 = 2
    · rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_C c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_B c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the resting one back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

theorem hout2 (c : Dev nD) : (dat2 V c).Φ (Fin.last cfg2.N) ⊢ Pipeline.ΦA spec2 c :=
  Phi_out2 V c _ (by rw [Fin.val_last]; have : cfg2.N = 75 := N_2; omega)

end Cert.KernelIdeal.Hand

end
-- ==== Proof.KBase3.lean ====
/-
  Region 3 (graph-convolution layer 3's fused kernel): the schedule facts its body's runs are stated
  over. The grid is 25 row tiles by 3 relations, walked row tile by row tile; a point t is (t / 3, t % 3).
  The body zeroes its accumulator at relation 0, adds one relation's tile product at every point, and
  stores the activated mean into the output block at relation 2 only.
-/
import proofs.«165758_j22333829939343_1_alg».proof.Proof.Gen.KernelIdeal.Launch
import proofs.«165758_j22333829939343_1_alg».proof.Proof.Gen.KernelIdeal.Skeleton
import proofs.«165758_j22333829939343_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's two conditions over the grid -/

/-- "This is relation 0": the accumulator is reset. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 3 = 0 :=
  (by decide +kernel : ∀ t : Fin grid3.N, cond3_0 (grid3.coords t) ↔ t.val % 3 = 0)

/-- "This is relation 2": the output block is stored. -/
abbrev cond3_1 (i : grid3.Coords) : Prop := k3_cond2 i = 1#1
theorem hcond3_1 : ∀ t : Fin cfg3.N, cond3_1 (grid3.coords t) ↔ t.val % 3 = 2 :=
  (by decide +kernel : ∀ t : Fin grid3.N, cond3_1 (grid3.coords t) ↔ t.val % 3 = 2)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel
theorem liveAt3_3_C : ∀ t : Fin cfg3.N, ¬cond3_0 (grid3.coords t) → cond3_1 (grid3.coords t) → cfg3.idle 3 (grid3.coords t) = false := by decide +kernel

/-! ## The memrefs the body is called with -/

abbrev VO3_3 : View sig .tc .vmem S2000x128 .f32 := (Memref.whole cc3_stg3_0 : Memref sig .tc .vmem S2000x128 .f32).view
abbrev ms3_0 (t : Fin cfg3.N) : Memref sig .tc .vmem S1x2000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x128x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2000x128 .f32 := win3_3.stage (cfg3.slots t 3)
abbrev hs3_3 (t : Fin cfg3.N) : (ms3_3 t).IsWhole := hstage3_3 ((cfg3.slots t 3).cast nbuf3_3)
/-- The accumulator: a whole scoped buffer of the kernel's own. -/
abbrev scM3_0 : Memref sig .tc .vmem S2000x128 .f32 := Memref.whole cc3_scratch0
abbrev VS3_0 : View sig .tc .vmem S2000x128 .f32 := scM3_0.view

/-- The region's resting invariant with the accumulator split out as a memref owned at some contents. -/
theorem PhiA3_eq (c : Dev nD) :
    (Pipeline.ΦA spec3 c : sProp 𝕄)
      = iprop(iprop((∃ d, owns (c : Thread nD τ) scM3_0 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

end Cert.KernelIdeal.Hand

end
-- ==== Proof.KRun3A.lean ====
/-
  Region 3: the kernel body run once in case A of its two conditions.
-/
import proofs.«165758_j22333829939343_1_alg».proof.Proof.KBase3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body in case A on whole memrefs: the three input blocks at their contents, the output block at any
    contents (this case leaves it as it is), the accumulator at anything (it is overwritten with zeros first); it ends
    with the inputs and the output block as they were and the accumulator with the listed pieces written (last first). -/
noncomputable def kernelRun3_A (c : Dev nD) (i : grid3.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond3_0 i) (hc1 : ¬cond3_1 i)
    (x0 : Vec F S1x2000x128 .f32) (x1 : Vec F S1x128x128 .f32) (x2 : Vec F S1x1x128 .f32) :
    { LS0 : List (View.Piece (Elt F) S2000x128 .f32) //
      ∀ (e3 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare e3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare e3 ∗ (∃ f, arg6.view.loc (c : Thread nD τ) ↦[arg6.view.set]{fullShare} arg6.view.writes (Elt F) f LS0)) -∗ K ⟨⟩))
          ⊢ wp frame (wpE (defs₀ (F := F)) Variants.none c none) E (cc3__gconv_kernel i arg2 harg2 arg3 harg3 arg4 harg4 arg5 harg5 arg6 harg6) K } := by
  refine ⟨?_, fun e3 E K => ?run⟩
  case run =>
    simp only [cc3__gconv_kernel_eq_skeleton]; unfold cc3__gconv_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists f3; isplitr; · ipureintro; exact hf3
      iexact H3
    iexists _; iexact HS0

end Cert.KernelIdeal.Hand

end
-- ==== Proof.KRun3B.lean ====
/-
  Region 3: the kernel body run once in case B of its two conditions.
-/
import proofs.«165758_j22333829939343_1_alg».proof.Proof.KBase3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body in case B on whole memrefs: the three input blocks at their contents, the output block at any
    contents (this case leaves it as it is), the accumulator at what the point before left; it ends
    with the inputs and the output block as they were and the accumulator with the listed pieces written (last first). -/
noncomputable def kernelRun3_B (c : Dev nD) (i : grid3.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond3_0 i) (hc1 : ¬cond3_1 i)
    (x0 : Vec F S1x2000x128 .f32) (x1 : Vec F S1x128x128 .f32) (x2 : Vec F S1x1x128 .f32) (xs0 : Vec F S2000x128 .f32) :
    { LS0 : List (View.Piece (Elt F) S2000x128 .f32) //
      ∀ (e3 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare e3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare e3 ∗ (∃ f, arg6.view.loc (c : Thread nD τ) ↦[arg6.view.set]{fullShare} arg6.view.writes (Elt F) f LS0)) -∗ K ⟨⟩))
          ⊢ wp frame (wpE (defs₀ (F := F)) Variants.none c none) E (cc3__gconv_kernel i arg2 harg2 arg3 harg3 arg4 harg4 arg5 harg5 arg6 harg6) K } := by
  refine ⟨?_, fun e3 E K => ?run⟩
  case run =>
    simp only [cc3__gconv_kernel_eq_skeleton]; unfold cc3__gconv_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists f3; isplitr; · ipureintro; exact hf3
      iexact H3
    iexists _; iexact HS0

end Cert.KernelIdeal.Hand

end
-- ==== Proof.KRun3C.lean ====
/-
  Region 3: the kernel body run once in case C of its two conditions.
-/
import proofs.«165758_j22333829939343_1_alg».proof.Proof.KBase3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body in case C on whole memrefs: the three input blocks at their contents, the output block at anything,
    the accumulator at what the point before left; it ends with the inputs as they were and the
    output block and the accumulator with the listed pieces written (last first). -/
noncomputable def kernelRun3_C (c : Dev nD) (i : grid3.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond3_0 i) (hc1 : cond3_1 i)
    (x0 : Vec F S1x2000x128 .f32) (x1 : Vec F S1x128x128 .f32) (x2 : Vec F S1x1x128 .f32) (xs0 : Vec F S2000x128 .f32) :
    Σ' (L3 : List (View.Piece (Elt F) S2000x128 .f32)), { LS0 : List (View.Piece (Elt F) S2000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__gconv_kernel i arg2 harg2 arg3 harg3 arg4 harg4 arg5 harg5 arg6 harg6) K } := by
  refine ⟨?_, ?_, fun E K => ?run⟩
  case run =>
    simp only [cc3__gconv_kernel_eq_skeleton]; unfold cc3__gconv_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KFrame3.lean ====
/-
  Region 3: what the accumulator and the output block hold after each grid point, the region's proof data, and
  the body obligation. The accumulator after point t holds the sum of the relations' tile products up to
  relation t % 3 of row tile t / 3; the output block is stored at relation 2 and is idle elsewhere.
-/
import proofs.«165758_j22333829939343_1_alg».proof.Proof.KRun3A
import proofs.«165758_j22333829939343_1_alg».proof.Proof.KRun3B
import proofs.«165758_j22333829939343_1_alg».proof.Proof.KRun3C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What each case leaves -/

theorem scover3_A_0 (c : Dev nD) (i : grid3.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond3_0 i) (hc1 : ¬cond3_1 i) (x0 : Vec F S1x2000x128 .f32) (x1 : Vec F S1x128x128 .f32) (x2 : Vec F S1x1x128 .f32) (y : S2000x128.Idx) :
    ∃ pc ∈ (kernelRun3_A c i arg2 harg2 arg3 harg3 arg4 harg4 arg5 harg5 arg6 harg6 hc0 hc1 x0 x1 x2).1, y ∈ pc.1.set :=
  View.cover_of_tiledL (kernelRun3_A c i arg2 harg2 arg3 harg3 arg4 harg4 arg5 harg5 arg6 harg6 hc0 hc1 x0 x1 x2).1 S2000x128.size (by sl_kernel_rfl) y
/-- The accumulator after a relation-0 point. -/
def sout3_A_0 (c : Dev nD) (i : grid3.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond3_0 i) (hc1 : ¬cond3_1 i) (x0 : Vec F S1x2000x128 .f32) (x1 : Vec F S1x128x128 .f32) (x2 : Vec F S1x1x128 .f32) : Vec F S2000x128 .f32 :=
  VS3_0.read (Elt F) (VS3_0.writes (Elt F) VS3_0.junk (kernelRun3_A c i arg2 harg2 arg3 harg3 arg4 harg4 arg5 harg5 arg6 harg6 hc0 hc1 x0 x1 x2).1)

theorem scover3_B_0 (c : Dev nD) (i : grid3.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond3_0 i) (hc1 : ¬cond3_1 i) (x0 : Vec F S1x2000x128 .f32) (x1 : Vec F S1x128x128 .f32) (x2 : Vec F S1x1x128 .f32) (xs0 : Vec F S2000x128 .f32) (y : S2000x128.Idx) :
    ∃ pc ∈ (kernelRun3_B c i arg2 harg2 arg3 harg3 arg4 harg4 arg5 harg5 arg6 harg6 hc0 hc1 x0 x1 x2 xs0).1, y ∈ pc.1.set :=
  View.cover_of_tiledL (kernelRun3_B c i arg2 harg2 arg3 harg3 arg4 harg4 arg5 harg5 arg6 harg6 hc0 hc1 x0 x1 x2 xs0).1 S2000x128.size (by sl_kernel_rfl) y
/-- The accumulator after a relation-1 point. -/
def sout3_B_0 (c : Dev nD) (i : grid3.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond3_0 i) (hc1 : ¬cond3_1 i) (x0 : Vec F S1x2000x128 .f32) (x1 : Vec F S1x128x128 .f32) (x2 : Vec F S1x1x128 .f32) (xs0 : Vec F S2000x128 .f32) : Vec F S2000x128 .f32 :=
  VS3_0.read (Elt F) (VS3_0.writes (Elt F) VS3_0.junk (kernelRun3_B c i arg2 harg2 arg3 harg3 arg4 harg4 arg5 harg5 arg6 harg6 hc0 hc1 x0 x1 x2 xs0).1)

theorem cover3_C_3 (c : Dev nD) (i : grid3.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond3_0 i) (hc1 : cond3_1 i) (x0 : Vec F S1x2000x128 .f32) (x1 : Vec F S1x128x128 .f32) (x2 : Vec F S1x1x128 .f32) (xs0 : Vec F S2000x128 .f32) (y : S2000x128.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S2000x128.size (by sl_kernel_rfl) y
/-- The output block after a relation-2 point. -/
def out3_C_3 (c : Dev nD) (i : grid3.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond3_0 i) (hc1 : cond3_1 i) (x0 : Vec F S1x2000x128 .f32) (x1 : Vec F S1x128x128 .f32) (x2 : Vec F S1x1x128 .f32) (xs0 : Vec F S2000x128 .f32) : Vec F S2000x128 .f32 :=
  VO3_3.read (Elt F) (VO3_3.writes (Elt F) VO3_3.junk (kernelRun3_C c i arg2 harg2 arg3 harg3 arg4 harg4 arg5 harg5 arg6 harg6 hc0 hc1 x0 x1 x2 xs0).1)
theorem scover3_C_0 (c : Dev nD) (i : grid3.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond3_0 i) (hc1 : cond3_1 i) (x0 : Vec F S1x2000x128 .f32) (x1 : Vec F S1x128x128 .f32) (x2 : Vec F S1x1x128 .f32) (xs0 : Vec F S2000x128 .f32) (y : S2000x128.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S2000x128.size (by sl_kernel_rfl) y
/-- The accumulator after a relation-2 point. -/
def sout3_C_0 (c : Dev nD) (i : grid3.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond3_0 i) (hc1 : cond3_1 i) (x0 : Vec F S1x2000x128 .f32) (x1 : Vec F S1x128x128 .f32) (x2 : Vec F S1x1x128 .f32) (xs0 : Vec F S2000x128 .f32) : Vec F S2000x128 .f32 :=
  VS3_0.read (Elt F) (VS3_0.writes (Elt F) VS3_0.junk (kernelRun3_C c i arg2 harg2 arg3 harg3 arg4 harg4 arg5 harg5 arg6 harg6 hc0 hc1 x0 x1 x2 xs0).2.1)

/-! ## Point by point -/

/-- What the output block's staging buffer and the accumulator hold after the body at position n (the output
    component is a placeholder at the points where the block is idle: nothing reads it there). -/
def outsAt3 (c : Dev nD) : (n : ℕ) → n < cfg3.N → Vec F S2000x128 .f32 × Vec F S2000x128 .f32
  | 0, hn => (VO3_3.junk, sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 3 = 0 then
      (VO3_3.junk, sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => (fun h => by (try dsimp only at h); omega) ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 3 = 2 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2,
         sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (VO3_3.junk, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

set_option maxHeartbeats 2000000 in
theorem outsAt3_A (c : Dev nD) (t : Fin cfg3.N) (h0 : t.val % 3 = 0) (hc1 : ¬cond3_1 (grid3.coords t)) :
    outsAt3 V c t.val t.isLt = (VO3_3.junk, sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) hc1 (iblk3 V c 0 t) (iblk3 V c 1 t) (iblk3 V c 2 t)) := by
  obtain ⟨n, hn⟩ := t
  cases n with
  | zero => exact rfl
  | succ n => exact (dif_pos h0).trans rfl

set_option maxHeartbeats 2000000 in
theorem outsAt3_B (c : Dev nD) (t : Fin cfg3.N) (h0 : ¬t.val % 3 = 0) (h1 : ¬t.val % 3 = 2) :
    outsAt3 V c t.val t.isLt = (VO3_3.junk, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact ((dif_neg h0).trans (dif_neg h1)).trans rfl

set_option maxHeartbeats 2000000 in
theorem outsAt3_C (c : Dev nD) (t : Fin cfg3.N) (h0 : ¬t.val % 3 = 0) (h1 : t.val % 3 = 2) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2,
      sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact ((dif_neg h0).trans (dif_pos h1)).trans rfl

/-- The region invariant before position n: at the first point the resting one; afterwards the accumulator at
    what the point before left, the rest of the scoped buffers unopened, the generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

end Cert.KernelIdeal.Hand

end
-- ==== Proof.KBody3.lean ====
/-
  Region 3: the body obligation at every grid point, and the invariant's two ends. The point's relation
  (t % 3) selects the case; the invariant hands the body the accumulator at what the point before left
  (at anything before the first point) and takes it back at this point's contents.
-/
import proofs.«165758_j22333829939343_1_alg».proof.Proof.KFrame3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

theorem leaves3_0 (c : Dev nD) (t : Fin cfg3.N) : (dat3 V c).leavesExact 0 t = owns (c : Thread nD τ) (ms3_0 t) fullShare (iblk3 V c 0 t) := by
  unfold Dat.leavesExact; rw [liveAt3_0 t, after3_0]; try rfl
theorem leaves3_1 (c : Dev nD) (t : Fin cfg3.N) : (dat3 V c).leavesExact 1 t = owns (c : Thread nD τ) (ms3_1 t) fullShare (iblk3 V c 1 t) := by
  unfold Dat.leavesExact; rw [liveAt3_1 t, after3_1]; try rfl
theorem leaves3_2 (c : Dev nD) (t : Fin cfg3.N) : (dat3 V c).leavesExact 2 t = owns (c : Thread nD τ) (ms3_2 t) fullShare (iblk3 V c 2 t) := by
  unfold Dat.leavesExact; rw [liveAt3_2 t, after3_2]; try rfl

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2]
  have hN : t.val < 75 := lt_of_lt_of_eq t.isLt (show cfg3.N = 75 from N_3)
  by_cases h0 : t.val % 3 = 0
  · have hc1 : ¬cond3_1 (grid3.coords t) := fun h => by have := (hcond3_1 t).mp h; omega
    rw [Dat.leavesExact_idle (dat3 V c) 3 t (idleAt3_3_A t ((hcond3_0 t).mpr h0) hc1) (noFlush3_3_A t ((hcond3_0 t).mpr h0) hc1)]
    rw [outsAt3_A V c t h0 hc1]
    unfold sout3_A_0; (try dsimp only)
    by_cases hz : t.val = 0
    · rw [PhiS3_castSucc V c t, PhiS3_zero V c _ _ hz, PhiA3_eq]
      iintro ⟨⟨⟨HS0, Hrest⟩, Hg⟩, Ho, ⟨%d0, H0⟩, ⟨%d1, H1⟩, ⟨%d2, H2⟩, ⟨%d3, H3⟩⟩
      iapply ((kernelRun3_A c (grid3.coords t) (ms3_0 t) (hs3_0 t) (ms3_1 t) (hs3_1 t) (ms3_2 t) (hs3_2 t) (ms3_3 t) (hs3_3 t) scM3_0 (Memref.isWhole_whole _) ((hcond3_0 t).mpr h0) hc1 (iblk3 V c 0 t) (iblk3 V c 1 t) (iblk3 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩⟩
      iapply ((kernelRun3_A c (grid3.coords t) (ms3_0 t) (hs3_0 t) (ms3_1 t) (hs3_1 t) (ms3_2 t) (hs3_2 t) (ms3_3 t) (hs3_3 t) scM3_0 (Memref.isWhole_whole _) ((hcond3_0 t).mpr h0) hc1 (iblk3 V c 0 t) (iblk3 V c 1 t) (iblk3 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 3 = 2
    · rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C_0; (try dsimp only)
      rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩⟩
      iapply ((kernelRun3_C c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _)
    · rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B_0; (try dsimp only)
      rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩⟩
      iapply ((kernelRun3_B c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the resting one back: the accumulator's contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hrest⟩, Hg⟩
  isplitl [HS0 Hrest]
  · isplitl [HS0]
    · iexists _; iexact HS0
    iexact Hrest
  iexact Hg

theorem hout3 (c : Dev nD) : (dat3 V c).Φ (Fin.last cfg3.N) ⊢ Pipeline.ΦA spec3 c :=
  Phi_out3 V c _ (by rw [Fin.val_last]; have : cfg3.N = 75 := N_3; omega)

end Cert.KernelIdeal.Hand

end
-- ==== Proof.KBase4.lean ====
/-
  Region 4 (graph-convolution layer 4's fused kernel): the schedule facts its body's runs are stated
  over. The grid is 25 row tiles by 3 relations, walked row tile by row tile; a point t is (t / 3, t % 3).
  The body zeroes its accumulator at relation 0, adds one relation's tile product at every point, and
  stores the activated mean into the output block at relation 2 only.
-/
import proofs.«165758_j22333829939343_1_alg».proof.Proof.Gen.KernelIdeal.Launch
import proofs.«165758_j22333829939343_1_alg».proof.Proof.Gen.KernelIdeal.Skeleton
import proofs.«165758_j22333829939343_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's two conditions over the grid -/

/-- "This is relation 0": the accumulator is reset. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 3 = 0 :=
  (by decide +kernel : ∀ t : Fin grid4.N, cond4_0 (grid4.coords t) ↔ t.val % 3 = 0)

/-- "This is relation 2": the output block is stored. -/
abbrev cond4_1 (i : grid4.Coords) : Prop := k4_cond2 i = 1#1
theorem hcond4_1 : ∀ t : Fin cfg4.N, cond4_1 (grid4.coords t) ↔ t.val % 3 = 2 :=
  (by decide +kernel : ∀ t : Fin grid4.N, cond4_1 (grid4.coords t) ↔ t.val % 3 = 2)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3_A : ∀ t : Fin cfg4.N, cond4_0 (grid4.coords t) → ¬cond4_1 (grid4.coords t) → cfg4.idle 3 (grid4.coords t) = true := by decide +kernel
theorem noFlush4_3_A : ∀ t : Fin cfg4.N, cond4_0 (grid4.coords t) → ¬cond4_1 (grid4.coords t) → (cfg4.win 3).flush t = false := by decide +kernel
theorem idleAt4_3_B : ∀ t : Fin cfg4.N, ¬cond4_0 (grid4.coords t) → ¬cond4_1 (grid4.coords t) → cfg4.idle 3 (grid4.coords t) = true := by decide +kernel
theorem noFlush4_3_B : ∀ t : Fin cfg4.N, ¬cond4_0 (grid4.coords t) → ¬cond4_1 (grid4.coords t) → (cfg4.win 3).flush t = false := by decide +kernel
theorem liveAt4_3_C : ∀ t : Fin cfg4.N, ¬cond4_0 (grid4.coords t) → cond4_1 (grid4.coords t) → cfg4.idle 3 (grid4.coords t) = false := by decide +kernel

/-! ## The memrefs the body is called with -/

abbrev VO4_3 : View sig .tc .vmem S2000x128 .f32 := (Memref.whole cc4_stg3_0 : Memref sig .tc .vmem S2000x128 .f32).view
abbrev ms4_0 (t : Fin cfg4.N) : Memref sig .tc .vmem S1x2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x128x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2000x128 .f32 := win4_3.stage (cfg4.slots t 3)
abbrev hs4_3 (t : Fin cfg4.N) : (ms4_3 t).IsWhole := hstage4_3 ((cfg4.slots t 3).cast nbuf4_3)
/-- The accumulator: a whole scoped buffer of the kernel's own. -/
abbrev scM4_0 : Memref sig .tc .vmem S2000x128 .f32 := Memref.whole cc4_scratch0
abbrev VS4_0 : View sig .tc .vmem S2000x128 .f32 := scM4_0.view

/-- The region's resting invariant with the accumulator split out as a memref owned at some contents. -/
theorem PhiA4_eq (c : Dev nD) :
    (Pipeline.ΦA spec4 c : sProp 𝕄)
      = iprop(iprop((∃ d, owns (c : Thread nD τ) scM4_0 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.KernelIdeal.Hand

end
-- ==== Proof.KRun4A.lean ====
/-
  Region 4: the kernel body run once in case A of its two conditions.
-/
import proofs.«165758_j22333829939343_1_alg».proof.Proof.KBase4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body in case A on whole memrefs: the three input blocks at their contents, the output block at any
    contents (this case leaves it as it is), the accumulator at anything (it is overwritten with zeros first); it ends
    with the inputs and the output block as they were and the accumulator with the listed pieces written (last first). -/
noncomputable def kernelRun4_A (c : Dev nD) (i : grid4.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond4_0 i) (hc1 : ¬cond4_1 i)
    (x0 : Vec F S1x2000x128 .f32) (x1 : Vec F S1x128x128 .f32) (x2 : Vec F S1x1x128 .f32) :
    { LS0 : List (View.Piece (Elt F) S2000x128 .f32) //
      ∀ (e3 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare e3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare e3 ∗ (∃ f, arg6.view.loc (c : Thread nD τ) ↦[arg6.view.set]{fullShare} arg6.view.writes (Elt F) f LS0)) -∗ K ⟨⟩))
          ⊢ wp frame (wpE (defs₀ (F := F)) Variants.none c none) E (cc4__gconv_kernel i arg2 harg2 arg3 harg3 arg4 harg4 arg5 harg5 arg6 harg6) K } := by
  refine ⟨?_, fun e3 E K => ?run⟩
  case run =>
    simp only [cc4__gconv_kernel_eq_skeleton]; unfold cc4__gconv_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists f3; isplitr; · ipureintro; exact hf3
      iexact H3
    iexists _; iexact HS0

end Cert.KernelIdeal.Hand

end
-- ==== Proof.KRun4B.lean ====
/-
  Region 4: the kernel body run once in case B of its two conditions.
-/
import proofs.«165758_j22333829939343_1_alg».proof.Proof.KBase4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body in case B on whole memrefs: the three input blocks at their contents, the output block at any
    contents (this case leaves it as it is), the accumulator at what the point before left; it ends
    with the inputs and the output block as they were and the accumulator with the listed pieces written (last first). -/
noncomputable def kernelRun4_B (c : Dev nD) (i : grid4.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond4_0 i) (hc1 : ¬cond4_1 i)
    (x0 : Vec F S1x2000x128 .f32) (x1 : Vec F S1x128x128 .f32) (x2 : Vec F S1x1x128 .f32) (xs0 : Vec F S2000x128 .f32) :
    { LS0 : List (View.Piece (Elt F) S2000x128 .f32) //
      ∀ (e3 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare e3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare e3 ∗ (∃ f, arg6.view.loc (c : Thread nD τ) ↦[arg6.view.set]{fullShare} arg6.view.writes (Elt F) f LS0)) -∗ K ⟨⟩))
          ⊢ wp frame (wpE (defs₀ (F := F)) Variants.none c none) E (cc4__gconv_kernel i arg2 harg2 arg3 harg3 arg4 harg4 arg5 harg5 arg6 harg6) K } := by
  refine ⟨?_, fun e3 E K => ?run⟩
  case run =>
    simp only [cc4__gconv_kernel_eq_skeleton]; unfold cc4__gconv_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists f3; isplitr; · ipureintro; exact hf3
      iexact H3
    iexists _; iexact HS0

end Cert.KernelIdeal.Hand

end
-- ==== Proof.KRun4C.lean ====
/-
  Region 4: the kernel body run once in case C of its two conditions.
-/
import proofs.«165758_j22333829939343_1_alg».proof.Proof.KBase4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body in case C on whole memrefs: the three input blocks at their contents, the output block at anything,
    the accumulator at what the point before left; it ends with the inputs as they were and the
    output block and the accumulator with the listed pieces written (last first). -/
noncomputable def kernelRun4_C (c : Dev nD) (i : grid4.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond4_0 i) (hc1 : cond4_1 i)
    (x0 : Vec F S1x2000x128 .f32) (x1 : Vec F S1x128x128 .f32) (x2 : Vec F S1x1x128 .f32) (xs0 : Vec F S2000x128 .f32) :
    Σ' (L3 : List (View.Piece (Elt F) S2000x128 .f32)), { LS0 : List (View.Piece (Elt F) S2000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc4__gconv_kernel i arg2 harg2 arg3 harg3 arg4 harg4 arg5 harg5 arg6 harg6) K } := by
  refine ⟨?_, ?_, fun E K => ?run⟩
  case run =>
    simp only [cc4__gconv_kernel_eq_skeleton]; unfold cc4__gconv_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KFrame4.lean ====
/-
  Region 4: what the accumulator and the output block hold after each grid point, the region's proof data, and
  the body obligation. The accumulator after point t holds the sum of the relations' tile products up to
  relation t % 3 of row tile t / 3; the output block is stored at relation 2 and is idle elsewhere.
-/
import proofs.«165758_j22333829939343_1_alg».proof.Proof.KRun4A
import proofs.«165758_j22333829939343_1_alg».proof.Proof.KRun4B
import proofs.«165758_j22333829939343_1_alg».proof.Proof.KRun4C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## What each case leaves -/

theorem scover4_A_0 (c : Dev nD) (i : grid4.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond4_0 i) (hc1 : ¬cond4_1 i) (x0 : Vec F S1x2000x128 .f32) (x1 : Vec F S1x128x128 .f32) (x2 : Vec F S1x1x128 .f32) (y : S2000x128.Idx) :
    ∃ pc ∈ (kernelRun4_A c i arg2 harg2 arg3 harg3 arg4 harg4 arg5 harg5 arg6 harg6 hc0 hc1 x0 x1 x2).1, y ∈ pc.1.set :=
  View.cover_of_tiledL (kernelRun4_A c i arg2 harg2 arg3 harg3 arg4 harg4 arg5 harg5 arg6 harg6 hc0 hc1 x0 x1 x2).1 S2000x128.size (by sl_kernel_rfl) y
/-- The accumulator after a relation-0 point. -/
def sout4_A_0 (c : Dev nD) (i : grid4.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond4_0 i) (hc1 : ¬cond4_1 i) (x0 : Vec F S1x2000x128 .f32) (x1 : Vec F S1x128x128 .f32) (x2 : Vec F S1x1x128 .f32) : Vec F S2000x128 .f32 :=
  VS4_0.read (Elt F) (VS4_0.writes (Elt F) VS4_0.junk (kernelRun4_A c i arg2 harg2 arg3 harg3 arg4 harg4 arg5 harg5 arg6 harg6 hc0 hc1 x0 x1 x2).1)

theorem scover4_B_0 (c : Dev nD) (i : grid4.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond4_0 i) (hc1 : ¬cond4_1 i) (x0 : Vec F S1x2000x128 .f32) (x1 : Vec F S1x128x128 .f32) (x2 : Vec F S1x1x128 .f32) (xs0 : Vec F S2000x128 .f32) (y : S2000x128.Idx) :
    ∃ pc ∈ (kernelRun4_B c i arg2 harg2 arg3 harg3 arg4 harg4 arg5 harg5 arg6 harg6 hc0 hc1 x0 x1 x2 xs0).1, y ∈ pc.1.set :=
  View.cover_of_tiledL (kernelRun4_B c i arg2 harg2 arg3 harg3 arg4 harg4 arg5 harg5 arg6 harg6 hc0 hc1 x0 x1 x2 xs0).1 S2000x128.size (by sl_kernel_rfl) y
/-- The accumulator after a relation-1 point. -/
def sout4_B_0 (c : Dev nD) (i : grid4.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond4_0 i) (hc1 : ¬cond4_1 i) (x0 : Vec F S1x2000x128 .f32) (x1 : Vec F S1x128x128 .f32) (x2 : Vec F S1x1x128 .f32) (xs0 : Vec F S2000x128 .f32) : Vec F S2000x128 .f32 :=
  VS4_0.read (Elt F) (VS4_0.writes (Elt F) VS4_0.junk (kernelRun4_B c i arg2 harg2 arg3 harg3 arg4 harg4 arg5 harg5 arg6 harg6 hc0 hc1 x0 x1 x2 xs0).1)

theorem cover4_C_3 (c : Dev nD) (i : grid4.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond4_0 i) (hc1 : cond4_1 i) (x0 : Vec F S1x2000x128 .f32) (x1 : Vec F S1x128x128 .f32) (x2 : Vec F S1x1x128 .f32) (xs0 : Vec F S2000x128 .f32) (y : S2000x128.Idx) :
    ∃ pc ∈ (kernelRun4_C c i arg2 harg2 arg3 harg3 arg4 harg4 arg5 harg5 arg6 harg6 hc0 hc1 x0 x1 x2 xs0).1, y ∈ pc.1.set :=
  View.cover_of_tiledL (kernelRun4_C c i arg2 harg2 arg3 harg3 arg4 harg4 arg5 harg5 arg6 harg6 hc0 hc1 x0 x1 x2 xs0).1 S2000x128.size (by sl_kernel_rfl) y
/-- The output block after a relation-2 point. -/
def out4_C_3 (c : Dev nD) (i : grid4.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond4_0 i) (hc1 : cond4_1 i) (x0 : Vec F S1x2000x128 .f32) (x1 : Vec F S1x128x128 .f32) (x2 : Vec F S1x1x128 .f32) (xs0 : Vec F S2000x128 .f32) : Vec F S2000x128 .f32 :=
  VO4_3.read (Elt F) (VO4_3.writes (Elt F) VO4_3.junk (kernelRun4_C c i arg2 harg2 arg3 harg3 arg4 harg4 arg5 harg5 arg6 harg6 hc0 hc1 x0 x1 x2 xs0).1)
theorem scover4_C_0 (c : Dev nD) (i : grid4.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond4_0 i) (hc1 : cond4_1 i) (x0 : Vec F S1x2000x128 .f32) (x1 : Vec F S1x128x128 .f32) (x2 : Vec F S1x1x128 .f32) (xs0 : Vec F S2000x128 .f32) (y : S2000x128.Idx) :
    ∃ pc ∈ (kernelRun4_C c i arg2 harg2 arg3 harg3 arg4 harg4 arg5 harg5 arg6 harg6 hc0 hc1 x0 x1 x2 xs0).2.1, y ∈ pc.1.set :=
  View.cover_of_tiledL (kernelRun4_C c i arg2 harg2 arg3 harg3 arg4 harg4 arg5 harg5 arg6 harg6 hc0 hc1 x0 x1 x2 xs0).2.1 S2000x128.size (by sl_kernel_rfl) y
/-- The accumulator after a relation-2 point. -/
def sout4_C_0 (c : Dev nD) (i : grid4.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond4_0 i) (hc1 : cond4_1 i) (x0 : Vec F S1x2000x128 .f32) (x1 : Vec F S1x128x128 .f32) (x2 : Vec F S1x1x128 .f32) (xs0 : Vec F S2000x128 .f32) : Vec F S2000x128 .f32 :=
  VS4_0.read (Elt F) (VS4_0.writes (Elt F) VS4_0.junk (kernelRun4_C c i arg2 harg2 arg3 harg3 arg4 harg4 arg5 harg5 arg6 harg6 hc0 hc1 x0 x1 x2 xs0).2.1)

/-! ## Point by point -/

/-- What the output block's staging buffer and the accumulator hold after the body at position n (the output
    component is a placeholder at the points where the block is idle: nothing reads it there). -/
def outsAt4 (c : Dev nD) : (n : ℕ) → n < cfg4.N → Vec F S2000x128 .f32 × Vec F S2000x128 .f32
  | 0, hn => (VO4_3.junk, sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 3 = 0 then
      (VO4_3.junk, sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => (fun h => by (try dsimp only at h); omega) ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 3 = 2 then
        (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2,
         sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2)
      else
        (VO4_3.junk, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2)

set_option maxHeartbeats 2000000 in
theorem outsAt4_A (c : Dev nD) (t : Fin cfg4.N) (h0 : t.val % 3 = 0) (hc1 : ¬cond4_1 (grid4.coords t)) :
    outsAt4 V c t.val t.isLt = (VO4_3.junk, sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) hc1 (iblk4 V c 0 t) (iblk4 V c 1 t) (iblk4 V c 2 t)) := by
  obtain ⟨n, hn⟩ := t
  cases n with
  | zero => exact rfl
  | succ n => exact (dif_pos h0).trans rfl

set_option maxHeartbeats 2000000 in
theorem outsAt4_B (c : Dev nD) (t : Fin cfg4.N) (h0 : ¬t.val % 3 = 0) (h1 : ¬t.val % 3 = 2) :
    outsAt4 V c t.val t.isLt = (VO4_3.junk, sout4_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact ((dif_neg h0).trans (dif_neg h1)).trans rfl

set_option maxHeartbeats 2000000 in
theorem outsAt4_C (c : Dev nD) (t : Fin cfg4.N) (h0 : ¬t.val % 3 = 0) (h1 : t.val % 3 = 2) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2,
      sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact ((dif_neg h0).trans (dif_pos h1)).trans rfl

/-- The region invariant before position n: at the first point the resting one; afterwards the accumulator at
    what the point before left, the rest of the scoped buffers unopened, the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r)) := rfl
theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

end Cert.KernelIdeal.Hand

end
-- ==== Proof.KBody4.lean ====
/-
  Region 4: the body obligation at every grid point, and the invariant's two ends. The point's relation
  (t % 3) selects the case; the invariant hands the body the accumulator at what the point before left
  (at anything before the first point) and takes it back at this point's contents.
-/
import proofs.«165758_j22333829939343_1_alg».proof.Proof.KFrame4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

theorem leaves4_0 (c : Dev nD) (t : Fin cfg4.N) : (dat4 V c).leavesExact 0 t = owns (c : Thread nD τ) (ms4_0 t) fullShare (iblk4 V c 0 t) := by
  unfold Dat.leavesExact; rw [liveAt4_0 t, after4_0]; try rfl
theorem leaves4_1 (c : Dev nD) (t : Fin cfg4.N) : (dat4 V c).leavesExact 1 t = owns (c : Thread nD τ) (ms4_1 t) fullShare (iblk4 V c 1 t) := by
  unfold Dat.leavesExact; rw [liveAt4_1 t, after4_1]; try rfl
theorem leaves4_2 (c : Dev nD) (t : Fin cfg4.N) : (dat4 V c).leavesExact 2 t = owns (c : Thread nD τ) (ms4_2 t) fullShare (iblk4 V c 2 t) := by
  unfold Dat.leavesExact; rw [liveAt4_2 t, after4_2]; try rfl

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [leaves4_0, leaves4_1, leaves4_2]
  have hN : t.val < 75 := lt_of_lt_of_eq t.isLt (show cfg4.N = 75 from N_4)
  by_cases h0 : t.val % 3 = 0
  · have hc1 : ¬cond4_1 (grid4.coords t) := fun h => by have := (hcond4_1 t).mp h; omega
    rw [Dat.leavesExact_idle (dat4 V c) 3 t (idleAt4_3_A t ((hcond4_0 t).mpr h0) hc1) (noFlush4_3_A t ((hcond4_0 t).mpr h0) hc1)]
    rw [outsAt4_A V c t h0 hc1]
    unfold sout4_A_0; (try dsimp only)
    by_cases hz : t.val = 0
    · rw [PhiS4_castSucc V c t, PhiS4_zero V c _ _ hz, PhiA4_eq]
      iintro ⟨⟨⟨HS0, Hrest⟩, Hg⟩, Ho, ⟨%d0, H0⟩, ⟨%d1, H1⟩, ⟨%d2, H2⟩, ⟨%d3, H3⟩⟩
      iapply ((kernelRun4_A c (grid4.coords t) (ms4_0 t) (hs4_0 t) (ms4_1 t) (hs4_1 t) (ms4_2 t) (hs4_2 t) (ms4_3 t) (hs4_3 t) scM4_0 (Memref.isWhole_whole _) ((hcond4_0 t).mpr h0) hc1 (iblk4 V c 0 t) (iblk4 V c 1 t) (iblk4 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS4_castSucc V c t, PhiS4_pos V c _ _ hz]
      iintro ⟨⟨⟨HS0, Hrest⟩, Hg⟩, Ho, ⟨%d0, H0⟩, ⟨%d1, H1⟩, ⟨%d2, H2⟩, ⟨%d3, H3⟩⟩
      iapply ((kernelRun4_A c (grid4.coords t) (ms4_0 t) (hs4_0 t) (ms4_1 t) (hs4_1 t) (ms4_2 t) (hs4_2 t) (ms4_3 t) (hs4_3 t) scM4_0 (Memref.isWhole_whole _) ((hcond4_0 t).mpr h0) hc1 (iblk4 V c 0 t) (iblk4 V c 1 t) (iblk4 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 3 = 2
    · rw [show (dat4 V c).leavesExact 3 t = owns (c : Thread nD τ) (ms4_3 t) fullShare ((dat4 V c).after 3 t) from by
        unfold Dat.leavesExact; rw [liveAt4_3_C t (fun h => h0 ((hcond4_0 t).mp h)) ((hcond4_1 t).mpr h1)], after4_3]
      rw [outsAt4_C V c t h0 h1]
      unfold out4_C_3 sout4_C_0; (try dsimp only)
      rw [PhiS4_castSucc V c t, PhiS4_pos V c _ _ hz]
      iintro ⟨⟨⟨HS0, Hrest⟩, Hg⟩, Ho, ⟨%d0, H0⟩, ⟨%d1, H1⟩, ⟨%d2, H2⟩, ⟨%d3, H3⟩⟩
      iapply ((kernelRun4_C c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover4_C_3 c _ _ _ _ _ _ _ _ _ _ _ _ _ _ _ _ _)
    · rw [Dat.leavesExact_idle (dat4 V c) 3 t (idleAt4_3_B t (fun h => h0 ((hcond4_0 t).mp h)) (fun h => h1 ((hcond4_1 t).mp h))) (noFlush4_3_B t (fun h => h0 ((hcond4_0 t).mp h)) (fun h => h1 ((hcond4_1 t).mp h)))]
      rw [outsAt4_B V c t h0 h1]
      unfold sout4_B_0; (try dsimp only)
      rw [PhiS4_castSucc V c t, PhiS4_pos V c _ _ hz]
      iintro ⟨⟨⟨HS0, Hrest⟩, Hg⟩, Ho, ⟨%d0, H0⟩, ⟨%d1, H1⟩, ⟨%d2, H2⟩, ⟨%d3, H3⟩⟩
      iapply ((kernelRun4_B c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the resting one back: the accumulator's contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hrest⟩, Hg⟩
  isplitl [HS0 Hrest]
  · isplitl [HS0]
    · iexists _; iexact HS0
    iexact Hrest
  iexact Hg

theorem hout4 (c : Dev nD) : (dat4 V c).Φ (Fin.last cfg4.N) ⊢ Pipeline.ΦA spec4 c :=
  Phi_out4 V c _ (by rw [Fin.val_last]; have : cfg4.N = 75 := N_4; omega)

end Cert.KernelIdeal.Hand

end
-- ==== Proof.KRegion5.lean ====
/-
  Region 5 (the final projection): one point per row tile; the body loads the tile of h, the whole weight
  matrix and the bias row, and stores h·W + b into the output block, which is written back at every point.
-/
import proofs.«165758_j22333829939343_1_alg».proof.Proof.Gen.KernelIdeal.Launch
import proofs.«165758_j22333829939343_1_alg».proof.Proof.Gen.KernelIdeal.Skeleton
import proofs.«165758_j22333829939343_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev r5_in0 : Rect S2000x128 := Rect.unit (s := S2000x128) ![0, 0] S2000x128.size inb_S2000x128_S2000x128_0_0
abbrev r5_in1 : Rect S128x64 := Rect.unit (s := S128x64) ![0, 0] S128x64.size inb_S128x64_S128x64_0_0
abbrev r5_in2 : Rect S1x64 := Rect.unit (s := S1x64) ![0, 0] S1x64.size inb_S1x64_S1x64_0_0
abbrev r5_out : Rect S2000x64 := Rect.unit (s := S2000x64) ![0, 0] S2000x64.size inb_S2000x64_S2000x64_0_0

/-- The output block after the body: its one whole-block store. -/
def out5_3 (x0 : Vec F S2000x128 .f32) (x1 : Vec F S128x64 .f32) (x2 : Vec F S1x64 .f32) : Vec F S2000x64 .f32 :=
  View.canon [⟨r5_out, k5_pay1 (View.ld x0 r5_in0) (View.ld x1 r5_in1) (View.ld x2 r5_in2)⟩]

theorem cover5_3 (p0 : Vec F S2000x64 .f32) (y : S2000x64.Idx) :
    ∃ pc ∈ ([⟨r5_out, p0⟩] : List (View.Piece (Elt F) S2000x64 .f32)), y ∈ pc.1.set :=
  View.cover_of_tiled [⟨r5_out, p0⟩] S2000x64.size (by rfl) y

set_option maxHeartbeats 1000000 in
theorem sound_kernel5 (c : Dev nD) (E : Set ℕ) (i : grid5.Coords) (arg1 : Memref sig .tc .vmem S2000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S2000x64 .f32) (harg4 : arg4.IsWhole)
    (x0 : Vec F S2000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__final_kernel i arg1 harg1 arg2 harg2 arg3 harg3 arg4 harg4) K := by
  simp only [cc5__final_kernel_eq_skeleton]; unfold cc5__final_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The proof data of the final projection's pipeline on core c. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

set_option maxHeartbeats 2000000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := Idealize.SL.BI.Entails.refl _
theorem hout5 (c : Dev nD) : (dat5 V c).Φ (Fin.last cfg5.N) ⊢ Pipeline.ΦA spec5 c := Idealize.SL.BI.Entails.refl _

end Cert.KernelIdeal.Hand

end
-- ==== Proof.LibKeeps.lean ====
/-
  A straight line of host operations leaves every buffer it does not write as it was. Which buffers a line writes is
  read off the line itself: each operation writes exactly its result reference. The tactic below proves, for a literal
  line `ops` and a literal list `W` of references, that every operation's written set lies inside `W`; the library's
  `StableHlo.after_of_writes_sub` then gives `after ops V b = V b` for any reference `b` outside `W`
  (membership in `W` is decided over references).
-/
import Idealize.ShloMosaic.Lib.StableHlo.Run

open Idealize.ShloMosaic

/-- Closes `ops.Forall fun op => op.writes ⊆ (W.map (Proc.devRef .tc)).toFinset` for a literal line `ops` (named by the
    identifier given, so that it can be unfolded) of the library's operation builders and a literal list `W` holding
    every result reference of the line: the conjunction is split, each builder's written set is the singleton of its
    result reference, and that reference is found in `W` by `decide`. -/
macro "host_writes" ops:ident : tactic =>
  `(tactic| (simp only [$ops:ident, List.Forall]
             repeat' apply And.intro
             all_goals
               (simp only [StableHlo.nullary_writes, StableHlo.unary_writes, StableHlo.binary_writes, StableHlo.ternary_writes,
                  StableHlo.quaternary_writes, StableHlo.reshape_writes, StableHlo.binaryIndexed_writes,
                  StableHlo.unaryIndexed_writes, StableHlo.nary_writes, Finset.singleton_subset_iff, List.mem_toFinset]
                exact List.mem_map_of_mem (by decide))))
-- ==== Proof.KRunHost.lean ====
/-
  The host stretches of the kernel program, as far as the run over its regions needs them: no operation of a stretch
  allocates a buffer, and each stretch writes exactly the result references of its operations (listed here, in order),
  so that a reference outside the list keeps its contents across the stretch.
-/
import proofs.«165758_j22333829939343_1_alg».proof.Proof.Gen.KernelIdeal.Launch
import proofs.«165758_j22333829939343_1_alg».proof.Proof.LibKeeps
import Idealize.ShloMosaic.Lib.StableHlo.Run

set_option maxRecDepth 16384

noncomputable section

namespace Cert.KernelIdeal.Hand

open Idealize.ShloMosaic Idealize.ShloMosaic.TcCoe
open Cert.KernelIdeal.Gen

variable {F : FTy → Type} [FloatOps F] [Named F]

/-- The references the operations of stretch 0 write: each operation's result, in order. -/
abbrev hostOps0_W : List (Ref sig .tc) :=
  [main_cst, main_v0, main_v1, main_v2, main_cst_0, main_v3, main_v4, main_v5, main_v6, main_v7, main_cst_1, main_v8,
   main_v9, main_v10, main_v11, main_v12, main_cst_2, main_v13, main_v14, main_v15, main_v16, main_v17, main_v18, main_v19,
   main_v20, main_v21, main_cst_3, main_v22, main_v23, main_v24, main_v25, main_v26, main_cst_4, main_v27, main_v28, main_v29,
   main_v30, main_v31, main_cst_5, main_v32, main_v33, main_v34, main_v35, main_v36, main_v37, main_v38, main_v39, main_v40,
   main_v41, main_v42, main_v43, main_v44, main_cst_6, main_v45, main_v46, main_v47, main_v48, main_v49, main_v50, main_c,
   main_v51, main_v52, main_c_7, main_v53, main_v54, main_v55, main_v56, main_v57, main_cst_8, main_v58, main_v59, main_v60,
   main_v61, main_v62, main_cst_9, main_v63, main_v64, main_v65, main_v66, main_v67, main_v68, main_v69, main_v70, main_v71,
   main_v72, main_v73, main_v74, main_cst_10, main_v75, main_v76, main_v77, main_v78, main_v79, main_v80, main_c_11, main_v81,
   main_v82, main_c_12, main_v83, main_v84, main_v85, main_v86, main_v87, main_cst_13, main_v88, main_v89, main_v90, main_v91,
   main_v92, main_cst_14, main_v93, main_v94, main_v95, main_v96, main_v97, main_v98, main_v99, main_v100, main_v101, main_v102,
   main_v103, main_v104, main_cst_15, main_v105, main_v106, main_v107, main_v108, main_v109, main_v110, main_c_16, main_v111, main_v112,
   main_c_17, main_v113, main_v114, main_v115, main_v116, main_v117, main_cst_18, main_v118, main_v119, main_v120, main_v121, main_v122,
   main_cst_19, main_v123, main_v124, main_v125, main_v126, main_v127, main_v128, main_v129, main_v130, main_v131, main_v132, main_v133]

set_option maxHeartbeats 40000000 in
/-- No operation of stretch 0 allocates a buffer. -/
theorem hostOps0_fresh : (hostOps0 : List (HloOp τ sig (Elt F))).Forall fun op => op.fresh = ∅ := by
  simp only [List.Forall]; repeat' constructor

set_option maxHeartbeats 40000000 in
/-- Every operation of stretch 0 writes inside the listed references. -/
theorem hostOps0_writes : (hostOps0 : List (HloOp τ sig (Elt F))).Forall fun op => op.writes ⊆ (hostOps0_W.map (Proc.devRef (τ := τ) .tc)).toFinset := by
  host_writes hostOps0

/-- The references the operations of stretch 1 write: each operation's result, in order. -/
abbrev hostOps1_W : List (Ref sig .tc) :=
  [main_v135, main_v136, main_v137, main_v138, main_v139, main_v140, main_v141, main_v142, main_v143, main_v144, main_cst_20, main_v145,
   main_v146, main_v147, main_v148, main_v149, main_v150, main_c_21, main_v151, main_v152, main_c_22, main_v153, main_v154, main_v155,
   main_v156, main_v157, main_cst_23, main_v158, main_v159, main_v160, main_v161, main_v162, main_cst_24, main_v163, main_v164, main_v165,
   main_v166, main_v167, main_v168, main_v169, main_v170, main_v171, main_v172, main_v173, main_v174, main_cst_25, main_v175, main_v176,
   main_v177, main_v178, main_v179, main_v180, main_c_26, main_v181, main_v182, main_c_27, main_v183, main_v184, main_v185, main_v186,
   main_v187, main_cst_28, main_v188, main_v189, main_v190, main_v191, main_v192, main_cst_29, main_v193, main_v194, main_v195, main_v196,
   main_v197, main_v198, main_v199, main_v200, main_v201, main_v202, main_v203, main_v204, main_cst_30, main_v205, main_v206, main_v207,
   main_v208, main_v209, main_v210, main_c_31, main_v211, main_v212, main_c_32, main_v213, main_v214, main_v215, main_v216, main_v217,
   main_cst_33, main_v218, main_v219, main_v220, main_v221, main_v222, main_cst_34, main_v223, main_v224, main_v225, main_v226, main_v227,
   main_v228, main_v229, main_v230, main_v231, main_v232, main_v233]

set_option maxHeartbeats 40000000 in
/-- No operation of stretch 1 allocates a buffer. -/
theorem hostOps1_fresh : (hostOps1 : List (HloOp τ sig (Elt F))).Forall fun op => op.fresh = ∅ := by
  simp only [List.Forall]; repeat' constructor

set_option maxHeartbeats 40000000 in
/-- Every operation of stretch 1 writes inside the listed references. -/
theorem hostOps1_writes : (hostOps1 : List (HloOp τ sig (Elt F))).Forall fun op => op.writes ⊆ (hostOps1_W.map (Proc.devRef (τ := τ) .tc)).toFinset := by
  host_writes hostOps1

/-- The references the operations of stretch 2 write: each operation's result, in order. -/
abbrev hostOps2_W : List (Ref sig .tc) :=
  [main_v235, main_v236, main_v237, main_v238, main_v239, main_v240, main_v241, main_v242, main_v243, main_v244, main_cst_35, main_v245,
   main_v246, main_v247, main_v248, main_v249, main_v250, main_c_36, main_v251, main_v252, main_c_37, main_v253, main_v254, main_v255,
   main_v256, main_v257, main_cst_38, main_v258, main_v259, main_v260, main_v261, main_v262, main_cst_39, main_v263, main_v264, main_v265,
   main_v266, main_v267, main_v268, main_v269, main_v270, main_v271, main_v272, main_v273, main_v274, main_cst_40, main_v275, main_v276,
   main_v277, main_v278, main_v279, main_v280, main_c_41, main_v281, main_v282, main_c_42, main_v283, main_v284, main_v285, main_v286,
   main_v287, main_cst_43, main_v288, main_v289, main_v290, main_v291, main_v292, main_cst_44, main_v293, main_v294, main_v295, main_v296,
   main_v297, main_v298, main_v299, main_v300, main_v301, main_v302, main_v303, main_v304, main_cst_45, main_v305, main_v306, main_v307,
   main_v308, main_v309, main_v310, main_c_46, main_v311, main_v312, main_c_47, main_v313, main_v314, main_v315, main_v316, main_v317,
   main_cst_48, main_v318, main_v319, main_v320, main_v321, main_v322, main_cst_49, main_v323, main_v324, main_v325, main_v326, main_v327,
   main_v328, main_v329, main_v330, main_v331, main_v332, main_v333]

set_option maxHeartbeats 40000000 in
/-- No operation of stretch 2 allocates a buffer. -/
theorem hostOps2_fresh : (hostOps2 : List (HloOp τ sig (Elt F))).Forall fun op => op.fresh = ∅ := by
  simp only [List.Forall]; repeat' constructor

set_option maxHeartbeats 40000000 in
/-- Every operation of stretch 2 writes inside the listed references. -/
theorem hostOps2_writes : (hostOps2 : List (HloOp τ sig (Elt F))).Forall fun op => op.writes ⊆ (hostOps2_W.map (Proc.devRef (τ := τ) .tc)).toFinset := by
  host_writes hostOps2

/-- The references the operations of stretch 3 write: each operation's result, in order. -/
abbrev hostOps3_W : List (Ref sig .tc) :=
  [main_v335, main_v336, main_v337, main_v338, main_v339, main_v340, main_v341, main_v342, main_v343, main_v344, main_cst_50, main_v345,
   main_v346, main_v347, main_v348, main_v349, main_v350, main_c_51, main_v351, main_v352, main_c_52, main_v353, main_v354, main_v355,
   main_v356, main_v357, main_cst_53, main_v358, main_v359, main_v360, main_v361, main_v362, main_cst_54, main_v363, main_v364, main_v365,
   main_v366, main_v367, main_v368, main_v369, main_v370, main_v371, main_v372, main_v373, main_v374, main_cst_55, main_v375, main_v376,
   main_v377, main_v378, main_v379, main_v380, main_c_56, main_v381, main_v382, main_c_57, main_v383, main_v384, main_v385, main_v386,
   main_v387, main_cst_58, main_v388, main_v389, main_v390, main_v391, main_v392, main_cst_59, main_v393, main_v394, main_v395, main_v396,
   main_v397, main_v398, main_v399, main_v400, main_v401, main_v402, main_v403, main_v404, main_cst_60, main_v405, main_v406, main_v407,
   main_v408, main_v409, main_v410, main_c_61, main_v411, main_v412, main_c_62, main_v413, main_v414, main_v415, main_v416, main_v417,
   main_cst_63, main_v418, main_v419, main_v420, main_v421, main_v422, main_cst_64, main_v423, main_v424, main_v425, main_v426, main_v427,
   main_v428, main_v429, main_v430, main_v431, main_v432, main_v433]

set_option maxHeartbeats 40000000 in
/-- No operation of stretch 3 allocates a buffer. -/
theorem hostOps3_fresh : (hostOps3 : List (HloOp τ sig (Elt F))).Forall fun op => op.fresh = ∅ := by
  simp only [List.Forall]; repeat' constructor

set_option maxHeartbeats 40000000 in
/-- Every operation of stretch 3 writes inside the listed references. -/
theorem hostOps3_writes : (hostOps3 : List (HloOp τ sig (Elt F))).Forall fun op => op.writes ⊆ (hostOps3_W.map (Proc.devRef (τ := τ) .tc)).toFinset := by
  host_writes hostOps3

/-- The references the operations of stretch 4 write: each operation's result, in order. -/
abbrev hostOps4_W : List (Ref sig .tc) :=
  [main_v435, main_v436, main_v437, main_v438, main_v439, main_v440, main_v441, main_v442, main_v443, main_v444, main_cst_65, main_v445,
   main_v446, main_v447, main_v448, main_v449, main_v450, main_c_66, main_v451, main_v452, main_c_67, main_v453, main_v454, main_v455,
   main_v456, main_v457, main_cst_68, main_v458, main_v459, main_v460, main_v461, main_v462, main_cst_69, main_v463, main_v464, main_v465,
   main_v466, main_v467, main_v468, main_v469, main_v470, main_v471, main_v472, main_v473, main_v474, main_cst_70, main_v475, main_v476,
   main_v477, main_v478, main_v479, main_v480, main_c_71, main_v481, main_v482, main_c_72, main_v483, main_v484, main_v485, main_v486,
   main_v487, main_cst_73, main_v488, main_v489, main_v490, main_v491, main_v492, main_cst_74, main_v493, main_v494, main_v495, main_v496,
   main_v497, main_v498, main_v499, main_v500, main_v501, main_v502, main_v503, main_v504, main_cst_75, main_v505, main_v506, main_v507,
   main_v508, main_v509, main_v510, main_c_76, main_v511, main_v512, main_c_77, main_v513, main_v514, main_v515, main_v516, main_v517,
   main_cst_78, main_v518, main_v519, main_v520, main_v521, main_v522, main_cst_79, main_v523, main_v524, main_v525, main_v526, main_v527,
   main_v528, main_v529, main_v530, main_v531, main_v532, main_v533]

set_option maxHeartbeats 40000000 in
/-- No operation of stretch 4 allocates a buffer. -/
theorem hostOps4_fresh : (hostOps4 : List (HloOp τ sig (Elt F))).Forall fun op => op.fresh = ∅ := by
  simp only [List.Forall]; repeat' constructor

set_option maxHeartbeats 40000000 in
/-- Every operation of stretch 4 writes inside the listed references. -/
theorem hostOps4_writes : (hostOps4 : List (HloOp τ sig (Elt F))).Forall fun op => op.writes ⊆ (hostOps4_W.map (Proc.devRef (τ := τ) .tc)).toFinset := by
  host_writes hostOps4

/-- The references the operations of stretch 5 write: each operation's result, in order. -/
abbrev hostOps5_W : List (Ref sig .tc) :=
  [main_v535]

set_option maxHeartbeats 40000000 in
/-- No operation of stretch 5 allocates a buffer. -/
theorem hostOps5_fresh : (hostOps5 : List (HloOp τ sig (Elt F))).Forall fun op => op.fresh = ∅ := by
  simp only [List.Forall]; repeat' constructor

set_option maxHeartbeats 40000000 in
/-- Every operation of stretch 5 writes inside the listed references. -/
theorem hostOps5_writes : (hostOps5 : List (HloOp τ sig (Elt F))).Forall fun op => op.writes ⊆ (hostOps5_W.map (Proc.devRef (τ := τ) .tc)).toFinset := by
  host_writes hostOps5

end Cert.KernelIdeal.Hand

end
-- ==== Proof.KRunVals.lean ====
/-
  THE RUN of the kernel program over its six regions, first part: the buffer contents at each of the thirteen
  boundaries between its segments (a host stretch, then a kernel region, six times over), as a fold from the launch
  memory. Across a host stretch the contents are the stretch's `StableHlo.after`; across a region its arrays are at what
  the pipeline's write-backs leave (`Dat.arrAt … N`: an input as entered, the output folded) and every other buffer
  is as entered. Read back through the fold, each of the nine argument arrays holds its launch contents at the end,
  and the result array holds what the last region's pipeline leaves in its output window.
-/
import proofs.«165758_j22333829939343_1_alg».proof.Proof.Gen.KernelIdeal.Launch
import proofs.«165758_j22333829939343_1_alg».proof.Proof.KBody0
import proofs.«165758_j22333829939343_1_alg».proof.Proof.KBody1
import proofs.«165758_j22333829939343_1_alg».proof.Proof.KBody2
import proofs.«165758_j22333829939343_1_alg».proof.Proof.KBody3
import proofs.«165758_j22333829939343_1_alg».proof.Proof.KBody4
import proofs.«165758_j22333829939343_1_alg».proof.Proof.KRegion5
import proofs.«165758_j22333829939343_1_alg».proof.Proof.KRunHost
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)

/-- After host stretch 0: region 0's entry contents. -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- A reference stretch 0 does not write keeps its contents across it. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0's output array at its exit: what the pipeline's write-backs leave in window 3. -/
theorem W2_out (c : Dev nD) : W2 m ρ c (Proc.devRef .tc main_v134) = (dat0 (V1 m ρ) c).arrAt 3 cfg0.N :=
  W2_arr m ρ c 3
/-- An input array of region 0 leaves it as it entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

/-- After host stretch 1: region 1's entry contents. -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- A reference stretch 1 does not write keeps its contents across it. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Region 1's output array at its exit: what the pipeline's write-backs leave in window 3. -/
theorem W4_out (c : Dev nD) : W4 m ρ c (Proc.devRef .tc main_v234) = (dat1 (V3 m ρ) c).arrAt 3 cfg1.N :=
  W4_arr m ρ c 3
/-- An input array of region 1 leaves it as it entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

/-- After host stretch 2: region 2's entry contents. -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- A reference stretch 2 does not write keeps its contents across it. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- Region 2's output array at its exit: what the pipeline's write-backs leave in window 3. -/
theorem W6_out (c : Dev nD) : W6 m ρ c (Proc.devRef .tc main_v334) = (dat2 (V5 m ρ) c).arrAt 3 cfg2.N :=
  W6_arr m ρ c 3
/-- An input array of region 2 leaves it as it entered. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))

/-- After host stretch 3: region 3's entry contents. -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- A reference stretch 3 does not write keeps its contents across it. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- Region 3's output array at its exit: what the pipeline's write-backs leave in window 3. -/
theorem W8_out (c : Dev nD) : W8 m ρ c (Proc.devRef .tc main_v434) = (dat3 (V7 m ρ) c).arrAt 3 cfg3.N :=
  W8_arr m ρ c 3
/-- An input array of region 3 leaves it as it entered. -/
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hin _).trans (A_eq3 (V7 m ρ) c w))

/-- After host stretch 4: region 4's entry contents. -/
abbrev W9 : Dev nD → Valuation τ sig (Elt F) := fun c => StableHlo.after hostOps4 (W8 m ρ c)
/-- The same read at the TensorCore's references (what region 4's proof data take). -/
abbrev V9 : (c : Dev nD) → (b : Ref sig .tc) → Buf (Elt F) ((c : Thread nD τ).loc b) := fun c b => W9 m ρ c b
/-- A reference stretch 4 does not write keeps its contents across it. -/
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves, and every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- Region 4's output array at its exit: what the pipeline's write-backs leave in window 3. -/
theorem W10_out (c : Dev nD) : W10 m ρ c (Proc.devRef .tc main_v534) = (dat4 (V9 m ρ) c).arrAt 3 cfg4.N :=
  W10_arr m ρ c 3
/-- An input array of region 4 leaves it as it entered. -/
theorem W10_in (c : Dev nD) (w : Fin cfg4.W) (hin : (cfg4.win w).isOut = false) :
    W10 m ρ c (Proc.devRef .tc (Pipeline.arrRef spec4 w)) = W9 m ρ c (Proc.devRef .tc (Pipeline.arrRef spec4 w)) :=
  (W10_arr m ρ c w).trans (((dat4 (V9 m ρ) c).arrAt_in w hin _).trans (A_eq4 (V9 m ρ) c w))

/-- After host stretch 5: region 5's entry contents. -/
abbrev W11 : Dev nD → Valuation τ sig (Elt F) := fun c => StableHlo.after hostOps5 (W10 m ρ c)
/-- The same read at the TensorCore's references (what region 5's proof data take). -/
abbrev V11 : (c : Dev nD) → (b : Ref sig .tc) → Buf (Elt F) ((c : Thread nD τ).loc b) := fun c b => W11 m ρ c b
/-- A reference stretch 5 does not write keeps its contents across it. -/
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h
/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references (region 5's exit contents). -/
abbrev V12 : (c : Dev nD) → (b : Ref sig .tc) → Buf (Elt F) ((c : Thread nD τ).loc b) := fun c b => W12 m ρ c b
/-- At region 5's exit each of its arrays holds what the pipeline leaves, and every other buffer what it held at entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- Region 5's output array at its exit: what the pipeline's write-backs leave in window 3. -/
theorem W12_out (c : Dev nD) : W12 m ρ c (Proc.devRef .tc main_v536) = (dat5 (V11 m ρ) c).arrAt 3 cfg5.N :=
  W12_arr m ρ c 3
/-- An input array of region 5 leaves it as it entered. -/
theorem W12_in (c : Dev nD) (w : Fin cfg5.W) (hin : (cfg5.win w).isOut = false) :
    W12 m ρ c (Proc.devRef .tc (Pipeline.arrRef spec5 w)) = W11 m ρ c (Proc.devRef .tc (Pipeline.arrRef spec5 w)) :=
  (W12_arr m ρ c w).trans (((dat5 (V11 m ρ) c).arrAt_in w hin _).trans (A_eq5 (V11 m ρ) c w))

/-! ## The arguments end as launched

No host operation writes an argument, and a region either does not touch it or reads it through an input window,
so the fold at an argument's buffer walks back to the launch memory. -/

theorem W12_main_arg0 (c : Dev nD) : W12 m ρ c (Proc.devRef .tc main_arg0) = m ((c : Thread nD τ).loc main_arg0) :=
  (W12_of_ne m ρ c main_arg0 (by decide)).trans <|
  (W11_of m ρ c main_arg0 (by decide)).trans <|
  (W10_of_ne m ρ c main_arg0 (by decide)).trans <|
  (W9_of m ρ c main_arg0 (by decide)).trans <|
  (W8_of_ne m ρ c main_arg0 (by decide)).trans <|
  (W7_of m ρ c main_arg0 (by decide)).trans <|
  (W6_of_ne m ρ c main_arg0 (by decide)).trans <|
  (W5_of m ρ c main_arg0 (by decide)).trans <|
  (W4_of_ne m ρ c main_arg0 (by decide)).trans <|
  (W3_of m ρ c main_arg0 (by decide)).trans <|
  (W2_of_ne m ρ c main_arg0 (by decide)).trans <|
  (W1_of m ρ c main_arg0 (by decide)).trans <| rfl

theorem W12_main_arg1 (c : Dev nD) : W12 m ρ c (Proc.devRef .tc main_arg1) = m ((c : Thread nD τ).loc main_arg1) :=
  (W12_of_ne m ρ c main_arg1 (by decide)).trans <|
  (W11_of m ρ c main_arg1 (by decide)).trans <|
  (W10_of_ne m ρ c main_arg1 (by decide)).trans <|
  (W9_of m ρ c main_arg1 (by decide)).trans <|
  (W8_of_ne m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of_ne m ρ c main_arg1 (by decide)).trans <|
  (W1_of m ρ c main_arg1 (by decide)).trans <| rfl

theorem W12_main_arg2 (c : Dev nD) : W12 m ρ c (Proc.devRef .tc main_arg2) = m ((c : Thread nD τ).loc main_arg2) :=
  (W12_of_ne m ρ c main_arg2 (by decide)).trans <|
  (W11_of m ρ c main_arg2 (by decide)).trans <|
  (W10_of_ne m ρ c main_arg2 (by decide)).trans <|
  (W9_of m ρ c main_arg2 (by decide)).trans <|
  (W8_of_ne m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of_ne m ρ c main_arg2 (by decide)).trans <|
  (W1_of m ρ c main_arg2 (by decide)).trans <| rfl

theorem W12_main_arg3 (c : Dev nD) : W12 m ρ c (Proc.devRef .tc main_arg3) = m ((c : Thread nD τ).loc main_arg3) :=
  (W12_of_ne m ρ c main_arg3 (by decide)).trans <|
  (W11_of m ρ c main_arg3 (by decide)).trans <|
  (W10_of_ne m ρ c main_arg3 (by decide)).trans <|
  (W9_of m ρ c main_arg3 (by decide)).trans <|
  (W8_of_ne m ρ c main_arg3 (by decide)).trans <|
  (W7_of m ρ c main_arg3 (by decide)).trans <|
  (W6_of_ne m ρ c main_arg3 (by decide)).trans <|
  (W5_of m ρ c main_arg3 (by decide)).trans <|
  (W4_of_ne m ρ c main_arg3 (by decide)).trans <|
  (W3_of m ρ c main_arg3 (by decide)).trans <|
  (W2_in m ρ c 1 rfl).trans <|
  (W1_of m ρ c main_arg3 (by decide)).trans <| rfl

theorem W12_main_arg4 (c : Dev nD) : W12 m ρ c (Proc.devRef .tc main_arg4) = m ((c : Thread nD τ).loc main_arg4) :=
  (W12_of_ne m ρ c main_arg4 (by decide)).trans <|
  (W11_of m ρ c main_arg4 (by decide)).trans <|
  (W10_of_ne m ρ c main_arg4 (by decide)).trans <|
  (W9_of m ρ c main_arg4 (by decide)).trans <|
  (W8_of_ne m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_of_ne m ρ c main_arg4 (by decide)).trans <|
  (W1_of m ρ c main_arg4 (by decide)).trans <| rfl

theorem W12_main_arg5 (c : Dev nD) : W12 m ρ c (Proc.devRef .tc main_arg5) = m ((c : Thread nD τ).loc main_arg5) :=
  (W12_of_ne m ρ c main_arg5 (by decide)).trans <|
  (W11_of m ρ c main_arg5 (by decide)).trans <|
  (W10_of_ne m ρ c main_arg5 (by decide)).trans <|
  (W9_of m ρ c main_arg5 (by decide)).trans <|
  (W8_of_ne m ρ c main_arg5 (by decide)).trans <|
  (W7_of m ρ c main_arg5 (by decide)).trans <|
  (W6_of_ne m ρ c main_arg5 (by decide)).trans <|
  (W5_of m ρ c main_arg5 (by decide)).trans <|
  (W4_of_ne m ρ c main_arg5 (by decide)).trans <|
  (W3_of m ρ c main_arg5 (by decide)).trans <|
  (W2_of_ne m ρ c main_arg5 (by decide)).trans <|
  (W1_of m ρ c main_arg5 (by decide)).trans <| rfl

theorem W12_main_arg6 (c : Dev nD) : W12 m ρ c (Proc.devRef .tc main_arg6) = m ((c : Thread nD τ).loc main_arg6) :=
  (W12_of_ne m ρ c main_arg6 (by decide)).trans <|
  (W11_of m ρ c main_arg6 (by decide)).trans <|
  (W10_of_ne m ρ c main_arg6 (by decide)).trans <|
  (W9_of m ρ c main_arg6 (by decide)).trans <|
  (W8_of_ne m ρ c main_arg6 (by decide)).trans <|
  (W7_of m ρ c main_arg6 (by decide)).trans <|
  (W6_of_ne m ρ c main_arg6 (by decide)).trans <|
  (W5_of m ρ c main_arg6 (by decide)).trans <|
  (W4_of_ne m ρ c main_arg6 (by decide)).trans <|
  (W3_of m ρ c main_arg6 (by decide)).trans <|
  (W2_of_ne m ρ c main_arg6 (by decide)).trans <|
  (W1_of m ρ c main_arg6 (by decide)).trans <| rfl

theorem W12_main_arg7 (c : Dev nD) : W12 m ρ c (Proc.devRef .tc main_arg7) = m ((c : Thread nD τ).loc main_arg7) :=
  (W12_in m ρ c 1 rfl).trans <|
  (W11_of m ρ c main_arg7 (by decide)).trans <|
  (W10_of_ne m ρ c main_arg7 (by decide)).trans <|
  (W9_of m ρ c main_arg7 (by decide)).trans <|
  (W8_of_ne m ρ c main_arg7 (by decide)).trans <|
  (W7_of m ρ c main_arg7 (by decide)).trans <|
  (W6_of_ne m ρ c main_arg7 (by decide)).trans <|
  (W5_of m ρ c main_arg7 (by decide)).trans <|
  (W4_of_ne m ρ c main_arg7 (by decide)).trans <|
  (W3_of m ρ c main_arg7 (by decide)).trans <|
  (W2_of_ne m ρ c main_arg7 (by decide)).trans <|
  (W1_of m ρ c main_arg7 (by decide)).trans <| rfl

theorem W12_main_arg8 (c : Dev nD) : W12 m ρ c (Proc.devRef .tc main_arg8) = m ((c : Thread nD τ).loc main_arg8) :=
  (W12_of_ne m ρ c main_arg8 (by decide)).trans <|
  (W11_of m ρ c main_arg8 (by decide)).trans <|
  (W10_of_ne m ρ c main_arg8 (by decide)).trans <|
  (W9_of m ρ c main_arg8 (by decide)).trans <|
  (W8_of_ne m ρ c main_arg8 (by decide)).trans <|
  (W7_of m ρ c main_arg8 (by decide)).trans <|
  (W6_of_ne m ρ c main_arg8 (by decide)).trans <|
  (W5_of m ρ c main_arg8 (by decide)).trans <|
  (W4_of_ne m ρ c main_arg8 (by decide)).trans <|
  (W3_of m ρ c main_arg8 (by decide)).trans <|
  (W2_of_ne m ρ c main_arg8 (by decide)).trans <|
  (W1_of m ρ c main_arg8 (by decide)).trans <| rfl

/-- The result array at the end: what the last region's pipeline leaves in its output window. -/
theorem W12_result (c : Dev nD) : W12 m ρ c (Proc.devRef .tc main_v536) = (dat5 (V11 m ρ) c).arrAt 3 cfg5.N :=
  W12_out m ρ c

end Cert.KernelIdeal.Hand

end
-- ==== Proof.KRunData.lean ====
/-
  THE RUN of the kernel program over its six regions, second part: every pipeline's proof data at its region's entry
  contents, and the thread state carried from segment to segment — every unscoped buffer of the core held at the
  boundary's contents, beside the core's generator register at some state and the core owing nothing.
-/
import proofs.«165758_j22333829939343_1_alg».proof.Proof.Gen.KernelIdeal.Launch
import proofs.«165758_j22333829939343_1_alg».proof.Proof.KBody0
import proofs.«165758_j22333829939343_1_alg».proof.Proof.KBody1
import proofs.«165758_j22333829939343_1_alg».proof.Proof.KBody2
import proofs.«165758_j22333829939343_1_alg».proof.Proof.KBody3
import proofs.«165758_j22333829939343_1_alg».proof.Proof.KBody4
import proofs.«165758_j22333829939343_1_alg».proof.Proof.KRegion5
import proofs.«165758_j22333829939343_1_alg».proof.Proof.KRunVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The prefetched tables' admissible contents: no pipeline has a table. -/
abbrev adm : (p : Fin 6) → (pcfgs (F := F) p).Adm := fun p => (cfgs p).toPCfg_adm
/-- Every pipeline's proof data, each at its region's entry contents — a literal `match`, so that the pinned
    configuration at a numeral reduces to the printed one. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along; it leaves
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W12 m ρ c) ∗ ∃ r, prngReg c r)

end Cert.KernelIdeal.Hand

end
-- ==== Proof.KRunSegA.lean ====
/-
  THE RUN of the kernel program over its six regions, third part: regions 0, 1, 2 as segments over the thread state.
-/
import proofs.«165758_j22333829939343_1_alg».proof.Proof.Gen.KernelIdeal.Launch
import proofs.«165758_j22333829939343_1_alg».proof.Proof.KBody0
import proofs.«165758_j22333829939343_1_alg».proof.Proof.KBody1
import proofs.«165758_j22333829939343_1_alg».proof.Proof.KBody2
import proofs.«165758_j22333829939343_1_alg».proof.Proof.KBody3
import proofs.«165758_j22333829939343_1_alg».proof.Proof.KBody4
import proofs.«165758_j22333829939343_1_alg».proof.Proof.KRegion5
import proofs.«165758_j22333829939343_1_alg».proof.Proof.KRunData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- REGION 0 over the thread state: entered from every unscoped buffer at `W1`, left at `W2`. Its arrays are
    split out of the unscoped buffers and put back at the exit contents; the generator register and the scoped rest
    go into the pipeline's invariant at the first point and come back from it at the last (the invariant in between
    is the region's own business); nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec0 c : sProp 𝕄) ⊢ (pdats m ρ 0 c).Φ 0 := hin0 (V1 m ρ) c
    refine .trans ?_ h
    unfold Pipeline.ΦA
    iintro ⟨Hp, -, Hr⟩
    isplitl [Hr]; · iexact Hr
    iexact Hp
  hout c := by
    rw [Pipeline.ownSems0_none]
    have h : (pdats m ρ 0 c).Φ (Fin.last _) ⊢ (Pipeline.ΦA spec0 c : sProp 𝕄) := hout0 (V1 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are
    split out of the unscoped buffers and put back at the exit contents; the generator register and the scoped rest
    go into the pipeline's invariant at the first point and come back from it at the last (the invariant in between
    is the region's own business); nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m ρ 1 c).Φ 0 := hin1 (V3 m ρ) c
    refine .trans ?_ h
    unfold Pipeline.ΦA
    iintro ⟨Hp, -, Hr⟩
    isplitl [Hr]; · iexact Hr
    iexact Hp
  hout c := by
    rw [Pipeline.ownSems0_none]
    have h : (pdats m ρ 1 c).Φ (Fin.last _) ⊢ (Pipeline.ΦA spec1 c : sProp 𝕄) := hout1 (V3 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are
    split out of the unscoped buffers and put back at the exit contents; the generator register and the scoped rest
    go into the pipeline's invariant at the first point and come back from it at the last (the invariant in between
    is the region's own business); nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec2 c : sProp 𝕄) ⊢ (pdats m ρ 2 c).Φ 0 := hin2 (V5 m ρ) c
    refine .trans ?_ h
    unfold Pipeline.ΦA
    iintro ⟨Hp, -, Hr⟩
    isplitl [Hr]; · iexact Hr
    iexact Hp
  hout c := by
    rw [Pipeline.ownSems0_none]
    have h : (pdats m ρ 2 c).Φ (Fin.last _) ⊢ (Pipeline.ΦA spec2 c : sProp 𝕄) := hout2 (V5 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KRunSegB.lean ====
/-
  THE RUN of the kernel program over its six regions, third part: regions 3, 4, 5 as segments over the thread state.
-/
import proofs.«165758_j22333829939343_1_alg».proof.Proof.Gen.KernelIdeal.Launch
import proofs.«165758_j22333829939343_1_alg».proof.Proof.KBody0
import proofs.«165758_j22333829939343_1_alg».proof.Proof.KBody1
import proofs.«165758_j22333829939343_1_alg».proof.Proof.KBody2
import proofs.«165758_j22333829939343_1_alg».proof.Proof.KBody3
import proofs.«165758_j22333829939343_1_alg».proof.Proof.KBody4
import proofs.«165758_j22333829939343_1_alg».proof.Proof.KRegion5
import proofs.«165758_j22333829939343_1_alg».proof.Proof.KRunData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- REGION 3 over the thread state: entered from every unscoped buffer at `W7`, left at `W8`. Its arrays are
    split out of the unscoped buffers and put back at the exit contents; the generator register and the scoped rest
    go into the pipeline's invariant at the first point and come back from it at the last (the invariant in between
    is the region's own business); nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec3 c : sProp 𝕄) ⊢ (pdats m ρ 3 c).Φ 0 := hin3 (V7 m ρ) c
    refine .trans ?_ h
    unfold Pipeline.ΦA
    iintro ⟨Hp, -, Hr⟩
    isplitl [Hr]; · iexact Hr
    iexact Hp
  hout c := by
    rw [Pipeline.ownSems0_none]
    have h : (pdats m ρ 3 c).Φ (Fin.last _) ⊢ (Pipeline.ΦA spec3 c : sProp 𝕄) := hout3 (V7 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W9`, left at `W10`. Its arrays are
    split out of the unscoped buffers and put back at the exit contents; the generator register and the scoped rest
    go into the pipeline's invariant at the first point and come back from it at the last (the invariant in between
    is the region's own business); nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec4 c : sProp 𝕄) ⊢ (pdats m ρ 4 c).Φ 0 := hin4 (V9 m ρ) c
    refine .trans ?_ h
    unfold Pipeline.ΦA
    iintro ⟨Hp, -, Hr⟩
    isplitl [Hr]; · iexact Hr
    iexact Hp
  hout c := by
    rw [Pipeline.ownSems0_none]
    have h : (pdats m ρ 4 c).Φ (Fin.last _) ⊢ (Pipeline.ΦA spec4 c : sProp 𝕄) := hout4 (V9 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W11`, left at `W12`. Its arrays are
    split out of the unscoped buffers and put back at the exit contents; the generator register and the scoped rest
    go into the pipeline's invariant at the first point and come back from it at the last (the invariant in between
    is the region's own business); nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec5 c : sProp 𝕄) ⊢ (pdats m ρ 5 c).Φ 0 := hin5 (V11 m ρ) c
    refine .trans ?_ h
    unfold Pipeline.ΦA
    iintro ⟨Hp, -, Hr⟩
    isplitl [Hr]; · iexact Hr
    iexact Hp
  hout c := by
    rw [Pipeline.ownSems0_none]
    have h : (pdats m ρ 5 c).Φ (Fin.last _) ⊢ (Pipeline.ΦA spec5 c : sProp 𝕄) := hout5 (V11 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.KRunMain.lean ====
/-
  THE RUN of the kernel program over its six regions, last part: @main as the list of its twelve segments (a host
  stretch, then a kernel region, six times over), and the launch. From any memory with zero counters every weakly fair
  run terminates, nothing faulting, and in every final state each unscoped buffer holds the last boundary's contents
  `W12`: hence the nine arguments hold their launch contents (the frame), and the result array what the last
  pipeline leaves.
-/
import proofs.«165758_j22333829939343_1_alg».proof.Proof.Gen.KernelIdeal.Launch
import proofs.«165758_j22333829939343_1_alg».proof.Proof.KBody0
import proofs.«165758_j22333829939343_1_alg».proof.Proof.KBody1
import proofs.«165758_j22333829939343_1_alg».proof.Proof.KBody2
import proofs.«165758_j22333829939343_1_alg».proof.Proof.KBody3
import proofs.«165758_j22333829939343_1_alg».proof.Proof.KBody4
import proofs.«165758_j22333829939343_1_alg».proof.Proof.KRegion5
import proofs.«165758_j22333829939343_1_alg».proof.Proof.KRunSegA
import proofs.«165758_j22333829939343_1_alg».proof.Proof.KRunSegB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- @main's 12 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ) ]

/-- On every core @main is the run of the segments: both are the chain of the same twelve items. -/
theorem main_wp (c : Dev nD) (Q : PUnit → sProp 𝕄) :
    wp frame (wpE (Pipeline.defs (pcfgs (F := F)) defs₀) (Variants.lift 𝒱₀) (c.tc : Thread nD τ) none) Set.univ (Pipeline.Seg.run (segs m ρ)) Q
      ⊢ wp frame (wpE (Pipeline.defs (pcfgs (F := F)) defs₀) (Variants.lift 𝒱₀) (c.tc : Thread nD τ) none) Set.univ (main (F := F) c) Q := by
  rewrite [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()),
      StableHlo.seq hostOps5,
      Prog.lift (.customCall (Pipeline.entry 5) ()) ] from rfl]
  exact .rfl

set_option backward.isDefEq.respectTransparency.types false in
/-- THE LAUNCH: from any memory with zero counters, every weakly fair execution of @main on the TensorCores
    terminates, nothing faulting, and every final state satisfies any `Q` that follows from each unscoped buffer
    holding the last boundary's contents `W12`. -/
theorem run_of {Q : PUnit × MemSt nD τ sig (Elt F) → Prop}
    (hQ : ∀ s : MemSt nD τ sig (Elt F),
      (∀ c : Dev nD, ∀ b ∈ Pipeline.ucRefs τ sig, s.mem (((c : Thread nD τ)).1, b) = W12 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (main_wp m ρ)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := hQ)

/-- Every final state has each unscoped buffer of every core at the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W12 m ρ c b) :=
  run_of m ρ fun _ h => h

/-- THE FRAME: every weakly fair run terminates and the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_of m ρ fun s h c =>
    ⟨(h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c)⟩

/-- The result array in every final state: what the last region's pipeline leaves in its output window. -/
theorem run_result : θ_run defs (onTc (τ := τ) (main (F := F))) ⟨m, fun _ => 0, ρ⟩ (fun r => ∀ c : Dev nD,
      r.2.mem ((c.tc : Thread nD τ).loc main_v536) = (dat5 (V11 m ρ) c).arrAt 3 cfg5.N) :=
  run_of m ρ fun s h c => (h c _ (mem_uc main_v536 (by decide))).trans (W12_result m ρ c)

/-- The kernel half of the comparison with the reference: every weakly fair run terminates, the result array ends at
    what the last region's pipeline leaves in its output window, and the nine argument arrays end as launched. -/
theorem run_alg : θ_run defs (onTc (τ := τ) (main (F := F))) ⟨m, fun _ => 0, ρ⟩ (fun r => ∀ c : Dev nD,
      r.2.mem ((c.tc : Thread nD τ).loc main_v536) = (dat5 (V11 m ρ) c).arrAt 3 cfg5.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_of m ρ fun s h c =>
    ⟨(h c _ (mem_uc main_v536 (by decide))).trans (W12_result m ρ c),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c)⟩

end Cert.KernelIdeal.Hand

end
-- ==== Proof.BBase0.lean ====
/-
  Region 0 (the first graph-convolution layer's fused kernel): the schedule facts its body's runs are stated
  over. The grid is 25 row tiles by 3 relations, walked row tile by row tile; a point t is (t / 3, t % 3).
  The body zeroes its accumulator at relation 0, adds one relation's tile product at every point, and
  stores the activated mean into the output block at relation 2 only.
-/
import proofs.«165758_j22333829939343_1_alg».proof.Proof.Gen.Kernel.Launch
import proofs.«165758_j22333829939343_1_alg».proof.Proof.Gen.Kernel.Skeleton
import proofs.«165758_j22333829939343_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions over the grid -/

/-- "This is relation 0": the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 3 = 0 :=
  (by decide +kernel : ∀ t : Fin grid0.N, cond0_0 (grid0.coords t) ↔ t.val % 3 = 0)

/-- "This is relation 2": the output block is stored. -/
abbrev cond0_1 (i : grid0.Coords) : Prop := k0_cond2 i = 1#1
theorem hcond0_1 : ∀ t : Fin cfg0.N, cond0_1 (grid0.coords t) ↔ t.val % 3 = 2 :=
  (by decide +kernel : ∀ t : Fin grid0.N, cond0_1 (grid0.coords t) ↔ t.val % 3 = 2)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem liveAt0_3_C : ∀ t : Fin cfg0.N, ¬cond0_0 (grid0.coords t) → cond0_1 (grid0.coords t) → cfg0.idle 3 (grid0.coords t) = false := by decide +kernel

/-! ## The memrefs the body is called with -/

abbrev VO0_3 : View sig .tc .vmem S2000x128 .f32 := (Memref.whole cc0_stg3_0 : Memref sig .tc .vmem S2000x128 .f32).view
abbrev ms0_0 (t : Fin cfg0.N) : Memref sig .tc .vmem S1x2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2000x128 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S2000x128 .f32 := Memref.whole cc0_scratch0
abbrev VS0_0 : View sig .tc .vmem S2000x128 .f32 := scM0_0.view

/-- The region's resting invariant with the accumulator split out as a memref owned at some contents. -/
theorem PhiA0_eq (c : Dev nD) :
    (Pipeline.ΦA spec0 c : sProp 𝕄)
      = iprop(iprop((∃ d, owns (c : Thread nD τ) scM0_0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.Kernel.Hand

end
-- ==== Proof.BRun0A.lean ====
/-
  Region 0: the kernel body run once in case A of its two conditions.
-/
import proofs.«165758_j22333829939343_1_alg».proof.Proof.BBase0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case A on whole memrefs: the three input blocks at their contents, the output block at any
    contents (this case leaves it as it is), the accumulator at anything (it is overwritten with zeros first); it ends
    with the inputs and the output block as they were and the accumulator with the listed pieces written (last first). -/
noncomputable def kernelRun0_A (c : Dev nD) (i : grid0.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond0_0 i) (hc1 : ¬cond0_1 i)
    (x0 : Vec F S1x2000x128 .f32) (x1 : Vec F S1x128x128 .f32) (x2 : Vec F S1x1x128 .f32) :
    { LS0 : List (View.Piece (Elt F) S2000x128 .f32) //
      ∀ (e3 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare e3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare e3 ∗ (∃ f, arg6.view.loc (c : Thread nD τ) ↦[arg6.view.set]{fullShare} arg6.view.writes (Elt F) f LS0)) -∗ K ⟨⟩))
          ⊢ wp frame (wpE (defs₀ (F := F)) Variants.none c none) E (cc0__gconv_kernel i arg2 harg2 arg3 harg3 arg4 harg4 arg5 harg5 arg6 harg6) K } := by
  refine ⟨?_, fun e3 E K => ?run⟩
  case run =>
    simp only [cc0__gconv_kernel_eq_skeleton]; unfold cc0__gconv_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists f3; isplitr; · ipureintro; exact hf3
      iexact H3
    iexists _; iexact HS0

end Cert.Kernel.Hand

end
-- ==== Proof.BRun0B.lean ====
/-
  Region 0: the kernel body run once in case B of its two conditions.
-/
import proofs.«165758_j22333829939343_1_alg».proof.Proof.BBase0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case B on whole memrefs: the three input blocks at their contents, the output block at any
    contents (this case leaves it as it is), the accumulator at what the point before left; it ends
    with the inputs and the output block as they were and the accumulator with the listed pieces written (last first). -/
noncomputable def kernelRun0_B (c : Dev nD) (i : grid0.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond0_0 i) (hc1 : ¬cond0_1 i)
    (x0 : Vec F S1x2000x128 .f32) (x1 : Vec F S1x128x128 .f32) (x2 : Vec F S1x1x128 .f32) (xs0 : Vec F S2000x128 .f32) :
    { LS0 : List (View.Piece (Elt F) S2000x128 .f32) //
      ∀ (e3 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare e3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare e3 ∗ (∃ f, arg6.view.loc (c : Thread nD τ) ↦[arg6.view.set]{fullShare} arg6.view.writes (Elt F) f LS0)) -∗ K ⟨⟩))
          ⊢ wp frame (wpE (defs₀ (F := F)) Variants.none c none) E (cc0__gconv_kernel i arg2 harg2 arg3 harg3 arg4 harg4 arg5 harg5 arg6 harg6) K } := by
  refine ⟨?_, fun e3 E K => ?run⟩
  case run =>
    simp only [cc0__gconv_kernel_eq_skeleton]; unfold cc0__gconv_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists f3; isplitr; · ipureintro; exact hf3
      iexact H3
    iexists _; iexact HS0

end Cert.Kernel.Hand

end
-- ==== Proof.BRun0C.lean ====
/-
  Region 0: the kernel body run once in case C of its two conditions.
-/
import proofs.«165758_j22333829939343_1_alg».proof.Proof.BBase0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case C on whole memrefs: the three input blocks at their contents, the output block at anything,
    the accumulator at what the point before left; it ends with the inputs as they were and the
    output block and the accumulator with the listed pieces written (last first). -/
noncomputable def kernelRun0_C (c : Dev nD) (i : grid0.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond0_0 i) (hc1 : cond0_1 i)
    (x0 : Vec F S1x2000x128 .f32) (x1 : Vec F S1x128x128 .f32) (x2 : Vec F S1x1x128 .f32) (xs0 : Vec F S2000x128 .f32) :
    Σ' (L3 : List (View.Piece (Elt F) S2000x128 .f32)), { LS0 : List (View.Piece (Elt F) S2000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gconv_kernel i arg2 harg2 arg3 harg3 arg4 harg4 arg5 harg5 arg6 harg6) K } := by
  refine ⟨?_, ?_, fun E K => ?run⟩
  case run =>
    simp only [cc0__gconv_kernel_eq_skeleton]; unfold cc0__gconv_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.BFrame0.lean ====
/-
  Region 0: what the accumulator and the output block hold after each grid point, the region's proof data, and
  the body obligation. The accumulator after point t holds the sum of the relations' tile products up to
  relation t % 3 of row tile t / 3; the output block is stored at relation 2 and is idle elsewhere.
-/
import proofs.«165758_j22333829939343_1_alg».proof.Proof.BRun0A
import proofs.«165758_j22333829939343_1_alg».proof.Proof.BRun0B
import proofs.«165758_j22333829939343_1_alg».proof.Proof.BRun0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

theorem scover0_A_0 (c : Dev nD) (i : grid0.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond0_0 i) (hc1 : ¬cond0_1 i) (x0 : Vec F S1x2000x128 .f32) (x1 : Vec F S1x128x128 .f32) (x2 : Vec F S1x1x128 .f32) (y : S2000x128.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S2000x128.size (by sl_kernel_rfl) y
/-- The accumulator after a relation-0 point. -/
def sout0_A_0 (c : Dev nD) (i : grid0.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond0_0 i) (hc1 : ¬cond0_1 i) (x0 : Vec F S1x2000x128 .f32) (x1 : Vec F S1x128x128 .f32) (x2 : Vec F S1x1x128 .f32) : Vec F S2000x128 .f32 :=
  VS0_0.read (Elt F) (VS0_0.writes (Elt F) VS0_0.junk (kernelRun0_A c i arg2 harg2 arg3 harg3 arg4 harg4 arg5 harg5 arg6 harg6 hc0 hc1 x0 x1 x2).1)

theorem scover0_B_0 (c : Dev nD) (i : grid0.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond0_0 i) (hc1 : ¬cond0_1 i) (x0 : Vec F S1x2000x128 .f32) (x1 : Vec F S1x128x128 .f32) (x2 : Vec F S1x1x128 .f32) (xs0 : Vec F S2000x128 .f32) (y : S2000x128.Idx) :
    ∃ pc ∈ (kernelRun0_B c i arg2 harg2 arg3 harg3 arg4 harg4 arg5 harg5 arg6 harg6 hc0 hc1 x0 x1 x2 xs0).1, y ∈ pc.1.set :=
  View.cover_of_tiledL (kernelRun0_B c i arg2 harg2 arg3 harg3 arg4 harg4 arg5 harg5 arg6 harg6 hc0 hc1 x0 x1 x2 xs0).1 S2000x128.size (by sl_kernel_rfl) y
/-- The accumulator after a relation-1 point. -/
def sout0_B_0 (c : Dev nD) (i : grid0.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond0_0 i) (hc1 : ¬cond0_1 i) (x0 : Vec F S1x2000x128 .f32) (x1 : Vec F S1x128x128 .f32) (x2 : Vec F S1x1x128 .f32) (xs0 : Vec F S2000x128 .f32) : Vec F S2000x128 .f32 :=
  VS0_0.read (Elt F) (VS0_0.writes (Elt F) VS0_0.junk (kernelRun0_B c i arg2 harg2 arg3 harg3 arg4 harg4 arg5 harg5 arg6 harg6 hc0 hc1 x0 x1 x2 xs0).1)

theorem cover0_C_3 (c : Dev nD) (i : grid0.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond0_0 i) (hc1 : cond0_1 i) (x0 : Vec F S1x2000x128 .f32) (x1 : Vec F S1x128x128 .f32) (x2 : Vec F S1x1x128 .f32) (xs0 : Vec F S2000x128 .f32) (y : S2000x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S2000x128.size (by sl_kernel_rfl) y
/-- The output block after a relation-2 point. -/
def out0_C_3 (c : Dev nD) (i : grid0.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond0_0 i) (hc1 : cond0_1 i) (x0 : Vec F S1x2000x128 .f32) (x1 : Vec F S1x128x128 .f32) (x2 : Vec F S1x1x128 .f32) (xs0 : Vec F S2000x128 .f32) : Vec F S2000x128 .f32 :=
  VO0_3.read (Elt F) (VO0_3.writes (Elt F) VO0_3.junk (kernelRun0_C c i arg2 harg2 arg3 harg3 arg4 harg4 arg5 harg5 arg6 harg6 hc0 hc1 x0 x1 x2 xs0).1)
theorem scover0_C_0 (c : Dev nD) (i : grid0.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond0_0 i) (hc1 : cond0_1 i) (x0 : Vec F S1x2000x128 .f32) (x1 : Vec F S1x128x128 .f32) (x2 : Vec F S1x1x128 .f32) (xs0 : Vec F S2000x128 .f32) (y : S2000x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S2000x128.size (by sl_kernel_rfl) y
/-- The accumulator after a relation-2 point. -/
def sout0_C_0 (c : Dev nD) (i : grid0.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond0_0 i) (hc1 : cond0_1 i) (x0 : Vec F S1x2000x128 .f32) (x1 : Vec F S1x128x128 .f32) (x2 : Vec F S1x1x128 .f32) (xs0 : Vec F S2000x128 .f32) : Vec F S2000x128 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## Point by point -/

/-- What the output block's staging buffer and the accumulator hold after the body at position n (the output
    component is a placeholder at the points where the block is idle: nothing reads it there). -/
def outsAt0 (c : Dev nD) : (n : ℕ) → n < cfg0.N → Vec F S2000x128 .f32 × Vec F S2000x128 .f32
  | 0, hn => (VO0_3.junk, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 3 = 0 then
      (VO0_3.junk, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 3 = 2 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (VO0_3.junk, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

set_option maxHeartbeats 2000000 in
theorem outsAt0_A (c : Dev nD) (t : Fin cfg0.N) (h0 : t.val % 3 = 0) (hc1 : ¬cond0_1 (grid0.coords t)) :
    outsAt0 V c t.val t.isLt = (VO0_3.junk, sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) hc1 (iblk0 V c 0 t) (iblk0 V c 1 t) (iblk0 V c 2 t)) := by
  obtain ⟨n, hn⟩ := t
  cases n with
  | zero => exact rfl
  | succ n => exact (dif_pos h0).trans rfl

set_option maxHeartbeats 2000000 in
theorem outsAt0_B (c : Dev nD) (t : Fin cfg0.N) (h0 : ¬t.val % 3 = 0) (h1 : ¬t.val % 3 = 2) :
    outsAt0 V c t.val t.isLt = (VO0_3.junk, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact ((dif_neg h0).trans (dif_neg h1)).trans rfl

set_option maxHeartbeats 2000000 in
theorem outsAt0_C (c : Dev nD) (t : Fin cfg0.N) (h0 : ¬t.val % 3 = 0) (h1 : t.val % 3 = 2) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact ((dif_neg h0).trans (dif_pos h1)).trans rfl

/-- The region invariant before position n: at the first point the resting one; afterwards the accumulator at
    what the point before left, the rest of the scoped buffers unopened, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.Kernel.Hand

end
-- ==== Proof.BBody0.lean ====
/-
  Region 0: the body obligation at every grid point, and the invariant's two ends. The point's relation
  (t % 3) selects the case; the invariant hands the body the accumulator at what the point before left
  (at anything before the first point) and takes it back at this point's contents.
-/
import proofs.«165758_j22333829939343_1_alg».proof.Proof.BFrame0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]; try rfl
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]; try rfl
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]; try rfl

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 75 := lt_of_lt_of_eq t.isLt (show cfg0.N = 75 from N_0)
  by_cases h0 : t.val % 3 = 0
  · have hc1 : ¬cond0_1 (grid0.coords t) := fun h => by have := (hcond0_1 t).mp h; omega
    rw [Dat.leavesExact_idle (dat0 V c) 3 t (idleAt0_3_A t ((hcond0_0 t).mpr h0) hc1) (noFlush0_3_A t ((hcond0_0 t).mpr h0) hc1)]
    rw [outsAt0_A V c t h0 hc1]
    unfold sout0_A_0; (try dsimp only)
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) ((hcond0_0 t).mpr h0) hc1 (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) ((hcond0_0 t).mpr h0) hc1 (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 3 = 2
    · rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_3 sout0_C_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the resting one back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 75 := N_0; omega)

end Cert.Kernel.Hand

end
-- ==== Proof.BBase1.lean ====
/-
  Region 1 (graph-convolution layer 1's fused kernel): the schedule facts its body's runs are stated
  over. The grid is 25 row tiles by 3 relations, walked row tile by row tile; a point t is (t / 3, t % 3).
  The body zeroes its accumulator at relation 0, adds one relation's tile product at every point, and
  stores the activated mean into the output block at relation 2 only.
-/
import proofs.«165758_j22333829939343_1_alg».proof.Proof.Gen.Kernel.Launch
import proofs.«165758_j22333829939343_1_alg».proof.Proof.Gen.Kernel.Skeleton
import proofs.«165758_j22333829939343_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions over the grid -/

/-- "This is relation 0": the accumulator is reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 3 = 0 :=
  (by decide +kernel : ∀ t : Fin grid1.N, cond1_0 (grid1.coords t) ↔ t.val % 3 = 0)

/-- "This is relation 2": the output block is stored. -/
abbrev cond1_1 (i : grid1.Coords) : Prop := k1_cond2 i = 1#1
theorem hcond1_1 : ∀ t : Fin cfg1.N, cond1_1 (grid1.coords t) ↔ t.val % 3 = 2 :=
  (by decide +kernel : ∀ t : Fin grid1.N, cond1_1 (grid1.coords t) ↔ t.val % 3 = 2)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called with -/

abbrev VO1_3 : View sig .tc .vmem S2000x128 .f32 := (Memref.whole cc1_stg3_0 : Memref sig .tc .vmem S2000x128 .f32).view
abbrev ms1_0 (t : Fin cfg1.N) : Memref sig .tc .vmem S1x2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2000x128 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S2000x128 .f32 := Memref.whole cc1_scratch0
abbrev VS1_0 : View sig .tc .vmem S2000x128 .f32 := scM1_0.view

/-- The region's resting invariant with the accumulator split out as a memref owned at some contents. -/
theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.Kernel.Hand

end
-- ==== Proof.BRun1A.lean ====
/-
  Region 1: the kernel body run once in case A of its two conditions.
-/
import proofs.«165758_j22333829939343_1_alg».proof.Proof.BBase1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case A on whole memrefs: the three input blocks at their contents, the output block at any
    contents (this case leaves it as it is), the accumulator at anything (it is overwritten with zeros first); it ends
    with the inputs and the output block as they were and the accumulator with the listed pieces written (last first). -/
noncomputable def kernelRun1_A (c : Dev nD) (i : grid1.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond1_0 i) (hc1 : ¬cond1_1 i)
    (x0 : Vec F S1x2000x128 .f32) (x1 : Vec F S1x128x128 .f32) (x2 : Vec F S1x1x128 .f32) :
    { LS0 : List (View.Piece (Elt F) S2000x128 .f32) //
      ∀ (e3 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare e3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare e3 ∗ (∃ f, arg6.view.loc (c : Thread nD τ) ↦[arg6.view.set]{fullShare} arg6.view.writes (Elt F) f LS0)) -∗ K ⟨⟩))
          ⊢ wp frame (wpE (defs₀ (F := F)) Variants.none c none) E (cc1__gconv_kernel i arg2 harg2 arg3 harg3 arg4 harg4 arg5 harg5 arg6 harg6) K } := by
  refine ⟨?_, fun e3 E K => ?run⟩
  case run =>
    simp only [cc1__gconv_kernel_eq_skeleton]; unfold cc1__gconv_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists f3; isplitr; · ipureintro; exact hf3
      iexact H3
    iexists _; iexact HS0

end Cert.Kernel.Hand

end
-- ==== Proof.BRun1B.lean ====
/-
  Region 1: the kernel body run once in case B of its two conditions.
-/
import proofs.«165758_j22333829939343_1_alg».proof.Proof.BBase1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case B on whole memrefs: the three input blocks at their contents, the output block at any
    contents (this case leaves it as it is), the accumulator at what the point before left; it ends
    with the inputs and the output block as they were and the accumulator with the listed pieces written (last first). -/
noncomputable def kernelRun1_B (c : Dev nD) (i : grid1.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond1_0 i) (hc1 : ¬cond1_1 i)
    (x0 : Vec F S1x2000x128 .f32) (x1 : Vec F S1x128x128 .f32) (x2 : Vec F S1x1x128 .f32) (xs0 : Vec F S2000x128 .f32) :
    { LS0 : List (View.Piece (Elt F) S2000x128 .f32) //
      ∀ (e3 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare e3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare e3 ∗ (∃ f, arg6.view.loc (c : Thread nD τ) ↦[arg6.view.set]{fullShare} arg6.view.writes (Elt F) f LS0)) -∗ K ⟨⟩))
          ⊢ wp frame (wpE (defs₀ (F := F)) Variants.none c none) E (cc1__gconv_kernel i arg2 harg2 arg3 harg3 arg4 harg4 arg5 harg5 arg6 harg6) K } := by
  refine ⟨?_, fun e3 E K => ?run⟩
  case run =>
    simp only [cc1__gconv_kernel_eq_skeleton]; unfold cc1__gconv_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists f3; isplitr; · ipureintro; exact hf3
      iexact H3
    iexists _; iexact HS0

end Cert.Kernel.Hand

end
-- ==== Proof.BRun1C.lean ====
/-
  Region 1: the kernel body run once in case C of its two conditions.
-/
import proofs.«165758_j22333829939343_1_alg».proof.Proof.BBase1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case C on whole memrefs: the three input blocks at their contents, the output block at anything,
    the accumulator at what the point before left; it ends with the inputs as they were and the
    output block and the accumulator with the listed pieces written (last first). -/
noncomputable def kernelRun1_C (c : Dev nD) (i : grid1.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond1_0 i) (hc1 : cond1_1 i)
    (x0 : Vec F S1x2000x128 .f32) (x1 : Vec F S1x128x128 .f32) (x2 : Vec F S1x1x128 .f32) (xs0 : Vec F S2000x128 .f32) :
    Σ' (L3 : List (View.Piece (Elt F) S2000x128 .f32)), { LS0 : List (View.Piece (Elt F) S2000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gconv_kernel i arg2 harg2 arg3 harg3 arg4 harg4 arg5 harg5 arg6 harg6) K } := by
  refine ⟨?_, ?_, fun E K => ?run⟩
  case run =>
    simp only [cc1__gconv_kernel_eq_skeleton]; unfold cc1__gconv_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.BFrame1.lean ====
/-
  Region 1: what the accumulator and the output block hold after each grid point, the region's proof data, and
  the body obligation. The accumulator after point t holds the sum of the relations' tile products up to
  relation t % 3 of row tile t / 3; the output block is stored at relation 2 and is idle elsewhere.
-/
import proofs.«165758_j22333829939343_1_alg».proof.Proof.BRun1A
import proofs.«165758_j22333829939343_1_alg».proof.Proof.BRun1B
import proofs.«165758_j22333829939343_1_alg».proof.Proof.BRun1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

theorem scover1_A_0 (c : Dev nD) (i : grid1.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond1_0 i) (hc1 : ¬cond1_1 i) (x0 : Vec F S1x2000x128 .f32) (x1 : Vec F S1x128x128 .f32) (x2 : Vec F S1x1x128 .f32) (y : S2000x128.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S2000x128.size (by sl_kernel_rfl) y
/-- The accumulator after a relation-0 point. -/
def sout1_A_0 (c : Dev nD) (i : grid1.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond1_0 i) (hc1 : ¬cond1_1 i) (x0 : Vec F S1x2000x128 .f32) (x1 : Vec F S1x128x128 .f32) (x2 : Vec F S1x1x128 .f32) : Vec F S2000x128 .f32 :=
  VS1_0.read (Elt F) (VS1_0.writes (Elt F) VS1_0.junk (kernelRun1_A c i arg2 harg2 arg3 harg3 arg4 harg4 arg5 harg5 arg6 harg6 hc0 hc1 x0 x1 x2).1)

theorem scover1_B_0 (c : Dev nD) (i : grid1.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond1_0 i) (hc1 : ¬cond1_1 i) (x0 : Vec F S1x2000x128 .f32) (x1 : Vec F S1x128x128 .f32) (x2 : Vec F S1x1x128 .f32) (xs0 : Vec F S2000x128 .f32) (y : S2000x128.Idx) :
    ∃ pc ∈ (kernelRun1_B c i arg2 harg2 arg3 harg3 arg4 harg4 arg5 harg5 arg6 harg6 hc0 hc1 x0 x1 x2 xs0).1, y ∈ pc.1.set :=
  View.cover_of_tiledL (kernelRun1_B c i arg2 harg2 arg3 harg3 arg4 harg4 arg5 harg5 arg6 harg6 hc0 hc1 x0 x1 x2 xs0).1 S2000x128.size (by sl_kernel_rfl) y
/-- The accumulator after a relation-1 point. -/
def sout1_B_0 (c : Dev nD) (i : grid1.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond1_0 i) (hc1 : ¬cond1_1 i) (x0 : Vec F S1x2000x128 .f32) (x1 : Vec F S1x128x128 .f32) (x2 : Vec F S1x1x128 .f32) (xs0 : Vec F S2000x128 .f32) : Vec F S2000x128 .f32 :=
  VS1_0.read (Elt F) (VS1_0.writes (Elt F) VS1_0.junk (kernelRun1_B c i arg2 harg2 arg3 harg3 arg4 harg4 arg5 harg5 arg6 harg6 hc0 hc1 x0 x1 x2 xs0).1)

theorem cover1_C_3 (c : Dev nD) (i : grid1.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond1_0 i) (hc1 : cond1_1 i) (x0 : Vec F S1x2000x128 .f32) (x1 : Vec F S1x128x128 .f32) (x2 : Vec F S1x1x128 .f32) (xs0 : Vec F S2000x128 .f32) (y : S2000x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2000x128.size (by sl_kernel_rfl) y
/-- The output block after a relation-2 point. -/
def out1_C_3 (c : Dev nD) (i : grid1.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond1_0 i) (hc1 : cond1_1 i) (x0 : Vec F S1x2000x128 .f32) (x1 : Vec F S1x128x128 .f32) (x2 : Vec F S1x1x128 .f32) (xs0 : Vec F S2000x128 .f32) : Vec F S2000x128 .f32 :=
  VO1_3.read (Elt F) (VO1_3.writes (Elt F) VO1_3.junk (kernelRun1_C c i arg2 harg2 arg3 harg3 arg4 harg4 arg5 harg5 arg6 harg6 hc0 hc1 x0 x1 x2 xs0).1)
theorem scover1_C_0 (c : Dev nD) (i : grid1.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond1_0 i) (hc1 : cond1_1 i) (x0 : Vec F S1x2000x128 .f32) (x1 : Vec F S1x128x128 .f32) (x2 : Vec F S1x1x128 .f32) (xs0 : Vec F S2000x128 .f32) (y : S2000x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2000x128.size (by sl_kernel_rfl) y
/-- The accumulator after a relation-2 point. -/
def sout1_C_0 (c : Dev nD) (i : grid1.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond1_0 i) (hc1 : cond1_1 i) (x0 : Vec F S1x2000x128 .f32) (x1 : Vec F S1x128x128 .f32) (x2 : Vec F S1x1x128 .f32) (xs0 : Vec F S2000x128 .f32) : Vec F S2000x128 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## Point by point -/

/-- What the output block's staging buffer and the accumulator hold after the body at position n (the output
    component is a placeholder at the points where the block is idle: nothing reads it there). -/
def outsAt1 (c : Dev nD) : (n : ℕ) → n < cfg1.N → Vec F S2000x128 .f32 × Vec F S2000x128 .f32
  | 0, hn => (VO1_3.junk, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 3 = 0 then
      (VO1_3.junk, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 3 = 2 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (VO1_3.junk, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

set_option maxHeartbeats 2000000 in
theorem outsAt1_A (c : Dev nD) (t : Fin cfg1.N) (h0 : t.val % 3 = 0) (hc1 : ¬cond1_1 (grid1.coords t)) :
    outsAt1 V c t.val t.isLt = (VO1_3.junk, sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) hc1 (iblk1 V c 0 t) (iblk1 V c 1 t) (iblk1 V c 2 t)) := by
  obtain ⟨n, hn⟩ := t
  cases n with
  | zero => exact rfl
  | succ n => exact (dif_pos h0).trans rfl

set_option maxHeartbeats 2000000 in
theorem outsAt1_B (c : Dev nD) (t : Fin cfg1.N) (h0 : ¬t.val % 3 = 0) (h1 : ¬t.val % 3 = 2) :
    outsAt1 V c t.val t.isLt = (VO1_3.junk, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact ((dif_neg h0).trans (dif_neg h1)).trans rfl

set_option maxHeartbeats 2000000 in
theorem outsAt1_C (c : Dev nD) (t : Fin cfg1.N) (h0 : ¬t.val % 3 = 0) (h1 : t.val % 3 = 2) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact ((dif_neg h0).trans (dif_pos h1)).trans rfl

/-- The region invariant before position n: at the first point the resting one; afterwards the accumulator at
    what the point before left, the rest of the scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Hand

end
-- ==== Proof.BBody1.lean ====
/-
  Region 1: the body obligation at every grid point, and the invariant's two ends. The point's relation
  (t % 3) selects the case; the invariant hands the body the accumulator at what the point before left
  (at anything before the first point) and takes it back at this point's contents.
-/
import proofs.«165758_j22333829939343_1_alg».proof.Proof.BFrame1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]; try rfl
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]; try rfl
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]; try rfl

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 75 := lt_of_lt_of_eq t.isLt (show cfg1.N = 75 from N_1)
  by_cases h0 : t.val % 3 = 0
  · have hc1 : ¬cond1_1 (grid1.coords t) := fun h => by have := (hcond1_1 t).mp h; omega
    rw [Dat.leavesExact_idle (dat1 V c) 3 t (idleAt1_3_A t ((hcond1_0 t).mpr h0) hc1) (noFlush1_3_A t ((hcond1_0 t).mpr h0) hc1)]
    rw [outsAt1_A V c t h0 hc1]
    unfold sout1_A_0; (try dsimp only)
    by_cases hz : t.val = 0
    · rw [PhiS1_castSucc V c t, PhiS1_zero V c _ _ hz, PhiA1_eq]
      iintro ⟨⟨⟨HS0, Hrest⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) hc1 (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) hc1 (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 3 = 2
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the resting one back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 75 := N_1; omega)

end Cert.Kernel.Hand

end
-- ==== Proof.BBase2.lean ====
/-
  Region 2 (graph-convolution layer 2's fused kernel): the schedule facts its body's runs are stated
  over. The grid is 25 row tiles by 3 relations, walked row tile by row tile; a point t is (t / 3, t % 3).
  The body zeroes its accumulator at relation 0, adds one relation's tile product at every point, and
  stores the activated mean into the output block at relation 2 only.
-/
import proofs.«165758_j22333829939343_1_alg».proof.Proof.Gen.Kernel.Launch
import proofs.«165758_j22333829939343_1_alg».proof.Proof.Gen.Kernel.Skeleton
import proofs.«165758_j22333829939343_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions over the grid -/

/-- "This is relation 0": the accumulator is reset. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 3 = 0 :=
  (by decide +kernel : ∀ t : Fin grid2.N, cond2_0 (grid2.coords t) ↔ t.val % 3 = 0)

/-- "This is relation 2": the output block is stored. -/
abbrev cond2_1 (i : grid2.Coords) : Prop := k2_cond2 i = 1#1
theorem hcond2_1 : ∀ t : Fin cfg2.N, cond2_1 (grid2.coords t) ↔ t.val % 3 = 2 :=
  (by decide +kernel : ∀ t : Fin grid2.N, cond2_1 (grid2.coords t) ↔ t.val % 3 = 2)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
theorem liveAt2_3_C : ∀ t : Fin cfg2.N, ¬cond2_0 (grid2.coords t) → cond2_1 (grid2.coords t) → cfg2.idle 3 (grid2.coords t) = false := by decide +kernel

/-! ## The memrefs the body is called with -/

abbrev VO2_3 : View sig .tc .vmem S2000x128 .f32 := (Memref.whole cc2_stg3_0 : Memref sig .tc .vmem S2000x128 .f32).view
abbrev ms2_0 (t : Fin cfg2.N) : Memref sig .tc .vmem S1x2000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2000x128 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2_0 : Memref sig .tc .vmem S2000x128 .f32 := Memref.whole cc2_scratch0
abbrev VS2_0 : View sig .tc .vmem S2000x128 .f32 := scM2_0.view

/-- The region's resting invariant with the accumulator split out as a memref owned at some contents. -/
theorem PhiA2_eq (c : Dev nD) :
    (Pipeline.ΦA spec2 c : sProp 𝕄)
      = iprop(iprop((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.Kernel.Hand

end
-- ==== Proof.BRun2A.lean ====
/-
  Region 2: the kernel body run once in case A of its two conditions.
-/
import proofs.«165758_j22333829939343_1_alg».proof.Proof.BBase2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case A on whole memrefs: the three input blocks at their contents, the output block at any
    contents (this case leaves it as it is), the accumulator at anything (it is overwritten with zeros first); it ends
    with the inputs and the output block as they were and the accumulator with the listed pieces written (last first). -/
noncomputable def kernelRun2_A (c : Dev nD) (i : grid2.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond2_0 i) (hc1 : ¬cond2_1 i)
    (x0 : Vec F S1x2000x128 .f32) (x1 : Vec F S1x128x128 .f32) (x2 : Vec F S1x1x128 .f32) :
    { LS0 : List (View.Piece (Elt F) S2000x128 .f32) //
      ∀ (e3 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare e3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare e3 ∗ (∃ f, arg6.view.loc (c : Thread nD τ) ↦[arg6.view.set]{fullShare} arg6.view.writes (Elt F) f LS0)) -∗ K ⟨⟩))
          ⊢ wp frame (wpE (defs₀ (F := F)) Variants.none c none) E (cc2__gconv_kernel i arg2 harg2 arg3 harg3 arg4 harg4 arg5 harg5 arg6 harg6) K } := by
  refine ⟨?_, fun e3 E K => ?run⟩
  case run =>
    simp only [cc2__gconv_kernel_eq_skeleton]; unfold cc2__gconv_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists f3; isplitr; · ipureintro; exact hf3
      iexact H3
    iexists _; iexact HS0

end Cert.Kernel.Hand

end
-- ==== Proof.BRun2B.lean ====
/-
  Region 2: the kernel body run once in case B of its two conditions.
-/
import proofs.«165758_j22333829939343_1_alg».proof.Proof.BBase2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case B on whole memrefs: the three input blocks at their contents, the output block at any
    contents (this case leaves it as it is), the accumulator at what the point before left; it ends
    with the inputs and the output block as they were and the accumulator with the listed pieces written (last first). -/
noncomputable def kernelRun2_B (c : Dev nD) (i : grid2.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : ¬cond2_1 i)
    (x0 : Vec F S1x2000x128 .f32) (x1 : Vec F S1x128x128 .f32) (x2 : Vec F S1x1x128 .f32) (xs0 : Vec F S2000x128 .f32) :
    { LS0 : List (View.Piece (Elt F) S2000x128 .f32) //
      ∀ (e3 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare e3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare e3 ∗ (∃ f, arg6.view.loc (c : Thread nD τ) ↦[arg6.view.set]{fullShare} arg6.view.writes (Elt F) f LS0)) -∗ K ⟨⟩))
          ⊢ wp frame (wpE (defs₀ (F := F)) Variants.none c none) E (cc2__gconv_kernel i arg2 harg2 arg3 harg3 arg4 harg4 arg5 harg5 arg6 harg6) K } := by
  refine ⟨?_, fun e3 E K => ?run⟩
  case run =>
    simp only [cc2__gconv_kernel_eq_skeleton]; unfold cc2__gconv_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists f3; isplitr; · ipureintro; exact hf3
      iexact H3
    iexists _; iexact HS0

end Cert.Kernel.Hand

end
-- ==== Proof.BRun2C.lean ====
/-
  Region 2: the kernel body run once in case C of its two conditions.
-/
import proofs.«165758_j22333829939343_1_alg».proof.Proof.BBase2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case C on whole memrefs: the three input blocks at their contents, the output block at anything,
    the accumulator at what the point before left; it ends with the inputs as they were and the
    output block and the accumulator with the listed pieces written (last first). -/
noncomputable def kernelRun2_C (c : Dev nD) (i : grid2.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : cond2_1 i)
    (x0 : Vec F S1x2000x128 .f32) (x1 : Vec F S1x128x128 .f32) (x2 : Vec F S1x1x128 .f32) (xs0 : Vec F S2000x128 .f32) :
    Σ' (L3 : List (View.Piece (Elt F) S2000x128 .f32)), { LS0 : List (View.Piece (Elt F) S2000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__gconv_kernel i arg2 harg2 arg3 harg3 arg4 harg4 arg5 harg5 arg6 harg6) K } := by
  refine ⟨?_, ?_, fun E K => ?run⟩
  case run =>
    simp only [cc2__gconv_kernel_eq_skeleton]; unfold cc2__gconv_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.BFrame2.lean ====
/-
  Region 2: what the accumulator and the output block hold after each grid point, the region's proof data, and
  the body obligation. The accumulator after point t holds the sum of the relations' tile products up to
  relation t % 3 of row tile t / 3; the output block is stored at relation 2 and is idle elsewhere.
-/
import proofs.«165758_j22333829939343_1_alg».proof.Proof.BRun2A
import proofs.«165758_j22333829939343_1_alg».proof.Proof.BRun2B
import proofs.«165758_j22333829939343_1_alg».proof.Proof.BRun2C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

theorem scover2_A_0 (c : Dev nD) (i : grid2.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond2_0 i) (hc1 : ¬cond2_1 i) (x0 : Vec F S1x2000x128 .f32) (x1 : Vec F S1x128x128 .f32) (x2 : Vec F S1x1x128 .f32) (y : S2000x128.Idx) :
    ∃ pc ∈ (kernelRun2_A c i arg2 harg2 arg3 harg3 arg4 harg4 arg5 harg5 arg6 harg6 hc0 hc1 x0 x1 x2).1, y ∈ pc.1.set :=
  View.cover_of_tiledL (kernelRun2_A c i arg2 harg2 arg3 harg3 arg4 harg4 arg5 harg5 arg6 harg6 hc0 hc1 x0 x1 x2).1 S2000x128.size (by sl_kernel_rfl) y
/-- The accumulator after a relation-0 point. -/
def sout2_A_0 (c : Dev nD) (i : grid2.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond2_0 i) (hc1 : ¬cond2_1 i) (x0 : Vec F S1x2000x128 .f32) (x1 : Vec F S1x128x128 .f32) (x2 : Vec F S1x1x128 .f32) : Vec F S2000x128 .f32 :=
  VS2_0.read (Elt F) (VS2_0.writes (Elt F) VS2_0.junk (kernelRun2_A c i arg2 harg2 arg3 harg3 arg4 harg4 arg5 harg5 arg6 harg6 hc0 hc1 x0 x1 x2).1)

theorem scover2_B_0 (c : Dev nD) (i : grid2.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : ¬cond2_1 i) (x0 : Vec F S1x2000x128 .f32) (x1 : Vec F S1x128x128 .f32) (x2 : Vec F S1x1x128 .f32) (xs0 : Vec F S2000x128 .f32) (y : S2000x128.Idx) :
    ∃ pc ∈ (kernelRun2_B c i arg2 harg2 arg3 harg3 arg4 harg4 arg5 harg5 arg6 harg6 hc0 hc1 x0 x1 x2 xs0).1, y ∈ pc.1.set :=
  View.cover_of_tiledL (kernelRun2_B c i arg2 harg2 arg3 harg3 arg4 harg4 arg5 harg5 arg6 harg6 hc0 hc1 x0 x1 x2 xs0).1 S2000x128.size (by sl_kernel_rfl) y
/-- The accumulator after a relation-1 point. -/
def sout2_B_0 (c : Dev nD) (i : grid2.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : ¬cond2_1 i) (x0 : Vec F S1x2000x128 .f32) (x1 : Vec F S1x128x128 .f32) (x2 : Vec F S1x1x128 .f32) (xs0 : Vec F S2000x128 .f32) : Vec F S2000x128 .f32 :=
  VS2_0.read (Elt F) (VS2_0.writes (Elt F) VS2_0.junk (kernelRun2_B c i arg2 harg2 arg3 harg3 arg4 harg4 arg5 harg5 arg6 harg6 hc0 hc1 x0 x1 x2 xs0).1)

theorem cover2_C_3 (c : Dev nD) (i : grid2.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : cond2_1 i) (x0 : Vec F S1x2000x128 .f32) (x1 : Vec F S1x128x128 .f32) (x2 : Vec F S1x1x128 .f32) (xs0 : Vec F S2000x128 .f32) (y : S2000x128.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S2000x128.size (by sl_kernel_rfl) y
/-- The output block after a relation-2 point. -/
def out2_C_3 (c : Dev nD) (i : grid2.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : cond2_1 i) (x0 : Vec F S1x2000x128 .f32) (x1 : Vec F S1x128x128 .f32) (x2 : Vec F S1x1x128 .f32) (xs0 : Vec F S2000x128 .f32) : Vec F S2000x128 .f32 :=
  VO2_3.read (Elt F) (VO2_3.writes (Elt F) VO2_3.junk (kernelRun2_C c i arg2 harg2 arg3 harg3 arg4 harg4 arg5 harg5 arg6 harg6 hc0 hc1 x0 x1 x2 xs0).1)
theorem scover2_C_0 (c : Dev nD) (i : grid2.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : cond2_1 i) (x0 : Vec F S1x2000x128 .f32) (x1 : Vec F S1x128x128 .f32) (x2 : Vec F S1x1x128 .f32) (xs0 : Vec F S2000x128 .f32) (y : S2000x128.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S2000x128.size (by sl_kernel_rfl) y
/-- The accumulator after a relation-2 point. -/
def sout2_C_0 (c : Dev nD) (i : grid2.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : cond2_1 i) (x0 : Vec F S1x2000x128 .f32) (x1 : Vec F S1x128x128 .f32) (x2 : Vec F S1x1x128 .f32) (xs0 : Vec F S2000x128 .f32) : Vec F S2000x128 .f32 :=
  VS2_0.read (Elt F) (VS2_0.writes (Elt F) VS2_0.junk (kernelRun2_C c i arg2 harg2 arg3 harg3 arg4 harg4 arg5 harg5 arg6 harg6 hc0 hc1 x0 x1 x2 xs0).2.1)

/-! ## Point by point -/

/-- What the output block's staging buffer and the accumulator hold after the body at position n (the output
    component is a placeholder at the points where the block is idle: nothing reads it there). -/
def outsAt2 (c : Dev nD) : (n : ℕ) → n < cfg2.N → Vec F S2000x128 .f32 × Vec F S2000x128 .f32
  | 0, hn => (VO2_3.junk, sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 3 = 0 then
      (VO2_3.junk, sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 3 = 2 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2,
         sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (VO2_3.junk, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

set_option maxHeartbeats 2000000 in
theorem outsAt2_A (c : Dev nD) (t : Fin cfg2.N) (h0 : t.val % 3 = 0) (hc1 : ¬cond2_1 (grid2.coords t)) :
    outsAt2 V c t.val t.isLt = (VO2_3.junk, sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) hc1 (iblk2 V c 0 t) (iblk2 V c 1 t) (iblk2 V c 2 t)) := by
  obtain ⟨n, hn⟩ := t
  cases n with
  | zero => exact rfl
  | succ n => exact (dif_pos h0).trans rfl

set_option maxHeartbeats 2000000 in
theorem outsAt2_B (c : Dev nD) (t : Fin cfg2.N) (h0 : ¬t.val % 3 = 0) (h1 : ¬t.val % 3 = 2) :
    outsAt2 V c t.val t.isLt = (VO2_3.junk, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact ((dif_neg h0).trans (dif_neg h1)).trans rfl

set_option maxHeartbeats 2000000 in
theorem outsAt2_C (c : Dev nD) (t : Fin cfg2.N) (h0 : ¬t.val % 3 = 0) (h1 : t.val % 3 = 2) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact ((dif_neg h0).trans (dif_pos h1)).trans rfl

/-- The region invariant before position n: at the first point the resting one; afterwards the accumulator at
    what the point before left, the rest of the scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

end Cert.Kernel.Hand

end
-- ==== Proof.BBody2.lean ====
/-
  Region 2: the body obligation at every grid point, and the invariant's two ends. The point's relation
  (t % 3) selects the case; the invariant hands the body the accumulator at what the point before left
  (at anything before the first point) and takes it back at this point's contents.
-/
import proofs.«165758_j22333829939343_1_alg».proof.Proof.BFrame2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]; try rfl
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]; try rfl
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]; try rfl

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2]
  have hN : t.val < 75 := lt_of_lt_of_eq t.isLt (show cfg2.N = 75 from N_2)
  by_cases h0 : t.val % 3 = 0
  · have hc1 : ¬cond2_1 (grid2.coords t) := fun h => by have := (hcond2_1 t).mp h; omega
    rw [Dat.leavesExact_idle (dat2 V c) 3 t (idleAt2_3_A t ((hcond2_0 t).mpr h0) hc1) (noFlush2_3_A t ((hcond2_0 t).mpr h0) hc1)]
    rw [outsAt2_A V c t h0 hc1]
    unfold sout2_A_0; (try dsimp only)
    by_cases hz : t.val = 0
    · rw [PhiS2_castSucc V c t, PhiS2_zero V c _ _ hz, PhiA2_eq]
      iintro ⟨⟨⟨HS0, Hrest⟩, Hg⟩, Ho, ⟨%d0, H0⟩, ⟨%d1, H1⟩, ⟨%d2, H2⟩, ⟨%d3, H3⟩⟩
      iapply ((kernelRun2_A c (grid2.coords t) (ms2_0 t) (hs2_0 t) (ms2_1 t) (hs2_1 t) (ms2_2 t) (hs2_2 t) (ms2_3 t) (hs2_3 t) scM2_0 (Memref.isWhole_whole _) ((hcond2_0 t).mpr h0) hc1 (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_A c (grid2.coords t) (ms2_0 t) (hs2_0 t) (ms2_1 t) (hs2_1 t) (ms2_2 t) (hs2_2 t) (ms2_3 t) (hs2_3 t) scM2_0 (Memref.isWhole_whole _) ((hcond2_0 t).mpr h0) hc1 (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 3 = 2
    · rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_C c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_B c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the resting one back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

theorem hout2 (c : Dev nD) : (dat2 V c).Φ (Fin.last cfg2.N) ⊢ Pipeline.ΦA spec2 c :=
  Phi_out2 V c _ (by rw [Fin.val_last]; have : cfg2.N = 75 := N_2; omega)

end Cert.Kernel.Hand

end
-- ==== Proof.BBase3.lean ====
/-
  Region 3 (graph-convolution layer 3's fused kernel): the schedule facts its body's runs are stated
  over. The grid is 25 row tiles by 3 relations, walked row tile by row tile; a point t is (t / 3, t % 3).
  The body zeroes its accumulator at relation 0, adds one relation's tile product at every point, and
  stores the activated mean into the output block at relation 2 only.
-/
import proofs.«165758_j22333829939343_1_alg».proof.Proof.Gen.Kernel.Launch
import proofs.«165758_j22333829939343_1_alg».proof.Proof.Gen.Kernel.Skeleton
import proofs.«165758_j22333829939343_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions over the grid -/

/-- "This is relation 0": the accumulator is reset. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 3 = 0 :=
  (by decide +kernel : ∀ t : Fin grid3.N, cond3_0 (grid3.coords t) ↔ t.val % 3 = 0)

/-- "This is relation 2": the output block is stored. -/
abbrev cond3_1 (i : grid3.Coords) : Prop := k3_cond2 i = 1#1
theorem hcond3_1 : ∀ t : Fin cfg3.N, cond3_1 (grid3.coords t) ↔ t.val % 3 = 2 :=
  (by decide +kernel : ∀ t : Fin grid3.N, cond3_1 (grid3.coords t) ↔ t.val % 3 = 2)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel
theorem liveAt3_3_C : ∀ t : Fin cfg3.N, ¬cond3_0 (grid3.coords t) → cond3_1 (grid3.coords t) → cfg3.idle 3 (grid3.coords t) = false := by decide +kernel

/-! ## The memrefs the body is called with -/

abbrev VO3_3 : View sig .tc .vmem S2000x128 .f32 := (Memref.whole cc3_stg3_0 : Memref sig .tc .vmem S2000x128 .f32).view
abbrev ms3_0 (t : Fin cfg3.N) : Memref sig .tc .vmem S1x2000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x128x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2000x128 .f32 := win3_3.stage (cfg3.slots t 3)
abbrev hs3_3 (t : Fin cfg3.N) : (ms3_3 t).IsWhole := hstage3_3 ((cfg3.slots t 3).cast nbuf3_3)
/-- The accumulator: a whole scoped buffer of the kernel's own. -/
abbrev scM3_0 : Memref sig .tc .vmem S2000x128 .f32 := Memref.whole cc3_scratch0
abbrev VS3_0 : View sig .tc .vmem S2000x128 .f32 := scM3_0.view

/-- The region's resting invariant with the accumulator split out as a memref owned at some contents. -/
theorem PhiA3_eq (c : Dev nD) :
    (Pipeline.ΦA spec3 c : sProp 𝕄)
      = iprop(iprop((∃ d, owns (c : Thread nD τ) scM3_0 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

end Cert.Kernel.Hand

end
-- ==== Proof.BRun3A.lean ====
/-
  Region 3: the kernel body run once in case A of its two conditions.
-/
import proofs.«165758_j22333829939343_1_alg».proof.Proof.BBase3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case A on whole memrefs: the three input blocks at their contents, the output block at any
    contents (this case leaves it as it is), the accumulator at anything (it is overwritten with zeros first); it ends
    with the inputs and the output block as they were and the accumulator with the listed pieces written (last first). -/
noncomputable def kernelRun3_A (c : Dev nD) (i : grid3.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond3_0 i) (hc1 : ¬cond3_1 i)
    (x0 : Vec F S1x2000x128 .f32) (x1 : Vec F S1x128x128 .f32) (x2 : Vec F S1x1x128 .f32) :
    { LS0 : List (View.Piece (Elt F) S2000x128 .f32) //
      ∀ (e3 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare e3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare e3 ∗ (∃ f, arg6.view.loc (c : Thread nD τ) ↦[arg6.view.set]{fullShare} arg6.view.writes (Elt F) f LS0)) -∗ K ⟨⟩))
          ⊢ wp frame (wpE (defs₀ (F := F)) Variants.none c none) E (cc3__gconv_kernel i arg2 harg2 arg3 harg3 arg4 harg4 arg5 harg5 arg6 harg6) K } := by
  refine ⟨?_, fun e3 E K => ?run⟩
  case run =>
    simp only [cc3__gconv_kernel_eq_skeleton]; unfold cc3__gconv_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists f3; isplitr; · ipureintro; exact hf3
      iexact H3
    iexists _; iexact HS0

end Cert.Kernel.Hand

end
-- ==== Proof.BRun3B.lean ====
/-
  Region 3: the kernel body run once in case B of its two conditions.
-/
import proofs.«165758_j22333829939343_1_alg».proof.Proof.BBase3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case B on whole memrefs: the three input blocks at their contents, the output block at any
    contents (this case leaves it as it is), the accumulator at what the point before left; it ends
    with the inputs and the output block as they were and the accumulator with the listed pieces written (last first). -/
noncomputable def kernelRun3_B (c : Dev nD) (i : grid3.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond3_0 i) (hc1 : ¬cond3_1 i)
    (x0 : Vec F S1x2000x128 .f32) (x1 : Vec F S1x128x128 .f32) (x2 : Vec F S1x1x128 .f32) (xs0 : Vec F S2000x128 .f32) :
    { LS0 : List (View.Piece (Elt F) S2000x128 .f32) //
      ∀ (e3 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare e3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare e3 ∗ (∃ f, arg6.view.loc (c : Thread nD τ) ↦[arg6.view.set]{fullShare} arg6.view.writes (Elt F) f LS0)) -∗ K ⟨⟩))
          ⊢ wp frame (wpE (defs₀ (F := F)) Variants.none c none) E (cc3__gconv_kernel i arg2 harg2 arg3 harg3 arg4 harg4 arg5 harg5 arg6 harg6) K } := by
  refine ⟨?_, fun e3 E K => ?run⟩
  case run =>
    simp only [cc3__gconv_kernel_eq_skeleton]; unfold cc3__gconv_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists f3; isplitr; · ipureintro; exact hf3
      iexact H3
    iexists _; iexact HS0

end Cert.Kernel.Hand

end
-- ==== Proof.BRun3C.lean ====
/-
  Region 3: the kernel body run once in case C of its two conditions.
-/
import proofs.«165758_j22333829939343_1_alg».proof.Proof.BBase3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case C on whole memrefs: the three input blocks at their contents, the output block at anything,
    the accumulator at what the point before left; it ends with the inputs as they were and the
    output block and the accumulator with the listed pieces written (last first). -/
noncomputable def kernelRun3_C (c : Dev nD) (i : grid3.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond3_0 i) (hc1 : cond3_1 i)
    (x0 : Vec F S1x2000x128 .f32) (x1 : Vec F S1x128x128 .f32) (x2 : Vec F S1x1x128 .f32) (xs0 : Vec F S2000x128 .f32) :
    Σ' (L3 : List (View.Piece (Elt F) S2000x128 .f32)), { LS0 : List (View.Piece (Elt F) S2000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__gconv_kernel i arg2 harg2 arg3 harg3 arg4 harg4 arg5 harg5 arg6 harg6) K } := by
  refine ⟨?_, ?_, fun E K => ?run⟩
  case run =>
    simp only [cc3__gconv_kernel_eq_skeleton]; unfold cc3__gconv_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.BFrame3.lean ====
/-
  Region 3: what the accumulator and the output block hold after each grid point, the region's proof data, and
  the body obligation. The accumulator after point t holds the sum of the relations' tile products up to
  relation t % 3 of row tile t / 3; the output block is stored at relation 2 and is idle elsewhere.
-/
import proofs.«165758_j22333829939343_1_alg».proof.Proof.BRun3A
import proofs.«165758_j22333829939343_1_alg».proof.Proof.BRun3B
import proofs.«165758_j22333829939343_1_alg».proof.Proof.BRun3C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What each case leaves -/

theorem scover3_A_0 (c : Dev nD) (i : grid3.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond3_0 i) (hc1 : ¬cond3_1 i) (x0 : Vec F S1x2000x128 .f32) (x1 : Vec F S1x128x128 .f32) (x2 : Vec F S1x1x128 .f32) (y : S2000x128.Idx) :
    ∃ pc ∈ (kernelRun3_A c i arg2 harg2 arg3 harg3 arg4 harg4 arg5 harg5 arg6 harg6 hc0 hc1 x0 x1 x2).1, y ∈ pc.1.set :=
  View.cover_of_tiledL (kernelRun3_A c i arg2 harg2 arg3 harg3 arg4 harg4 arg5 harg5 arg6 harg6 hc0 hc1 x0 x1 x2).1 S2000x128.size (by sl_kernel_rfl) y
/-- The accumulator after a relation-0 point. -/
def sout3_A_0 (c : Dev nD) (i : grid3.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond3_0 i) (hc1 : ¬cond3_1 i) (x0 : Vec F S1x2000x128 .f32) (x1 : Vec F S1x128x128 .f32) (x2 : Vec F S1x1x128 .f32) : Vec F S2000x128 .f32 :=
  VS3_0.read (Elt F) (VS3_0.writes (Elt F) VS3_0.junk (kernelRun3_A c i arg2 harg2 arg3 harg3 arg4 harg4 arg5 harg5 arg6 harg6 hc0 hc1 x0 x1 x2).1)

theorem scover3_B_0 (c : Dev nD) (i : grid3.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond3_0 i) (hc1 : ¬cond3_1 i) (x0 : Vec F S1x2000x128 .f32) (x1 : Vec F S1x128x128 .f32) (x2 : Vec F S1x1x128 .f32) (xs0 : Vec F S2000x128 .f32) (y : S2000x128.Idx) :
    ∃ pc ∈ (kernelRun3_B c i arg2 harg2 arg3 harg3 arg4 harg4 arg5 harg5 arg6 harg6 hc0 hc1 x0 x1 x2 xs0).1, y ∈ pc.1.set :=
  View.cover_of_tiledL (kernelRun3_B c i arg2 harg2 arg3 harg3 arg4 harg4 arg5 harg5 arg6 harg6 hc0 hc1 x0 x1 x2 xs0).1 S2000x128.size (by sl_kernel_rfl) y
/-- The accumulator after a relation-1 point. -/
def sout3_B_0 (c : Dev nD) (i : grid3.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond3_0 i) (hc1 : ¬cond3_1 i) (x0 : Vec F S1x2000x128 .f32) (x1 : Vec F S1x128x128 .f32) (x2 : Vec F S1x1x128 .f32) (xs0 : Vec F S2000x128 .f32) : Vec F S2000x128 .f32 :=
  VS3_0.read (Elt F) (VS3_0.writes (Elt F) VS3_0.junk (kernelRun3_B c i arg2 harg2 arg3 harg3 arg4 harg4 arg5 harg5 arg6 harg6 hc0 hc1 x0 x1 x2 xs0).1)

theorem cover3_C_3 (c : Dev nD) (i : grid3.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond3_0 i) (hc1 : cond3_1 i) (x0 : Vec F S1x2000x128 .f32) (x1 : Vec F S1x128x128 .f32) (x2 : Vec F S1x1x128 .f32) (xs0 : Vec F S2000x128 .f32) (y : S2000x128.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S2000x128.size (by sl_kernel_rfl) y
/-- The output block after a relation-2 point. -/
def out3_C_3 (c : Dev nD) (i : grid3.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond3_0 i) (hc1 : cond3_1 i) (x0 : Vec F S1x2000x128 .f32) (x1 : Vec F S1x128x128 .f32) (x2 : Vec F S1x1x128 .f32) (xs0 : Vec F S2000x128 .f32) : Vec F S2000x128 .f32 :=
  VO3_3.read (Elt F) (VO3_3.writes (Elt F) VO3_3.junk (kernelRun3_C c i arg2 harg2 arg3 harg3 arg4 harg4 arg5 harg5 arg6 harg6 hc0 hc1 x0 x1 x2 xs0).1)
theorem scover3_C_0 (c : Dev nD) (i : grid3.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond3_0 i) (hc1 : cond3_1 i) (x0 : Vec F S1x2000x128 .f32) (x1 : Vec F S1x128x128 .f32) (x2 : Vec F S1x1x128 .f32) (xs0 : Vec F S2000x128 .f32) (y : S2000x128.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S2000x128.size (by sl_kernel_rfl) y
/-- The accumulator after a relation-2 point. -/
def sout3_C_0 (c : Dev nD) (i : grid3.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond3_0 i) (hc1 : cond3_1 i) (x0 : Vec F S1x2000x128 .f32) (x1 : Vec F S1x128x128 .f32) (x2 : Vec F S1x1x128 .f32) (xs0 : Vec F S2000x128 .f32) : Vec F S2000x128 .f32 :=
  VS3_0.read (Elt F) (VS3_0.writes (Elt F) VS3_0.junk (kernelRun3_C c i arg2 harg2 arg3 harg3 arg4 harg4 arg5 harg5 arg6 harg6 hc0 hc1 x0 x1 x2 xs0).2.1)

/-! ## Point by point -/

/-- What the output block's staging buffer and the accumulator hold after the body at position n (the output
    component is a placeholder at the points where the block is idle: nothing reads it there). -/
def outsAt3 (c : Dev nD) : (n : ℕ) → n < cfg3.N → Vec F S2000x128 .f32 × Vec F S2000x128 .f32
  | 0, hn => (VO3_3.junk, sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 3 = 0 then
      (VO3_3.junk, sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => (fun h => by (try dsimp only at h); omega) ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 3 = 2 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2,
         sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (VO3_3.junk, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

set_option maxHeartbeats 2000000 in
theorem outsAt3_A (c : Dev nD) (t : Fin cfg3.N) (h0 : t.val % 3 = 0) (hc1 : ¬cond3_1 (grid3.coords t)) :
    outsAt3 V c t.val t.isLt = (VO3_3.junk, sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) hc1 (iblk3 V c 0 t) (iblk3 V c 1 t) (iblk3 V c 2 t)) := by
  obtain ⟨n, hn⟩ := t
  cases n with
  | zero => exact rfl
  | succ n => exact (dif_pos h0).trans rfl

set_option maxHeartbeats 2000000 in
theorem outsAt3_B (c : Dev nD) (t : Fin cfg3.N) (h0 : ¬t.val % 3 = 0) (h1 : ¬t.val % 3 = 2) :
    outsAt3 V c t.val t.isLt = (VO3_3.junk, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact ((dif_neg h0).trans (dif_neg h1)).trans rfl

set_option maxHeartbeats 2000000 in
theorem outsAt3_C (c : Dev nD) (t : Fin cfg3.N) (h0 : ¬t.val % 3 = 0) (h1 : t.val % 3 = 2) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2,
      sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact ((dif_neg h0).trans (dif_pos h1)).trans rfl

/-- The region invariant before position n: at the first point the resting one; afterwards the accumulator at
    what the point before left, the rest of the scoped buffers unopened, the generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

end Cert.Kernel.Hand

end
-- ==== Proof.BBody3.lean ====
/-
  Region 3: the body obligation at every grid point, and the invariant's two ends. The point's relation
  (t % 3) selects the case; the invariant hands the body the accumulator at what the point before left
  (at anything before the first point) and takes it back at this point's contents.
-/
import proofs.«165758_j22333829939343_1_alg».proof.Proof.BFrame3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

theorem leaves3_0 (c : Dev nD) (t : Fin cfg3.N) : (dat3 V c).leavesExact 0 t = owns (c : Thread nD τ) (ms3_0 t) fullShare (iblk3 V c 0 t) := by
  unfold Dat.leavesExact; rw [liveAt3_0 t, after3_0]; try rfl
theorem leaves3_1 (c : Dev nD) (t : Fin cfg3.N) : (dat3 V c).leavesExact 1 t = owns (c : Thread nD τ) (ms3_1 t) fullShare (iblk3 V c 1 t) := by
  unfold Dat.leavesExact; rw [liveAt3_1 t, after3_1]; try rfl
theorem leaves3_2 (c : Dev nD) (t : Fin cfg3.N) : (dat3 V c).leavesExact 2 t = owns (c : Thread nD τ) (ms3_2 t) fullShare (iblk3 V c 2 t) := by
  unfold Dat.leavesExact; rw [liveAt3_2 t, after3_2]; try rfl

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2]
  have hN : t.val < 75 := lt_of_lt_of_eq t.isLt (show cfg3.N = 75 from N_3)
  by_cases h0 : t.val % 3 = 0
  · have hc1 : ¬cond3_1 (grid3.coords t) := fun h => by have := (hcond3_1 t).mp h; omega
    rw [Dat.leavesExact_idle (dat3 V c) 3 t (idleAt3_3_A t ((hcond3_0 t).mpr h0) hc1) (noFlush3_3_A t ((hcond3_0 t).mpr h0) hc1)]
    rw [outsAt3_A V c t h0 hc1]
    unfold sout3_A_0; (try dsimp only)
    by_cases hz : t.val = 0
    · rw [PhiS3_castSucc V c t, PhiS3_zero V c _ _ hz, PhiA3_eq]
      iintro ⟨⟨⟨HS0, Hrest⟩, Hg⟩, Ho, ⟨%d0, H0⟩, ⟨%d1, H1⟩, ⟨%d2, H2⟩, ⟨%d3, H3⟩⟩
      iapply ((kernelRun3_A c (grid3.coords t) (ms3_0 t) (hs3_0 t) (ms3_1 t) (hs3_1 t) (ms3_2 t) (hs3_2 t) (ms3_3 t) (hs3_3 t) scM3_0 (Memref.isWhole_whole _) ((hcond3_0 t).mpr h0) hc1 (iblk3 V c 0 t) (iblk3 V c 1 t) (iblk3 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩⟩
      iapply ((kernelRun3_A c (grid3.coords t) (ms3_0 t) (hs3_0 t) (ms3_1 t) (hs3_1 t) (ms3_2 t) (hs3_2 t) (ms3_3 t) (hs3_3 t) scM3_0 (Memref.isWhole_whole _) ((hcond3_0 t).mpr h0) hc1 (iblk3 V c 0 t) (iblk3 V c 1 t) (iblk3 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 3 = 2
    · rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C_0; (try dsimp only)
      rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩⟩
      iapply ((kernelRun3_C c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _)
    · rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B_0; (try dsimp only)
      rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩⟩
      iapply ((kernelRun3_B c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the resting one back: the accumulator's contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hrest⟩, Hg⟩
  isplitl [HS0 Hrest]
  · isplitl [HS0]
    · iexists _; iexact HS0
    iexact Hrest
  iexact Hg

theorem hout3 (c : Dev nD) : (dat3 V c).Φ (Fin.last cfg3.N) ⊢ Pipeline.ΦA spec3 c :=
  Phi_out3 V c _ (by rw [Fin.val_last]; have : cfg3.N = 75 := N_3; omega)

end Cert.Kernel.Hand

end
-- ==== Proof.BBase4.lean ====
/-
  Region 4 (graph-convolution layer 4's fused kernel): the schedule facts its body's runs are stated
  over. The grid is 25 row tiles by 3 relations, walked row tile by row tile; a point t is (t / 3, t % 3).
  The body zeroes its accumulator at relation 0, adds one relation's tile product at every point, and
  stores the activated mean into the output block at relation 2 only.
-/
import proofs.«165758_j22333829939343_1_alg».proof.Proof.Gen.Kernel.Launch
import proofs.«165758_j22333829939343_1_alg».proof.Proof.Gen.Kernel.Skeleton
import proofs.«165758_j22333829939343_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions over the grid -/

/-- "This is relation 0": the accumulator is reset. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 3 = 0 :=
  (by decide +kernel : ∀ t : Fin grid4.N, cond4_0 (grid4.coords t) ↔ t.val % 3 = 0)

/-- "This is relation 2": the output block is stored. -/
abbrev cond4_1 (i : grid4.Coords) : Prop := k4_cond2 i = 1#1
theorem hcond4_1 : ∀ t : Fin cfg4.N, cond4_1 (grid4.coords t) ↔ t.val % 3 = 2 :=
  (by decide +kernel : ∀ t : Fin grid4.N, cond4_1 (grid4.coords t) ↔ t.val % 3 = 2)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3_A : ∀ t : Fin cfg4.N, cond4_0 (grid4.coords t) → ¬cond4_1 (grid4.coords t) → cfg4.idle 3 (grid4.coords t) = true := by decide +kernel
theorem noFlush4_3_A : ∀ t : Fin cfg4.N, cond4_0 (grid4.coords t) → ¬cond4_1 (grid4.coords t) → (cfg4.win 3).flush t = false := by decide +kernel
theorem idleAt4_3_B : ∀ t : Fin cfg4.N, ¬cond4_0 (grid4.coords t) → ¬cond4_1 (grid4.coords t) → cfg4.idle 3 (grid4.coords t) = true := by decide +kernel
theorem noFlush4_3_B : ∀ t : Fin cfg4.N, ¬cond4_0 (grid4.coords t) → ¬cond4_1 (grid4.coords t) → (cfg4.win 3).flush t = false := by decide +kernel
theorem liveAt4_3_C : ∀ t : Fin cfg4.N, ¬cond4_0 (grid4.coords t) → cond4_1 (grid4.coords t) → cfg4.idle 3 (grid4.coords t) = false := by decide +kernel

/-! ## The memrefs the body is called with -/

abbrev VO4_3 : View sig .tc .vmem S2000x128 .f32 := (Memref.whole cc4_stg3_0 : Memref sig .tc .vmem S2000x128 .f32).view
abbrev ms4_0 (t : Fin cfg4.N) : Memref sig .tc .vmem S1x2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x128x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2000x128 .f32 := win4_3.stage (cfg4.slots t 3)
abbrev hs4_3 (t : Fin cfg4.N) : (ms4_3 t).IsWhole := hstage4_3 ((cfg4.slots t 3).cast nbuf4_3)
/-- The accumulator: a whole scoped buffer of the kernel's own. -/
abbrev scM4_0 : Memref sig .tc .vmem S2000x128 .f32 := Memref.whole cc4_scratch0
abbrev VS4_0 : View sig .tc .vmem S2000x128 .f32 := scM4_0.view

/-- The region's resting invariant with the accumulator split out as a memref owned at some contents. -/
theorem PhiA4_eq (c : Dev nD) :
    (Pipeline.ΦA spec4 c : sProp 𝕄)
      = iprop(iprop((∃ d, owns (c : Thread nD τ) scM4_0 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.Kernel.Hand

end
-- ==== Proof.BRun4A.lean ====
/-
  Region 4: the kernel body run once in case A of its two conditions.
-/
import proofs.«165758_j22333829939343_1_alg».proof.Proof.BBase4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case A on whole memrefs: the three input blocks at their contents, the output block at any
    contents (this case leaves it as it is), the accumulator at anything (it is overwritten with zeros first); it ends
    with the inputs and the output block as they were and the accumulator with the listed pieces written (last first). -/
noncomputable def kernelRun4_A (c : Dev nD) (i : grid4.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond4_0 i) (hc1 : ¬cond4_1 i)
    (x0 : Vec F S1x2000x128 .f32) (x1 : Vec F S1x128x128 .f32) (x2 : Vec F S1x1x128 .f32) :
    { LS0 : List (View.Piece (Elt F) S2000x128 .f32) //
      ∀ (e3 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare e3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare e3 ∗ (∃ f, arg6.view.loc (c : Thread nD τ) ↦[arg6.view.set]{fullShare} arg6.view.writes (Elt F) f LS0)) -∗ K ⟨⟩))
          ⊢ wp frame (wpE (defs₀ (F := F)) Variants.none c none) E (cc4__gconv_kernel i arg2 harg2 arg3 harg3 arg4 harg4 arg5 harg5 arg6 harg6) K } := by
  refine ⟨?_, fun e3 E K => ?run⟩
  case run =>
    simp only [cc4__gconv_kernel_eq_skeleton]; unfold cc4__gconv_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists f3; isplitr; · ipureintro; exact hf3
      iexact H3
    iexists _; iexact HS0

end Cert.Kernel.Hand

end
-- ==== Proof.BRun4B.lean ====
/-
  Region 4: the kernel body run once in case B of its two conditions.
-/
import proofs.«165758_j22333829939343_1_alg».proof.Proof.BBase4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case B on whole memrefs: the three input blocks at their contents, the output block at any
    contents (this case leaves it as it is), the accumulator at what the point before left; it ends
    with the inputs and the output block as they were and the accumulator with the listed pieces written (last first). -/
noncomputable def kernelRun4_B (c : Dev nD) (i : grid4.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond4_0 i) (hc1 : ¬cond4_1 i)
    (x0 : Vec F S1x2000x128 .f32) (x1 : Vec F S1x128x128 .f32) (x2 : Vec F S1x1x128 .f32) (xs0 : Vec F S2000x128 .f32) :
    { LS0 : List (View.Piece (Elt F) S2000x128 .f32) //
      ∀ (e3 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare e3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare e3 ∗ (∃ f, arg6.view.loc (c : Thread nD τ) ↦[arg6.view.set]{fullShare} arg6.view.writes (Elt F) f LS0)) -∗ K ⟨⟩))
          ⊢ wp frame (wpE (defs₀ (F := F)) Variants.none c none) E (cc4__gconv_kernel i arg2 harg2 arg3 harg3 arg4 harg4 arg5 harg5 arg6 harg6) K } := by
  refine ⟨?_, fun e3 E K => ?run⟩
  case run =>
    simp only [cc4__gconv_kernel_eq_skeleton]; unfold cc4__gconv_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists f3; isplitr; · ipureintro; exact hf3
      iexact H3
    iexists _; iexact HS0

end Cert.Kernel.Hand

end
-- ==== Proof.BRun4C.lean ====
/-
  Region 4: the kernel body run once in case C of its two conditions.
-/
import proofs.«165758_j22333829939343_1_alg».proof.Proof.BBase4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case C on whole memrefs: the three input blocks at their contents, the output block at anything,
    the accumulator at what the point before left; it ends with the inputs as they were and the
    output block and the accumulator with the listed pieces written (last first). -/
noncomputable def kernelRun4_C (c : Dev nD) (i : grid4.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond4_0 i) (hc1 : cond4_1 i)
    (x0 : Vec F S1x2000x128 .f32) (x1 : Vec F S1x128x128 .f32) (x2 : Vec F S1x1x128 .f32) (xs0 : Vec F S2000x128 .f32) :
    Σ' (L3 : List (View.Piece (Elt F) S2000x128 .f32)), { LS0 : List (View.Piece (Elt F) S2000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc4__gconv_kernel i arg2 harg2 arg3 harg3 arg4 harg4 arg5 harg5 arg6 harg6) K } := by
  refine ⟨?_, ?_, fun E K => ?run⟩
  case run =>
    simp only [cc4__gconv_kernel_eq_skeleton]; unfold cc4__gconv_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.BFrame4.lean ====
/-
  Region 4: what the accumulator and the output block hold after each grid point, the region's proof data, and
  the body obligation. The accumulator after point t holds the sum of the relations' tile products up to
  relation t % 3 of row tile t / 3; the output block is stored at relation 2 and is idle elsewhere.
-/
import proofs.«165758_j22333829939343_1_alg».proof.Proof.BRun4A
import proofs.«165758_j22333829939343_1_alg».proof.Proof.BRun4B
import proofs.«165758_j22333829939343_1_alg».proof.Proof.BRun4C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## What each case leaves -/

theorem scover4_A_0 (c : Dev nD) (i : grid4.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond4_0 i) (hc1 : ¬cond4_1 i) (x0 : Vec F S1x2000x128 .f32) (x1 : Vec F S1x128x128 .f32) (x2 : Vec F S1x1x128 .f32) (y : S2000x128.Idx) :
    ∃ pc ∈ (kernelRun4_A c i arg2 harg2 arg3 harg3 arg4 harg4 arg5 harg5 arg6 harg6 hc0 hc1 x0 x1 x2).1, y ∈ pc.1.set :=
  View.cover_of_tiledL (kernelRun4_A c i arg2 harg2 arg3 harg3 arg4 harg4 arg5 harg5 arg6 harg6 hc0 hc1 x0 x1 x2).1 S2000x128.size (by sl_kernel_rfl) y
/-- The accumulator after a relation-0 point. -/
def sout4_A_0 (c : Dev nD) (i : grid4.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond4_0 i) (hc1 : ¬cond4_1 i) (x0 : Vec F S1x2000x128 .f32) (x1 : Vec F S1x128x128 .f32) (x2 : Vec F S1x1x128 .f32) : Vec F S2000x128 .f32 :=
  VS4_0.read (Elt F) (VS4_0.writes (Elt F) VS4_0.junk (kernelRun4_A c i arg2 harg2 arg3 harg3 arg4 harg4 arg5 harg5 arg6 harg6 hc0 hc1 x0 x1 x2).1)

theorem scover4_B_0 (c : Dev nD) (i : grid4.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond4_0 i) (hc1 : ¬cond4_1 i) (x0 : Vec F S1x2000x128 .f32) (x1 : Vec F S1x128x128 .f32) (x2 : Vec F S1x1x128 .f32) (xs0 : Vec F S2000x128 .f32) (y : S2000x128.Idx) :
    ∃ pc ∈ (kernelRun4_B c i arg2 harg2 arg3 harg3 arg4 harg4 arg5 harg5 arg6 harg6 hc0 hc1 x0 x1 x2 xs0).1, y ∈ pc.1.set :=
  View.cover_of_tiledL (kernelRun4_B c i arg2 harg2 arg3 harg3 arg4 harg4 arg5 harg5 arg6 harg6 hc0 hc1 x0 x1 x2 xs0).1 S2000x128.size (by sl_kernel_rfl) y
/-- The accumulator after a relation-1 point. -/
def sout4_B_0 (c : Dev nD) (i : grid4.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond4_0 i) (hc1 : ¬cond4_1 i) (x0 : Vec F S1x2000x128 .f32) (x1 : Vec F S1x128x128 .f32) (x2 : Vec F S1x1x128 .f32) (xs0 : Vec F S2000x128 .f32) : Vec F S2000x128 .f32 :=
  VS4_0.read (Elt F) (VS4_0.writes (Elt F) VS4_0.junk (kernelRun4_B c i arg2 harg2 arg3 harg3 arg4 harg4 arg5 harg5 arg6 harg6 hc0 hc1 x0 x1 x2 xs0).1)

theorem cover4_C_3 (c : Dev nD) (i : grid4.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond4_0 i) (hc1 : cond4_1 i) (x0 : Vec F S1x2000x128 .f32) (x1 : Vec F S1x128x128 .f32) (x2 : Vec F S1x1x128 .f32) (xs0 : Vec F S2000x128 .f32) (y : S2000x128.Idx) :
    ∃ pc ∈ (kernelRun4_C c i arg2 harg2 arg3 harg3 arg4 harg4 arg5 harg5 arg6 harg6 hc0 hc1 x0 x1 x2 xs0).1, y ∈ pc.1.set :=
  View.cover_of_tiledL (kernelRun4_C c i arg2 harg2 arg3 harg3 arg4 harg4 arg5 harg5 arg6 harg6 hc0 hc1 x0 x1 x2 xs0).1 S2000x128.size (by sl_kernel_rfl) y
/-- The output block after a relation-2 point. -/
def out4_C_3 (c : Dev nD) (i : grid4.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond4_0 i) (hc1 : cond4_1 i) (x0 : Vec F S1x2000x128 .f32) (x1 : Vec F S1x128x128 .f32) (x2 : Vec F S1x1x128 .f32) (xs0 : Vec F S2000x128 .f32) : Vec F S2000x128 .f32 :=
  VO4_3.read (Elt F) (VO4_3.writes (Elt F) VO4_3.junk (kernelRun4_C c i arg2 harg2 arg3 harg3 arg4 harg4 arg5 harg5 arg6 harg6 hc0 hc1 x0 x1 x2 xs0).1)
theorem scover4_C_0 (c : Dev nD) (i : grid4.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond4_0 i) (hc1 : cond4_1 i) (x0 : Vec F S1x2000x128 .f32) (x1 : Vec F S1x128x128 .f32) (x2 : Vec F S1x1x128 .f32) (xs0 : Vec F S2000x128 .f32) (y : S2000x128.Idx) :
    ∃ pc ∈ (kernelRun4_C c i arg2 harg2 arg3 harg3 arg4 harg4 arg5 harg5 arg6 harg6 hc0 hc1 x0 x1 x2 xs0).2.1, y ∈ pc.1.set :=
  View.cover_of_tiledL (kernelRun4_C c i arg2 harg2 arg3 harg3 arg4 harg4 arg5 harg5 arg6 harg6 hc0 hc1 x0 x1 x2 xs0).2.1 S2000x128.size (by sl_kernel_rfl) y
/-- The accumulator after a relation-2 point. -/
def sout4_C_0 (c : Dev nD) (i : grid4.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond4_0 i) (hc1 : cond4_1 i) (x0 : Vec F S1x2000x128 .f32) (x1 : Vec F S1x128x128 .f32) (x2 : Vec F S1x1x128 .f32) (xs0 : Vec F S2000x128 .f32) : Vec F S2000x128 .f32 :=
  VS4_0.read (Elt F) (VS4_0.writes (Elt F) VS4_0.junk (kernelRun4_C c i arg2 harg2 arg3 harg3 arg4 harg4 arg5 harg5 arg6 harg6 hc0 hc1 x0 x1 x2 xs0).2.1)

/-! ## Point by point -/

/-- What the output block's staging buffer and the accumulator hold after the body at position n (the output
    component is a placeholder at the points where the block is idle: nothing reads it there). -/
def outsAt4 (c : Dev nD) : (n : ℕ) → n < cfg4.N → Vec F S2000x128 .f32 × Vec F S2000x128 .f32
  | 0, hn => (VO4_3.junk, sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 3 = 0 then
      (VO4_3.junk, sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => (fun h => by (try dsimp only at h); omega) ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 3 = 2 then
        (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2,
         sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2)
      else
        (VO4_3.junk, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2)

set_option maxHeartbeats 2000000 in
theorem outsAt4_A (c : Dev nD) (t : Fin cfg4.N) (h0 : t.val % 3 = 0) (hc1 : ¬cond4_1 (grid4.coords t)) :
    outsAt4 V c t.val t.isLt = (VO4_3.junk, sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) hc1 (iblk4 V c 0 t) (iblk4 V c 1 t) (iblk4 V c 2 t)) := by
  obtain ⟨n, hn⟩ := t
  cases n with
  | zero => exact rfl
  | succ n => exact (dif_pos h0).trans rfl

set_option maxHeartbeats 2000000 in
theorem outsAt4_B (c : Dev nD) (t : Fin cfg4.N) (h0 : ¬t.val % 3 = 0) (h1 : ¬t.val % 3 = 2) :
    outsAt4 V c t.val t.isLt = (VO4_3.junk, sout4_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact ((dif_neg h0).trans (dif_neg h1)).trans rfl

set_option maxHeartbeats 2000000 in
theorem outsAt4_C (c : Dev nD) (t : Fin cfg4.N) (h0 : ¬t.val % 3 = 0) (h1 : t.val % 3 = 2) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2,
      sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact ((dif_neg h0).trans (dif_pos h1)).trans rfl

/-- The region invariant before position n: at the first point the resting one; afterwards the accumulator at
    what the point before left, the rest of the scoped buffers unopened, the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r)) := rfl
theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

end Cert.Kernel.Hand

end
-- ==== Proof.BBody4.lean ====
/-
  Region 4: the body obligation at every grid point, and the invariant's two ends. The point's relation
  (t % 3) selects the case; the invariant hands the body the accumulator at what the point before left
  (at anything before the first point) and takes it back at this point's contents.
-/
import proofs.«165758_j22333829939343_1_alg».proof.Proof.BFrame4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

theorem leaves4_0 (c : Dev nD) (t : Fin cfg4.N) : (dat4 V c).leavesExact 0 t = owns (c : Thread nD τ) (ms4_0 t) fullShare (iblk4 V c 0 t) := by
  unfold Dat.leavesExact; rw [liveAt4_0 t, after4_0]; try rfl
theorem leaves4_1 (c : Dev nD) (t : Fin cfg4.N) : (dat4 V c).leavesExact 1 t = owns (c : Thread nD τ) (ms4_1 t) fullShare (iblk4 V c 1 t) := by
  unfold Dat.leavesExact; rw [liveAt4_1 t, after4_1]; try rfl
theorem leaves4_2 (c : Dev nD) (t : Fin cfg4.N) : (dat4 V c).leavesExact 2 t = owns (c : Thread nD τ) (ms4_2 t) fullShare (iblk4 V c 2 t) := by
  unfold Dat.leavesExact; rw [liveAt4_2 t, after4_2]; try rfl

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [leaves4_0, leaves4_1, leaves4_2]
  have hN : t.val < 75 := lt_of_lt_of_eq t.isLt (show cfg4.N = 75 from N_4)
  by_cases h0 : t.val % 3 = 0
  · have hc1 : ¬cond4_1 (grid4.coords t) := fun h => by have := (hcond4_1 t).mp h; omega
    rw [Dat.leavesExact_idle (dat4 V c) 3 t (idleAt4_3_A t ((hcond4_0 t).mpr h0) hc1) (noFlush4_3_A t ((hcond4_0 t).mpr h0) hc1)]
    rw [outsAt4_A V c t h0 hc1]
    unfold sout4_A_0; (try dsimp only)
    by_cases hz : t.val = 0
    · rw [PhiS4_castSucc V c t, PhiS4_zero V c _ _ hz, PhiA4_eq]
      iintro ⟨⟨⟨HS0, Hrest⟩, Hg⟩, Ho, ⟨%d0, H0⟩, ⟨%d1, H1⟩, ⟨%d2, H2⟩, ⟨%d3, H3⟩⟩
      iapply ((kernelRun4_A c (grid4.coords t) (ms4_0 t) (hs4_0 t) (ms4_1 t) (hs4_1 t) (ms4_2 t) (hs4_2 t) (ms4_3 t) (hs4_3 t) scM4_0 (Memref.isWhole_whole _) ((hcond4_0 t).mpr h0) hc1 (iblk4 V c 0 t) (iblk4 V c 1 t) (iblk4 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS4_castSucc V c t, PhiS4_pos V c _ _ hz]
      iintro ⟨⟨⟨HS0, Hrest⟩, Hg⟩, Ho, ⟨%d0, H0⟩, ⟨%d1, H1⟩, ⟨%d2, H2⟩, ⟨%d3, H3⟩⟩
      iapply ((kernelRun4_A c (grid4.coords t) (ms4_0 t) (hs4_0 t) (ms4_1 t) (hs4_1 t) (ms4_2 t) (hs4_2 t) (ms4_3 t) (hs4_3 t) scM4_0 (Memref.isWhole_whole _) ((hcond4_0 t).mpr h0) hc1 (iblk4 V c 0 t) (iblk4 V c 1 t) (iblk4 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 3 = 2
    · rw [show (dat4 V c).leavesExact 3 t = owns (c : Thread nD τ) (ms4_3 t) fullShare ((dat4 V c).after 3 t) from by
        unfold Dat.leavesExact; rw [liveAt4_3_C t (fun h => h0 ((hcond4_0 t).mp h)) ((hcond4_1 t).mpr h1)], after4_3]
      rw [outsAt4_C V c t h0 h1]
      unfold out4_C_3 sout4_C_0; (try dsimp only)
      rw [PhiS4_castSucc V c t, PhiS4_pos V c _ _ hz]
      iintro ⟨⟨⟨HS0, Hrest⟩, Hg⟩, Ho, ⟨%d0, H0⟩, ⟨%d1, H1⟩, ⟨%d2, H2⟩, ⟨%d3, H3⟩⟩
      iapply ((kernelRun4_C c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover4_C_3 c _ _ _ _ _ _ _ _ _ _ _ _ _ _ _ _ _)
    · rw [Dat.leavesExact_idle (dat4 V c) 3 t (idleAt4_3_B t (fun h => h0 ((hcond4_0 t).mp h)) (fun h => h1 ((hcond4_1 t).mp h))) (noFlush4_3_B t (fun h => h0 ((hcond4_0 t).mp h)) (fun h => h1 ((hcond4_1 t).mp h)))]
      rw [outsAt4_B V c t h0 h1]
      unfold sout4_B_0; (try dsimp only)
      rw [PhiS4_castSucc V c t, PhiS4_pos V c _ _ hz]
      iintro ⟨⟨⟨HS0, Hrest⟩, Hg⟩, Ho, ⟨%d0, H0⟩, ⟨%d1, H1⟩, ⟨%d2, H2⟩, ⟨%d3, H3⟩⟩
      iapply ((kernelRun4_B c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the resting one back: the accumulator's contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hrest⟩, Hg⟩
  isplitl [HS0 Hrest]
  · isplitl [HS0]
    · iexists _; iexact HS0
    iexact Hrest
  iexact Hg

theorem hout4 (c : Dev nD) : (dat4 V c).Φ (Fin.last cfg4.N) ⊢ Pipeline.ΦA spec4 c :=
  Phi_out4 V c _ (by rw [Fin.val_last]; have : cfg4.N = 75 := N_4; omega)

end Cert.Kernel.Hand

end
-- ==== Proof.BRegion5.lean ====
/-
  Region 5 (the final projection): one point per row tile; the body loads the tile of h, the whole weight
  matrix and the bias row, and stores h·W + b into the output block, which is written back at every point.
-/
import proofs.«165758_j22333829939343_1_alg».proof.Proof.Gen.Kernel.Launch
import proofs.«165758_j22333829939343_1_alg».proof.Proof.Gen.Kernel.Skeleton
import proofs.«165758_j22333829939343_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev r5_in0 : Rect S2000x128 := Rect.unit (s := S2000x128) ![0, 0] S2000x128.size inb_S2000x128_S2000x128_0_0
abbrev r5_in1 : Rect S128x64 := Rect.unit (s := S128x64) ![0, 0] S128x64.size inb_S128x64_S128x64_0_0
abbrev r5_in2 : Rect S1x64 := Rect.unit (s := S1x64) ![0, 0] S1x64.size inb_S1x64_S1x64_0_0
abbrev r5_out : Rect S2000x64 := Rect.unit (s := S2000x64) ![0, 0] S2000x64.size inb_S2000x64_S2000x64_0_0

/-- The output block after the body: its one whole-block store. -/
def out5_3 (x0 : Vec F S2000x128 .f32) (x1 : Vec F S128x64 .f32) (x2 : Vec F S1x64 .f32) : Vec F S2000x64 .f32 :=
  View.canon [⟨r5_out, k5_pay1 (View.ld x0 r5_in0) (View.ld x1 r5_in1) (View.ld x2 r5_in2)⟩]

theorem cover5_3 (p0 : Vec F S2000x64 .f32) (y : S2000x64.Idx) :
    ∃ pc ∈ ([⟨r5_out, p0⟩] : List (View.Piece (Elt F) S2000x64 .f32)), y ∈ pc.1.set :=
  View.cover_of_tiled [⟨r5_out, p0⟩] S2000x64.size (by rfl) y

set_option maxHeartbeats 1000000 in
theorem sound_kernel5 (c : Dev nD) (E : Set ℕ) (i : grid5.Coords) (arg1 : Memref sig .tc .vmem S2000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S2000x64 .f32) (harg4 : arg4.IsWhole)
    (x0 : Vec F S2000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__final_kernel i arg1 harg1 arg2 harg2 arg3 harg3 arg4 harg4) K := by
  simp only [cc5__final_kernel_eq_skeleton]; unfold cc5__final_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The proof data of the final projection's pipeline on core c. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

set_option maxHeartbeats 2000000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := Idealize.SL.BI.Entails.refl _
theorem hout5 (c : Dev nD) : (dat5 V c).Φ (Fin.last cfg5.N) ⊢ Pipeline.ΦA spec5 c := Idealize.SL.BI.Entails.refl _

end Cert.Kernel.Hand

end
-- ==== Proof.BRunHost.lean ====
/-
  The host stretches of the kernel program, as far as the run over its regions needs them: no operation of a stretch
  allocates a buffer, and each stretch writes exactly the result references of its operations (listed here, in order),
  so that a reference outside the list keeps its contents across the stretch.
-/
import proofs.«165758_j22333829939343_1_alg».proof.Proof.Gen.Kernel.Launch
import proofs.«165758_j22333829939343_1_alg».proof.Proof.LibKeeps
import Idealize.ShloMosaic.Lib.StableHlo.Run

set_option maxRecDepth 16384

noncomputable section

namespace Cert.Kernel.Hand

open Idealize.ShloMosaic Idealize.ShloMosaic.TcCoe
open Cert.Kernel.Gen

variable {F : FTy → Type} [FloatOps F]

/-- The references the operations of stretch 0 write: each operation's result, in order. -/
abbrev hostOps0_W : List (Ref sig .tc) :=
  [main_cst, main_v0, main_v1, main_v2, main_cst_0, main_v3, main_v4, main_v5, main_v6, main_v7, main_cst_1, main_v8,
   main_v9, main_v10, main_v11, main_v12, main_cst_2, main_v13, main_v14, main_v15, main_v16, main_v17, main_v18, main_v19,
   main_v20, main_v21, main_cst_3, main_v22, main_v23, main_v24, main_v25, main_v26, main_cst_4, main_v27, main_v28, main_v29,
   main_v30, main_v31, main_cst_5, main_v32, main_v33, main_v34, main_v35, main_v36, main_v37, main_v38, main_v39, main_v40,
   main_v41, main_v42, main_v43, main_v44, main_cst_6, main_v45, main_v46, main_v47, main_v48, main_v49, main_v50, main_c,
   main_v51, main_v52, main_c_7, main_v53, main_v54, main_v55, main_v56, main_v57, main_cst_8, main_v58, main_v59, main_v60,
   main_v61, main_v62, main_cst_9, main_v63, main_v64, main_v65, main_v66, main_v67, main_v68, main_v69, main_v70, main_v71,
   main_v72, main_v73, main_v74, main_cst_10, main_v75, main_v76, main_v77, main_v78, main_v79, main_v80, main_c_11, main_v81,
   main_v82, main_c_12, main_v83, main_v84, main_v85, main_v86, main_v87, main_cst_13, main_v88, main_v89, main_v90, main_v91,
   main_v92, main_cst_14, main_v93, main_v94, main_v95, main_v96, main_v97, main_v98, main_v99, main_v100, main_v101, main_v102,
   main_v103, main_v104, main_cst_15, main_v105, main_v106, main_v107, main_v108, main_v109, main_v110, main_c_16, main_v111, main_v112,
   main_c_17, main_v113, main_v114, main_v115, main_v116, main_v117, main_cst_18, main_v118, main_v119, main_v120, main_v121, main_v122,
   main_cst_19, main_v123, main_v124, main_v125, main_v126, main_v127, main_v128, main_v129, main_v130, main_v131, main_v132, main_v133]

set_option maxHeartbeats 40000000 in
/-- No operation of stretch 0 allocates a buffer. -/
theorem hostOps0_fresh : (hostOps0 : List (HloOp τ sig (Elt F))).Forall fun op => op.fresh = ∅ := by
  simp only [List.Forall]; repeat' constructor

set_option maxHeartbeats 40000000 in
/-- Every operation of stretch 0 writes inside the listed references. -/
theorem hostOps0_writes : (hostOps0 : List (HloOp τ sig (Elt F))).Forall fun op => op.writes ⊆ (hostOps0_W.map (Proc.devRef (τ := τ) .tc)).toFinset := by
  host_writes hostOps0

/-- The references the operations of stretch 1 write: each operation's result, in order. -/
abbrev hostOps1_W : List (Ref sig .tc) :=
  [main_v135, main_v136, main_v137, main_v138, main_v139, main_v140, main_v141, main_v142, main_v143, main_v144, main_cst_20, main_v145,
   main_v146, main_v147, main_v148, main_v149, main_v150, main_c_21, main_v151, main_v152, main_c_22, main_v153, main_v154, main_v155,
   main_v156, main_v157, main_cst_23, main_v158, main_v159, main_v160, main_v161, main_v162, main_cst_24, main_v163, main_v164, main_v165,
   main_v166, main_v167, main_v168, main_v169, main_v170, main_v171, main_v172, main_v173, main_v174, main_cst_25, main_v175, main_v176,
   main_v177, main_v178, main_v179, main_v180, main_c_26, main_v181, main_v182, main_c_27, main_v183, main_v184, main_v185, main_v186,
   main_v187, main_cst_28, main_v188, main_v189, main_v190, main_v191, main_v192, main_cst_29, main_v193, main_v194, main_v195, main_v196,
   main_v197, main_v198, main_v199, main_v200, main_v201, main_v202, main_v203, main_v204, main_cst_30, main_v205, main_v206, main_v207,
   main_v208, main_v209, main_v210, main_c_31, main_v211, main_v212, main_c_32, main_v213, main_v214, main_v215, main_v216, main_v217,
   main_cst_33, main_v218, main_v219, main_v220, main_v221, main_v222, main_cst_34, main_v223, main_v224, main_v225, main_v226, main_v227,
   main_v228, main_v229, main_v230, main_v231, main_v232, main_v233]

set_option maxHeartbeats 40000000 in
/-- No operation of stretch 1 allocates a buffer. -/
theorem hostOps1_fresh : (hostOps1 : List (HloOp τ sig (Elt F))).Forall fun op => op.fresh = ∅ := by
  simp only [List.Forall]; repeat' constructor

set_option maxHeartbeats 40000000 in
/-- Every operation of stretch 1 writes inside the listed references. -/
theorem hostOps1_writes : (hostOps1 : List (HloOp τ sig (Elt F))).Forall fun op => op.writes ⊆ (hostOps1_W.map (Proc.devRef (τ := τ) .tc)).toFinset := by
  host_writes hostOps1

/-- The references the operations of stretch 2 write: each operation's result, in order. -/
abbrev hostOps2_W : List (Ref sig .tc) :=
  [main_v235, main_v236, main_v237, main_v238, main_v239, main_v240, main_v241, main_v242, main_v243, main_v244, main_cst_35, main_v245,
   main_v246, main_v247, main_v248, main_v249, main_v250, main_c_36, main_v251, main_v252, main_c_37, main_v253, main_v254, main_v255,
   main_v256, main_v257, main_cst_38, main_v258, main_v259, main_v260, main_v261, main_v262, main_cst_39, main_v263, main_v264, main_v265,
   main_v266, main_v267, main_v268, main_v269, main_v270, main_v271, main_v272, main_v273, main_v274, main_cst_40, main_v275, main_v276,
   main_v277, main_v278, main_v279, main_v280, main_c_41, main_v281, main_v282, main_c_42, main_v283, main_v284, main_v285, main_v286,
   main_v287, main_cst_43, main_v288, main_v289, main_v290, main_v291, main_v292, main_cst_44, main_v293, main_v294, main_v295, main_v296,
   main_v297, main_v298, main_v299, main_v300, main_v301, main_v302, main_v303, main_v304, main_cst_45, main_v305, main_v306, main_v307,
   main_v308, main_v309, main_v310, main_c_46, main_v311, main_v312, main_c_47, main_v313, main_v314, main_v315, main_v316, main_v317,
   main_cst_48, main_v318, main_v319, main_v320, main_v321, main_v322, main_cst_49, main_v323, main_v324, main_v325, main_v326, main_v327,
   main_v328, main_v329, main_v330, main_v331, main_v332, main_v333]

set_option maxHeartbeats 40000000 in
/-- No operation of stretch 2 allocates a buffer. -/
theorem hostOps2_fresh : (hostOps2 : List (HloOp τ sig (Elt F))).Forall fun op => op.fresh = ∅ := by
  simp only [List.Forall]; repeat' constructor

set_option maxHeartbeats 40000000 in
/-- Every operation of stretch 2 writes inside the listed references. -/
theorem hostOps2_writes : (hostOps2 : List (HloOp τ sig (Elt F))).Forall fun op => op.writes ⊆ (hostOps2_W.map (Proc.devRef (τ := τ) .tc)).toFinset := by
  host_writes hostOps2

/-- The references the operations of stretch 3 write: each operation's result, in order. -/
abbrev hostOps3_W : List (Ref sig .tc) :=
  [main_v335, main_v336, main_v337, main_v338, main_v339, main_v340, main_v341, main_v342, main_v343, main_v344, main_cst_50, main_v345,
   main_v346, main_v347, main_v348, main_v349, main_v350, main_c_51, main_v351, main_v352, main_c_52, main_v353, main_v354, main_v355,
   main_v356, main_v357, main_cst_53, main_v358, main_v359, main_v360, main_v361, main_v362, main_cst_54, main_v363, main_v364, main_v365,
   main_v366, main_v367, main_v368, main_v369, main_v370, main_v371, main_v372, main_v373, main_v374, main_cst_55, main_v375, main_v376,
   main_v377, main_v378, main_v379, main_v380, main_c_56, main_v381, main_v382, main_c_57, main_v383, main_v384, main_v385, main_v386,
   main_v387, main_cst_58, main_v388, main_v389, main_v390, main_v391, main_v392, main_cst_59, main_v393, main_v394, main_v395, main_v396,
   main_v397, main_v398, main_v399, main_v400, main_v401, main_v402, main_v403, main_v404, main_cst_60, main_v405, main_v406, main_v407,
   main_v408, main_v409, main_v410, main_c_61, main_v411, main_v412, main_c_62, main_v413, main_v414, main_v415, main_v416, main_v417,
   main_cst_63, main_v418, main_v419, main_v420, main_v421, main_v422, main_cst_64, main_v423, main_v424, main_v425, main_v426, main_v427,
   main_v428, main_v429, main_v430, main_v431, main_v432, main_v433]

set_option maxHeartbeats 40000000 in
/-- No operation of stretch 3 allocates a buffer. -/
theorem hostOps3_fresh : (hostOps3 : List (HloOp τ sig (Elt F))).Forall fun op => op.fresh = ∅ := by
  simp only [List.Forall]; repeat' constructor

set_option maxHeartbeats 40000000 in
/-- Every operation of stretch 3 writes inside the listed references. -/
theorem hostOps3_writes : (hostOps3 : List (HloOp τ sig (Elt F))).Forall fun op => op.writes ⊆ (hostOps3_W.map (Proc.devRef (τ := τ) .tc)).toFinset := by
  host_writes hostOps3

/-- The references the operations of stretch 4 write: each operation's result, in order. -/
abbrev hostOps4_W : List (Ref sig .tc) :=
  [main_v435, main_v436, main_v437, main_v438, main_v439, main_v440, main_v441, main_v442, main_v443, main_v444, main_cst_65, main_v445,
   main_v446, main_v447, main_v448, main_v449, main_v450, main_c_66, main_v451, main_v452, main_c_67, main_v453, main_v454, main_v455,
   main_v456, main_v457, main_cst_68, main_v458, main_v459, main_v460, main_v461, main_v462, main_cst_69, main_v463, main_v464, main_v465,
   main_v466, main_v467, main_v468, main_v469, main_v470, main_v471, main_v472, main_v473, main_v474, main_cst_70, main_v475, main_v476,
   main_v477, main_v478, main_v479, main_v480, main_c_71, main_v481, main_v482, main_c_72, main_v483, main_v484, main_v485, main_v486,
   main_v487, main_cst_73, main_v488, main_v489, main_v490, main_v491, main_v492, main_cst_74, main_v493, main_v494, main_v495, main_v496,
   main_v497, main_v498, main_v499, main_v500, main_v501, main_v502, main_v503, main_v504, main_cst_75, main_v505, main_v506, main_v507,
   main_v508, main_v509, main_v510, main_c_76, main_v511, main_v512, main_c_77, main_v513, main_v514, main_v515, main_v516, main_v517,
   main_cst_78, main_v518, main_v519, main_v520, main_v521, main_v522, main_cst_79, main_v523, main_v524, main_v525, main_v526, main_v527,
   main_v528, main_v529, main_v530, main_v531, main_v532, main_v533]

set_option maxHeartbeats 40000000 in
/-- No operation of stretch 4 allocates a buffer. -/
theorem hostOps4_fresh : (hostOps4 : List (HloOp τ sig (Elt F))).Forall fun op => op.fresh = ∅ := by
  simp only [List.Forall]; repeat' constructor

set_option maxHeartbeats 40000000 in
/-- Every operation of stretch 4 writes inside the listed references. -/
theorem hostOps4_writes : (hostOps4 : List (HloOp τ sig (Elt F))).Forall fun op => op.writes ⊆ (hostOps4_W.map (Proc.devRef (τ := τ) .tc)).toFinset := by
  host_writes hostOps4

/-- The references the operations of stretch 5 write: each operation's result, in order. -/
abbrev hostOps5_W : List (Ref sig .tc) :=
  [main_v535]

set_option maxHeartbeats 40000000 in
/-- No operation of stretch 5 allocates a buffer. -/
theorem hostOps5_fresh : (hostOps5 : List (HloOp τ sig (Elt F))).Forall fun op => op.fresh = ∅ := by
  simp only [List.Forall]; repeat' constructor

set_option maxHeartbeats 40000000 in
/-- Every operation of stretch 5 writes inside the listed references. -/
theorem hostOps5_writes : (hostOps5 : List (HloOp τ sig (Elt F))).Forall fun op => op.writes ⊆ (hostOps5_W.map (Proc.devRef (τ := τ) .tc)).toFinset := by
  host_writes hostOps5

end Cert.Kernel.Hand

end
-- ==== Proof.BRunVals.lean ====
/-
  THE RUN of the kernel program over its six regions, first part: the buffer contents at each of the thirteen
  boundaries between its segments (a host stretch, then a kernel region, six times over), as a fold from the launch
  memory. Across a host stretch the contents are the stretch's `StableHlo.after`; across a region its arrays are at what
  the pipeline's write-backs leave (`Dat.arrAt … N`: an input as entered, the output folded) and every other buffer
  is as entered. Read back through the fold, each of the nine argument arrays holds its launch contents at the end,
  and the result array holds what the last region's pipeline leaves in its output window.
-/
import proofs.«165758_j22333829939343_1_alg».proof.Proof.Gen.Kernel.Launch
import proofs.«165758_j22333829939343_1_alg».proof.Proof.BBody0
import proofs.«165758_j22333829939343_1_alg».proof.Proof.BBody1
import proofs.«165758_j22333829939343_1_alg».proof.Proof.BBody2
import proofs.«165758_j22333829939343_1_alg».proof.Proof.BBody3
import proofs.«165758_j22333829939343_1_alg».proof.Proof.BBody4
import proofs.«165758_j22333829939343_1_alg».proof.Proof.BRegion5
import proofs.«165758_j22333829939343_1_alg».proof.Proof.BRunHost
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)

/-- After host stretch 0: region 0's entry contents. -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- A reference stretch 0 does not write keeps its contents across it. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0's output array at its exit: what the pipeline's write-backs leave in window 3. -/
theorem W2_out (c : Dev nD) : W2 m ρ c (Proc.devRef .tc main_v134) = (dat0 (V1 m ρ) c).arrAt 3 cfg0.N :=
  W2_arr m ρ c 3
/-- An input array of region 0 leaves it as it entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

/-- After host stretch 1: region 1's entry contents. -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- A reference stretch 1 does not write keeps its contents across it. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Region 1's output array at its exit: what the pipeline's write-backs leave in window 3. -/
theorem W4_out (c : Dev nD) : W4 m ρ c (Proc.devRef .tc main_v234) = (dat1 (V3 m ρ) c).arrAt 3 cfg1.N :=
  W4_arr m ρ c 3
/-- An input array of region 1 leaves it as it entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

/-- After host stretch 2: region 2's entry contents. -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- A reference stretch 2 does not write keeps its contents across it. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- Region 2's output array at its exit: what the pipeline's write-backs leave in window 3. -/
theorem W6_out (c : Dev nD) : W6 m ρ c (Proc.devRef .tc main_v334) = (dat2 (V5 m ρ) c).arrAt 3 cfg2.N :=
  W6_arr m ρ c 3
/-- An input array of region 2 leaves it as it entered. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))

/-- After host stretch 3: region 3's entry contents. -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- A reference stretch 3 does not write keeps its contents across it. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- Region 3's output array at its exit: what the pipeline's write-backs leave in window 3. -/
theorem W8_out (c : Dev nD) : W8 m ρ c (Proc.devRef .tc main_v434) = (dat3 (V7 m ρ) c).arrAt 3 cfg3.N :=
  W8_arr m ρ c 3
/-- An input array of region 3 leaves it as it entered. -/
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hin _).trans (A_eq3 (V7 m ρ) c w))

/-- After host stretch 4: region 4's entry contents. -/
abbrev W9 : Dev nD → Valuation τ sig (Elt F) := fun c => StableHlo.after hostOps4 (W8 m ρ c)
/-- The same read at the TensorCore's references (what region 4's proof data take). -/
abbrev V9 : (c : Dev nD) → (b : Ref sig .tc) → Buf (Elt F) ((c : Thread nD τ).loc b) := fun c b => W9 m ρ c b
/-- A reference stretch 4 does not write keeps its contents across it. -/
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves, and every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- Region 4's output array at its exit: what the pipeline's write-backs leave in window 3. -/
theorem W10_out (c : Dev nD) : W10 m ρ c (Proc.devRef .tc main_v534) = (dat4 (V9 m ρ) c).arrAt 3 cfg4.N :=
  W10_arr m ρ c 3
/-- An input array of region 4 leaves it as it entered. -/
theorem W10_in (c : Dev nD) (w : Fin cfg4.W) (hin : (cfg4.win w).isOut = false) :
    W10 m ρ c (Proc.devRef .tc (Pipeline.arrRef spec4 w)) = W9 m ρ c (Proc.devRef .tc (Pipeline.arrRef spec4 w)) :=
  (W10_arr m ρ c w).trans (((dat4 (V9 m ρ) c).arrAt_in w hin _).trans (A_eq4 (V9 m ρ) c w))

/-- After host stretch 5: region 5's entry contents. -/
abbrev W11 : Dev nD → Valuation τ sig (Elt F) := fun c => StableHlo.after hostOps5 (W10 m ρ c)
/-- The same read at the TensorCore's references (what region 5's proof data take). -/
abbrev V11 : (c : Dev nD) → (b : Ref sig .tc) → Buf (Elt F) ((c : Thread nD τ).loc b) := fun c b => W11 m ρ c b
/-- A reference stretch 5 does not write keeps its contents across it. -/
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h
/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references (region 5's exit contents). -/
abbrev V12 : (c : Dev nD) → (b : Ref sig .tc) → Buf (Elt F) ((c : Thread nD τ).loc b) := fun c b => W12 m ρ c b
/-- At region 5's exit each of its arrays holds what the pipeline leaves, and every other buffer what it held at entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- Region 5's output array at its exit: what the pipeline's write-backs leave in window 3. -/
theorem W12_out (c : Dev nD) : W12 m ρ c (Proc.devRef .tc main_v536) = (dat5 (V11 m ρ) c).arrAt 3 cfg5.N :=
  W12_arr m ρ c 3
/-- An input array of region 5 leaves it as it entered. -/
theorem W12_in (c : Dev nD) (w : Fin cfg5.W) (hin : (cfg5.win w).isOut = false) :
    W12 m ρ c (Proc.devRef .tc (Pipeline.arrRef spec5 w)) = W11 m ρ c (Proc.devRef .tc (Pipeline.arrRef spec5 w)) :=
  (W12_arr m ρ c w).trans (((dat5 (V11 m ρ) c).arrAt_in w hin _).trans (A_eq5 (V11 m ρ) c w))

/-! ## The arguments end as launched

No host operation writes an argument, and a region either does not touch it or reads it through an input window,
so the fold at an argument's buffer walks back to the launch memory. -/

theorem W12_main_arg0 (c : Dev nD) : W12 m ρ c (Proc.devRef .tc main_arg0) = m ((c : Thread nD τ).loc main_arg0) :=
  (W12_of_ne m ρ c main_arg0 (by decide)).trans <|
  (W11_of m ρ c main_arg0 (by decide)).trans <|
  (W10_of_ne m ρ c main_arg0 (by decide)).trans <|
  (W9_of m ρ c main_arg0 (by decide)).trans <|
  (W8_of_ne m ρ c main_arg0 (by decide)).trans <|
  (W7_of m ρ c main_arg0 (by decide)).trans <|
  (W6_of_ne m ρ c main_arg0 (by decide)).trans <|
  (W5_of m ρ c main_arg0 (by decide)).trans <|
  (W4_of_ne m ρ c main_arg0 (by decide)).trans <|
  (W3_of m ρ c main_arg0 (by decide)).trans <|
  (W2_of_ne m ρ c main_arg0 (by decide)).trans <|
  (W1_of m ρ c main_arg0 (by decide)).trans <| rfl

theorem W12_main_arg1 (c : Dev nD) : W12 m ρ c (Proc.devRef .tc main_arg1) = m ((c : Thread nD τ).loc main_arg1) :=
  (W12_of_ne m ρ c main_arg1 (by decide)).trans <|
  (W11_of m ρ c main_arg1 (by decide)).trans <|
  (W10_of_ne m ρ c main_arg1 (by decide)).trans <|
  (W9_of m ρ c main_arg1 (by decide)).trans <|
  (W8_of_ne m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of_ne m ρ c main_arg1 (by decide)).trans <|
  (W1_of m ρ c main_arg1 (by decide)).trans <| rfl

theorem W12_main_arg2 (c : Dev nD) : W12 m ρ c (Proc.devRef .tc main_arg2) = m ((c : Thread nD τ).loc main_arg2) :=
  (W12_of_ne m ρ c main_arg2 (by decide)).trans <|
  (W11_of m ρ c main_arg2 (by decide)).trans <|
  (W10_of_ne m ρ c main_arg2 (by decide)).trans <|
  (W9_of m ρ c main_arg2 (by decide)).trans <|
  (W8_of_ne m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of_ne m ρ c main_arg2 (by decide)).trans <|
  (W1_of m ρ c main_arg2 (by decide)).trans <| rfl

theorem W12_main_arg3 (c : Dev nD) : W12 m ρ c (Proc.devRef .tc main_arg3) = m ((c : Thread nD τ).loc main_arg3) :=
  (W12_of_ne m ρ c main_arg3 (by decide)).trans <|
  (W11_of m ρ c main_arg3 (by decide)).trans <|
  (W10_of_ne m ρ c main_arg3 (by decide)).trans <|
  (W9_of m ρ c main_arg3 (by decide)).trans <|
  (W8_of_ne m ρ c main_arg3 (by decide)).trans <|
  (W7_of m ρ c main_arg3 (by decide)).trans <|
  (W6_of_ne m ρ c main_arg3 (by decide)).trans <|
  (W5_of m ρ c main_arg3 (by decide)).trans <|
  (W4_of_ne m ρ c main_arg3 (by decide)).trans <|
  (W3_of m ρ c main_arg3 (by decide)).trans <|
  (W2_in m ρ c 1 rfl).trans <|
  (W1_of m ρ c main_arg3 (by decide)).trans <| rfl

theorem W12_main_arg4 (c : Dev nD) : W12 m ρ c (Proc.devRef .tc main_arg4) = m ((c : Thread nD τ).loc main_arg4) :=
  (W12_of_ne m ρ c main_arg4 (by decide)).trans <|
  (W11_of m ρ c main_arg4 (by decide)).trans <|
  (W10_of_ne m ρ c main_arg4 (by decide)).trans <|
  (W9_of m ρ c main_arg4 (by decide)).trans <|
  (W8_of_ne m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_of_ne m ρ c main_arg4 (by decide)).trans <|
  (W1_of m ρ c main_arg4 (by decide)).trans <| rfl

theorem W12_main_arg5 (c : Dev nD) : W12 m ρ c (Proc.devRef .tc main_arg5) = m ((c : Thread nD τ).loc main_arg5) :=
  (W12_of_ne m ρ c main_arg5 (by decide)).trans <|
  (W11_of m ρ c main_arg5 (by decide)).trans <|
  (W10_of_ne m ρ c main_arg5 (by decide)).trans <|
  (W9_of m ρ c main_arg5 (by decide)).trans <|
  (W8_of_ne m ρ c main_arg5 (by decide)).trans <|
  (W7_of m ρ c main_arg5 (by decide)).trans <|
  (W6_of_ne m ρ c main_arg5 (by decide)).trans <|
  (W5_of m ρ c main_arg5 (by decide)).trans <|
  (W4_of_ne m ρ c main_arg5 (by decide)).trans <|
  (W3_of m ρ c main_arg5 (by decide)).trans <|
  (W2_of_ne m ρ c main_arg5 (by decide)).trans <|
  (W1_of m ρ c main_arg5 (by decide)).trans <| rfl

theorem W12_main_arg6 (c : Dev nD) : W12 m ρ c (Proc.devRef .tc main_arg6) = m ((c : Thread nD τ).loc main_arg6) :=
  (W12_of_ne m ρ c main_arg6 (by decide)).trans <|
  (W11_of m ρ c main_arg6 (by decide)).trans <|
  (W10_of_ne m ρ c main_arg6 (by decide)).trans <|
  (W9_of m ρ c main_arg6 (by decide)).trans <|
  (W8_of_ne m ρ c main_arg6 (by decide)).trans <|
  (W7_of m ρ c main_arg6 (by decide)).trans <|
  (W6_of_ne m ρ c main_arg6 (by decide)).trans <|
  (W5_of m ρ c main_arg6 (by decide)).trans <|
  (W4_of_ne m ρ c main_arg6 (by decide)).trans <|
  (W3_of m ρ c main_arg6 (by decide)).trans <|
  (W2_of_ne m ρ c main_arg6 (by decide)).trans <|
  (W1_of m ρ c main_arg6 (by decide)).trans <| rfl

theorem W12_main_arg7 (c : Dev nD) : W12 m ρ c (Proc.devRef .tc main_arg7) = m ((c : Thread nD τ).loc main_arg7) :=
  (W12_in m ρ c 1 rfl).trans <|
  (W11_of m ρ c main_arg7 (by decide)).trans <|
  (W10_of_ne m ρ c main_arg7 (by decide)).trans <|
  (W9_of m ρ c main_arg7 (by decide)).trans <|
  (W8_of_ne m ρ c main_arg7 (by decide)).trans <|
  (W7_of m ρ c main_arg7 (by decide)).trans <|
  (W6_of_ne m ρ c main_arg7 (by decide)).trans <|
  (W5_of m ρ c main_arg7 (by decide)).trans <|
  (W4_of_ne m ρ c main_arg7 (by decide)).trans <|
  (W3_of m ρ c main_arg7 (by decide)).trans <|
  (W2_of_ne m ρ c main_arg7 (by decide)).trans <|
  (W1_of m ρ c main_arg7 (by decide)).trans <| rfl

theorem W12_main_arg8 (c : Dev nD) : W12 m ρ c (Proc.devRef .tc main_arg8) = m ((c : Thread nD τ).loc main_arg8) :=
  (W12_of_ne m ρ c main_arg8 (by decide)).trans <|
  (W11_of m ρ c main_arg8 (by decide)).trans <|
  (W10_of_ne m ρ c main_arg8 (by decide)).trans <|
  (W9_of m ρ c main_arg8 (by decide)).trans <|
  (W8_of_ne m ρ c main_arg8 (by decide)).trans <|
  (W7_of m ρ c main_arg8 (by decide)).trans <|
  (W6_of_ne m ρ c main_arg8 (by decide)).trans <|
  (W5_of m ρ c main_arg8 (by decide)).trans <|
  (W4_of_ne m ρ c main_arg8 (by decide)).trans <|
  (W3_of m ρ c main_arg8 (by decide)).trans <|
  (W2_of_ne m ρ c main_arg8 (by decide)).trans <|
  (W1_of m ρ c main_arg8 (by decide)).trans <| rfl

/-- The result array at the end: what the last region's pipeline leaves in its output window. -/
theorem W12_result (c : Dev nD) : W12 m ρ c (Proc.devRef .tc main_v536) = (dat5 (V11 m ρ) c).arrAt 3 cfg5.N :=
  W12_out m ρ c

end Cert.Kernel.Hand

end
-- ==== Proof.BRunData.lean ====
/-
  THE RUN of the kernel program over its six regions, second part: every pipeline's proof data at its region's entry
  contents, and the thread state carried from segment to segment — every unscoped buffer of the core held at the
  boundary's contents, beside the core's generator register at some state and the core owing nothing.
-/
import proofs.«165758_j22333829939343_1_alg».proof.Proof.Gen.Kernel.Launch
import proofs.«165758_j22333829939343_1_alg».proof.Proof.BBody0
import proofs.«165758_j22333829939343_1_alg».proof.Proof.BBody1
import proofs.«165758_j22333829939343_1_alg».proof.Proof.BBody2
import proofs.«165758_j22333829939343_1_alg».proof.Proof.BBody3
import proofs.«165758_j22333829939343_1_alg».proof.Proof.BBody4
import proofs.«165758_j22333829939343_1_alg».proof.Proof.BRegion5
import proofs.«165758_j22333829939343_1_alg».proof.Proof.BRunVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The prefetched tables' admissible contents: no pipeline has a table. -/
abbrev adm : (p : Fin 6) → (pcfgs (F := F) p).Adm := fun p => (cfgs p).toPCfg_adm
/-- Every pipeline's proof data, each at its region's entry contents — a literal `match`, so that the pinned
    configuration at a numeral reduces to the printed one. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along; it leaves
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W12 m ρ c) ∗ ∃ r, prngReg c r)

end Cert.Kernel.Hand

end
-- ==== Proof.BRunSegA.lean ====
/-
  THE RUN of the kernel program over its six regions, third part: regions 0, 1, 2 as segments over the thread state.
-/
import proofs.«165758_j22333829939343_1_alg».proof.Proof.Gen.Kernel.Launch
import proofs.«165758_j22333829939343_1_alg».proof.Proof.BBody0
import proofs.«165758_j22333829939343_1_alg».proof.Proof.BBody1
import proofs.«165758_j22333829939343_1_alg».proof.Proof.BBody2
import proofs.«165758_j22333829939343_1_alg».proof.Proof.BBody3
import proofs.«165758_j22333829939343_1_alg».proof.Proof.BBody4
import proofs.«165758_j22333829939343_1_alg».proof.Proof.BRegion5
import proofs.«165758_j22333829939343_1_alg».proof.Proof.BRunData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- REGION 0 over the thread state: entered from every unscoped buffer at `W1`, left at `W2`. Its arrays are
    split out of the unscoped buffers and put back at the exit contents; the generator register and the scoped rest
    go into the pipeline's invariant at the first point and come back from it at the last (the invariant in between
    is the region's own business); nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec0 c : sProp 𝕄) ⊢ (pdats m ρ 0 c).Φ 0 := hin0 (V1 m ρ) c
    refine .trans ?_ h
    unfold Pipeline.ΦA
    iintro ⟨Hp, -, Hr⟩
    isplitl [Hr]; · iexact Hr
    iexact Hp
  hout c := by
    rw [Pipeline.ownSems0_none]
    have h : (pdats m ρ 0 c).Φ (Fin.last _) ⊢ (Pipeline.ΦA spec0 c : sProp 𝕄) := hout0 (V1 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are
    split out of the unscoped buffers and put back at the exit contents; the generator register and the scoped rest
    go into the pipeline's invariant at the first point and come back from it at the last (the invariant in between
    is the region's own business); nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m ρ 1 c).Φ 0 := hin1 (V3 m ρ) c
    refine .trans ?_ h
    unfold Pipeline.ΦA
    iintro ⟨Hp, -, Hr⟩
    isplitl [Hr]; · iexact Hr
    iexact Hp
  hout c := by
    rw [Pipeline.ownSems0_none]
    have h : (pdats m ρ 1 c).Φ (Fin.last _) ⊢ (Pipeline.ΦA spec1 c : sProp 𝕄) := hout1 (V3 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are
    split out of the unscoped buffers and put back at the exit contents; the generator register and the scoped rest
    go into the pipeline's invariant at the first point and come back from it at the last (the invariant in between
    is the region's own business); nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec2 c : sProp 𝕄) ⊢ (pdats m ρ 2 c).Φ 0 := hin2 (V5 m ρ) c
    refine .trans ?_ h
    unfold Pipeline.ΦA
    iintro ⟨Hp, -, Hr⟩
    isplitl [Hr]; · iexact Hr
    iexact Hp
  hout c := by
    rw [Pipeline.ownSems0_none]
    have h : (pdats m ρ 2 c).Φ (Fin.last _) ⊢ (Pipeline.ΦA spec2 c : sProp 𝕄) := hout2 (V5 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.BRunSegB.lean ====
/-
  THE RUN of the kernel program over its six regions, third part: regions 3, 4, 5 as segments over the thread state.
-/
import proofs.«165758_j22333829939343_1_alg».proof.Proof.Gen.Kernel.Launch
import proofs.«165758_j22333829939343_1_alg».proof.Proof.BBody0
import proofs.«165758_j22333829939343_1_alg».proof.Proof.BBody1
import proofs.«165758_j22333829939343_1_alg».proof.Proof.BBody2
import proofs.«165758_j22333829939343_1_alg».proof.Proof.BBody3
import proofs.«165758_j22333829939343_1_alg».proof.Proof.BBody4
import proofs.«165758_j22333829939343_1_alg».proof.Proof.BRegion5
import proofs.«165758_j22333829939343_1_alg».proof.Proof.BRunData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- REGION 3 over the thread state: entered from every unscoped buffer at `W7`, left at `W8`. Its arrays are
    split out of the unscoped buffers and put back at the exit contents; the generator register and the scoped rest
    go into the pipeline's invariant at the first point and come back from it at the last (the invariant in between
    is the region's own business); nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec3 c : sProp 𝕄) ⊢ (pdats m ρ 3 c).Φ 0 := hin3 (V7 m ρ) c
    refine .trans ?_ h
    unfold Pipeline.ΦA
    iintro ⟨Hp, -, Hr⟩
    isplitl [Hr]; · iexact Hr
    iexact Hp
  hout c := by
    rw [Pipeline.ownSems0_none]
    have h : (pdats m ρ 3 c).Φ (Fin.last _) ⊢ (Pipeline.ΦA spec3 c : sProp 𝕄) := hout3 (V7 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W9`, left at `W10`. Its arrays are
    split out of the unscoped buffers and put back at the exit contents; the generator register and the scoped rest
    go into the pipeline's invariant at the first point and come back from it at the last (the invariant in between
    is the region's own business); nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec4 c : sProp 𝕄) ⊢ (pdats m ρ 4 c).Φ 0 := hin4 (V9 m ρ) c
    refine .trans ?_ h
    unfold Pipeline.ΦA
    iintro ⟨Hp, -, Hr⟩
    isplitl [Hr]; · iexact Hr
    iexact Hp
  hout c := by
    rw [Pipeline.ownSems0_none]
    have h : (pdats m ρ 4 c).Φ (Fin.last _) ⊢ (Pipeline.ΦA spec4 c : sProp 𝕄) := hout4 (V9 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W11`, left at `W12`. Its arrays are
    split out of the unscoped buffers and put back at the exit contents; the generator register and the scoped rest
    go into the pipeline's invariant at the first point and come back from it at the last (the invariant in between
    is the region's own business); nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec5 c : sProp 𝕄) ⊢ (pdats m ρ 5 c).Φ 0 := hin5 (V11 m ρ) c
    refine .trans ?_ h
    unfold Pipeline.ΦA
    iintro ⟨Hp, -, Hr⟩
    isplitl [Hr]; · iexact Hr
    iexact Hp
  hout c := by
    rw [Pipeline.ownSems0_none]
    have h : (pdats m ρ 5 c).Φ (Fin.last _) ⊢ (Pipeline.ΦA spec5 c : sProp 𝕄) := hout5 (V11 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.BRunMain.lean ====
/-
  THE RUN of the kernel program over its six regions, last part: @main as the list of its twelve segments (a host
  stretch, then a kernel region, six times over), and the launch. From any memory with zero counters every weakly fair
  run terminates, nothing faulting, and in every final state each unscoped buffer holds the last boundary's contents
  `W12`: hence the nine arguments hold their launch contents (the frame), and the result array what the last
  pipeline leaves.
-/
import proofs.«165758_j22333829939343_1_alg».proof.Proof.Gen.Kernel.Launch
import proofs.«165758_j22333829939343_1_alg».proof.Proof.BBody0
import proofs.«165758_j22333829939343_1_alg».proof.Proof.BBody1
import proofs.«165758_j22333829939343_1_alg».proof.Proof.BBody2
import proofs.«165758_j22333829939343_1_alg».proof.Proof.BBody3
import proofs.«165758_j22333829939343_1_alg».proof.Proof.BBody4
import proofs.«165758_j22333829939343_1_alg».proof.Proof.BRegion5
import proofs.«165758_j22333829939343_1_alg».proof.Proof.BRunSegA
import proofs.«165758_j22333829939343_1_alg».proof.Proof.BRunSegB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's 12 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ) ]

/-- On every core @main is the run of the segments: both are the chain of the same twelve items. -/
theorem main_wp (c : Dev nD) (Q : PUnit → sProp 𝕄) :
    wp frame (wpE (Pipeline.defs (pcfgs (F := F)) defs₀) (Variants.lift 𝒱₀) (c.tc : Thread nD τ) none) Set.univ (Pipeline.Seg.run (segs m ρ)) Q
      ⊢ wp frame (wpE (Pipeline.defs (pcfgs (F := F)) defs₀) (Variants.lift 𝒱₀) (c.tc : Thread nD τ) none) Set.univ (main (F := F) c) Q := by
  rewrite [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()),
      StableHlo.seq hostOps5,
      Prog.lift (.customCall (Pipeline.entry 5) ()) ] from rfl]
  exact .rfl

set_option backward.isDefEq.respectTransparency.types false in
/-- THE LAUNCH: from any memory with zero counters, every weakly fair execution of @main on the TensorCores
    terminates, nothing faulting, and every final state satisfies any `Q` that follows from each unscoped buffer
    holding the last boundary's contents `W12`. -/
theorem run_of {Q : PUnit × MemSt nD τ sig (Elt F) → Prop}
    (hQ : ∀ s : MemSt nD τ sig (Elt F),
      (∀ c : Dev nD, ∀ b ∈ Pipeline.ucRefs τ sig, s.mem (((c : Thread nD τ)).1, b) = W12 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (main_wp m ρ)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := hQ)

/-- Every final state has each unscoped buffer of every core at the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W12 m ρ c b) :=
  run_of m ρ fun _ h => h

/-- THE FRAME: every weakly fair run terminates and the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_of m ρ fun s h c =>
    ⟨(h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c)⟩

/-- The result array in every final state: what the last region's pipeline leaves in its output window. -/
theorem run_result : θ_run defs (onTc (τ := τ) (main (F := F))) ⟨m, fun _ => 0, ρ⟩ (fun r => ∀ c : Dev nD,
      r.2.mem ((c.tc : Thread nD τ).loc main_v536) = (dat5 (V11 m ρ) c).arrAt 3 cfg5.N) :=
  run_of m ρ fun s h c => (h c _ (mem_uc main_v536 (by decide))).trans (W12_result m ρ c)

/-- The kernel half of the comparison with the reference: every weakly fair run terminates, the result array ends at
    what the last region's pipeline leaves in its output window, and the nine argument arrays end as launched. -/
theorem run_alg : θ_run defs (onTc (τ := τ) (main (F := F))) ⟨m, fun _ => 0, ρ⟩ (fun r => ∀ c : Dev nD,
      r.2.mem ((c.tc : Thread nD τ).loc main_v536) = (dat5 (V11 m ρ) c).arrAt 3 cfg5.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_of m ρ fun s h c =>
    ⟨(h c _ (mem_uc main_v536 (by decide))).trans (W12_result m ρ c),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c)⟩

end Cert.Kernel.Hand

end
-- ==== Proof.RefRunW0.lean ====
/- Statements 1 … 60 of the reference's @main (its window 0) as a list of host operations: the window is the
   straight line `seq` of the list, by unfolding. A call to @leaky_relu stands as the seven operations of its body (the last the select of
   the @_where it calls) over that call's buffers. Where a graph-conv layer ends inside the window the list is given in two pieces. -/
import proofs.«165758_j22333829939343_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 0, the part in layer 0 (60 operations). -/
def w0_0 : List (HloOp τ sig (Elt F)) :=
  [ StableHlo.nullary main_cst (constant S_ .f32 0x3F800000#32),
    StableHlo.unary main_cst main_v0 (broadcastInDim S800000 ![] bcast_S_S800000 : (⟨S_, .f32⟩ : BufTy).Contents (Elt F) → (⟨S800000, .f32⟩ : BufTy).Contents (Elt F)),
    StableHlo.unary main_arg1 main_v1 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v1 main_v2 rfl shapeCasts_S1x800000_S800000,
    StableHlo.unary main_arg2 main_v3 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v3 main_v4 rfl shapeCasts_S1x800000_S800000,
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v2 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v0 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x00000000#32),
    StableHlo.unary main_cst_1 main_v8 (broadcastInDim S50000 ![] bcast_S_S50000 : (⟨S_, .f32⟩ : BufTy).Contents (Elt F) → (⟨S50000, .f32⟩ : BufTy).Contents (Elt F)),
    StableHlo.unary main_v4 main_v9 (broadcastInDim S800000x1 ![0] bcast_S800000_S800000x1_0 : (⟨S800000, .i32⟩ : BufTy).Contents (Elt F) → (⟨S800000x1, .i32⟩ : BufTy).Contents (Elt F)),
    StableHlo.ternary main_v8 main_v9 main_v0 main_v10 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_2 (constant S_ .f32 0x3F800000#32),
    StableHlo.unary main_cst_2 main_v11 (broadcastInDim S50000 ![] bcast_S_S50000 : (⟨S_, .f32⟩ : BufTy).Contents (Elt F) → (⟨S50000, .f32⟩ : BufTy).Contents (Elt F)),
    StableHlo.binary main_v7 main_v11 main_v12 (maximumf : (⟨S50000, .f32⟩ : BufTy).Contents (Elt F) → (⟨S50000, .f32⟩ : BufTy).Contents (Elt F) → (⟨S50000, .f32⟩ : BufTy).Contents (Elt F)),
    StableHlo.unary main_v12 main_v13 (Host.rsqrt : (⟨S50000, .f32⟩ : BufTy).Contents (Elt F) → (⟨S50000, .f32⟩ : BufTy).Contents (Elt F)),
    StableHlo.unary main_v13 main_v14 (broadcastInDim S50000x1 ![0] bcast_S50000_S50000x1_0 : (⟨S50000, .f32⟩ : BufTy).Contents (Elt F) → (⟨S50000x1, .f32⟩ : BufTy).Contents (Elt F)),
    StableHlo.unary main_v14 main_v15 (broadcastInDim S50000x128 ![0, 1] bcast_S50000x1_S50000x128_0_1 : (⟨S50000x1, .f32⟩ : BufTy).Contents (Elt F) → (⟨S50000x128, .f32⟩ : BufTy).Contents (Elt F)),
    StableHlo.binary main_arg0 main_v15 main_v16 (mulf : (⟨S50000x128, .f32⟩ : BufTy).Contents (Elt F) → (⟨S50000x128, .f32⟩ : BufTy).Contents (Elt F) → (⟨S50000x128, .f32⟩ : BufTy).Contents (Elt F)),
    StableHlo.nullary main_c (constantI S_ 32 0#32),
    StableHlo.unary main_c main_v17 (broadcastInDim S800000 ![] bcast_S_S800000 : (⟨S_, .i32⟩ : BufTy).Contents (Elt F) → (⟨S800000, .i32⟩ : BufTy).Contents (Elt F)),
    StableHlo.binary main_v2 main_v17 main_v18 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v19 (broadcastInDim S800000 ![] bcast_S_S800000 : (⟨S_, .i32⟩ : BufTy).Contents (Elt F) → (⟨S800000, .i32⟩ : BufTy).Contents (Elt F)),
    StableHlo.binary main_v2 main_v19 main_v20 (addi : (⟨S800000, .i32⟩ : BufTy).Contents (Elt F) → (⟨S800000, .i32⟩ : BufTy).Contents (Elt F) → (⟨S800000, .i32⟩ : BufTy).Contents (Elt F)),
    StableHlo.ternary main_v18 main_v20 main_v2 main_v21 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v21 main_v22 (broadcastInDim S800000x1 ![0] bcast_S800000_S800000x1_0 : (⟨S800000, .i32⟩ : BufTy).Contents (Elt F) → (⟨S800000x1, .i32⟩ : BufTy).Contents (Elt F)),
    StableHlo.binary main_v16 main_v22 main_v23 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_4 (constant S_ .f32 0x00000000#32),
    StableHlo.unary main_cst_4 main_v24 (broadcastInDim S50000x128 ![] bcast_S_S50000x128 : (⟨S_, .f32⟩ : BufTy).Contents (Elt F) → (⟨S50000x128, .f32⟩ : BufTy).Contents (Elt F)),
    StableHlo.unary main_v4 main_v25 (broadcastInDim S800000x1 ![0] bcast_S800000_S800000x1_0 : (⟨S800000, .i32⟩ : BufTy).Contents (Elt F) → (⟨S800000x1, .i32⟩ : BufTy).Contents (Elt F)),
    StableHlo.ternary main_v24 main_v25 main_v23 main_v26 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_5 (constant S_ .f32 0x3F800000#32),
    StableHlo.unary main_cst_5 main_v27 (broadcastInDim S50000 ![] bcast_S_S50000 : (⟨S_, .f32⟩ : BufTy).Contents (Elt F) → (⟨S50000, .f32⟩ : BufTy).Contents (Elt F)),
    StableHlo.binary main_v10 main_v27 main_v28 (maximumf : (⟨S50000, .f32⟩ : BufTy).Contents (Elt F) → (⟨S50000, .f32⟩ : BufTy).Contents (Elt F) → (⟨S50000, .f32⟩ : BufTy).Contents (Elt F)),
    StableHlo.unary main_v28 main_v29 (Host.rsqrt : (⟨S50000, .f32⟩ : BufTy).Contents (Elt F) → (⟨S50000, .f32⟩ : BufTy).Contents (Elt F)),
    StableHlo.unary main_v29 main_v30 (broadcastInDim S50000x1 ![0] bcast_S50000_S50000x1_0 : (⟨S50000, .f32⟩ : BufTy).Contents (Elt F) → (⟨S50000x1, .f32⟩ : BufTy).Contents (Elt F)),
    StableHlo.unary main_v30 main_v31 (broadcastInDim S50000x128 ![0, 1] bcast_S50000x1_S50000x128_0_1 : (⟨S50000x1, .f32⟩ : BufTy).Contents (Elt F) → (⟨S50000x128, .f32⟩ : BufTy).Contents (Elt F)),
    StableHlo.binary main_v26 main_v31 main_v32 (mulf : (⟨S50000x128, .f32⟩ : BufTy).Contents (Elt F) → (⟨S50000x128, .f32⟩ : BufTy).Contents (Elt F) → (⟨S50000x128, .f32⟩ : BufTy).Contents (Elt F)),
    StableHlo.unary main_arg3 main_v33 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v33 main_v34 rfl shapeCasts_S1x128x128_S128x128,
    StableHlo.binary main_v32 main_v34 main_v35 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v36 ((extractStridedSlice S1x128 ![0, 0] · slices_S3x128_S1x128_0_0) : (⟨S3x128, .f32⟩ : BufTy).Contents (Elt F) → (⟨S1x128, .f32⟩ : BufTy).Contents (Elt F)),
    StableHlo.reshape main_v36 main_v37 rfl shapeCasts_S1x128_S128,
    StableHlo.unary main_v37 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S50000x128 ![0, 1] bcast_S1x128_S50000x128_0_1 : (⟨S1x128, .f32⟩ : BufTy).Contents (Elt F) → (⟨S50000x128, .f32⟩ : BufTy).Contents (Elt F)),
    StableHlo.binary main_v35 main_v39 main_v40 (addf : (⟨S50000x128, .f32⟩ : BufTy).Contents (Elt F) → (⟨S50000x128, .f32⟩ : BufTy).Contents (Elt F) → (⟨S50000x128, .f32⟩ : BufTy).Contents (Elt F)),
    StableHlo.unary main_arg1 main_v41 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v41 main_v42 rfl shapeCasts_S1x800000_S800000,
    StableHlo.unary main_arg2 main_v43 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v43 main_v44 rfl shapeCasts_S1x800000_S800000,
    StableHlo.nullary main_cst_6 (constant S_ .f32 0x00000000#32),
    StableHlo.unary main_cst_6 main_v45 (broadcastInDim S50000 ![] bcast_S_S50000 : (⟨S_, .f32⟩ : BufTy).Contents (Elt F) → (⟨S50000, .f32⟩ : BufTy).Contents (Elt F)),
    StableHlo.unary main_v42 main_v46 (broadcastInDim S800000x1 ![0] bcast_S800000_S800000x1_0 : (⟨S800000, .i32⟩ : BufTy).Contents (Elt F) → (⟨S800000x1, .i32⟩ : BufTy).Contents (Elt F)),
    StableHlo.ternary main_v45 main_v46 main_v0 main_v47 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_7 (constant S_ .f32 0x00000000#32),
    StableHlo.unary main_cst_7 main_v48 (broadcastInDim S50000 ![] bcast_S_S50000 : (⟨S_, .f32⟩ : BufTy).Contents (Elt F) → (⟨S50000, .f32⟩ : BufTy).Contents (Elt F)),
    StableHlo.unary main_v44 main_v49 (broadcastInDim S800000x1 ![0] bcast_S800000_S800000x1_0 : (⟨S800000, .i32⟩ : BufTy).Contents (Elt F) → (⟨S800000x1, .i32⟩ : BufTy).Contents (Elt F)) ]

/-- The window is that line. -/
theorem part0_eq (c : Dev nD) : main_part0 (F := F) c = seq (w0_0 (F := F)) := rfl

end Cert.ReferenceIdeal.RefRun

end
-- ==== Proof.RefRunW1.lean ====
/- Statements 61 … 120 of the reference's @main (its window 1) as a list of host operations: the window is the
   straight line `seq` of the list, by unfolding. A call to @leaky_relu stands as the seven operations of its body (the last the select of
   the @_where it calls) over that call's buffers. Where a graph-conv layer ends inside the window the list is given in two pieces. -/
import proofs.«165758_j22333829939343_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 1, the part in layer 0 (60 operations). -/
def w1_0 : List (HloOp τ sig (Elt F)) :=
  [ StableHlo.ternary main_v48 main_v49 main_v0 main_v50 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_8 (constant S_ .f32 0x3F800000#32),
    StableHlo.unary main_cst_8 main_v51 (broadcastInDim S50000 ![] bcast_S_S50000 : (⟨S_, .f32⟩ : BufTy).Contents (Elt F) → (⟨S50000, .f32⟩ : BufTy).Contents (Elt F)),
    StableHlo.binary main_v47 main_v51 main_v52 (maximumf : (⟨S50000, .f32⟩ : BufTy).Contents (Elt F) → (⟨S50000, .f32⟩ : BufTy).Contents (Elt F) → (⟨S50000, .f32⟩ : BufTy).Contents (Elt F)),
    StableHlo.unary main_v52 main_v53 (Host.rsqrt : (⟨S50000, .f32⟩ : BufTy).Contents (Elt F) → (⟨S50000, .f32⟩ : BufTy).Contents (Elt F)),
    StableHlo.unary main_v53 main_v54 (broadcastInDim S50000x1 ![0] bcast_S50000_S50000x1_0 : (⟨S50000, .f32⟩ : BufTy).Contents (Elt F) → (⟨S50000x1, .f32⟩ : BufTy).Contents (Elt F)),
    StableHlo.unary main_v54 main_v55 (broadcastInDim S50000x128 ![0, 1] bcast_S50000x1_S50000x128_0_1 : (⟨S50000x1, .f32⟩ : BufTy).Contents (Elt F) → (⟨S50000x128, .f32⟩ : BufTy).Contents (Elt F)),
    StableHlo.binary main_arg0 main_v55 main_v56 (mulf : (⟨S50000x128, .f32⟩ : BufTy).Contents (Elt F) → (⟨S50000x128, .f32⟩ : BufTy).Contents (Elt F) → (⟨S50000x128, .f32⟩ : BufTy).Contents (Elt F)),
    StableHlo.nullary main_c_9 (constantI S_ 32 0#32),
    StableHlo.unary main_c_9 main_v57 (broadcastInDim S800000 ![] bcast_S_S800000 : (⟨S_, .i32⟩ : BufTy).Contents (Elt F) → (⟨S800000, .i32⟩ : BufTy).Contents (Elt F)),
    StableHlo.binary main_v42 main_v57 main_v58 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v59 (broadcastInDim S800000 ![] bcast_S_S800000 : (⟨S_, .i32⟩ : BufTy).Contents (Elt F) → (⟨S800000, .i32⟩ : BufTy).Contents (Elt F)),
    StableHlo.binary main_v42 main_v59 main_v60 (addi : (⟨S800000, .i32⟩ : BufTy).Contents (Elt F) → (⟨S800000, .i32⟩ : BufTy).Contents (Elt F) → (⟨S800000, .i32⟩ : BufTy).Contents (Elt F)),
    StableHlo.ternary main_v58 main_v60 main_v42 main_v61 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v61 main_v62 (broadcastInDim S800000x1 ![0] bcast_S800000_S800000x1_0 : (⟨S800000, .i32⟩ : BufTy).Contents (Elt F) → (⟨S800000x1, .i32⟩ : BufTy).Contents (Elt F)),
    StableHlo.binary main_v56 main_v62 main_v63 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_11 (constant S_ .f32 0x00000000#32),
    StableHlo.unary main_cst_11 main_v64 (broadcastInDim S50000x128 ![] bcast_S_S50000x128 : (⟨S_, .f32⟩ : BufTy).Contents (Elt F) → (⟨S50000x128, .f32⟩ : BufTy).Contents (Elt F)),
    StableHlo.unary main_v44 main_v65 (broadcastInDim S800000x1 ![0] bcast_S800000_S800000x1_0 : (⟨S800000, .i32⟩ : BufTy).Contents (Elt F) → (⟨S800000x1, .i32⟩ : BufTy).Contents (Elt F)),
    StableHlo.ternary main_v64 main_v65 main_v63 main_v66 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_12 (constant S_ .f32 0x3F800000#32),
    StableHlo.unary main_cst_12 main_v67 (broadcastInDim S50000 ![] bcast_S_S50000 : (⟨S_, .f32⟩ : BufTy).Contents (Elt F) → (⟨S50000, .f32⟩ : BufTy).Contents (Elt F)),
    StableHlo.binary main_v50 main_v67 main_v68 (maximumf : (⟨S50000, .f32⟩ : BufTy).Contents (Elt F) → (⟨S50000, .f32⟩ : BufTy).Contents (Elt F) → (⟨S50000, .f32⟩ : BufTy).Contents (Elt F)),
    StableHlo.unary main_v68 main_v69 (Host.rsqrt : (⟨S50000, .f32⟩ : BufTy).Contents (Elt F) → (⟨S50000, .f32⟩ : BufTy).Contents (Elt F)),
    StableHlo.unary main_v69 main_v70 (broadcastInDim S50000x1 ![0] bcast_S50000_S50000x1_0 : (⟨S50000, .f32⟩ : BufTy).Contents (Elt F) → (⟨S50000x1, .f32⟩ : BufTy).Contents (Elt F)),
    StableHlo.unary main_v70 main_v71 (broadcastInDim S50000x128 ![0, 1] bcast_S50000x1_S50000x128_0_1 : (⟨S50000x1, .f32⟩ : BufTy).Contents (Elt F) → (⟨S50000x128, .f32⟩ : BufTy).Contents (Elt F)),
    StableHlo.binary main_v66 main_v71 main_v72 (mulf : (⟨S50000x128, .f32⟩ : BufTy).Contents (Elt F) → (⟨S50000x128, .f32⟩ : BufTy).Contents (Elt F) → (⟨S50000x128, .f32⟩ : BufTy).Contents (Elt F)),
    StableHlo.unary main_arg3 main_v73 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v73 main_v74 rfl shapeCasts_S1x128x128_S128x128,
    StableHlo.binary main_v72 main_v74 main_v75 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v76 ((extractStridedSlice S1x128 ![1, 0] · slices_S3x128_S1x128_1_0) : (⟨S3x128, .f32⟩ : BufTy).Contents (Elt F) → (⟨S1x128, .f32⟩ : BufTy).Contents (Elt F)),
    StableHlo.reshape main_v76 main_v77 rfl shapeCasts_S1x128_S128,
    StableHlo.unary main_v77 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S50000x128 ![0, 1] bcast_S1x128_S50000x128_0_1 : (⟨S1x128, .f32⟩ : BufTy).Contents (Elt F) → (⟨S50000x128, .f32⟩ : BufTy).Contents (Elt F)),
    StableHlo.binary main_v75 main_v79 main_v80 (addf : (⟨S50000x128, .f32⟩ : BufTy).Contents (Elt F) → (⟨S50000x128, .f32⟩ : BufTy).Contents (Elt F) → (⟨S50000x128, .f32⟩ : BufTy).Contents (Elt F)),
    StableHlo.unary main_arg1 main_v81 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v81 main_v82 rfl shapeCasts_S1x800000_S800000,
    StableHlo.unary main_arg2 main_v83 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v83 main_v84 rfl shapeCasts_S1x800000_S800000,
    StableHlo.nullary main_cst_13 (constant S_ .f32 0x00000000#32),
    StableHlo.unary main_cst_13 main_v85 (broadcastInDim S50000 ![] bcast_S_S50000 : (⟨S_, .f32⟩ : BufTy).Contents (Elt F) → (⟨S50000, .f32⟩ : BufTy).Contents (Elt F)),
    StableHlo.unary main_v82 main_v86 (broadcastInDim S800000x1 ![0] bcast_S800000_S800000x1_0 : (⟨S800000, .i32⟩ : BufTy).Contents (Elt F) → (⟨S800000x1, .i32⟩ : BufTy).Contents (Elt F)),
    StableHlo.ternary main_v85 main_v86 main_v0 main_v87 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_14 (constant S_ .f32 0x00000000#32),
    StableHlo.unary main_cst_14 main_v88 (broadcastInDim S50000 ![] bcast_S_S50000 : (⟨S_, .f32⟩ : BufTy).Contents (Elt F) → (⟨S50000, .f32⟩ : BufTy).Contents (Elt F)),
    StableHlo.unary main_v84 main_v89 (broadcastInDim S800000x1 ![0] bcast_S800000_S800000x1_0 : (⟨S800000, .i32⟩ : BufTy).Contents (Elt F) → (⟨S800000x1, .i32⟩ : BufTy).Contents (Elt F)),
    StableHlo.ternary main_v88 main_v89 main_v0 main_v90 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_15 (constant S_ .f32 0x3F800000#32),
    StableHlo.unary main_cst_15 main_v91 (broadcastInDim S50000 ![] bcast_S_S50000 : (⟨S_, .f32⟩ : BufTy).Contents (Elt F) → (⟨S50000, .f32⟩ : BufTy).Contents (Elt F)),
    StableHlo.binary main_v87 main_v91 main_v92 (maximumf : (⟨S50000, .f32⟩ : BufTy).Contents (Elt F) → (⟨S50000, .f32⟩ : BufTy).Contents (Elt F) → (⟨S50000, .f32⟩ : BufTy).Contents (Elt F)),
    StableHlo.unary main_v92 main_v93 (Host.rsqrt : (⟨S50000, .f32⟩ : BufTy).Contents (Elt F) → (⟨S50000, .f32⟩ : BufTy).Contents (Elt F)),
    StableHlo.unary main_v93 main_v94 (broadcastInDim S50000x1 ![0] bcast_S50000_S50000x1_0 : (⟨S50000, .f32⟩ : BufTy).Contents (Elt F) → (⟨S50000x1, .f32⟩ : BufTy).Contents (Elt F)),
    StableHlo.unary main_v94 main_v95 (broadcastInDim S50000x128 ![0, 1] bcast_S50000x1_S50000x128_0_1 : (⟨S50000x1, .f32⟩ : BufTy).Contents (Elt F) → (⟨S50000x128, .f32⟩ : BufTy).Contents (Elt F)),
    StableHlo.binary main_arg0 main_v95 main_v96 (mulf : (⟨S50000x128, .f32⟩ : BufTy).Contents (Elt F) → (⟨S50000x128, .f32⟩ : BufTy).Contents (Elt F) → (⟨S50000x128, .f32⟩ : BufTy).Contents (Elt F)),
    StableHlo.nullary main_c_16 (constantI S_ 32 0#32),
    StableHlo.unary main_c_16 main_v97 (broadcastInDim S800000 ![] bcast_S_S800000 : (⟨S_, .i32⟩ : BufTy).Contents (Elt F) → (⟨S800000, .i32⟩ : BufTy).Contents (Elt F)),
    StableHlo.binary main_v82 main_v97 main_v98 (cmpi .slt : (⟨S800000, .i32⟩ : BufTy).Contents (Elt F) → (⟨S800000, .i32⟩ : BufTy).Contents (Elt F) → (⟨S800000, .i1⟩ : BufTy).Contents (Elt F)),
    StableHlo.nullary main_c_17 (constantI S_ 32 50000#32),
    StableHlo.unary main_c_17 main_v99 (broadcastInDim S800000 ![] bcast_S_S800000 : (⟨S_, .i32⟩ : BufTy).Contents (Elt F) → (⟨S800000, .i32⟩ : BufTy).Contents (Elt F)) ]

/-- The window is that line. -/
theorem part1_eq (c : Dev nD) : main_part1 (F := F) c = seq (w1_0 (F := F)) := rfl

end Cert.ReferenceIdeal.RefRun

end
-- ==== Proof.RefRunW2.lean ====
/- Statements 121 … 180 of the reference's @main (its window 2) as a list of host operations: the window is the
   straight line `seq` of the list, by unfolding. A call to @leaky_relu stands as the seven operations of its body (the last the select of
   the @_where it calls) over that call's buffers. Where a graph-conv layer ends inside the window the list is given in two pieces. -/
import proofs.«165758_j22333829939343_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 2, the part in layer 0 (40 operations). -/
def w2_0 : List (HloOp τ sig (Elt F)) :=
  [ StableHlo.binary main_v82 main_v99 main_v100 (addi : (⟨S800000, .i32⟩ : BufTy).Contents (Elt F) → (⟨S800000, .i32⟩ : BufTy).Contents (Elt F) → (⟨S800000, .i32⟩ : BufTy).Contents (Elt F)),
    StableHlo.ternary main_v98 main_v100 main_v82 main_v101 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v101 main_v102 (broadcastInDim S800000x1 ![0] bcast_S800000_S800000x1_0 : (⟨S800000, .i32⟩ : BufTy).Contents (Elt F) → (⟨S800000x1, .i32⟩ : BufTy).Contents (Elt F)),
    StableHlo.binary main_v96 main_v102 main_v103 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_18 (constant S_ .f32 0x00000000#32),
    StableHlo.unary main_cst_18 main_v104 (broadcastInDim S50000x128 ![] bcast_S_S50000x128 : (⟨S_, .f32⟩ : BufTy).Contents (Elt F) → (⟨S50000x128, .f32⟩ : BufTy).Contents (Elt F)),
    StableHlo.unary main_v84 main_v105 (broadcastInDim S800000x1 ![0] bcast_S800000_S800000x1_0 : (⟨S800000, .i32⟩ : BufTy).Contents (Elt F) → (⟨S800000x1, .i32⟩ : BufTy).Contents (Elt F)),
    StableHlo.ternary main_v104 main_v105 main_v103 main_v106 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_19 (constant S_ .f32 0x3F800000#32),
    StableHlo.unary main_cst_19 main_v107 (broadcastInDim S50000 ![] bcast_S_S50000 : (⟨S_, .f32⟩ : BufTy).Contents (Elt F) → (⟨S50000, .f32⟩ : BufTy).Contents (Elt F)),
    StableHlo.binary main_v90 main_v107 main_v108 (maximumf : (⟨S50000, .f32⟩ : BufTy).Contents (Elt F) → (⟨S50000, .f32⟩ : BufTy).Contents (Elt F) → (⟨S50000, .f32⟩ : BufTy).Contents (Elt F)),
    StableHlo.unary main_v108 main_v109 (Host.rsqrt : (⟨S50000, .f32⟩ : BufTy).Contents (Elt F) → (⟨S50000, .f32⟩ : BufTy).Contents (Elt F)),
    StableHlo.unary main_v109 main_v110 (broadcastInDim S50000x1 ![0] bcast_S50000_S50000x1_0 : (⟨S50000, .f32⟩ : BufTy).Contents (Elt F) → (⟨S50000x1, .f32⟩ : BufTy).Contents (Elt F)),
    StableHlo.unary main_v110 main_v111 (broadcastInDim S50000x128 ![0, 1] bcast_S50000x1_S50000x128_0_1 : (⟨S50000x1, .f32⟩ : BufTy).Contents (Elt F) → (⟨S50000x128, .f32⟩ : BufTy).Contents (Elt F)),
    StableHlo.binary main_v106 main_v111 main_v112 (mulf : (⟨S50000x128, .f32⟩ : BufTy).Contents (Elt F) → (⟨S50000x128, .f32⟩ : BufTy).Contents (Elt F) → (⟨S50000x128, .f32⟩ : BufTy).Contents (Elt F)),
    StableHlo.unary main_arg3 main_v113 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v113 main_v114 rfl shapeCasts_S1x128x128_S128x128,
    StableHlo.binary main_v112 main_v114 main_v115 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v116 ((extractStridedSlice S1x128 ![2, 0] · slices_S3x128_S1x128_2_0) : (⟨S3x128, .f32⟩ : BufTy).Contents (Elt F) → (⟨S1x128, .f32⟩ : BufTy).Contents (Elt F)),
    StableHlo.reshape main_v116 main_v117 rfl shapeCasts_S1x128_S128,
    StableHlo.unary main_v117 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S50000x128 ![0, 1] bcast_S1x128_S50000x128_0_1 : (⟨S1x128, .f32⟩ : BufTy).Contents (Elt F) → (⟨S50000x128, .f32⟩ : BufTy).Contents (Elt F)),
    StableHlo.binary main_v115 main_v119 main_v120 (addf : (⟨S50000x128, .f32⟩ : BufTy).Contents (Elt F) → (⟨S50000x128, .f32⟩ : BufTy).Contents (Elt F) → (⟨S50000x128, .f32⟩ : BufTy).Contents (Elt F)),
    StableHlo.unary main_v40 main_v121 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v80 main_v122 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v120 main_v123 (broadcastInDim S1x50000x128 ![1, 2] bcast_S50000x128_S1x50000x128_1_2 : (⟨S50000x128, .f32⟩ : BufTy).Contents (Elt F) → (⟨S1x50000x128, .f32⟩ : BufTy).Contents (Elt F)),
    StableHlo.nary ![main_v121, main_v122, main_v123] main_v124 (fun u => concatenate S3x50000x128 0 [⟨S1x50000x128, u 0⟩, ⟨S1x50000x128, u 1⟩, ⟨S1x50000x128, u 2⟩] concatenates_S1x50000x128_S1x50000x128_S1x50000x128_S3x50000x128_d0),
    StableHlo.nullary main_cst_20 (constant S_ .f32 0x00000000#32),
    StableHlo.binary main_v124 main_cst_20 main_v125 ((fun x v => Host.reduceAdd x v reducesTo_S3x50000x128_S50000x128_d0 h_S_) : (⟨S3x50000x128, .f32⟩ : BufTy).Contents (Elt F) → (⟨S_, .f32⟩ : BufTy).Contents (Elt F) → (⟨S50000x128, .f32⟩ : BufTy).Contents (Elt F)),
    StableHlo.nullary main_cst_21 (constant S_ .f32 0x40400000#32),
    StableHlo.unary main_cst_21 main_v126 (broadcastInDim S50000x128 ![] bcast_S_S50000x128 : (⟨S_, .f32⟩ : BufTy).Contents (Elt F) → (⟨S50000x128, .f32⟩ : BufTy).Contents (Elt F)),
    StableHlo.binary main_v125 main_v126 main_v127 (Host.divf : (⟨S50000x128, .f32⟩ : BufTy).Contents (Elt F) → (⟨S50000x128, .f32⟩ : BufTy).Contents (Elt F) → (⟨S50000x128, .f32⟩ : BufTy).Contents (Elt F)),
    StableHlo.nullary main_cst_22 (constant S_ .f32 0x3C23D70A#32),
    TRef.nullary main_call0.cst (constant S_ .f32 0x00000000#32),
    TRef.unary main_call0.cst main_call0.v0 (broadcastInDim S50000x128 ![] bcast_S_S50000x128),
    TRef.binary (.of main_v127) main_call0.v0 main_call0.v1 (cmpf .oge),
    TRef.unary (.of main_cst_22) main_call0.v2 id,
    TRef.unary main_call0.v2 main_call0.v3 (broadcastInDim S50000x128 ![] bcast_S_S50000x128),
    TRef.binary main_call0.v3 (.of main_v127) main_call0.v4 mulf,
    TRef.ternary main_call0.v1 (.of main_v127) main_call0.v4 main_call0.call0.v0 select ]

/-- Window 2, the part in layer 1 (26 operations). -/
def w2_1 : List (HloOp τ sig (Elt F)) :=
  [ StableHlo.unary main_arg5 main_v129 ((extractStridedSlice S1x3x128x128 ![0, 0, 0, 0] · slices_S4x3x128x128_S1x3x128x128_0_0_0_0) : (⟨S4x3x128x128, .f32⟩ : BufTy).Contents (Elt F) → (⟨S1x3x128x128, .f32⟩ : BufTy).Contents (Elt F)),
    StableHlo.reshape main_v129 main_v130 rfl shapeCasts_S1x3x128x128_S3x128x128,
    StableHlo.unary main_arg6 main_v131 ((extractStridedSlice S1x3x128 ![0, 0, 0] · slices_S4x3x128_S1x3x128_0_0_0) : (⟨S4x3x128, .f32⟩ : BufTy).Contents (Elt F) → (⟨S1x3x128, .f32⟩ : BufTy).Contents (Elt F)),
    StableHlo.reshape main_v131 main_v132 rfl shapeCasts_S1x3x128_S3x128,
    StableHlo.nullary main_cst_23 (constant S_ .f32 0x3F800000#32),
    StableHlo.unary main_cst_23 main_v133 (broadcastInDim S800000 ![] bcast_S_S800000 : (⟨S_, .f32⟩ : BufTy).Contents (Elt F) → (⟨S800000, .f32⟩ : BufTy).Contents (Elt F)),
    StableHlo.unary main_arg1 main_v134 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v134 main_v135 rfl shapeCasts_S1x800000_S800000,
    StableHlo.unary main_arg2 main_v136 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v136 main_v137 rfl shapeCasts_S1x800000_S800000,
    StableHlo.nullary main_cst_24 (constant S_ .f32 0x00000000#32),
    StableHlo.unary main_cst_24 main_v138 (broadcastInDim S50000 ![] bcast_S_S50000 : (⟨S_, .f32⟩ : BufTy).Contents (Elt F) → (⟨S50000, .f32⟩ : BufTy).Contents (Elt F)),
    StableHlo.unary main_v135 main_v139 (broadcastInDim S800000x1 ![0] bcast_S800000_S800000x1_0 : (⟨S800000, .i32⟩ : BufTy).Contents (Elt F) → (⟨S800000x1, .i32⟩ : BufTy).Contents (Elt F)),
    StableHlo.ternary main_v138 main_v139 main_v133 main_v140 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_25 (constant S_ .f32 0x00000000#32),
    StableHlo.unary main_cst_25 main_v141 (broadcastInDim S50000 ![] bcast_S_S50000 : (⟨S_, .f32⟩ : BufTy).Contents (Elt F) → (⟨S50000, .f32⟩ : BufTy).Contents (Elt F)),
    StableHlo.unary main_v137 main_v142 (broadcastInDim S800000x1 ![0] bcast_S800000_S800000x1_0 : (⟨S800000, .i32⟩ : BufTy).Contents (Elt F) → (⟨S800000x1, .i32⟩ : BufTy).Contents (Elt F)),
    StableHlo.ternary main_v141 main_v142 main_v133 main_v143 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_26 (constant S_ .f32 0x3F800000#32),
    StableHlo.unary main_cst_26 main_v144 (broadcastInDim S50000 ![] bcast_S_S50000 : (⟨S_, .f32⟩ : BufTy).Contents (Elt F) → (⟨S50000, .f32⟩ : BufTy).Contents (Elt F)),
    StableHlo.binary main_v140 main_v144 main_v145 (maximumf : (⟨S50000, .f32⟩ : BufTy).Contents (Elt F) → (⟨S50000, .f32⟩ : BufTy).Contents (Elt F) → (⟨S50000, .f32⟩ : BufTy).Contents (Elt F)),
    StableHlo.unary main_v145 main_v146 (Host.rsqrt : (⟨S50000, .f32⟩ : BufTy).Contents (Elt F) → (⟨S50000, .f32⟩ : BufTy).Contents (Elt F)),
    StableHlo.unary main_v146 main_v147 (broadcastInDim S50000x1 ![0] bcast_S50000_S50000x1_0 : (⟨S50000, .f32⟩ : BufTy).Contents (Elt F) → (⟨S50000x1, .f32⟩ : BufTy).Contents (Elt F)),
    StableHlo.unary main_v147 main_v148 (broadcastInDim S50000x128 ![0, 1] bcast_S50000x1_S50000x128_0_1 : (⟨S50000x1, .f32⟩ : BufTy).Contents (Elt F) → (⟨S50000x128, .f32⟩ : BufTy).Contents (Elt F)),
    StableHlo.binary main_v128 main_v148 main_v149 (mulf : (⟨S50000x128, .f32⟩ : BufTy).Contents (Elt F) → (⟨S50000x128, .f32⟩ : BufTy).Contents (Elt F) → (⟨S50000x128, .f32⟩ : BufTy).Contents (Elt F)),
    StableHlo.nullary main_c_27 (constantI S_ 32 0#32) ]

/-- The window is that line. -/
theorem part2_eq (c : Dev nD) : main_part2 (F := F) c = seq (w2_0 (F := F) ++ w2_1 (F := F)) := rfl

end Cert.ReferenceIdeal.RefRun

end
-- ==== Proof.RefRunL0.lean ====
/- Graph-conv layer 0 of the reference as ONE list of host operations (160), ending with the operation that writes `main_v128`:
   the concatenation of the window pieces it spans; every operation touches TensorCore references only and allocates nothing;
   the list of the references it writes, none of them an argument of @main. -/
import proofs.«165758_j22333829939343_1_alg».proof.Proof.RefRunW0
import proofs.«165758_j22333829939343_1_alg».proof.Proof.RefRunW1
import proofs.«165758_j22333829939343_1_alg».proof.Proof.RefRunW2
import proofs.«165758_j22333829939343_1_alg».proof.Proof.LibKeeps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The layer's operations, in order. -/
abbrev opsL0 : List (HloOp τ sig (Elt F)) :=
  [ StableHlo.nullary main_cst (constant S_ .f32 0x3F800000#32),
    StableHlo.unary main_cst main_v0 (broadcastInDim S800000 ![] bcast_S_S800000 : (⟨S_, .f32⟩ : BufTy).Contents (Elt F) → (⟨S800000, .f32⟩ : BufTy).Contents (Elt F)),
    StableHlo.unary main_arg1 main_v1 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v1 main_v2 rfl shapeCasts_S1x800000_S800000,
    StableHlo.unary main_arg2 main_v3 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v3 main_v4 rfl shapeCasts_S1x800000_S800000,
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v2 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v0 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x00000000#32),
    StableHlo.unary main_cst_1 main_v8 (broadcastInDim S50000 ![] bcast_S_S50000 : (⟨S_, .f32⟩ : BufTy).Contents (Elt F) → (⟨S50000, .f32⟩ : BufTy).Contents (Elt F)),
    StableHlo.unary main_v4 main_v9 (broadcastInDim S800000x1 ![0] bcast_S800000_S800000x1_0 : (⟨S800000, .i32⟩ : BufTy).Contents (Elt F) → (⟨S800000x1, .i32⟩ : BufTy).Contents (Elt F)),
    StableHlo.ternary main_v8 main_v9 main_v0 main_v10 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_2 (constant S_ .f32 0x3F800000#32),
    StableHlo.unary main_cst_2 main_v11 (broadcastInDim S50000 ![] bcast_S_S50000 : (⟨S_, .f32⟩ : BufTy).Contents (Elt F) → (⟨S50000, .f32⟩ : BufTy).Contents (Elt F)),
    StableHlo.binary main_v7 main_v11 main_v12 (maximumf : (⟨S50000, .f32⟩ : BufTy).Contents (Elt F) → (⟨S50000, .f32⟩ : BufTy).Contents (Elt F) → (⟨S50000, .f32⟩ : BufTy).Contents (Elt F)),
    StableHlo.unary main_v12 main_v13 (Host.rsqrt : (⟨S50000, .f32⟩ : BufTy).Contents (Elt F) → (⟨S50000, .f32⟩ : BufTy).Contents (Elt F)),
    StableHlo.unary main_v13 main_v14 (broadcastInDim S50000x1 ![0] bcast_S50000_S50000x1_0 : (⟨S50000, .f32⟩ : BufTy).Contents (Elt F) → (⟨S50000x1, .f32⟩ : BufTy).Contents (Elt F)),
    StableHlo.unary main_v14 main_v15 (broadcastInDim S50000x128 ![0, 1] bcast_S50000x1_S50000x128_0_1 : (⟨S50000x1, .f32⟩ : BufTy).Contents (Elt F) → (⟨S50000x128, .f32⟩ : BufTy).Contents (Elt F)),
    StableHlo.binary main_arg0 main_v15 main_v16 (mulf : (⟨S50000x128, .f32⟩ : BufTy).Contents (Elt F) → (⟨S50000x128, .f32⟩ : BufTy).Contents (Elt F) → (⟨S50000x128, .f32⟩ : BufTy).Contents (Elt F)),
    StableHlo.nullary main_c (constantI S_ 32 0#32),
    StableHlo.unary main_c main_v17 (broadcastInDim S800000 ![] bcast_S_S800000 : (⟨S_, .i32⟩ : BufTy).Contents (Elt F) → (⟨S800000, .i32⟩ : BufTy).Contents (Elt F)),
    StableHlo.binary main_v2 main_v17 main_v18 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v19 (broadcastInDim S800000 ![] bcast_S_S800000 : (⟨S_, .i32⟩ : BufTy).Contents (Elt F) → (⟨S800000, .i32⟩ : BufTy).Contents (Elt F)),
    StableHlo.binary main_v2 main_v19 main_v20 (addi : (⟨S800000, .i32⟩ : BufTy).Contents (Elt F) → (⟨S800000, .i32⟩ : BufTy).Contents (Elt F) → (⟨S800000, .i32⟩ : BufTy).Contents (Elt F)),
    StableHlo.ternary main_v18 main_v20 main_v2 main_v21 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v21 main_v22 (broadcastInDim S800000x1 ![0] bcast_S800000_S800000x1_0 : (⟨S800000, .i32⟩ : BufTy).Contents (Elt F) → (⟨S800000x1, .i32⟩ : BufTy).Contents (Elt F)),
    StableHlo.binary main_v16 main_v22 main_v23 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_4 (constant S_ .f32 0x00000000#32),
    StableHlo.unary main_cst_4 main_v24 (broadcastInDim S50000x128 ![] bcast_S_S50000x128 : (⟨S_, .f32⟩ : BufTy).Contents (Elt F) → (⟨S50000x128, .f32⟩ : BufTy).Contents (Elt F)),
    StableHlo.unary main_v4 main_v25 (broadcastInDim S800000x1 ![0] bcast_S800000_S800000x1_0 : (⟨S800000, .i32⟩ : BufTy).Contents (Elt F) → (⟨S800000x1, .i32⟩ : BufTy).Contents (Elt F)),
    StableHlo.ternary main_v24 main_v25 main_v23 main_v26 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_5 (constant S_ .f32 0x3F800000#32),
    StableHlo.unary main_cst_5 main_v27 (broadcastInDim S50000 ![] bcast_S_S50000 : (⟨S_, .f32⟩ : BufTy).Contents (Elt F) → (⟨S50000, .f32⟩ : BufTy).Contents (Elt F)),
    StableHlo.binary main_v10 main_v27 main_v28 (maximumf : (⟨S50000, .f32⟩ : BufTy).Contents (Elt F) → (⟨S50000, .f32⟩ : BufTy).Contents (Elt F) → (⟨S50000, .f32⟩ : BufTy).Contents (Elt F)),
    StableHlo.unary main_v28 main_v29 (Host.rsqrt : (⟨S50000, .f32⟩ : BufTy).Contents (Elt F) → (⟨S50000, .f32⟩ : BufTy).Contents (Elt F)),
    StableHlo.unary main_v29 main_v30 (broadcastInDim S50000x1 ![0] bcast_S50000_S50000x1_0 : (⟨S50000, .f32⟩ : BufTy).Contents (Elt F) → (⟨S50000x1, .f32⟩ : BufTy).Contents (Elt F)),
    StableHlo.unary main_v30 main_v31 (broadcastInDim S50000x128 ![0, 1] bcast_S50000x1_S50000x128_0_1 : (⟨S50000x1, .f32⟩ : BufTy).Contents (Elt F) → (⟨S50000x128, .f32⟩ : BufTy).Contents (Elt F)),
    StableHlo.binary main_v26 main_v31 main_v32 (mulf : (⟨S50000x128, .f32⟩ : BufTy).Contents (Elt F) → (⟨S50000x128, .f32⟩ : BufTy).Contents (Elt F) → (⟨S50000x128, .f32⟩ : BufTy).Contents (Elt F)),
    StableHlo.unary main_arg3 main_v33 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v33 main_v34 rfl shapeCasts_S1x128x128_S128x128,
    StableHlo.binary main_v32 main_v34 main_v35 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v36 ((extractStridedSlice S1x128 ![0, 0] · slices_S3x128_S1x128_0_0) : (⟨S3x128, .f32⟩ : BufTy).Contents (Elt F) → (⟨S1x128, .f32⟩ : BufTy).Contents (Elt F)),
    StableHlo.reshape main_v36 main_v37 rfl shapeCasts_S1x128_S128,
    StableHlo.unary main_v37 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S50000x128 ![0, 1] bcast_S1x128_S50000x128_0_1 : (⟨S1x128, .f32⟩ : BufTy).Contents (Elt F) → (⟨S50000x128, .f32⟩ : BufTy).Contents (Elt F)),
    StableHlo.binary main_v35 main_v39 main_v40 (addf : (⟨S50000x128, .f32⟩ : BufTy).Contents (Elt F) → (⟨S50000x128, .f32⟩ : BufTy).Contents (Elt F) → (⟨S50000x128, .f32⟩ : BufTy).Contents (Elt F)),
    StableHlo.unary main_arg1 main_v41 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v41 main_v42 rfl shapeCasts_S1x800000_S800000,
    StableHlo.unary main_arg2 main_v43 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v43 main_v44 rfl shapeCasts_S1x800000_S800000,
    StableHlo.nullary main_cst_6 (constant S_ .f32 0x00000000#32),
    StableHlo.unary main_cst_6 main_v45 (broadcastInDim S50000 ![] bcast_S_S50000 : (⟨S_, .f32⟩ : BufTy).Contents (Elt F) → (⟨S50000, .f32⟩ : BufTy).Contents (Elt F)),
    StableHlo.unary main_v42 main_v46 (broadcastInDim S800000x1 ![0] bcast_S800000_S800000x1_0 : (⟨S800000, .i32⟩ : BufTy).Contents (Elt F) → (⟨S800000x1, .i32⟩ : BufTy).Contents (Elt F)),
    StableHlo.ternary main_v45 main_v46 main_v0 main_v47 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_7 (constant S_ .f32 0x00000000#32),
    StableHlo.unary main_cst_7 main_v48 (broadcastInDim S50000 ![] bcast_S_S50000 : (⟨S_, .f32⟩ : BufTy).Contents (Elt F) → (⟨S50000, .f32⟩ : BufTy).Contents (Elt F)),
    StableHlo.unary main_v44 main_v49 (broadcastInDim S800000x1 ![0] bcast_S800000_S800000x1_0 : (⟨S800000, .i32⟩ : BufTy).Contents (Elt F) → (⟨S800000x1, .i32⟩ : BufTy).Contents (Elt F)),
    StableHlo.ternary main_v48 main_v49 main_v0 main_v50 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_8 (constant S_ .f32 0x3F800000#32),
    StableHlo.unary main_cst_8 main_v51 (broadcastInDim S50000 ![] bcast_S_S50000 : (⟨S_, .f32⟩ : BufTy).Contents (Elt F) → (⟨S50000, .f32⟩ : BufTy).Contents (Elt F)),
    StableHlo.binary main_v47 main_v51 main_v52 (maximumf : (⟨S50000, .f32⟩ : BufTy).Contents (Elt F) → (⟨S50000, .f32⟩ : BufTy).Contents (Elt F) → (⟨S50000, .f32⟩ : BufTy).Contents (Elt F)),
    StableHlo.unary main_v52 main_v53 (Host.rsqrt : (⟨S50000, .f32⟩ : BufTy).Contents (Elt F) → (⟨S50000, .f32⟩ : BufTy).Contents (Elt F)),
    StableHlo.unary main_v53 main_v54 (broadcastInDim S50000x1 ![0] bcast_S50000_S50000x1_0 : (⟨S50000, .f32⟩ : BufTy).Contents (Elt F) → (⟨S50000x1, .f32⟩ : BufTy).Contents (Elt F)),
    StableHlo.unary main_v54 main_v55 (broadcastInDim S50000x128 ![0, 1] bcast_S50000x1_S50000x128_0_1 : (⟨S50000x1, .f32⟩ : BufTy).Contents (Elt F) → (⟨S50000x128, .f32⟩ : BufTy).Contents (Elt F)),
    StableHlo.binary main_arg0 main_v55 main_v56 (mulf : (⟨S50000x128, .f32⟩ : BufTy).Contents (Elt F) → (⟨S50000x128, .f32⟩ : BufTy).Contents (Elt F) → (⟨S50000x128, .f32⟩ : BufTy).Contents (Elt F)),
    StableHlo.nullary main_c_9 (constantI S_ 32 0#32),
    StableHlo.unary main_c_9 main_v57 (broadcastInDim S800000 ![] bcast_S_S800000 : (⟨S_, .i32⟩ : BufTy).Contents (Elt F) → (⟨S800000, .i32⟩ : BufTy).Contents (Elt F)),
    StableHlo.binary main_v42 main_v57 main_v58 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v59 (broadcastInDim S800000 ![] bcast_S_S800000 : (⟨S_, .i32⟩ : BufTy).Contents (Elt F) → (⟨S800000, .i32⟩ : BufTy).Contents (Elt F)),
    StableHlo.binary main_v42 main_v59 main_v60 (addi : (⟨S800000, .i32⟩ : BufTy).Contents (Elt F) → (⟨S800000, .i32⟩ : BufTy).Contents (Elt F) → (⟨S800000, .i32⟩ : BufTy).Contents (Elt F)),
    StableHlo.ternary main_v58 main_v60 main_v42 main_v61 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v61 main_v62 (broadcastInDim S800000x1 ![0] bcast_S800000_S800000x1_0 : (⟨S800000, .i32⟩ : BufTy).Contents (Elt F) → (⟨S800000x1, .i32⟩ : BufTy).Contents (Elt F)),
    StableHlo.binary main_v56 main_v62 main_v63 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_11 (constant S_ .f32 0x00000000#32),
    StableHlo.unary main_cst_11 main_v64 (broadcastInDim S50000x128 ![] bcast_S_S50000x128 : (⟨S_, .f32⟩ : BufTy).Contents (Elt F) → (⟨S50000x128, .f32⟩ : BufTy).Contents (Elt F)),
    StableHlo.unary main_v44 main_v65 (broadcastInDim S800000x1 ![0] bcast_S800000_S800000x1_0 : (⟨S800000, .i32⟩ : BufTy).Contents (Elt F) → (⟨S800000x1, .i32⟩ : BufTy).Contents (Elt F)),
    StableHlo.ternary main_v64 main_v65 main_v63 main_v66 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_12 (constant S_ .f32 0x3F800000#32),
    StableHlo.unary main_cst_12 main_v67 (broadcastInDim S50000 ![] bcast_S_S50000 : (⟨S_, .f32⟩ : BufTy).Contents (Elt F) → (⟨S50000, .f32⟩ : BufTy).Contents (Elt F)),
    StableHlo.binary main_v50 main_v67 main_v68 (maximumf : (⟨S50000, .f32⟩ : BufTy).Contents (Elt F) → (⟨S50000, .f32⟩ : BufTy).Contents (Elt F) → (⟨S50000, .f32⟩ : BufTy).Contents (Elt F)),
    StableHlo.unary main_v68 main_v69 (Host.rsqrt : (⟨S50000, .f32⟩ : BufTy).Contents (Elt F) → (⟨S50000, .f32⟩ : BufTy).Contents (Elt F)),
    StableHlo.unary main_v69 main_v70 (broadcastInDim S50000x1 ![0] bcast_S50000_S50000x1_0 : (⟨S50000, .f32⟩ : BufTy).Contents (Elt F) → (⟨S50000x1, .f32⟩ : BufTy).Contents (Elt F)),
    StableHlo.unary main_v70 main_v71 (broadcastInDim S50000x128 ![0, 1] bcast_S50000x1_S50000x128_0_1 : (⟨S50000x1, .f32⟩ : BufTy).Contents (Elt F) → (⟨S50000x128, .f32⟩ : BufTy).Contents (Elt F)),
    StableHlo.binary main_v66 main_v71 main_v72 (mulf : (⟨S50000x128, .f32⟩ : BufTy).Contents (Elt F) → (⟨S50000x128, .f32⟩ : BufTy).Contents (Elt F) → (⟨S50000x128, .f32⟩ : BufTy).Contents (Elt F)),
    StableHlo.unary main_arg3 main_v73 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v73 main_v74 rfl shapeCasts_S1x128x128_S128x128,
    StableHlo.binary main_v72 main_v74 main_v75 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v76 ((extractStridedSlice S1x128 ![1, 0] · slices_S3x128_S1x128_1_0) : (⟨S3x128, .f32⟩ : BufTy).Contents (Elt F) → (⟨S1x128, .f32⟩ : BufTy).Contents (Elt F)),
    StableHlo.reshape main_v76 main_v77 rfl shapeCasts_S1x128_S128,
    StableHlo.unary main_v77 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S50000x128 ![0, 1] bcast_S1x128_S50000x128_0_1 : (⟨S1x128, .f32⟩ : BufTy).Contents (Elt F) → (⟨S50000x128, .f32⟩ : BufTy).Contents (Elt F)),
    StableHlo.binary main_v75 main_v79 main_v80 (addf : (⟨S50000x128, .f32⟩ : BufTy).Contents (Elt F) → (⟨S50000x128, .f32⟩ : BufTy).Contents (Elt F) → (⟨S50000x128, .f32⟩ : BufTy).Contents (Elt F)),
    StableHlo.unary main_arg1 main_v81 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v81 main_v82 rfl shapeCasts_S1x800000_S800000,
    StableHlo.unary main_arg2 main_v83 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v83 main_v84 rfl shapeCasts_S1x800000_S800000,
    StableHlo.nullary main_cst_13 (constant S_ .f32 0x00000000#32),
    StableHlo.unary main_cst_13 main_v85 (broadcastInDim S50000 ![] bcast_S_S50000 : (⟨S_, .f32⟩ : BufTy).Contents (Elt F) → (⟨S50000, .f32⟩ : BufTy).Contents (Elt F)),
    StableHlo.unary main_v82 main_v86 (broadcastInDim S800000x1 ![0] bcast_S800000_S800000x1_0 : (⟨S800000, .i32⟩ : BufTy).Contents (Elt F) → (⟨S800000x1, .i32⟩ : BufTy).Contents (Elt F)),
    StableHlo.ternary main_v85 main_v86 main_v0 main_v87 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_14 (constant S_ .f32 0x00000000#32),
    StableHlo.unary main_cst_14 main_v88 (broadcastInDim S50000 ![] bcast_S_S50000 : (⟨S_, .f32⟩ : BufTy).Contents (Elt F) → (⟨S50000, .f32⟩ : BufTy).Contents (Elt F)),
    StableHlo.unary main_v84 main_v89 (broadcastInDim S800000x1 ![0] bcast_S800000_S800000x1_0 : (⟨S800000, .i32⟩ : BufTy).Contents (Elt F) → (⟨S800000x1, .i32⟩ : BufTy).Contents (Elt F)),
    StableHlo.ternary main_v88 main_v89 main_v0 main_v90 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_15 (constant S_ .f32 0x3F800000#32),
    StableHlo.unary main_cst_15 main_v91 (broadcastInDim S50000 ![] bcast_S_S50000 : (⟨S_, .f32⟩ : BufTy).Contents (Elt F) → (⟨S50000, .f32⟩ : BufTy).Contents (Elt F)),
    StableHlo.binary main_v87 main_v91 main_v92 (maximumf : (⟨S50000, .f32⟩ : BufTy).Contents (Elt F) → (⟨S50000, .f32⟩ : BufTy).Contents (Elt F) → (⟨S50000, .f32⟩ : BufTy).Contents (Elt F)),
    StableHlo.unary main_v92 main_v93 (Host.rsqrt : (⟨S50000, .f32⟩ : BufTy).Contents (Elt F) → (⟨S50000, .f32⟩ : BufTy).Contents (Elt F)),
    StableHlo.unary main_v93 main_v94 (broadcastInDim S50000x1 ![0] bcast_S50000_S50000x1_0 : (⟨S50000, .f32⟩ : BufTy).Contents (Elt F) → (⟨S50000x1, .f32⟩ : BufTy).Contents (Elt F)),
    StableHlo.unary main_v94 main_v95 (broadcastInDim S50000x128 ![0, 1] bcast_S50000x1_S50000x128_0_1 : (⟨S50000x1, .f32⟩ : BufTy).Contents (Elt F) → (⟨S50000x128, .f32⟩ : BufTy).Contents (Elt F)),
    StableHlo.binary main_arg0 main_v95 main_v96 (mulf : (⟨S50000x128, .f32⟩ : BufTy).Contents (Elt F) → (⟨S50000x128, .f32⟩ : BufTy).Contents (Elt F) → (⟨S50000x128, .f32⟩ : BufTy).Contents (Elt F)),
    StableHlo.nullary main_c_16 (constantI S_ 32 0#32),
    StableHlo.unary main_c_16 main_v97 (broadcastInDim S800000 ![] bcast_S_S800000 : (⟨S_, .i32⟩ : BufTy).Contents (Elt F) → (⟨S800000, .i32⟩ : BufTy).Contents (Elt F)),
    StableHlo.binary main_v82 main_v97 main_v98 (cmpi .slt : (⟨S800000, .i32⟩ : BufTy).Contents (Elt F) → (⟨S800000, .i32⟩ : BufTy).Contents (Elt F) → (⟨S800000, .i1⟩ : BufTy).Contents (Elt F)),
    StableHlo.nullary main_c_17 (constantI S_ 32 50000#32),
    StableHlo.unary main_c_17 main_v99 (broadcastInDim S800000 ![] bcast_S_S800000 : (⟨S_, .i32⟩ : BufTy).Contents (Elt F) → (⟨S800000, .i32⟩ : BufTy).Contents (Elt F)),
    StableHlo.binary main_v82 main_v99 main_v100 (addi : (⟨S800000, .i32⟩ : BufTy).Contents (Elt F) → (⟨S800000, .i32⟩ : BufTy).Contents (Elt F) → (⟨S800000, .i32⟩ : BufTy).Contents (Elt F)),
    StableHlo.ternary main_v98 main_v100 main_v82 main_v101 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v101 main_v102 (broadcastInDim S800000x1 ![0] bcast_S800000_S800000x1_0 : (⟨S800000, .i32⟩ : BufTy).Contents (Elt F) → (⟨S800000x1, .i32⟩ : BufTy).Contents (Elt F)),
    StableHlo.binary main_v96 main_v102 main_v103 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_18 (constant S_ .f32 0x00000000#32),
    StableHlo.unary main_cst_18 main_v104 (broadcastInDim S50000x128 ![] bcast_S_S50000x128 : (⟨S_, .f32⟩ : BufTy).Contents (Elt F) → (⟨S50000x128, .f32⟩ : BufTy).Contents (Elt F)),
    StableHlo.unary main_v84 main_v105 (broadcastInDim S800000x1 ![0] bcast_S800000_S800000x1_0 : (⟨S800000, .i32⟩ : BufTy).Contents (Elt F) → (⟨S800000x1, .i32⟩ : BufTy).Contents (Elt F)),
    StableHlo.ternary main_v104 main_v105 main_v103 main_v106 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_19 (constant S_ .f32 0x3F800000#32),
    StableHlo.unary main_cst_19 main_v107 (broadcastInDim S50000 ![] bcast_S_S50000 : (⟨S_, .f32⟩ : BufTy).Contents (Elt F) → (⟨S50000, .f32⟩ : BufTy).Contents (Elt F)),
    StableHlo.binary main_v90 main_v107 main_v108 (maximumf : (⟨S50000, .f32⟩ : BufTy).Contents (Elt F) → (⟨S50000, .f32⟩ : BufTy).Contents (Elt F) → (⟨S50000, .f32⟩ : BufTy).Contents (Elt F)),
    StableHlo.unary main_v108 main_v109 (Host.rsqrt : (⟨S50000, .f32⟩ : BufTy).Contents (Elt F) → (⟨S50000, .f32⟩ : BufTy).Contents (Elt F)),
    StableHlo.unary main_v109 main_v110 (broadcastInDim S50000x1 ![0] bcast_S50000_S50000x1_0 : (⟨S50000, .f32⟩ : BufTy).Contents (Elt F) → (⟨S50000x1, .f32⟩ : BufTy).Contents (Elt F)),
    StableHlo.unary main_v110 main_v111 (broadcastInDim S50000x128 ![0, 1] bcast_S50000x1_S50000x128_0_1 : (⟨S50000x1, .f32⟩ : BufTy).Contents (Elt F) → (⟨S50000x128, .f32⟩ : BufTy).Contents (Elt F)),
    StableHlo.binary main_v106 main_v111 main_v112 (mulf : (⟨S50000x128, .f32⟩ : BufTy).Contents (Elt F) → (⟨S50000x128, .f32⟩ : BufTy).Contents (Elt F) → (⟨S50000x128, .f32⟩ : BufTy).Contents (Elt F)),
    StableHlo.unary main_arg3 main_v113 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v113 main_v114 rfl shapeCasts_S1x128x128_S128x128,
    StableHlo.binary main_v112 main_v114 main_v115 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v116 ((extractStridedSlice S1x128 ![2, 0] · slices_S3x128_S1x128_2_0) : (⟨S3x128, .f32⟩ : BufTy).Contents (Elt F) → (⟨S1x128, .f32⟩ : BufTy).Contents (Elt F)),
    StableHlo.reshape main_v116 main_v117 rfl shapeCasts_S1x128_S128,
    StableHlo.unary main_v117 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S50000x128 ![0, 1] bcast_S1x128_S50000x128_0_1 : (⟨S1x128, .f32⟩ : BufTy).Contents (Elt F) → (⟨S50000x128, .f32⟩ : BufTy).Contents (Elt F)),
    StableHlo.binary main_v115 main_v119 main_v120 (addf : (⟨S50000x128, .f32⟩ : BufTy).Contents (Elt F) → (⟨S50000x128, .f32⟩ : BufTy).Contents (Elt F) → (⟨S50000x128, .f32⟩ : BufTy).Contents (Elt F)),
    StableHlo.unary main_v40 main_v121 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v80 main_v122 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v120 main_v123 (broadcastInDim S1x50000x128 ![1, 2] bcast_S50000x128_S1x50000x128_1_2 : (⟨S50000x128, .f32⟩ : BufTy).Contents (Elt F) → (⟨S1x50000x128, .f32⟩ : BufTy).Contents (Elt F)),
    StableHlo.nary ![main_v121, main_v122, main_v123] main_v124 (fun u => concatenate S3x50000x128 0 [⟨S1x50000x128, u 0⟩, ⟨S1x50000x128, u 1⟩, ⟨S1x50000x128, u 2⟩] concatenates_S1x50000x128_S1x50000x128_S1x50000x128_S3x50000x128_d0),
    StableHlo.nullary main_cst_20 (constant S_ .f32 0x00000000#32),
    StableHlo.binary main_v124 main_cst_20 main_v125 ((fun x v => Host.reduceAdd x v reducesTo_S3x50000x128_S50000x128_d0 h_S_) : (⟨S3x50000x128, .f32⟩ : BufTy).Contents (Elt F) → (⟨S_, .f32⟩ : BufTy).Contents (Elt F) → (⟨S50000x128, .f32⟩ : BufTy).Contents (Elt F)),
    StableHlo.nullary main_cst_21 (constant S_ .f32 0x40400000#32),
    StableHlo.unary main_cst_21 main_v126 (broadcastInDim S50000x128 ![] bcast_S_S50000x128 : (⟨S_, .f32⟩ : BufTy).Contents (Elt F) → (⟨S50000x128, .f32⟩ : BufTy).Contents (Elt F)),
    StableHlo.binary main_v125 main_v126 main_v127 (Host.divf : (⟨S50000x128, .f32⟩ : BufTy).Contents (Elt F) → (⟨S50000x128, .f32⟩ : BufTy).Contents (Elt F) → (⟨S50000x128, .f32⟩ : BufTy).Contents (Elt F)),
    StableHlo.nullary main_cst_22 (constant S_ .f32 0x3C23D70A#32),
    TRef.nullary main_call0.cst (constant S_ .f32 0x00000000#32),
    TRef.unary main_call0.cst main_call0.v0 (broadcastInDim S50000x128 ![] bcast_S_S50000x128),
    TRef.binary (.of main_v127) main_call0.v0 main_call0.v1 (cmpf .oge),
    TRef.unary (.of main_cst_22) main_call0.v2 id,
    TRef.unary main_call0.v2 main_call0.v3 (broadcastInDim S50000x128 ![] bcast_S_S50000x128),
    TRef.binary main_call0.v3 (.of main_v127) main_call0.v4 mulf,
    TRef.ternary main_call0.v1 (.of main_v127) main_call0.v4 main_call0.call0.v0 select ]

theorem opsL0_eq : (opsL0 : List (HloOp τ sig (Elt F))) = w0_0 ++ w1_0 ++ w2_0 := rfl

theorem opsL0_sub : (opsL0 : List (HloOp τ sig (Elt F))).Forall fun op => op.bufs ⊆ tcRefs τ sig :=
  ⟨nullary_bufs_sub .., unary_bufs_sub .., unary_bufs_sub .., reshape_bufs_sub .., unary_bufs_sub .., reshape_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., unary_bufs_sub .., nary_bufs_sub .., nullary_bufs_sub .., binary_bufs_sub .., nullary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

theorem opsL0_fresh : (opsL0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the layer writes: each operation's result. -/
def opsL0_W : List (Ref sig .tc) :=
  [main_cst, main_v0, main_v1, main_v2, main_v3, main_v4, main_cst_0, main_v5, main_v6, main_v7, main_cst_1, main_v8, main_v9, main_v10, main_cst_2, main_v11, main_v12, main_v13, main_v14, main_v15, main_v16, main_c, main_v17, main_v18, main_c_3, main_v19, main_v20, main_v21, main_v22, main_v23, main_cst_4, main_v24, main_v25, main_v26, main_cst_5, main_v27, main_v28, main_v29, main_v30, main_v31, main_v32, main_v33, main_v34, main_v35, main_v36, main_v37, main_v38, main_v39, main_v40, main_v41, main_v42, main_v43, main_v44, main_cst_6, main_v45, main_v46, main_v47, main_cst_7, main_v48, main_v49, main_v50, main_cst_8, main_v51, main_v52, main_v53, main_v54, main_v55, main_v56, main_c_9, main_v57, main_v58, main_c_10, main_v59, main_v60, main_v61, main_v62, main_v63, main_cst_11, main_v64, main_v65, main_v66, main_cst_12, main_v67, main_v68, main_v69, main_v70, main_v71, main_v72, main_v73, main_v74, main_v75, main_v76, main_v77, main_v78, main_v79, main_v80, main_v81, main_v82, main_v83, main_v84, main_cst_13, main_v85, main_v86, main_v87, main_cst_14, main_v88, main_v89, main_v90, main_cst_15, main_v91, main_v92, main_v93, main_v94, main_v95, main_v96, main_c_16, main_v97, main_v98, main_c_17, main_v99, main_v100, main_v101, main_v102, main_v103, main_cst_18, main_v104, main_v105, main_v106, main_cst_19, main_v107, main_v108, main_v109, main_v110, main_v111, main_v112, main_v113, main_v114, main_v115, main_v116, main_v117, main_v118, main_v119, main_v120, main_v121, main_v122, main_v123, main_v124, main_cst_20, main_v125, main_cst_21, main_v126, main_v127, main_cst_22, main_call0_cst, main_call0_v0, main_call0_v1, main_call0_v2, main_call0_v3, main_call0_v4, main_v128]

/-- Every operation of the layer writes inside that list. -/
theorem opsL0_writes : (opsL0 : List (HloOp τ sig (Elt F))).Forall fun op => op.writes ⊆ (opsL0_W.map (Proc.devRef (τ := τ) .tc)).toFinset := by
  host_writes opsL0

/-- A reference the layer does not write keeps its contents. -/
theorem opsL0_keeps (V : Valuation τ sig (Elt F)) {r : Ref sig .tc} (hr : r ∉ opsL0_W) :
    after opsL0 V (Proc.devRef .tc r) = V (Proc.devRef .tc r) :=
  after_of_writes_sub opsL0 V opsL0_writes hr

end Cert.ReferenceIdeal.RefRun

end
-- ==== Proof.RefRunW3.lean ====
/- Statements 181 … 240 of the reference's @main (its window 3) as a list of host operations: the window is the
   straight line `seq` of the list, by unfolding. A call to @leaky_relu stands as the seven operations of its body (the last the select of
   the @_where it calls) over that call's buffers. Where a graph-conv layer ends inside the window the list is given in two pieces. -/
import proofs.«165758_j22333829939343_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 3, the part in layer 1 (60 operations). -/
def w3_0 : List (HloOp τ sig (Elt F)) :=
  [ StableHlo.unary main_c_27 main_v150 (broadcastInDim S800000 ![] bcast_S_S800000 : (⟨S_, .i32⟩ : BufTy).Contents (Elt F) → (⟨S800000, .i32⟩ : BufTy).Contents (Elt F)),
    StableHlo.binary main_v135 main_v150 main_v151 (cmpi .slt : (⟨S800000, .i32⟩ : BufTy).Contents (Elt F) → (⟨S800000, .i32⟩ : BufTy).Contents (Elt F) → (⟨S800000, .i1⟩ : BufTy).Contents (Elt F)),
    StableHlo.nullary main_c_28 (constantI S_ 32 50000#32),
    StableHlo.unary main_c_28 main_v152 (broadcastInDim S800000 ![] bcast_S_S800000 : (⟨S_, .i32⟩ : BufTy).Contents (Elt F) → (⟨S800000, .i32⟩ : BufTy).Contents (Elt F)),
    StableHlo.binary main_v135 main_v152 main_v153 (addi : (⟨S800000, .i32⟩ : BufTy).Contents (Elt F) → (⟨S800000, .i32⟩ : BufTy).Contents (Elt F) → (⟨S800000, .i32⟩ : BufTy).Contents (Elt F)),
    StableHlo.ternary main_v151 main_v153 main_v135 main_v154 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v154 main_v155 (broadcastInDim S800000x1 ![0] bcast_S800000_S800000x1_0 : (⟨S800000, .i32⟩ : BufTy).Contents (Elt F) → (⟨S800000x1, .i32⟩ : BufTy).Contents (Elt F)),
    StableHlo.binary main_v149 main_v155 main_v156 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_29 (constant S_ .f32 0x00000000#32),
    StableHlo.unary main_cst_29 main_v157 (broadcastInDim S50000x128 ![] bcast_S_S50000x128 : (⟨S_, .f32⟩ : BufTy).Contents (Elt F) → (⟨S50000x128, .f32⟩ : BufTy).Contents (Elt F)),
    StableHlo.unary main_v137 main_v158 (broadcastInDim S800000x1 ![0] bcast_S800000_S800000x1_0 : (⟨S800000, .i32⟩ : BufTy).Contents (Elt F) → (⟨S800000x1, .i32⟩ : BufTy).Contents (Elt F)),
    StableHlo.ternary main_v157 main_v158 main_v156 main_v159 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_30 (constant S_ .f32 0x3F800000#32),
    StableHlo.unary main_cst_30 main_v160 (broadcastInDim S50000 ![] bcast_S_S50000 : (⟨S_, .f32⟩ : BufTy).Contents (Elt F) → (⟨S50000, .f32⟩ : BufTy).Contents (Elt F)),
    StableHlo.binary main_v143 main_v160 main_v161 (maximumf : (⟨S50000, .f32⟩ : BufTy).Contents (Elt F) → (⟨S50000, .f32⟩ : BufTy).Contents (Elt F) → (⟨S50000, .f32⟩ : BufTy).Contents (Elt F)),
    StableHlo.unary main_v161 main_v162 (Host.rsqrt : (⟨S50000, .f32⟩ : BufTy).Contents (Elt F) → (⟨S50000, .f32⟩ : BufTy).Contents (Elt F)),
    StableHlo.unary main_v162 main_v163 (broadcastInDim S50000x1 ![0] bcast_S50000_S50000x1_0 : (⟨S50000, .f32⟩ : BufTy).Contents (Elt F) → (⟨S50000x1, .f32⟩ : BufTy).Contents (Elt F)),
    StableHlo.unary main_v163 main_v164 (broadcastInDim S50000x128 ![0, 1] bcast_S50000x1_S50000x128_0_1 : (⟨S50000x1, .f32⟩ : BufTy).Contents (Elt F) → (⟨S50000x128, .f32⟩ : BufTy).Contents (Elt F)),
    StableHlo.binary main_v159 main_v164 main_v165 (mulf : (⟨S50000x128, .f32⟩ : BufTy).Contents (Elt F) → (⟨S50000x128, .f32⟩ : BufTy).Contents (Elt F) → (⟨S50000x128, .f32⟩ : BufTy).Contents (Elt F)),
    StableHlo.unary main_v130 main_v166 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v166 main_v167 rfl shapeCasts_S1x128x128_S128x128,
    StableHlo.binary main_v165 main_v167 main_v168 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v132 main_v169 ((extractStridedSlice S1x128 ![0, 0] · slices_S3x128_S1x128_0_0) : (⟨S3x128, .f32⟩ : BufTy).Contents (Elt F) → (⟨S1x128, .f32⟩ : BufTy).Contents (Elt F)),
    StableHlo.reshape main_v169 main_v170 rfl shapeCasts_S1x128_S128,
    StableHlo.unary main_v170 main_v171 (broadcastInDim S1x128 ![1] bcast_S128_S1x128_1 : (⟨S128, .f32⟩ : BufTy).Contents (Elt F) → (⟨S1x128, .f32⟩ : BufTy).Contents (Elt F)),
    StableHlo.unary main_v171 main_v172 (broadcastInDim S50000x128 ![0, 1] bcast_S1x128_S50000x128_0_1 : (⟨S1x128, .f32⟩ : BufTy).Contents (Elt F) → (⟨S50000x128, .f32⟩ : BufTy).Contents (Elt F)),
    StableHlo.binary main_v168 main_v172 main_v173 (addf : (⟨S50000x128, .f32⟩ : BufTy).Contents (Elt F) → (⟨S50000x128, .f32⟩ : BufTy).Contents (Elt F) → (⟨S50000x128, .f32⟩ : BufTy).Contents (Elt F)),
    StableHlo.unary main_arg1 main_v174 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v174 main_v175 rfl shapeCasts_S1x800000_S800000,
    StableHlo.unary main_arg2 main_v176 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v176 main_v177 rfl shapeCasts_S1x800000_S800000,
    StableHlo.nullary main_cst_31 (constant S_ .f32 0x00000000#32),
    StableHlo.unary main_cst_31 main_v178 (broadcastInDim S50000 ![] bcast_S_S50000 : (⟨S_, .f32⟩ : BufTy).Contents (Elt F) → (⟨S50000, .f32⟩ : BufTy).Contents (Elt F)),
    StableHlo.unary main_v175 main_v179 (broadcastInDim S800000x1 ![0] bcast_S800000_S800000x1_0 : (⟨S800000, .i32⟩ : BufTy).Contents (Elt F) → (⟨S800000x1, .i32⟩ : BufTy).Contents (Elt F)),
    StableHlo.ternary main_v178 main_v179 main_v133 main_v180 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_32 (constant S_ .f32 0x00000000#32),
    StableHlo.unary main_cst_32 main_v181 (broadcastInDim S50000 ![] bcast_S_S50000 : (⟨S_, .f32⟩ : BufTy).Contents (Elt F) → (⟨S50000, .f32⟩ : BufTy).Contents (Elt F)),
    StableHlo.unary main_v177 main_v182 (broadcastInDim S800000x1 ![0] bcast_S800000_S800000x1_0 : (⟨S800000, .i32⟩ : BufTy).Contents (Elt F) → (⟨S800000x1, .i32⟩ : BufTy).Contents (Elt F)),
    StableHlo.ternary main_v181 main_v182 main_v133 main_v183 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_33 (constant S_ .f32 0x3F800000#32),
    StableHlo.unary main_cst_33 main_v184 (broadcastInDim S50000 ![] bcast_S_S50000 : (⟨S_, .f32⟩ : BufTy).Contents (Elt F) → (⟨S50000, .f32⟩ : BufTy).Contents (Elt F)),
    StableHlo.binary main_v180 main_v184 main_v185 (maximumf : (⟨S50000, .f32⟩ : BufTy).Contents (Elt F) → (⟨S50000, .f32⟩ : BufTy).Contents (Elt F) → (⟨S50000, .f32⟩ : BufTy).Contents (Elt F)),
    StableHlo.unary main_v185 main_v186 (Host.rsqrt : (⟨S50000, .f32⟩ : BufTy).Contents (Elt F) → (⟨S50000, .f32⟩ : BufTy).Contents (Elt F)),
    StableHlo.unary main_v186 main_v187 (broadcastInDim S50000x1 ![0] bcast_S50000_S50000x1_0 : (⟨S50000, .f32⟩ : BufTy).Contents (Elt F) → (⟨S50000x1, .f32⟩ : BufTy).Contents (Elt F)),
    StableHlo.unary main_v187 main_v188 (broadcastInDim S50000x128 ![0, 1] bcast_S50000x1_S50000x128_0_1 : (⟨S50000x1, .f32⟩ : BufTy).Contents (Elt F) → (⟨S50000x128, .f32⟩ : BufTy).Contents (Elt F)),
    StableHlo.binary main_v128 main_v188 main_v189 (mulf : (⟨S50000x128, .f32⟩ : BufTy).Contents (Elt F) → (⟨S50000x128, .f32⟩ : BufTy).Contents (Elt F) → (⟨S50000x128, .f32⟩ : BufTy).Contents (Elt F)),
    StableHlo.nullary main_c_34 (constantI S_ 32 0#32),
    StableHlo.unary main_c_34 main_v190 (broadcastInDim S800000 ![] bcast_S_S800000 : (⟨S_, .i32⟩ : BufTy).Contents (Elt F) → (⟨S800000, .i32⟩ : BufTy).Contents (Elt F)),
    StableHlo.binary main_v175 main_v190 main_v191 (cmpi .slt : (⟨S800000, .i32⟩ : BufTy).Contents (Elt F) → (⟨S800000, .i32⟩ : BufTy).Contents (Elt F) → (⟨S800000, .i1⟩ : BufTy).Contents (Elt F)),
    StableHlo.nullary main_c_35 (constantI S_ 32 50000#32),
    StableHlo.unary main_c_35 main_v192 (broadcastInDim S800000 ![] bcast_S_S800000 : (⟨S_, .i32⟩ : BufTy).Contents (Elt F) → (⟨S800000, .i32⟩ : BufTy).Contents (Elt F)),
    StableHlo.binary main_v175 main_v192 main_v193 (addi : (⟨S800000, .i32⟩ : BufTy).Contents (Elt F) → (⟨S800000, .i32⟩ : BufTy).Contents (Elt F) → (⟨S800000, .i32⟩ : BufTy).Contents (Elt F)),
    StableHlo.ternary main_v191 main_v193 main_v175 main_v194 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v194 main_v195 (broadcastInDim S800000x1 ![0] bcast_S800000_S800000x1_0 : (⟨S800000, .i32⟩ : BufTy).Contents (Elt F) → (⟨S800000x1, .i32⟩ : BufTy).Contents (Elt F)),
    StableHlo.binary main_v189 main_v195 main_v196 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_36 (constant S_ .f32 0x00000000#32),
    StableHlo.unary main_cst_36 main_v197 (broadcastInDim S50000x128 ![] bcast_S_S50000x128 : (⟨S_, .f32⟩ : BufTy).Contents (Elt F) → (⟨S50000x128, .f32⟩ : BufTy).Contents (Elt F)),
    StableHlo.unary main_v177 main_v198 (broadcastInDim S800000x1 ![0] bcast_S800000_S800000x1_0 : (⟨S800000, .i32⟩ : BufTy).Contents (Elt F) → (⟨S800000x1, .i32⟩ : BufTy).Contents (Elt F)),
    StableHlo.ternary main_v197 main_v198 main_v196 main_v199 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_37 (constant S_ .f32 0x3F800000#32) ]

/-- The window is that line. -/
theorem part3_eq (c : Dev nD) : main_part3 (F := F) c = seq (w3_0 (F := F)) := rfl

end Cert.ReferenceIdeal.RefRun

end
-- ==== Proof.RefRunW4.lean ====
/- Statements 241 … 300 of the reference's @main (its window 4) as a list of host operations: the window is the
   straight line `seq` of the list, by unfolding. A call to @leaky_relu stands as the seven operations of its body (the last the select of
   the @_where it calls) over that call's buffers. Where a graph-conv layer ends inside the window the list is given in two pieces. -/
import proofs.«165758_j22333829939343_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 4, the part in layer 1 (60 operations). -/
def w4_0 : List (HloOp τ sig (Elt F)) :=
  [ StableHlo.unary main_cst_37 main_v200 (broadcastInDim S50000 ![] bcast_S_S50000 : (⟨S_, .f32⟩ : BufTy).Contents (Elt F) → (⟨S50000, .f32⟩ : BufTy).Contents (Elt F)),
    StableHlo.binary main_v183 main_v200 main_v201 (maximumf : (⟨S50000, .f32⟩ : BufTy).Contents (Elt F) → (⟨S50000, .f32⟩ : BufTy).Contents (Elt F) → (⟨S50000, .f32⟩ : BufTy).Contents (Elt F)),
    StableHlo.unary main_v201 main_v202 (Host.rsqrt : (⟨S50000, .f32⟩ : BufTy).Contents (Elt F) → (⟨S50000, .f32⟩ : BufTy).Contents (Elt F)),
    StableHlo.unary main_v202 main_v203 (broadcastInDim S50000x1 ![0] bcast_S50000_S50000x1_0 : (⟨S50000, .f32⟩ : BufTy).Contents (Elt F) → (⟨S50000x1, .f32⟩ : BufTy).Contents (Elt F)),
    StableHlo.unary main_v203 main_v204 (broadcastInDim S50000x128 ![0, 1] bcast_S50000x1_S50000x128_0_1 : (⟨S50000x1, .f32⟩ : BufTy).Contents (Elt F) → (⟨S50000x128, .f32⟩ : BufTy).Contents (Elt F)),
    StableHlo.binary main_v199 main_v204 main_v205 (mulf : (⟨S50000x128, .f32⟩ : BufTy).Contents (Elt F) → (⟨S50000x128, .f32⟩ : BufTy).Contents (Elt F) → (⟨S50000x128, .f32⟩ : BufTy).Contents (Elt F)),
    StableHlo.unary main_v130 main_v206 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v206 main_v207 rfl shapeCasts_S1x128x128_S128x128,
    StableHlo.binary main_v205 main_v207 main_v208 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v132 main_v209 ((extractStridedSlice S1x128 ![1, 0] · slices_S3x128_S1x128_1_0) : (⟨S3x128, .f32⟩ : BufTy).Contents (Elt F) → (⟨S1x128, .f32⟩ : BufTy).Contents (Elt F)),
    StableHlo.reshape main_v209 main_v210 rfl shapeCasts_S1x128_S128,
    StableHlo.unary main_v210 main_v211 (broadcastInDim S1x128 ![1] bcast_S128_S1x128_1 : (⟨S128, .f32⟩ : BufTy).Contents (Elt F) → (⟨S1x128, .f32⟩ : BufTy).Contents (Elt F)),
    StableHlo.unary main_v211 main_v212 (broadcastInDim S50000x128 ![0, 1] bcast_S1x128_S50000x128_0_1 : (⟨S1x128, .f32⟩ : BufTy).Contents (Elt F) → (⟨S50000x128, .f32⟩ : BufTy).Contents (Elt F)),
    StableHlo.binary main_v208 main_v212 main_v213 (addf : (⟨S50000x128, .f32⟩ : BufTy).Contents (Elt F) → (⟨S50000x128, .f32⟩ : BufTy).Contents (Elt F) → (⟨S50000x128, .f32⟩ : BufTy).Contents (Elt F)),
    StableHlo.unary main_arg1 main_v214 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v214 main_v215 rfl shapeCasts_S1x800000_S800000,
    StableHlo.unary main_arg2 main_v216 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v216 main_v217 rfl shapeCasts_S1x800000_S800000,
    StableHlo.nullary main_cst_38 (constant S_ .f32 0x00000000#32),
    StableHlo.unary main_cst_38 main_v218 (broadcastInDim S50000 ![] bcast_S_S50000 : (⟨S_, .f32⟩ : BufTy).Contents (Elt F) → (⟨S50000, .f32⟩ : BufTy).Contents (Elt F)),
    StableHlo.unary main_v215 main_v219 (broadcastInDim S800000x1 ![0] bcast_S800000_S800000x1_0 : (⟨S800000, .i32⟩ : BufTy).Contents (Elt F) → (⟨S800000x1, .i32⟩ : BufTy).Contents (Elt F)),
    StableHlo.ternary main_v218 main_v219 main_v133 main_v220 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_39 (constant S_ .f32 0x00000000#32),
    StableHlo.unary main_cst_39 main_v221 (broadcastInDim S50000 ![] bcast_S_S50000 : (⟨S_, .f32⟩ : BufTy).Contents (Elt F) → (⟨S50000, .f32⟩ : BufTy).Contents (Elt F)),
    StableHlo.unary main_v217 main_v222 (broadcastInDim S800000x1 ![0] bcast_S800000_S800000x1_0 : (⟨S800000, .i32⟩ : BufTy).Contents (Elt F) → (⟨S800000x1, .i32⟩ : BufTy).Contents (Elt F)),
    StableHlo.ternary main_v221 main_v222 main_v133 main_v223 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_40 (constant S_ .f32 0x3F800000#32),
    StableHlo.unary main_cst_40 main_v224 (broadcastInDim S50000 ![] bcast_S_S50000 : (⟨S_, .f32⟩ : BufTy).Contents (Elt F) → (⟨S50000, .f32⟩ : BufTy).Contents (Elt F)),
    StableHlo.binary main_v220 main_v224 main_v225 (maximumf : (⟨S50000, .f32⟩ : BufTy).Contents (Elt F) → (⟨S50000, .f32⟩ : BufTy).Contents (Elt F) → (⟨S50000, .f32⟩ : BufTy).Contents (Elt F)),
    StableHlo.unary main_v225 main_v226 (Host.rsqrt : (⟨S50000, .f32⟩ : BufTy).Contents (Elt F) → (⟨S50000, .f32⟩ : BufTy).Contents (Elt F)),
    StableHlo.unary main_v226 main_v227 (broadcastInDim S50000x1 ![0] bcast_S50000_S50000x1_0 : (⟨S50000, .f32⟩ : BufTy).Contents (Elt F) → (⟨S50000x1, .f32⟩ : BufTy).Contents (Elt F)),
    StableHlo.unary main_v227 main_v228 (broadcastInDim S50000x128 ![0, 1] bcast_S50000x1_S50000x128_0_1 : (⟨S50000x1, .f32⟩ : BufTy).Contents (Elt F) → (⟨S50000x128, .f32⟩ : BufTy).Contents (Elt F)),
    StableHlo.binary main_v128 main_v228 main_v229 (mulf : (⟨S50000x128, .f32⟩ : BufTy).Contents (Elt F) → (⟨S50000x128, .f32⟩ : BufTy).Contents (Elt F) → (⟨S50000x128, .f32⟩ : BufTy).Contents (Elt F)),
    StableHlo.nullary main_c_41 (constantI S_ 32 0#32),
    StableHlo.unary main_c_41 main_v230 (broadcastInDim S800000 ![] bcast_S_S800000 : (⟨S_, .i32⟩ : BufTy).Contents (Elt F) → (⟨S800000, .i32⟩ : BufTy).Contents (Elt F)),
    StableHlo.binary main_v215 main_v230 main_v231 (cmpi .slt : (⟨S800000, .i32⟩ : BufTy).Contents (Elt F) → (⟨S800000, .i32⟩ : BufTy).Contents (Elt F) → (⟨S800000, .i1⟩ : BufTy).Contents (Elt F)),
    StableHlo.nullary main_c_42 (constantI S_ 32 50000#32),
    StableHlo.unary main_c_42 main_v232 (broadcastInDim S800000 ![] bcast_S_S800000 : (⟨S_, .i32⟩ : BufTy).Contents (Elt F) → (⟨S800000, .i32⟩ : BufTy).Contents (Elt F)),
    StableHlo.binary main_v215 main_v232 main_v233 (addi : (⟨S800000, .i32⟩ : BufTy).Contents (Elt F) → (⟨S800000, .i32⟩ : BufTy).Contents (Elt F) → (⟨S800000, .i32⟩ : BufTy).Contents (Elt F)),
    StableHlo.ternary main_v231 main_v233 main_v215 main_v234 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v234 main_v235 (broadcastInDim S800000x1 ![0] bcast_S800000_S800000x1_0 : (⟨S800000, .i32⟩ : BufTy).Contents (Elt F) → (⟨S800000x1, .i32⟩ : BufTy).Contents (Elt F)),
    StableHlo.binary main_v229 main_v235 main_v236 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_43 (constant S_ .f32 0x00000000#32),
    StableHlo.unary main_cst_43 main_v237 (broadcastInDim S50000x128 ![] bcast_S_S50000x128 : (⟨S_, .f32⟩ : BufTy).Contents (Elt F) → (⟨S50000x128, .f32⟩ : BufTy).Contents (Elt F)),
    StableHlo.unary main_v217 main_v238 (broadcastInDim S800000x1 ![0] bcast_S800000_S800000x1_0 : (⟨S800000, .i32⟩ : BufTy).Contents (Elt F) → (⟨S800000x1, .i32⟩ : BufTy).Contents (Elt F)),
    StableHlo.ternary main_v237 main_v238 main_v236 main_v239 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_44 (constant S_ .f32 0x3F800000#32),
    StableHlo.unary main_cst_44 main_v240 (broadcastInDim S50000 ![] bcast_S_S50000 : (⟨S_, .f32⟩ : BufTy).Contents (Elt F) → (⟨S50000, .f32⟩ : BufTy).Contents (Elt F)),
    StableHlo.binary main_v223 main_v240 main_v241 (maximumf : (⟨S50000, .f32⟩ : BufTy).Contents (Elt F) → (⟨S50000, .f32⟩ : BufTy).Contents (Elt F) → (⟨S50000, .f32⟩ : BufTy).Contents (Elt F)),
    StableHlo.unary main_v241 main_v242 (Host.rsqrt : (⟨S50000, .f32⟩ : BufTy).Contents (Elt F) → (⟨S50000, .f32⟩ : BufTy).Contents (Elt F)),
    StableHlo.unary main_v242 main_v243 (broadcastInDim S50000x1 ![0] bcast_S50000_S50000x1_0 : (⟨S50000, .f32⟩ : BufTy).Contents (Elt F) → (⟨S50000x1, .f32⟩ : BufTy).Contents (Elt F)),
    StableHlo.unary main_v243 main_v244 (broadcastInDim S50000x128 ![0, 1] bcast_S50000x1_S50000x128_0_1 : (⟨S50000x1, .f32⟩ : BufTy).Contents (Elt F) → (⟨S50000x128, .f32⟩ : BufTy).Contents (Elt F)),
    StableHlo.binary main_v239 main_v244 main_v245 (mulf : (⟨S50000x128, .f32⟩ : BufTy).Contents (Elt F) → (⟨S50000x128, .f32⟩ : BufTy).Contents (Elt F) → (⟨S50000x128, .f32⟩ : BufTy).Contents (Elt F)),
    StableHlo.unary main_v130 main_v246 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v246 main_v247 rfl shapeCasts_S1x128x128_S128x128,
    StableHlo.binary main_v245 main_v247 main_v248 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v132 main_v249 ((extractStridedSlice S1x128 ![2, 0] · slices_S3x128_S1x128_2_0) : (⟨S3x128, .f32⟩ : BufTy).Contents (Elt F) → (⟨S1x128, .f32⟩ : BufTy).Contents (Elt F)),
    StableHlo.reshape main_v249 main_v250 rfl shapeCasts_S1x128_S128,
    StableHlo.unary main_v250 main_v251 (broadcastInDim S1x128 ![1] bcast_S128_S1x128_1 : (⟨S128, .f32⟩ : BufTy).Contents (Elt F) → (⟨S1x128, .f32⟩ : BufTy).Contents (Elt F)),
    StableHlo.unary main_v251 main_v252 (broadcastInDim S50000x128 ![0, 1] bcast_S1x128_S50000x128_0_1 : (⟨S1x128, .f32⟩ : BufTy).Contents (Elt F) → (⟨S50000x128, .f32⟩ : BufTy).Contents (Elt F)) ]

/-- The window is that line. -/
theorem part4_eq (c : Dev nD) : main_part4 (F := F) c = seq (w4_0 (F := F)) := rfl

end Cert.ReferenceIdeal.RefRun

end
-- ==== Proof.RefRunW5.lean ====
/- Statements 301 … 360 of the reference's @main (its window 5) as a list of host operations: the window is the
   straight line `seq` of the list, by unfolding. A call to @leaky_relu stands as the seven operations of its body (the last the select of
   the @_where it calls) over that call's buffers. Where a graph-conv layer ends inside the window the list is given in two pieces. -/
import proofs.«165758_j22333829939343_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 5, the part in layer 1 (18 operations). -/
def w5_0 : List (HloOp τ sig (Elt F)) :=
  [ StableHlo.binary main_v248 main_v252 main_v253 (addf : (⟨S50000x128, .f32⟩ : BufTy).Contents (Elt F) → (⟨S50000x128, .f32⟩ : BufTy).Contents (Elt F) → (⟨S50000x128, .f32⟩ : BufTy).Contents (Elt F)),
    StableHlo.unary main_v173 main_v254 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v213 main_v255 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v253 main_v256 (broadcastInDim S1x50000x128 ![1, 2] bcast_S50000x128_S1x50000x128_1_2 : (⟨S50000x128, .f32⟩ : BufTy).Contents (Elt F) → (⟨S1x50000x128, .f32⟩ : BufTy).Contents (Elt F)),
    StableHlo.nary ![main_v254, main_v255, main_v256] main_v257 (fun u => concatenate S3x50000x128 0 [⟨S1x50000x128, u 0⟩, ⟨S1x50000x128, u 1⟩, ⟨S1x50000x128, u 2⟩] concatenates_S1x50000x128_S1x50000x128_S1x50000x128_S3x50000x128_d0),
    StableHlo.nullary main_cst_45 (constant S_ .f32 0x00000000#32),
    StableHlo.binary main_v257 main_cst_45 main_v258 ((fun x v => Host.reduceAdd x v reducesTo_S3x50000x128_S50000x128_d0 h_S_) : (⟨S3x50000x128, .f32⟩ : BufTy).Contents (Elt F) → (⟨S_, .f32⟩ : BufTy).Contents (Elt F) → (⟨S50000x128, .f32⟩ : BufTy).Contents (Elt F)),
    StableHlo.nullary main_cst_46 (constant S_ .f32 0x40400000#32),
    StableHlo.unary main_cst_46 main_v259 (broadcastInDim S50000x128 ![] bcast_S_S50000x128 : (⟨S_, .f32⟩ : BufTy).Contents (Elt F) → (⟨S50000x128, .f32⟩ : BufTy).Contents (Elt F)),
    StableHlo.binary main_v258 main_v259 main_v260 (Host.divf : (⟨S50000x128, .f32⟩ : BufTy).Contents (Elt F) → (⟨S50000x128, .f32⟩ : BufTy).Contents (Elt F) → (⟨S50000x128, .f32⟩ : BufTy).Contents (Elt F)),
    StableHlo.nullary main_cst_47 (constant S_ .f32 0x3C23D70A#32),
    TRef.nullary main_call1.cst (constant S_ .f32 0x00000000#32),
    TRef.unary main_call1.cst main_call1.v0 (broadcastInDim S50000x128 ![] bcast_S_S50000x128),
    TRef.binary (.of main_v260) main_call1.v0 main_call1.v1 (cmpf .oge),
    TRef.unary (.of main_cst_47) main_call1.v2 id,
    TRef.unary main_call1.v2 main_call1.v3 (broadcastInDim S50000x128 ![] bcast_S_S50000x128),
    TRef.binary main_call1.v3 (.of main_v260) main_call1.v4 mulf,
    TRef.ternary main_call1.v1 (.of main_v260) main_call1.v4 main_call1.call0.v0 select ]

/-- Window 5, the part in layer 2 (48 operations). -/
def w5_1 : List (HloOp τ sig (Elt F)) :=
  [ StableHlo.unary main_arg5 main_v262 ((extractStridedSlice S1x3x128x128 ![1, 0, 0, 0] · slices_S4x3x128x128_S1x3x128x128_1_0_0_0) : (⟨S4x3x128x128, .f32⟩ : BufTy).Contents (Elt F) → (⟨S1x3x128x128, .f32⟩ : BufTy).Contents (Elt F)),
    StableHlo.reshape main_v262 main_v263 rfl shapeCasts_S1x3x128x128_S3x128x128,
    StableHlo.unary main_arg6 main_v264 ((extractStridedSlice S1x3x128 ![1, 0, 0] · slices_S4x3x128_S1x3x128_1_0_0) : (⟨S4x3x128, .f32⟩ : BufTy).Contents (Elt F) → (⟨S1x3x128, .f32⟩ : BufTy).Contents (Elt F)),
    StableHlo.reshape main_v264 main_v265 rfl shapeCasts_S1x3x128_S3x128,
    StableHlo.nullary main_cst_48 (constant S_ .f32 0x3F800000#32),
    StableHlo.unary main_cst_48 main_v266 (broadcastInDim S800000 ![] bcast_S_S800000 : (⟨S_, .f32⟩ : BufTy).Contents (Elt F) → (⟨S800000, .f32⟩ : BufTy).Contents (Elt F)),
    StableHlo.unary main_arg1 main_v267 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v267 main_v268 rfl shapeCasts_S1x800000_S800000,
    StableHlo.unary main_arg2 main_v269 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v269 main_v270 rfl shapeCasts_S1x800000_S800000,
    StableHlo.nullary main_cst_49 (constant S_ .f32 0x00000000#32),
    StableHlo.unary main_cst_49 main_v271 (broadcastInDim S50000 ![] bcast_S_S50000 : (⟨S_, .f32⟩ : BufTy).Contents (Elt F) → (⟨S50000, .f32⟩ : BufTy).Contents (Elt F)),
    StableHlo.unary main_v268 main_v272 (broadcastInDim S800000x1 ![0] bcast_S800000_S800000x1_0 : (⟨S800000, .i32⟩ : BufTy).Contents (Elt F) → (⟨S800000x1, .i32⟩ : BufTy).Contents (Elt F)),
    StableHlo.ternary main_v271 main_v272 main_v266 main_v273 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_50 (constant S_ .f32 0x00000000#32),
    StableHlo.unary main_cst_50 main_v274 (broadcastInDim S50000 ![] bcast_S_S50000 : (⟨S_, .f32⟩ : BufTy).Contents (Elt F) → (⟨S50000, .f32⟩ : BufTy).Contents (Elt F)),
    StableHlo.unary main_v270 main_v275 (broadcastInDim S800000x1 ![0] bcast_S800000_S800000x1_0 : (⟨S800000, .i32⟩ : BufTy).Contents (Elt F) → (⟨S800000x1, .i32⟩ : BufTy).Contents (Elt F)),
    StableHlo.ternary main_v274 main_v275 main_v266 main_v276 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_51 (constant S_ .f32 0x3F800000#32),
    StableHlo.unary main_cst_51 main_v277 (broadcastInDim S50000 ![] bcast_S_S50000 : (⟨S_, .f32⟩ : BufTy).Contents (Elt F) → (⟨S50000, .f32⟩ : BufTy).Contents (Elt F)),
    StableHlo.binary main_v273 main_v277 main_v278 (maximumf : (⟨S50000, .f32⟩ : BufTy).Contents (Elt F) → (⟨S50000, .f32⟩ : BufTy).Contents (Elt F) → (⟨S50000, .f32⟩ : BufTy).Contents (Elt F)),
    StableHlo.unary main_v278 main_v279 (Host.rsqrt : (⟨S50000, .f32⟩ : BufTy).Contents (Elt F) → (⟨S50000, .f32⟩ : BufTy).Contents (Elt F)),
    StableHlo.unary main_v279 main_v280 (broadcastInDim S50000x1 ![0] bcast_S50000_S50000x1_0 : (⟨S50000, .f32⟩ : BufTy).Contents (Elt F) → (⟨S50000x1, .f32⟩ : BufTy).Contents (Elt F)),
    StableHlo.unary main_v280 main_v281 (broadcastInDim S50000x128 ![0, 1] bcast_S50000x1_S50000x128_0_1 : (⟨S50000x1, .f32⟩ : BufTy).Contents (Elt F) → (⟨S50000x128, .f32⟩ : BufTy).Contents (Elt F)),
    StableHlo.binary main_v261 main_v281 main_v282 (mulf : (⟨S50000x128, .f32⟩ : BufTy).Contents (Elt F) → (⟨S50000x128, .f32⟩ : BufTy).Contents (Elt F) → (⟨S50000x128, .f32⟩ : BufTy).Contents (Elt F)),
    StableHlo.nullary main_c_52 (constantI S_ 32 0#32),
    StableHlo.unary main_c_52 main_v283 (broadcastInDim S800000 ![] bcast_S_S800000 : (⟨S_, .i32⟩ : BufTy).Contents (Elt F) → (⟨S800000, .i32⟩ : BufTy).Contents (Elt F)),
    StableHlo.binary main_v268 main_v283 main_v284 (cmpi .slt : (⟨S800000, .i32⟩ : BufTy).Contents (Elt F) → (⟨S800000, .i32⟩ : BufTy).Contents (Elt F) → (⟨S800000, .i1⟩ : BufTy).Contents (Elt F)),
    StableHlo.nullary main_c_53 (constantI S_ 32 50000#32),
    StableHlo.unary main_c_53 main_v285 (broadcastInDim S800000 ![] bcast_S_S800000 : (⟨S_, .i32⟩ : BufTy).Contents (Elt F) → (⟨S800000, .i32⟩ : BufTy).Contents (Elt F)),
    StableHlo.binary main_v268 main_v285 main_v286 (addi : (⟨S800000, .i32⟩ : BufTy).Contents (Elt F) → (⟨S800000, .i32⟩ : BufTy).Contents (Elt F) → (⟨S800000, .i32⟩ : BufTy).Contents (Elt F)),
    StableHlo.ternary main_v284 main_v286 main_v268 main_v287 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v287 main_v288 (broadcastInDim S800000x1 ![0] bcast_S800000_S800000x1_0 : (⟨S800000, .i32⟩ : BufTy).Contents (Elt F) → (⟨S800000x1, .i32⟩ : BufTy).Contents (Elt F)),
    StableHlo.binary main_v282 main_v288 main_v289 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_54 (constant S_ .f32 0x00000000#32),
    StableHlo.unary main_cst_54 main_v290 (broadcastInDim S50000x128 ![] bcast_S_S50000x128 : (⟨S_, .f32⟩ : BufTy).Contents (Elt F) → (⟨S50000x128, .f32⟩ : BufTy).Contents (Elt F)),
    StableHlo.unary main_v270 main_v291 (broadcastInDim S800000x1 ![0] bcast_S800000_S800000x1_0 : (⟨S800000, .i32⟩ : BufTy).Contents (Elt F) → (⟨S800000x1, .i32⟩ : BufTy).Contents (Elt F)),
    StableHlo.ternary main_v290 main_v291 main_v289 main_v292 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_55 (constant S_ .f32 0x3F800000#32),
    StableHlo.unary main_cst_55 main_v293 (broadcastInDim S50000 ![] bcast_S_S50000 : (⟨S_, .f32⟩ : BufTy).Contents (Elt F) → (⟨S50000, .f32⟩ : BufTy).Contents (Elt F)),
    StableHlo.binary main_v276 main_v293 main_v294 (maximumf : (⟨S50000, .f32⟩ : BufTy).Contents (Elt F) → (⟨S50000, .f32⟩ : BufTy).Contents (Elt F) → (⟨S50000, .f32⟩ : BufTy).Contents (Elt F)),
    StableHlo.unary main_v294 main_v295 (Host.rsqrt : (⟨S50000, .f32⟩ : BufTy).Contents (Elt F) → (⟨S50000, .f32⟩ : BufTy).Contents (Elt F)),
    StableHlo.unary main_v295 main_v296 (broadcastInDim S50000x1 ![0] bcast_S50000_S50000x1_0 : (⟨S50000, .f32⟩ : BufTy).Contents (Elt F) → (⟨S50000x1, .f32⟩ : BufTy).Contents (Elt F)),
    StableHlo.unary main_v296 main_v297 (broadcastInDim S50000x128 ![0, 1] bcast_S50000x1_S50000x128_0_1 : (⟨S50000x1, .f32⟩ : BufTy).Contents (Elt F) → (⟨S50000x128, .f32⟩ : BufTy).Contents (Elt F)),
    StableHlo.binary main_v292 main_v297 main_v298 (mulf : (⟨S50000x128, .f32⟩ : BufTy).Contents (Elt F) → (⟨S50000x128, .f32⟩ : BufTy).Contents (Elt F) → (⟨S50000x128, .f32⟩ : BufTy).Contents (Elt F)),
    StableHlo.unary main_v263 main_v299 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v299 main_v300 rfl shapeCasts_S1x128x128_S128x128,
    StableHlo.binary main_v298 main_v300 main_v301 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The window is that line. -/
theorem part5_eq (c : Dev nD) : main_part5 (F := F) c = seq (w5_0 (F := F) ++ w5_1 (F := F)) := rfl

end Cert.ReferenceIdeal.RefRun

end
-- ==== Proof.RefRunL1.lean ====
/- Graph-conv layer 1 of the reference as ONE list of host operations (164), ending with the operation that writes `main_v261`:
   the concatenation of the window pieces it spans; every operation touches TensorCore references only and allocates nothing;
   the list of the references it writes, none of them an argument of @main. -/
import proofs.«165758_j22333829939343_1_alg».proof.Proof.RefRunW2
import proofs.«165758_j22333829939343_1_alg».proof.Proof.RefRunW3
import proofs.«165758_j22333829939343_1_alg».proof.Proof.RefRunW4
import proofs.«165758_j22333829939343_1_alg».proof.Proof.RefRunW5
import proofs.«165758_j22333829939343_1_alg».proof.Proof.LibKeeps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The layer's operations, in order. -/
abbrev opsL1 : List (HloOp τ sig (Elt F)) :=
  [ StableHlo.unary main_arg5 main_v129 ((extractStridedSlice S1x3x128x128 ![0, 0, 0, 0] · slices_S4x3x128x128_S1x3x128x128_0_0_0_0) : (⟨S4x3x128x128, .f32⟩ : BufTy).Contents (Elt F) → (⟨S1x3x128x128, .f32⟩ : BufTy).Contents (Elt F)),
    StableHlo.reshape main_v129 main_v130 rfl shapeCasts_S1x3x128x128_S3x128x128,
    StableHlo.unary main_arg6 main_v131 ((extractStridedSlice S1x3x128 ![0, 0, 0] · slices_S4x3x128_S1x3x128_0_0_0) : (⟨S4x3x128, .f32⟩ : BufTy).Contents (Elt F) → (⟨S1x3x128, .f32⟩ : BufTy).Contents (Elt F)),
    StableHlo.reshape main_v131 main_v132 rfl shapeCasts_S1x3x128_S3x128,
    StableHlo.nullary main_cst_23 (constant S_ .f32 0x3F800000#32),
    StableHlo.unary main_cst_23 main_v133 (broadcastInDim S800000 ![] bcast_S_S800000 : (⟨S_, .f32⟩ : BufTy).Contents (Elt F) → (⟨S800000, .f32⟩ : BufTy).Contents (Elt F)),
    StableHlo.unary main_arg1 main_v134 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v134 main_v135 rfl shapeCasts_S1x800000_S800000,
    StableHlo.unary main_arg2 main_v136 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v136 main_v137 rfl shapeCasts_S1x800000_S800000,
    StableHlo.nullary main_cst_24 (constant S_ .f32 0x00000000#32),
    StableHlo.unary main_cst_24 main_v138 (broadcastInDim S50000 ![] bcast_S_S50000 : (⟨S_, .f32⟩ : BufTy).Contents (Elt F) → (⟨S50000, .f32⟩ : BufTy).Contents (Elt F)),
    StableHlo.unary main_v135 main_v139 (broadcastInDim S800000x1 ![0] bcast_S800000_S800000x1_0 : (⟨S800000, .i32⟩ : BufTy).Contents (Elt F) → (⟨S800000x1, .i32⟩ : BufTy).Contents (Elt F)),
    StableHlo.ternary main_v138 main_v139 main_v133 main_v140 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_25 (constant S_ .f32 0x00000000#32),
    StableHlo.unary main_cst_25 main_v141 (broadcastInDim S50000 ![] bcast_S_S50000 : (⟨S_, .f32⟩ : BufTy).Contents (Elt F) → (⟨S50000, .f32⟩ : BufTy).Contents (Elt F)),
    StableHlo.unary main_v137 main_v142 (broadcastInDim S800000x1 ![0] bcast_S800000_S800000x1_0 : (⟨S800000, .i32⟩ : BufTy).Contents (Elt F) → (⟨S800000x1, .i32⟩ : BufTy).Contents (Elt F)),
    StableHlo.ternary main_v141 main_v142 main_v133 main_v143 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_26 (constant S_ .f32 0x3F800000#32),
    StableHlo.unary main_cst_26 main_v144 (broadcastInDim S50000 ![] bcast_S_S50000 : (⟨S_, .f32⟩ : BufTy).Contents (Elt F) → (⟨S50000, .f32⟩ : BufTy).Contents (Elt F)),
    StableHlo.binary main_v140 main_v144 main_v145 (maximumf : (⟨S50000, .f32⟩ : BufTy).Contents (Elt F) → (⟨S50000, .f32⟩ : BufTy).Contents (Elt F) → (⟨S50000, .f32⟩ : BufTy).Contents (Elt F)),
    StableHlo.unary main_v145 main_v146 (Host.rsqrt : (⟨S50000, .f32⟩ : BufTy).Contents (Elt F) → (⟨S50000, .f32⟩ : BufTy).Contents (Elt F)),
    StableHlo.unary main_v146 main_v147 (broadcastInDim S50000x1 ![0] bcast_S50000_S50000x1_0 : (⟨S50000, .f32⟩ : BufTy).Contents (Elt F) → (⟨S50000x1, .f32⟩ : BufTy).Contents (Elt F)),
    StableHlo.unary main_v147 main_v148 (broadcastInDim S50000x128 ![0, 1] bcast_S50000x1_S50000x128_0_1 : (⟨S50000x1, .f32⟩ : BufTy).Contents (Elt F) → (⟨S50000x128, .f32⟩ : BufTy).Contents (Elt F)),
    StableHlo.binary main_v128 main_v148 main_v149 (mulf : (⟨S50000x128, .f32⟩ : BufTy).Contents (Elt F) → (⟨S50000x128, .f32⟩ : BufTy).Contents (Elt F) → (⟨S50000x128, .f32⟩ : BufTy).Contents (Elt F)),
    StableHlo.nullary main_c_27 (constantI S_ 32 0#32),
    StableHlo.unary main_c_27 main_v150 (broadcastInDim S800000 ![] bcast_S_S800000 : (⟨S_, .i32⟩ : BufTy).Contents (Elt F) → (⟨S800000, .i32⟩ : BufTy).Contents (Elt F)),
    StableHlo.binary main_v135 main_v150 main_v151 (cmpi .slt : (⟨S800000, .i32⟩ : BufTy).Contents (Elt F) → (⟨S800000, .i32⟩ : BufTy).Contents (Elt F) → (⟨S800000, .i1⟩ : BufTy).Contents (Elt F)),
    StableHlo.nullary main_c_28 (constantI S_ 32 50000#32),
    StableHlo.unary main_c_28 main_v152 (broadcastInDim S800000 ![] bcast_S_S800000 : (⟨S_, .i32⟩ : BufTy).Contents (Elt F) → (⟨S800000, .i32⟩ : BufTy).Contents (Elt F)),
    StableHlo.binary main_v135 main_v152 main_v153 (addi : (⟨S800000, .i32⟩ : BufTy).Contents (Elt F) → (⟨S800000, .i32⟩ : BufTy).Contents (Elt F) → (⟨S800000, .i32⟩ : BufTy).Contents (Elt F)),
    StableHlo.ternary main_v151 main_v153 main_v135 main_v154 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v154 main_v155 (broadcastInDim S800000x1 ![0] bcast_S800000_S800000x1_0 : (⟨S800000, .i32⟩ : BufTy).Contents (Elt F) → (⟨S800000x1, .i32⟩ : BufTy).Contents (Elt F)),
    StableHlo.binary main_v149 main_v155 main_v156 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_29 (constant S_ .f32 0x00000000#32),
    StableHlo.unary main_cst_29 main_v157 (broadcastInDim S50000x128 ![] bcast_S_S50000x128 : (⟨S_, .f32⟩ : BufTy).Contents (Elt F) → (⟨S50000x128, .f32⟩ : BufTy).Contents (Elt F)),
    StableHlo.unary main_v137 main_v158 (broadcastInDim S800000x1 ![0] bcast_S800000_S800000x1_0 : (⟨S800000, .i32⟩ : BufTy).Contents (Elt F) → (⟨S800000x1, .i32⟩ : BufTy).Contents (Elt F)),
    StableHlo.ternary main_v157 main_v158 main_v156 main_v159 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_30 (constant S_ .f32 0x3F800000#32),
    StableHlo.unary main_cst_30 main_v160 (broadcastInDim S50000 ![] bcast_S_S50000 : (⟨S_, .f32⟩ : BufTy).Contents (Elt F) → (⟨S50000, .f32⟩ : BufTy).Contents (Elt F)),
    StableHlo.binary main_v143 main_v160 main_v161 (maximumf : (⟨S50000, .f32⟩ : BufTy).Contents (Elt F) → (⟨S50000, .f32⟩ : BufTy).Contents (Elt F) → (⟨S50000, .f32⟩ : BufTy).Contents (Elt F)),
    StableHlo.unary main_v161 main_v162 (Host.rsqrt : (⟨S50000, .f32⟩ : BufTy).Contents (Elt F) → (⟨S50000, .f32⟩ : BufTy).Contents (Elt F)),
    StableHlo.unary main_v162 main_v163 (broadcastInDim S50000x1 ![0] bcast_S50000_S50000x1_0 : (⟨S50000, .f32⟩ : BufTy).Contents (Elt F) → (⟨S50000x1, .f32⟩ : BufTy).Contents (Elt F)),
    StableHlo.unary main_v163 main_v164 (broadcastInDim S50000x128 ![0, 1] bcast_S50000x1_S50000x128_0_1 : (⟨S50000x1, .f32⟩ : BufTy).Contents (Elt F) → (⟨S50000x128, .f32⟩ : BufTy).Contents (Elt F)),
    StableHlo.binary main_v159 main_v164 main_v165 (mulf : (⟨S50000x128, .f32⟩ : BufTy).Contents (Elt F) → (⟨S50000x128, .f32⟩ : BufTy).Contents (Elt F) → (⟨S50000x128, .f32⟩ : BufTy).Contents (Elt F)),
    StableHlo.unary main_v130 main_v166 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v166 main_v167 rfl shapeCasts_S1x128x128_S128x128,
    StableHlo.binary main_v165 main_v167 main_v168 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v132 main_v169 ((extractStridedSlice S1x128 ![0, 0] · slices_S3x128_S1x128_0_0) : (⟨S3x128, .f32⟩ : BufTy).Contents (Elt F) → (⟨S1x128, .f32⟩ : BufTy).Contents (Elt F)),
    StableHlo.reshape main_v169 main_v170 rfl shapeCasts_S1x128_S128,
    StableHlo.unary main_v170 main_v171 (broadcastInDim S1x128 ![1] bcast_S128_S1x128_1 : (⟨S128, .f32⟩ : BufTy).Contents (Elt F) → (⟨S1x128, .f32⟩ : BufTy).Contents (Elt F)),
    StableHlo.unary main_v171 main_v172 (broadcastInDim S50000x128 ![0, 1] bcast_S1x128_S50000x128_0_1 : (⟨S1x128, .f32⟩ : BufTy).Contents (Elt F) → (⟨S50000x128, .f32⟩ : BufTy).Contents (Elt F)),
    StableHlo.binary main_v168 main_v172 main_v173 (addf : (⟨S50000x128, .f32⟩ : BufTy).Contents (Elt F) → (⟨S50000x128, .f32⟩ : BufTy).Contents (Elt F) → (⟨S50000x128, .f32⟩ : BufTy).Contents (Elt F)),
    StableHlo.unary main_arg1 main_v174 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v174 main_v175 rfl shapeCasts_S1x800000_S800000,
    StableHlo.unary main_arg2 main_v176 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v176 main_v177 rfl shapeCasts_S1x800000_S800000,
    StableHlo.nullary main_cst_31 (constant S_ .f32 0x00000000#32),
    StableHlo.unary main_cst_31 main_v178 (broadcastInDim S50000 ![] bcast_S_S50000 : (⟨S_, .f32⟩ : BufTy).Contents (Elt F) → (⟨S50000, .f32⟩ : BufTy).Contents (Elt F)),
    StableHlo.unary main_v175 main_v179 (broadcastInDim S800000x1 ![0] bcast_S800000_S800000x1_0 : (⟨S800000, .i32⟩ : BufTy).Contents (Elt F) → (⟨S800000x1, .i32⟩ : BufTy).Contents (Elt F)),
    StableHlo.ternary main_v178 main_v179 main_v133 main_v180 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_32 (constant S_ .f32 0x00000000#32),
    StableHlo.unary main_cst_32 main_v181 (broadcastInDim S50000 ![] bcast_S_S50000 : (⟨S_, .f32⟩ : BufTy).Contents (Elt F) → (⟨S50000, .f32⟩ : BufTy).Contents (Elt F)),
    StableHlo.unary main_v177 main_v182 (broadcastInDim S800000x1 ![0] bcast_S800000_S800000x1_0 : (⟨S800000, .i32⟩ : BufTy).Contents (Elt F) → (⟨S800000x1, .i32⟩ : BufTy).Contents (Elt F)),
    StableHlo.ternary main_v181 main_v182 main_v133 main_v183 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_33 (constant S_ .f32 0x3F800000#32),
    StableHlo.unary main_cst_33 main_v184 (broadcastInDim S50000 ![] bcast_S_S50000 : (⟨S_, .f32⟩ : BufTy).Contents (Elt F) → (⟨S50000, .f32⟩ : BufTy).Contents (Elt F)),
    StableHlo.binary main_v180 main_v184 main_v185 (maximumf : (⟨S50000, .f32⟩ : BufTy).Contents (Elt F) → (⟨S50000, .f32⟩ : BufTy).Contents (Elt F) → (⟨S50000, .f32⟩ : BufTy).Contents (Elt F)),
    StableHlo.unary main_v185 main_v186 (Host.rsqrt : (⟨S50000, .f32⟩ : BufTy).Contents (Elt F) → (⟨S50000, .f32⟩ : BufTy).Contents (Elt F)),
    StableHlo.unary main_v186 main_v187 (broadcastInDim S50000x1 ![0] bcast_S50000_S50000x1_0 : (⟨S50000, .f32⟩ : BufTy).Contents (Elt F) → (⟨S50000x1, .f32⟩ : BufTy).Contents (Elt F)),
    StableHlo.unary main_v187 main_v188 (broadcastInDim S50000x128 ![0, 1] bcast_S50000x1_S50000x128_0_1 : (⟨S50000x1, .f32⟩ : BufTy).Contents (Elt F) → (⟨S50000x128, .f32⟩ : BufTy).Contents (Elt F)),
    StableHlo.binary main_v128 main_v188 main_v189 (mulf : (⟨S50000x128, .f32⟩ : BufTy).Contents (Elt F) → (⟨S50000x128, .f32⟩ : BufTy).Contents (Elt F) → (⟨S50000x128, .f32⟩ : BufTy).Contents (Elt F)),
    StableHlo.nullary main_c_34 (constantI S_ 32 0#32),
    StableHlo.unary main_c_34 main_v190 (broadcastInDim S800000 ![] bcast_S_S800000 : (⟨S_, .i32⟩ : BufTy).Contents (Elt F) → (⟨S800000, .i32⟩ : BufTy).Contents (Elt F)),
    StableHlo.binary main_v175 main_v190 main_v191 (cmpi .slt : (⟨S800000, .i32⟩ : BufTy).Contents (Elt F) → (⟨S800000, .i32⟩ : BufTy).Contents (Elt F) → (⟨S800000, .i1⟩ : BufTy).Contents (Elt F)),
    StableHlo.nullary main_c_35 (constantI S_ 32 50000#32),
    StableHlo.unary main_c_35 main_v192 (broadcastInDim S800000 ![] bcast_S_S800000 : (⟨S_, .i32⟩ : BufTy).Contents (Elt F) → (⟨S800000, .i32⟩ : BufTy).Contents (Elt F)),
    StableHlo.binary main_v175 main_v192 main_v193 (addi : (⟨S800000, .i32⟩ : BufTy).Contents (Elt F) → (⟨S800000, .i32⟩ : BufTy).Contents (Elt F) → (⟨S800000, .i32⟩ : BufTy).Contents (Elt F)),
    StableHlo.ternary main_v191 main_v193 main_v175 main_v194 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v194 main_v195 (broadcastInDim S800000x1 ![0] bcast_S800000_S800000x1_0 : (⟨S800000, .i32⟩ : BufTy).Contents (Elt F) → (⟨S800000x1, .i32⟩ : BufTy).Contents (Elt F)),
    StableHlo.binary main_v189 main_v195 main_v196 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_36 (constant S_ .f32 0x00000000#32),
    StableHlo.unary main_cst_36 main_v197 (broadcastInDim S50000x128 ![] bcast_S_S50000x128 : (⟨S_, .f32⟩ : BufTy).Contents (Elt F) → (⟨S50000x128, .f32⟩ : BufTy).Contents (Elt F)),
    StableHlo.unary main_v177 main_v198 (broadcastInDim S800000x1 ![0] bcast_S800000_S800000x1_0 : (⟨S800000, .i32⟩ : BufTy).Contents (Elt F) → (⟨S800000x1, .i32⟩ : BufTy).Contents (Elt F)),
    StableHlo.ternary main_v197 main_v198 main_v196 main_v199 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_37 (constant S_ .f32 0x3F800000#32),
    StableHlo.unary main_cst_37 main_v200 (broadcastInDim S50000 ![] bcast_S_S50000 : (⟨S_, .f32⟩ : BufTy).Contents (Elt F) → (⟨S50000, .f32⟩ : BufTy).Contents (Elt F)),
    StableHlo.binary main_v183 main_v200 main_v201 (maximumf : (⟨S50000, .f32⟩ : BufTy).Contents (Elt F) → (⟨S50000, .f32⟩ : BufTy).Contents (Elt F) → (⟨S50000, .f32⟩ : BufTy).Contents (Elt F)),
    StableHlo.unary main_v201 main_v202 (Host.rsqrt : (⟨S50000, .f32⟩ : BufTy).Contents (Elt F) → (⟨S50000, .f32⟩ : BufTy).Contents (Elt F)),
    StableHlo.unary main_v202 main_v203 (broadcastInDim S50000x1 ![0] bcast_S50000_S50000x1_0 : (⟨S50000, .f32⟩ : BufTy).Contents (Elt F) → (⟨S50000x1, .f32⟩ : BufTy).Contents (Elt F)),
    StableHlo.unary main_v203 main_v204 (broadcastInDim S50000x128 ![0, 1] bcast_S50000x1_S50000x128_0_1 : (⟨S50000x1, .f32⟩ : BufTy).Contents (Elt F) → (⟨S50000x128, .f32⟩ : BufTy).Contents (Elt F)),
    StableHlo.binary main_v199 main_v204 main_v205 (mulf : (⟨S50000x128, .f32⟩ : BufTy).Contents (Elt F) → (⟨S50000x128, .f32⟩ : BufTy).Contents (Elt F) → (⟨S50000x128, .f32⟩ : BufTy).Contents (Elt F)),
    StableHlo.unary main_v130 main_v206 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v206 main_v207 rfl shapeCasts_S1x128x128_S128x128,
    StableHlo.binary main_v205 main_v207 main_v208 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v132 main_v209 ((extractStridedSlice S1x128 ![1, 0] · slices_S3x128_S1x128_1_0) : (⟨S3x128, .f32⟩ : BufTy).Contents (Elt F) → (⟨S1x128, .f32⟩ : BufTy).Contents (Elt F)),
    StableHlo.reshape main_v209 main_v210 rfl shapeCasts_S1x128_S128,
    StableHlo.unary main_v210 main_v211 (broadcastInDim S1x128 ![1] bcast_S128_S1x128_1 : (⟨S128, .f32⟩ : BufTy).Contents (Elt F) → (⟨S1x128, .f32⟩ : BufTy).Contents (Elt F)),
    StableHlo.unary main_v211 main_v212 (broadcastInDim S50000x128 ![0, 1] bcast_S1x128_S50000x128_0_1 : (⟨S1x128, .f32⟩ : BufTy).Contents (Elt F) → (⟨S50000x128, .f32⟩ : BufTy).Contents (Elt F)),
    StableHlo.binary main_v208 main_v212 main_v213 (addf : (⟨S50000x128, .f32⟩ : BufTy).Contents (Elt F) → (⟨S50000x128, .f32⟩ : BufTy).Contents (Elt F) → (⟨S50000x128, .f32⟩ : BufTy).Contents (Elt F)),
    StableHlo.unary main_arg1 main_v214 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v214 main_v215 rfl shapeCasts_S1x800000_S800000,
    StableHlo.unary main_arg2 main_v216 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v216 main_v217 rfl shapeCasts_S1x800000_S800000,
    StableHlo.nullary main_cst_38 (constant S_ .f32 0x00000000#32),
    StableHlo.unary main_cst_38 main_v218 (broadcastInDim S50000 ![] bcast_S_S50000 : (⟨S_, .f32⟩ : BufTy).Contents (Elt F) → (⟨S50000, .f32⟩ : BufTy).Contents (Elt F)),
    StableHlo.unary main_v215 main_v219 (broadcastInDim S800000x1 ![0] bcast_S800000_S800000x1_0 : (⟨S800000, .i32⟩ : BufTy).Contents (Elt F) → (⟨S800000x1, .i32⟩ : BufTy).Contents (Elt F)),
    StableHlo.ternary main_v218 main_v219 main_v133 main_v220 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_39 (constant S_ .f32 0x00000000#32),
    StableHlo.unary main_cst_39 main_v221 (broadcastInDim S50000 ![] bcast_S_S50000 : (⟨S_, .f32⟩ : BufTy).Contents (Elt F) → (⟨S50000, .f32⟩ : BufTy).Contents (Elt F)),
    StableHlo.unary main_v217 main_v222 (broadcastInDim S800000x1 ![0] bcast_S800000_S800000x1_0 : (⟨S800000, .i32⟩ : BufTy).Contents (Elt F) → (⟨S800000x1, .i32⟩ : BufTy).Contents (Elt F)),
    StableHlo.ternary main_v221 main_v222 main_v133 main_v223 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_40 (constant S_ .f32 0x3F800000#32),
    StableHlo.unary main_cst_40 main_v224 (broadcastInDim S50000 ![] bcast_S_S50000 : (⟨S_, .f32⟩ : BufTy).Contents (Elt F) → (⟨S50000, .f32⟩ : BufTy).Contents (Elt F)),
    StableHlo.binary main_v220 main_v224 main_v225 (maximumf : (⟨S50000, .f32⟩ : BufTy).Contents (Elt F) → (⟨S50000, .f32⟩ : BufTy).Contents (Elt F) → (⟨S50000, .f32⟩ : BufTy).Contents (Elt F)),
    StableHlo.unary main_v225 main_v226 (Host.rsqrt : (⟨S50000, .f32⟩ : BufTy).Contents (Elt F) → (⟨S50000, .f32⟩ : BufTy).Contents (Elt F)),
    StableHlo.unary main_v226 main_v227 (broadcastInDim S50000x1 ![0] bcast_S50000_S50000x1_0 : (⟨S50000, .f32⟩ : BufTy).Contents (Elt F) → (⟨S50000x1, .f32⟩ : BufTy).Contents (Elt F)),
    StableHlo.unary main_v227 main_v228 (broadcastInDim S50000x128 ![0, 1] bcast_S50000x1_S50000x128_0_1 : (⟨S50000x1, .f32⟩ : BufTy).Contents (Elt F) → (⟨S50000x128, .f32⟩ : BufTy).Contents (Elt F)),
    StableHlo.binary main_v128 main_v228 main_v229 (mulf : (⟨S50000x128, .f32⟩ : BufTy).Contents (Elt F) → (⟨S50000x128, .f32⟩ : BufTy).Contents (Elt F) → (⟨S50000x128, .f32⟩ : BufTy).Contents (Elt F)),
    StableHlo.nullary main_c_41 (constantI S_ 32 0#32),
    StableHlo.unary main_c_41 main_v230 (broadcastInDim S800000 ![] bcast_S_S800000 : (⟨S_, .i32⟩ : BufTy).Contents (Elt F) → (⟨S800000, .i32⟩ : BufTy).Contents (Elt F)),
    StableHlo.binary main_v215 main_v230 main_v231 (cmpi .slt : (⟨S800000, .i32⟩ : BufTy).Contents (Elt F) → (⟨S800000, .i32⟩ : BufTy).Contents (Elt F) → (⟨S800000, .i1⟩ : BufTy).Contents (Elt F)),
    StableHlo.nullary main_c_42 (constantI S_ 32 50000#32),
    StableHlo.unary main_c_42 main_v232 (broadcastInDim S800000 ![] bcast_S_S800000 : (⟨S_, .i32⟩ : BufTy).Contents (Elt F) → (⟨S800000, .i32⟩ : BufTy).Contents (Elt F)),
    StableHlo.binary main_v215 main_v232 main_v233 (addi : (⟨S800000, .i32⟩ : BufTy).Contents (Elt F) → (⟨S800000, .i32⟩ : BufTy).Contents (Elt F) → (⟨S800000, .i32⟩ : BufTy).Contents (Elt F)),
    StableHlo.ternary main_v231 main_v233 main_v215 main_v234 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v234 main_v235 (broadcastInDim S800000x1 ![0] bcast_S800000_S800000x1_0 : (⟨S800000, .i32⟩ : BufTy).Contents (Elt F) → (⟨S800000x1, .i32⟩ : BufTy).Contents (Elt F)),
    StableHlo.binary main_v229 main_v235 main_v236 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_43 (constant S_ .f32 0x00000000#32),
    StableHlo.unary main_cst_43 main_v237 (broadcastInDim S50000x128 ![] bcast_S_S50000x128 : (⟨S_, .f32⟩ : BufTy).Contents (Elt F) → (⟨S50000x128, .f32⟩ : BufTy).Contents (Elt F)),
    StableHlo.unary main_v217 main_v238 (broadcastInDim S800000x1 ![0] bcast_S800000_S800000x1_0 : (⟨S800000, .i32⟩ : BufTy).Contents (Elt F) → (⟨S800000x1, .i32⟩ : BufTy).Contents (Elt F)),
    StableHlo.ternary main_v237 main_v238 main_v236 main_v239 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_44 (constant S_ .f32 0x3F800000#32),
    StableHlo.unary main_cst_44 main_v240 (broadcastInDim S50000 ![] bcast_S_S50000 : (⟨S_, .f32⟩ : BufTy).Contents (Elt F) → (⟨S50000, .f32⟩ : BufTy).Contents (Elt F)),
    StableHlo.binary main_v223 main_v240 main_v241 (maximumf : (⟨S50000, .f32⟩ : BufTy).Contents (Elt F) → (⟨S50000, .f32⟩ : BufTy).Contents (Elt F) → (⟨S50000, .f32⟩ : BufTy).Contents (Elt F)),
    StableHlo.unary main_v241 main_v242 (Host.rsqrt : (⟨S50000, .f32⟩ : BufTy).Contents (Elt F) → (⟨S50000, .f32⟩ : BufTy).Contents (Elt F)),
    StableHlo.unary main_v242 main_v243 (broadcastInDim S50000x1 ![0] bcast_S50000_S50000x1_0 : (⟨S50000, .f32⟩ : BufTy).Contents (Elt F) → (⟨S50000x1, .f32⟩ : BufTy).Contents (Elt F)),
    StableHlo.unary main_v243 main_v244 (broadcastInDim S50000x128 ![0, 1] bcast_S50000x1_S50000x128_0_1 : (⟨S50000x1, .f32⟩ : BufTy).Contents (Elt F) → (⟨S50000x128, .f32⟩ : BufTy).Contents (Elt F)),
    StableHlo.binary main_v239 main_v244 main_v245 (mulf : (⟨S50000x128, .f32⟩ : BufTy).Contents (Elt F) → (⟨S50000x128, .f32⟩ : BufTy).Contents (Elt F) → (⟨S50000x128, .f32⟩ : BufTy).Contents (Elt F)),
    StableHlo.unary main_v130 main_v246 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v246 main_v247 rfl shapeCasts_S1x128x128_S128x128,
    StableHlo.binary main_v245 main_v247 main_v248 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v132 main_v249 ((extractStridedSlice S1x128 ![2, 0] · slices_S3x128_S1x128_2_0) : (⟨S3x128, .f32⟩ : BufTy).Contents (Elt F) → (⟨S1x128, .f32⟩ : BufTy).Contents (Elt F)),
    StableHlo.reshape main_v249 main_v250 rfl shapeCasts_S1x128_S128,
    StableHlo.unary main_v250 main_v251 (broadcastInDim S1x128 ![1] bcast_S128_S1x128_1 : (⟨S128, .f32⟩ : BufTy).Contents (Elt F) → (⟨S1x128, .f32⟩ : BufTy).Contents (Elt F)),
    StableHlo.unary main_v251 main_v252 (broadcastInDim S50000x128 ![0, 1] bcast_S1x128_S50000x128_0_1 : (⟨S1x128, .f32⟩ : BufTy).Contents (Elt F) → (⟨S50000x128, .f32⟩ : BufTy).Contents (Elt F)),
    StableHlo.binary main_v248 main_v252 main_v253 (addf : (⟨S50000x128, .f32⟩ : BufTy).Contents (Elt F) → (⟨S50000x128, .f32⟩ : BufTy).Contents (Elt F) → (⟨S50000x128, .f32⟩ : BufTy).Contents (Elt F)),
    StableHlo.unary main_v173 main_v254 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v213 main_v255 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v253 main_v256 (broadcastInDim S1x50000x128 ![1, 2] bcast_S50000x128_S1x50000x128_1_2 : (⟨S50000x128, .f32⟩ : BufTy).Contents (Elt F) → (⟨S1x50000x128, .f32⟩ : BufTy).Contents (Elt F)),
    StableHlo.nary ![main_v254, main_v255, main_v256] main_v257 (fun u => concatenate S3x50000x128 0 [⟨S1x50000x128, u 0⟩, ⟨S1x50000x128, u 1⟩, ⟨S1x50000x128, u 2⟩] concatenates_S1x50000x128_S1x50000x128_S1x50000x128_S3x50000x128_d0),
    StableHlo.nullary main_cst_45 (constant S_ .f32 0x00000000#32),
    StableHlo.binary main_v257 main_cst_45 main_v258 ((fun x v => Host.reduceAdd x v reducesTo_S3x50000x128_S50000x128_d0 h_S_) : (⟨S3x50000x128, .f32⟩ : BufTy).Contents (Elt F) → (⟨S_, .f32⟩ : BufTy).Contents (Elt F) → (⟨S50000x128, .f32⟩ : BufTy).Contents (Elt F)),
    StableHlo.nullary main_cst_46 (constant S_ .f32 0x40400000#32),
    StableHlo.unary main_cst_46 main_v259 (broadcastInDim S50000x128 ![] bcast_S_S50000x128 : (⟨S_, .f32⟩ : BufTy).Contents (Elt F) → (⟨S50000x128, .f32⟩ : BufTy).Contents (Elt F)),
    StableHlo.binary main_v258 main_v259 main_v260 (Host.divf : (⟨S50000x128, .f32⟩ : BufTy).Contents (Elt F) → (⟨S50000x128, .f32⟩ : BufTy).Contents (Elt F) → (⟨S50000x128, .f32⟩ : BufTy).Contents (Elt F)),
    StableHlo.nullary main_cst_47 (constant S_ .f32 0x3C23D70A#32),
    TRef.nullary main_call1.cst (constant S_ .f32 0x00000000#32),
    TRef.unary main_call1.cst main_call1.v0 (broadcastInDim S50000x128 ![] bcast_S_S50000x128),
    TRef.binary (.of main_v260) main_call1.v0 main_call1.v1 (cmpf .oge),
    TRef.unary (.of main_cst_47) main_call1.v2 id,
    TRef.unary main_call1.v2 main_call1.v3 (broadcastInDim S50000x128 ![] bcast_S_S50000x128),
    TRef.binary main_call1.v3 (.of main_v260) main_call1.v4 mulf,
    TRef.ternary main_call1.v1 (.of main_v260) main_call1.v4 main_call1.call0.v0 select ]

theorem opsL1_eq : (opsL1 : List (HloOp τ sig (Elt F))) = w2_1 ++ w3_0 ++ w4_0 ++ w5_0 := rfl

theorem opsL1_sub : (opsL1 : List (HloOp τ sig (Elt F))).Forall fun op => op.bufs ⊆ tcRefs τ sig :=
  ⟨unary_bufs_sub .., reshape_bufs_sub .., unary_bufs_sub .., reshape_bufs_sub .., nullary_bufs_sub .., unary_bufs_sub .., unary_bufs_sub .., reshape_bufs_sub .., unary_bufs_sub .., reshape_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., unary_bufs_sub .., nary_bufs_sub .., nullary_bufs_sub .., binary_bufs_sub .., nullary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

theorem opsL1_fresh : (opsL1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the layer writes: each operation's result. -/
def opsL1_W : List (Ref sig .tc) :=
  [main_v129, main_v130, main_v131, main_v132, main_cst_23, main_v133, main_v134, main_v135, main_v136, main_v137, main_cst_24, main_v138, main_v139, main_v140, main_cst_25, main_v141, main_v142, main_v143, main_cst_26, main_v144, main_v145, main_v146, main_v147, main_v148, main_v149, main_c_27, main_v150, main_v151, main_c_28, main_v152, main_v153, main_v154, main_v155, main_v156, main_cst_29, main_v157, main_v158, main_v159, main_cst_30, main_v160, main_v161, main_v162, main_v163, main_v164, main_v165, main_v166, main_v167, main_v168, main_v169, main_v170, main_v171, main_v172, main_v173, main_v174, main_v175, main_v176, main_v177, main_cst_31, main_v178, main_v179, main_v180, main_cst_32, main_v181, main_v182, main_v183, main_cst_33, main_v184, main_v185, main_v186, main_v187, main_v188, main_v189, main_c_34, main_v190, main_v191, main_c_35, main_v192, main_v193, main_v194, main_v195, main_v196, main_cst_36, main_v197, main_v198, main_v199, main_cst_37, main_v200, main_v201, main_v202, main_v203, main_v204, main_v205, main_v206, main_v207, main_v208, main_v209, main_v210, main_v211, main_v212, main_v213, main_v214, main_v215, main_v216, main_v217, main_cst_38, main_v218, main_v219, main_v220, main_cst_39, main_v221, main_v222, main_v223, main_cst_40, main_v224, main_v225, main_v226, main_v227, main_v228, main_v229, main_c_41, main_v230, main_v231, main_c_42, main_v232, main_v233, main_v234, main_v235, main_v236, main_cst_43, main_v237, main_v238, main_v239, main_cst_44, main_v240, main_v241, main_v242, main_v243, main_v244, main_v245, main_v246, main_v247, main_v248, main_v249, main_v250, main_v251, main_v252, main_v253, main_v254, main_v255, main_v256, main_v257, main_cst_45, main_v258, main_cst_46, main_v259, main_v260, main_cst_47, main_call1_cst, main_call1_v0, main_call1_v1, main_call1_v2, main_call1_v3, main_call1_v4, main_v261]

/-- Every operation of the layer writes inside that list. -/
theorem opsL1_writes : (opsL1 : List (HloOp τ sig (Elt F))).Forall fun op => op.writes ⊆ (opsL1_W.map (Proc.devRef (τ := τ) .tc)).toFinset := by
  host_writes opsL1

/-- A reference the layer does not write keeps its contents. -/
theorem opsL1_keeps (V : Valuation τ sig (Elt F)) {r : Ref sig .tc} (hr : r ∉ opsL1_W) :
    after opsL1 V (Proc.devRef .tc r) = V (Proc.devRef .tc r) :=
  after_of_writes_sub opsL1 V opsL1_writes hr

end Cert.ReferenceIdeal.RefRun

end
-- ==== Proof.RefRunW6.lean ====
/- Statements 361 … 420 of the reference's @main (its window 6) as a list of host operations: the window is the
   straight line `seq` of the list, by unfolding. A call to @leaky_relu stands as the seven operations of its body (the last the select of
   the @_where it calls) over that call's buffers. Where a graph-conv layer ends inside the window the list is given in two pieces. -/
import proofs.«165758_j22333829939343_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 6, the part in layer 2 (60 operations). -/
def w6_0 : List (HloOp τ sig (Elt F)) :=
  [ StableHlo.unary main_v265 main_v302 ((extractStridedSlice S1x128 ![0, 0] · slices_S3x128_S1x128_0_0) : (⟨S3x128, .f32⟩ : BufTy).Contents (Elt F) → (⟨S1x128, .f32⟩ : BufTy).Contents (Elt F)),
    StableHlo.reshape main_v302 main_v303 rfl shapeCasts_S1x128_S128,
    StableHlo.unary main_v303 main_v304 (broadcastInDim S1x128 ![1] bcast_S128_S1x128_1 : (⟨S128, .f32⟩ : BufTy).Contents (Elt F) → (⟨S1x128, .f32⟩ : BufTy).Contents (Elt F)),
    StableHlo.unary main_v304 main_v305 (broadcastInDim S50000x128 ![0, 1] bcast_S1x128_S50000x128_0_1 : (⟨S1x128, .f32⟩ : BufTy).Contents (Elt F) → (⟨S50000x128, .f32⟩ : BufTy).Contents (Elt F)),
    StableHlo.binary main_v301 main_v305 main_v306 (addf : (⟨S50000x128, .f32⟩ : BufTy).Contents (Elt F) → (⟨S50000x128, .f32⟩ : BufTy).Contents (Elt F) → (⟨S50000x128, .f32⟩ : BufTy).Contents (Elt F)),
    StableHlo.unary main_arg1 main_v307 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v307 main_v308 rfl shapeCasts_S1x800000_S800000,
    StableHlo.unary main_arg2 main_v309 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v309 main_v310 rfl shapeCasts_S1x800000_S800000,
    StableHlo.nullary main_cst_56 (constant S_ .f32 0x00000000#32),
    StableHlo.unary main_cst_56 main_v311 (broadcastInDim S50000 ![] bcast_S_S50000 : (⟨S_, .f32⟩ : BufTy).Contents (Elt F) → (⟨S50000, .f32⟩ : BufTy).Contents (Elt F)),
    StableHlo.unary main_v308 main_v312 (broadcastInDim S800000x1 ![0] bcast_S800000_S800000x1_0 : (⟨S800000, .i32⟩ : BufTy).Contents (Elt F) → (⟨S800000x1, .i32⟩ : BufTy).Contents (Elt F)),
    StableHlo.ternary main_v311 main_v312 main_v266 main_v313 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_57 (constant S_ .f32 0x00000000#32),
    StableHlo.unary main_cst_57 main_v314 (broadcastInDim S50000 ![] bcast_S_S50000 : (⟨S_, .f32⟩ : BufTy).Contents (Elt F) → (⟨S50000, .f32⟩ : BufTy).Contents (Elt F)),
    StableHlo.unary main_v310 main_v315 (broadcastInDim S800000x1 ![0] bcast_S800000_S800000x1_0 : (⟨S800000, .i32⟩ : BufTy).Contents (Elt F) → (⟨S800000x1, .i32⟩ : BufTy).Contents (Elt F)),
    StableHlo.ternary main_v314 main_v315 main_v266 main_v316 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_58 (constant S_ .f32 0x3F800000#32),
    StableHlo.unary main_cst_58 main_v317 (broadcastInDim S50000 ![] bcast_S_S50000 : (⟨S_, .f32⟩ : BufTy).Contents (Elt F) → (⟨S50000, .f32⟩ : BufTy).Contents (Elt F)),
    StableHlo.binary main_v313 main_v317 main_v318 (maximumf : (⟨S50000, .f32⟩ : BufTy).Contents (Elt F) → (⟨S50000, .f32⟩ : BufTy).Contents (Elt F) → (⟨S50000, .f32⟩ : BufTy).Contents (Elt F)),
    StableHlo.unary main_v318 main_v319 (Host.rsqrt : (⟨S50000, .f32⟩ : BufTy).Contents (Elt F) → (⟨S50000, .f32⟩ : BufTy).Contents (Elt F)),
    StableHlo.unary main_v319 main_v320 (broadcastInDim S50000x1 ![0] bcast_S50000_S50000x1_0 : (⟨S50000, .f32⟩ : BufTy).Contents (Elt F) → (⟨S50000x1, .f32⟩ : BufTy).Contents (Elt F)),
    StableHlo.unary main_v320 main_v321 (broadcastInDim S50000x128 ![0, 1] bcast_S50000x1_S50000x128_0_1 : (⟨S50000x1, .f32⟩ : BufTy).Contents (Elt F) → (⟨S50000x128, .f32⟩ : BufTy).Contents (Elt F)),
    StableHlo.binary main_v261 main_v321 main_v322 (mulf : (⟨S50000x128, .f32⟩ : BufTy).Contents (Elt F) → (⟨S50000x128, .f32⟩ : BufTy).Contents (Elt F) → (⟨S50000x128, .f32⟩ : BufTy).Contents (Elt F)),
    StableHlo.nullary main_c_59 (constantI S_ 32 0#32),
    StableHlo.unary main_c_59 main_v323 (broadcastInDim S800000 ![] bcast_S_S800000 : (⟨S_, .i32⟩ : BufTy).Contents (Elt F) → (⟨S800000, .i32⟩ : BufTy).Contents (Elt F)),
    StableHlo.binary main_v308 main_v323 main_v324 (cmpi .slt : (⟨S800000, .i32⟩ : BufTy).Contents (Elt F) → (⟨S800000, .i32⟩ : BufTy).Contents (Elt F) → (⟨S800000, .i1⟩ : BufTy).Contents (Elt F)),
    StableHlo.nullary main_c_60 (constantI S_ 32 50000#32),
    StableHlo.unary main_c_60 main_v325 (broadcastInDim S800000 ![] bcast_S_S800000 : (⟨S_, .i32⟩ : BufTy).Contents (Elt F) → (⟨S800000, .i32⟩ : BufTy).Contents (Elt F)),
    StableHlo.binary main_v308 main_v325 main_v326 (addi : (⟨S800000, .i32⟩ : BufTy).Contents (Elt F) → (⟨S800000, .i32⟩ : BufTy).Contents (Elt F) → (⟨S800000, .i32⟩ : BufTy).Contents (Elt F)),
    StableHlo.ternary main_v324 main_v326 main_v308 main_v327 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v327 main_v328 (broadcastInDim S800000x1 ![0] bcast_S800000_S800000x1_0 : (⟨S800000, .i32⟩ : BufTy).Contents (Elt F) → (⟨S800000x1, .i32⟩ : BufTy).Contents (Elt F)),
    StableHlo.binary main_v322 main_v328 main_v329 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_61 (constant S_ .f32 0x00000000#32),
    StableHlo.unary main_cst_61 main_v330 (broadcastInDim S50000x128 ![] bcast_S_S50000x128 : (⟨S_, .f32⟩ : BufTy).Contents (Elt F) → (⟨S50000x128, .f32⟩ : BufTy).Contents (Elt F)),
    StableHlo.unary main_v310 main_v331 (broadcastInDim S800000x1 ![0] bcast_S800000_S800000x1_0 : (⟨S800000, .i32⟩ : BufTy).Contents (Elt F) → (⟨S800000x1, .i32⟩ : BufTy).Contents (Elt F)),
    StableHlo.ternary main_v330 main_v331 main_v329 main_v332 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_62 (constant S_ .f32 0x3F800000#32),
    StableHlo.unary main_cst_62 main_v333 (broadcastInDim S50000 ![] bcast_S_S50000 : (⟨S_, .f32⟩ : BufTy).Contents (Elt F) → (⟨S50000, .f32⟩ : BufTy).Contents (Elt F)),
    StableHlo.binary main_v316 main_v333 main_v334 (maximumf : (⟨S50000, .f32⟩ : BufTy).Contents (Elt F) → (⟨S50000, .f32⟩ : BufTy).Contents (Elt F) → (⟨S50000, .f32⟩ : BufTy).Contents (Elt F)),
    StableHlo.unary main_v334 main_v335 (Host.rsqrt : (⟨S50000, .f32⟩ : BufTy).Contents (Elt F) → (⟨S50000, .f32⟩ : BufTy).Contents (Elt F)),
    StableHlo.unary main_v335 main_v336 (broadcastInDim S50000x1 ![0] bcast_S50000_S50000x1_0 : (⟨S50000, .f32⟩ : BufTy).Contents (Elt F) → (⟨S50000x1, .f32⟩ : BufTy).Contents (Elt F)),
    StableHlo.unary main_v336 main_v337 (broadcastInDim S50000x128 ![0, 1] bcast_S50000x1_S50000x128_0_1 : (⟨S50000x1, .f32⟩ : BufTy).Contents (Elt F) → (⟨S50000x128, .f32⟩ : BufTy).Contents (Elt F)),
    StableHlo.binary main_v332 main_v337 main_v338 (mulf : (⟨S50000x128, .f32⟩ : BufTy).Contents (Elt F) → (⟨S50000x128, .f32⟩ : BufTy).Contents (Elt F) → (⟨S50000x128, .f32⟩ : BufTy).Contents (Elt F)),
    StableHlo.unary main_v263 main_v339 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v339 main_v340 rfl shapeCasts_S1x128x128_S128x128,
    StableHlo.binary main_v338 main_v340 main_v341 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v265 main_v342 ((extractStridedSlice S1x128 ![1, 0] · slices_S3x128_S1x128_1_0) : (⟨S3x128, .f32⟩ : BufTy).Contents (Elt F) → (⟨S1x128, .f32⟩ : BufTy).Contents (Elt F)),
    StableHlo.reshape main_v342 main_v343 rfl shapeCasts_S1x128_S128,
    StableHlo.unary main_v343 main_v344 (broadcastInDim S1x128 ![1] bcast_S128_S1x128_1 : (⟨S128, .f32⟩ : BufTy).Contents (Elt F) → (⟨S1x128, .f32⟩ : BufTy).Contents (Elt F)),
    StableHlo.unary main_v344 main_v345 (broadcastInDim S50000x128 ![0, 1] bcast_S1x128_S50000x128_0_1 : (⟨S1x128, .f32⟩ : BufTy).Contents (Elt F) → (⟨S50000x128, .f32⟩ : BufTy).Contents (Elt F)),
    StableHlo.binary main_v341 main_v345 main_v346 (addf : (⟨S50000x128, .f32⟩ : BufTy).Contents (Elt F) → (⟨S50000x128, .f32⟩ : BufTy).Contents (Elt F) → (⟨S50000x128, .f32⟩ : BufTy).Contents (Elt F)),
    StableHlo.unary main_arg1 main_v347 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v347 main_v348 rfl shapeCasts_S1x800000_S800000,
    StableHlo.unary main_arg2 main_v349 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v349 main_v350 rfl shapeCasts_S1x800000_S800000,
    StableHlo.nullary main_cst_63 (constant S_ .f32 0x00000000#32),
    StableHlo.unary main_cst_63 main_v351 (broadcastInDim S50000 ![] bcast_S_S50000 : (⟨S_, .f32⟩ : BufTy).Contents (Elt F) → (⟨S50000, .f32⟩ : BufTy).Contents (Elt F)),
    StableHlo.unary main_v348 main_v352 (broadcastInDim S800000x1 ![0] bcast_S800000_S800000x1_0 : (⟨S800000, .i32⟩ : BufTy).Contents (Elt F) → (⟨S800000x1, .i32⟩ : BufTy).Contents (Elt F)),
    StableHlo.ternary main_v351 main_v352 main_v266 main_v353 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) ]

/-- The window is that line. -/
theorem part6_eq (c : Dev nD) : main_part6 (F := F) c = seq (w6_0 (F := F)) := rfl

end Cert.ReferenceIdeal.RefRun

end
-- ==== Proof.RefRunW7.lean ====
/- Statements 421 … 480 of the reference's @main (its window 7) as a list of host operations: the window is the
   straight line `seq` of the list, by unfolding. A call to @leaky_relu stands as the seven operations of its body (the last the select of
   the @_where it calls) over that call's buffers. Where a graph-conv layer ends inside the window the list is given in two pieces. -/
import proofs.«165758_j22333829939343_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 7, the part in layer 2 (56 operations). -/
def w7_0 : List (HloOp τ sig (Elt F)) :=
  [ StableHlo.nullary main_cst_64 (constant S_ .f32 0x00000000#32),
    StableHlo.unary main_cst_64 main_v354 (broadcastInDim S50000 ![] bcast_S_S50000 : (⟨S_, .f32⟩ : BufTy).Contents (Elt F) → (⟨S50000, .f32⟩ : BufTy).Contents (Elt F)),
    StableHlo.unary main_v350 main_v355 (broadcastInDim S800000x1 ![0] bcast_S800000_S800000x1_0 : (⟨S800000, .i32⟩ : BufTy).Contents (Elt F) → (⟨S800000x1, .i32⟩ : BufTy).Contents (Elt F)),
    StableHlo.ternary main_v354 main_v355 main_v266 main_v356 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_65 (constant S_ .f32 0x3F800000#32),
    StableHlo.unary main_cst_65 main_v357 (broadcastInDim S50000 ![] bcast_S_S50000 : (⟨S_, .f32⟩ : BufTy).Contents (Elt F) → (⟨S50000, .f32⟩ : BufTy).Contents (Elt F)),
    StableHlo.binary main_v353 main_v357 main_v358 (maximumf : (⟨S50000, .f32⟩ : BufTy).Contents (Elt F) → (⟨S50000, .f32⟩ : BufTy).Contents (Elt F) → (⟨S50000, .f32⟩ : BufTy).Contents (Elt F)),
    StableHlo.unary main_v358 main_v359 (Host.rsqrt : (⟨S50000, .f32⟩ : BufTy).Contents (Elt F) → (⟨S50000, .f32⟩ : BufTy).Contents (Elt F)),
    StableHlo.unary main_v359 main_v360 (broadcastInDim S50000x1 ![0] bcast_S50000_S50000x1_0 : (⟨S50000, .f32⟩ : BufTy).Contents (Elt F) → (⟨S50000x1, .f32⟩ : BufTy).Contents (Elt F)),
    StableHlo.unary main_v360 main_v361 (broadcastInDim S50000x128 ![0, 1] bcast_S50000x1_S50000x128_0_1 : (⟨S50000x1, .f32⟩ : BufTy).Contents (Elt F) → (⟨S50000x128, .f32⟩ : BufTy).Contents (Elt F)),
    StableHlo.binary main_v261 main_v361 main_v362 (mulf : (⟨S50000x128, .f32⟩ : BufTy).Contents (Elt F) → (⟨S50000x128, .f32⟩ : BufTy).Contents (Elt F) → (⟨S50000x128, .f32⟩ : BufTy).Contents (Elt F)),
    StableHlo.nullary main_c_66 (constantI S_ 32 0#32),
    StableHlo.unary main_c_66 main_v363 (broadcastInDim S800000 ![] bcast_S_S800000 : (⟨S_, .i32⟩ : BufTy).Contents (Elt F) → (⟨S800000, .i32⟩ : BufTy).Contents (Elt F)),
    StableHlo.binary main_v348 main_v363 main_v364 (cmpi .slt : (⟨S800000, .i32⟩ : BufTy).Contents (Elt F) → (⟨S800000, .i32⟩ : BufTy).Contents (Elt F) → (⟨S800000, .i1⟩ : BufTy).Contents (Elt F)),
    StableHlo.nullary main_c_67 (constantI S_ 32 50000#32),
    StableHlo.unary main_c_67 main_v365 (broadcastInDim S800000 ![] bcast_S_S800000 : (⟨S_, .i32⟩ : BufTy).Contents (Elt F) → (⟨S800000, .i32⟩ : BufTy).Contents (Elt F)),
    StableHlo.binary main_v348 main_v365 main_v366 (addi : (⟨S800000, .i32⟩ : BufTy).Contents (Elt F) → (⟨S800000, .i32⟩ : BufTy).Contents (Elt F) → (⟨S800000, .i32⟩ : BufTy).Contents (Elt F)),
    StableHlo.ternary main_v364 main_v366 main_v348 main_v367 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v367 main_v368 (broadcastInDim S800000x1 ![0] bcast_S800000_S800000x1_0 : (⟨S800000, .i32⟩ : BufTy).Contents (Elt F) → (⟨S800000x1, .i32⟩ : BufTy).Contents (Elt F)),
    StableHlo.binary main_v362 main_v368 main_v369 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_68 (constant S_ .f32 0x00000000#32),
    StableHlo.unary main_cst_68 main_v370 (broadcastInDim S50000x128 ![] bcast_S_S50000x128 : (⟨S_, .f32⟩ : BufTy).Contents (Elt F) → (⟨S50000x128, .f32⟩ : BufTy).Contents (Elt F)),
    StableHlo.unary main_v350 main_v371 (broadcastInDim S800000x1 ![0] bcast_S800000_S800000x1_0 : (⟨S800000, .i32⟩ : BufTy).Contents (Elt F) → (⟨S800000x1, .i32⟩ : BufTy).Contents (Elt F)),
    StableHlo.ternary main_v370 main_v371 main_v369 main_v372 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_69 (constant S_ .f32 0x3F800000#32),
    StableHlo.unary main_cst_69 main_v373 (broadcastInDim S50000 ![] bcast_S_S50000 : (⟨S_, .f32⟩ : BufTy).Contents (Elt F) → (⟨S50000, .f32⟩ : BufTy).Contents (Elt F)),
    StableHlo.binary main_v356 main_v373 main_v374 (maximumf : (⟨S50000, .f32⟩ : BufTy).Contents (Elt F) → (⟨S50000, .f32⟩ : BufTy).Contents (Elt F) → (⟨S50000, .f32⟩ : BufTy).Contents (Elt F)),
    StableHlo.unary main_v374 main_v375 (Host.rsqrt : (⟨S50000, .f32⟩ : BufTy).Contents (Elt F) → (⟨S50000, .f32⟩ : BufTy).Contents (Elt F)),
    StableHlo.unary main_v375 main_v376 (broadcastInDim S50000x1 ![0] bcast_S50000_S50000x1_0 : (⟨S50000, .f32⟩ : BufTy).Contents (Elt F) → (⟨S50000x1, .f32⟩ : BufTy).Contents (Elt F)),
    StableHlo.unary main_v376 main_v377 (broadcastInDim S50000x128 ![0, 1] bcast_S50000x1_S50000x128_0_1 : (⟨S50000x1, .f32⟩ : BufTy).Contents (Elt F) → (⟨S50000x128, .f32⟩ : BufTy).Contents (Elt F)),
    StableHlo.binary main_v372 main_v377 main_v378 (mulf : (⟨S50000x128, .f32⟩ : BufTy).Contents (Elt F) → (⟨S50000x128, .f32⟩ : BufTy).Contents (Elt F) → (⟨S50000x128, .f32⟩ : BufTy).Contents (Elt F)),
    StableHlo.unary main_v263 main_v379 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v379 main_v380 rfl shapeCasts_S1x128x128_S128x128,
    StableHlo.binary main_v378 main_v380 main_v381 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v265 main_v382 ((extractStridedSlice S1x128 ![2, 0] · slices_S3x128_S1x128_2_0) : (⟨S3x128, .f32⟩ : BufTy).Contents (Elt F) → (⟨S1x128, .f32⟩ : BufTy).Contents (Elt F)),
    StableHlo.reshape main_v382 main_v383 rfl shapeCasts_S1x128_S128,
    StableHlo.unary main_v383 main_v384 (broadcastInDim S1x128 ![1] bcast_S128_S1x128_1 : (⟨S128, .f32⟩ : BufTy).Contents (Elt F) → (⟨S1x128, .f32⟩ : BufTy).Contents (Elt F)),
    StableHlo.unary main_v384 main_v385 (broadcastInDim S50000x128 ![0, 1] bcast_S1x128_S50000x128_0_1 : (⟨S1x128, .f32⟩ : BufTy).Contents (Elt F) → (⟨S50000x128, .f32⟩ : BufTy).Contents (Elt F)),
    StableHlo.binary main_v381 main_v385 main_v386 (addf : (⟨S50000x128, .f32⟩ : BufTy).Contents (Elt F) → (⟨S50000x128, .f32⟩ : BufTy).Contents (Elt F) → (⟨S50000x128, .f32⟩ : BufTy).Contents (Elt F)),
    StableHlo.unary main_v306 main_v387 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v346 main_v388 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v386 main_v389 (broadcastInDim S1x50000x128 ![1, 2] bcast_S50000x128_S1x50000x128_1_2 : (⟨S50000x128, .f32⟩ : BufTy).Contents (Elt F) → (⟨S1x50000x128, .f32⟩ : BufTy).Contents (Elt F)),
    StableHlo.nary ![main_v387, main_v388, main_v389] main_v390 (fun u => concatenate S3x50000x128 0 [⟨S1x50000x128, u 0⟩, ⟨S1x50000x128, u 1⟩, ⟨S1x50000x128, u 2⟩] concatenates_S1x50000x128_S1x50000x128_S1x50000x128_S3x50000x128_d0),
    StableHlo.nullary main_cst_70 (constant S_ .f32 0x00000000#32),
    StableHlo.binary main_v390 main_cst_70 main_v391 ((fun x v => Host.reduceAdd x v reducesTo_S3x50000x128_S50000x128_d0 h_S_) : (⟨S3x50000x128, .f32⟩ : BufTy).Contents (Elt F) → (⟨S_, .f32⟩ : BufTy).Contents (Elt F) → (⟨S50000x128, .f32⟩ : BufTy).Contents (Elt F)),
    StableHlo.nullary main_cst_71 (constant S_ .f32 0x40400000#32),
    StableHlo.unary main_cst_71 main_v392 (broadcastInDim S50000x128 ![] bcast_S_S50000x128 : (⟨S_, .f32⟩ : BufTy).Contents (Elt F) → (⟨S50000x128, .f32⟩ : BufTy).Contents (Elt F)),
    StableHlo.binary main_v391 main_v392 main_v393 (Host.divf : (⟨S50000x128, .f32⟩ : BufTy).Contents (Elt F) → (⟨S50000x128, .f32⟩ : BufTy).Contents (Elt F) → (⟨S50000x128, .f32⟩ : BufTy).Contents (Elt F)),
    StableHlo.nullary main_cst_72 (constant S_ .f32 0x3C23D70A#32),
    TRef.nullary main_call2.cst (constant S_ .f32 0x00000000#32),
    TRef.unary main_call2.cst main_call2.v0 (broadcastInDim S50000x128 ![] bcast_S_S50000x128),
    TRef.binary (.of main_v393) main_call2.v0 main_call2.v1 (cmpf .oge),
    TRef.unary (.of main_cst_72) main_call2.v2 id,
    TRef.unary main_call2.v2 main_call2.v3 (broadcastInDim S50000x128 ![] bcast_S_S50000x128),
    TRef.binary main_call2.v3 (.of main_v393) main_call2.v4 mulf,
    TRef.ternary main_call2.v1 (.of main_v393) main_call2.v4 main_call2.call0.v0 select ]

/-- Window 7, the part in layer 3 (10 operations). -/
def w7_1 : List (HloOp τ sig (Elt F)) :=
  [ StableHlo.unary main_arg5 main_v395 ((extractStridedSlice S1x3x128x128 ![2, 0, 0, 0] · slices_S4x3x128x128_S1x3x128x128_2_0_0_0) : (⟨S4x3x128x128, .f32⟩ : BufTy).Contents (Elt F) → (⟨S1x3x128x128, .f32⟩ : BufTy).Contents (Elt F)),
    StableHlo.reshape main_v395 main_v396 rfl shapeCasts_S1x3x128x128_S3x128x128,
    StableHlo.unary main_arg6 main_v397 ((extractStridedSlice S1x3x128 ![2, 0, 0] · slices_S4x3x128_S1x3x128_2_0_0) : (⟨S4x3x128, .f32⟩ : BufTy).Contents (Elt F) → (⟨S1x3x128, .f32⟩ : BufTy).Contents (Elt F)),
    StableHlo.reshape main_v397 main_v398 rfl shapeCasts_S1x3x128_S3x128,
    StableHlo.nullary main_cst_73 (constant S_ .f32 0x3F800000#32),
    StableHlo.unary main_cst_73 main_v399 (broadcastInDim S800000 ![] bcast_S_S800000 : (⟨S_, .f32⟩ : BufTy).Contents (Elt F) → (⟨S800000, .f32⟩ : BufTy).Contents (Elt F)),
    StableHlo.unary main_arg1 main_v400 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v400 main_v401 rfl shapeCasts_S1x800000_S800000,
    StableHlo.unary main_arg2 main_v402 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v402 main_v403 rfl shapeCasts_S1x800000_S800000 ]

/-- The window is that line. -/
theorem part7_eq (c : Dev nD) : main_part7 (F := F) c = seq (w7_0 (F := F) ++ w7_1 (F := F)) := rfl

end Cert.ReferenceIdeal.RefRun

end
-- ==== Proof.RefRunL2.lean ====
/- Graph-conv layer 2 of the reference as ONE list of host operations (164), ending with the operation that writes `main_v394`:
   the concatenation of the window pieces it spans; every operation touches TensorCore references only and allocates nothing;
   the list of the references it writes, none of them an argument of @main. -/
import proofs.«165758_j22333829939343_1_alg».proof.Proof.RefRunW5
import proofs.«165758_j22333829939343_1_alg».proof.Proof.RefRunW6
import proofs.«165758_j22333829939343_1_alg».proof.Proof.RefRunW7
import proofs.«165758_j22333829939343_1_alg».proof.Proof.LibKeeps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The layer's operations, in order. -/
abbrev opsL2 : List (HloOp τ sig (Elt F)) :=
  [ StableHlo.unary main_arg5 main_v262 ((extractStridedSlice S1x3x128x128 ![1, 0, 0, 0] · slices_S4x3x128x128_S1x3x128x128_1_0_0_0) : (⟨S4x3x128x128, .f32⟩ : BufTy).Contents (Elt F) → (⟨S1x3x128x128, .f32⟩ : BufTy).Contents (Elt F)),
    StableHlo.reshape main_v262 main_v263 rfl shapeCasts_S1x3x128x128_S3x128x128,
    StableHlo.unary main_arg6 main_v264 ((extractStridedSlice S1x3x128 ![1, 0, 0] · slices_S4x3x128_S1x3x128_1_0_0) : (⟨S4x3x128, .f32⟩ : BufTy).Contents (Elt F) → (⟨S1x3x128, .f32⟩ : BufTy).Contents (Elt F)),
    StableHlo.reshape main_v264 main_v265 rfl shapeCasts_S1x3x128_S3x128,
    StableHlo.nullary main_cst_48 (constant S_ .f32 0x3F800000#32),
    StableHlo.unary main_cst_48 main_v266 (broadcastInDim S800000 ![] bcast_S_S800000 : (⟨S_, .f32⟩ : BufTy).Contents (Elt F) → (⟨S800000, .f32⟩ : BufTy).Contents (Elt F)),
    StableHlo.unary main_arg1 main_v267 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v267 main_v268 rfl shapeCasts_S1x800000_S800000,
    StableHlo.unary main_arg2 main_v269 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v269 main_v270 rfl shapeCasts_S1x800000_S800000,
    StableHlo.nullary main_cst_49 (constant S_ .f32 0x00000000#32),
    StableHlo.unary main_cst_49 main_v271 (broadcastInDim S50000 ![] bcast_S_S50000 : (⟨S_, .f32⟩ : BufTy).Contents (Elt F) → (⟨S50000, .f32⟩ : BufTy).Contents (Elt F)),
    StableHlo.unary main_v268 main_v272 (broadcastInDim S800000x1 ![0] bcast_S800000_S800000x1_0 : (⟨S800000, .i32⟩ : BufTy).Contents (Elt F) → (⟨S800000x1, .i32⟩ : BufTy).Contents (Elt F)),
    StableHlo.ternary main_v271 main_v272 main_v266 main_v273 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_50 (constant S_ .f32 0x00000000#32),
    StableHlo.unary main_cst_50 main_v274 (broadcastInDim S50000 ![] bcast_S_S50000 : (⟨S_, .f32⟩ : BufTy).Contents (Elt F) → (⟨S50000, .f32⟩ : BufTy).Contents (Elt F)),
    StableHlo.unary main_v270 main_v275 (broadcastInDim S800000x1 ![0] bcast_S800000_S800000x1_0 : (⟨S800000, .i32⟩ : BufTy).Contents (Elt F) → (⟨S800000x1, .i32⟩ : BufTy).Contents (Elt F)),
    StableHlo.ternary main_v274 main_v275 main_v266 main_v276 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_51 (constant S_ .f32 0x3F800000#32),
    StableHlo.unary main_cst_51 main_v277 (broadcastInDim S50000 ![] bcast_S_S50000 : (⟨S_, .f32⟩ : BufTy).Contents (Elt F) → (⟨S50000, .f32⟩ : BufTy).Contents (Elt F)),
    StableHlo.binary main_v273 main_v277 main_v278 (maximumf : (⟨S50000, .f32⟩ : BufTy).Contents (Elt F) → (⟨S50000, .f32⟩ : BufTy).Contents (Elt F) → (⟨S50000, .f32⟩ : BufTy).Contents (Elt F)),
    StableHlo.unary main_v278 main_v279 (Host.rsqrt : (⟨S50000, .f32⟩ : BufTy).Contents (Elt F) → (⟨S50000, .f32⟩ : BufTy).Contents (Elt F)),
    StableHlo.unary main_v279 main_v280 (broadcastInDim S50000x1 ![0] bcast_S50000_S50000x1_0 : (⟨S50000, .f32⟩ : BufTy).Contents (Elt F) → (⟨S50000x1, .f32⟩ : BufTy).Contents (Elt F)),
    StableHlo.unary main_v280 main_v281 (broadcastInDim S50000x128 ![0, 1] bcast_S50000x1_S50000x128_0_1 : (⟨S50000x1, .f32⟩ : BufTy).Contents (Elt F) → (⟨S50000x128, .f32⟩ : BufTy).Contents (Elt F)),
    StableHlo.binary main_v261 main_v281 main_v282 (mulf : (⟨S50000x128, .f32⟩ : BufTy).Contents (Elt F) → (⟨S50000x128, .f32⟩ : BufTy).Contents (Elt F) → (⟨S50000x128, .f32⟩ : BufTy).Contents (Elt F)),
    StableHlo.nullary main_c_52 (constantI S_ 32 0#32),
    StableHlo.unary main_c_52 main_v283 (broadcastInDim S800000 ![] bcast_S_S800000 : (⟨S_, .i32⟩ : BufTy).Contents (Elt F) → (⟨S800000, .i32⟩ : BufTy).Contents (Elt F)),
    StableHlo.binary main_v268 main_v283 main_v284 (cmpi .slt : (⟨S800000, .i32⟩ : BufTy).Contents (Elt F) → (⟨S800000, .i32⟩ : BufTy).Contents (Elt F) → (⟨S800000, .i1⟩ : BufTy).Contents (Elt F)),
    StableHlo.nullary main_c_53 (constantI S_ 32 50000#32),
    StableHlo.unary main_c_53 main_v285 (broadcastInDim S800000 ![] bcast_S_S800000 : (⟨S_, .i32⟩ : BufTy).Contents (Elt F) → (⟨S800000, .i32⟩ : BufTy).Contents (Elt F)),
    StableHlo.binary main_v268 main_v285 main_v286 (addi : (⟨S800000, .i32⟩ : BufTy).Contents (Elt F) → (⟨S800000, .i32⟩ : BufTy).Contents (Elt F) → (⟨S800000, .i32⟩ : BufTy).Contents (Elt F)),
    StableHlo.ternary main_v284 main_v286 main_v268 main_v287 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v287 main_v288 (broadcastInDim S800000x1 ![0] bcast_S800000_S800000x1_0 : (⟨S800000, .i32⟩ : BufTy).Contents (Elt F) → (⟨S800000x1, .i32⟩ : BufTy).Contents (Elt F)),
    StableHlo.binary main_v282 main_v288 main_v289 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_54 (constant S_ .f32 0x00000000#32),
    StableHlo.unary main_cst_54 main_v290 (broadcastInDim S50000x128 ![] bcast_S_S50000x128 : (⟨S_, .f32⟩ : BufTy).Contents (Elt F) → (⟨S50000x128, .f32⟩ : BufTy).Contents (Elt F)),
    StableHlo.unary main_v270 main_v291 (broadcastInDim S800000x1 ![0] bcast_S800000_S800000x1_0 : (⟨S800000, .i32⟩ : BufTy).Contents (Elt F) → (⟨S800000x1, .i32⟩ : BufTy).Contents (Elt F)),
    StableHlo.ternary main_v290 main_v291 main_v289 main_v292 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_55 (constant S_ .f32 0x3F800000#32),
    StableHlo.unary main_cst_55 main_v293 (broadcastInDim S50000 ![] bcast_S_S50000 : (⟨S_, .f32⟩ : BufTy).Contents (Elt F) → (⟨S50000, .f32⟩ : BufTy).Contents (Elt F)),
    StableHlo.binary main_v276 main_v293 main_v294 (maximumf : (⟨S50000, .f32⟩ : BufTy).Contents (Elt F) → (⟨S50000, .f32⟩ : BufTy).Contents (Elt F) → (⟨S50000, .f32⟩ : BufTy).Contents (Elt F)),
    StableHlo.unary main_v294 main_v295 (Host.rsqrt : (⟨S50000, .f32⟩ : BufTy).Contents (Elt F) → (⟨S50000, .f32⟩ : BufTy).Contents (Elt F)),
    StableHlo.unary main_v295 main_v296 (broadcastInDim S50000x1 ![0] bcast_S50000_S50000x1_0 : (⟨S50000, .f32⟩ : BufTy).Contents (Elt F) → (⟨S50000x1, .f32⟩ : BufTy).Contents (Elt F)),
    StableHlo.unary main_v296 main_v297 (broadcastInDim S50000x128 ![0, 1] bcast_S50000x1_S50000x128_0_1 : (⟨S50000x1, .f32⟩ : BufTy).Contents (Elt F) → (⟨S50000x128, .f32⟩ : BufTy).Contents (Elt F)),
    StableHlo.binary main_v292 main_v297 main_v298 (mulf : (⟨S50000x128, .f32⟩ : BufTy).Contents (Elt F) → (⟨S50000x128, .f32⟩ : BufTy).Contents (Elt F) → (⟨S50000x128, .f32⟩ : BufTy).Contents (Elt F)),
    StableHlo.unary main_v263 main_v299 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v299 main_v300 rfl shapeCasts_S1x128x128_S128x128,
    StableHlo.binary main_v298 main_v300 main_v301 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v265 main_v302 ((extractStridedSlice S1x128 ![0, 0] · slices_S3x128_S1x128_0_0) : (⟨S3x128, .f32⟩ : BufTy).Contents (Elt F) → (⟨S1x128, .f32⟩ : BufTy).Contents (Elt F)),
    StableHlo.reshape main_v302 main_v303 rfl shapeCasts_S1x128_S128,
    StableHlo.unary main_v303 main_v304 (broadcastInDim S1x128 ![1] bcast_S128_S1x128_1 : (⟨S128, .f32⟩ : BufTy).Contents (Elt F) → (⟨S1x128, .f32⟩ : BufTy).Contents (Elt F)),
    StableHlo.unary main_v304 main_v305 (broadcastInDim S50000x128 ![0, 1] bcast_S1x128_S50000x128_0_1 : (⟨S1x128, .f32⟩ : BufTy).Contents (Elt F) → (⟨S50000x128, .f32⟩ : BufTy).Contents (Elt F)),
    StableHlo.binary main_v301 main_v305 main_v306 (addf : (⟨S50000x128, .f32⟩ : BufTy).Contents (Elt F) → (⟨S50000x128, .f32⟩ : BufTy).Contents (Elt F) → (⟨S50000x128, .f32⟩ : BufTy).Contents (Elt F)),
    StableHlo.unary main_arg1 main_v307 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v307 main_v308 rfl shapeCasts_S1x800000_S800000,
    StableHlo.unary main_arg2 main_v309 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v309 main_v310 rfl shapeCasts_S1x800000_S800000,
    StableHlo.nullary main_cst_56 (constant S_ .f32 0x00000000#32),
    StableHlo.unary main_cst_56 main_v311 (broadcastInDim S50000 ![] bcast_S_S50000 : (⟨S_, .f32⟩ : BufTy).Contents (Elt F) → (⟨S50000, .f32⟩ : BufTy).Contents (Elt F)),
    StableHlo.unary main_v308 main_v312 (broadcastInDim S800000x1 ![0] bcast_S800000_S800000x1_0 : (⟨S800000, .i32⟩ : BufTy).Contents (Elt F) → (⟨S800000x1, .i32⟩ : BufTy).Contents (Elt F)),
    StableHlo.ternary main_v311 main_v312 main_v266 main_v313 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_57 (constant S_ .f32 0x00000000#32),
    StableHlo.unary main_cst_57 main_v314 (broadcastInDim S50000 ![] bcast_S_S50000 : (⟨S_, .f32⟩ : BufTy).Contents (Elt F) → (⟨S50000, .f32⟩ : BufTy).Contents (Elt F)),
    StableHlo.unary main_v310 main_v315 (broadcastInDim S800000x1 ![0] bcast_S800000_S800000x1_0 : (⟨S800000, .i32⟩ : BufTy).Contents (Elt F) → (⟨S800000x1, .i32⟩ : BufTy).Contents (Elt F)),
    StableHlo.ternary main_v314 main_v315 main_v266 main_v316 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_58 (constant S_ .f32 0x3F800000#32),
    StableHlo.unary main_cst_58 main_v317 (broadcastInDim S50000 ![] bcast_S_S50000 : (⟨S_, .f32⟩ : BufTy).Contents (Elt F) → (⟨S50000, .f32⟩ : BufTy).Contents (Elt F)),
    StableHlo.binary main_v313 main_v317 main_v318 (maximumf : (⟨S50000, .f32⟩ : BufTy).Contents (Elt F) → (⟨S50000, .f32⟩ : BufTy).Contents (Elt F) → (⟨S50000, .f32⟩ : BufTy).Contents (Elt F)),
    StableHlo.unary main_v318 main_v319 (Host.rsqrt : (⟨S50000, .f32⟩ : BufTy).Contents (Elt F) → (⟨S50000, .f32⟩ : BufTy).Contents (Elt F)),
    StableHlo.unary main_v319 main_v320 (broadcastInDim S50000x1 ![0] bcast_S50000_S50000x1_0 : (⟨S50000, .f32⟩ : BufTy).Contents (Elt F) → (⟨S50000x1, .f32⟩ : BufTy).Contents (Elt F)),
    StableHlo.unary main_v320 main_v321 (broadcastInDim S50000x128 ![0, 1] bcast_S50000x1_S50000x128_0_1 : (⟨S50000x1, .f32⟩ : BufTy).Contents (Elt F) → (⟨S50000x128, .f32⟩ : BufTy).Contents (Elt F)),
    StableHlo.binary main_v261 main_v321 main_v322 (mulf : (⟨S50000x128, .f32⟩ : BufTy).Contents (Elt F) → (⟨S50000x128, .f32⟩ : BufTy).Contents (Elt F) → (⟨S50000x128, .f32⟩ : BufTy).Contents (Elt F)),
    StableHlo.nullary main_c_59 (constantI S_ 32 0#32),
    StableHlo.unary main_c_59 main_v323 (broadcastInDim S800000 ![] bcast_S_S800000 : (⟨S_, .i32⟩ : BufTy).Contents (Elt F) → (⟨S800000, .i32⟩ : BufTy).Contents (Elt F)),
    StableHlo.binary main_v308 main_v323 main_v324 (cmpi .slt : (⟨S800000, .i32⟩ : BufTy).Contents (Elt F) → (⟨S800000, .i32⟩ : BufTy).Contents (Elt F) → (⟨S800000, .i1⟩ : BufTy).Contents (Elt F)),
    StableHlo.nullary main_c_60 (constantI S_ 32 50000#32),
    StableHlo.unary main_c_60 main_v325 (broadcastInDim S800000 ![] bcast_S_S800000 : (⟨S_, .i32⟩ : BufTy).Contents (Elt F) → (⟨S800000, .i32⟩ : BufTy).Contents (Elt F)),
    StableHlo.binary main_v308 main_v325 main_v326 (addi : (⟨S800000, .i32⟩ : BufTy).Contents (Elt F) → (⟨S800000, .i32⟩ : BufTy).Contents (Elt F) → (⟨S800000, .i32⟩ : BufTy).Contents (Elt F)),
    StableHlo.ternary main_v324 main_v326 main_v308 main_v327 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v327 main_v328 (broadcastInDim S800000x1 ![0] bcast_S800000_S800000x1_0 : (⟨S800000, .i32⟩ : BufTy).Contents (Elt F) → (⟨S800000x1, .i32⟩ : BufTy).Contents (Elt F)),
    StableHlo.binary main_v322 main_v328 main_v329 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_61 (constant S_ .f32 0x00000000#32),
    StableHlo.unary main_cst_61 main_v330 (broadcastInDim S50000x128 ![] bcast_S_S50000x128 : (⟨S_, .f32⟩ : BufTy).Contents (Elt F) → (⟨S50000x128, .f32⟩ : BufTy).Contents (Elt F)),
    StableHlo.unary main_v310 main_v331 (broadcastInDim S800000x1 ![0] bcast_S800000_S800000x1_0 : (⟨S800000, .i32⟩ : BufTy).Contents (Elt F) → (⟨S800000x1, .i32⟩ : BufTy).Contents (Elt F)),
    StableHlo.ternary main_v330 main_v331 main_v329 main_v332 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_62 (constant S_ .f32 0x3F800000#32),
    StableHlo.unary main_cst_62 main_v333 (broadcastInDim S50000 ![] bcast_S_S50000 : (⟨S_, .f32⟩ : BufTy).Contents (Elt F) → (⟨S50000, .f32⟩ : BufTy).Contents (Elt F)),
    StableHlo.binary main_v316 main_v333 main_v334 (maximumf : (⟨S50000, .f32⟩ : BufTy).Contents (Elt F) → (⟨S50000, .f32⟩ : BufTy).Contents (Elt F) → (⟨S50000, .f32⟩ : BufTy).Contents (Elt F)),
    StableHlo.unary main_v334 main_v335 (Host.rsqrt : (⟨S50000, .f32⟩ : BufTy).Contents (Elt F) → (⟨S50000, .f32⟩ : BufTy).Contents (Elt F)),
    StableHlo.unary main_v335 main_v336 (broadcastInDim S50000x1 ![0] bcast_S50000_S50000x1_0 : (⟨S50000, .f32⟩ : BufTy).Contents (Elt F) → (⟨S50000x1, .f32⟩ : BufTy).Contents (Elt F)),
    StableHlo.unary main_v336 main_v337 (broadcastInDim S50000x128 ![0, 1] bcast_S50000x1_S50000x128_0_1 : (⟨S50000x1, .f32⟩ : BufTy).Contents (Elt F) → (⟨S50000x128, .f32⟩ : BufTy).Contents (Elt F)),
    StableHlo.binary main_v332 main_v337 main_v338 (mulf : (⟨S50000x128, .f32⟩ : BufTy).Contents (Elt F) → (⟨S50000x128, .f32⟩ : BufTy).Contents (Elt F) → (⟨S50000x128, .f32⟩ : BufTy).Contents (Elt F)),
    StableHlo.unary main_v263 main_v339 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v339 main_v340 rfl shapeCasts_S1x128x128_S128x128,
    StableHlo.binary main_v338 main_v340 main_v341 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v265 main_v342 ((extractStridedSlice S1x128 ![1, 0] · slices_S3x128_S1x128_1_0) : (⟨S3x128, .f32⟩ : BufTy).Contents (Elt F) → (⟨S1x128, .f32⟩ : BufTy).Contents (Elt F)),
    StableHlo.reshape main_v342 main_v343 rfl shapeCasts_S1x128_S128,
    StableHlo.unary main_v343 main_v344 (broadcastInDim S1x128 ![1] bcast_S128_S1x128_1 : (⟨S128, .f32⟩ : BufTy).Contents (Elt F) → (⟨S1x128, .f32⟩ : BufTy).Contents (Elt F)),
    StableHlo.unary main_v344 main_v345 (broadcastInDim S50000x128 ![0, 1] bcast_S1x128_S50000x128_0_1 : (⟨S1x128, .f32⟩ : BufTy).Contents (Elt F) → (⟨S50000x128, .f32⟩ : BufTy).Contents (Elt F)),
    StableHlo.binary main_v341 main_v345 main_v346 (addf : (⟨S50000x128, .f32⟩ : BufTy).Contents (Elt F) → (⟨S50000x128, .f32⟩ : BufTy).Contents (Elt F) → (⟨S50000x128, .f32⟩ : BufTy).Contents (Elt F)),
    StableHlo.unary main_arg1 main_v347 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v347 main_v348 rfl shapeCasts_S1x800000_S800000,
    StableHlo.unary main_arg2 main_v349 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v349 main_v350 rfl shapeCasts_S1x800000_S800000,
    StableHlo.nullary main_cst_63 (constant S_ .f32 0x00000000#32),
    StableHlo.unary main_cst_63 main_v351 (broadcastInDim S50000 ![] bcast_S_S50000 : (⟨S_, .f32⟩ : BufTy).Contents (Elt F) → (⟨S50000, .f32⟩ : BufTy).Contents (Elt F)),
    StableHlo.unary main_v348 main_v352 (broadcastInDim S800000x1 ![0] bcast_S800000_S800000x1_0 : (⟨S800000, .i32⟩ : BufTy).Contents (Elt F) → (⟨S800000x1, .i32⟩ : BufTy).Contents (Elt F)),
    StableHlo.ternary main_v351 main_v352 main_v266 main_v353 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_64 (constant S_ .f32 0x00000000#32),
    StableHlo.unary main_cst_64 main_v354 (broadcastInDim S50000 ![] bcast_S_S50000 : (⟨S_, .f32⟩ : BufTy).Contents (Elt F) → (⟨S50000, .f32⟩ : BufTy).Contents (Elt F)),
    StableHlo.unary main_v350 main_v355 (broadcastInDim S800000x1 ![0] bcast_S800000_S800000x1_0 : (⟨S800000, .i32⟩ : BufTy).Contents (Elt F) → (⟨S800000x1, .i32⟩ : BufTy).Contents (Elt F)),
    StableHlo.ternary main_v354 main_v355 main_v266 main_v356 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_65 (constant S_ .f32 0x3F800000#32),
    StableHlo.unary main_cst_65 main_v357 (broadcastInDim S50000 ![] bcast_S_S50000 : (⟨S_, .f32⟩ : BufTy).Contents (Elt F) → (⟨S50000, .f32⟩ : BufTy).Contents (Elt F)),
    StableHlo.binary main_v353 main_v357 main_v358 (maximumf : (⟨S50000, .f32⟩ : BufTy).Contents (Elt F) → (⟨S50000, .f32⟩ : BufTy).Contents (Elt F) → (⟨S50000, .f32⟩ : BufTy).Contents (Elt F)),
    StableHlo.unary main_v358 main_v359 (Host.rsqrt : (⟨S50000, .f32⟩ : BufTy).Contents (Elt F) → (⟨S50000, .f32⟩ : BufTy).Contents (Elt F)),
    StableHlo.unary main_v359 main_v360 (broadcastInDim S50000x1 ![0] bcast_S50000_S50000x1_0 : (⟨S50000, .f32⟩ : BufTy).Contents (Elt F) → (⟨S50000x1, .f32⟩ : BufTy).Contents (Elt F)),
    StableHlo.unary main_v360 main_v361 (broadcastInDim S50000x128 ![0, 1] bcast_S50000x1_S50000x128_0_1 : (⟨S50000x1, .f32⟩ : BufTy).Contents (Elt F) → (⟨S50000x128, .f32⟩ : BufTy).Contents (Elt F)),
    StableHlo.binary main_v261 main_v361 main_v362 (mulf : (⟨S50000x128, .f32⟩ : BufTy).Contents (Elt F) → (⟨S50000x128, .f32⟩ : BufTy).Contents (Elt F) → (⟨S50000x128, .f32⟩ : BufTy).Contents (Elt F)),
    StableHlo.nullary main_c_66 (constantI S_ 32 0#32),
    StableHlo.unary main_c_66 main_v363 (broadcastInDim S800000 ![] bcast_S_S800000 : (⟨S_, .i32⟩ : BufTy).Contents (Elt F) → (⟨S800000, .i32⟩ : BufTy).Contents (Elt F)),
    StableHlo.binary main_v348 main_v363 main_v364 (cmpi .slt : (⟨S800000, .i32⟩ : BufTy).Contents (Elt F) → (⟨S800000, .i32⟩ : BufTy).Contents (Elt F) → (⟨S800000, .i1⟩ : BufTy).Contents (Elt F)),
    StableHlo.nullary main_c_67 (constantI S_ 32 50000#32),
    StableHlo.unary main_c_67 main_v365 (broadcastInDim S800000 ![] bcast_S_S800000 : (⟨S_, .i32⟩ : BufTy).Contents (Elt F) → (⟨S800000, .i32⟩ : BufTy).Contents (Elt F)),
    StableHlo.binary main_v348 main_v365 main_v366 (addi : (⟨S800000, .i32⟩ : BufTy).Contents (Elt F) → (⟨S800000, .i32⟩ : BufTy).Contents (Elt F) → (⟨S800000, .i32⟩ : BufTy).Contents (Elt F)),
    StableHlo.ternary main_v364 main_v366 main_v348 main_v367 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v367 main_v368 (broadcastInDim S800000x1 ![0] bcast_S800000_S800000x1_0 : (⟨S800000, .i32⟩ : BufTy).Contents (Elt F) → (⟨S800000x1, .i32⟩ : BufTy).Contents (Elt F)),
    StableHlo.binary main_v362 main_v368 main_v369 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_68 (constant S_ .f32 0x00000000#32),
    StableHlo.unary main_cst_68 main_v370 (broadcastInDim S50000x128 ![] bcast_S_S50000x128 : (⟨S_, .f32⟩ : BufTy).Contents (Elt F) → (⟨S50000x128, .f32⟩ : BufTy).Contents (Elt F)),
    StableHlo.unary main_v350 main_v371 (broadcastInDim S800000x1 ![0] bcast_S800000_S800000x1_0 : (⟨S800000, .i32⟩ : BufTy).Contents (Elt F) → (⟨S800000x1, .i32⟩ : BufTy).Contents (Elt F)),
    StableHlo.ternary main_v370 main_v371 main_v369 main_v372 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_69 (constant S_ .f32 0x3F800000#32),
    StableHlo.unary main_cst_69 main_v373 (broadcastInDim S50000 ![] bcast_S_S50000 : (⟨S_, .f32⟩ : BufTy).Contents (Elt F) → (⟨S50000, .f32⟩ : BufTy).Contents (Elt F)),
    StableHlo.binary main_v356 main_v373 main_v374 (maximumf : (⟨S50000, .f32⟩ : BufTy).Contents (Elt F) → (⟨S50000, .f32⟩ : BufTy).Contents (Elt F) → (⟨S50000, .f32⟩ : BufTy).Contents (Elt F)),
    StableHlo.unary main_v374 main_v375 (Host.rsqrt : (⟨S50000, .f32⟩ : BufTy).Contents (Elt F) → (⟨S50000, .f32⟩ : BufTy).Contents (Elt F)),
    StableHlo.unary main_v375 main_v376 (broadcastInDim S50000x1 ![0] bcast_S50000_S50000x1_0 : (⟨S50000, .f32⟩ : BufTy).Contents (Elt F) → (⟨S50000x1, .f32⟩ : BufTy).Contents (Elt F)),
    StableHlo.unary main_v376 main_v377 (broadcastInDim S50000x128 ![0, 1] bcast_S50000x1_S50000x128_0_1 : (⟨S50000x1, .f32⟩ : BufTy).Contents (Elt F) → (⟨S50000x128, .f32⟩ : BufTy).Contents (Elt F)),
    StableHlo.binary main_v372 main_v377 main_v378 (mulf : (⟨S50000x128, .f32⟩ : BufTy).Contents (Elt F) → (⟨S50000x128, .f32⟩ : BufTy).Contents (Elt F) → (⟨S50000x128, .f32⟩ : BufTy).Contents (Elt F)),
    StableHlo.unary main_v263 main_v379 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v379 main_v380 rfl shapeCasts_S1x128x128_S128x128,
    StableHlo.binary main_v378 main_v380 main_v381 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v265 main_v382 ((extractStridedSlice S1x128 ![2, 0] · slices_S3x128_S1x128_2_0) : (⟨S3x128, .f32⟩ : BufTy).Contents (Elt F) → (⟨S1x128, .f32⟩ : BufTy).Contents (Elt F)),
    StableHlo.reshape main_v382 main_v383 rfl shapeCasts_S1x128_S128,
    StableHlo.unary main_v383 main_v384 (broadcastInDim S1x128 ![1] bcast_S128_S1x128_1 : (⟨S128, .f32⟩ : BufTy).Contents (Elt F) → (⟨S1x128, .f32⟩ : BufTy).Contents (Elt F)),
    StableHlo.unary main_v384 main_v385 (broadcastInDim S50000x128 ![0, 1] bcast_S1x128_S50000x128_0_1 : (⟨S1x128, .f32⟩ : BufTy).Contents (Elt F) → (⟨S50000x128, .f32⟩ : BufTy).Contents (Elt F)),
    StableHlo.binary main_v381 main_v385 main_v386 (addf : (⟨S50000x128, .f32⟩ : BufTy).Contents (Elt F) → (⟨S50000x128, .f32⟩ : BufTy).Contents (Elt F) → (⟨S50000x128, .f32⟩ : BufTy).Contents (Elt F)),
    StableHlo.unary main_v306 main_v387 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v346 main_v388 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v386 main_v389 (broadcastInDim S1x50000x128 ![1, 2] bcast_S50000x128_S1x50000x128_1_2 : (⟨S50000x128, .f32⟩ : BufTy).Contents (Elt F) → (⟨S1x50000x128, .f32⟩ : BufTy).Contents (Elt F)),
    StableHlo.nary ![main_v387, main_v388, main_v389] main_v390 (fun u => concatenate S3x50000x128 0 [⟨S1x50000x128, u 0⟩, ⟨S1x50000x128, u 1⟩, ⟨S1x50000x128, u 2⟩] concatenates_S1x50000x128_S1x50000x128_S1x50000x128_S3x50000x128_d0),
    StableHlo.nullary main_cst_70 (constant S_ .f32 0x00000000#32),
    StableHlo.binary main_v390 main_cst_70 main_v391 ((fun x v => Host.reduceAdd x v reducesTo_S3x50000x128_S50000x128_d0 h_S_) : (⟨S3x50000x128, .f32⟩ : BufTy).Contents (Elt F) → (⟨S_, .f32⟩ : BufTy).Contents (Elt F) → (⟨S50000x128, .f32⟩ : BufTy).Contents (Elt F)),
    StableHlo.nullary main_cst_71 (constant S_ .f32 0x40400000#32),
    StableHlo.unary main_cst_71 main_v392 (broadcastInDim S50000x128 ![] bcast_S_S50000x128 : (⟨S_, .f32⟩ : BufTy).Contents (Elt F) → (⟨S50000x128, .f32⟩ : BufTy).Contents (Elt F)),
    StableHlo.binary main_v391 main_v392 main_v393 (Host.divf : (⟨S50000x128, .f32⟩ : BufTy).Contents (Elt F) → (⟨S50000x128, .f32⟩ : BufTy).Contents (Elt F) → (⟨S50000x128, .f32⟩ : BufTy).Contents (Elt F)),
    StableHlo.nullary main_cst_72 (constant S_ .f32 0x3C23D70A#32),
    TRef.nullary main_call2.cst (constant S_ .f32 0x00000000#32),
    TRef.unary main_call2.cst main_call2.v0 (broadcastInDim S50000x128 ![] bcast_S_S50000x128),
    TRef.binary (.of main_v393) main_call2.v0 main_call2.v1 (cmpf .oge),
    TRef.unary (.of main_cst_72) main_call2.v2 id,
    TRef.unary main_call2.v2 main_call2.v3 (broadcastInDim S50000x128 ![] bcast_S_S50000x128),
    TRef.binary main_call2.v3 (.of main_v393) main_call2.v4 mulf,
    TRef.ternary main_call2.v1 (.of main_v393) main_call2.v4 main_call2.call0.v0 select ]

theorem opsL2_eq : (opsL2 : List (HloOp τ sig (Elt F))) = w5_1 ++ w6_0 ++ w7_0 := rfl

theorem opsL2_sub : (opsL2 : List (HloOp τ sig (Elt F))).Forall fun op => op.bufs ⊆ tcRefs τ sig :=
  ⟨unary_bufs_sub .., reshape_bufs_sub .., unary_bufs_sub .., reshape_bufs_sub .., nullary_bufs_sub .., unary_bufs_sub .., unary_bufs_sub .., reshape_bufs_sub .., unary_bufs_sub .., reshape_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., unary_bufs_sub .., nary_bufs_sub .., nullary_bufs_sub .., binary_bufs_sub .., nullary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

theorem opsL2_fresh : (opsL2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the layer writes: each operation's result. -/
def opsL2_W : List (Ref sig .tc) :=
  [main_v262, main_v263, main_v264, main_v265, main_cst_48, main_v266, main_v267, main_v268, main_v269, main_v270, main_cst_49, main_v271, main_v272, main_v273, main_cst_50, main_v274, main_v275, main_v276, main_cst_51, main_v277, main_v278, main_v279, main_v280, main_v281, main_v282, main_c_52, main_v283, main_v284, main_c_53, main_v285, main_v286, main_v287, main_v288, main_v289, main_cst_54, main_v290, main_v291, main_v292, main_cst_55, main_v293, main_v294, main_v295, main_v296, main_v297, main_v298, main_v299, main_v300, main_v301, main_v302, main_v303, main_v304, main_v305, main_v306, main_v307, main_v308, main_v309, main_v310, main_cst_56, main_v311, main_v312, main_v313, main_cst_57, main_v314, main_v315, main_v316, main_cst_58, main_v317, main_v318, main_v319, main_v320, main_v321, main_v322, main_c_59, main_v323, main_v324, main_c_60, main_v325, main_v326, main_v327, main_v328, main_v329, main_cst_61, main_v330, main_v331, main_v332, main_cst_62, main_v333, main_v334, main_v335, main_v336, main_v337, main_v338, main_v339, main_v340, main_v341, main_v342, main_v343, main_v344, main_v345, main_v346, main_v347, main_v348, main_v349, main_v350, main_cst_63, main_v351, main_v352, main_v353, main_cst_64, main_v354, main_v355, main_v356, main_cst_65, main_v357, main_v358, main_v359, main_v360, main_v361, main_v362, main_c_66, main_v363, main_v364, main_c_67, main_v365, main_v366, main_v367, main_v368, main_v369, main_cst_68, main_v370, main_v371, main_v372, main_cst_69, main_v373, main_v374, main_v375, main_v376, main_v377, main_v378, main_v379, main_v380, main_v381, main_v382, main_v383, main_v384, main_v385, main_v386, main_v387, main_v388, main_v389, main_v390, main_cst_70, main_v391, main_cst_71, main_v392, main_v393, main_cst_72, main_call2_cst, main_call2_v0, main_call2_v1, main_call2_v2, main_call2_v3, main_call2_v4, main_v394]

/-- Every operation of the layer writes inside that list. -/
theorem opsL2_writes : (opsL2 : List (HloOp τ sig (Elt F))).Forall fun op => op.writes ⊆ (opsL2_W.map (Proc.devRef (τ := τ) .tc)).toFinset := by
  host_writes opsL2

/-- A reference the layer does not write keeps its contents. -/
theorem opsL2_keeps (V : Valuation τ sig (Elt F)) {r : Ref sig .tc} (hr : r ∉ opsL2_W) :
    after opsL2 V (Proc.devRef .tc r) = V (Proc.devRef .tc r) :=
  after_of_writes_sub opsL2 V opsL2_writes hr

end Cert.ReferenceIdeal.RefRun

end
-- ==== Proof.RefRunW8.lean ====
/- Statements 481 … 540 of the reference's @main (its window 8) as a list of host operations: the window is the
   straight line `seq` of the list, by unfolding. A call to @leaky_relu stands as the seven operations of its body (the last the select of
   the @_where it calls) over that call's buffers. Where a graph-conv layer ends inside the window the list is given in two pieces. -/
import proofs.«165758_j22333829939343_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 8, the part in layer 3 (60 operations). -/
def w8_0 : List (HloOp τ sig (Elt F)) :=
  [ StableHlo.nullary main_cst_74 (constant S_ .f32 0x00000000#32),
    StableHlo.unary main_cst_74 main_v404 (broadcastInDim S50000 ![] bcast_S_S50000 : (⟨S_, .f32⟩ : BufTy).Contents (Elt F) → (⟨S50000, .f32⟩ : BufTy).Contents (Elt F)),
    StableHlo.unary main_v401 main_v405 (broadcastInDim S800000x1 ![0] bcast_S800000_S800000x1_0 : (⟨S800000, .i32⟩ : BufTy).Contents (Elt F) → (⟨S800000x1, .i32⟩ : BufTy).Contents (Elt F)),
    StableHlo.ternary main_v404 main_v405 main_v399 main_v406 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_75 (constant S_ .f32 0x00000000#32),
    StableHlo.unary main_cst_75 main_v407 (broadcastInDim S50000 ![] bcast_S_S50000 : (⟨S_, .f32⟩ : BufTy).Contents (Elt F) → (⟨S50000, .f32⟩ : BufTy).Contents (Elt F)),
    StableHlo.unary main_v403 main_v408 (broadcastInDim S800000x1 ![0] bcast_S800000_S800000x1_0 : (⟨S800000, .i32⟩ : BufTy).Contents (Elt F) → (⟨S800000x1, .i32⟩ : BufTy).Contents (Elt F)),
    StableHlo.ternary main_v407 main_v408 main_v399 main_v409 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_76 (constant S_ .f32 0x3F800000#32),
    StableHlo.unary main_cst_76 main_v410 (broadcastInDim S50000 ![] bcast_S_S50000 : (⟨S_, .f32⟩ : BufTy).Contents (Elt F) → (⟨S50000, .f32⟩ : BufTy).Contents (Elt F)),
    StableHlo.binary main_v406 main_v410 main_v411 (maximumf : (⟨S50000, .f32⟩ : BufTy).Contents (Elt F) → (⟨S50000, .f32⟩ : BufTy).Contents (Elt F) → (⟨S50000, .f32⟩ : BufTy).Contents (Elt F)),
    StableHlo.unary main_v411 main_v412 (Host.rsqrt : (⟨S50000, .f32⟩ : BufTy).Contents (Elt F) → (⟨S50000, .f32⟩ : BufTy).Contents (Elt F)),
    StableHlo.unary main_v412 main_v413 (broadcastInDim S50000x1 ![0] bcast_S50000_S50000x1_0 : (⟨S50000, .f32⟩ : BufTy).Contents (Elt F) → (⟨S50000x1, .f32⟩ : BufTy).Contents (Elt F)),
    StableHlo.unary main_v413 main_v414 (broadcastInDim S50000x128 ![0, 1] bcast_S50000x1_S50000x128_0_1 : (⟨S50000x1, .f32⟩ : BufTy).Contents (Elt F) → (⟨S50000x128, .f32⟩ : BufTy).Contents (Elt F)),
    StableHlo.binary main_v394 main_v414 main_v415 (mulf : (⟨S50000x128, .f32⟩ : BufTy).Contents (Elt F) → (⟨S50000x128, .f32⟩ : BufTy).Contents (Elt F) → (⟨S50000x128, .f32⟩ : BufTy).Contents (Elt F)),
    StableHlo.nullary main_c_77 (constantI S_ 32 0#32),
    StableHlo.unary main_c_77 main_v416 (broadcastInDim S800000 ![] bcast_S_S800000 : (⟨S_, .i32⟩ : BufTy).Contents (Elt F) → (⟨S800000, .i32⟩ : BufTy).Contents (Elt F)),
    StableHlo.binary main_v401 main_v416 main_v417 (cmpi .slt : (⟨S800000, .i32⟩ : BufTy).Contents (Elt F) → (⟨S800000, .i32⟩ : BufTy).Contents (Elt F) → (⟨S800000, .i1⟩ : BufTy).Contents (Elt F)),
    StableHlo.nullary main_c_78 (constantI S_ 32 50000#32),
    StableHlo.unary main_c_78 main_v418 (broadcastInDim S800000 ![] bcast_S_S800000 : (⟨S_, .i32⟩ : BufTy).Contents (Elt F) → (⟨S800000, .i32⟩ : BufTy).Contents (Elt F)),
    StableHlo.binary main_v401 main_v418 main_v419 (addi : (⟨S800000, .i32⟩ : BufTy).Contents (Elt F) → (⟨S800000, .i32⟩ : BufTy).Contents (Elt F) → (⟨S800000, .i32⟩ : BufTy).Contents (Elt F)),
    StableHlo.ternary main_v417 main_v419 main_v401 main_v420 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v420 main_v421 (broadcastInDim S800000x1 ![0] bcast_S800000_S800000x1_0 : (⟨S800000, .i32⟩ : BufTy).Contents (Elt F) → (⟨S800000x1, .i32⟩ : BufTy).Contents (Elt F)),
    StableHlo.binary main_v415 main_v421 main_v422 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_79 (constant S_ .f32 0x00000000#32),
    StableHlo.unary main_cst_79 main_v423 (broadcastInDim S50000x128 ![] bcast_S_S50000x128 : (⟨S_, .f32⟩ : BufTy).Contents (Elt F) → (⟨S50000x128, .f32⟩ : BufTy).Contents (Elt F)),
    StableHlo.unary main_v403 main_v424 (broadcastInDim S800000x1 ![0] bcast_S800000_S800000x1_0 : (⟨S800000, .i32⟩ : BufTy).Contents (Elt F) → (⟨S800000x1, .i32⟩ : BufTy).Contents (Elt F)),
    StableHlo.ternary main_v423 main_v424 main_v422 main_v425 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_80 (constant S_ .f32 0x3F800000#32),
    StableHlo.unary main_cst_80 main_v426 (broadcastInDim S50000 ![] bcast_S_S50000 : (⟨S_, .f32⟩ : BufTy).Contents (Elt F) → (⟨S50000, .f32⟩ : BufTy).Contents (Elt F)),
    StableHlo.binary main_v409 main_v426 main_v427 (maximumf : (⟨S50000, .f32⟩ : BufTy).Contents (Elt F) → (⟨S50000, .f32⟩ : BufTy).Contents (Elt F) → (⟨S50000, .f32⟩ : BufTy).Contents (Elt F)),
    StableHlo.unary main_v427 main_v428 (Host.rsqrt : (⟨S50000, .f32⟩ : BufTy).Contents (Elt F) → (⟨S50000, .f32⟩ : BufTy).Contents (Elt F)),
    StableHlo.unary main_v428 main_v429 (broadcastInDim S50000x1 ![0] bcast_S50000_S50000x1_0 : (⟨S50000, .f32⟩ : BufTy).Contents (Elt F) → (⟨S50000x1, .f32⟩ : BufTy).Contents (Elt F)),
    StableHlo.unary main_v429 main_v430 (broadcastInDim S50000x128 ![0, 1] bcast_S50000x1_S50000x128_0_1 : (⟨S50000x1, .f32⟩ : BufTy).Contents (Elt F) → (⟨S50000x128, .f32⟩ : BufTy).Contents (Elt F)),
    StableHlo.binary main_v425 main_v430 main_v431 (mulf : (⟨S50000x128, .f32⟩ : BufTy).Contents (Elt F) → (⟨S50000x128, .f32⟩ : BufTy).Contents (Elt F) → (⟨S50000x128, .f32⟩ : BufTy).Contents (Elt F)),
    StableHlo.unary main_v396 main_v432 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v432 main_v433 rfl shapeCasts_S1x128x128_S128x128,
    StableHlo.binary main_v431 main_v433 main_v434 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v398 main_v435 ((extractStridedSlice S1x128 ![0, 0] · slices_S3x128_S1x128_0_0) : (⟨S3x128, .f32⟩ : BufTy).Contents (Elt F) → (⟨S1x128, .f32⟩ : BufTy).Contents (Elt F)),
    StableHlo.reshape main_v435 main_v436 rfl shapeCasts_S1x128_S128,
    StableHlo.unary main_v436 main_v437 (broadcastInDim S1x128 ![1] bcast_S128_S1x128_1 : (⟨S128, .f32⟩ : BufTy).Contents (Elt F) → (⟨S1x128, .f32⟩ : BufTy).Contents (Elt F)),
    StableHlo.unary main_v437 main_v438 (broadcastInDim S50000x128 ![0, 1] bcast_S1x128_S50000x128_0_1 : (⟨S1x128, .f32⟩ : BufTy).Contents (Elt F) → (⟨S50000x128, .f32⟩ : BufTy).Contents (Elt F)),
    StableHlo.binary main_v434 main_v438 main_v439 (addf : (⟨S50000x128, .f32⟩ : BufTy).Contents (Elt F) → (⟨S50000x128, .f32⟩ : BufTy).Contents (Elt F) → (⟨S50000x128, .f32⟩ : BufTy).Contents (Elt F)),
    StableHlo.unary main_arg1 main_v440 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v440 main_v441 rfl shapeCasts_S1x800000_S800000,
    StableHlo.unary main_arg2 main_v442 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v442 main_v443 rfl shapeCasts_S1x800000_S800000,
    StableHlo.nullary main_cst_81 (constant S_ .f32 0x00000000#32),
    StableHlo.unary main_cst_81 main_v444 (broadcastInDim S50000 ![] bcast_S_S50000 : (⟨S_, .f32⟩ : BufTy).Contents (Elt F) → (⟨S50000, .f32⟩ : BufTy).Contents (Elt F)),
    StableHlo.unary main_v441 main_v445 (broadcastInDim S800000x1 ![0] bcast_S800000_S800000x1_0 : (⟨S800000, .i32⟩ : BufTy).Contents (Elt F) → (⟨S800000x1, .i32⟩ : BufTy).Contents (Elt F)),
    StableHlo.ternary main_v444 main_v445 main_v399 main_v446 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_82 (constant S_ .f32 0x00000000#32),
    StableHlo.unary main_cst_82 main_v447 (broadcastInDim S50000 ![] bcast_S_S50000 : (⟨S_, .f32⟩ : BufTy).Contents (Elt F) → (⟨S50000, .f32⟩ : BufTy).Contents (Elt F)),
    StableHlo.unary main_v443 main_v448 (broadcastInDim S800000x1 ![0] bcast_S800000_S800000x1_0 : (⟨S800000, .i32⟩ : BufTy).Contents (Elt F) → (⟨S800000x1, .i32⟩ : BufTy).Contents (Elt F)),
    StableHlo.ternary main_v447 main_v448 main_v399 main_v449 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_83 (constant S_ .f32 0x3F800000#32),
    StableHlo.unary main_cst_83 main_v450 (broadcastInDim S50000 ![] bcast_S_S50000 : (⟨S_, .f32⟩ : BufTy).Contents (Elt F) → (⟨S50000, .f32⟩ : BufTy).Contents (Elt F)),
    StableHlo.binary main_v446 main_v450 main_v451 (maximumf : (⟨S50000, .f32⟩ : BufTy).Contents (Elt F) → (⟨S50000, .f32⟩ : BufTy).Contents (Elt F) → (⟨S50000, .f32⟩ : BufTy).Contents (Elt F)),
    StableHlo.unary main_v451 main_v452 (Host.rsqrt : (⟨S50000, .f32⟩ : BufTy).Contents (Elt F) → (⟨S50000, .f32⟩ : BufTy).Contents (Elt F)),
    StableHlo.unary main_v452 main_v453 (broadcastInDim S50000x1 ![0] bcast_S50000_S50000x1_0 : (⟨S50000, .f32⟩ : BufTy).Contents (Elt F) → (⟨S50000x1, .f32⟩ : BufTy).Contents (Elt F)) ]

/-- The window is that line. -/
theorem part8_eq (c : Dev nD) : main_part8 (F := F) c = seq (w8_0 (F := F)) := rfl

end Cert.ReferenceIdeal.RefRun

end
-- ==== Proof.RefRunW9.lean ====
/- Statements 541 … 600 of the reference's @main (its window 9) as a list of host operations: the window is the
   straight line `seq` of the list, by unfolding. A call to @leaky_relu stands as the seven operations of its body (the last the select of
   the @_where it calls) over that call's buffers. Where a graph-conv layer ends inside the window the list is given in two pieces. -/
import proofs.«165758_j22333829939343_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 9, the part in layer 3 (60 operations). -/
def w9_0 : List (HloOp τ sig (Elt F)) :=
  [ StableHlo.unary main_v453 main_v454 (broadcastInDim S50000x128 ![0, 1] bcast_S50000x1_S50000x128_0_1 : (⟨S50000x1, .f32⟩ : BufTy).Contents (Elt F) → (⟨S50000x128, .f32⟩ : BufTy).Contents (Elt F)),
    StableHlo.binary main_v394 main_v454 main_v455 (mulf : (⟨S50000x128, .f32⟩ : BufTy).Contents (Elt F) → (⟨S50000x128, .f32⟩ : BufTy).Contents (Elt F) → (⟨S50000x128, .f32⟩ : BufTy).Contents (Elt F)),
    StableHlo.nullary main_c_84 (constantI S_ 32 0#32),
    StableHlo.unary main_c_84 main_v456 (broadcastInDim S800000 ![] bcast_S_S800000 : (⟨S_, .i32⟩ : BufTy).Contents (Elt F) → (⟨S800000, .i32⟩ : BufTy).Contents (Elt F)),
    StableHlo.binary main_v441 main_v456 main_v457 (cmpi .slt : (⟨S800000, .i32⟩ : BufTy).Contents (Elt F) → (⟨S800000, .i32⟩ : BufTy).Contents (Elt F) → (⟨S800000, .i1⟩ : BufTy).Contents (Elt F)),
    StableHlo.nullary main_c_85 (constantI S_ 32 50000#32),
    StableHlo.unary main_c_85 main_v458 (broadcastInDim S800000 ![] bcast_S_S800000 : (⟨S_, .i32⟩ : BufTy).Contents (Elt F) → (⟨S800000, .i32⟩ : BufTy).Contents (Elt F)),
    StableHlo.binary main_v441 main_v458 main_v459 (addi : (⟨S800000, .i32⟩ : BufTy).Contents (Elt F) → (⟨S800000, .i32⟩ : BufTy).Contents (Elt F) → (⟨S800000, .i32⟩ : BufTy).Contents (Elt F)),
    StableHlo.ternary main_v457 main_v459 main_v441 main_v460 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v460 main_v461 (broadcastInDim S800000x1 ![0] bcast_S800000_S800000x1_0 : (⟨S800000, .i32⟩ : BufTy).Contents (Elt F) → (⟨S800000x1, .i32⟩ : BufTy).Contents (Elt F)),
    StableHlo.binary main_v455 main_v461 main_v462 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_86 (constant S_ .f32 0x00000000#32),
    StableHlo.unary main_cst_86 main_v463 (broadcastInDim S50000x128 ![] bcast_S_S50000x128 : (⟨S_, .f32⟩ : BufTy).Contents (Elt F) → (⟨S50000x128, .f32⟩ : BufTy).Contents (Elt F)),
    StableHlo.unary main_v443 main_v464 (broadcastInDim S800000x1 ![0] bcast_S800000_S800000x1_0 : (⟨S800000, .i32⟩ : BufTy).Contents (Elt F) → (⟨S800000x1, .i32⟩ : BufTy).Contents (Elt F)),
    StableHlo.ternary main_v463 main_v464 main_v462 main_v465 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_87 (constant S_ .f32 0x3F800000#32),
    StableHlo.unary main_cst_87 main_v466 (broadcastInDim S50000 ![] bcast_S_S50000 : (⟨S_, .f32⟩ : BufTy).Contents (Elt F) → (⟨S50000, .f32⟩ : BufTy).Contents (Elt F)),
    StableHlo.binary main_v449 main_v466 main_v467 (maximumf : (⟨S50000, .f32⟩ : BufTy).Contents (Elt F) → (⟨S50000, .f32⟩ : BufTy).Contents (Elt F) → (⟨S50000, .f32⟩ : BufTy).Contents (Elt F)),
    StableHlo.unary main_v467 main_v468 (Host.rsqrt : (⟨S50000, .f32⟩ : BufTy).Contents (Elt F) → (⟨S50000, .f32⟩ : BufTy).Contents (Elt F)),
    StableHlo.unary main_v468 main_v469 (broadcastInDim S50000x1 ![0] bcast_S50000_S50000x1_0 : (⟨S50000, .f32⟩ : BufTy).Contents (Elt F) → (⟨S50000x1, .f32⟩ : BufTy).Contents (Elt F)),
    StableHlo.unary main_v469 main_v470 (broadcastInDim S50000x128 ![0, 1] bcast_S50000x1_S50000x128_0_1 : (⟨S50000x1, .f32⟩ : BufTy).Contents (Elt F) → (⟨S50000x128, .f32⟩ : BufTy).Contents (Elt F)),
    StableHlo.binary main_v465 main_v470 main_v471 (mulf : (⟨S50000x128, .f32⟩ : BufTy).Contents (Elt F) → (⟨S50000x128, .f32⟩ : BufTy).Contents (Elt F) → (⟨S50000x128, .f32⟩ : BufTy).Contents (Elt F)),
    StableHlo.unary main_v396 main_v472 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v472 main_v473 rfl shapeCasts_S1x128x128_S128x128,
    StableHlo.binary main_v471 main_v473 main_v474 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v398 main_v475 ((extractStridedSlice S1x128 ![1, 0] · slices_S3x128_S1x128_1_0) : (⟨S3x128, .f32⟩ : BufTy).Contents (Elt F) → (⟨S1x128, .f32⟩ : BufTy).Contents (Elt F)),
    StableHlo.reshape main_v475 main_v476 rfl shapeCasts_S1x128_S128,
    StableHlo.unary main_v476 main_v477 (broadcastInDim S1x128 ![1] bcast_S128_S1x128_1 : (⟨S128, .f32⟩ : BufTy).Contents (Elt F) → (⟨S1x128, .f32⟩ : BufTy).Contents (Elt F)),
    StableHlo.unary main_v477 main_v478 (broadcastInDim S50000x128 ![0, 1] bcast_S1x128_S50000x128_0_1 : (⟨S1x128, .f32⟩ : BufTy).Contents (Elt F) → (⟨S50000x128, .f32⟩ : BufTy).Contents (Elt F)),
    StableHlo.binary main_v474 main_v478 main_v479 (addf : (⟨S50000x128, .f32⟩ : BufTy).Contents (Elt F) → (⟨S50000x128, .f32⟩ : BufTy).Contents (Elt F) → (⟨S50000x128, .f32⟩ : BufTy).Contents (Elt F)),
    StableHlo.unary main_arg1 main_v480 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v480 main_v481 rfl shapeCasts_S1x800000_S800000,
    StableHlo.unary main_arg2 main_v482 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v482 main_v483 rfl shapeCasts_S1x800000_S800000,
    StableHlo.nullary main_cst_88 (constant S_ .f32 0x00000000#32),
    StableHlo.unary main_cst_88 main_v484 (broadcastInDim S50000 ![] bcast_S_S50000 : (⟨S_, .f32⟩ : BufTy).Contents (Elt F) → (⟨S50000, .f32⟩ : BufTy).Contents (Elt F)),
    StableHlo.unary main_v481 main_v485 (broadcastInDim S800000x1 ![0] bcast_S800000_S800000x1_0 : (⟨S800000, .i32⟩ : BufTy).Contents (Elt F) → (⟨S800000x1, .i32⟩ : BufTy).Contents (Elt F)),
    StableHlo.ternary main_v484 main_v485 main_v399 main_v486 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_89 (constant S_ .f32 0x00000000#32),
    StableHlo.unary main_cst_89 main_v487 (broadcastInDim S50000 ![] bcast_S_S50000 : (⟨S_, .f32⟩ : BufTy).Contents (Elt F) → (⟨S50000, .f32⟩ : BufTy).Contents (Elt F)),
    StableHlo.unary main_v483 main_v488 (broadcastInDim S800000x1 ![0] bcast_S800000_S800000x1_0 : (⟨S800000, .i32⟩ : BufTy).Contents (Elt F) → (⟨S800000x1, .i32⟩ : BufTy).Contents (Elt F)),
    StableHlo.ternary main_v487 main_v488 main_v399 main_v489 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_90 (constant S_ .f32 0x3F800000#32),
    StableHlo.unary main_cst_90 main_v490 (broadcastInDim S50000 ![] bcast_S_S50000 : (⟨S_, .f32⟩ : BufTy).Contents (Elt F) → (⟨S50000, .f32⟩ : BufTy).Contents (Elt F)),
    StableHlo.binary main_v486 main_v490 main_v491 (maximumf : (⟨S50000, .f32⟩ : BufTy).Contents (Elt F) → (⟨S50000, .f32⟩ : BufTy).Contents (Elt F) → (⟨S50000, .f32⟩ : BufTy).Contents (Elt F)),
    StableHlo.unary main_v491 main_v492 (Host.rsqrt : (⟨S50000, .f32⟩ : BufTy).Contents (Elt F) → (⟨S50000, .f32⟩ : BufTy).Contents (Elt F)),
    StableHlo.unary main_v492 main_v493 (broadcastInDim S50000x1 ![0] bcast_S50000_S50000x1_0 : (⟨S50000, .f32⟩ : BufTy).Contents (Elt F) → (⟨S50000x1, .f32⟩ : BufTy).Contents (Elt F)),
    StableHlo.unary main_v493 main_v494 (broadcastInDim S50000x128 ![0, 1] bcast_S50000x1_S50000x128_0_1 : (⟨S50000x1, .f32⟩ : BufTy).Contents (Elt F) → (⟨S50000x128, .f32⟩ : BufTy).Contents (Elt F)),
    StableHlo.binary main_v394 main_v494 main_v495 (mulf : (⟨S50000x128, .f32⟩ : BufTy).Contents (Elt F) → (⟨S50000x128, .f32⟩ : BufTy).Contents (Elt F) → (⟨S50000x128, .f32⟩ : BufTy).Contents (Elt F)),
    StableHlo.nullary main_c_91 (constantI S_ 32 0#32),
    StableHlo.unary main_c_91 main_v496 (broadcastInDim S800000 ![] bcast_S_S800000 : (⟨S_, .i32⟩ : BufTy).Contents (Elt F) → (⟨S800000, .i32⟩ : BufTy).Contents (Elt F)),
    StableHlo.binary main_v481 main_v496 main_v497 (cmpi .slt : (⟨S800000, .i32⟩ : BufTy).Contents (Elt F) → (⟨S800000, .i32⟩ : BufTy).Contents (Elt F) → (⟨S800000, .i1⟩ : BufTy).Contents (Elt F)),
    StableHlo.nullary main_c_92 (constantI S_ 32 50000#32),
    StableHlo.unary main_c_92 main_v498 (broadcastInDim S800000 ![] bcast_S_S800000 : (⟨S_, .i32⟩ : BufTy).Contents (Elt F) → (⟨S800000, .i32⟩ : BufTy).Contents (Elt F)),
    StableHlo.binary main_v481 main_v498 main_v499 (addi : (⟨S800000, .i32⟩ : BufTy).Contents (Elt F) → (⟨S800000, .i32⟩ : BufTy).Contents (Elt F) → (⟨S800000, .i32⟩ : BufTy).Contents (Elt F)),
    StableHlo.ternary main_v497 main_v499 main_v481 main_v500 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v500 main_v501 (broadcastInDim S800000x1 ![0] bcast_S800000_S800000x1_0 : (⟨S800000, .i32⟩ : BufTy).Contents (Elt F) → (⟨S800000x1, .i32⟩ : BufTy).Contents (Elt F)),
    StableHlo.binary main_v495 main_v501 main_v502 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_93 (constant S_ .f32 0x00000000#32),
    StableHlo.unary main_cst_93 main_v503 (broadcastInDim S50000x128 ![] bcast_S_S50000x128 : (⟨S_, .f32⟩ : BufTy).Contents (Elt F) → (⟨S50000x128, .f32⟩ : BufTy).Contents (Elt F)) ]

/-- The window is that line. -/
theorem part9_eq (c : Dev nD) : main_part9 (F := F) c = seq (w9_0 (F := F)) := rfl

end Cert.ReferenceIdeal.RefRun

end
-- ==== Proof.RefRunW10.lean ====
/- Statements 601 … 660 of the reference's @main (its window 10) as a list of host operations: the window is the
   straight line `seq` of the list, by unfolding. A call to @leaky_relu stands as the seven operations of its body (the last the select of
   the @_where it calls) over that call's buffers. Where a graph-conv layer ends inside the window the list is given in two pieces. -/
import proofs.«165758_j22333829939343_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 10, the part in layer 3 (34 operations). -/
def w10_0 : List (HloOp τ sig (Elt F)) :=
  [ StableHlo.unary main_v483 main_v504 (broadcastInDim S800000x1 ![0] bcast_S800000_S800000x1_0 : (⟨S800000, .i32⟩ : BufTy).Contents (Elt F) → (⟨S800000x1, .i32⟩ : BufTy).Contents (Elt F)),
    StableHlo.ternary main_v503 main_v504 main_v502 main_v505 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_94 (constant S_ .f32 0x3F800000#32),
    StableHlo.unary main_cst_94 main_v506 (broadcastInDim S50000 ![] bcast_S_S50000 : (⟨S_, .f32⟩ : BufTy).Contents (Elt F) → (⟨S50000, .f32⟩ : BufTy).Contents (Elt F)),
    StableHlo.binary main_v489 main_v506 main_v507 (maximumf : (⟨S50000, .f32⟩ : BufTy).Contents (Elt F) → (⟨S50000, .f32⟩ : BufTy).Contents (Elt F) → (⟨S50000, .f32⟩ : BufTy).Contents (Elt F)),
    StableHlo.unary main_v507 main_v508 (Host.rsqrt : (⟨S50000, .f32⟩ : BufTy).Contents (Elt F) → (⟨S50000, .f32⟩ : BufTy).Contents (Elt F)),
    StableHlo.unary main_v508 main_v509 (broadcastInDim S50000x1 ![0] bcast_S50000_S50000x1_0 : (⟨S50000, .f32⟩ : BufTy).Contents (Elt F) → (⟨S50000x1, .f32⟩ : BufTy).Contents (Elt F)),
    StableHlo.unary main_v509 main_v510 (broadcastInDim S50000x128 ![0, 1] bcast_S50000x1_S50000x128_0_1 : (⟨S50000x1, .f32⟩ : BufTy).Contents (Elt F) → (⟨S50000x128, .f32⟩ : BufTy).Contents (Elt F)),
    StableHlo.binary main_v505 main_v510 main_v511 (mulf : (⟨S50000x128, .f32⟩ : BufTy).Contents (Elt F) → (⟨S50000x128, .f32⟩ : BufTy).Contents (Elt F) → (⟨S50000x128, .f32⟩ : BufTy).Contents (Elt F)),
    StableHlo.unary main_v396 main_v512 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v512 main_v513 rfl shapeCasts_S1x128x128_S128x128,
    StableHlo.binary main_v511 main_v513 main_v514 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v398 main_v515 ((extractStridedSlice S1x128 ![2, 0] · slices_S3x128_S1x128_2_0) : (⟨S3x128, .f32⟩ : BufTy).Contents (Elt F) → (⟨S1x128, .f32⟩ : BufTy).Contents (Elt F)),
    StableHlo.reshape main_v515 main_v516 rfl shapeCasts_S1x128_S128,
    StableHlo.unary main_v516 main_v517 (broadcastInDim S1x128 ![1] bcast_S128_S1x128_1 : (⟨S128, .f32⟩ : BufTy).Contents (Elt F) → (⟨S1x128, .f32⟩ : BufTy).Contents (Elt F)),
    StableHlo.unary main_v517 main_v518 (broadcastInDim S50000x128 ![0, 1] bcast_S1x128_S50000x128_0_1 : (⟨S1x128, .f32⟩ : BufTy).Contents (Elt F) → (⟨S50000x128, .f32⟩ : BufTy).Contents (Elt F)),
    StableHlo.binary main_v514 main_v518 main_v519 (addf : (⟨S50000x128, .f32⟩ : BufTy).Contents (Elt F) → (⟨S50000x128, .f32⟩ : BufTy).Contents (Elt F) → (⟨S50000x128, .f32⟩ : BufTy).Contents (Elt F)),
    StableHlo.unary main_v439 main_v520 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v479 main_v521 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v519 main_v522 (broadcastInDim S1x50000x128 ![1, 2] bcast_S50000x128_S1x50000x128_1_2 : (⟨S50000x128, .f32⟩ : BufTy).Contents (Elt F) → (⟨S1x50000x128, .f32⟩ : BufTy).Contents (Elt F)),
    StableHlo.nary ![main_v520, main_v521, main_v522] main_v523 (fun u => concatenate S3x50000x128 0 [⟨S1x50000x128, u 0⟩, ⟨S1x50000x128, u 1⟩, ⟨S1x50000x128, u 2⟩] concatenates_S1x50000x128_S1x50000x128_S1x50000x128_S3x50000x128_d0),
    StableHlo.nullary main_cst_95 (constant S_ .f32 0x00000000#32),
    StableHlo.binary main_v523 main_cst_95 main_v524 ((fun x v => Host.reduceAdd x v reducesTo_S3x50000x128_S50000x128_d0 h_S_) : (⟨S3x50000x128, .f32⟩ : BufTy).Contents (Elt F) → (⟨S_, .f32⟩ : BufTy).Contents (Elt F) → (⟨S50000x128, .f32⟩ : BufTy).Contents (Elt F)),
    StableHlo.nullary main_cst_96 (constant S_ .f32 0x40400000#32),
    StableHlo.unary main_cst_96 main_v525 (broadcastInDim S50000x128 ![] bcast_S_S50000x128 : (⟨S_, .f32⟩ : BufTy).Contents (Elt F) → (⟨S50000x128, .f32⟩ : BufTy).Contents (Elt F)),
    StableHlo.binary main_v524 main_v525 main_v526 (Host.divf : (⟨S50000x128, .f32⟩ : BufTy).Contents (Elt F) → (⟨S50000x128, .f32⟩ : BufTy).Contents (Elt F) → (⟨S50000x128, .f32⟩ : BufTy).Contents (Elt F)),
    StableHlo.nullary main_cst_97 (constant S_ .f32 0x3C23D70A#32),
    TRef.nullary main_call3.cst (constant S_ .f32 0x00000000#32),
    TRef.unary main_call3.cst main_call3.v0 (broadcastInDim S50000x128 ![] bcast_S_S50000x128),
    TRef.binary (.of main_v526) main_call3.v0 main_call3.v1 (cmpf .oge),
    TRef.unary (.of main_cst_97) main_call3.v2 id,
    TRef.unary main_call3.v2 main_call3.v3 (broadcastInDim S50000x128 ![] bcast_S_S50000x128),
    TRef.binary main_call3.v3 (.of main_v526) main_call3.v4 mulf,
    TRef.ternary main_call3.v1 (.of main_v526) main_call3.v4 main_call3.call0.v0 select ]

/-- Window 10, the part in layer 4 (32 operations). -/
def w10_1 : List (HloOp τ sig (Elt F)) :=
  [ StableHlo.unary main_arg5 main_v528 ((extractStridedSlice S1x3x128x128 ![3, 0, 0, 0] · slices_S4x3x128x128_S1x3x128x128_3_0_0_0) : (⟨S4x3x128x128, .f32⟩ : BufTy).Contents (Elt F) → (⟨S1x3x128x128, .f32⟩ : BufTy).Contents (Elt F)),
    StableHlo.reshape main_v528 main_v529 rfl shapeCasts_S1x3x128x128_S3x128x128,
    StableHlo.unary main_arg6 main_v530 ((extractStridedSlice S1x3x128 ![3, 0, 0] · slices_S4x3x128_S1x3x128_3_0_0) : (⟨S4x3x128, .f32⟩ : BufTy).Contents (Elt F) → (⟨S1x3x128, .f32⟩ : BufTy).Contents (Elt F)),
    StableHlo.reshape main_v530 main_v531 rfl shapeCasts_S1x3x128_S3x128,
    StableHlo.nullary main_cst_98 (constant S_ .f32 0x3F800000#32),
    StableHlo.unary main_cst_98 main_v532 (broadcastInDim S800000 ![] bcast_S_S800000 : (⟨S_, .f32⟩ : BufTy).Contents (Elt F) → (⟨S800000, .f32⟩ : BufTy).Contents (Elt F)),
    StableHlo.unary main_arg1 main_v533 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v533 main_v534 rfl shapeCasts_S1x800000_S800000,
    StableHlo.unary main_arg2 main_v535 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v535 main_v536 rfl shapeCasts_S1x800000_S800000,
    StableHlo.nullary main_cst_99 (constant S_ .f32 0x00000000#32),
    StableHlo.unary main_cst_99 main_v537 (broadcastInDim S50000 ![] bcast_S_S50000 : (⟨S_, .f32⟩ : BufTy).Contents (Elt F) → (⟨S50000, .f32⟩ : BufTy).Contents (Elt F)),
    StableHlo.unary main_v534 main_v538 (broadcastInDim S800000x1 ![0] bcast_S800000_S800000x1_0 : (⟨S800000, .i32⟩ : BufTy).Contents (Elt F) → (⟨S800000x1, .i32⟩ : BufTy).Contents (Elt F)),
    StableHlo.ternary main_v537 main_v538 main_v532 main_v539 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_100 (constant S_ .f32 0x00000000#32),
    StableHlo.unary main_cst_100 main_v540 (broadcastInDim S50000 ![] bcast_S_S50000 : (⟨S_, .f32⟩ : BufTy).Contents (Elt F) → (⟨S50000, .f32⟩ : BufTy).Contents (Elt F)),
    StableHlo.unary main_v536 main_v541 (broadcastInDim S800000x1 ![0] bcast_S800000_S800000x1_0 : (⟨S800000, .i32⟩ : BufTy).Contents (Elt F) → (⟨S800000x1, .i32⟩ : BufTy).Contents (Elt F)),
    StableHlo.ternary main_v540 main_v541 main_v532 main_v542 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_101 (constant S_ .f32 0x3F800000#32),
    StableHlo.unary main_cst_101 main_v543 (broadcastInDim S50000 ![] bcast_S_S50000 : (⟨S_, .f32⟩ : BufTy).Contents (Elt F) → (⟨S50000, .f32⟩ : BufTy).Contents (Elt F)),
    StableHlo.binary main_v539 main_v543 main_v544 (maximumf : (⟨S50000, .f32⟩ : BufTy).Contents (Elt F) → (⟨S50000, .f32⟩ : BufTy).Contents (Elt F) → (⟨S50000, .f32⟩ : BufTy).Contents (Elt F)),
    StableHlo.unary main_v544 main_v545 (Host.rsqrt : (⟨S50000, .f32⟩ : BufTy).Contents (Elt F) → (⟨S50000, .f32⟩ : BufTy).Contents (Elt F)),
    StableHlo.unary main_v545 main_v546 (broadcastInDim S50000x1 ![0] bcast_S50000_S50000x1_0 : (⟨S50000, .f32⟩ : BufTy).Contents (Elt F) → (⟨S50000x1, .f32⟩ : BufTy).Contents (Elt F)),
    StableHlo.unary main_v546 main_v547 (broadcastInDim S50000x128 ![0, 1] bcast_S50000x1_S50000x128_0_1 : (⟨S50000x1, .f32⟩ : BufTy).Contents (Elt F) → (⟨S50000x128, .f32⟩ : BufTy).Contents (Elt F)),
    StableHlo.binary main_v527 main_v547 main_v548 (mulf : (⟨S50000x128, .f32⟩ : BufTy).Contents (Elt F) → (⟨S50000x128, .f32⟩ : BufTy).Contents (Elt F) → (⟨S50000x128, .f32⟩ : BufTy).Contents (Elt F)),
    StableHlo.nullary main_c_102 (constantI S_ 32 0#32),
    StableHlo.unary main_c_102 main_v549 (broadcastInDim S800000 ![] bcast_S_S800000 : (⟨S_, .i32⟩ : BufTy).Contents (Elt F) → (⟨S800000, .i32⟩ : BufTy).Contents (Elt F)),
    StableHlo.binary main_v534 main_v549 main_v550 (cmpi .slt : (⟨S800000, .i32⟩ : BufTy).Contents (Elt F) → (⟨S800000, .i32⟩ : BufTy).Contents (Elt F) → (⟨S800000, .i1⟩ : BufTy).Contents (Elt F)),
    StableHlo.nullary main_c_103 (constantI S_ 32 50000#32),
    StableHlo.unary main_c_103 main_v551 (broadcastInDim S800000 ![] bcast_S_S800000 : (⟨S_, .i32⟩ : BufTy).Contents (Elt F) → (⟨S800000, .i32⟩ : BufTy).Contents (Elt F)),
    StableHlo.binary main_v534 main_v551 main_v552 (addi : (⟨S800000, .i32⟩ : BufTy).Contents (Elt F) → (⟨S800000, .i32⟩ : BufTy).Contents (Elt F) → (⟨S800000, .i32⟩ : BufTy).Contents (Elt F)),
    StableHlo.ternary main_v550 main_v552 main_v534 main_v553 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ]

/-- The window is that line. -/
theorem part10_eq (c : Dev nD) : main_part10 (F := F) c = seq (w10_0 (F := F) ++ w10_1 (F := F)) := rfl

end Cert.ReferenceIdeal.RefRun

end
-- ==== Proof.RefRunL3.lean ====
/- Graph-conv layer 3 of the reference as ONE list of host operations (164), ending with the operation that writes `main_v527`:
   the concatenation of the window pieces it spans; every operation touches TensorCore references only and allocates nothing;
   the list of the references it writes, none of them an argument of @main. -/
import proofs.«165758_j22333829939343_1_alg».proof.Proof.RefRunW7
import proofs.«165758_j22333829939343_1_alg».proof.Proof.RefRunW8
import proofs.«165758_j22333829939343_1_alg».proof.Proof.RefRunW9
import proofs.«165758_j22333829939343_1_alg».proof.Proof.RefRunW10
import proofs.«165758_j22333829939343_1_alg».proof.Proof.LibKeeps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The layer's operations, in order. -/
abbrev opsL3 : List (HloOp τ sig (Elt F)) :=
  [ StableHlo.unary main_arg5 main_v395 ((extractStridedSlice S1x3x128x128 ![2, 0, 0, 0] · slices_S4x3x128x128_S1x3x128x128_2_0_0_0) : (⟨S4x3x128x128, .f32⟩ : BufTy).Contents (Elt F) → (⟨S1x3x128x128, .f32⟩ : BufTy).Contents (Elt F)),
    StableHlo.reshape main_v395 main_v396 rfl shapeCasts_S1x3x128x128_S3x128x128,
    StableHlo.unary main_arg6 main_v397 ((extractStridedSlice S1x3x128 ![2, 0, 0] · slices_S4x3x128_S1x3x128_2_0_0) : (⟨S4x3x128, .f32⟩ : BufTy).Contents (Elt F) → (⟨S1x3x128, .f32⟩ : BufTy).Contents (Elt F)),
    StableHlo.reshape main_v397 main_v398 rfl shapeCasts_S1x3x128_S3x128,
    StableHlo.nullary main_cst_73 (constant S_ .f32 0x3F800000#32),
    StableHlo.unary main_cst_73 main_v399 (broadcastInDim S800000 ![] bcast_S_S800000 : (⟨S_, .f32⟩ : BufTy).Contents (Elt F) → (⟨S800000, .f32⟩ : BufTy).Contents (Elt F)),
    StableHlo.unary main_arg1 main_v400 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v400 main_v401 rfl shapeCasts_S1x800000_S800000,
    StableHlo.unary main_arg2 main_v402 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v402 main_v403 rfl shapeCasts_S1x800000_S800000,
    StableHlo.nullary main_cst_74 (constant S_ .f32 0x00000000#32),
    StableHlo.unary main_cst_74 main_v404 (broadcastInDim S50000 ![] bcast_S_S50000 : (⟨S_, .f32⟩ : BufTy).Contents (Elt F) → (⟨S50000, .f32⟩ : BufTy).Contents (Elt F)),
    StableHlo.unary main_v401 main_v405 (broadcastInDim S800000x1 ![0] bcast_S800000_S800000x1_0 : (⟨S800000, .i32⟩ : BufTy).Contents (Elt F) → (⟨S800000x1, .i32⟩ : BufTy).Contents (Elt F)),
    StableHlo.ternary main_v404 main_v405 main_v399 main_v406 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_75 (constant S_ .f32 0x00000000#32),
    StableHlo.unary main_cst_75 main_v407 (broadcastInDim S50000 ![] bcast_S_S50000 : (⟨S_, .f32⟩ : BufTy).Contents (Elt F) → (⟨S50000, .f32⟩ : BufTy).Contents (Elt F)),
    StableHlo.unary main_v403 main_v408 (broadcastInDim S800000x1 ![0] bcast_S800000_S800000x1_0 : (⟨S800000, .i32⟩ : BufTy).Contents (Elt F) → (⟨S800000x1, .i32⟩ : BufTy).Contents (Elt F)),
    StableHlo.ternary main_v407 main_v408 main_v399 main_v409 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_76 (constant S_ .f32 0x3F800000#32),
    StableHlo.unary main_cst_76 main_v410 (broadcastInDim S50000 ![] bcast_S_S50000 : (⟨S_, .f32⟩ : BufTy).Contents (Elt F) → (⟨S50000, .f32⟩ : BufTy).Contents (Elt F)),
    StableHlo.binary main_v406 main_v410 main_v411 (maximumf : (⟨S50000, .f32⟩ : BufTy).Contents (Elt F) → (⟨S50000, .f32⟩ : BufTy).Contents (Elt F) → (⟨S50000, .f32⟩ : BufTy).Contents (Elt F)),
    StableHlo.unary main_v411 main_v412 (Host.rsqrt : (⟨S50000, .f32⟩ : BufTy).Contents (Elt F) → (⟨S50000, .f32⟩ : BufTy).Contents (Elt F)),
    StableHlo.unary main_v412 main_v413 (broadcastInDim S50000x1 ![0] bcast_S50000_S50000x1_0 : (⟨S50000, .f32⟩ : BufTy).Contents (Elt F) → (⟨S50000x1, .f32⟩ : BufTy).Contents (Elt F)),
    StableHlo.unary main_v413 main_v414 (broadcastInDim S50000x128 ![0, 1] bcast_S50000x1_S50000x128_0_1 : (⟨S50000x1, .f32⟩ : BufTy).Contents (Elt F) → (⟨S50000x128, .f32⟩ : BufTy).Contents (Elt F)),
    StableHlo.binary main_v394 main_v414 main_v415 (mulf : (⟨S50000x128, .f32⟩ : BufTy).Contents (Elt F) → (⟨S50000x128, .f32⟩ : BufTy).Contents (Elt F) → (⟨S50000x128, .f32⟩ : BufTy).Contents (Elt F)),
    StableHlo.nullary main_c_77 (constantI S_ 32 0#32),
    StableHlo.unary main_c_77 main_v416 (broadcastInDim S800000 ![] bcast_S_S800000 : (⟨S_, .i32⟩ : BufTy).Contents (Elt F) → (⟨S800000, .i32⟩ : BufTy).Contents (Elt F)),
    StableHlo.binary main_v401 main_v416 main_v417 (cmpi .slt : (⟨S800000, .i32⟩ : BufTy).Contents (Elt F) → (⟨S800000, .i32⟩ : BufTy).Contents (Elt F) → (⟨S800000, .i1⟩ : BufTy).Contents (Elt F)),
    StableHlo.nullary main_c_78 (constantI S_ 32 50000#32),
    StableHlo.unary main_c_78 main_v418 (broadcastInDim S800000 ![] bcast_S_S800000 : (⟨S_, .i32⟩ : BufTy).Contents (Elt F) → (⟨S800000, .i32⟩ : BufTy).Contents (Elt F)),
    StableHlo.binary main_v401 main_v418 main_v419 (addi : (⟨S800000, .i32⟩ : BufTy).Contents (Elt F) → (⟨S800000, .i32⟩ : BufTy).Contents (Elt F) → (⟨S800000, .i32⟩ : BufTy).Contents (Elt F)),
    StableHlo.ternary main_v417 main_v419 main_v401 main_v420 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v420 main_v421 (broadcastInDim S800000x1 ![0] bcast_S800000_S800000x1_0 : (⟨S800000, .i32⟩ : BufTy).Contents (Elt F) → (⟨S800000x1, .i32⟩ : BufTy).Contents (Elt F)),
    StableHlo.binary main_v415 main_v421 main_v422 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_79 (constant S_ .f32 0x00000000#32),
    StableHlo.unary main_cst_79 main_v423 (broadcastInDim S50000x128 ![] bcast_S_S50000x128 : (⟨S_, .f32⟩ : BufTy).Contents (Elt F) → (⟨S50000x128, .f32⟩ : BufTy).Contents (Elt F)),
    StableHlo.unary main_v403 main_v424 (broadcastInDim S800000x1 ![0] bcast_S800000_S800000x1_0 : (⟨S800000, .i32⟩ : BufTy).Contents (Elt F) → (⟨S800000x1, .i32⟩ : BufTy).Contents (Elt F)),
    StableHlo.ternary main_v423 main_v424 main_v422 main_v425 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_80 (constant S_ .f32 0x3F800000#32),
    StableHlo.unary main_cst_80 main_v426 (broadcastInDim S50000 ![] bcast_S_S50000 : (⟨S_, .f32⟩ : BufTy).Contents (Elt F) → (⟨S50000, .f32⟩ : BufTy).Contents (Elt F)),
    StableHlo.binary main_v409 main_v426 main_v427 (maximumf : (⟨S50000, .f32⟩ : BufTy).Contents (Elt F) → (⟨S50000, .f32⟩ : BufTy).Contents (Elt F) → (⟨S50000, .f32⟩ : BufTy).Contents (Elt F)),
    StableHlo.unary main_v427 main_v428 (Host.rsqrt : (⟨S50000, .f32⟩ : BufTy).Contents (Elt F) → (⟨S50000, .f32⟩ : BufTy).Contents (Elt F)),
    StableHlo.unary main_v428 main_v429 (broadcastInDim S50000x1 ![0] bcast_S50000_S50000x1_0 : (⟨S50000, .f32⟩ : BufTy).Contents (Elt F) → (⟨S50000x1, .f32⟩ : BufTy).Contents (Elt F)),
    StableHlo.unary main_v429 main_v430 (broadcastInDim S50000x128 ![0, 1] bcast_S50000x1_S50000x128_0_1 : (⟨S50000x1, .f32⟩ : BufTy).Contents (Elt F) → (⟨S50000x128, .f32⟩ : BufTy).Contents (Elt F)),
    StableHlo.binary main_v425 main_v430 main_v431 (mulf : (⟨S50000x128, .f32⟩ : BufTy).Contents (Elt F) → (⟨S50000x128, .f32⟩ : BufTy).Contents (Elt F) → (⟨S50000x128, .f32⟩ : BufTy).Contents (Elt F)),
    StableHlo.unary main_v396 main_v432 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v432 main_v433 rfl shapeCasts_S1x128x128_S128x128,
    StableHlo.binary main_v431 main_v433 main_v434 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v398 main_v435 ((extractStridedSlice S1x128 ![0, 0] · slices_S3x128_S1x128_0_0) : (⟨S3x128, .f32⟩ : BufTy).Contents (Elt F) → (⟨S1x128, .f32⟩ : BufTy).Contents (Elt F)),
    StableHlo.reshape main_v435 main_v436 rfl shapeCasts_S1x128_S128,
    StableHlo.unary main_v436 main_v437 (broadcastInDim S1x128 ![1] bcast_S128_S1x128_1 : (⟨S128, .f32⟩ : BufTy).Contents (Elt F) → (⟨S1x128, .f32⟩ : BufTy).Contents (Elt F)),
    StableHlo.unary main_v437 main_v438 (broadcastInDim S50000x128 ![0, 1] bcast_S1x128_S50000x128_0_1 : (⟨S1x128, .f32⟩ : BufTy).Contents (Elt F) → (⟨S50000x128, .f32⟩ : BufTy).Contents (Elt F)),
    StableHlo.binary main_v434 main_v438 main_v439 (addf : (⟨S50000x128, .f32⟩ : BufTy).Contents (Elt F) → (⟨S50000x128, .f32⟩ : BufTy).Contents (Elt F) → (⟨S50000x128, .f32⟩ : BufTy).Contents (Elt F)),
    StableHlo.unary main_arg1 main_v440 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v440 main_v441 rfl shapeCasts_S1x800000_S800000,
    StableHlo.unary main_arg2 main_v442 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v442 main_v443 rfl shapeCasts_S1x800000_S800000,
    StableHlo.nullary main_cst_81 (constant S_ .f32 0x00000000#32),
    StableHlo.unary main_cst_81 main_v444 (broadcastInDim S50000 ![] bcast_S_S50000 : (⟨S_, .f32⟩ : BufTy).Contents (Elt F) → (⟨S50000, .f32⟩ : BufTy).Contents (Elt F)),
    StableHlo.unary main_v441 main_v445 (broadcastInDim S800000x1 ![0] bcast_S800000_S800000x1_0 : (⟨S800000, .i32⟩ : BufTy).Contents (Elt F) → (⟨S800000x1, .i32⟩ : BufTy).Contents (Elt F)),
    StableHlo.ternary main_v444 main_v445 main_v399 main_v446 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_82 (constant S_ .f32 0x00000000#32),
    StableHlo.unary main_cst_82 main_v447 (broadcastInDim S50000 ![] bcast_S_S50000 : (⟨S_, .f32⟩ : BufTy).Contents (Elt F) → (⟨S50000, .f32⟩ : BufTy).Contents (Elt F)),
    StableHlo.unary main_v443 main_v448 (broadcastInDim S800000x1 ![0] bcast_S800000_S800000x1_0 : (⟨S800000, .i32⟩ : BufTy).Contents (Elt F) → (⟨S800000x1, .i32⟩ : BufTy).Contents (Elt F)),
    StableHlo.ternary main_v447 main_v448 main_v399 main_v449 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_83 (constant S_ .f32 0x3F800000#32),
    StableHlo.unary main_cst_83 main_v450 (broadcastInDim S50000 ![] bcast_S_S50000 : (⟨S_, .f32⟩ : BufTy).Contents (Elt F) → (⟨S50000, .f32⟩ : BufTy).Contents (Elt F)),
    StableHlo.binary main_v446 main_v450 main_v451 (maximumf : (⟨S50000, .f32⟩ : BufTy).Contents (Elt F) → (⟨S50000, .f32⟩ : BufTy).Contents (Elt F) → (⟨S50000, .f32⟩ : BufTy).Contents (Elt F)),
    StableHlo.unary main_v451 main_v452 (Host.rsqrt : (⟨S50000, .f32⟩ : BufTy).Contents (Elt F) → (⟨S50000, .f32⟩ : BufTy).Contents (Elt F)),
    StableHlo.unary main_v452 main_v453 (broadcastInDim S50000x1 ![0] bcast_S50000_S50000x1_0 : (⟨S50000, .f32⟩ : BufTy).Contents (Elt F) → (⟨S50000x1, .f32⟩ : BufTy).Contents (Elt F)),
    StableHlo.unary main_v453 main_v454 (broadcastInDim S50000x128 ![0, 1] bcast_S50000x1_S50000x128_0_1 : (⟨S50000x1, .f32⟩ : BufTy).Contents (Elt F) → (⟨S50000x128, .f32⟩ : BufTy).Contents (Elt F)),
    StableHlo.binary main_v394 main_v454 main_v455 (mulf : (⟨S50000x128, .f32⟩ : BufTy).Contents (Elt F) → (⟨S50000x128, .f32⟩ : BufTy).Contents (Elt F) → (⟨S50000x128, .f32⟩ : BufTy).Contents (Elt F)),
    StableHlo.nullary main_c_84 (constantI S_ 32 0#32),
    StableHlo.unary main_c_84 main_v456 (broadcastInDim S800000 ![] bcast_S_S800000 : (⟨S_, .i32⟩ : BufTy).Contents (Elt F) → (⟨S800000, .i32⟩ : BufTy).Contents (Elt F)),
    StableHlo.binary main_v441 main_v456 main_v457 (cmpi .slt : (⟨S800000, .i32⟩ : BufTy).Contents (Elt F) → (⟨S800000, .i32⟩ : BufTy).Contents (Elt F) → (⟨S800000, .i1⟩ : BufTy).Contents (Elt F)),
    StableHlo.nullary main_c_85 (constantI S_ 32 50000#32),
    StableHlo.unary main_c_85 main_v458 (broadcastInDim S800000 ![] bcast_S_S800000 : (⟨S_, .i32⟩ : BufTy).Contents (Elt F) → (⟨S800000, .i32⟩ : BufTy).Contents (Elt F)),
    StableHlo.binary main_v441 main_v458 main_v459 (addi : (⟨S800000, .i32⟩ : BufTy).Contents (Elt F) → (⟨S800000, .i32⟩ : BufTy).Contents (Elt F) → (⟨S800000, .i32⟩ : BufTy).Contents (Elt F)),
    StableHlo.ternary main_v457 main_v459 main_v441 main_v460 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v460 main_v461 (broadcastInDim S800000x1 ![0] bcast_S800000_S800000x1_0 : (⟨S800000, .i32⟩ : BufTy).Contents (Elt F) → (⟨S800000x1, .i32⟩ : BufTy).Contents (Elt F)),
    StableHlo.binary main_v455 main_v461 main_v462 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_86 (constant S_ .f32 0x00000000#32),
    StableHlo.unary main_cst_86 main_v463 (broadcastInDim S50000x128 ![] bcast_S_S50000x128 : (⟨S_, .f32⟩ : BufTy).Contents (Elt F) → (⟨S50000x128, .f32⟩ : BufTy).Contents (Elt F)),
    StableHlo.unary main_v443 main_v464 (broadcastInDim S800000x1 ![0] bcast_S800000_S800000x1_0 : (⟨S800000, .i32⟩ : BufTy).Contents (Elt F) → (⟨S800000x1, .i32⟩ : BufTy).Contents (Elt F)),
    StableHlo.ternary main_v463 main_v464 main_v462 main_v465 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_87 (constant S_ .f32 0x3F800000#32),
    StableHlo.unary main_cst_87 main_v466 (broadcastInDim S50000 ![] bcast_S_S50000 : (⟨S_, .f32⟩ : BufTy).Contents (Elt F) → (⟨S50000, .f32⟩ : BufTy).Contents (Elt F)),
    StableHlo.binary main_v449 main_v466 main_v467 (maximumf : (⟨S50000, .f32⟩ : BufTy).Contents (Elt F) → (⟨S50000, .f32⟩ : BufTy).Contents (Elt F) → (⟨S50000, .f32⟩ : BufTy).Contents (Elt F)),
    StableHlo.unary main_v467 main_v468 (Host.rsqrt : (⟨S50000, .f32⟩ : BufTy).Contents (Elt F) → (⟨S50000, .f32⟩ : BufTy).Contents (Elt F)),
    StableHlo.unary main_v468 main_v469 (broadcastInDim S50000x1 ![0] bcast_S50000_S50000x1_0 : (⟨S50000, .f32⟩ : BufTy).Contents (Elt F) → (⟨S50000x1, .f32⟩ : BufTy).Contents (Elt F)),
    StableHlo.unary main_v469 main_v470 (broadcastInDim S50000x128 ![0, 1] bcast_S50000x1_S50000x128_0_1 : (⟨S50000x1, .f32⟩ : BufTy).Contents (Elt F) → (⟨S50000x128, .f32⟩ : BufTy).Contents (Elt F)),
    StableHlo.binary main_v465 main_v470 main_v471 (mulf : (⟨S50000x128, .f32⟩ : BufTy).Contents (Elt F) → (⟨S50000x128, .f32⟩ : BufTy).Contents (Elt F) → (⟨S50000x128, .f32⟩ : BufTy).Contents (Elt F)),
    StableHlo.unary main_v396 main_v472 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v472 main_v473 rfl shapeCasts_S1x128x128_S128x128,
    StableHlo.binary main_v471 main_v473 main_v474 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v398 main_v475 ((extractStridedSlice S1x128 ![1, 0] · slices_S3x128_S1x128_1_0) : (⟨S3x128, .f32⟩ : BufTy).Contents (Elt F) → (⟨S1x128, .f32⟩ : BufTy).Contents (Elt F)),
    StableHlo.reshape main_v475 main_v476 rfl shapeCasts_S1x128_S128,
    StableHlo.unary main_v476 main_v477 (broadcastInDim S1x128 ![1] bcast_S128_S1x128_1 : (⟨S128, .f32⟩ : BufTy).Contents (Elt F) → (⟨S1x128, .f32⟩ : BufTy).Contents (Elt F)),
    StableHlo.unary main_v477 main_v478 (broadcastInDim S50000x128 ![0, 1] bcast_S1x128_S50000x128_0_1 : (⟨S1x128, .f32⟩ : BufTy).Contents (Elt F) → (⟨S50000x128, .f32⟩ : BufTy).Contents (Elt F)),
    StableHlo.binary main_v474 main_v478 main_v479 (addf : (⟨S50000x128, .f32⟩ : BufTy).Contents (Elt F) → (⟨S50000x128, .f32⟩ : BufTy).Contents (Elt F) → (⟨S50000x128, .f32⟩ : BufTy).Contents (Elt F)),
    StableHlo.unary main_arg1 main_v480 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v480 main_v481 rfl shapeCasts_S1x800000_S800000,
    StableHlo.unary main_arg2 main_v482 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v482 main_v483 rfl shapeCasts_S1x800000_S800000,
    StableHlo.nullary main_cst_88 (constant S_ .f32 0x00000000#32),
    StableHlo.unary main_cst_88 main_v484 (broadcastInDim S50000 ![] bcast_S_S50000 : (⟨S_, .f32⟩ : BufTy).Contents (Elt F) → (⟨S50000, .f32⟩ : BufTy).Contents (Elt F)),
    StableHlo.unary main_v481 main_v485 (broadcastInDim S800000x1 ![0] bcast_S800000_S800000x1_0 : (⟨S800000, .i32⟩ : BufTy).Contents (Elt F) → (⟨S800000x1, .i32⟩ : BufTy).Contents (Elt F)),
    StableHlo.ternary main_v484 main_v485 main_v399 main_v486 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_89 (constant S_ .f32 0x00000000#32),
    StableHlo.unary main_cst_89 main_v487 (broadcastInDim S50000 ![] bcast_S_S50000 : (⟨S_, .f32⟩ : BufTy).Contents (Elt F) → (⟨S50000, .f32⟩ : BufTy).Contents (Elt F)),
    StableHlo.unary main_v483 main_v488 (broadcastInDim S800000x1 ![0] bcast_S800000_S800000x1_0 : (⟨S800000, .i32⟩ : BufTy).Contents (Elt F) → (⟨S800000x1, .i32⟩ : BufTy).Contents (Elt F)),
    StableHlo.ternary main_v487 main_v488 main_v399 main_v489 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_90 (constant S_ .f32 0x3F800000#32),
    StableHlo.unary main_cst_90 main_v490 (broadcastInDim S50000 ![] bcast_S_S50000 : (⟨S_, .f32⟩ : BufTy).Contents (Elt F) → (⟨S50000, .f32⟩ : BufTy).Contents (Elt F)),
    StableHlo.binary main_v486 main_v490 main_v491 (maximumf : (⟨S50000, .f32⟩ : BufTy).Contents (Elt F) → (⟨S50000, .f32⟩ : BufTy).Contents (Elt F) → (⟨S50000, .f32⟩ : BufTy).Contents (Elt F)),
    StableHlo.unary main_v491 main_v492 (Host.rsqrt : (⟨S50000, .f32⟩ : BufTy).Contents (Elt F) → (⟨S50000, .f32⟩ : BufTy).Contents (Elt F)),
    StableHlo.unary main_v492 main_v493 (broadcastInDim S50000x1 ![0] bcast_S50000_S50000x1_0 : (⟨S50000, .f32⟩ : BufTy).Contents (Elt F) → (⟨S50000x1, .f32⟩ : BufTy).Contents (Elt F)),
    StableHlo.unary main_v493 main_v494 (broadcastInDim S50000x128 ![0, 1] bcast_S50000x1_S50000x128_0_1 : (⟨S50000x1, .f32⟩ : BufTy).Contents (Elt F) → (⟨S50000x128, .f32⟩ : BufTy).Contents (Elt F)),
    StableHlo.binary main_v394 main_v494 main_v495 (mulf : (⟨S50000x128, .f32⟩ : BufTy).Contents (Elt F) → (⟨S50000x128, .f32⟩ : BufTy).Contents (Elt F) → (⟨S50000x128, .f32⟩ : BufTy).Contents (Elt F)),
    StableHlo.nullary main_c_91 (constantI S_ 32 0#32),
    StableHlo.unary main_c_91 main_v496 (broadcastInDim S800000 ![] bcast_S_S800000 : (⟨S_, .i32⟩ : BufTy).Contents (Elt F) → (⟨S800000, .i32⟩ : BufTy).Contents (Elt F)),
    StableHlo.binary main_v481 main_v496 main_v497 (cmpi .slt : (⟨S800000, .i32⟩ : BufTy).Contents (Elt F) → (⟨S800000, .i32⟩ : BufTy).Contents (Elt F) → (⟨S800000, .i1⟩ : BufTy).Contents (Elt F)),
    StableHlo.nullary main_c_92 (constantI S_ 32 50000#32),
    StableHlo.unary main_c_92 main_v498 (broadcastInDim S800000 ![] bcast_S_S800000 : (⟨S_, .i32⟩ : BufTy).Contents (Elt F) → (⟨S800000, .i32⟩ : BufTy).Contents (Elt F)),
    StableHlo.binary main_v481 main_v498 main_v499 (addi : (⟨S800000, .i32⟩ : BufTy).Contents (Elt F) → (⟨S800000, .i32⟩ : BufTy).Contents (Elt F) → (⟨S800000, .i32⟩ : BufTy).Contents (Elt F)),
    StableHlo.ternary main_v497 main_v499 main_v481 main_v500 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v500 main_v501 (broadcastInDim S800000x1 ![0] bcast_S800000_S800000x1_0 : (⟨S800000, .i32⟩ : BufTy).Contents (Elt F) → (⟨S800000x1, .i32⟩ : BufTy).Contents (Elt F)),
    StableHlo.binary main_v495 main_v501 main_v502 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_93 (constant S_ .f32 0x00000000#32),
    StableHlo.unary main_cst_93 main_v503 (broadcastInDim S50000x128 ![] bcast_S_S50000x128 : (⟨S_, .f32⟩ : BufTy).Contents (Elt F) → (⟨S50000x128, .f32⟩ : BufTy).Contents (Elt F)),
    StableHlo.unary main_v483 main_v504 (broadcastInDim S800000x1 ![0] bcast_S800000_S800000x1_0 : (⟨S800000, .i32⟩ : BufTy).Contents (Elt F) → (⟨S800000x1, .i32⟩ : BufTy).Contents (Elt F)),
    StableHlo.ternary main_v503 main_v504 main_v502 main_v505 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_94 (constant S_ .f32 0x3F800000#32),
    StableHlo.unary main_cst_94 main_v506 (broadcastInDim S50000 ![] bcast_S_S50000 : (⟨S_, .f32⟩ : BufTy).Contents (Elt F) → (⟨S50000, .f32⟩ : BufTy).Contents (Elt F)),
    StableHlo.binary main_v489 main_v506 main_v507 (maximumf : (⟨S50000, .f32⟩ : BufTy).Contents (Elt F) → (⟨S50000, .f32⟩ : BufTy).Contents (Elt F) → (⟨S50000, .f32⟩ : BufTy).Contents (Elt F)),
    StableHlo.unary main_v507 main_v508 (Host.rsqrt : (⟨S50000, .f32⟩ : BufTy).Contents (Elt F) → (⟨S50000, .f32⟩ : BufTy).Contents (Elt F)),
    StableHlo.unary main_v508 main_v509 (broadcastInDim S50000x1 ![0] bcast_S50000_S50000x1_0 : (⟨S50000, .f32⟩ : BufTy).Contents (Elt F) → (⟨S50000x1, .f32⟩ : BufTy).Contents (Elt F)),
    StableHlo.unary main_v509 main_v510 (broadcastInDim S50000x128 ![0, 1] bcast_S50000x1_S50000x128_0_1 : (⟨S50000x1, .f32⟩ : BufTy).Contents (Elt F) → (⟨S50000x128, .f32⟩ : BufTy).Contents (Elt F)),
    StableHlo.binary main_v505 main_v510 main_v511 (mulf : (⟨S50000x128, .f32⟩ : BufTy).Contents (Elt F) → (⟨S50000x128, .f32⟩ : BufTy).Contents (Elt F) → (⟨S50000x128, .f32⟩ : BufTy).Contents (Elt F)),
    StableHlo.unary main_v396 main_v512 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v512 main_v513 rfl shapeCasts_S1x128x128_S128x128,
    StableHlo.binary main_v511 main_v513 main_v514 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v398 main_v515 ((extractStridedSlice S1x128 ![2, 0] · slices_S3x128_S1x128_2_0) : (⟨S3x128, .f32⟩ : BufTy).Contents (Elt F) → (⟨S1x128, .f32⟩ : BufTy).Contents (Elt F)),
    StableHlo.reshape main_v515 main_v516 rfl shapeCasts_S1x128_S128,
    StableHlo.unary main_v516 main_v517 (broadcastInDim S1x128 ![1] bcast_S128_S1x128_1 : (⟨S128, .f32⟩ : BufTy).Contents (Elt F) → (⟨S1x128, .f32⟩ : BufTy).Contents (Elt F)),
    StableHlo.unary main_v517 main_v518 (broadcastInDim S50000x128 ![0, 1] bcast_S1x128_S50000x128_0_1 : (⟨S1x128, .f32⟩ : BufTy).Contents (Elt F) → (⟨S50000x128, .f32⟩ : BufTy).Contents (Elt F)),
    StableHlo.binary main_v514 main_v518 main_v519 (addf : (⟨S50000x128, .f32⟩ : BufTy).Contents (Elt F) → (⟨S50000x128, .f32⟩ : BufTy).Contents (Elt F) → (⟨S50000x128, .f32⟩ : BufTy).Contents (Elt F)),
    StableHlo.unary main_v439 main_v520 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v479 main_v521 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v519 main_v522 (broadcastInDim S1x50000x128 ![1, 2] bcast_S50000x128_S1x50000x128_1_2 : (⟨S50000x128, .f32⟩ : BufTy).Contents (Elt F) → (⟨S1x50000x128, .f32⟩ : BufTy).Contents (Elt F)),
    StableHlo.nary ![main_v520, main_v521, main_v522] main_v523 (fun u => concatenate S3x50000x128 0 [⟨S1x50000x128, u 0⟩, ⟨S1x50000x128, u 1⟩, ⟨S1x50000x128, u 2⟩] concatenates_S1x50000x128_S1x50000x128_S1x50000x128_S3x50000x128_d0),
    StableHlo.nullary main_cst_95 (constant S_ .f32 0x00000000#32),
    StableHlo.binary main_v523 main_cst_95 main_v524 ((fun x v => Host.reduceAdd x v reducesTo_S3x50000x128_S50000x128_d0 h_S_) : (⟨S3x50000x128, .f32⟩ : BufTy).Contents (Elt F) → (⟨S_, .f32⟩ : BufTy).Contents (Elt F) → (⟨S50000x128, .f32⟩ : BufTy).Contents (Elt F)),
    StableHlo.nullary main_cst_96 (constant S_ .f32 0x40400000#32),
    StableHlo.unary main_cst_96 main_v525 (broadcastInDim S50000x128 ![] bcast_S_S50000x128 : (⟨S_, .f32⟩ : BufTy).Contents (Elt F) → (⟨S50000x128, .f32⟩ : BufTy).Contents (Elt F)),
    StableHlo.binary main_v524 main_v525 main_v526 (Host.divf : (⟨S50000x128, .f32⟩ : BufTy).Contents (Elt F) → (⟨S50000x128, .f32⟩ : BufTy).Contents (Elt F) → (⟨S50000x128, .f32⟩ : BufTy).Contents (Elt F)),
    StableHlo.nullary main_cst_97 (constant S_ .f32 0x3C23D70A#32),
    TRef.nullary main_call3.cst (constant S_ .f32 0x00000000#32),
    TRef.unary main_call3.cst main_call3.v0 (broadcastInDim S50000x128 ![] bcast_S_S50000x128),
    TRef.binary (.of main_v526) main_call3.v0 main_call3.v1 (cmpf .oge),
    TRef.unary (.of main_cst_97) main_call3.v2 id,
    TRef.unary main_call3.v2 main_call3.v3 (broadcastInDim S50000x128 ![] bcast_S_S50000x128),
    TRef.binary main_call3.v3 (.of main_v526) main_call3.v4 mulf,
    TRef.ternary main_call3.v1 (.of main_v526) main_call3.v4 main_call3.call0.v0 select ]

theorem opsL3_eq : (opsL3 : List (HloOp τ sig (Elt F))) = w7_1 ++ w8_0 ++ w9_0 ++ w10_0 := rfl

theorem opsL3_sub : (opsL3 : List (HloOp τ sig (Elt F))).Forall fun op => op.bufs ⊆ tcRefs τ sig :=
  ⟨unary_bufs_sub .., reshape_bufs_sub .., unary_bufs_sub .., reshape_bufs_sub .., nullary_bufs_sub .., unary_bufs_sub .., unary_bufs_sub .., reshape_bufs_sub .., unary_bufs_sub .., reshape_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., unary_bufs_sub .., nary_bufs_sub .., nullary_bufs_sub .., binary_bufs_sub .., nullary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

theorem opsL3_fresh : (opsL3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the layer writes: each operation's result. -/
def opsL3_W : List (Ref sig .tc) :=
  [main_v395, main_v396, main_v397, main_v398, main_cst_73, main_v399, main_v400, main_v401, main_v402, main_v403, main_cst_74, main_v404, main_v405, main_v406, main_cst_75, main_v407, main_v408, main_v409, main_cst_76, main_v410, main_v411, main_v412, main_v413, main_v414, main_v415, main_c_77, main_v416, main_v417, main_c_78, main_v418, main_v419, main_v420, main_v421, main_v422, main_cst_79, main_v423, main_v424, main_v425, main_cst_80, main_v426, main_v427, main_v428, main_v429, main_v430, main_v431, main_v432, main_v433, main_v434, main_v435, main_v436, main_v437, main_v438, main_v439, main_v440, main_v441, main_v442, main_v443, main_cst_81, main_v444, main_v445, main_v446, main_cst_82, main_v447, main_v448, main_v449, main_cst_83, main_v450, main_v451, main_v452, main_v453, main_v454, main_v455, main_c_84, main_v456, main_v457, main_c_85, main_v458, main_v459, main_v460, main_v461, main_v462, main_cst_86, main_v463, main_v464, main_v465, main_cst_87, main_v466, main_v467, main_v468, main_v469, main_v470, main_v471, main_v472, main_v473, main_v474, main_v475, main_v476, main_v477, main_v478, main_v479, main_v480, main_v481, main_v482, main_v483, main_cst_88, main_v484, main_v485, main_v486, main_cst_89, main_v487, main_v488, main_v489, main_cst_90, main_v490, main_v491, main_v492, main_v493, main_v494, main_v495, main_c_91, main_v496, main_v497, main_c_92, main_v498, main_v499, main_v500, main_v501, main_v502, main_cst_93, main_v503, main_v504, main_v505, main_cst_94, main_v506, main_v507, main_v508, main_v509, main_v510, main_v511, main_v512, main_v513, main_v514, main_v515, main_v516, main_v517, main_v518, main_v519, main_v520, main_v521, main_v522, main_v523, main_cst_95, main_v524, main_cst_96, main_v525, main_v526, main_cst_97, main_call3_cst, main_call3_v0, main_call3_v1, main_call3_v2, main_call3_v3, main_call3_v4, main_v527]

/-- Every operation of the layer writes inside that list. -/
theorem opsL3_writes : (opsL3 : List (HloOp τ sig (Elt F))).Forall fun op => op.writes ⊆ (opsL3_W.map (Proc.devRef (τ := τ) .tc)).toFinset := by
  host_writes opsL3

/-- A reference the layer does not write keeps its contents. -/
theorem opsL3_keeps (V : Valuation τ sig (Elt F)) {r : Ref sig .tc} (hr : r ∉ opsL3_W) :
    after opsL3 V (Proc.devRef .tc r) = V (Proc.devRef .tc r) :=
  after_of_writes_sub opsL3 V opsL3_writes hr

end Cert.ReferenceIdeal.RefRun

end
-- ==== Proof.RefRunW11.lean ====
/- Statements 661 … 720 of the reference's @main (its window 11) as a list of host operations: the window is the
   straight line `seq` of the list, by unfolding. A call to @leaky_relu stands as the seven operations of its body (the last the select of
   the @_where it calls) over that call's buffers. Where a graph-conv layer ends inside the window the list is given in two pieces. -/
import proofs.«165758_j22333829939343_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 11, the part in layer 4 (60 operations). -/
def w11_0 : List (HloOp τ sig (Elt F)) :=
  [ StableHlo.unary main_v553 main_v554 (broadcastInDim S800000x1 ![0] bcast_S800000_S800000x1_0 : (⟨S800000, .i32⟩ : BufTy).Contents (Elt F) → (⟨S800000x1, .i32⟩ : BufTy).Contents (Elt F)),
    StableHlo.binary main_v548 main_v554 main_v555 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_104 (constant S_ .f32 0x00000000#32),
    StableHlo.unary main_cst_104 main_v556 (broadcastInDim S50000x128 ![] bcast_S_S50000x128 : (⟨S_, .f32⟩ : BufTy).Contents (Elt F) → (⟨S50000x128, .f32⟩ : BufTy).Contents (Elt F)),
    StableHlo.unary main_v536 main_v557 (broadcastInDim S800000x1 ![0] bcast_S800000_S800000x1_0 : (⟨S800000, .i32⟩ : BufTy).Contents (Elt F) → (⟨S800000x1, .i32⟩ : BufTy).Contents (Elt F)),
    StableHlo.ternary main_v556 main_v557 main_v555 main_v558 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_105 (constant S_ .f32 0x3F800000#32),
    StableHlo.unary main_cst_105 main_v559 (broadcastInDim S50000 ![] bcast_S_S50000 : (⟨S_, .f32⟩ : BufTy).Contents (Elt F) → (⟨S50000, .f32⟩ : BufTy).Contents (Elt F)),
    StableHlo.binary main_v542 main_v559 main_v560 (maximumf : (⟨S50000, .f32⟩ : BufTy).Contents (Elt F) → (⟨S50000, .f32⟩ : BufTy).Contents (Elt F) → (⟨S50000, .f32⟩ : BufTy).Contents (Elt F)),
    StableHlo.unary main_v560 main_v561 (Host.rsqrt : (⟨S50000, .f32⟩ : BufTy).Contents (Elt F) → (⟨S50000, .f32⟩ : BufTy).Contents (Elt F)),
    StableHlo.unary main_v561 main_v562 (broadcastInDim S50000x1 ![0] bcast_S50000_S50000x1_0 : (⟨S50000, .f32⟩ : BufTy).Contents (Elt F) → (⟨S50000x1, .f32⟩ : BufTy).Contents (Elt F)),
    StableHlo.unary main_v562 main_v563 (broadcastInDim S50000x128 ![0, 1] bcast_S50000x1_S50000x128_0_1 : (⟨S50000x1, .f32⟩ : BufTy).Contents (Elt F) → (⟨S50000x128, .f32⟩ : BufTy).Contents (Elt F)),
    StableHlo.binary main_v558 main_v563 main_v564 (mulf : (⟨S50000x128, .f32⟩ : BufTy).Contents (Elt F) → (⟨S50000x128, .f32⟩ : BufTy).Contents (Elt F) → (⟨S50000x128, .f32⟩ : BufTy).Contents (Elt F)),
    StableHlo.unary main_v529 main_v565 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v565 main_v566 rfl shapeCasts_S1x128x128_S128x128,
    StableHlo.binary main_v564 main_v566 main_v567 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v531 main_v568 ((extractStridedSlice S1x128 ![0, 0] · slices_S3x128_S1x128_0_0) : (⟨S3x128, .f32⟩ : BufTy).Contents (Elt F) → (⟨S1x128, .f32⟩ : BufTy).Contents (Elt F)),
    StableHlo.reshape main_v568 main_v569 rfl shapeCasts_S1x128_S128,
    StableHlo.unary main_v569 main_v570 (broadcastInDim S1x128 ![1] bcast_S128_S1x128_1 : (⟨S128, .f32⟩ : BufTy).Contents (Elt F) → (⟨S1x128, .f32⟩ : BufTy).Contents (Elt F)),
    StableHlo.unary main_v570 main_v571 (broadcastInDim S50000x128 ![0, 1] bcast_S1x128_S50000x128_0_1 : (⟨S1x128, .f32⟩ : BufTy).Contents (Elt F) → (⟨S50000x128, .f32⟩ : BufTy).Contents (Elt F)),
    StableHlo.binary main_v567 main_v571 main_v572 (addf : (⟨S50000x128, .f32⟩ : BufTy).Contents (Elt F) → (⟨S50000x128, .f32⟩ : BufTy).Contents (Elt F) → (⟨S50000x128, .f32⟩ : BufTy).Contents (Elt F)),
    StableHlo.unary main_arg1 main_v573 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v573 main_v574 rfl shapeCasts_S1x800000_S800000,
    StableHlo.unary main_arg2 main_v575 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v575 main_v576 rfl shapeCasts_S1x800000_S800000,
    StableHlo.nullary main_cst_106 (constant S_ .f32 0x00000000#32),
    StableHlo.unary main_cst_106 main_v577 (broadcastInDim S50000 ![] bcast_S_S50000 : (⟨S_, .f32⟩ : BufTy).Contents (Elt F) → (⟨S50000, .f32⟩ : BufTy).Contents (Elt F)),
    StableHlo.unary main_v574 main_v578 (broadcastInDim S800000x1 ![0] bcast_S800000_S800000x1_0 : (⟨S800000, .i32⟩ : BufTy).Contents (Elt F) → (⟨S800000x1, .i32⟩ : BufTy).Contents (Elt F)),
    StableHlo.ternary main_v577 main_v578 main_v532 main_v579 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_107 (constant S_ .f32 0x00000000#32),
    StableHlo.unary main_cst_107 main_v580 (broadcastInDim S50000 ![] bcast_S_S50000 : (⟨S_, .f32⟩ : BufTy).Contents (Elt F) → (⟨S50000, .f32⟩ : BufTy).Contents (Elt F)),
    StableHlo.unary main_v576 main_v581 (broadcastInDim S800000x1 ![0] bcast_S800000_S800000x1_0 : (⟨S800000, .i32⟩ : BufTy).Contents (Elt F) → (⟨S800000x1, .i32⟩ : BufTy).Contents (Elt F)),
    StableHlo.ternary main_v580 main_v581 main_v532 main_v582 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_108 (constant S_ .f32 0x3F800000#32),
    StableHlo.unary main_cst_108 main_v583 (broadcastInDim S50000 ![] bcast_S_S50000 : (⟨S_, .f32⟩ : BufTy).Contents (Elt F) → (⟨S50000, .f32⟩ : BufTy).Contents (Elt F)),
    StableHlo.binary main_v579 main_v583 main_v584 (maximumf : (⟨S50000, .f32⟩ : BufTy).Contents (Elt F) → (⟨S50000, .f32⟩ : BufTy).Contents (Elt F) → (⟨S50000, .f32⟩ : BufTy).Contents (Elt F)),
    StableHlo.unary main_v584 main_v585 (Host.rsqrt : (⟨S50000, .f32⟩ : BufTy).Contents (Elt F) → (⟨S50000, .f32⟩ : BufTy).Contents (Elt F)),
    StableHlo.unary main_v585 main_v586 (broadcastInDim S50000x1 ![0] bcast_S50000_S50000x1_0 : (⟨S50000, .f32⟩ : BufTy).Contents (Elt F) → (⟨S50000x1, .f32⟩ : BufTy).Contents (Elt F)),
    StableHlo.unary main_v586 main_v587 (broadcastInDim S50000x128 ![0, 1] bcast_S50000x1_S50000x128_0_1 : (⟨S50000x1, .f32⟩ : BufTy).Contents (Elt F) → (⟨S50000x128, .f32⟩ : BufTy).Contents (Elt F)),
    StableHlo.binary main_v527 main_v587 main_v588 (mulf : (⟨S50000x128, .f32⟩ : BufTy).Contents (Elt F) → (⟨S50000x128, .f32⟩ : BufTy).Contents (Elt F) → (⟨S50000x128, .f32⟩ : BufTy).Contents (Elt F)),
    StableHlo.nullary main_c_109 (constantI S_ 32 0#32),
    StableHlo.unary main_c_109 main_v589 (broadcastInDim S800000 ![] bcast_S_S800000 : (⟨S_, .i32⟩ : BufTy).Contents (Elt F) → (⟨S800000, .i32⟩ : BufTy).Contents (Elt F)),
    StableHlo.binary main_v574 main_v589 main_v590 (cmpi .slt : (⟨S800000, .i32⟩ : BufTy).Contents (Elt F) → (⟨S800000, .i32⟩ : BufTy).Contents (Elt F) → (⟨S800000, .i1⟩ : BufTy).Contents (Elt F)),
    StableHlo.nullary main_c_110 (constantI S_ 32 50000#32),
    StableHlo.unary main_c_110 main_v591 (broadcastInDim S800000 ![] bcast_S_S800000 : (⟨S_, .i32⟩ : BufTy).Contents (Elt F) → (⟨S800000, .i32⟩ : BufTy).Contents (Elt F)),
    StableHlo.binary main_v574 main_v591 main_v592 (addi : (⟨S800000, .i32⟩ : BufTy).Contents (Elt F) → (⟨S800000, .i32⟩ : BufTy).Contents (Elt F) → (⟨S800000, .i32⟩ : BufTy).Contents (Elt F)),
    StableHlo.ternary main_v590 main_v592 main_v574 main_v593 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v593 main_v594 (broadcastInDim S800000x1 ![0] bcast_S800000_S800000x1_0 : (⟨S800000, .i32⟩ : BufTy).Contents (Elt F) → (⟨S800000x1, .i32⟩ : BufTy).Contents (Elt F)),
    StableHlo.binary main_v588 main_v594 main_v595 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_111 (constant S_ .f32 0x00000000#32),
    StableHlo.unary main_cst_111 main_v596 (broadcastInDim S50000x128 ![] bcast_S_S50000x128 : (⟨S_, .f32⟩ : BufTy).Contents (Elt F) → (⟨S50000x128, .f32⟩ : BufTy).Contents (Elt F)),
    StableHlo.unary main_v576 main_v597 (broadcastInDim S800000x1 ![0] bcast_S800000_S800000x1_0 : (⟨S800000, .i32⟩ : BufTy).Contents (Elt F) → (⟨S800000x1, .i32⟩ : BufTy).Contents (Elt F)),
    StableHlo.ternary main_v596 main_v597 main_v595 main_v598 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_112 (constant S_ .f32 0x3F800000#32),
    StableHlo.unary main_cst_112 main_v599 (broadcastInDim S50000 ![] bcast_S_S50000 : (⟨S_, .f32⟩ : BufTy).Contents (Elt F) → (⟨S50000, .f32⟩ : BufTy).Contents (Elt F)),
    StableHlo.binary main_v582 main_v599 main_v600 (maximumf : (⟨S50000, .f32⟩ : BufTy).Contents (Elt F) → (⟨S50000, .f32⟩ : BufTy).Contents (Elt F) → (⟨S50000, .f32⟩ : BufTy).Contents (Elt F)),
    StableHlo.unary main_v600 main_v601 (Host.rsqrt : (⟨S50000, .f32⟩ : BufTy).Contents (Elt F) → (⟨S50000, .f32⟩ : BufTy).Contents (Elt F)),
    StableHlo.unary main_v601 main_v602 (broadcastInDim S50000x1 ![0] bcast_S50000_S50000x1_0 : (⟨S50000, .f32⟩ : BufTy).Contents (Elt F) → (⟨S50000x1, .f32⟩ : BufTy).Contents (Elt F)),
    StableHlo.unary main_v602 main_v603 (broadcastInDim S50000x128 ![0, 1] bcast_S50000x1_S50000x128_0_1 : (⟨S50000x1, .f32⟩ : BufTy).Contents (Elt F) → (⟨S50000x128, .f32⟩ : BufTy).Contents (Elt F)),
    StableHlo.binary main_v598 main_v603 main_v604 (mulf : (⟨S50000x128, .f32⟩ : BufTy).Contents (Elt F) → (⟨S50000x128, .f32⟩ : BufTy).Contents (Elt F) → (⟨S50000x128, .f32⟩ : BufTy).Contents (Elt F)) ]

/-- The window is that line. -/
theorem part11_eq (c : Dev nD) : main_part11 (F := F) c = seq (w11_0 (F := F)) := rfl

end Cert.ReferenceIdeal.RefRun

end
-- ==== Proof.RefRunW12.lean ====
/- Statements 721 … 780 of the reference's @main (its window 12) as a list of host operations: the window is the
   straight line `seq` of the list, by unfolding. A call to @leaky_relu stands as the seven operations of its body (the last the select of
   the @_where it calls) over that call's buffers. Where a graph-conv layer ends inside the window the list is given in two pieces. -/
import proofs.«165758_j22333829939343_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 12, the part in layer 4 (60 operations). -/
def w12_0 : List (HloOp τ sig (Elt F)) :=
  [ StableHlo.unary main_v529 main_v605 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v605 main_v606 rfl shapeCasts_S1x128x128_S128x128,
    StableHlo.binary main_v604 main_v606 main_v607 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v531 main_v608 ((extractStridedSlice S1x128 ![1, 0] · slices_S3x128_S1x128_1_0) : (⟨S3x128, .f32⟩ : BufTy).Contents (Elt F) → (⟨S1x128, .f32⟩ : BufTy).Contents (Elt F)),
    StableHlo.reshape main_v608 main_v609 rfl shapeCasts_S1x128_S128,
    StableHlo.unary main_v609 main_v610 (broadcastInDim S1x128 ![1] bcast_S128_S1x128_1 : (⟨S128, .f32⟩ : BufTy).Contents (Elt F) → (⟨S1x128, .f32⟩ : BufTy).Contents (Elt F)),
    StableHlo.unary main_v610 main_v611 (broadcastInDim S50000x128 ![0, 1] bcast_S1x128_S50000x128_0_1 : (⟨S1x128, .f32⟩ : BufTy).Contents (Elt F) → (⟨S50000x128, .f32⟩ : BufTy).Contents (Elt F)),
    StableHlo.binary main_v607 main_v611 main_v612 (addf : (⟨S50000x128, .f32⟩ : BufTy).Contents (Elt F) → (⟨S50000x128, .f32⟩ : BufTy).Contents (Elt F) → (⟨S50000x128, .f32⟩ : BufTy).Contents (Elt F)),
    StableHlo.unary main_arg1 main_v613 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v613 main_v614 rfl shapeCasts_S1x800000_S800000,
    StableHlo.unary main_arg2 main_v615 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v615 main_v616 rfl shapeCasts_S1x800000_S800000,
    StableHlo.nullary main_cst_113 (constant S_ .f32 0x00000000#32),
    StableHlo.unary main_cst_113 main_v617 (broadcastInDim S50000 ![] bcast_S_S50000 : (⟨S_, .f32⟩ : BufTy).Contents (Elt F) → (⟨S50000, .f32⟩ : BufTy).Contents (Elt F)),
    StableHlo.unary main_v614 main_v618 (broadcastInDim S800000x1 ![0] bcast_S800000_S800000x1_0 : (⟨S800000, .i32⟩ : BufTy).Contents (Elt F) → (⟨S800000x1, .i32⟩ : BufTy).Contents (Elt F)),
    StableHlo.ternary main_v617 main_v618 main_v532 main_v619 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_114 (constant S_ .f32 0x00000000#32),
    StableHlo.unary main_cst_114 main_v620 (broadcastInDim S50000 ![] bcast_S_S50000 : (⟨S_, .f32⟩ : BufTy).Contents (Elt F) → (⟨S50000, .f32⟩ : BufTy).Contents (Elt F)),
    StableHlo.unary main_v616 main_v621 (broadcastInDim S800000x1 ![0] bcast_S800000_S800000x1_0 : (⟨S800000, .i32⟩ : BufTy).Contents (Elt F) → (⟨S800000x1, .i32⟩ : BufTy).Contents (Elt F)),
    StableHlo.ternary main_v620 main_v621 main_v532 main_v622 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_115 (constant S_ .f32 0x3F800000#32),
    StableHlo.unary main_cst_115 main_v623 (broadcastInDim S50000 ![] bcast_S_S50000 : (⟨S_, .f32⟩ : BufTy).Contents (Elt F) → (⟨S50000, .f32⟩ : BufTy).Contents (Elt F)),
    StableHlo.binary main_v619 main_v623 main_v624 (maximumf : (⟨S50000, .f32⟩ : BufTy).Contents (Elt F) → (⟨S50000, .f32⟩ : BufTy).Contents (Elt F) → (⟨S50000, .f32⟩ : BufTy).Contents (Elt F)),
    StableHlo.unary main_v624 main_v625 (Host.rsqrt : (⟨S50000, .f32⟩ : BufTy).Contents (Elt F) → (⟨S50000, .f32⟩ : BufTy).Contents (Elt F)),
    StableHlo.unary main_v625 main_v626 (broadcastInDim S50000x1 ![0] bcast_S50000_S50000x1_0 : (⟨S50000, .f32⟩ : BufTy).Contents (Elt F) → (⟨S50000x1, .f32⟩ : BufTy).Contents (Elt F)),
    StableHlo.unary main_v626 main_v627 (broadcastInDim S50000x128 ![0, 1] bcast_S50000x1_S50000x128_0_1 : (⟨S50000x1, .f32⟩ : BufTy).Contents (Elt F) → (⟨S50000x128, .f32⟩ : BufTy).Contents (Elt F)),
    StableHlo.binary main_v527 main_v627 main_v628 (mulf : (⟨S50000x128, .f32⟩ : BufTy).Contents (Elt F) → (⟨S50000x128, .f32⟩ : BufTy).Contents (Elt F) → (⟨S50000x128, .f32⟩ : BufTy).Contents (Elt F)),
    StableHlo.nullary main_c_116 (constantI S_ 32 0#32),
    StableHlo.unary main_c_116 main_v629 (broadcastInDim S800000 ![] bcast_S_S800000 : (⟨S_, .i32⟩ : BufTy).Contents (Elt F) → (⟨S800000, .i32⟩ : BufTy).Contents (Elt F)),
    StableHlo.binary main_v614 main_v629 main_v630 (cmpi .slt : (⟨S800000, .i32⟩ : BufTy).Contents (Elt F) → (⟨S800000, .i32⟩ : BufTy).Contents (Elt F) → (⟨S800000, .i1⟩ : BufTy).Contents (Elt F)),
    StableHlo.nullary main_c_117 (constantI S_ 32 50000#32),
    StableHlo.unary main_c_117 main_v631 (broadcastInDim S800000 ![] bcast_S_S800000 : (⟨S_, .i32⟩ : BufTy).Contents (Elt F) → (⟨S800000, .i32⟩ : BufTy).Contents (Elt F)),
    StableHlo.binary main_v614 main_v631 main_v632 (addi : (⟨S800000, .i32⟩ : BufTy).Contents (Elt F) → (⟨S800000, .i32⟩ : BufTy).Contents (Elt F) → (⟨S800000, .i32⟩ : BufTy).Contents (Elt F)),
    StableHlo.ternary main_v630 main_v632 main_v614 main_v633 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v633 main_v634 (broadcastInDim S800000x1 ![0] bcast_S800000_S800000x1_0 : (⟨S800000, .i32⟩ : BufTy).Contents (Elt F) → (⟨S800000x1, .i32⟩ : BufTy).Contents (Elt F)),
    StableHlo.binary main_v628 main_v634 main_v635 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_118 (constant S_ .f32 0x00000000#32),
    StableHlo.unary main_cst_118 main_v636 (broadcastInDim S50000x128 ![] bcast_S_S50000x128 : (⟨S_, .f32⟩ : BufTy).Contents (Elt F) → (⟨S50000x128, .f32⟩ : BufTy).Contents (Elt F)),
    StableHlo.unary main_v616 main_v637 (broadcastInDim S800000x1 ![0] bcast_S800000_S800000x1_0 : (⟨S800000, .i32⟩ : BufTy).Contents (Elt F) → (⟨S800000x1, .i32⟩ : BufTy).Contents (Elt F)),
    StableHlo.ternary main_v636 main_v637 main_v635 main_v638 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_119 (constant S_ .f32 0x3F800000#32),
    StableHlo.unary main_cst_119 main_v639 (broadcastInDim S50000 ![] bcast_S_S50000 : (⟨S_, .f32⟩ : BufTy).Contents (Elt F) → (⟨S50000, .f32⟩ : BufTy).Contents (Elt F)),
    StableHlo.binary main_v622 main_v639 main_v640 (maximumf : (⟨S50000, .f32⟩ : BufTy).Contents (Elt F) → (⟨S50000, .f32⟩ : BufTy).Contents (Elt F) → (⟨S50000, .f32⟩ : BufTy).Contents (Elt F)),
    StableHlo.unary main_v640 main_v641 (Host.rsqrt : (⟨S50000, .f32⟩ : BufTy).Contents (Elt F) → (⟨S50000, .f32⟩ : BufTy).Contents (Elt F)),
    StableHlo.unary main_v641 main_v642 (broadcastInDim S50000x1 ![0] bcast_S50000_S50000x1_0 : (⟨S50000, .f32⟩ : BufTy).Contents (Elt F) → (⟨S50000x1, .f32⟩ : BufTy).Contents (Elt F)),
    StableHlo.unary main_v642 main_v643 (broadcastInDim S50000x128 ![0, 1] bcast_S50000x1_S50000x128_0_1 : (⟨S50000x1, .f32⟩ : BufTy).Contents (Elt F) → (⟨S50000x128, .f32⟩ : BufTy).Contents (Elt F)),
    StableHlo.binary main_v638 main_v643 main_v644 (mulf : (⟨S50000x128, .f32⟩ : BufTy).Contents (Elt F) → (⟨S50000x128, .f32⟩ : BufTy).Contents (Elt F) → (⟨S50000x128, .f32⟩ : BufTy).Contents (Elt F)),
    StableHlo.unary main_v529 main_v645 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v645 main_v646 rfl shapeCasts_S1x128x128_S128x128,
    StableHlo.binary main_v644 main_v646 main_v647 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v531 main_v648 ((extractStridedSlice S1x128 ![2, 0] · slices_S3x128_S1x128_2_0) : (⟨S3x128, .f32⟩ : BufTy).Contents (Elt F) → (⟨S1x128, .f32⟩ : BufTy).Contents (Elt F)),
    StableHlo.reshape main_v648 main_v649 rfl shapeCasts_S1x128_S128,
    StableHlo.unary main_v649 main_v650 (broadcastInDim S1x128 ![1] bcast_S128_S1x128_1 : (⟨S128, .f32⟩ : BufTy).Contents (Elt F) → (⟨S1x128, .f32⟩ : BufTy).Contents (Elt F)),
    StableHlo.unary main_v650 main_v651 (broadcastInDim S50000x128 ![0, 1] bcast_S1x128_S50000x128_0_1 : (⟨S1x128, .f32⟩ : BufTy).Contents (Elt F) → (⟨S50000x128, .f32⟩ : BufTy).Contents (Elt F)),
    StableHlo.binary main_v647 main_v651 main_v652 (addf : (⟨S50000x128, .f32⟩ : BufTy).Contents (Elt F) → (⟨S50000x128, .f32⟩ : BufTy).Contents (Elt F) → (⟨S50000x128, .f32⟩ : BufTy).Contents (Elt F)),
    StableHlo.unary main_v572 main_v653 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v612 main_v654 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v652 main_v655 (broadcastInDim S1x50000x128 ![1, 2] bcast_S50000x128_S1x50000x128_1_2 : (⟨S50000x128, .f32⟩ : BufTy).Contents (Elt F) → (⟨S1x50000x128, .f32⟩ : BufTy).Contents (Elt F)),
    StableHlo.nary ![main_v653, main_v654, main_v655] main_v656 (fun u => concatenate S3x50000x128 0 [⟨S1x50000x128, u 0⟩, ⟨S1x50000x128, u 1⟩, ⟨S1x50000x128, u 2⟩] concatenates_S1x50000x128_S1x50000x128_S1x50000x128_S3x50000x128_d0),
    StableHlo.nullary main_cst_120 (constant S_ .f32 0x00000000#32) ]

/-- The window is that line. -/
theorem part12_eq (c : Dev nD) : main_part12 (F := F) c = seq (w12_0 (F := F)) := rfl

end Cert.ReferenceIdeal.RefRun

end
-- ==== Proof.RefRunW13.lean ====
/- Statements 781 … 788 of the reference's @main (its window 13) as a list of host operations: the window is the
   straight line `seq` of the list, by unfolding. A call to @leaky_relu stands as the seven operations of its body (the last the select of
   the @_where it calls) over that call's buffers. Where a graph-conv layer ends inside the window the list is given in two pieces. -/
import proofs.«165758_j22333829939343_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 13, the part in layer 4 (4 operations). -/
def w13_0 : List (HloOp τ sig (Elt F)) :=
  [ StableHlo.binary main_v656 main_cst_120 main_v657 ((fun x v => Host.reduceAdd x v reducesTo_S3x50000x128_S50000x128_d0 h_S_) : (⟨S3x50000x128, .f32⟩ : BufTy).Contents (Elt F) → (⟨S_, .f32⟩ : BufTy).Contents (Elt F) → (⟨S50000x128, .f32⟩ : BufTy).Contents (Elt F)),
    StableHlo.nullary main_cst_121 (constant S_ .f32 0x40400000#32),
    StableHlo.unary main_cst_121 main_v658 (broadcastInDim S50000x128 ![] bcast_S_S50000x128 : (⟨S_, .f32⟩ : BufTy).Contents (Elt F) → (⟨S50000x128, .f32⟩ : BufTy).Contents (Elt F)),
    StableHlo.binary main_v657 main_v658 main_v659 (Host.divf : (⟨S50000x128, .f32⟩ : BufTy).Contents (Elt F) → (⟨S50000x128, .f32⟩ : BufTy).Contents (Elt F) → (⟨S50000x128, .f32⟩ : BufTy).Contents (Elt F)) ]

/-- Window 13, the part in layer 5 (4 operations). -/
def w13_1 : List (HloOp τ sig (Elt F)) :=
  [ StableHlo.binary main_v659 main_arg7 main_v660 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg8 main_v661 (broadcastInDim S1x64 ![1] bcast_S64_S1x64_1 : (⟨S64, .f32⟩ : BufTy).Contents (Elt F) → (⟨S1x64, .f32⟩ : BufTy).Contents (Elt F)),
    StableHlo.unary main_v661 main_v662 (broadcastInDim S50000x64 ![0, 1] bcast_S1x64_S50000x64_0_1 : (⟨S1x64, .f32⟩ : BufTy).Contents (Elt F) → (⟨S50000x64, .f32⟩ : BufTy).Contents (Elt F)),
    StableHlo.binary main_v660 main_v662 main_v663 (addf : (⟨S50000x64, .f32⟩ : BufTy).Contents (Elt F) → (⟨S50000x64, .f32⟩ : BufTy).Contents (Elt F) → (⟨S50000x64, .f32⟩ : BufTy).Contents (Elt F)) ]

/-- The window is that line. -/
theorem part13_eq (c : Dev nD) : main_part13 (F := F) c = seq (w13_0 (F := F) ++ w13_1 (F := F)) := rfl

end Cert.ReferenceIdeal.RefRun

end
-- ==== Proof.RefRunL4.lean ====
/- Graph-conv layer 4 of the reference as ONE list of host operations (156), ending with the operation that writes `main_v659`:
   the concatenation of the window pieces it spans; every operation touches TensorCore references only and allocates nothing;
   the list of the references it writes, none of them an argument of @main. -/
import proofs.«165758_j22333829939343_1_alg».proof.Proof.RefRunW10
import proofs.«165758_j22333829939343_1_alg».proof.Proof.RefRunW11
import proofs.«165758_j22333829939343_1_alg».proof.Proof.RefRunW12
import proofs.«165758_j22333829939343_1_alg».proof.Proof.RefRunW13
import proofs.«165758_j22333829939343_1_alg».proof.Proof.LibKeeps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The layer's operations, in order. -/
abbrev opsL4 : List (HloOp τ sig (Elt F)) :=
  [ StableHlo.unary main_arg5 main_v528 ((extractStridedSlice S1x3x128x128 ![3, 0, 0, 0] · slices_S4x3x128x128_S1x3x128x128_3_0_0_0) : (⟨S4x3x128x128, .f32⟩ : BufTy).Contents (Elt F) → (⟨S1x3x128x128, .f32⟩ : BufTy).Contents (Elt F)),
    StableHlo.reshape main_v528 main_v529 rfl shapeCasts_S1x3x128x128_S3x128x128,
    StableHlo.unary main_arg6 main_v530 ((extractStridedSlice S1x3x128 ![3, 0, 0] · slices_S4x3x128_S1x3x128_3_0_0) : (⟨S4x3x128, .f32⟩ : BufTy).Contents (Elt F) → (⟨S1x3x128, .f32⟩ : BufTy).Contents (Elt F)),
    StableHlo.reshape main_v530 main_v531 rfl shapeCasts_S1x3x128_S3x128,
    StableHlo.nullary main_cst_98 (constant S_ .f32 0x3F800000#32),
    StableHlo.unary main_cst_98 main_v532 (broadcastInDim S800000 ![] bcast_S_S800000 : (⟨S_, .f32⟩ : BufTy).Contents (Elt F) → (⟨S800000, .f32⟩ : BufTy).Contents (Elt F)),
    StableHlo.unary main_arg1 main_v533 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v533 main_v534 rfl shapeCasts_S1x800000_S800000,
    StableHlo.unary main_arg2 main_v535 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v535 main_v536 rfl shapeCasts_S1x800000_S800000,
    StableHlo.nullary main_cst_99 (constant S_ .f32 0x00000000#32),
    StableHlo.unary main_cst_99 main_v537 (broadcastInDim S50000 ![] bcast_S_S50000 : (⟨S_, .f32⟩ : BufTy).Contents (Elt F) → (⟨S50000, .f32⟩ : BufTy).Contents (Elt F)),
    StableHlo.unary main_v534 main_v538 (broadcastInDim S800000x1 ![0] bcast_S800000_S800000x1_0 : (⟨S800000, .i32⟩ : BufTy).Contents (Elt F) → (⟨S800000x1, .i32⟩ : BufTy).Contents (Elt F)),
    StableHlo.ternary main_v537 main_v538 main_v532 main_v539 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_100 (constant S_ .f32 0x00000000#32),
    StableHlo.unary main_cst_100 main_v540 (broadcastInDim S50000 ![] bcast_S_S50000 : (⟨S_, .f32⟩ : BufTy).Contents (Elt F) → (⟨S50000, .f32⟩ : BufTy).Contents (Elt F)),
    StableHlo.unary main_v536 main_v541 (broadcastInDim S800000x1 ![0] bcast_S800000_S800000x1_0 : (⟨S800000, .i32⟩ : BufTy).Contents (Elt F) → (⟨S800000x1, .i32⟩ : BufTy).Contents (Elt F)),
    StableHlo.ternary main_v540 main_v541 main_v532 main_v542 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_101 (constant S_ .f32 0x3F800000#32),
    StableHlo.unary main_cst_101 main_v543 (broadcastInDim S50000 ![] bcast_S_S50000 : (⟨S_, .f32⟩ : BufTy).Contents (Elt F) → (⟨S50000, .f32⟩ : BufTy).Contents (Elt F)),
    StableHlo.binary main_v539 main_v543 main_v544 (maximumf : (⟨S50000, .f32⟩ : BufTy).Contents (Elt F) → (⟨S50000, .f32⟩ : BufTy).Contents (Elt F) → (⟨S50000, .f32⟩ : BufTy).Contents (Elt F)),
    StableHlo.unary main_v544 main_v545 (Host.rsqrt : (⟨S50000, .f32⟩ : BufTy).Contents (Elt F) → (⟨S50000, .f32⟩ : BufTy).Contents (Elt F)),
    StableHlo.unary main_v545 main_v546 (broadcastInDim S50000x1 ![0] bcast_S50000_S50000x1_0 : (⟨S50000, .f32⟩ : BufTy).Contents (Elt F) → (⟨S50000x1, .f32⟩ : BufTy).Contents (Elt F)),
    StableHlo.unary main_v546 main_v547 (broadcastInDim S50000x128 ![0, 1] bcast_S50000x1_S50000x128_0_1 : (⟨S50000x1, .f32⟩ : BufTy).Contents (Elt F) → (⟨S50000x128, .f32⟩ : BufTy).Contents (Elt F)),
    StableHlo.binary main_v527 main_v547 main_v548 (mulf : (⟨S50000x128, .f32⟩ : BufTy).Contents (Elt F) → (⟨S50000x128, .f32⟩ : BufTy).Contents (Elt F) → (⟨S50000x128, .f32⟩ : BufTy).Contents (Elt F)),
    StableHlo.nullary main_c_102 (constantI S_ 32 0#32),
    StableHlo.unary main_c_102 main_v549 (broadcastInDim S800000 ![] bcast_S_S800000 : (⟨S_, .i32⟩ : BufTy).Contents (Elt F) → (⟨S800000, .i32⟩ : BufTy).Contents (Elt F)),
    StableHlo.binary main_v534 main_v549 main_v550 (cmpi .slt : (⟨S800000, .i32⟩ : BufTy).Contents (Elt F) → (⟨S800000, .i32⟩ : BufTy).Contents (Elt F) → (⟨S800000, .i1⟩ : BufTy).Contents (Elt F)),
    StableHlo.nullary main_c_103 (constantI S_ 32 50000#32),
    StableHlo.unary main_c_103 main_v551 (broadcastInDim S800000 ![] bcast_S_S800000 : (⟨S_, .i32⟩ : BufTy).Contents (Elt F) → (⟨S800000, .i32⟩ : BufTy).Contents (Elt F)),
    StableHlo.binary main_v534 main_v551 main_v552 (addi : (⟨S800000, .i32⟩ : BufTy).Contents (Elt F) → (⟨S800000, .i32⟩ : BufTy).Contents (Elt F) → (⟨S800000, .i32⟩ : BufTy).Contents (Elt F)),
    StableHlo.ternary main_v550 main_v552 main_v534 main_v553 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v553 main_v554 (broadcastInDim S800000x1 ![0] bcast_S800000_S800000x1_0 : (⟨S800000, .i32⟩ : BufTy).Contents (Elt F) → (⟨S800000x1, .i32⟩ : BufTy).Contents (Elt F)),
    StableHlo.binary main_v548 main_v554 main_v555 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_104 (constant S_ .f32 0x00000000#32),
    StableHlo.unary main_cst_104 main_v556 (broadcastInDim S50000x128 ![] bcast_S_S50000x128 : (⟨S_, .f32⟩ : BufTy).Contents (Elt F) → (⟨S50000x128, .f32⟩ : BufTy).Contents (Elt F)),
    StableHlo.unary main_v536 main_v557 (broadcastInDim S800000x1 ![0] bcast_S800000_S800000x1_0 : (⟨S800000, .i32⟩ : BufTy).Contents (Elt F) → (⟨S800000x1, .i32⟩ : BufTy).Contents (Elt F)),
    StableHlo.ternary main_v556 main_v557 main_v555 main_v558 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_105 (constant S_ .f32 0x3F800000#32),
    StableHlo.unary main_cst_105 main_v559 (broadcastInDim S50000 ![] bcast_S_S50000 : (⟨S_, .f32⟩ : BufTy).Contents (Elt F) → (⟨S50000, .f32⟩ : BufTy).Contents (Elt F)),
    StableHlo.binary main_v542 main_v559 main_v560 (maximumf : (⟨S50000, .f32⟩ : BufTy).Contents (Elt F) → (⟨S50000, .f32⟩ : BufTy).Contents (Elt F) → (⟨S50000, .f32⟩ : BufTy).Contents (Elt F)),
    StableHlo.unary main_v560 main_v561 (Host.rsqrt : (⟨S50000, .f32⟩ : BufTy).Contents (Elt F) → (⟨S50000, .f32⟩ : BufTy).Contents (Elt F)),
    StableHlo.unary main_v561 main_v562 (broadcastInDim S50000x1 ![0] bcast_S50000_S50000x1_0 : (⟨S50000, .f32⟩ : BufTy).Contents (Elt F) → (⟨S50000x1, .f32⟩ : BufTy).Contents (Elt F)),
    StableHlo.unary main_v562 main_v563 (broadcastInDim S50000x128 ![0, 1] bcast_S50000x1_S50000x128_0_1 : (⟨S50000x1, .f32⟩ : BufTy).Contents (Elt F) → (⟨S50000x128, .f32⟩ : BufTy).Contents (Elt F)),
    StableHlo.binary main_v558 main_v563 main_v564 (mulf : (⟨S50000x128, .f32⟩ : BufTy).Contents (Elt F) → (⟨S50000x128, .f32⟩ : BufTy).Contents (Elt F) → (⟨S50000x128, .f32⟩ : BufTy).Contents (Elt F)),
    StableHlo.unary main_v529 main_v565 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v565 main_v566 rfl shapeCasts_S1x128x128_S128x128,
    StableHlo.binary main_v564 main_v566 main_v567 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v531 main_v568 ((extractStridedSlice S1x128 ![0, 0] · slices_S3x128_S1x128_0_0) : (⟨S3x128, .f32⟩ : BufTy).Contents (Elt F) → (⟨S1x128, .f32⟩ : BufTy).Contents (Elt F)),
    StableHlo.reshape main_v568 main_v569 rfl shapeCasts_S1x128_S128,
    StableHlo.unary main_v569 main_v570 (broadcastInDim S1x128 ![1] bcast_S128_S1x128_1 : (⟨S128, .f32⟩ : BufTy).Contents (Elt F) → (⟨S1x128, .f32⟩ : BufTy).Contents (Elt F)),
    StableHlo.unary main_v570 main_v571 (broadcastInDim S50000x128 ![0, 1] bcast_S1x128_S50000x128_0_1 : (⟨S1x128, .f32⟩ : BufTy).Contents (Elt F) → (⟨S50000x128, .f32⟩ : BufTy).Contents (Elt F)),
    StableHlo.binary main_v567 main_v571 main_v572 (addf : (⟨S50000x128, .f32⟩ : BufTy).Contents (Elt F) → (⟨S50000x128, .f32⟩ : BufTy).Contents (Elt F) → (⟨S50000x128, .f32⟩ : BufTy).Contents (Elt F)),
    StableHlo.unary main_arg1 main_v573 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v573 main_v574 rfl shapeCasts_S1x800000_S800000,
    StableHlo.unary main_arg2 main_v575 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v575 main_v576 rfl shapeCasts_S1x800000_S800000,
    StableHlo.nullary main_cst_106 (constant S_ .f32 0x00000000#32),
    StableHlo.unary main_cst_106 main_v577 (broadcastInDim S50000 ![] bcast_S_S50000 : (⟨S_, .f32⟩ : BufTy).Contents (Elt F) → (⟨S50000, .f32⟩ : BufTy).Contents (Elt F)),
    StableHlo.unary main_v574 main_v578 (broadcastInDim S800000x1 ![0] bcast_S800000_S800000x1_0 : (⟨S800000, .i32⟩ : BufTy).Contents (Elt F) → (⟨S800000x1, .i32⟩ : BufTy).Contents (Elt F)),
    StableHlo.ternary main_v577 main_v578 main_v532 main_v579 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_107 (constant S_ .f32 0x00000000#32),
    StableHlo.unary main_cst_107 main_v580 (broadcastInDim S50000 ![] bcast_S_S50000 : (⟨S_, .f32⟩ : BufTy).Contents (Elt F) → (⟨S50000, .f32⟩ : BufTy).Contents (Elt F)),
    StableHlo.unary main_v576 main_v581 (broadcastInDim S800000x1 ![0] bcast_S800000_S800000x1_0 : (⟨S800000, .i32⟩ : BufTy).Contents (Elt F) → (⟨S800000x1, .i32⟩ : BufTy).Contents (Elt F)),
    StableHlo.ternary main_v580 main_v581 main_v532 main_v582 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_108 (constant S_ .f32 0x3F800000#32),
    StableHlo.unary main_cst_108 main_v583 (broadcastInDim S50000 ![] bcast_S_S50000 : (⟨S_, .f32⟩ : BufTy).Contents (Elt F) → (⟨S50000, .f32⟩ : BufTy).Contents (Elt F)),
    StableHlo.binary main_v579 main_v583 main_v584 (maximumf : (⟨S50000, .f32⟩ : BufTy).Contents (Elt F) → (⟨S50000, .f32⟩ : BufTy).Contents (Elt F) → (⟨S50000, .f32⟩ : BufTy).Contents (Elt F)),
    StableHlo.unary main_v584 main_v585 (Host.rsqrt : (⟨S50000, .f32⟩ : BufTy).Contents (Elt F) → (⟨S50000, .f32⟩ : BufTy).Contents (Elt F)),
    StableHlo.unary main_v585 main_v586 (broadcastInDim S50000x1 ![0] bcast_S50000_S50000x1_0 : (⟨S50000, .f32⟩ : BufTy).Contents (Elt F) → (⟨S50000x1, .f32⟩ : BufTy).Contents (Elt F)),
    StableHlo.unary main_v586 main_v587 (broadcastInDim S50000x128 ![0, 1] bcast_S50000x1_S50000x128_0_1 : (⟨S50000x1, .f32⟩ : BufTy).Contents (Elt F) → (⟨S50000x128, .f32⟩ : BufTy).Contents (Elt F)),
    StableHlo.binary main_v527 main_v587 main_v588 (mulf : (⟨S50000x128, .f32⟩ : BufTy).Contents (Elt F) → (⟨S50000x128, .f32⟩ : BufTy).Contents (Elt F) → (⟨S50000x128, .f32⟩ : BufTy).Contents (Elt F)),
    StableHlo.nullary main_c_109 (constantI S_ 32 0#32),
    StableHlo.unary main_c_109 main_v589 (broadcastInDim S800000 ![] bcast_S_S800000 : (⟨S_, .i32⟩ : BufTy).Contents (Elt F) → (⟨S800000, .i32⟩ : BufTy).Contents (Elt F)),
    StableHlo.binary main_v574 main_v589 main_v590 (cmpi .slt : (⟨S800000, .i32⟩ : BufTy).Contents (Elt F) → (⟨S800000, .i32⟩ : BufTy).Contents (Elt F) → (⟨S800000, .i1⟩ : BufTy).Contents (Elt F)),
    StableHlo.nullary main_c_110 (constantI S_ 32 50000#32),
    StableHlo.unary main_c_110 main_v591 (broadcastInDim S800000 ![] bcast_S_S800000 : (⟨S_, .i32⟩ : BufTy).Contents (Elt F) → (⟨S800000, .i32⟩ : BufTy).Contents (Elt F)),
    StableHlo.binary main_v574 main_v591 main_v592 (addi : (⟨S800000, .i32⟩ : BufTy).Contents (Elt F) → (⟨S800000, .i32⟩ : BufTy).Contents (Elt F) → (⟨S800000, .i32⟩ : BufTy).Contents (Elt F)),
    StableHlo.ternary main_v590 main_v592 main_v574 main_v593 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v593 main_v594 (broadcastInDim S800000x1 ![0] bcast_S800000_S800000x1_0 : (⟨S800000, .i32⟩ : BufTy).Contents (Elt F) → (⟨S800000x1, .i32⟩ : BufTy).Contents (Elt F)),
    StableHlo.binary main_v588 main_v594 main_v595 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_111 (constant S_ .f32 0x00000000#32),
    StableHlo.unary main_cst_111 main_v596 (broadcastInDim S50000x128 ![] bcast_S_S50000x128 : (⟨S_, .f32⟩ : BufTy).Contents (Elt F) → (⟨S50000x128, .f32⟩ : BufTy).Contents (Elt F)),
    StableHlo.unary main_v576 main_v597 (broadcastInDim S800000x1 ![0] bcast_S800000_S800000x1_0 : (⟨S800000, .i32⟩ : BufTy).Contents (Elt F) → (⟨S800000x1, .i32⟩ : BufTy).Contents (Elt F)),
    StableHlo.ternary main_v596 main_v597 main_v595 main_v598 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_112 (constant S_ .f32 0x3F800000#32),
    StableHlo.unary main_cst_112 main_v599 (broadcastInDim S50000 ![] bcast_S_S50000 : (⟨S_, .f32⟩ : BufTy).Contents (Elt F) → (⟨S50000, .f32⟩ : BufTy).Contents (Elt F)),
    StableHlo.binary main_v582 main_v599 main_v600 (maximumf : (⟨S50000, .f32⟩ : BufTy).Contents (Elt F) → (⟨S50000, .f32⟩ : BufTy).Contents (Elt F) → (⟨S50000, .f32⟩ : BufTy).Contents (Elt F)),
    StableHlo.unary main_v600 main_v601 (Host.rsqrt : (⟨S50000, .f32⟩ : BufTy).Contents (Elt F) → (⟨S50000, .f32⟩ : BufTy).Contents (Elt F)),
    StableHlo.unary main_v601 main_v602 (broadcastInDim S50000x1 ![0] bcast_S50000_S50000x1_0 : (⟨S50000, .f32⟩ : BufTy).Contents (Elt F) → (⟨S50000x1, .f32⟩ : BufTy).Contents (Elt F)),
    StableHlo.unary main_v602 main_v603 (broadcastInDim S50000x128 ![0, 1] bcast_S50000x1_S50000x128_0_1 : (⟨S50000x1, .f32⟩ : BufTy).Contents (Elt F) → (⟨S50000x128, .f32⟩ : BufTy).Contents (Elt F)),
    StableHlo.binary main_v598 main_v603 main_v604 (mulf : (⟨S50000x128, .f32⟩ : BufTy).Contents (Elt F) → (⟨S50000x128, .f32⟩ : BufTy).Contents (Elt F) → (⟨S50000x128, .f32⟩ : BufTy).Contents (Elt F)),
    StableHlo.unary main_v529 main_v605 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v605 main_v606 rfl shapeCasts_S1x128x128_S128x128,
    StableHlo.binary main_v604 main_v606 main_v607 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v531 main_v608 ((extractStridedSlice S1x128 ![1, 0] · slices_S3x128_S1x128_1_0) : (⟨S3x128, .f32⟩ : BufTy).Contents (Elt F) → (⟨S1x128, .f32⟩ : BufTy).Contents (Elt F)),
    StableHlo.reshape main_v608 main_v609 rfl shapeCasts_S1x128_S128,
    StableHlo.unary main_v609 main_v610 (broadcastInDim S1x128 ![1] bcast_S128_S1x128_1 : (⟨S128, .f32⟩ : BufTy).Contents (Elt F) → (⟨S1x128, .f32⟩ : BufTy).Contents (Elt F)),
    StableHlo.unary main_v610 main_v611 (broadcastInDim S50000x128 ![0, 1] bcast_S1x128_S50000x128_0_1 : (⟨S1x128, .f32⟩ : BufTy).Contents (Elt F) → (⟨S50000x128, .f32⟩ : BufTy).Contents (Elt F)),
    StableHlo.binary main_v607 main_v611 main_v612 (addf : (⟨S50000x128, .f32⟩ : BufTy).Contents (Elt F) → (⟨S50000x128, .f32⟩ : BufTy).Contents (Elt F) → (⟨S50000x128, .f32⟩ : BufTy).Contents (Elt F)),
    StableHlo.unary main_arg1 main_v613 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v613 main_v614 rfl shapeCasts_S1x800000_S800000,
    StableHlo.unary main_arg2 main_v615 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v615 main_v616 rfl shapeCasts_S1x800000_S800000,
    StableHlo.nullary main_cst_113 (constant S_ .f32 0x00000000#32),
    StableHlo.unary main_cst_113 main_v617 (broadcastInDim S50000 ![] bcast_S_S50000 : (⟨S_, .f32⟩ : BufTy).Contents (Elt F) → (⟨S50000, .f32⟩ : BufTy).Contents (Elt F)),
    StableHlo.unary main_v614 main_v618 (broadcastInDim S800000x1 ![0] bcast_S800000_S800000x1_0 : (⟨S800000, .i32⟩ : BufTy).Contents (Elt F) → (⟨S800000x1, .i32⟩ : BufTy).Contents (Elt F)),
    StableHlo.ternary main_v617 main_v618 main_v532 main_v619 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_114 (constant S_ .f32 0x00000000#32),
    StableHlo.unary main_cst_114 main_v620 (broadcastInDim S50000 ![] bcast_S_S50000 : (⟨S_, .f32⟩ : BufTy).Contents (Elt F) → (⟨S50000, .f32⟩ : BufTy).Contents (Elt F)),
    StableHlo.unary main_v616 main_v621 (broadcastInDim S800000x1 ![0] bcast_S800000_S800000x1_0 : (⟨S800000, .i32⟩ : BufTy).Contents (Elt F) → (⟨S800000x1, .i32⟩ : BufTy).Contents (Elt F)),
    StableHlo.ternary main_v620 main_v621 main_v532 main_v622 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_115 (constant S_ .f32 0x3F800000#32),
    StableHlo.unary main_cst_115 main_v623 (broadcastInDim S50000 ![] bcast_S_S50000 : (⟨S_, .f32⟩ : BufTy).Contents (Elt F) → (⟨S50000, .f32⟩ : BufTy).Contents (Elt F)),
    StableHlo.binary main_v619 main_v623 main_v624 (maximumf : (⟨S50000, .f32⟩ : BufTy).Contents (Elt F) → (⟨S50000, .f32⟩ : BufTy).Contents (Elt F) → (⟨S50000, .f32⟩ : BufTy).Contents (Elt F)),
    StableHlo.unary main_v624 main_v625 (Host.rsqrt : (⟨S50000, .f32⟩ : BufTy).Contents (Elt F) → (⟨S50000, .f32⟩ : BufTy).Contents (Elt F)),
    StableHlo.unary main_v625 main_v626 (broadcastInDim S50000x1 ![0] bcast_S50000_S50000x1_0 : (⟨S50000, .f32⟩ : BufTy).Contents (Elt F) → (⟨S50000x1, .f32⟩ : BufTy).Contents (Elt F)),
    StableHlo.unary main_v626 main_v627 (broadcastInDim S50000x128 ![0, 1] bcast_S50000x1_S50000x128_0_1 : (⟨S50000x1, .f32⟩ : BufTy).Contents (Elt F) → (⟨S50000x128, .f32⟩ : BufTy).Contents (Elt F)),
    StableHlo.binary main_v527 main_v627 main_v628 (mulf : (⟨S50000x128, .f32⟩ : BufTy).Contents (Elt F) → (⟨S50000x128, .f32⟩ : BufTy).Contents (Elt F) → (⟨S50000x128, .f32⟩ : BufTy).Contents (Elt F)),
    StableHlo.nullary main_c_116 (constantI S_ 32 0#32),
    StableHlo.unary main_c_116 main_v629 (broadcastInDim S800000 ![] bcast_S_S800000 : (⟨S_, .i32⟩ : BufTy).Contents (Elt F) → (⟨S800000, .i32⟩ : BufTy).Contents (Elt F)),
    StableHlo.binary main_v614 main_v629 main_v630 (cmpi .slt : (⟨S800000, .i32⟩ : BufTy).Contents (Elt F) → (⟨S800000, .i32⟩ : BufTy).Contents (Elt F) → (⟨S800000, .i1⟩ : BufTy).Contents (Elt F)),
    StableHlo.nullary main_c_117 (constantI S_ 32 50000#32),
    StableHlo.unary main_c_117 main_v631 (broadcastInDim S800000 ![] bcast_S_S800000 : (⟨S_, .i32⟩ : BufTy).Contents (Elt F) → (⟨S800000, .i32⟩ : BufTy).Contents (Elt F)),
    StableHlo.binary main_v614 main_v631 main_v632 (addi : (⟨S800000, .i32⟩ : BufTy).Contents (Elt F) → (⟨S800000, .i32⟩ : BufTy).Contents (Elt F) → (⟨S800000, .i32⟩ : BufTy).Contents (Elt F)),
    StableHlo.ternary main_v630 main_v632 main_v614 main_v633 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v633 main_v634 (broadcastInDim S800000x1 ![0] bcast_S800000_S800000x1_0 : (⟨S800000, .i32⟩ : BufTy).Contents (Elt F) → (⟨S800000x1, .i32⟩ : BufTy).Contents (Elt F)),
    StableHlo.binary main_v628 main_v634 main_v635 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_118 (constant S_ .f32 0x00000000#32),
    StableHlo.unary main_cst_118 main_v636 (broadcastInDim S50000x128 ![] bcast_S_S50000x128 : (⟨S_, .f32⟩ : BufTy).Contents (Elt F) → (⟨S50000x128, .f32⟩ : BufTy).Contents (Elt F)),
    StableHlo.unary main_v616 main_v637 (broadcastInDim S800000x1 ![0] bcast_S800000_S800000x1_0 : (⟨S800000, .i32⟩ : BufTy).Contents (Elt F) → (⟨S800000x1, .i32⟩ : BufTy).Contents (Elt F)),
    StableHlo.ternary main_v636 main_v637 main_v635 main_v638 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_119 (constant S_ .f32 0x3F800000#32),
    StableHlo.unary main_cst_119 main_v639 (broadcastInDim S50000 ![] bcast_S_S50000 : (⟨S_, .f32⟩ : BufTy).Contents (Elt F) → (⟨S50000, .f32⟩ : BufTy).Contents (Elt F)),
    StableHlo.binary main_v622 main_v639 main_v640 (maximumf : (⟨S50000, .f32⟩ : BufTy).Contents (Elt F) → (⟨S50000, .f32⟩ : BufTy).Contents (Elt F) → (⟨S50000, .f32⟩ : BufTy).Contents (Elt F)),
    StableHlo.unary main_v640 main_v641 (Host.rsqrt : (⟨S50000, .f32⟩ : BufTy).Contents (Elt F) → (⟨S50000, .f32⟩ : BufTy).Contents (Elt F)),
    StableHlo.unary main_v641 main_v642 (broadcastInDim S50000x1 ![0] bcast_S50000_S50000x1_0 : (⟨S50000, .f32⟩ : BufTy).Contents (Elt F) → (⟨S50000x1, .f32⟩ : BufTy).Contents (Elt F)),
    StableHlo.unary main_v642 main_v643 (broadcastInDim S50000x128 ![0, 1] bcast_S50000x1_S50000x128_0_1 : (⟨S50000x1, .f32⟩ : BufTy).Contents (Elt F) → (⟨S50000x128, .f32⟩ : BufTy).Contents (Elt F)),
    StableHlo.binary main_v638 main_v643 main_v644 (mulf : (⟨S50000x128, .f32⟩ : BufTy).Contents (Elt F) → (⟨S50000x128, .f32⟩ : BufTy).Contents (Elt F) → (⟨S50000x128, .f32⟩ : BufTy).Contents (Elt F)),
    StableHlo.unary main_v529 main_v645 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v645 main_v646 rfl shapeCasts_S1x128x128_S128x128,
    StableHlo.binary main_v644 main_v646 main_v647 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v531 main_v648 ((extractStridedSlice S1x128 ![2, 0] · slices_S3x128_S1x128_2_0) : (⟨S3x128, .f32⟩ : BufTy).Contents (Elt F) → (⟨S1x128, .f32⟩ : BufTy).Contents (Elt F)),
    StableHlo.reshape main_v648 main_v649 rfl shapeCasts_S1x128_S128,
    StableHlo.unary main_v649 main_v650 (broadcastInDim S1x128 ![1] bcast_S128_S1x128_1 : (⟨S128, .f32⟩ : BufTy).Contents (Elt F) → (⟨S1x128, .f32⟩ : BufTy).Contents (Elt F)),
    StableHlo.unary main_v650 main_v651 (broadcastInDim S50000x128 ![0, 1] bcast_S1x128_S50000x128_0_1 : (⟨S1x128, .f32⟩ : BufTy).Contents (Elt F) → (⟨S50000x128, .f32⟩ : BufTy).Contents (Elt F)),
    StableHlo.binary main_v647 main_v651 main_v652 (addf : (⟨S50000x128, .f32⟩ : BufTy).Contents (Elt F) → (⟨S50000x128, .f32⟩ : BufTy).Contents (Elt F) → (⟨S50000x128, .f32⟩ : BufTy).Contents (Elt F)),
    StableHlo.unary main_v572 main_v653 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v612 main_v654 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v652 main_v655 (broadcastInDim S1x50000x128 ![1, 2] bcast_S50000x128_S1x50000x128_1_2 : (⟨S50000x128, .f32⟩ : BufTy).Contents (Elt F) → (⟨S1x50000x128, .f32⟩ : BufTy).Contents (Elt F)),
    StableHlo.nary ![main_v653, main_v654, main_v655] main_v656 (fun u => concatenate S3x50000x128 0 [⟨S1x50000x128, u 0⟩, ⟨S1x50000x128, u 1⟩, ⟨S1x50000x128, u 2⟩] concatenates_S1x50000x128_S1x50000x128_S1x50000x128_S3x50000x128_d0),
    StableHlo.nullary main_cst_120 (constant S_ .f32 0x00000000#32),
    StableHlo.binary main_v656 main_cst_120 main_v657 ((fun x v => Host.reduceAdd x v reducesTo_S3x50000x128_S50000x128_d0 h_S_) : (⟨S3x50000x128, .f32⟩ : BufTy).Contents (Elt F) → (⟨S_, .f32⟩ : BufTy).Contents (Elt F) → (⟨S50000x128, .f32⟩ : BufTy).Contents (Elt F)),
    StableHlo.nullary main_cst_121 (constant S_ .f32 0x40400000#32),
    StableHlo.unary main_cst_121 main_v658 (broadcastInDim S50000x128 ![] bcast_S_S50000x128 : (⟨S_, .f32⟩ : BufTy).Contents (Elt F) → (⟨S50000x128, .f32⟩ : BufTy).Contents (Elt F)),
    StableHlo.binary main_v657 main_v658 main_v659 (Host.divf : (⟨S50000x128, .f32⟩ : BufTy).Contents (Elt F) → (⟨S50000x128, .f32⟩ : BufTy).Contents (Elt F) → (⟨S50000x128, .f32⟩ : BufTy).Contents (Elt F)) ]

theorem opsL4_eq : (opsL4 : List (HloOp τ sig (Elt F))) = w10_1 ++ w11_0 ++ w12_0 ++ w13_0 := rfl

theorem opsL4_sub : (opsL4 : List (HloOp τ sig (Elt F))).Forall fun op => op.bufs ⊆ tcRefs τ sig :=
  ⟨unary_bufs_sub .., reshape_bufs_sub .., unary_bufs_sub .., reshape_bufs_sub .., nullary_bufs_sub .., unary_bufs_sub .., unary_bufs_sub .., reshape_bufs_sub .., unary_bufs_sub .., reshape_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., unary_bufs_sub .., nary_bufs_sub .., nullary_bufs_sub .., binary_bufs_sub .., nullary_bufs_sub .., unary_bufs_sub .., binary_bufs_sub ..⟩

theorem opsL4_fresh : (opsL4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the layer writes: each operation's result. -/
def opsL4_W : List (Ref sig .tc) :=
  [main_v528, main_v529, main_v530, main_v531, main_cst_98, main_v532, main_v533, main_v534, main_v535, main_v536, main_cst_99, main_v537, main_v538, main_v539, main_cst_100, main_v540, main_v541, main_v542, main_cst_101, main_v543, main_v544, main_v545, main_v546, main_v547, main_v548, main_c_102, main_v549, main_v550, main_c_103, main_v551, main_v552, main_v553, main_v554, main_v555, main_cst_104, main_v556, main_v557, main_v558, main_cst_105, main_v559, main_v560, main_v561, main_v562, main_v563, main_v564, main_v565, main_v566, main_v567, main_v568, main_v569, main_v570, main_v571, main_v572, main_v573, main_v574, main_v575, main_v576, main_cst_106, main_v577, main_v578, main_v579, main_cst_107, main_v580, main_v581, main_v582, main_cst_108, main_v583, main_v584, main_v585, main_v586, main_v587, main_v588, main_c_109, main_v589, main_v590, main_c_110, main_v591, main_v592, main_v593, main_v594, main_v595, main_cst_111, main_v596, main_v597, main_v598, main_cst_112, main_v599, main_v600, main_v601, main_v602, main_v603, main_v604, main_v605, main_v606, main_v607, main_v608, main_v609, main_v610, main_v611, main_v612, main_v613, main_v614, main_v615, main_v616, main_cst_113, main_v617, main_v618, main_v619, main_cst_114, main_v620, main_v621, main_v622, main_cst_115, main_v623, main_v624, main_v625, main_v626, main_v627, main_v628, main_c_116, main_v629, main_v630, main_c_117, main_v631, main_v632, main_v633, main_v634, main_v635, main_cst_118, main_v636, main_v637, main_v638, main_cst_119, main_v639, main_v640, main_v641, main_v642, main_v643, main_v644, main_v645, main_v646, main_v647, main_v648, main_v649, main_v650, main_v651, main_v652, main_v653, main_v654, main_v655, main_v656, main_cst_120, main_v657, main_cst_121, main_v658, main_v659]

/-- Every operation of the layer writes inside that list. -/
theorem opsL4_writes : (opsL4 : List (HloOp τ sig (Elt F))).Forall fun op => op.writes ⊆ (opsL4_W.map (Proc.devRef (τ := τ) .tc)).toFinset := by
  host_writes opsL4

/-- A reference the layer does not write keeps its contents. -/
theorem opsL4_keeps (V : Valuation τ sig (Elt F)) {r : Ref sig .tc} (hr : r ∉ opsL4_W) :
    after opsL4 V (Proc.devRef .tc r) = V (Proc.devRef .tc r) :=
  after_of_writes_sub opsL4 V opsL4_writes hr

end Cert.ReferenceIdeal.RefRun

end
-- ==== Proof.RefRunL5.lean ====
/- The reference's output projection (h·Wout + bout) as ONE list of host operations (4), ending with the operation that writes `main_v663`:
   the concatenation of the window pieces it spans; every operation touches TensorCore references only and allocates nothing;
   the list of the references it writes, none of them an argument of @main. -/
import proofs.«165758_j22333829939343_1_alg».proof.Proof.RefRunW13
import proofs.«165758_j22333829939343_1_alg».proof.Proof.LibKeeps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The layer's operations, in order. -/
abbrev opsFinal : List (HloOp τ sig (Elt F)) :=
  [ StableHlo.binary main_v659 main_arg7 main_v660 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg8 main_v661 (broadcastInDim S1x64 ![1] bcast_S64_S1x64_1 : (⟨S64, .f32⟩ : BufTy).Contents (Elt F) → (⟨S1x64, .f32⟩ : BufTy).Contents (Elt F)),
    StableHlo.unary main_v661 main_v662 (broadcastInDim S50000x64 ![0, 1] bcast_S1x64_S50000x64_0_1 : (⟨S1x64, .f32⟩ : BufTy).Contents (Elt F) → (⟨S50000x64, .f32⟩ : BufTy).Contents (Elt F)),
    StableHlo.binary main_v660 main_v662 main_v663 (addf : (⟨S50000x64, .f32⟩ : BufTy).Contents (Elt F) → (⟨S50000x64, .f32⟩ : BufTy).Contents (Elt F) → (⟨S50000x64, .f32⟩ : BufTy).Contents (Elt F)) ]

theorem opsFinal_eq : (opsFinal : List (HloOp τ sig (Elt F))) = w13_1 := rfl

theorem opsFinal_sub : (opsFinal : List (HloOp τ sig (Elt F))).Forall fun op => op.bufs ⊆ tcRefs τ sig :=
  ⟨binary_bufs_sub .., unary_bufs_sub .., unary_bufs_sub .., binary_bufs_sub ..⟩

theorem opsFinal_fresh : (opsFinal : List (HloOp τ sig (Elt F))).Forall fun op => op.fresh = ∅ :=
  ⟨rfl, rfl, rfl, rfl⟩

/-- The references the layer writes: each operation's result. -/
def opsFinal_W : List (Ref sig .tc) :=
  [main_v660, main_v661, main_v662, main_v663]

/-- Every operation of the layer writes inside that list. -/
theorem opsFinal_writes : (opsFinal : List (HloOp τ sig (Elt F))).Forall fun op => op.writes ⊆ (opsFinal_W.map (Proc.devRef (τ := τ) .tc)).toFinset := by
  host_writes opsFinal

/-- A reference the layer does not write keeps its contents. -/
theorem opsFinal_keeps (V : Valuation τ sig (Elt F)) {r : Ref sig .tc} (hr : r ∉ opsFinal_W) :
    after opsFinal V (Proc.devRef .tc r) = V (Proc.devRef .tc r) :=
  after_of_writes_sub opsFinal V opsFinal_writes hr

end Cert.ReferenceIdeal.RefRun

end
-- ==== Proof.RefRun.lean ====
/- The reference's run, read as a chain of named valuations. @main of the reference is a straight line of 812 host operations
   (its 788 printed statements, each call to @leaky_relu standing as the seven operations it executes): five graph-conv layers
   and the output projection. The line is the concatenation of the six layer lists; the library's rule for a straight line
   gives that every weakly fair run terminates with each buffer at the fold of the operations over the launch contents; the
   fold over a concatenation is the folds in turn, so the final contents are R6 = (fold of the projection) ∘ (fold of layer 4) ∘ … ∘
   (fold of layer 0) of the launch contents R0 — six NAMED steps, never composed into one term (each layer reads the previous
   layer's result three times). No operation writes an argument of @main, so the arguments end as they started. -/
import proofs.«165758_j22333829939343_1_alg».proof.Proof.RefRunL0
import proofs.«165758_j22333829939343_1_alg».proof.Proof.RefRunL1
import proofs.«165758_j22333829939343_1_alg».proof.Proof.RefRunL2
import proofs.«165758_j22333829939343_1_alg».proof.Proof.RefRunL3
import proofs.«165758_j22333829939343_1_alg».proof.Proof.RefRunL4
import proofs.«165758_j22333829939343_1_alg».proof.Proof.RefRunL5
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold over two lines in a row is the fold over the second, from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- @main's operations: the five layers and the output projection, in order. -/
def allOps : List (HloOp τ sig (Elt F)) := opsL0 ++ (opsL1 ++ (opsL2 ++ (opsL3 ++ (opsL4 ++ (opsFinal)))))

/-- The same list as the concatenation of the window pieces. -/
theorem allOps_eq : (allOps : List (HloOp τ sig (Elt F))) =
    w0_0 ++ (w1_0 ++ (w2_0 ++ (w2_1 ++ (w3_0 ++ (w4_0 ++ (w5_0 ++ (w5_1 ++ (w6_0 ++ (w7_0 ++ (w7_1 ++ (w8_0 ++ (w9_0 ++ (w10_0 ++ (w10_1 ++ (w11_0 ++ (w12_0 ++ (w13_0 ++ (w13_1)))))))))))))))))) := by
  unfold allOps
  rw [opsL0_eq, opsL1_eq, opsL2_eq, opsL3_eq, opsL4_eq, opsFinal_eq]
  simp only [List.append_assoc]

/-- @main is the straight line of that list: it runs its fourteen windows in order, each the line of its pieces, and lines
    in a row are the line of the concatenation. -/
theorem main_eq (c : Dev nD) : main (F := F) c = seq allOps := by
  have h : main (F := F) c = (main_part0 c >>= fun _ => main_part1 c >>= fun _ => main_part2 c >>= fun _ => main_part3 c >>= fun _ => main_part4 c >>= fun _ => main_part5 c >>= fun _ => main_part6 c >>= fun _ => main_part7 c >>= fun _ => main_part8 c >>= fun _ => main_part9 c >>= fun _ => main_part10 c >>= fun _ => main_part11 c >>= fun _ => main_part12 c >>= fun _ => main_part13 c) := rfl
  rw [h, part0_eq, part1_eq, part2_eq, part3_eq, part4_eq, part5_eq, part6_eq, part7_eq, part8_eq, part9_eq, part10_eq, part11_eq, part12_eq, part13_eq, allOps_eq]
  simp only [seq_append, bind_assoc]

theorem allOps_sub : (allOps : List (HloOp τ sig (Elt F))).Forall fun op => op.bufs ⊆ tcRefs τ sig := by
  unfold allOps
  exact List.forall_append.2 ⟨opsL0_sub, List.forall_append.2 ⟨opsL1_sub, List.forall_append.2 ⟨opsL2_sub,
    List.forall_append.2 ⟨opsL3_sub, List.forall_append.2 ⟨opsL4_sub, opsFinal_sub⟩⟩⟩⟩⟩

theorem allOps_fresh : ∀ op ∈ (allOps : List (HloOp τ sig (Elt F))), op.fresh = ∅ := by
  refine List.forall_iff_forall_mem.1 ?_
  unfold allOps
  exact List.forall_append.2 ⟨opsL0_fresh, List.forall_append.2 ⟨opsL1_fresh, List.forall_append.2 ⟨opsL2_fresh,
    List.forall_append.2 ⟨opsL3_fresh, List.forall_append.2 ⟨opsL4_fresh, opsFinal_fresh⟩⟩⟩⟩⟩

theorem scopedRefs_eq : (Finset.univ.filter fun b : Ref sig .tc => b.isScoped) = ∅ := by decide
theorem scopedSems_eq : (Finset.univ.filter fun sm : SemLoc sig => sm.isScoped .tc) = ∅ := by decide

/-! ## The chain of valuations -/

/-- Device `c`'s buffers at launch. -/
def R0 (m : (ℓ : Loc nD τ sig) → Buf (Elt F) ℓ) (c : Dev nD) : Valuation τ sig (Elt F) := launchContents m c
/-- After graph-conv layer 0 (its result h is `main_v128`). -/
def R1 (m : (ℓ : Loc nD τ sig) → Buf (Elt F) ℓ) (c : Dev nD) : Valuation τ sig (Elt F) := after opsL0 (R0 m c)
/-- After layer 1 (h is `main_v261`). -/
def R2 (m : (ℓ : Loc nD τ sig) → Buf (Elt F) ℓ) (c : Dev nD) : Valuation τ sig (Elt F) := after opsL1 (R1 m c)
/-- After layer 2 (h is `main_v394`). -/
def R3 (m : (ℓ : Loc nD τ sig) → Buf (Elt F) ℓ) (c : Dev nD) : Valuation τ sig (Elt F) := after opsL2 (R2 m c)
/-- After layer 3 (h is `main_v527`). -/
def R4 (m : (ℓ : Loc nD τ sig) → Buf (Elt F) ℓ) (c : Dev nD) : Valuation τ sig (Elt F) := after opsL3 (R3 m c)
/-- After layer 4, which has no leaky_relu (h is `main_v659`). -/
def R5 (m : (ℓ : Loc nD τ sig) → Buf (Elt F) ℓ) (c : Dev nD) : Valuation τ sig (Elt F) := after opsL4 (R4 m c)
/-- After the output projection (the result is `main_v663`). -/
def R6 (m : (ℓ : Loc nD τ sig) → Buf (Elt F) ℓ) (c : Dev nD) : Valuation τ sig (Elt F) := after opsFinal (R5 m c)

theorem R0_eq (m : (ℓ : Loc nD τ sig) → Buf (Elt F) ℓ) (c : Dev nD) : R0 m c = launchContents m c := rfl
theorem R1_eq (m : (ℓ : Loc nD τ sig) → Buf (Elt F) ℓ) (c : Dev nD) : R1 m c = after opsL0 (R0 m c) := rfl
theorem R2_eq (m : (ℓ : Loc nD τ sig) → Buf (Elt F) ℓ) (c : Dev nD) : R2 m c = after opsL1 (R1 m c) := rfl
theorem R3_eq (m : (ℓ : Loc nD τ sig) → Buf (Elt F) ℓ) (c : Dev nD) : R3 m c = after opsL2 (R2 m c) := rfl
theorem R4_eq (m : (ℓ : Loc nD τ sig) → Buf (Elt F) ℓ) (c : Dev nD) : R4 m c = after opsL3 (R3 m c) := rfl
theorem R5_eq (m : (ℓ : Loc nD τ sig) → Buf (Elt F) ℓ) (c : Dev nD) : R5 m c = after opsL4 (R4 m c) := rfl
theorem R6_eq (m : (ℓ : Loc nD τ sig) → Buf (Elt F) ℓ) (c : Dev nD) : R6 m c = after opsFinal (R5 m c) := rfl

/-- The last valuation of the chain is the fold of the whole line over the launch contents. -/
theorem R6_eq_after (m : (ℓ : Loc nD τ sig) → Buf (Elt F) ℓ) (c : Dev nD) : R6 m c = after allOps (launchContents m c) := by
  unfold allOps
  simp only [after_app]
  rfl

/-! ## What each step leaves alone -/

theorem R1_keeps (m : (ℓ : Loc nD τ sig) → Buf (Elt F) ℓ) (c : Dev nD) {r : Ref sig .tc} (hr : r ∉ opsL0_W) :
    R1 m c (Proc.devRef .tc r) = R0 m c (Proc.devRef .tc r) := opsL0_keeps _ hr
theorem R2_keeps (m : (ℓ : Loc nD τ sig) → Buf (Elt F) ℓ) (c : Dev nD) {r : Ref sig .tc} (hr : r ∉ opsL1_W) :
    R2 m c (Proc.devRef .tc r) = R1 m c (Proc.devRef .tc r) := opsL1_keeps _ hr
theorem R3_keeps (m : (ℓ : Loc nD τ sig) → Buf (Elt F) ℓ) (c : Dev nD) {r : Ref sig .tc} (hr : r ∉ opsL2_W) :
    R3 m c (Proc.devRef .tc r) = R2 m c (Proc.devRef .tc r) := opsL2_keeps _ hr
theorem R4_keeps (m : (ℓ : Loc nD τ sig) → Buf (Elt F) ℓ) (c : Dev nD) {r : Ref sig .tc} (hr : r ∉ opsL3_W) :
    R4 m c (Proc.devRef .tc r) = R3 m c (Proc.devRef .tc r) := opsL3_keeps _ hr
theorem R5_keeps (m : (ℓ : Loc nD τ sig) → Buf (Elt F) ℓ) (c : Dev nD) {r : Ref sig .tc} (hr : r ∉ opsL4_W) :
    R5 m c (Proc.devRef .tc r) = R4 m c (Proc.devRef .tc r) := opsL4_keeps _ hr
theorem R6_keeps (m : (ℓ : Loc nD τ sig) → Buf (Elt F) ℓ) (c : Dev nD) {r : Ref sig .tc} (hr : r ∉ opsFinal_W) :
    R6 m c (Proc.devRef .tc r) = R5 m c (Proc.devRef .tc r) := opsFinal_keeps _ hr

/-- A reference no layer writes ends at its launch contents. -/
theorem R6_arg (m : (ℓ : Loc nD τ sig) → Buf (Elt F) ℓ) (c : Dev nD) {r : Ref sig .tc}
    (h0 : r ∉ opsL0_W) (h1 : r ∉ opsL1_W) (h2 : r ∉ opsL2_W) (h3 : r ∉ opsL3_W) (h4 : r ∉ opsL4_W) (h5 : r ∉ opsFinal_W) :
    R6 m c (Proc.devRef .tc r) = m ((c.tc : Thread nD τ).loc r) :=
  (R6_keeps m c h5).trans ((R5_keeps m c h4).trans ((R4_keeps m c h3).trans ((R3_keeps m c h2).trans
    ((R2_keeps m c h1).trans (R1_keeps m c h0)))))

/-! ## The run -/

/-- On every device, for any float values, from any memory with zero counters: every weakly fair execution of the reference's
    @main terminates with every TensorCore buffer at the last valuation of the chain. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = R6 m c (Proc.devRef .tc b) :=
  (θ_run defs _ _).mono (fun _ h c b => (h c b).trans (congrFun (R6_eq_after m c).symm (Proc.devRef .tc b)))
    (run_seq scopedRefs_eq scopedSems_eq defs main (fun _ => allOps) main_eq (fun _ => allOps_sub) m ρ (fun _ => allOps_fresh))

/-- The same run, at the result and the arguments: the result `main_v663` ends at the chain's last valuation, every argument
    as it started. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v663) = R6 m c (Proc.devRef .tc main_v663)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨h c main_v663,
      (h c main_arg0).trans (R6_arg m c (by decide) (by decide) (by decide) (by decide) (by decide) (by decide)),
      (h c main_arg1).trans (R6_arg m c (by decide) (by decide) (by decide) (by decide) (by decide) (by decide)),
      (h c main_arg2).trans (R6_arg m c (by decide) (by decide) (by decide) (by decide) (by decide) (by decide)),
      (h c main_arg3).trans (R6_arg m c (by decide) (by decide) (by decide) (by decide) (by decide) (by decide)),
      (h c main_arg4).trans (R6_arg m c (by decide) (by decide) (by decide) (by decide) (by decide) (by decide)),
      (h c main_arg5).trans (R6_arg m c (by decide) (by decide) (by decide) (by decide) (by decide) (by decide)),
      (h c main_arg6).trans (R6_arg m c (by decide) (by decide) (by decide) (by decide) (by decide) (by decide)),
      (h c main_arg7).trans (R6_arg m c (by decide) (by decide) (by decide) (by decide) (by decide) (by decide)),
      (h c main_arg8).trans (R6_arg m c (by decide) (by decide) (by decide) (by decide) (by decide) (by decide))⟩)
    (run_all m ρ)

end Cert.ReferenceIdeal.RefRun

end
-- ==== Proof.BridgeChainK.lean ====
/-
  The kernel program's boundary contents read at the buffers the comparison with the reference follows from layer to
  layer: every argument array holds its launch contents at every boundary (no stretch writes one, a region at most reads
  one through an input window); the two degree tables written by the first stretch are untouched afterwards; and a
  region's output array is still what the region left when the next stretch has run.
-/
import proofs.«165758_j22333829939343_1_alg».proof.Proof.KRunVals

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The arguments at every boundary -/

theorem W0_main_arg0 (c : Dev nD) : W0 m ρ c (Proc.devRef .tc main_arg0) = m ((c : Thread nD τ).loc main_arg0) := rfl
theorem W1_main_arg0 (c : Dev nD) : W1 m ρ c (Proc.devRef .tc main_arg0) = m ((c : Thread nD τ).loc main_arg0) :=
  (W1_of m ρ c main_arg0 (by decide)).trans (W0_main_arg0 m ρ c)
theorem W2_main_arg0 (c : Dev nD) : W2 m ρ c (Proc.devRef .tc main_arg0) = m ((c : Thread nD τ).loc main_arg0) :=
  (W2_of_ne m ρ c main_arg0 (by decide)).trans (W1_main_arg0 m ρ c)
theorem W3_main_arg0 (c : Dev nD) : W3 m ρ c (Proc.devRef .tc main_arg0) = m ((c : Thread nD τ).loc main_arg0) :=
  (W3_of m ρ c main_arg0 (by decide)).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W5_main_arg0 (c : Dev nD) : W5 m ρ c (Proc.devRef .tc main_arg0) = m ((c : Thread nD τ).loc main_arg0) :=
  (W5_of m ρ c main_arg0 (by decide)).trans (W4_main_arg0 m ρ c)
theorem W6_main_arg0 (c : Dev nD) : W6 m ρ c (Proc.devRef .tc main_arg0) = m ((c : Thread nD τ).loc main_arg0) :=
  (W6_of_ne m ρ c main_arg0 (by decide)).trans (W5_main_arg0 m ρ c)
theorem W7_main_arg0 (c : Dev nD) : W7 m ρ c (Proc.devRef .tc main_arg0) = m ((c : Thread nD τ).loc main_arg0) :=
  (W7_of m ρ c main_arg0 (by decide)).trans (W6_main_arg0 m ρ c)
theorem W8_main_arg0 (c : Dev nD) : W8 m ρ c (Proc.devRef .tc main_arg0) = m ((c : Thread nD τ).loc main_arg0) :=
  (W8_of_ne m ρ c main_arg0 (by decide)).trans (W7_main_arg0 m ρ c)
theorem W9_main_arg0 (c : Dev nD) : W9 m ρ c (Proc.devRef .tc main_arg0) = m ((c : Thread nD τ).loc main_arg0) :=
  (W9_of m ρ c main_arg0 (by decide)).trans (W8_main_arg0 m ρ c)
theorem W10_main_arg0 (c : Dev nD) : W10 m ρ c (Proc.devRef .tc main_arg0) = m ((c : Thread nD τ).loc main_arg0) :=
  (W10_of_ne m ρ c main_arg0 (by decide)).trans (W9_main_arg0 m ρ c)
theorem W11_main_arg0 (c : Dev nD) : W11 m ρ c (Proc.devRef .tc main_arg0) = m ((c : Thread nD τ).loc main_arg0) :=
  (W11_of m ρ c main_arg0 (by decide)).trans (W10_main_arg0 m ρ c)

theorem W0_main_arg1 (c : Dev nD) : W0 m ρ c (Proc.devRef .tc main_arg1) = m ((c : Thread nD τ).loc main_arg1) := rfl
theorem W1_main_arg1 (c : Dev nD) : W1 m ρ c (Proc.devRef .tc main_arg1) = m ((c : Thread nD τ).loc main_arg1) :=
  (W1_of m ρ c main_arg1 (by decide)).trans (W0_main_arg1 m ρ c)
theorem W2_main_arg1 (c : Dev nD) : W2 m ρ c (Proc.devRef .tc main_arg1) = m ((c : Thread nD τ).loc main_arg1) :=
  (W2_of_ne m ρ c main_arg1 (by decide)).trans (W1_main_arg1 m ρ c)
theorem W3_main_arg1 (c : Dev nD) : W3 m ρ c (Proc.devRef .tc main_arg1) = m ((c : Thread nD τ).loc main_arg1) :=
  (W3_of m ρ c main_arg1 (by decide)).trans (W2_main_arg1 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W5_main_arg1 (c : Dev nD) : W5 m ρ c (Proc.devRef .tc main_arg1) = m ((c : Thread nD τ).loc main_arg1) :=
  (W5_of m ρ c main_arg1 (by decide)).trans (W4_main_arg1 m ρ c)
theorem W6_main_arg1 (c : Dev nD) : W6 m ρ c (Proc.devRef .tc main_arg1) = m ((c : Thread nD τ).loc main_arg1) :=
  (W6_of_ne m ρ c main_arg1 (by decide)).trans (W5_main_arg1 m ρ c)
theorem W7_main_arg1 (c : Dev nD) : W7 m ρ c (Proc.devRef .tc main_arg1) = m ((c : Thread nD τ).loc main_arg1) :=
  (W7_of m ρ c main_arg1 (by decide)).trans (W6_main_arg1 m ρ c)
theorem W8_main_arg1 (c : Dev nD) : W8 m ρ c (Proc.devRef .tc main_arg1) = m ((c : Thread nD τ).loc main_arg1) :=
  (W8_of_ne m ρ c main_arg1 (by decide)).trans (W7_main_arg1 m ρ c)
theorem W9_main_arg1 (c : Dev nD) : W9 m ρ c (Proc.devRef .tc main_arg1) = m ((c : Thread nD τ).loc main_arg1) :=
  (W9_of m ρ c main_arg1 (by decide)).trans (W8_main_arg1 m ρ c)
theorem W10_main_arg1 (c : Dev nD) : W10 m ρ c (Proc.devRef .tc main_arg1) = m ((c : Thread nD τ).loc main_arg1) :=
  (W10_of_ne m ρ c main_arg1 (by decide)).trans (W9_main_arg1 m ρ c)
theorem W11_main_arg1 (c : Dev nD) : W11 m ρ c (Proc.devRef .tc main_arg1) = m ((c : Thread nD τ).loc main_arg1) :=
  (W11_of m ρ c main_arg1 (by decide)).trans (W10_main_arg1 m ρ c)

theorem W0_main_arg2 (c : Dev nD) : W0 m ρ c (Proc.devRef .tc main_arg2) = m ((c : Thread nD τ).loc main_arg2) := rfl
theorem W1_main_arg2 (c : Dev nD) : W1 m ρ c (Proc.devRef .tc main_arg2) = m ((c : Thread nD τ).loc main_arg2) :=
  (W1_of m ρ c main_arg2 (by decide)).trans (W0_main_arg2 m ρ c)
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) :=
  (W3_of m ρ c main_arg2 (by decide)).trans (W2_main_arg2 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W5_main_arg2 (c : Dev nD) : W5 m ρ c (Proc.devRef .tc main_arg2) = m ((c : Thread nD τ).loc main_arg2) :=
  (W5_of m ρ c main_arg2 (by decide)).trans (W4_main_arg2 m ρ c)
theorem W6_main_arg2 (c : Dev nD) : W6 m ρ c (Proc.devRef .tc main_arg2) = m ((c : Thread nD τ).loc main_arg2) :=
  (W6_of_ne m ρ c main_arg2 (by decide)).trans (W5_main_arg2 m ρ c)
theorem W7_main_arg2 (c : Dev nD) : W7 m ρ c (Proc.devRef .tc main_arg2) = m ((c : Thread nD τ).loc main_arg2) :=
  (W7_of m ρ c main_arg2 (by decide)).trans (W6_main_arg2 m ρ c)
theorem W8_main_arg2 (c : Dev nD) : W8 m ρ c (Proc.devRef .tc main_arg2) = m ((c : Thread nD τ).loc main_arg2) :=
  (W8_of_ne m ρ c main_arg2 (by decide)).trans (W7_main_arg2 m ρ c)
theorem W9_main_arg2 (c : Dev nD) : W9 m ρ c (Proc.devRef .tc main_arg2) = m ((c : Thread nD τ).loc main_arg2) :=
  (W9_of m ρ c main_arg2 (by decide)).trans (W8_main_arg2 m ρ c)
theorem W10_main_arg2 (c : Dev nD) : W10 m ρ c (Proc.devRef .tc main_arg2) = m ((c : Thread nD τ).loc main_arg2) :=
  (W10_of_ne m ρ c main_arg2 (by decide)).trans (W9_main_arg2 m ρ c)
theorem W11_main_arg2 (c : Dev nD) : W11 m ρ c (Proc.devRef .tc main_arg2) = m ((c : Thread nD τ).loc main_arg2) :=
  (W11_of m ρ c main_arg2 (by decide)).trans (W10_main_arg2 m ρ c)

theorem W0_main_arg3 (c : Dev nD) : W0 m ρ c (Proc.devRef .tc main_arg3) = m ((c : Thread nD τ).loc main_arg3) := rfl
theorem W1_main_arg3 (c : Dev nD) : W1 m ρ c (Proc.devRef .tc main_arg3) = m ((c : Thread nD τ).loc main_arg3) :=
  (W1_of m ρ c main_arg3 (by decide)).trans (W0_main_arg3 m ρ c)
theorem W2_main_arg3 (c : Dev nD) : W2 m ρ c (Proc.devRef .tc main_arg3) = m ((c : Thread nD τ).loc main_arg3) :=
  (W2_in m ρ c 1 rfl).trans (W1_main_arg3 m ρ c)
theorem W3_main_arg3 (c : Dev nD) : W3 m ρ c (Proc.devRef .tc main_arg3) = m ((c : Thread nD τ).loc main_arg3) :=
  (W3_of m ρ c main_arg3 (by decide)).trans (W2_main_arg3 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W5_main_arg3 (c : Dev nD) : W5 m ρ c (Proc.devRef .tc main_arg3) = m ((c : Thread nD τ).loc main_arg3) :=
  (W5_of m ρ c main_arg3 (by decide)).trans (W4_main_arg3 m ρ c)
theorem W6_main_arg3 (c : Dev nD) : W6 m ρ c (Proc.devRef .tc main_arg3) = m ((c : Thread nD τ).loc main_arg3) :=
  (W6_of_ne m ρ c main_arg3 (by decide)).trans (W5_main_arg3 m ρ c)
theorem W7_main_arg3 (c : Dev nD) : W7 m ρ c (Proc.devRef .tc main_arg3) = m ((c : Thread nD τ).loc main_arg3) :=
  (W7_of m ρ c main_arg3 (by decide)).trans (W6_main_arg3 m ρ c)
theorem W8_main_arg3 (c : Dev nD) : W8 m ρ c (Proc.devRef .tc main_arg3) = m ((c : Thread nD τ).loc main_arg3) :=
  (W8_of_ne m ρ c main_arg3 (by decide)).trans (W7_main_arg3 m ρ c)
theorem W9_main_arg3 (c : Dev nD) : W9 m ρ c (Proc.devRef .tc main_arg3) = m ((c : Thread nD τ).loc main_arg3) :=
  (W9_of m ρ c main_arg3 (by decide)).trans (W8_main_arg3 m ρ c)
theorem W10_main_arg3 (c : Dev nD) : W10 m ρ c (Proc.devRef .tc main_arg3) = m ((c : Thread nD τ).loc main_arg3) :=
  (W10_of_ne m ρ c main_arg3 (by decide)).trans (W9_main_arg3 m ρ c)
theorem W11_main_arg3 (c : Dev nD) : W11 m ρ c (Proc.devRef .tc main_arg3) = m ((c : Thread nD τ).loc main_arg3) :=
  (W11_of m ρ c main_arg3 (by decide)).trans (W10_main_arg3 m ρ c)

theorem W0_main_arg4 (c : Dev nD) : W0 m ρ c (Proc.devRef .tc main_arg4) = m ((c : Thread nD τ).loc main_arg4) := rfl
theorem W1_main_arg4 (c : Dev nD) : W1 m ρ c (Proc.devRef .tc main_arg4) = m ((c : Thread nD τ).loc main_arg4) :=
  (W1_of m ρ c main_arg4 (by decide)).trans (W0_main_arg4 m ρ c)
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (W3_of m ρ c main_arg4 (by decide)).trans (W2_main_arg4 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W5_main_arg4 (c : Dev nD) : W5 m ρ c (Proc.devRef .tc main_arg4) = m ((c : Thread nD τ).loc main_arg4) :=
  (W5_of m ρ c main_arg4 (by decide)).trans (W4_main_arg4 m ρ c)
theorem W6_main_arg4 (c : Dev nD) : W6 m ρ c (Proc.devRef .tc main_arg4) = m ((c : Thread nD τ).loc main_arg4) :=
  (W6_of_ne m ρ c main_arg4 (by decide)).trans (W5_main_arg4 m ρ c)
theorem W7_main_arg4 (c : Dev nD) : W7 m ρ c (Proc.devRef .tc main_arg4) = m ((c : Thread nD τ).loc main_arg4) :=
  (W7_of m ρ c main_arg4 (by decide)).trans (W6_main_arg4 m ρ c)
theorem W8_main_arg4 (c : Dev nD) : W8 m ρ c (Proc.devRef .tc main_arg4) = m ((c : Thread nD τ).loc main_arg4) :=
  (W8_of_ne m ρ c main_arg4 (by decide)).trans (W7_main_arg4 m ρ c)
theorem W9_main_arg4 (c : Dev nD) : W9 m ρ c (Proc.devRef .tc main_arg4) = m ((c : Thread nD τ).loc main_arg4) :=
  (W9_of m ρ c main_arg4 (by decide)).trans (W8_main_arg4 m ρ c)
theorem W10_main_arg4 (c : Dev nD) : W10 m ρ c (Proc.devRef .tc main_arg4) = m ((c : Thread nD τ).loc main_arg4) :=
  (W10_of_ne m ρ c main_arg4 (by decide)).trans (W9_main_arg4 m ρ c)
theorem W11_main_arg4 (c : Dev nD) : W11 m ρ c (Proc.devRef .tc main_arg4) = m ((c : Thread nD τ).loc main_arg4) :=
  (W11_of m ρ c main_arg4 (by decide)).trans (W10_main_arg4 m ρ c)

theorem W0_main_arg5 (c : Dev nD) : W0 m ρ c (Proc.devRef .tc main_arg5) = m ((c : Thread nD τ).loc main_arg5) := rfl
theorem W1_main_arg5 (c : Dev nD) : W1 m ρ c (Proc.devRef .tc main_arg5) = m ((c : Thread nD τ).loc main_arg5) :=
  (W1_of m ρ c main_arg5 (by decide)).trans (W0_main_arg5 m ρ c)
theorem W2_main_arg5 (c : Dev nD) : W2 m ρ c (Proc.devRef .tc main_arg5) = m ((c : Thread nD τ).loc main_arg5) :=
  (W2_of_ne m ρ c main_arg5 (by decide)).trans (W1_main_arg5 m ρ c)
theorem W3_main_arg5 (c : Dev nD) : W3 m ρ c (Proc.devRef .tc main_arg5) = m ((c : Thread nD τ).loc main_arg5) :=
  (W3_of m ρ c main_arg5 (by decide)).trans (W2_main_arg5 m ρ c)
theorem W4_main_arg5 (c : Dev nD) : W4 m ρ c (Proc.devRef .tc main_arg5) = m ((c : Thread nD τ).loc main_arg5) :=
  (W4_of_ne m ρ c main_arg5 (by decide)).trans (W3_main_arg5 m ρ c)
theorem W5_main_arg5 (c : Dev nD) : W5 m ρ c (Proc.devRef .tc main_arg5) = m ((c : Thread nD τ).loc main_arg5) :=
  (W5_of m ρ c main_arg5 (by decide)).trans (W4_main_arg5 m ρ c)
theorem W6_main_arg5 (c : Dev nD) : W6 m ρ c (Proc.devRef .tc main_arg5) = m ((c : Thread nD τ).loc main_arg5) :=
  (W6_of_ne m ρ c main_arg5 (by decide)).trans (W5_main_arg5 m ρ c)
theorem W7_main_arg5 (c : Dev nD) : W7 m ρ c (Proc.devRef .tc main_arg5) = m ((c : Thread nD τ).loc main_arg5) :=
  (W7_of m ρ c main_arg5 (by decide)).trans (W6_main_arg5 m ρ c)
theorem W8_main_arg5 (c : Dev nD) : W8 m ρ c (Proc.devRef .tc main_arg5) = m ((c : Thread nD τ).loc main_arg5) :=
  (W8_of_ne m ρ c main_arg5 (by decide)).trans (W7_main_arg5 m ρ c)
theorem W9_main_arg5 (c : Dev nD) : W9 m ρ c (Proc.devRef .tc main_arg5) = m ((c : Thread nD τ).loc main_arg5) :=
  (W9_of m ρ c main_arg5 (by decide)).trans (W8_main_arg5 m ρ c)
theorem W10_main_arg5 (c : Dev nD) : W10 m ρ c (Proc.devRef .tc main_arg5) = m ((c : Thread nD τ).loc main_arg5) :=
  (W10_of_ne m ρ c main_arg5 (by decide)).trans (W9_main_arg5 m ρ c)
theorem W11_main_arg5 (c : Dev nD) : W11 m ρ c (Proc.devRef .tc main_arg5) = m ((c : Thread nD τ).loc main_arg5) :=
  (W11_of m ρ c main_arg5 (by decide)).trans (W10_main_arg5 m ρ c)

theorem W0_main_arg6 (c : Dev nD) : W0 m ρ c (Proc.devRef .tc main_arg6) = m ((c : Thread nD τ).loc main_arg6) := rfl
theorem W1_main_arg6 (c : Dev nD) : W1 m ρ c (Proc.devRef .tc main_arg6) = m ((c : Thread nD τ).loc main_arg6) :=
  (W1_of m ρ c main_arg6 (by decide)).trans (W0_main_arg6 m ρ c)
theorem W2_main_arg6 (c : Dev nD) : W2 m ρ c (Proc.devRef .tc main_arg6) = m ((c : Thread nD τ).loc main_arg6) :=
  (W2_of_ne m ρ c main_arg6 (by decide)).trans (W1_main_arg6 m ρ c)
theorem W3_main_arg6 (c : Dev nD) : W3 m ρ c (Proc.devRef .tc main_arg6) = m ((c : Thread nD τ).loc main_arg6) :=
  (W3_of m ρ c main_arg6 (by decide)).trans (W2_main_arg6 m ρ c)
theorem W4_main_arg6 (c : Dev nD) : W4 m ρ c (Proc.devRef .tc main_arg6) = m ((c : Thread nD τ).loc main_arg6) :=
  (W4_of_ne m ρ c main_arg6 (by decide)).trans (W3_main_arg6 m ρ c)
theorem W5_main_arg6 (c : Dev nD) : W5 m ρ c (Proc.devRef .tc main_arg6) = m ((c : Thread nD τ).loc main_arg6) :=
  (W5_of m ρ c main_arg6 (by decide)).trans (W4_main_arg6 m ρ c)
theorem W6_main_arg6 (c : Dev nD) : W6 m ρ c (Proc.devRef .tc main_arg6) = m ((c : Thread nD τ).loc main_arg6) :=
  (W6_of_ne m ρ c main_arg6 (by decide)).trans (W5_main_arg6 m ρ c)
theorem W7_main_arg6 (c : Dev nD) : W7 m ρ c (Proc.devRef .tc main_arg6) = m ((c : Thread nD τ).loc main_arg6) :=
  (W7_of m ρ c main_arg6 (by decide)).trans (W6_main_arg6 m ρ c)
theorem W8_main_arg6 (c : Dev nD) : W8 m ρ c (Proc.devRef .tc main_arg6) = m ((c : Thread nD τ).loc main_arg6) :=
  (W8_of_ne m ρ c main_arg6 (by decide)).trans (W7_main_arg6 m ρ c)
theorem W9_main_arg6 (c : Dev nD) : W9 m ρ c (Proc.devRef .tc main_arg6) = m ((c : Thread nD τ).loc main_arg6) :=
  (W9_of m ρ c main_arg6 (by decide)).trans (W8_main_arg6 m ρ c)
theorem W10_main_arg6 (c : Dev nD) : W10 m ρ c (Proc.devRef .tc main_arg6) = m ((c : Thread nD τ).loc main_arg6) :=
  (W10_of_ne m ρ c main_arg6 (by decide)).trans (W9_main_arg6 m ρ c)
theorem W11_main_arg6 (c : Dev nD) : W11 m ρ c (Proc.devRef .tc main_arg6) = m ((c : Thread nD τ).loc main_arg6) :=
  (W11_of m ρ c main_arg6 (by decide)).trans (W10_main_arg6 m ρ c)

theorem W0_main_arg7 (c : Dev nD) : W0 m ρ c (Proc.devRef .tc main_arg7) = m ((c : Thread nD τ).loc main_arg7) := rfl
theorem W1_main_arg7 (c : Dev nD) : W1 m ρ c (Proc.devRef .tc main_arg7) = m ((c : Thread nD τ).loc main_arg7) :=
  (W1_of m ρ c main_arg7 (by decide)).trans (W0_main_arg7 m ρ c)
theorem W2_main_arg7 (c : Dev nD) : W2 m ρ c (Proc.devRef .tc main_arg7) = m ((c : Thread nD τ).loc main_arg7) :=
  (W2_of_ne m ρ c main_arg7 (by decide)).trans (W1_main_arg7 m ρ c)
theorem W3_main_arg7 (c : Dev nD) : W3 m ρ c (Proc.devRef .tc main_arg7) = m ((c : Thread nD τ).loc main_arg7) :=
  (W3_of m ρ c main_arg7 (by decide)).trans (W2_main_arg7 m ρ c)
theorem W4_main_arg7 (c : Dev nD) : W4 m ρ c (Proc.devRef .tc main_arg7) = m ((c : Thread nD τ).loc main_arg7) :=
  (W4_of_ne m ρ c main_arg7 (by decide)).trans (W3_main_arg7 m ρ c)
theorem W5_main_arg7 (c : Dev nD) : W5 m ρ c (Proc.devRef .tc main_arg7) = m ((c : Thread nD τ).loc main_arg7) :=
  (W5_of m ρ c main_arg7 (by decide)).trans (W4_main_arg7 m ρ c)
theorem W6_main_arg7 (c : Dev nD) : W6 m ρ c (Proc.devRef .tc main_arg7) = m ((c : Thread nD τ).loc main_arg7) :=
  (W6_of_ne m ρ c main_arg7 (by decide)).trans (W5_main_arg7 m ρ c)
theorem W7_main_arg7 (c : Dev nD) : W7 m ρ c (Proc.devRef .tc main_arg7) = m ((c : Thread nD τ).loc main_arg7) :=
  (W7_of m ρ c main_arg7 (by decide)).trans (W6_main_arg7 m ρ c)
theorem W8_main_arg7 (c : Dev nD) : W8 m ρ c (Proc.devRef .tc main_arg7) = m ((c : Thread nD τ).loc main_arg7) :=
  (W8_of_ne m ρ c main_arg7 (by decide)).trans (W7_main_arg7 m ρ c)
theorem W9_main_arg7 (c : Dev nD) : W9 m ρ c (Proc.devRef .tc main_arg7) = m ((c : Thread nD τ).loc main_arg7) :=
  (W9_of m ρ c main_arg7 (by decide)).trans (W8_main_arg7 m ρ c)
theorem W10_main_arg7 (c : Dev nD) : W10 m ρ c (Proc.devRef .tc main_arg7) = m ((c : Thread nD τ).loc main_arg7) :=
  (W10_of_ne m ρ c main_arg7 (by decide)).trans (W9_main_arg7 m ρ c)
theorem W11_main_arg7 (c : Dev nD) : W11 m ρ c (Proc.devRef .tc main_arg7) = m ((c : Thread nD τ).loc main_arg7) :=
  (W11_of m ρ c main_arg7 (by decide)).trans (W10_main_arg7 m ρ c)

theorem W0_main_arg8 (c : Dev nD) : W0 m ρ c (Proc.devRef .tc main_arg8) = m ((c : Thread nD τ).loc main_arg8) := rfl
theorem W1_main_arg8 (c : Dev nD) : W1 m ρ c (Proc.devRef .tc main_arg8) = m ((c : Thread nD τ).loc main_arg8) :=
  (W1_of m ρ c main_arg8 (by decide)).trans (W0_main_arg8 m ρ c)
theorem W2_main_arg8 (c : Dev nD) : W2 m ρ c (Proc.devRef .tc main_arg8) = m ((c : Thread nD τ).loc main_arg8) :=
  (W2_of_ne m ρ c main_arg8 (by decide)).trans (W1_main_arg8 m ρ c)
theorem W3_main_arg8 (c : Dev nD) : W3 m ρ c (Proc.devRef .tc main_arg8) = m ((c : Thread nD τ).loc main_arg8) :=
  (W3_of m ρ c main_arg8 (by decide)).trans (W2_main_arg8 m ρ c)
theorem W4_main_arg8 (c : Dev nD) : W4 m ρ c (Proc.devRef .tc main_arg8) = m ((c : Thread nD τ).loc main_arg8) :=
  (W4_of_ne m ρ c main_arg8 (by decide)).trans (W3_main_arg8 m ρ c)
theorem W5_main_arg8 (c : Dev nD) : W5 m ρ c (Proc.devRef .tc main_arg8) = m ((c : Thread nD τ).loc main_arg8) :=
  (W5_of m ρ c main_arg8 (by decide)).trans (W4_main_arg8 m ρ c)
theorem W6_main_arg8 (c : Dev nD) : W6 m ρ c (Proc.devRef .tc main_arg8) = m ((c : Thread nD τ).loc main_arg8) :=
  (W6_of_ne m ρ c main_arg8 (by decide)).trans (W5_main_arg8 m ρ c)
theorem W7_main_arg8 (c : Dev nD) : W7 m ρ c (Proc.devRef .tc main_arg8) = m ((c : Thread nD τ).loc main_arg8) :=
  (W7_of m ρ c main_arg8 (by decide)).trans (W6_main_arg8 m ρ c)
theorem W8_main_arg8 (c : Dev nD) : W8 m ρ c (Proc.devRef .tc main_arg8) = m ((c : Thread nD τ).loc main_arg8) :=
  (W8_of_ne m ρ c main_arg8 (by decide)).trans (W7_main_arg8 m ρ c)
theorem W9_main_arg8 (c : Dev nD) : W9 m ρ c (Proc.devRef .tc main_arg8) = m ((c : Thread nD τ).loc main_arg8) :=
  (W9_of m ρ c main_arg8 (by decide)).trans (W8_main_arg8 m ρ c)
theorem W10_main_arg8 (c : Dev nD) : W10 m ρ c (Proc.devRef .tc main_arg8) = m ((c : Thread nD τ).loc main_arg8) :=
  (W10_of_ne m ρ c main_arg8 (by decide)).trans (W9_main_arg8 m ρ c)
theorem W11_main_arg8 (c : Dev nD) : W11 m ρ c (Proc.devRef .tc main_arg8) = m ((c : Thread nD τ).loc main_arg8) :=
  (W11_of m ρ c main_arg8 (by decide)).trans (W10_main_arg8 m ρ c)

/-! ## The degree tables after the first stretch -/
theorem W2_main_v19 (c : Dev nD) : W2 m ρ c (Proc.devRef .tc main_v19) = W1 m ρ c (Proc.devRef .tc main_v19) :=
  (W2_of_ne m ρ c main_v19 (by decide))
theorem W3_main_v19 (c : Dev nD) : W3 m ρ c (Proc.devRef .tc main_v19) = W1 m ρ c (Proc.devRef .tc main_v19) :=
  (W3_of m ρ c main_v19 (by decide)).trans (W2_main_v19 m ρ c)
theorem W4_main_v19 (c : Dev nD) : W4 m ρ c (Proc.devRef .tc main_v19) = W1 m ρ c (Proc.devRef .tc main_v19) :=
  (W4_of_ne m ρ c main_v19 (by decide)).trans (W3_main_v19 m ρ c)
theorem W5_main_v19 (c : Dev nD) : W5 m ρ c (Proc.devRef .tc main_v19) = W1 m ρ c (Proc.devRef .tc main_v19) :=
  (W5_of m ρ c main_v19 (by decide)).trans (W4_main_v19 m ρ c)
theorem W6_main_v19 (c : Dev nD) : W6 m ρ c (Proc.devRef .tc main_v19) = W1 m ρ c (Proc.devRef .tc main_v19) :=
  (W6_of_ne m ρ c main_v19 (by decide)).trans (W5_main_v19 m ρ c)
theorem W7_main_v19 (c : Dev nD) : W7 m ρ c (Proc.devRef .tc main_v19) = W1 m ρ c (Proc.devRef .tc main_v19) :=
  (W7_of m ρ c main_v19 (by decide)).trans (W6_main_v19 m ρ c)
theorem W8_main_v19 (c : Dev nD) : W8 m ρ c (Proc.devRef .tc main_v19) = W1 m ρ c (Proc.devRef .tc main_v19) :=
  (W8_of_ne m ρ c main_v19 (by decide)).trans (W7_main_v19 m ρ c)
theorem W9_main_v19 (c : Dev nD) : W9 m ρ c (Proc.devRef .tc main_v19) = W1 m ρ c (Proc.devRef .tc main_v19) :=
  (W9_of m ρ c main_v19 (by decide)).trans (W8_main_v19 m ρ c)
theorem W10_main_v19 (c : Dev nD) : W10 m ρ c (Proc.devRef .tc main_v19) = W1 m ρ c (Proc.devRef .tc main_v19) :=
  (W10_of_ne m ρ c main_v19 (by decide)).trans (W9_main_v19 m ρ c)
theorem W11_main_v19 (c : Dev nD) : W11 m ρ c (Proc.devRef .tc main_v19) = W1 m ρ c (Proc.devRef .tc main_v19) :=
  (W11_of m ρ c main_v19 (by decide)).trans (W10_main_v19 m ρ c)
theorem W12_main_v19 (c : Dev nD) : W12 m ρ c (Proc.devRef .tc main_v19) = W1 m ρ c (Proc.devRef .tc main_v19) :=
  (W12_of_ne m ρ c main_v19 (by decide)).trans (W11_main_v19 m ρ c)
theorem W2_main_v38 (c : Dev nD) : W2 m ρ c (Proc.devRef .tc main_v38) = W1 m ρ c (Proc.devRef .tc main_v38) :=
  (W2_of_ne m ρ c main_v38 (by decide))
theorem W3_main_v38 (c : Dev nD) : W3 m ρ c (Proc.devRef .tc main_v38) = W1 m ρ c (Proc.devRef .tc main_v38) :=
  (W3_of m ρ c main_v38 (by decide)).trans (W2_main_v38 m ρ c)
theorem W4_main_v38 (c : Dev nD) : W4 m ρ c (Proc.devRef .tc main_v38) = W1 m ρ c (Proc.devRef .tc main_v38) :=
  (W4_of_ne m ρ c main_v38 (by decide)).trans (W3_main_v38 m ρ c)
theorem W5_main_v38 (c : Dev nD) : W5 m ρ c (Proc.devRef .tc main_v38) = W1 m ρ c (Proc.devRef .tc main_v38) :=
  (W5_of m ρ c main_v38 (by decide)).trans (W4_main_v38 m ρ c)
theorem W6_main_v38 (c : Dev nD) : W6 m ρ c (Proc.devRef .tc main_v38) = W1 m ρ c (Proc.devRef .tc main_v38) :=
  (W6_of_ne m ρ c main_v38 (by decide)).trans (W5_main_v38 m ρ c)
theorem W7_main_v38 (c : Dev nD) : W7 m ρ c (Proc.devRef .tc main_v38) = W1 m ρ c (Proc.devRef .tc main_v38) :=
  (W7_of m ρ c main_v38 (by decide)).trans (W6_main_v38 m ρ c)
theorem W8_main_v38 (c : Dev nD) : W8 m ρ c (Proc.devRef .tc main_v38) = W1 m ρ c (Proc.devRef .tc main_v38) :=
  (W8_of_ne m ρ c main_v38 (by decide)).trans (W7_main_v38 m ρ c)
theorem W9_main_v38 (c : Dev nD) : W9 m ρ c (Proc.devRef .tc main_v38) = W1 m ρ c (Proc.devRef .tc main_v38) :=
  (W9_of m ρ c main_v38 (by decide)).trans (W8_main_v38 m ρ c)
theorem W10_main_v38 (c : Dev nD) : W10 m ρ c (Proc.devRef .tc main_v38) = W1 m ρ c (Proc.devRef .tc main_v38) :=
  (W10_of_ne m ρ c main_v38 (by decide)).trans (W9_main_v38 m ρ c)
theorem W11_main_v38 (c : Dev nD) : W11 m ρ c (Proc.devRef .tc main_v38) = W1 m ρ c (Proc.devRef .tc main_v38) :=
  (W11_of m ρ c main_v38 (by decide)).trans (W10_main_v38 m ρ c)
theorem W12_main_v38 (c : Dev nD) : W12 m ρ c (Proc.devRef .tc main_v38) = W1 m ρ c (Proc.devRef .tc main_v38) :=
  (W12_of_ne m ρ c main_v38 (by decide)).trans (W11_main_v38 m ρ c)

/-! ## A region's output array after the next stretch -/

theorem W3_prev (c : Dev nD) : W3 m ρ c (Proc.devRef .tc main_v134) = (dat0 (V1 m ρ) c).arrAt 3 cfg0.N :=
  (W3_of m ρ c main_v134 (by decide)).trans (W2_out m ρ c)

theorem W5_prev (c : Dev nD) : W5 m ρ c (Proc.devRef .tc main_v234) = (dat1 (V3 m ρ) c).arrAt 3 cfg1.N :=
  (W5_of m ρ c main_v234 (by decide)).trans (W4_out m ρ c)

theorem W7_prev (c : Dev nD) : W7 m ρ c (Proc.devRef .tc main_v334) = (dat2 (V5 m ρ) c).arrAt 3 cfg2.N :=
  (W7_of m ρ c main_v334 (by decide)).trans (W6_out m ρ c)

theorem W9_prev (c : Dev nD) : W9 m ρ c (Proc.devRef .tc main_v434) = (dat3 (V7 m ρ) c).arrAt 3 cfg3.N :=
  (W9_of m ρ c main_v434 (by decide)).trans (W8_out m ρ c)

theorem W11_prev (c : Dev nD) : W11 m ρ c (Proc.devRef .tc main_v534) = (dat4 (V9 m ρ) c).arrAt 3 cfg4.N :=
  (W11_of m ρ c main_v534 (by decide)).trans (W10_out m ρ c)

end Cert.KernelIdeal.Hand

end
-- ==== Proof.KValue0.lean ====
/-
  Region 0: the values. Each case's found pieces read back as the body's payloads; the accumulator after a
  point is the running sum of its row tile's relations; the output array ends, row tile by row tile, at the
  activated mean of the three relations' tile products.
-/
import proofs.«165758_j22333829939343_1_alg».proof.Proof.KBody0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem hz2_0 : (![0, 0] : Fin 2 → Nat) = fun _ => 0 := funext fun a => by fin_cases a <;> rfl
theorem hz3_0 : (![0, 0, 0] : Fin 3 → Nat) = fun _ => 0 := funext fun a => by fin_cases a <;> rfl

/-- A relation-0 point leaves the accumulator at zero plus the relation's tile product. -/
theorem sout0_A_eq (c : Dev nD) (i : grid0.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond0_0 i) (hc1 : ¬cond0_1 i) (x0 : Vec F S1x2000x128 .f32) (x1 : Vec F S1x128x128 .f32) (x2 : Vec F S1x1x128 .f32) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S2000x128) hz2_0, View.readCov_unit_zero (S := S2000x128) _ hz2_0]
  simp only [View.readAt_eq_ld, harg2.read_unread, harg3.read_unread, harg4.read_unread,
    View.ld_unit_zero (S := S1x2000x128) hz3_0, View.ld_unit_zero (S := S1x128x128) hz3_0, View.ld_unit_zero (S := S1x1x128) hz3_0]

/-- A relation-1 point adds the relation's tile product to the accumulator. -/
theorem sout0_B_eq (c : Dev nD) (i : grid0.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond0_0 i) (hc1 : ¬cond0_1 i) (x0 : Vec F S1x2000x128 .f32) (x1 : Vec F S1x128x128 .f32) (x2 : Vec F S1x1x128 .f32) (xs0 : Vec F S2000x128 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz2_0]
  simp only [View.readAt_eq_ld, harg2.read_unread, harg3.read_unread, harg4.read_unread, harg6.read_unread,
    View.ld_unit_zero (S := S1x2000x128) hz3_0, View.ld_unit_zero (S := S1x128x128) hz3_0, View.ld_unit_zero (S := S1x1x128) hz3_0,
    View.ld_unit_zero (S := S2000x128) hz2_0]

/-- So does a relation-2 point, -/
theorem sout0_C_eq (c : Dev nD) (i : grid0.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond0_0 i) (hc1 : cond0_1 i) (x0 : Vec F S1x2000x128 .f32) (x1 : Vec F S1x128x128 .f32) (x2 : Vec F S1x1x128 .f32) (xs0 : Vec F S2000x128 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2_0]
  simp only [View.readAt_eq_ld, harg2.read_unread, harg3.read_unread, harg4.read_unread, harg6.read_unread,
    View.ld_unit_zero (S := S1x2000x128) hz3_0, View.ld_unit_zero (S := S1x128x128) hz3_0, View.ld_unit_zero (S := S1x1x128) hz3_0,
    View.ld_unit_zero (S := S2000x128) hz2_0]

/-- and it stores the activated mean of the new accumulator into the output block. -/
theorem out0_C_eq (c : Dev nD) (i : grid0.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond0_0 i) (hc1 : cond0_1 i) (x0 : Vec F S1x2000x128 .f32) (x1 : Vec F S1x128x128 .f32) (x2 : Vec F S1x1x128 .f32) (xs0 : Vec F S2000x128 .f32) :
    out0_C_3 c i arg2 harg2 arg3 harg3 arg4 harg4 arg5 harg5 arg6 harg6 hc0 hc1 x0 x1 x2 xs0 = k0_pay3 (k0_pay2 x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz2_0, View.readCov_unit_zero (S := S2000x128) _ hz2_0]
  simp only [View.readAt_eq_ld, harg2.read_unread, harg3.read_unread, harg4.read_unread, harg6.read_unread,
    View.ld_unit_zero (S := S1x2000x128) hz3_0, View.ld_unit_zero (S := S1x128x128) hz3_0, View.ld_unit_zero (S := S1x1x128) hz3_0,
    View.ld_unit_zero (S := S2000x128) hz2_0]

/-! ## The running sum -/

/-- One point's step: the accumulator plus this point's relation's tile product (its three input blocks). -/
def step0 (c : Dev nD) (t : Fin cfg0.N) (acc : Vec F S2000x128 .f32) : Vec F S2000x128 .f32 :=
  k0_pay2 (iblk0 V c 0 t) (iblk0 V c 1 t) (iblk0 V c 2 t) acc

/-- The accumulator after point n: restarted from zero at relation 0. -/
def accAt0 (c : Dev nD) : (n : ℕ) → n < cfg0.N → Vec F S2000x128 .f32
  | 0, h => step0 V c ⟨0, h⟩ (k0_pay1 (F := F))
  | n + 1, h => if (n + 1) % 3 = 0 then step0 V c ⟨n + 1, h⟩ (k0_pay1 (F := F)) else step0 V c ⟨n + 1, h⟩ (accAt0 c n (Nat.lt_of_succ_lt h))

theorem accAt0_succ (c : Dev nD) (n : ℕ) (h : n + 1 < cfg0.N) :
    accAt0 V c (n + 1) h = (if (n + 1) % 3 = 0 then step0 V c ⟨n + 1, h⟩ (k0_pay1 (F := F)) else step0 V c ⟨n + 1, h⟩ (accAt0 V c n (Nat.lt_of_succ_lt h))) := rfl

set_option maxHeartbeats 4000000 in
theorem outsAt0_snd (c : Dev nD) : ∀ (n : ℕ) (h : n < cfg0.N), (outsAt0 V c n h).2 = accAt0 V c n h
  | 0, h => by
    have hc1 : ¬cond0_1 (grid0.coords ⟨0, h⟩) := fun hh => by
      have h2 : (0 : ℕ) % 3 = 2 := (hcond0_1 ⟨0, h⟩).mp hh
      omega
    rw [outsAt0_A V c ⟨0, h⟩ rfl hc1]
    dsimp only
    exact sout0_A_eq (F := F) ..
  | n + 1, h => by
    by_cases h0 : (n + 1) % 3 = 0
    · have hc1 : ¬cond0_1 (grid0.coords ⟨n + 1, h⟩) := fun hh => by
        have h2 : (n + 1) % 3 = 2 := (hcond0_1 ⟨n + 1, h⟩).mp hh
        omega
      rw [outsAt0_A V c ⟨n + 1, h⟩ h0 hc1, accAt0_succ, if_pos h0]
      dsimp only
      exact sout0_A_eq (F := F) ..
    · by_cases h1 : (n + 1) % 3 = 2
      · rw [outsAt0_C V c ⟨n + 1, h⟩ h0 h1, accAt0_succ, if_neg h0]
        dsimp only
        refine (sout0_C_eq (F := F) ..).trans ?_
        show k0_pay2 _ _ _ (outsAt0 V c n _).2 = _
        rw [outsAt0_snd c n]; rfl
      · rw [outsAt0_B V c ⟨n + 1, h⟩ h0 h1, accAt0_succ, if_neg h0]
        dsimp only
        refine (sout0_B_eq (F := F) ..).trans ?_
        show k0_pay2 _ _ _ (outsAt0 V c n _).2 = _
        rw [outsAt0_snd c n]; rfl

set_option maxHeartbeats 4000000 in
/-- At a relation-2 point the output block holds the activated mean of the accumulator. -/
theorem outsAt0_fst (c : Dev nD) (t : Fin cfg0.N) (h1 : t.val % 3 = 2) :
    (outsAt0 V c t.val t.isLt).1 = k0_pay3 (accAt0 V c t.val t.isLt) := by
  have h0 : ¬t.val % 3 = 0 := by omega
  rw [← outsAt0_snd V c t.val t.isLt, outsAt0_C V c t h0 h1]
  dsimp only
  refine (out0_C_eq (F := F) ..).trans ?_
  exact congrArg k0_pay3 (sout0_C_eq (F := F) ..).symm

end Cert.KernelIdeal.Hand

end
-- ==== Proof.KFinal0.lean ====
/-
  Region 0: from blocks to the array. Row tile I of the output array is written back once, after its
  relation-2 point 3·I + 2, and holds the activated mean of that point's accumulator; the 25 row tiles cover
  the array.
-/
import proofs.«165758_j22333829939343_1_alg».proof.Proof.KValue0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

open ValueIdx in
/-- The output array after the region, entry by entry: entry (i, q) lies in row tile i / 2000. -/
def G0 (c : Dev nD) : S50000x128.Idx → Elt F .f32 := fun j =>
  k0_pay3 (accAt0 V c (3 * ((j 0).val / 2000) + 2) (by
      have h0 : (j 0).val < 50000 := (j 0).isLt
      have hN : cfg0.N = 75 := N_0
      have hN' : grid0.N = 75 := N_0
      omega))
    (ix2 (⟨(j 0).val % 2000, Nat.mod_lt _ (by decide)⟩ : Fin 2000) ((j 1 : Fin 128)))

theorem tile0_congr (c : Dev nD) {n n' : ℕ} (hn : n < cfg0.N) (hn' : n' < cfg0.N) (e : n = n') {y y' : S2000x128.Idx} (ey : y = y') :
    k0_pay3 (accAt0 V c n hn) y = k0_pay3 (accAt0 V c n' hn') y' := by
  subst e; subst ey; rfl

/-- The output window's block index at point t is its row tile, t / 3 (decided over the grid). -/
theorem idx_facts0_3 : ∀ t : Fin cfg0.N, win0_3.index t (0 : Fin 2) = t.val / 3 ∧ win0_3.index t (1 : Fin 2) = 0 :=
  (by decide +kernel : ∀ t : Fin grid0.N, win0_3.index t (0 : Fin 2) = t.val / 3 ∧ win0_3.index t (1 : Fin 2) = 0)

/-- What a relation-2 point writes back is its row tile of G0. -/
theorem flushed0_eq (c : Dev nD) (t : Fin cfg0.N) (hf : (cfg0.win 3).flush t = true) :
    (dat0 V c).flushed 3 t = ((cfg0.win 3).blk t).view.read (Elt F) (G0 V c) := by
  have h1 : t.val % 3 = 2 := (flush0_3 t).mp hf
  show (cfg0.win 3).cut (grid0.coords t) ((dat0 V c).after 3 t) = _
  rw [after0_3, outsAt0_fst V c t h1]
  obtain ⟨e0, e1⟩ := idx_facts0_3 t
  funext y
  have hy0 : (y 0).val < 2000 := (y 0).isLt
  have he0 : ((((cfg0.win 3).blk t).view.emb y) 0).val = t.val / 3 * 2000 + (y 0).val := by
    show win0_3.index t (0 : Fin 2) * 2000 + 1 * (y 0).val = _
    rw [e0]; omega
  have he1 : ((((cfg0.win 3).blk t).view.emb y) 1).val = (y 1).val := by
    show win0_3.index t (1 : Fin 2) * 128 + 1 * (y 1).val = _
    rw [e1]; omega
  show k0_pay3 (accAt0 V c t.val t.isLt) y = G0 V c (((cfg0.win 3).blk t).view.emb y)
  unfold G0
  refine tile0_congr V c _ _ (by rw [he0]; omega) (funext fun a => ?_)
  match a with
  | ⟨0, _⟩ => exact Fin.ext (by show (y 0).val = _ % 2000; rw [he0]; omega)
  | ⟨1, _⟩ => exact Fin.ext he1.symm

theorem mem_blk0_3 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v134).slice (win0_3.rect t)).set ↔ _
  rw [View.set_slice_whole, Rect.mem_set_unit]
  exact Iff.rfl

/-- The output array after the region is G0. -/
theorem final0 (c : Dev nD) : (dat0 V c).arrAt 3 cfg0.N = G0 V c :=
  (dat0 V c).arrAt_eq_of_cover 3 (G0 V c) (flushed0_eq V c) fun i => by
    have h0 : (i 0).val < 50000 := (i 0).isLt
    have h1 : (i 1).val < 128 := (i 1).isLt
    have hN : cfg0.N = 75 := N_0
    have hN' : grid0.N = 75 := N_0
    refine ⟨⟨3 * ((i 0).val / 2000) + 2, by omega⟩, (flush0_3 _).mpr (by show (3 * ((i 0).val / 2000) + 2) % 3 = 2; omega), ?_⟩
    rw [mem_blk0_3]
    obtain ⟨e0, e1⟩ := idx_facts0_3 ⟨3 * ((i 0).val / 2000) + 2, by omega⟩
    have e0' : win0_3.index ⟨3 * ((i 0).val / 2000) + 2, by omega⟩ (0 : Fin 2) = (i 0).val / 2000 := by rw [e0]; show (3 * ((i 0).val / 2000) + 2) / 3 = _; omega
    intro a
    match a with
    | ⟨0, _⟩ => show win0_3.index _ (0 : Fin 2) * 2000 ≤ (i 0).val ∧ (i 0).val < win0_3.index _ (0 : Fin 2) * 2000 + 2000; rw [e0']; omega
    | ⟨1, _⟩ => show win0_3.index _ (1 : Fin 2) * 128 ≤ (i 1).val ∧ (i 1).val < win0_3.index _ (1 : Fin 2) * 128 + 128; rw [e1]; omega

end Cert.KernelIdeal.Hand

end
-- ==== Proof.LibTiles.lean ====
/-
  Two-dimensional tiles over the extended reals, read entry by entry.

  * a product of an m×k tile by a k×n tile accumulated into the zero tile: entry (a, b) is the sum over the contracted
    coordinate of the products of the entries;
  * a column (an m×1 tile) laid across n columns: entry (a, b) is the column's entry a;
  * a row (a 1×n tile) laid down m rows: entry (a, b) is the row's entry b.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibTiles

open Idealize.ShloMosaic Idealize.ShloMosaic.ValueIdx

variable {m n : Nat}

/-- The product of an m×k tile by a k×n tile (left operand contracted on its columns, right operand on its rows, no
    batch axes), accumulated into the zero tile, read at entry (a, b): the sum over the contracted coordinate `c` of
    `A (a, c) * B (c, b)`. `w` is the well-formedness of the dimension numbers, which a program states. -/
theorem matmul_zero_apply {k : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column laid across the columns of an m×n tile, read at entry (a, b): the column's entry `a`. -/
theorem broadcast_col_apply {α : Type} (x : (⟨2, ![m, 1]⟩ : Shape).Idx → α)
    (h : (⟨2, ![m, 1]⟩ : Shape).Broadcasts ⟨2, ![m, n]⟩) (a : Fin m) (b : Fin n) :
    broadcastTo ⟨2, ![m, n]⟩ x h (ix2 a b) = x (ix2 a (0 : Fin 1)) := by
  refine broadcastTo_apply x h (ix2 a b) (ix2 a (0 : Fin 1)) ?_
  intro ax
  match ax with
  | ⟨0, _⟩ =>
    show a.val = if m = 1 then 0 else a.val
    split
    · have := a.isLt; omega
    · rfl
  | ⟨1, _⟩ => rfl

/-- A row laid down the rows of an m×n tile, read at entry (a, b): the row's entry `b`. -/
theorem broadcast_row_apply {α : Type} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 (0 : Fin 1) b) := by
  refine broadcastTo_apply x h (ix2 a b) (ix2 (0 : Fin 1) b) ?_
  intro ax
  match ax with
  | ⟨0, _⟩ => rfl
  | ⟨1, _⟩ =>
    show b.val = if n = 1 then 0 else b.val
    split
    · have := b.isLt; omega
    · rfl

end Cert.LibTiles

end
-- ==== Proof.LayerLaw.lean ====
/-
  The arithmetic that joins the two spellings of one graph-convolution layer, on the extended reals.

  The kernel accumulates the three relations' contributions one after another into a cleared accumulator,
  `((0 + t₀) + t₁) + t₂`; the reference stacks the three contributions and sums the stack from an initial zero,
  `0 + (t₀ + t₁ + t₂)`. Addition of extended reals is associative and 0 is neutral at every value, infinite ones
  included, so the two agree with no finiteness hypothesis. Both then multiply by 1/3 and apply the same leaky rectifier.
-/
import Idealize.ShloMosaic.PureOps.Ideal

noncomputable section

namespace Cert.Layer

open Idealize.ShloMosaic

/-- The slope of the leaky rectifier below zero, as both programs spell it (the single-precision number nearest 0.01);
    its value is never needed: both sides multiply by the same number. -/
def c01 : EReal := Ideal.ofBits .f32 0x3C23D70A#32

/-- The leaky rectifier on the extended reals. -/
def leaky (x : EReal) : EReal := if 0 ≤ x then x else c01 * x

/-- A choice by the one-bit answer of "is `x` at least zero" is the choice by the proposition `0 ≤ x`. -/
theorem select_oge_zero (x a b : EReal) : Scalar.select (Ideal.cmp .oge x 0) a b = if 0 ≤ x then a else b := by
  unfold Scalar.select Ideal.cmp
  by_cases h : 0 ≤ x <;> simp [h]

/-- The compare-scale-choose spelling of the leaky rectifier. -/
theorem select_leaky (x : EReal) : Scalar.select (Ideal.cmp .oge x 0) x (c01 * x) = leaky x :=
  select_oge_zero x x (c01 * x)

/-- Accumulating three terms into zero one by one is zero plus their sum. -/
theorem acc3_eq (x0 x1 x2 : EReal) : ((0 + x0) + x1) + x2 = 0 + (x0 + x1 + x2) := by
  rw [zero_add, zero_add]

/-- The same with the terms of the two sides only known equal one by one. -/
theorem acc3_congr {x0 x1 x2 y0 y1 y2 : EReal} (h0 : x0 = y0) (h1 : x1 = y1) (h2 : x2 = y2) :
    ((0 + x0) + x1) + x2 = 0 + (y0 + y1 + y2) := by
  rw [h0, h1, h2, acc3_eq]

/-- One inner layer at an entry: the kernel's accumulate-scale-rectify equals the reference's sum-scale-rectify when the
    three relations' contributions agree. -/
theorem layer_join {x0 x1 x2 y0 y1 y2 : EReal} (h0 : x0 = y0) (h1 : x1 = y1) (h2 : x2 = y2) (c : EReal) :
    leaky ((((0 + x0) + x1) + x2) * c) = leaky ((0 + (y0 + y1 + y2)) * c) := by
  rw [acc3_congr h0 h1 h2]

/-- The last layer at an entry: no rectifier. -/
theorem layer_join_last {x0 x1 x2 y0 y1 y2 : EReal} (h0 : x0 = y0) (h1 : x1 = y1) (h2 : x2 = y2) (c : EReal) :
    (((0 + x0) + x1) + x2) * c = (0 + (y0 + y1 + y2)) * c := by
  rw [acc3_congr h0 h1 h2]

end Cert.Layer

end
-- ==== Proof.LayerTile.lean ====
/-
  One row tile of a graph-convolution layer over the extended reals, read entry by entry.

  The kernel walks the three relations of a row tile. At relation 0 it clears a 2000×128 accumulator; at every relation r it
  adds to the accumulator the product of the tile of aggregated features (2000×128, met as a [1,2000,128] block) with that
  relation's weight matrix (128×128, met as a [1,128,128] block), plus the relation's bias row (met as a [1,1,128] block)
  laid down the 2000 rows; after relation 2 it scales the accumulator by 1/3 and (in all layers but the last) applies the
  leaky rectifier  x ↦ x  for 0 ≤ x,  x ↦ c·x  otherwise.  The final kernel is one product of a 2000×128 tile with a 128×64
  matrix plus a bias row.

  Every statement is at an entry (p, q) of the tile and says which real-number expression stands there: a sum over the
  contracted coordinate k of products of entries, plus the bias entry.
-/
import proofs.«165758_j22333829939343_1_alg».proof.Proof.Gen.KernelIdeal.Skeleton
import proofs.«165758_j22333829939343_1_alg».proof.Proof.LibTiles
import proofs.«165758_j22333829939343_1_alg».proof.Proof.LayerLaw
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

namespace Cert.Layer

open Idealize.ShloMosaic Idealize.ShloMosaic.ValueIdx

section Kernel
open Cert.KernelIdeal Cert.KernelIdeal.Gen

/-- The named constant of the scaling step is the rational 1/3. -/
theorem inv_3 : Named.named (F := Ideal) Cert.KernelIdeal.κ "inv_3" (φ := .f32) 0x3EAAAAAB#32 = ((1 / 3 : ℝ) : EReal) :=
  IdealRules.named_const.ideal_named_scalar _ _ _ _ rfl

/-- The cleared accumulator holds zero everywhere. -/
theorem k0_pay1_apply (p : Fin 2000) (q : Fin 128) : k0_pay1 (F := Ideal) (ix2 p q) = 0 := by
  show Ideal.ofBits .f32 0x00000000#32 = 0
  exact Ideal.ofBits_zero_f32

/-- One accumulation step at entry (p, q): the accumulator's entry plus row p of the feature tile times column q of the
    weight matrix plus the bias entry q. -/
theorem k0_pay2_apply (a : Vec Ideal S1x2000x128 .f32) (w : Vec Ideal S1x128x128 .f32) (b : Vec Ideal S1x1x128 .f32)
    (acc : Vec Ideal S2000x128 .f32) (p : Fin 2000) (q : Fin 128) :
    k0_pay2 a w b acc (ix2 p q)
      = acc (ix2 p q) + ((∑ k : Fin 128, a (ix3 (0 : Fin 1) p k) * w (ix3 (0 : Fin 1) k q)) + b (ix3 (0 : Fin 1) (0 : Fin 1) q)) := by
  have e : k0_pay2 a w b acc = addf (F := Ideal) (φ := .f32) acc (addf (F := Ideal) (φ := .f32)
      (matmul (F := Ideal) (φ₁ := .f32) (φ₂ := .f32) dot_S2000x128_S128x128_S2000x128_1_0_0_1_n_n none
        (shapeCast S2000x128 a shapeCasts_S1x2000x128_S2000x128)
        (shapeCast S128x128 w shapeCasts_S1x128x128_S128x128) (constant S2000x128 .f32 0x00000000#32))
      (broadcastTo S2000x128 (shapeCast S1x128 b shapeCasts_S1x1x128_S1x128) broadcasts_S1x128_S2000x128)) := by
    unfold k0_pay2
    exact shapeCast_self _ _
  have hm : matmul (F := Ideal) (φ₁ := .f32) (φ₂ := .f32) dot_S2000x128_S128x128_S2000x128_1_0_0_1_n_n none
        (shapeCast S2000x128 a shapeCasts_S1x2000x128_S2000x128)
        (shapeCast S128x128 w shapeCasts_S1x128x128_S128x128) (constant (F := Ideal) S2000x128 .f32 0x00000000#32) (ix2 p q)
      = ∑ k : Fin 128, a (ix3 (0 : Fin 1) p k) * w (ix3 (0 : Fin 1) k q) := by
    refine (Cert.LibTiles.matmul_zero_apply (m := 2000) (n := 128) (k := 128) (φ₁ := .f32) (φ₂ := .f32)
      dot_S2000x128_S128x128_S2000x128_1_0_0_1_n_n_wf none _ _ p q).trans ?_
    refine Finset.sum_congr rfl fun k _ => ?_
    exact congrArg₂ (· * ·) (shapeCast_1ab_ab_apply a shapeCasts_S1x2000x128_S2000x128 p k)
      (shapeCast_1ab_ab_apply w shapeCasts_S1x128x128_S128x128 k q)
  have hb : broadcastTo S2000x128 (shapeCast S1x128 b shapeCasts_S1x1x128_S1x128) broadcasts_S1x128_S2000x128 (ix2 p q)
      = b (ix3 (0 : Fin 1) (0 : Fin 1) q) :=
    (broadcastTo_1b_ab_apply (a := 2000) (b := 128) _ broadcasts_S1x128_S2000x128 p q).trans
      (shapeCast_1ab_ab_apply b shapeCasts_S1x1x128_S1x128 (0 : Fin 1) q)
  rw [e, addf_apply, addf_apply, hm, hb]

/-- The closing step of layers 0 to 3 at an entry: scale by 1/3, then the leaky rectifier. -/
theorem k0_pay3_apply (v : Vec Ideal S2000x128 .f32) (p : Fin 2000) (q : Fin 128) :
    k0_pay3 v (ix2 p q) = leaky (v (ix2 p q) * ((1 / 3 : ℝ) : EReal)) := by
  show Scalar.select (Ideal.cmp .oge (v (ix2 p q) * Named.named (F := Ideal) Cert.KernelIdeal.κ "inv_3" (φ := .f32) 0x3EAAAAAB#32)
      (Ideal.ofBits .f32 0x00000000#32))
      (v (ix2 p q) * Named.named (F := Ideal) Cert.KernelIdeal.κ "inv_3" (φ := .f32) 0x3EAAAAAB#32)
      (Ideal.ofBits .f32 0x3C23D70A#32 * (v (ix2 p q) * Named.named (F := Ideal) Cert.KernelIdeal.κ "inv_3" (φ := .f32) 0x3EAAAAAB#32))
    = leaky _
  rw [inv_3, Ideal.ofBits_zero_f32]
  exact select_leaky _

/-- The closing step of the last layer at an entry: scale by 1/3 only. -/
theorem k4_pay3_apply (v : Vec Ideal S2000x128 .f32) (p : Fin 2000) (q : Fin 128) :
    k4_pay3 v (ix2 p q) = v (ix2 p q) * ((1 / 3 : ℝ) : EReal) := by
  show v (ix2 p q) * Named.named (F := Ideal) Cert.KernelIdeal.κ "inv_3" (φ := .f32) 0x3EAAAAAB#32 = _
  rw [inv_3]

/-- The final kernel at entry (p, q): row p of the tile times column q of the output weights plus the bias entry q. -/
theorem k5_pay1_apply (h : Vec Ideal S2000x128 .f32) (w : Vec Ideal S128x64 .f32) (b : Vec Ideal S1x64 .f32)
    (p : Fin 2000) (q : Fin 64) :
    k5_pay1 h w b (ix2 p q) = (∑ k : Fin 128, h (ix2 p k) * w (ix2 k q)) + b (ix2 (0 : Fin 1) q) := by
  have e : k5_pay1 h w b = addf (F := Ideal) (φ := .f32)
      (matmul (F := Ideal) (φ₁ := .f32) (φ₂ := .f32) dot_S2000x128_S128x64_S2000x64_1_0_0_1_n_n none
        (shapeCast S2000x128 h shapeCasts_S2000x128_S2000x128) w (constant S2000x64 .f32 0x00000000#32))
      (broadcastTo S2000x64 (shapeCast S1x64 b shapeCasts_S1x64_S1x64) broadcasts_S1x64_S2000x64) := rfl
  rw [e, shapeCast_self, shapeCast_self, addf_apply]
  refine congrArg₂ (· + ·) ?_ ?_
  · exact Cert.LibTiles.matmul_zero_apply (m := 2000) (n := 64) (k := 128) (φ₁ := .f32) (φ₂ := .f32)
      dot_S2000x128_S128x64_S2000x64_1_0_0_1_n_n_wf none h w p q
  · exact broadcastTo_1b_ab_apply (a := 2000) (b := 64) b broadcasts_S1x64_S2000x64 p q

/-! The five graph-convolution kernels print the same three payloads (the last one without the rectifier). -/

theorem k1_pay1_eq : @k1_pay1 = @k0_pay1 := rfl
theorem k2_pay1_eq : @k2_pay1 = @k0_pay1 := rfl
theorem k3_pay1_eq : @k3_pay1 = @k0_pay1 := rfl
theorem k4_pay1_eq : @k4_pay1 = @k0_pay1 := rfl
theorem k1_pay2_eq : @k1_pay2 = @k0_pay2 := rfl
theorem k2_pay2_eq : @k2_pay2 = @k0_pay2 := rfl
theorem k3_pay2_eq : @k3_pay2 = @k0_pay2 := rfl
theorem k4_pay2_eq : @k4_pay2 = @k0_pay2 := rfl
theorem k1_pay3_eq : @k1_pay3 = @k0_pay3 := rfl
theorem k2_pay3_eq : @k2_pay3 = @k0_pay3 := rfl
theorem k3_pay3_eq : @k3_pay3 = @k0_pay3 := rfl

/-- Three accumulation steps from the cleared accumulator, at an entry: `((0 + t₀) + t₁) + t₂`, with `t_r` the product
    entry plus the bias entry of relation r. -/
theorem three_steps_apply (a0 a1 a2 : Vec Ideal S1x2000x128 .f32) (w0 w1 w2 : Vec Ideal S1x128x128 .f32)
    (b0 b1 b2 : Vec Ideal S1x1x128 .f32) (p : Fin 2000) (q : Fin 128) :
    k0_pay2 a2 w2 b2 (k0_pay2 a1 w1 b1 (k0_pay2 a0 w0 b0 (k0_pay1 (F := Ideal)))) (ix2 p q)
      = ((0 + ((∑ k : Fin 128, a0 (ix3 (0 : Fin 1) p k) * w0 (ix3 (0 : Fin 1) k q)) + b0 (ix3 (0 : Fin 1) (0 : Fin 1) q)))
          + ((∑ k : Fin 128, a1 (ix3 (0 : Fin 1) p k) * w1 (ix3 (0 : Fin 1) k q)) + b1 (ix3 (0 : Fin 1) (0 : Fin 1) q)))
          + ((∑ k : Fin 128, a2 (ix3 (0 : Fin 1) p k) * w2 (ix3 (0 : Fin 1) k q)) + b2 (ix3 (0 : Fin 1) (0 : Fin 1) q)) := by
  rw [k0_pay2_apply, k0_pay2_apply, k0_pay2_apply, k0_pay1_apply]

end Kernel

end Cert.Layer

end
-- ==== Proof.LayerAlias.lean ====
/-
  The five graph-convolution kernels share their row-tile payloads (the same functions of the loaded blocks); these are
  the payloads' readings at an entry, stated once for all of them, and the final kernel's.
-/
import proofs.«165758_j22333829939343_1_alg».proof.Proof.LayerTile

noncomputable section

namespace Cert.Layer

open Idealize.ShloMosaic Idealize.ShloMosaic.ValueIdx Cert.KernelIdeal Cert.KernelIdeal.Gen

/-- The closing step with the rectifier (layers 0 to 3) at an entry. -/
theorem pay3_leaky_apply (v : Vec Ideal S2000x128 .f32) (p : Fin 2000) (q : Fin 128) :
    k0_pay3 v (ix2 p q) = leaky (v (ix2 p q) * ((1 / 3 : ℝ) : EReal)) := k0_pay3_apply v p q

/-- The closing step without the rectifier (the last layer) at an entry. -/
theorem pay3_scale_apply (v : Vec Ideal S2000x128 .f32) (p : Fin 2000) (q : Fin 128) :
    k4_pay3 v (ix2 p q) = v (ix2 p q) * ((1 / 3 : ℝ) : EReal) := k4_pay3_apply v p q

/-- Three accumulation steps from the cleared accumulator at an entry. -/
theorem pay2_steps_apply (a0 a1 a2 : Vec Ideal S1x2000x128 .f32) (w0 w1 w2 : Vec Ideal S1x128x128 .f32)
    (b0 b1 b2 : Vec Ideal S1x1x128 .f32) (p : Fin 2000) (q : Fin 128) :
    k0_pay2 a2 w2 b2 (k0_pay2 a1 w1 b1 (k0_pay2 a0 w0 b0 (k0_pay1 (F := Ideal)))) (ix2 p q)
      = ((0 + ((∑ k : Fin 128, a0 (ix3 (0 : Fin 1) p k) * w0 (ix3 (0 : Fin 1) k q)) + b0 (ix3 (0 : Fin 1) (0 : Fin 1) q)))
          + ((∑ k : Fin 128, a1 (ix3 (0 : Fin 1) p k) * w1 (ix3 (0 : Fin 1) k q)) + b1 (ix3 (0 : Fin 1) (0 : Fin 1) q)))
          + ((∑ k : Fin 128, a2 (ix3 (0 : Fin 1) p k) * w2 (ix3 (0 : Fin 1) k q)) + b2 (ix3 (0 : Fin 1) (0 : Fin 1) q)) :=
  three_steps_apply a0 a1 a2 w0 w1 w2 b0 b1 b2 p q

/-- The final kernel's payload at an entry. -/
theorem payOut_apply (h : Vec Ideal S2000x128 .f32) (w : Vec Ideal S128x64 .f32) (b : Vec Ideal S1x64 .f32)
    (p : Fin 2000) (q : Fin 64) :
    k5_pay1 h w b (ix2 p q) = (∑ k : Fin 128, h (ix2 p k) * w (ix2 k q)) + b (ix2 (0 : Fin 1) q) := k5_pay1_apply h w b p q

end Cert.Layer

end
-- ==== Proof.KEntry0.lean ====
/-
  Region 0 at an entry. Entry (i, q) of the region's output array lies in row tile I = i / 2000, row p = i % 2000. The
  three points of that row tile read relation r's block of the stacked features (rows 2000 I … 2000 I + 1999), its weight
  matrix and its bias row; the accumulator after the third point is three steps from the cleared one; the output entry is
  the leaky rectifier of a third of it. So the entry is a function of the three arrays the region reads, with no tile left
  in it.
-/
import proofs.«165758_j22333829939343_1_alg».proof.Proof.KFinal0
import proofs.«165758_j22333829939343_1_alg».proof.Proof.LayerAlias
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## Where a point's blocks sit in their arrays (decided over the grid) -/

/-- The feature window's block at point t: relation t % 3, row tile t / 3. -/
theorem idx_facts0_0 : ∀ t : Fin cfg0.N, win0_0.index t (0 : Fin 3) = t.val % 3 ∧ win0_0.index t (1 : Fin 3) = t.val / 3 ∧ win0_0.index t (2 : Fin 3) = 0 :=
  (by decide +kernel : ∀ t : Fin grid0.N, win0_0.index t (0 : Fin 3) = t.val % 3 ∧ win0_0.index t (1 : Fin 3) = t.val / 3 ∧ win0_0.index t (2 : Fin 3) = 0)

/-- The weight window's block at point t: relation t % 3. -/
theorem idx_facts0_1 : ∀ t : Fin cfg0.N, win0_1.index t (0 : Fin 3) = t.val % 3 ∧ win0_1.index t (1 : Fin 3) = 0 ∧ win0_1.index t (2 : Fin 3) = 0 :=
  (by decide +kernel : ∀ t : Fin grid0.N, win0_1.index t (0 : Fin 3) = t.val % 3 ∧ win0_1.index t (1 : Fin 3) = 0 ∧ win0_1.index t (2 : Fin 3) = 0)

/-- The bias window's block at point t: relation t % 3. -/
theorem idx_facts0_2 : ∀ t : Fin cfg0.N, win0_2.index t (0 : Fin 3) = t.val % 3 ∧ win0_2.index t (1 : Fin 3) = 0 ∧ win0_2.index t (2 : Fin 3) = 0 :=
  (by decide +kernel : ∀ t : Fin grid0.N, win0_2.index t (0 : Fin 3) = t.val % 3 ∧ win0_2.index t (1 : Fin 3) = 0 ∧ win0_2.index t (2 : Fin 3) = 0)

/-- The three arrays the region reads, as the region finds them. -/
abbrev AGG0 (c : Dev nD) : Vec Ideal S3x50000x128 .f32 := V c (Pipeline.arrRef spec0 0)
abbrev WGT0 (c : Dev nD) : Vec Ideal S3x128x128 .f32 := V c (Pipeline.arrRef spec0 1)
abbrev BIA0 (c : Dev nD) : Vec Ideal S3x1x128 .f32 := V c (Pipeline.arrRef spec0 2)

/-- A point's three input blocks, at their literal shapes. -/
abbrev blkA0 (c : Dev nD) (t : Fin cfg0.N) : Vec Ideal S1x2000x128 .f32 := iblk0 V c 0 t
abbrev blkW0 (c : Dev nD) (t : Fin cfg0.N) : Vec Ideal S1x128x128 .f32 := iblk0 V c 1 t
abbrev blkB0 (c : Dev nD) (t : Fin cfg0.N) : Vec Ideal S1x1x128 .f32 := iblk0 V c 2 t

/-- Entry (0, p, k) of the feature block at point t is entry (t % 3, 2000 (t / 3) + p, k) of the stacked features. -/
theorem iblk0_0_apply (c : Dev nD) (t : Fin cfg0.N) (p : Fin 2000) (k : Fin 128) (r : Fin 3) (i : Fin 50000)
    (hr : r.val = t.val % 3) (hi : i.val = t.val / 3 * 2000 + p.val) :
    blkA0 V c t (ix3 (0 : Fin 1) p k) = AGG0 V c (ix3 r i k) := by
  obtain ⟨e0, e1, e2⟩ := idx_facts0_0 t
  show AGG0 V c (((cfg0.win 0).blk t).view.emb (ix3 (0 : Fin 1) p k)) = _
  refine congrArg (AGG0 V c) (funext fun a => ?_)
  match a with
  | ⟨0, _⟩ => exact Fin.ext (by show win0_0.index t (0 : Fin 3) * 1 + 1 * 0 = r.val; rw [e0]; omega)
  | ⟨1, _⟩ => exact Fin.ext (by show win0_0.index t (1 : Fin 3) * 2000 + 1 * p.val = i.val; rw [e1]; omega)
  | ⟨2, _⟩ => exact Fin.ext (by show win0_0.index t (2 : Fin 3) * 128 + 1 * k.val = k.val; rw [e2]; omega)

/-- Entry (0, k, q) of the weight block at point t is entry (t % 3, k, q) of the weights. -/
theorem iblk0_1_apply (c : Dev nD) (t : Fin cfg0.N) (k : Fin 128) (q : Fin 128) (r : Fin 3) (hr : r.val = t.val % 3) :
    blkW0 V c t (ix3 (0 : Fin 1) k q) = WGT0 V c (ix3 r k q) := by
  obtain ⟨e0, e1, e2⟩ := idx_facts0_1 t
  show WGT0 V c (((cfg0.win 1).blk t).view.emb (ix3 (0 : Fin 1) k q)) = _
  refine congrArg (WGT0 V c) (funext fun a => ?_)
  match a with
  | ⟨0, _⟩ => exact Fin.ext (by show win0_1.index t (0 : Fin 3) * 1 + 1 * 0 = r.val; rw [e0]; omega)
  | ⟨1, _⟩ => exact Fin.ext (by show win0_1.index t (1 : Fin 3) * 128 + 1 * k.val = k.val; rw [e1]; omega)
  | ⟨2, _⟩ => exact Fin.ext (by show win0_1.index t (2 : Fin 3) * 128 + 1 * q.val = q.val; rw [e2]; omega)

/-- Entry (0, 0, q) of the bias block at point t is entry (t % 3, 0, q) of the biases. -/
theorem iblk0_2_apply (c : Dev nD) (t : Fin cfg0.N) (q : Fin 128) (r : Fin 3) (hr : r.val = t.val % 3) :
    blkB0 V c t (ix3 (0 : Fin 1) (0 : Fin 1) q) = BIA0 V c (ix3 r (0 : Fin 1) q) := by
  obtain ⟨e0, e1, e2⟩ := idx_facts0_2 t
  show BIA0 V c (((cfg0.win 2).blk t).view.emb (ix3 (0 : Fin 1) (0 : Fin 1) q)) = _
  refine congrArg (BIA0 V c) (funext fun a => ?_)
  match a with
  | ⟨0, _⟩ => exact Fin.ext (by show win0_2.index t (0 : Fin 3) * 1 + 1 * 0 = r.val; rw [e0]; omega)
  | ⟨1, _⟩ => exact Fin.ext (by show win0_2.index t (1 : Fin 3) * 1 + 1 * 0 = 0; rw [e1])
  | ⟨2, _⟩ => exact Fin.ext (by show win0_2.index t (2 : Fin 3) * 128 + 1 * q.val = q.val; rw [e2]; omega)

/-! ## One relation's contribution at an entry of the output array -/

/-- Relation r's contribution to entry (i, q): row i of its aggregated features times column q of its weights, plus its
    bias entry q. -/
def T0 (c : Dev nD) (r : Fin 3) (i : Fin 50000) (q : Fin 128) : EReal :=
  (∑ k : Fin 128, AGG0 V c (ix3 r i k) * WGT0 V c (ix3 r k q)) + BIA0 V c (ix3 r (0 : Fin 1) q)

/-- The tile product of point t at entry (p, q) is relation t % 3's contribution to entry (2000 (t / 3) + p, q). -/
theorem tile0_eq (c : Dev nD) (t : Fin cfg0.N) (p : Fin 2000) (q : Fin 128) (r : Fin 3) (i : Fin 50000)
    (hr : r.val = t.val % 3) (hi : i.val = t.val / 3 * 2000 + p.val) :
    (∑ k : Fin 128, blkA0 V c t (ix3 (0 : Fin 1) p k)
        * blkW0 V c t (ix3 (0 : Fin 1) k q))
      + blkB0 V c t (ix3 (0 : Fin 1) (0 : Fin 1) q) = T0 V c r i q :=
  congrArg₂ (· + ·)
    (Finset.sum_congr rfl fun k _ => congrArg₂ (· * ·) (iblk0_0_apply V c t p k r i hr hi) (iblk0_1_apply V c t k q r hr))
    (iblk0_2_apply V c t q r hr)

/-! ## The accumulator after a row tile's last point -/

theorem accAt0_restart (c : Dev nD) (n : ℕ) (h : n < cfg0.N) (h0 : n % 3 = 0) :
    accAt0 V c n h = step0 V c ⟨n, h⟩ (k0_pay1 (F := Ideal)) := by
  cases n with
  | zero => rfl
  | succ m => rw [accAt0, if_pos h0]

theorem accAt0_cont (c : Dev nD) (n : ℕ) (h : n + 1 < cfg0.N) (h0 : ¬(n + 1) % 3 = 0) :
    accAt0 V c (n + 1) h = step0 V c ⟨n + 1, h⟩ (accAt0 V c n (Nat.lt_of_succ_lt h)) := by
  rw [accAt0, if_neg h0]

/-- After the relation-2 point of row tile I the accumulator holds three steps from the cleared one. -/
theorem accAt0_three (c : Dev nD) (I : ℕ) (h2 : 3 * I + 2 < cfg0.N) :
    accAt0 V c (3 * I + 2) h2
      = step0 V c ⟨3 * I + 2, h2⟩ (step0 V c ⟨3 * I + 1, by omega⟩ (step0 V c ⟨3 * I, by omega⟩ (k0_pay1 (F := Ideal)))) := by
  have e0 : accAt0 V c (3 * I) (by omega) = step0 V c ⟨3 * I, by omega⟩ (k0_pay1 (F := Ideal)) :=
    accAt0_restart V c (3 * I) (by omega) (by omega)
  have e1 : accAt0 V c (3 * I + 1) (by omega) = step0 V c ⟨3 * I + 1, by omega⟩ (accAt0 V c (3 * I) (by omega)) :=
    accAt0_cont V c (3 * I) (by omega) (by omega)
  have e2 : accAt0 V c (3 * I + 2) h2 = step0 V c ⟨3 * I + 2, h2⟩ (accAt0 V c (3 * I + 1) (by omega)) :=
    accAt0_cont V c (3 * I + 1) h2 (by omega)
  rw [e2, e1, e0]

/-! ## The output array at an entry -/

/-- Entry (i, q) of the region's output array: the leaky rectifier of a third of the three relations' contributions,
    accumulated one after another into zero. -/
theorem G0_entry (c : Dev nD) (i : Fin 50000) (q : Fin 128) :
    G0 V c (ix2 i q) = Cert.Layer.leaky ((((0 + T0 V c 0 i q) + T0 V c 1 i q) + T0 V c 2 i q) * ((1 / 3 : ℝ) : EReal)) := by
  have hN : cfg0.N = 75 := N_0
  have hi := i.isLt
  have h2 : 3 * (i.val / 2000) + 2 < cfg0.N := by omega
  show k0_pay3 (accAt0 V c (3 * (i.val / 2000) + 2) h2) (ix2 (⟨i.val % 2000, Nat.mod_lt _ (by decide)⟩ : Fin 2000) q) = _
  refine (Cert.Layer.pay3_leaky_apply _ _ _).trans (congrArg Cert.Layer.leaky (congrArg (· * ((1 / 3 : ℝ) : EReal)) ?_))
  rw [accAt0_three V c (i.val / 2000) h2]
  refine (Cert.Layer.pay2_steps_apply _ _ _ _ _ _ _ _ _ _ q).trans ?_
  exact congrArg₂ (· + ·) (congrArg₂ (· + ·) (congrArg (0 + ·)
    (tile0_eq V c ⟨3 * (i.val / 2000), by omega⟩ _ q 0 i (by show 0 = (3 * (i.val / 2000)) % 3; omega)
      (by show i.val = 3 * (i.val / 2000) / 3 * 2000 + i.val % 2000; omega)))
    (tile0_eq V c ⟨3 * (i.val / 2000) + 1, by omega⟩ _ q 1 i (by show 1 = (3 * (i.val / 2000) + 1) % 3; omega)
      (by show i.val = (3 * (i.val / 2000) + 1) / 3 * 2000 + i.val % 2000; omega)))
    (tile0_eq V c ⟨3 * (i.val / 2000) + 2, h2⟩ _ q 2 i (by show 2 = (3 * (i.val / 2000) + 2) % 3; omega)
      (by show i.val = (3 * (i.val / 2000) + 2) / 3 * 2000 + i.val % 2000; omega))

end Cert.KernelIdeal.Hand

end
-- ==== Proof.LibHostDot.lean ====
/-
  The host's matrix product over the extended reals, read entry by entry.

  A product of an m×k matrix by a k×n matrix (left operand contracted on its columns, right operand on its rows, no
  batch axes) has at entry (a, b) the sum over the contracted coordinate `c` of `A (a, c) * B (c, b)`: the host's
  product and a tile product accumulated into the zero tile are the same sum over the dimension record's contraction
  index, and the tile product is read in `Cert.LibTiles`.
-/
import proofs.«165758_j22333829939343_1_alg».proof.Proof.LibTiles

noncomputable section

namespace Cert.LibHostDot

open Idealize.ShloMosaic Idealize.ShloMosaic.ValueIdx

variable {m n k : Nat} {φ₁ φ₂ : FTy}

/-- The host's product read at entry (a, b). -/
theorem hostDot_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) :=
  ((Ideal.dotGeneral_apply (⟨[1], [0], [0], [1], [], [], w⟩ : DotDims _ _ _) prec .single A B (ix2 a b)).trans
    (Ideal.matmul_constant_zero_apply (⟨[1], [0], [0], [1], [], [], w⟩ : DotDims _ _ _) prec A B (ix2 a b)).symm).trans
    (Cert.LibTiles.matmul_zero_apply w prec A B a b)

end Cert.LibHostDot

end
-- ==== Proof.LayerConsts.lean ====
/-
  The float constants the reference spells that must be read as real numbers, each stated once: the divisor 3 of the
  mean over the three relations. (Zero is read by the library's own lemma.)
-/
import Idealize.ShloMosaic.PureOps.Ideal

noncomputable section

namespace Cert.Layer

open Idealize.ShloMosaic

/-- The pattern of `3.0` denotes the real number 3. -/
theorem ofBits_three : Ideal.ofBits .f32 0x40400000#32 = ((3 : ℝ) : EReal) := by
  simp [Ideal.ofBits, Ideal.ieee, -EReal.coe_mul]; norm_num

end Cert.Layer

end
-- ==== Proof.LayerParams.lean ====
/-
  The weights and biases of one relation, read at an entry, as each program fetches them.

  The three relations' weight matrices come as one [3,128,128] array and their bias rows as one [3,128] array.
  * The reference cuts layer r off the weights (a [1,128,128] block), recasts it as a matrix, and reads (k, q): the array
    at (r, k, q). It cuts row r off the biases (a [1,128] block), recasts it as a vector, and gives it a unit first axis
    again: at (0, q) that is the array at (r, q).
  * The kernel recasts the biases as a [3,1,128] array, whose entry (r, 0, q) is the array at (r, q).
  * Both programs stack three 50000×128 matrices as a [3,50000,128] array: each is given a unit first axis and the three
    are laid one after another along it; layer r of the stack at (a, b) is matrix r at (a, b).
  Layers 1 to 4 first cut their [3,128,128] (and [3,128]) arrays off a [4,3,128,128] (and [4,3,128]) array of all the
  layers' parameters; both programs do that the same way, and it is read here too.
-/
import Idealize.ShloMosaic.Lib.ValueIdx
import Idealize.ShloMosaic.Lib.ValueLayout
import Idealize.ShloMosaic.Lib.Pipeline.Value

namespace Cert.Layer

open Idealize.ShloMosaic Idealize.ShloMosaic.ValueIdx

variable {α : Type}

/-- Block `o` along the first axis of an [N,A,B] array, recast as a matrix, at (k, q): the array at (o, k, q). -/
theorem sliceMat_apply {N A B : ℕ} (o : ℕ) (W : (⟨3, ![N, A, B]⟩ : Shape).Idx → α)
    (hsl : (⟨3, ![N, A, B]⟩ : Shape).Slices ![o, 0, 0] ⟨3, ![1, A, B]⟩)
    (hsc : (⟨3, ![1, A, B]⟩ : Shape).ShapeCasts ⟨2, ![A, B]⟩) (r : Fin N) (hr : r.val = o) (k : Fin A) (q : Fin B) :
    shapeCast ⟨2, ![A, B]⟩ (extractStridedSlice ⟨3, ![1, A, B]⟩ ![o, 0, 0] W hsl) hsc (ix2 k q) = W (ix3 r k q) :=
  (shapeCast_1ab_ab_apply _ hsc k q).trans
    (extractStridedSlice_apply _ W hsl _ (ix3 r k q) fun ax => by
      match ax with
      | ⟨0, _⟩ => show r.val = o + 0; omega
      | ⟨1, _⟩ => exact (Nat.zero_add _).symm
      | ⟨2, _⟩ => exact (Nat.zero_add _).symm)

/-- Row `o` of an [N,C] array, recast as a vector and given a unit first axis, at (0, q): the array at (o, q). -/
theorem sliceRow_apply {N C : ℕ} (o : ℕ) (Bs : (⟨2, ![N, C]⟩ : Shape).Idx → α)
    (hsl : (⟨2, ![N, C]⟩ : Shape).Slices ![o, 0] ⟨2, ![1, C]⟩)
    (hsc : (⟨2, ![1, C]⟩ : Shape).ShapeCasts ⟨1, ![C]⟩)
    (hbb : (⟨1, ![C]⟩ : Shape).BroadcastsInDim ⟨2, ![1, C]⟩ (![1] : Fin 1 → Fin 2))
    (r : Fin N) (hr : r.val = o) (z : Fin 1) (q : Fin C) :
    broadcastInDim ⟨2, ![1, C]⟩ (![1] : Fin 1 → Fin 2) hbb
        (shapeCast ⟨1, ![C]⟩ (extractStridedSlice ⟨2, ![1, C]⟩ ![o, 0] Bs hsl) hsc) (ix2 z q) = Bs (ix2 r q) := by
  refine (broadcastInDim_apply _ hbb _ _ (ix1 q) fun d => ?_).trans
    ((shapeCast_1a_a_apply _ hsc q).trans (slice2_axis0_apply o Bs hsl (0 : Fin 1) q r (by show r.val = o + 0; omega)))
  match d with
  | ⟨0, _⟩ =>
    show q.val = if C = 1 then 0 else q.val
    split
    · have := q.isLt; omega
    · rfl

/-- An [R,C] array recast as [R,1,C], at (r, 0, c): the array at (r, c). -/
theorem cast_rc_r1c_apply {R C : ℕ} (x : (⟨2, ![R, C]⟩ : Shape).Idx → α)
    (h : (⟨2, ![R, C]⟩ : Shape).ShapeCasts ⟨3, ![R, 1, C]⟩) (r : Fin R) (z : Fin 1) (c : Fin C) :
    shapeCast ⟨3, ![R, 1, C]⟩ x h (ix3 r z c) = x (ix2 r c) := by
  refine shapeCast_apply x h _ _ ?_
  rw [Shape.rowMajor_val_two, Shape.rowMajor_val_three]
  show r.val * C + c.val = (r.val * 1 + z.val) * C + c.val
  have hz : z.val = 0 := by omega
  rw [hz]; simp

/-- Layer `o` of a [L,N,A,B] array of all the layers' weights, recast as [N,A,B], at (r, k, q): the array at (o, r, k, q). -/
theorem sliceLayerW_apply {L N A B : ℕ} (o : ℕ) (W : (⟨4, ![L, N, A, B]⟩ : Shape).Idx → α)
    (hsl : (⟨4, ![L, N, A, B]⟩ : Shape).Slices ![o, 0, 0, 0] ⟨4, ![1, N, A, B]⟩)
    (hsc : (⟨4, ![1, N, A, B]⟩ : Shape).ShapeCasts ⟨3, ![N, A, B]⟩) (l : Fin L) (hl : l.val = o)
    (r : Fin N) (k : Fin A) (q : Fin B) :
    shapeCast ⟨3, ![N, A, B]⟩ (extractStridedSlice ⟨4, ![1, N, A, B]⟩ ![o, 0, 0, 0] W hsl) hsc (ix3 r k q) = W (ix4 l r k q) :=
  (shapeCast_1abc_abc_apply _ hsc r k q).trans
    (extractStridedSlice_apply _ W hsl _ (ix4 l r k q) fun ax => by
      match ax with
      | ⟨0, _⟩ => show l.val = o + 0; omega
      | ⟨1, _⟩ => exact (Nat.zero_add _).symm
      | ⟨2, _⟩ => exact (Nat.zero_add _).symm
      | ⟨3, _⟩ => exact (Nat.zero_add _).symm)

/-- Layer `o` of a [L,N,C] array of all the layers' biases, recast as [N,C], at (r, q): the array at (o, r, q). -/
theorem sliceLayerB_apply {L N C : ℕ} (o : ℕ) (Bs : (⟨3, ![L, N, C]⟩ : Shape).Idx → α)
    (hsl : (⟨3, ![L, N, C]⟩ : Shape).Slices ![o, 0, 0] ⟨3, ![1, N, C]⟩)
    (hsc : (⟨3, ![1, N, C]⟩ : Shape).ShapeCasts ⟨2, ![N, C]⟩) (l : Fin L) (hl : l.val = o) (r : Fin N) (q : Fin C) :
    shapeCast ⟨2, ![N, C]⟩ (extractStridedSlice ⟨3, ![1, N, C]⟩ ![o, 0, 0] Bs hsl) hsc (ix2 r q) = Bs (ix3 l r q) :=
  sliceMat_apply o Bs hsl hsc l hl r q

section Stack
variable {α : Type} {A B : ℕ}
  (x0 x1 x2 : (⟨3, ![1, A, B]⟩ : Shape).Idx → α)
  (h : Shape.Concatenates [⟨3, ![1, A, B]⟩, ⟨3, ![1, A, B]⟩, ⟨3, ![1, A, B]⟩] ⟨3, ![3, A, B]⟩ 0)
  (a : Fin A) (b : Fin B)

/-- Three one-layer blocks stacked along a new first axis: layer 0 of the stack is the first block. -/
theorem stack3_0 :
    concatenate ⟨3, ![3, A, B]⟩ 0 [⟨⟨3, ![1, A, B]⟩, x0⟩, ⟨⟨3, ![1, A, B]⟩, x1⟩, ⟨⟨3, ![1, A, B]⟩, x2⟩] h (ix3 (0 : Fin 3) a b)
      = x0 (ix3 (0 : Fin 1) a b) :=
  concatenate_apply_piece 0 [⟨⟨3, ![1, A, B]⟩, x0⟩, ⟨⟨3, ![1, A, B]⟩, x1⟩, ⟨⟨3, ![1, A, B]⟩, x2⟩] h (ix3 (0 : Fin 3) a b)
    0 (by simp) _ x0 rfl rfl 0 rfl (ix3 (0 : Fin 1) a b)
    (fun d hd => by
      match d with
      | ⟨0, _⟩ => exact absurd rfl hd
      | ⟨1, _⟩ => rfl
      | ⟨2, _⟩ => rfl)
    rfl

/-- … layer 1 is the second block. -/
theorem stack3_1 :
    concatenate ⟨3, ![3, A, B]⟩ 0 [⟨⟨3, ![1, A, B]⟩, x0⟩, ⟨⟨3, ![1, A, B]⟩, x1⟩, ⟨⟨3, ![1, A, B]⟩, x2⟩] h (ix3 (1 : Fin 3) a b)
      = x1 (ix3 (0 : Fin 1) a b) :=
  concatenate_apply_piece 0 [⟨⟨3, ![1, A, B]⟩, x0⟩, ⟨⟨3, ![1, A, B]⟩, x1⟩, ⟨⟨3, ![1, A, B]⟩, x2⟩] h (ix3 (1 : Fin 3) a b)
    1 (by simp) _ x1 rfl rfl 1 (by simp) (ix3 (0 : Fin 1) a b)
    (fun d hd => by
      match d with
      | ⟨0, _⟩ => exact absurd rfl hd
      | ⟨1, _⟩ => rfl
      | ⟨2, _⟩ => rfl)
    rfl

/-- … layer 2 is the third block. -/
theorem stack3_2 :
    concatenate ⟨3, ![3, A, B]⟩ 0 [⟨⟨3, ![1, A, B]⟩, x0⟩, ⟨⟨3, ![1, A, B]⟩, x1⟩, ⟨⟨3, ![1, A, B]⟩, x2⟩] h (ix3 (2 : Fin 3) a b)
      = x2 (ix3 (0 : Fin 1) a b) :=
  concatenate_apply_piece 0 [⟨⟨3, ![1, A, B]⟩, x0⟩, ⟨⟨3, ![1, A, B]⟩, x1⟩, ⟨⟨3, ![1, A, B]⟩, x2⟩] h (ix3 (2 : Fin 3) a b)
    2 (by simp) _ x2 rfl rfl 2 (by simp) (ix3 (0 : Fin 1) a b)
    (fun d hd => by
      match d with
      | ⟨0, _⟩ => exact absurd rfl hd
      | ⟨1, _⟩ => rfl
      | ⟨2, _⟩ => rfl)
    rfl

/-- A matrix given a new first axis of extent one reads, at (0, a, b), its entry (a, b). -/
theorem addAxis0_apply (x : (⟨2, ![A, B]⟩ : Shape).Idx → α)
    (hb : (⟨2, ![A, B]⟩ : Shape).BroadcastsInDim ⟨3, ![1, A, B]⟩ (![1, 2] : Fin 2 → Fin 3)) (z : Fin 1) :
    broadcastInDim ⟨3, ![1, A, B]⟩ (![1, 2] : Fin 2 → Fin 3) hb x (ix3 z a b) = x (ix2 a b) := by
  refine broadcastInDim_apply _ hb x _ (ix2 a b) fun d => ?_
  match d with
  | ⟨0, _⟩ =>
    show a.val = if A = 1 then 0 else a.val
    split
    · have := a.isLt; omega
    · rfl
  | ⟨1, _⟩ =>
    show b.val = if B = 1 then 0 else b.val
    split
    · have := b.isLt; omega
    · rfl

end Stack

section StackOfMatrices
variable {α : Type} {A B : ℕ} (o0 o1 o2 : (⟨2, ![A, B]⟩ : Shape).Idx → α)
  (hb : (⟨2, ![A, B]⟩ : Shape).BroadcastsInDim ⟨3, ![1, A, B]⟩ (![1, 2] : Fin 2 → Fin 3))
  (h : Shape.Concatenates [⟨3, ![1, A, B]⟩, ⟨3, ![1, A, B]⟩, ⟨3, ![1, A, B]⟩] ⟨3, ![3, A, B]⟩ 0)
  (a : Fin A) (b : Fin B)

/-- Three matrices, each given a unit first axis, stacked: layer 0 of the stack at (a, b) is the first matrix at (a, b). -/
theorem stackMat_0 :
    concatenate ⟨3, ![3, A, B]⟩ 0
      [⟨⟨3, ![1, A, B]⟩, broadcastInDim ⟨3, ![1, A, B]⟩ (![1, 2] : Fin 2 → Fin 3) hb o0⟩,
       ⟨⟨3, ![1, A, B]⟩, broadcastInDim ⟨3, ![1, A, B]⟩ (![1, 2] : Fin 2 → Fin 3) hb o1⟩,
       ⟨⟨3, ![1, A, B]⟩, broadcastInDim ⟨3, ![1, A, B]⟩ (![1, 2] : Fin 2 → Fin 3) hb o2⟩] h (ix3 (0 : Fin 3) a b)
      = o0 (ix2 a b) :=
  (stack3_0 _ _ _ h a b).trans (addAxis0_apply a b o0 hb 0)

/-- … layer 1 is the second matrix. -/
theorem stackMat_1 :
    concatenate ⟨3, ![3, A, B]⟩ 0
      [⟨⟨3, ![1, A, B]⟩, broadcastInDim ⟨3, ![1, A, B]⟩ (![1, 2] : Fin 2 → Fin 3) hb o0⟩,
       ⟨⟨3, ![1, A, B]⟩, broadcastInDim ⟨3, ![1, A, B]⟩ (![1, 2] : Fin 2 → Fin 3) hb o1⟩,
       ⟨⟨3, ![1, A, B]⟩, broadcastInDim ⟨3, ![1, A, B]⟩ (![1, 2] : Fin 2 → Fin 3) hb o2⟩] h (ix3 (1 : Fin 3) a b)
      = o1 (ix2 a b) :=
  (stack3_1 _ _ _ h a b).trans (addAxis0_apply a b o1 hb 0)

/-- … layer 2 is the third matrix. -/
theorem stackMat_2 :
    concatenate ⟨3, ![3, A, B]⟩ 0
      [⟨⟨3, ![1, A, B]⟩, broadcastInDim ⟨3, ![1, A, B]⟩ (![1, 2] : Fin 2 → Fin 3) hb o0⟩,
       ⟨⟨3, ![1, A, B]⟩, broadcastInDim ⟨3, ![1, A, B]⟩ (![1, 2] : Fin 2 → Fin 3) hb o1⟩,
       ⟨⟨3, ![1, A, B]⟩, broadcastInDim ⟨3, ![1, A, B]⟩ (![1, 2] : Fin 2 → Fin 3) hb o2⟩] h (ix3 (2 : Fin 3) a b)
      = o2 (ix2 a b) :=
  (stack3_2 _ _ _ h a b).trans (addAxis0_apply a b o2 hb 0)

end StackOfMatrices

end Cert.Layer
-- ==== Proof.LayerHost.lean ====
/-
  One graph-convolution layer as the reference spells it, over the extended reals, read entry by entry.

  Per relation r the reference multiplies the 50000×128 matrix of aggregated features by the relation's 128×128 weight
  matrix and adds the relation's bias row laid down the rows. It then stacks the three results as a 3×50000×128 array,
  sums the stack over its first axis from an initial zero, divides by 3, and applies the leaky rectifier
  (compare with zero, scale by the slope, choose). The last step of the network is one more product, with a 128×64 matrix,
  plus a bias row.

  Every statement is at an entry (i, j) and says which real-number expression stands there.
-/
import proofs.«165758_j22333829939343_1_alg».proof.ReferenceIdeal
import proofs.«165758_j22333829939343_1_alg».proof.Proof.LibHostDot
import proofs.«165758_j22333829939343_1_alg».proof.Proof.LayerLaw
import proofs.«165758_j22333829939343_1_alg».proof.Proof.LayerConsts
import proofs.«165758_j22333829939343_1_alg».proof.Proof.LayerParams
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.Layer

open Idealize.ShloMosaic Idealize.ShloMosaic.ValueIdx

section Reference
open Cert.ReferenceIdeal

/-- The reference's mean over the three relations at an entry: the stack's sum over its first axis from an initial zero,
    divided by 3, is the product with 1/3. -/
theorem mean3_apply (o0 o1 o2 : Vec Ideal S50000x128 .f32)
    (hb : S50000x128.BroadcastsInDim S1x50000x128 (![1, 2] : Fin 2 → Fin S1x50000x128.rank))
    (hc : Shape.Concatenates [S1x50000x128, S1x50000x128, S1x50000x128] S3x50000x128 0)
    (hr : S3x50000x128.ReducesTo [0] S50000x128) (hu : 0 < S_.numel)
    (hs : S_.BroadcastsInDim S50000x128 (![] : Fin 0 → Fin S50000x128.rank))
    (i : Fin 50000) (j : Fin 128) :
    Host.divf (F := Ideal) (φ := .f32)
      (Host.reduceAdd (F := Ideal) (φ := .f32)
        (concatenate S3x50000x128 0
          [⟨S1x50000x128, broadcastInDim S1x50000x128 ![1, 2] hb o0⟩,
           ⟨S1x50000x128, broadcastInDim S1x50000x128 ![1, 2] hb o1⟩,
           ⟨S1x50000x128, broadcastInDim S1x50000x128 ![1, 2] hb o2⟩] hc)
        (constant (F := Ideal) S_ .f32 0x00000000#32) hr hu)
      (broadcastInDim S50000x128 ![] hs (constant (F := Ideal) S_ .f32 0x40400000#32)) (ix2 i j)
      = (0 + (o0 (ix2 i j) + o1 (ix2 i j) + o2 (ix2 i j))) * ((1 / 3 : ℝ) : EReal) := by
  have hR : S3x50000x128.Reduces [0] S50000x128 := by decide
  rw [hostDivf_apply, hostReduceAdd_apply, broadcastInDim_scalar_apply, constant_apply, constant_apply, ofBits_three,
    Ideal.ofBits_zero_f32, Ideal.div_coe (by norm_num : (3 : ℝ) ≠ 0), Ideal.hostReduceAdd_single hr hR]
  congr 2
  show ∑ k : Fin 3, _ = _
  rw [Fin.sum_univ_three]
  have e0 : hR.lift (ix2 i j) (0 : Fin 3) = ix3 (0 : Fin 3) i j := by
    funext d; apply Fin.ext
    match d with
    | ⟨0, _⟩ => rfl
    | ⟨1, _⟩ => rfl
    | ⟨2, _⟩ => rfl
  have e1 : hR.lift (ix2 i j) (1 : Fin 3) = ix3 (1 : Fin 3) i j := by
    funext d; apply Fin.ext
    match d with
    | ⟨0, _⟩ => rfl
    | ⟨1, _⟩ => rfl
    | ⟨2, _⟩ => rfl
  have e2 : hR.lift (ix2 i j) (2 : Fin 3) = ix3 (2 : Fin 3) i j := by
    funext d; apply Fin.ext
    match d with
    | ⟨0, _⟩ => rfl
    | ⟨1, _⟩ => rfl
    | ⟨2, _⟩ => rfl
  rw [e0, e1, e2, stack3_0, stack3_1, stack3_2, addAxis0_apply, addAxis0_apply, addAxis0_apply]

variable [Cert.ReferenceIdeal.Facts₀]

/-- The reference's product with a weight matrix plus the bias row, at an entry. -/
theorem hostDense_apply (x : Vec Ideal S50000x128 .f32) (w : Vec Ideal S128x128 .f32) (b : Vec Ideal S1x128 .f32)
    (hb : S1x128.BroadcastsInDim S50000x128 (![0, 1] : Fin 2 → Fin S50000x128.rank))
    (i : Fin 50000) (j : Fin 128) :
    addf (F := Ideal) (φ := .f32)
        (Host.dotGeneral (F := Ideal) (φ₁ := .f32) (φ₂ := .f32) dot_S50000x128_S128x128_S50000x128_1_0_0_1_n_n none x w)
        (broadcastInDim S50000x128 ![0, 1] hb b) (ix2 i j)
      = (∑ k : Fin 128, x (ix2 i k) * w (ix2 k j)) + b (ix2 (0 : Fin 1) j) := by
  rw [addf_apply]
  refine congrArg₂ (· + ·) ?_ ?_
  · exact Cert.LibHostDot.hostDot_apply (m := 50000) (n := 128) (k := 128) (φ₁ := .f32) (φ₂ := .f32)
      Facts₀.dot_S50000x128_S128x128_S50000x128_1_0_0_1_n_n_wf none x w i j
  · refine broadcastInDim_apply _ hb b _ (ix2 (0 : Fin 1) j) fun d => ?_
    match d with
    | ⟨0, _⟩ => rfl
    | ⟨1, _⟩ => rfl

/-- The reference's last product, with the 128×64 output weights, plus the bias row, at an entry. -/
theorem hostDenseOut_apply (x : Vec Ideal S50000x128 .f32) (w : Vec Ideal S128x64 .f32) (b : Vec Ideal S1x64 .f32)
    (hb : S1x64.BroadcastsInDim S50000x64 (![0, 1] : Fin 2 → Fin S50000x64.rank))
    (i : Fin 50000) (j : Fin 64) :
    addf (F := Ideal) (φ := .f32)
        (Host.dotGeneral (F := Ideal) (φ₁ := .f32) (φ₂ := .f32) dot_S50000x128_S128x64_S50000x64_1_0_0_1_n_n none x w)
        (broadcastInDim S50000x64 ![0, 1] hb b) (ix2 i j)
      = (∑ k : Fin 128, x (ix2 i k) * w (ix2 k j)) + b (ix2 (0 : Fin 1) j) := by
  rw [addf_apply]
  refine congrArg₂ (· + ·) ?_ ?_
  · exact Cert.LibHostDot.hostDot_apply (m := 50000) (n := 64) (k := 128) (φ₁ := .f32) (φ₂ := .f32)
      Facts₀.dot_S50000x128_S128x64_S50000x64_1_0_0_1_n_n_wf none x w i j
  · refine broadcastInDim_apply _ hb b _ (ix2 (0 : Fin 1) j) fun d => ?_
    match d with
    | ⟨0, _⟩ => rfl
    | ⟨1, _⟩ => rfl

omit [Cert.ReferenceIdeal.Facts₀] in
/-- The reference's leaky rectifier (compare with a zero array, scale by the slope array, choose) at an entry. -/
theorem hostLeaky_apply (x : Vec Ideal S50000x128 .f32)
    (hs : S_.BroadcastsInDim S50000x128 (![] : Fin 0 → Fin S50000x128.rank)) (i : Fin 50000) (j : Fin 128) :
    select (cmpf (F := Ideal) (φ := .f32) .oge x
          (broadcastInDim S50000x128 ![] hs (constant (F := Ideal) S_ .f32 0x00000000#32))) x
        (mulf (F := Ideal) (φ := .f32)
          (broadcastInDim S50000x128 ![] hs (id (constant (F := Ideal) S_ .f32 0x3C23D70A#32))) x) (ix2 i j)
      = leaky (x (ix2 i j)) := by
  have hz : broadcastInDim S50000x128 ![] hs (constant (F := Ideal) S_ .f32 0x00000000#32) (ix2 i j) = 0 :=
    (broadcastInDim_scalar_apply hs _ _).trans Ideal.ofBits_zero_f32
  have hc : broadcastInDim S50000x128 ![] hs (id (constant (F := Ideal) S_ .f32 0x3C23D70A#32)) (ix2 i j) = c01 :=
    broadcastInDim_scalar_apply hs _ _
  rw [select_apply, cmpf_apply, mulf_apply, hz, hc]
  exact select_leaky _

end Reference

end Cert.Layer

end
-- ==== Proof.BridgeLayer.lean ====
/-
  One graph-convolution layer, the kernel program against the reference, as pure functions of arrays.

  Both programs hold the three relations' aggregated features `a₀ a₁ a₂` (50000×128 each), the relations' weights `W`
  ([3,128,128]) and biases `B` ([3,128]).
  * The reference (`refLayer`): per relation the product with the relation's weight matrix plus its bias row
    (`refDense`), the three results stacked, summed from zero over the stack axis and divided by 3 (`refMean`), then the
    leaky rectifier (`refLeaky`). The last layer has no rectifier (`refLayerLast`).
  * The kernel program stacks the features (`stack3`), recasts the biases as [3,1,128], and its fused kernel leaves at entry
    (i, q) the rectifier of a third of `((0 + t₀) + t₁) + t₂`, `t_r` relation r's contribution (`kernT`) read off those arrays.
  The two agree at every entry (`layer_entry`, `layer_entry_last`): associativity of the sum, and reading each array
  operation at an index. The output step (`refOut`, `out_entry`) is one product plus a bias row.
-/
import proofs.«165758_j22333829939343_1_alg».proof.Proof.LayerHost
import proofs.«165758_j22333829939343_1_alg».proof.Proof.LayerParams
import proofs.«165758_j22333829939343_1_alg».proof.Proof.LayerLaw

noncomputable section

namespace Cert.Bridge

open Idealize.ShloMosaic Idealize.ShloMosaic.ValueIdx Cert.ReferenceIdeal Cert.Layer

/-- Relation r's contribution to entry (i, q), read off the stacked features, the weights and the [3,1,128] biases. -/
def kernT (AGG : Vec Ideal S3x50000x128 .f32) (WGT : Vec Ideal S3x128x128 .f32)
    (BIA : Vec Ideal (⟨3, ![3, 1, 128]⟩ : Shape) .f32) (r : Fin 3) (i : Fin 50000) (q : Fin 128) : EReal :=
  (∑ k : Fin 128, AGG (ix3 r i k) * WGT (ix3 r k q)) + BIA (ix3 r (0 : Fin 1) q)

section
variable [Cert.ReferenceIdeal.Facts₀]
open Cert.ReferenceIdeal.Facts₀

/-- The three feature matrices stacked along a new first axis, as both programs spell it. -/
def stack3 (a0 a1 a2 : Vec Ideal S50000x128 .f32) : Vec Ideal S3x50000x128 .f32 :=
  concatenate S3x50000x128 0
    [⟨S1x50000x128, broadcastInDim S1x50000x128 ![1, 2] bcast_S50000x128_S1x50000x128_1_2 a0⟩,
     ⟨S1x50000x128, broadcastInDim S1x50000x128 ![1, 2] bcast_S50000x128_S1x50000x128_1_2 a1⟩,
     ⟨S1x50000x128, broadcastInDim S1x50000x128 ![1, 2] bcast_S50000x128_S1x50000x128_1_2 a2⟩]
    concatenates_S1x50000x128_S1x50000x128_S1x50000x128_S3x50000x128_d0

/-- The reference's product with relation `o`'s weight matrix plus its bias row. -/
def refDense (x : Vec Ideal S50000x128 .f32) (W : Vec Ideal S3x128x128 .f32) (B : Vec Ideal S3x128 .f32) (o : ℕ)
    (hW : S3x128x128.Slices ![o, 0, 0] S1x128x128) (hB : S3x128.Slices ![o, 0] S1x128) : Vec Ideal S50000x128 .f32 :=
  addf (F := Ideal) (φ := .f32)
    (Host.dotGeneral (F := Ideal) (φ₁ := .f32) (φ₂ := .f32) dot_S50000x128_S128x128_S50000x128_1_0_0_1_n_n none x
      (shapeCast S128x128 (extractStridedSlice S1x128x128 ![o, 0, 0] W hW) shapeCasts_S1x128x128_S128x128))
    (broadcastInDim S50000x128 ![0, 1] bcast_S1x128_S50000x128_0_1
      (broadcastInDim S1x128 ![1] bcast_S128_S1x128_1
        (shapeCast S128 (extractStridedSlice S1x128 ![o, 0] B hB) shapeCasts_S1x128_S128)))

/-- The reference's mean of three matrices: stack, sum over the stack axis from zero, divide by 3. -/
def refMean (d0 d1 d2 : Vec Ideal S50000x128 .f32) : Vec Ideal S50000x128 .f32 :=
  Host.divf (F := Ideal) (φ := .f32)
    (Host.reduceAdd (F := Ideal) (φ := .f32) (stack3 d0 d1 d2)
      (constant (F := Ideal) S_ .f32 0x00000000#32) reducesTo_S3x50000x128_S50000x128_d0 h_S_)
    (broadcastInDim S50000x128 ![] bcast_S_S50000x128 (constant (F := Ideal) S_ .f32 0x40400000#32))

/-- The reference's leaky rectifier: compare with a zero array, scale by the slope array, choose. -/
def refLeaky (x : Vec Ideal S50000x128 .f32) : Vec Ideal S50000x128 .f32 :=
  select (cmpf (F := Ideal) (φ := .f32) .oge x
      (broadcastInDim S50000x128 ![] bcast_S_S50000x128 (constant (F := Ideal) S_ .f32 0x00000000#32))) x
    (mulf (F := Ideal) (φ := .f32)
      (broadcastInDim S50000x128 ![] bcast_S_S50000x128 (id (constant (F := Ideal) S_ .f32 0x3C23D70A#32))) x)

/-- The reference's last layer: the mean of the three relations' dense images. -/
def refLayerLast (a0 a1 a2 : Vec Ideal S50000x128 .f32) (W : Vec Ideal S3x128x128 .f32) (B : Vec Ideal S3x128 .f32) :
    Vec Ideal S50000x128 .f32 :=
  refMean (refDense a0 W B 0 slices_S3x128x128_S1x128x128_0_0_0 slices_S3x128_S1x128_0_0)
    (refDense a1 W B 1 slices_S3x128x128_S1x128x128_1_0_0 slices_S3x128_S1x128_1_0)
    (refDense a2 W B 2 slices_S3x128x128_S1x128x128_2_0_0 slices_S3x128_S1x128_2_0)

/-- The reference's inner layer: the rectified mean. -/
def refLayer (a0 a1 a2 : Vec Ideal S50000x128 .f32) (W : Vec Ideal S3x128x128 .f32) (B : Vec Ideal S3x128 .f32) :
    Vec Ideal S50000x128 .f32 :=
  refLeaky (refLayerLast a0 a1 a2 W B)

/-- The reference's output step: the product with the 128×64 output weights plus the bias vector laid down the rows. -/
def refOut (h : Vec Ideal S50000x128 .f32) (Wo : Vec Ideal S128x64 .f32) (bo : Vec Ideal S64 .f32) : Vec Ideal S50000x64 .f32 :=
  addf (F := Ideal) (φ := .f32)
    (Host.dotGeneral (F := Ideal) (φ₁ := .f32) (φ₂ := .f32) dot_S50000x128_S128x64_S50000x64_1_0_0_1_n_n none h Wo)
    (broadcastInDim S50000x64 ![0, 1] bcast_S1x64_S50000x64_0_1 (broadcastInDim S1x64 ![1] bcast_S64_S1x64_1 bo))

/-! ## The reference at an entry -/

theorem refDense_apply (x : Vec Ideal S50000x128 .f32) (W : Vec Ideal S3x128x128 .f32) (B : Vec Ideal S3x128 .f32) (o : ℕ)
    (hW : S3x128x128.Slices ![o, 0, 0] S1x128x128) (hB : S3x128.Slices ![o, 0] S1x128) (r : Fin 3) (hr : r.val = o)
    (i : Fin 50000) (q : Fin 128) :
    refDense x W B o hW hB (ix2 i q) = (∑ k : Fin 128, x (ix2 i k) * W (ix3 r k q)) + B (ix2 r q) := by
  unfold refDense
  rw [hostDense_apply]
  exact congrArg₂ (· + ·)
    (Finset.sum_congr rfl fun k _ => congrArg (x (ix2 i k) * ·) (sliceMat_apply o W hW shapeCasts_S1x128x128_S128x128 r hr k q))
    (sliceRow_apply o B hB shapeCasts_S1x128_S128 bcast_S128_S1x128_1 r hr (0 : Fin 1) q)

theorem refMean_apply (d0 d1 d2 : Vec Ideal S50000x128 .f32) (i : Fin 50000) (q : Fin 128) :
    refMean d0 d1 d2 (ix2 i q) = (0 + (d0 (ix2 i q) + d1 (ix2 i q) + d2 (ix2 i q))) * ((1 / 3 : ℝ) : EReal) := by
  unfold refMean stack3
  exact mean3_apply d0 d1 d2 _ _ _ _ _ i q

theorem refLeaky_apply (x : Vec Ideal S50000x128 .f32) (i : Fin 50000) (q : Fin 128) :
    refLeaky x (ix2 i q) = leaky (x (ix2 i q)) := by
  unfold refLeaky
  exact hostLeaky_apply x _ i q

/-- Relation r's contribution to entry (i, q) as the reference reads it. -/
def refT (a : Vec Ideal S50000x128 .f32) (W : Vec Ideal S3x128x128 .f32) (B : Vec Ideal S3x128 .f32) (r : Fin 3)
    (i : Fin 50000) (q : Fin 128) : EReal :=
  (∑ k : Fin 128, a (ix2 i k) * W (ix3 r k q)) + B (ix2 r q)

theorem refLayerLast_apply (a0 a1 a2 : Vec Ideal S50000x128 .f32) (W : Vec Ideal S3x128x128 .f32) (B : Vec Ideal S3x128 .f32)
    (i : Fin 50000) (q : Fin 128) :
    refLayerLast a0 a1 a2 W B (ix2 i q)
      = (0 + (refT a0 W B 0 i q + refT a1 W B 1 i q + refT a2 W B 2 i q)) * ((1 / 3 : ℝ) : EReal) := by
  unfold refLayerLast
  rw [refMean_apply, refDense_apply a0 W B 0 _ _ 0 rfl, refDense_apply a1 W B 1 _ _ 1 rfl, refDense_apply a2 W B 2 _ _ 2 rfl]
  rfl

theorem refLayer_apply (a0 a1 a2 : Vec Ideal S50000x128 .f32) (W : Vec Ideal S3x128x128 .f32) (B : Vec Ideal S3x128 .f32)
    (i : Fin 50000) (q : Fin 128) :
    refLayer a0 a1 a2 W B (ix2 i q)
      = leaky ((0 + (refT a0 W B 0 i q + refT a1 W B 1 i q + refT a2 W B 2 i q)) * ((1 / 3 : ℝ) : EReal)) := by
  unfold refLayer
  rw [refLeaky_apply, refLayerLast_apply]

theorem refOut_apply (h : Vec Ideal S50000x128 .f32) (Wo : Vec Ideal S128x64 .f32) (bo : Vec Ideal S64 .f32)
    (i : Fin 50000) (q : Fin 64) :
    refOut h Wo bo (ix2 i q) = (∑ k : Fin 128, h (ix2 i k) * Wo (ix2 k q)) + bo (ix1 q) := by
  unfold refOut
  rw [hostDenseOut_apply]
  refine congrArg ((∑ k : Fin 128, h (ix2 i k) * Wo (ix2 k q)) + ·) ?_
  refine broadcastInDim_apply _ bcast_S64_S1x64_1 bo _ (ix1 q) fun d => ?_
  match d with
  | ⟨0, _⟩ => rfl

/-! ## The kernel program's arrays at an entry -/

/-- Relation r's contribution read off the kernel program's arrays is the reference's. -/
theorem kernT_eq (a0 a1 a2 : Vec Ideal S50000x128 .f32) (W : Vec Ideal S3x128x128 .f32) (B : Vec Ideal S3x128 .f32)
    (hcast : S3x128.ShapeCasts (⟨3, ![3, 1, 128]⟩ : Shape)) (i : Fin 50000) (q : Fin 128) :
    kernT (stack3 a0 a1 a2) W (shapeCast (⟨3, ![3, 1, 128]⟩ : Shape) B hcast) 0 i q = refT a0 W B 0 i q
    ∧ kernT (stack3 a0 a1 a2) W (shapeCast (⟨3, ![3, 1, 128]⟩ : Shape) B hcast) 1 i q = refT a1 W B 1 i q
    ∧ kernT (stack3 a0 a1 a2) W (shapeCast (⟨3, ![3, 1, 128]⟩ : Shape) B hcast) 2 i q = refT a2 W B 2 i q := by
  unfold kernT refT stack3
  refine ⟨?_, ?_, ?_⟩
  · exact congrArg₂ (· + ·)
      (Finset.sum_congr rfl fun k _ => congrArg (· * W (ix3 (0 : Fin 3) k q)) (stackMat_0 a0 a1 a2 _ _ i k))
      (cast_rc_r1c_apply B hcast (0 : Fin 3) (0 : Fin 1) q)
  · exact congrArg₂ (· + ·)
      (Finset.sum_congr rfl fun k _ => congrArg (· * W (ix3 (1 : Fin 3) k q)) (stackMat_1 a0 a1 a2 _ _ i k))
      (cast_rc_r1c_apply B hcast (1 : Fin 3) (0 : Fin 1) q)
  · exact congrArg₂ (· + ·)
      (Finset.sum_congr rfl fun k _ => congrArg (· * W (ix3 (2 : Fin 3) k q)) (stackMat_2 a0 a1 a2 _ _ i k))
      (cast_rc_r1c_apply B hcast (2 : Fin 3) (0 : Fin 1) q)

/-- ONE INNER LAYER at an entry: what the fused kernel leaves (the rectifier of a third of the contributions accumulated
    one by one into zero, read off the kernel program's arrays) is the reference's layer there. -/
theorem layer_entry (a0 a1 a2 : Vec Ideal S50000x128 .f32) (W : Vec Ideal S3x128x128 .f32) (B : Vec Ideal S3x128 .f32)
    (hcast : S3x128.ShapeCasts (⟨3, ![3, 1, 128]⟩ : Shape)) (i : Fin 50000) (q : Fin 128) :
    leaky ((((0 + kernT (stack3 a0 a1 a2) W (shapeCast (⟨3, ![3, 1, 128]⟩ : Shape) B hcast) 0 i q)
        + kernT (stack3 a0 a1 a2) W (shapeCast (⟨3, ![3, 1, 128]⟩ : Shape) B hcast) 1 i q)
        + kernT (stack3 a0 a1 a2) W (shapeCast (⟨3, ![3, 1, 128]⟩ : Shape) B hcast) 2 i q) * ((1 / 3 : ℝ) : EReal))
      = refLayer a0 a1 a2 W B (ix2 i q) := by
  obtain ⟨h0, h1, h2⟩ := kernT_eq a0 a1 a2 W B hcast i q
  rw [refLayer_apply]
  exact layer_join h0 h1 h2 _

/-- THE LAST LAYER at an entry: the same without the rectifier. -/
theorem layer_entry_last (a0 a1 a2 : Vec Ideal S50000x128 .f32) (W : Vec Ideal S3x128x128 .f32) (B : Vec Ideal S3x128 .f32)
    (hcast : S3x128.ShapeCasts (⟨3, ![3, 1, 128]⟩ : Shape)) (i : Fin 50000) (q : Fin 128) :
    (((0 + kernT (stack3 a0 a1 a2) W (shapeCast (⟨3, ![3, 1, 128]⟩ : Shape) B hcast) 0 i q)
        + kernT (stack3 a0 a1 a2) W (shapeCast (⟨3, ![3, 1, 128]⟩ : Shape) B hcast) 1 i q)
        + kernT (stack3 a0 a1 a2) W (shapeCast (⟨3, ![3, 1, 128]⟩ : Shape) B hcast) 2 i q) * ((1 / 3 : ℝ) : EReal)
      = refLayerLast a0 a1 a2 W B (ix2 i q) := by
  obtain ⟨h0, h1, h2⟩ := kernT_eq a0 a1 a2 W B hcast i q
  rw [refLayerLast_apply]
  exact layer_join_last h0 h1 h2 _

/-- THE OUTPUT STEP at an entry: the final kernel's product-plus-bias, its bias the [64] vector recast as a [1,64] row,
    is the reference's. -/
theorem out_entry (h : Vec Ideal S50000x128 .f32) (Wo : Vec Ideal S128x64 .f32) (bo : Vec Ideal S64 .f32)
    (hcast : S64.ShapeCasts S1x64) (i : Fin 50000) (q : Fin 64) :
    (∑ k : Fin 128, h (ix2 i k) * Wo (ix2 k q)) + shapeCast S1x64 bo hcast (ix2 (0 : Fin 1) q) = refOut h Wo bo (ix2 i q) := by
  rw [refOut_apply, shapeCast_a_1a_apply]

end

end Cert.Bridge

end
-- ==== Proof.KJoin0.lean ====
/-
  Region 0 against the reference, as arrays: the region's output array, given the arrays the kernel program prepares for
  it, is the reference's layer of the same data.
-/
import proofs.«165758_j22333829939343_1_alg».proof.Proof.KEntry0
import proofs.«165758_j22333829939343_1_alg».proof.Proof.BridgeLayer

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

variable (V : (c : Dev nD) → (b : Ref sig .tc) → Buf (Elt Ideal) ((c : Thread nD τ).loc b))

/-- REGION 0 AGAINST THE REFERENCE'S LAYER: when the region finds the stacked features, the weights and the recast biases
    the kernel program prepares, its output array is the reference's layer of the same features, weights and biases. -/
theorem G0_eq_refLayer [Cert.ReferenceIdeal.Facts₀] (c : Dev nD)
    (a0 a1 a2 : Vec Ideal Cert.ReferenceIdeal.S50000x128 .f32) (W : Vec Ideal Cert.ReferenceIdeal.S3x128x128 .f32)
    (B : Vec Ideal Cert.ReferenceIdeal.S3x128 .f32) (hcast : Cert.ReferenceIdeal.S3x128.ShapeCasts (⟨3, ![3, 1, 128]⟩ : Shape))
    (hA : AGG0 V c = Cert.Bridge.stack3 a0 a1 a2) (hW : WGT0 V c = W)
    (hB : BIA0 V c = shapeCast (⟨3, ![3, 1, 128]⟩ : Shape) B hcast) :
    G0 V c = Cert.Bridge.refLayer a0 a1 a2 W B := by
  funext j
  rw [eq_ix2 j]
  refine (G0_entry V c (j 0) (j 1)).trans ?_
  show Cert.Layer.leaky ((((0 + Cert.Bridge.kernT (AGG0 V c) (WGT0 V c) (BIA0 V c) 0 (j 0) (j 1))
      + Cert.Bridge.kernT (AGG0 V c) (WGT0 V c) (BIA0 V c) 1 (j 0) (j 1))
      + Cert.Bridge.kernT (AGG0 V c) (WGT0 V c) (BIA0 V c) 2 (j 0) (j 1)) * ((1 / 3 : ℝ) : EReal)) = _
  rw [hA, hW, hB]
  exact Cert.Bridge.layer_entry a0 a1 a2 W B hcast (j 0) (j 1)

end Cert.KernelIdeal.Hand

end
-- ==== Proof.BridgeVocab.lean ====
/-
  The host-side vocabulary shared by the two programs' graph-convolution layers, as pure functions of arrays.

  Both programs prepare, per relation r, the same degree-normalised aggregate of the node features h:
  * `rowOf E o`: row o of a [3, 800000] edge table (source or destination node of each edge), as a vector of 800000 indices;
  * `degOf idx`: how many edges name each node: ones scattered-and-added at `idx` into 50000 zeros;
  * `invSqrtDeg d`: 1/√(max(d, 1)) per node, repeated along the 128 features;
  * `normIdx idx`: a negative index counted from the end (idx + 50000 where idx < 0), as array indexing does;
  * `aggOf h src dst dout din`: the features scaled by the source-side factor, gathered at each edge's source,
    scattered-and-added at its destination into zeros, and scaled by the destination-side factor.
  The kernel program keeps the three relations' degree vectors stacked as one [3, 50000] array (`degStack`) and reads
  relation r's back out of it (`kdeg`); reading back what was stacked returns it (`kdeg_degStack`).
  Every definition is spelt operation by operation as the programs print the chain.
-/
import proofs.«165758_j22333829939343_1_alg».proof.ReferenceIdeal
import proofs.«165758_j22333829939343_1_alg».proof.KernelIdeal
import Idealize.ShloMosaic.PureOps.Ideal

noncomputable section

namespace Cert.Bridge

open Idealize.ShloMosaic Cert.ReferenceIdeal

section
variable [Cert.ReferenceIdeal.Facts₀]
open Cert.ReferenceIdeal.Facts₀

/-- Row `o` of a [3, 800000] table of node indices. -/
def rowOf (E : Vec Ideal S3x800000 .i32) (o : ℕ) (h : S3x800000.Slices ![o, 0] S1x800000) : Vec Ideal S800000 .i32 :=
  shapeCast S800000 (extractStridedSlice S1x800000 ![o, 0] E h) shapeCasts_S1x800000_S800000

/-- The number of edges naming each node: ones added at the edges' indices into zeros. -/
def degOf (idx : Vec Ideal S800000 .i32) : Vec Ideal S50000 .f32 :=
  Host.scatterAdd (F := Ideal) (φ := .f32) scatter_S50000_S800000x1_S800000_n_0_0_1
    (broadcastInDim S50000 ![] bcast_S_S50000 (constant (F := Ideal) S_ .f32 0x00000000#32))
    (broadcastInDim S800000x1 ![0] bcast_S800000_S800000x1_0 idx)
    (broadcastInDim S800000 ![] bcast_S_S800000 (constant (F := Ideal) S_ .f32 0x3F800000#32))

/-- 1/√(max(d, 1)) per node, repeated along the features. -/
def invSqrtDeg (d : Vec Ideal S50000 .f32) : Vec Ideal S50000x128 .f32 :=
  broadcastInDim S50000x128 ![0, 1] bcast_S50000x1_S50000x128_0_1
    (broadcastInDim S50000x1 ![0] bcast_S50000_S50000x1_0
      (Host.rsqrt (F := Ideal) (φ := .f32)
        (maximumf (F := Ideal) (φ := .f32) d (broadcastInDim S50000 ![] bcast_S_S50000 (constant (F := Ideal) S_ .f32 0x3F800000#32)))))

/-- A negative index counts from the end: idx + 50000 where idx < 0, else idx. -/
def normIdx (idx : Vec Ideal S800000 .i32) : Vec Ideal S800000 .i32 :=
  select (cmpi .slt idx (broadcastInDim S800000 ![] bcast_S_S800000 (constantI S_ 32 0#32)))
    (addi idx (broadcastInDim S800000 ![] bcast_S_S800000 (constantI S_ 32 50000#32))) idx

/-- One relation's degree-normalised aggregate of the node features. -/
def aggOf (h : Vec Ideal S50000x128 .f32) (src dst : Vec Ideal S800000 .i32) (dout din : Vec Ideal S50000 .f32) :
    Vec Ideal S50000x128 .f32 :=
  mulf (F := Ideal) (φ := .f32)
    (Host.scatterAdd (F := Ideal) (φ := .f32) scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128
        (mulf (F := Ideal) (φ := .f32) h (invSqrtDeg dout))
        (broadcastInDim S800000x1 ![0] bcast_S800000_S800000x1_0 (normIdx src))))
    (invSqrtDeg din)

end

section
variable [Cert.KernelIdeal.Facts₀]

/-- Three per-node vectors stacked as one [3, 50000] array, as the kernel program keeps the relations' degrees. -/
def degStack (d0 d1 d2 : Vec Ideal S50000 .f32) : Vec Ideal Cert.KernelIdeal.S3x50000 .f32 :=
  concatenate Cert.KernelIdeal.S3x50000 0
    [⟨Cert.KernelIdeal.S1x50000, broadcastInDim Cert.KernelIdeal.S1x50000 ![1] Cert.KernelIdeal.Facts₀.bcast_S50000_S1x50000_1 d0⟩,
     ⟨Cert.KernelIdeal.S1x50000, broadcastInDim Cert.KernelIdeal.S1x50000 ![1] Cert.KernelIdeal.Facts₀.bcast_S50000_S1x50000_1 d1⟩,
     ⟨Cert.KernelIdeal.S1x50000, broadcastInDim Cert.KernelIdeal.S1x50000 ![1] Cert.KernelIdeal.Facts₀.bcast_S50000_S1x50000_1 d2⟩]
    Cert.KernelIdeal.Facts₀.concatenates_S1x50000_S1x50000_S1x50000_S3x50000_d0

/-- Row `o` of such a stack, as a per-node vector again. -/
def kdeg (S : Vec Ideal Cert.KernelIdeal.S3x50000 .f32) (o : ℕ) (h : Cert.KernelIdeal.S3x50000.Slices ![o, 0] Cert.KernelIdeal.S1x50000) : Vec Ideal S50000 .f32 :=
  shapeCast S50000 (extractStridedSlice Cert.KernelIdeal.S1x50000 ![o, 0] S h) Cert.KernelIdeal.Facts₀.shapeCasts_S1x50000_S50000

end

end Cert.Bridge

end
-- ==== Proof.LibHostReads.lean ====
/-
  Reading a buffer after a straight line of host operations, for lines that stack THREE operands: an operation over
  a literal triple of references gives its function applied to the three operands' contents, each read at its own
  reference (so that the reading can go on through the operations that produced them).
-/
import Idealize.ShloMosaic.Lib.StableHlo.Run

namespace Idealize.ShloMosaic.StableHlo

variable {τ : Topo} {sig : RefSig} {Val : EltTy → Type}
variable {x a b y : Ref sig .tc}

/-- An operation over the literal triple `![x, a, b]` at its result: its function at the three operands' contents, each
    read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the three operands' contents given by equations, to be read one by one. -/
theorem nary3_read
    (f : ((k : Fin 3) → ((![x, a, b] : Fin 3 → Ref sig .tc) k).ty.Contents Val) → y.ty.Contents Val) (hxs hy)
    (F : Valuation τ sig Val) (A : x.ty.Contents Val) (B : a.ty.Contents Val) (C : b.ty.Contents Val)
    (hA : F (Proc.devRef .tc x) = A) (hB : F (Proc.devRef .tc a) = B) (hC : F (Proc.devRef .tc b) = C) :
    (nary (τ := τ) ![x, a, b] y f hxs hy).result F (Proc.devRef .tc y)
      = f (Fin.cons A (Fin.cons B (Fin.cons C (fun i => i.elim0)))) := by
  subst hA hB hC; exact nary3_result f hxs hy F

end Idealize.ShloMosaic.StableHlo

open Idealize.ShloMosaic in
/-- Reads a buffer after a literal line of host operations: the fold over the line is unfolded and each operation's
    result is rewritten at its own buffer to its function's value, elsewhere to what was there before it (references are
    told apart by evaluation), in one pass. It stops at the result of an operation over a tuple of references, which
    `nary3_read` takes over. -/
macro "host_reads" : tactic =>
  `(tactic| (simp (disch := decide) only [StableHlo.after_cons, StableHlo.after_nil,
      StableHlo.nullary_result', StableHlo.unary_result', StableHlo.binary_result', StableHlo.ternary_result',
      StableHlo.quaternary_result', StableHlo.reshape_result',
      StableHlo.nullary_result_ne', StableHlo.unary_result_ne', StableHlo.binary_result_ne', StableHlo.ternary_result_ne',
      StableHlo.quaternary_result_ne', StableHlo.reshape_result_ne', StableHlo.nary_result_ne']))
-- ==== Proof.LayerDeg.lean ====
/-
  Three vectors stacked as the rows of a [3,N] array and one row taken back out.

  The kernel program keeps the three relations' degree vectors as one [3,N] array: each vector is given a unit first axis
  and the three rows are laid one after another; later it cuts row r off the array and recasts it as a vector. That is the
  r-th vector again, which is what the reference uses directly.
-/
import Idealize.ShloMosaic.Lib.ValueIdx
import Idealize.ShloMosaic.Lib.ValueLayout
import Idealize.ShloMosaic.Lib.Pipeline.Value

namespace Cert.Layer

open Idealize.ShloMosaic Idealize.ShloMosaic.ValueIdx

section Rows
variable {α : Type} {N : ℕ}
  (x0 x1 x2 : (⟨2, ![1, N]⟩ : Shape).Idx → α)
  (h : Shape.Concatenates [⟨2, ![1, N]⟩, ⟨2, ![1, N]⟩, ⟨2, ![1, N]⟩] ⟨2, ![3, N]⟩ 0)
  (n : Fin N)

/-- Three one-row blocks stacked along the first axis: row 0 of the stack is the first block's row. -/
theorem rows3_0 :
    concatenate ⟨2, ![3, N]⟩ 0 [⟨⟨2, ![1, N]⟩, x0⟩, ⟨⟨2, ![1, N]⟩, x1⟩, ⟨⟨2, ![1, N]⟩, x2⟩] h (ix2 (0 : Fin 3) n)
      = x0 (ix2 (0 : Fin 1) n) :=
  concatenate_apply_piece 0 [⟨⟨2, ![1, N]⟩, x0⟩, ⟨⟨2, ![1, N]⟩, x1⟩, ⟨⟨2, ![1, N]⟩, x2⟩] h (ix2 (0 : Fin 3) n)
    0 (by simp) _ x0 rfl rfl 0 rfl (ix2 (0 : Fin 1) n)
    (fun d hd => by
      match d with
      | ⟨0, _⟩ => exact absurd rfl hd
      | ⟨1, _⟩ => rfl)
    rfl

/-- … row 1 is the second block's row. -/
theorem rows3_1 :
    concatenate ⟨2, ![3, N]⟩ 0 [⟨⟨2, ![1, N]⟩, x0⟩, ⟨⟨2, ![1, N]⟩, x1⟩, ⟨⟨2, ![1, N]⟩, x2⟩] h (ix2 (1 : Fin 3) n)
      = x1 (ix2 (0 : Fin 1) n) :=
  concatenate_apply_piece 0 [⟨⟨2, ![1, N]⟩, x0⟩, ⟨⟨2, ![1, N]⟩, x1⟩, ⟨⟨2, ![1, N]⟩, x2⟩] h (ix2 (1 : Fin 3) n)
    1 (by simp) _ x1 rfl rfl 1 (by simp) (ix2 (0 : Fin 1) n)
    (fun d hd => by
      match d with
      | ⟨0, _⟩ => exact absurd rfl hd
      | ⟨1, _⟩ => rfl)
    rfl

/-- … row 2 is the third block's row. -/
theorem rows3_2 :
    concatenate ⟨2, ![3, N]⟩ 0 [⟨⟨2, ![1, N]⟩, x0⟩, ⟨⟨2, ![1, N]⟩, x1⟩, ⟨⟨2, ![1, N]⟩, x2⟩] h (ix2 (2 : Fin 3) n)
      = x2 (ix2 (0 : Fin 1) n) :=
  concatenate_apply_piece 0 [⟨⟨2, ![1, N]⟩, x0⟩, ⟨⟨2, ![1, N]⟩, x1⟩, ⟨⟨2, ![1, N]⟩, x2⟩] h (ix2 (2 : Fin 3) n)
    2 (by simp) _ x2 rfl rfl 2 (by simp) (ix2 (0 : Fin 1) n)
    (fun d hd => by
      match d with
      | ⟨0, _⟩ => exact absurd rfl hd
      | ⟨1, _⟩ => rfl)
    rfl

/-- A vector given a unit first axis reads, at (0, n), its entry n. -/
theorem addAxis0Vec_apply (d : (⟨1, ![N]⟩ : Shape).Idx → α)
    (hb : (⟨1, ![N]⟩ : Shape).BroadcastsInDim ⟨2, ![1, N]⟩ (![1] : Fin 1 → Fin 2)) (z : Fin 1) :
    broadcastInDim ⟨2, ![1, N]⟩ (![1] : Fin 1 → Fin 2) hb d (ix2 z n) = d (ix1 n) := by
  refine broadcastInDim_apply _ hb d _ (ix1 n) fun a => ?_
  match a with
  | ⟨0, _⟩ =>
    show n.val = if N = 1 then 0 else n.val
    split
    · have := n.isLt; omega
    · rfl

end Rows

section TakeBack
variable {α : Type} {N : ℕ} (d0 d1 d2 : (⟨1, ![N]⟩ : Shape).Idx → α)
  (hb : (⟨1, ![N]⟩ : Shape).BroadcastsInDim ⟨2, ![1, N]⟩ (![1] : Fin 1 → Fin 2))
  (hc : Shape.Concatenates [⟨2, ![1, N]⟩, ⟨2, ![1, N]⟩, ⟨2, ![1, N]⟩] ⟨2, ![3, N]⟩ 0)
  (hsc : (⟨2, ![1, N]⟩ : Shape).ShapeCasts ⟨1, ![N]⟩)

/-- Row 0 cut off the stack of three vectors and recast as a vector is the first vector. -/
theorem takeRow_0 (hsl : (⟨2, ![3, N]⟩ : Shape).Slices ![0, 0] ⟨2, ![1, N]⟩) :
    shapeCast ⟨1, ![N]⟩ (extractStridedSlice ⟨2, ![1, N]⟩ ![0, 0]
      (concatenate ⟨2, ![3, N]⟩ 0
        [⟨⟨2, ![1, N]⟩, broadcastInDim ⟨2, ![1, N]⟩ (![1] : Fin 1 → Fin 2) hb d0⟩,
         ⟨⟨2, ![1, N]⟩, broadcastInDim ⟨2, ![1, N]⟩ (![1] : Fin 1 → Fin 2) hb d1⟩,
         ⟨⟨2, ![1, N]⟩, broadcastInDim ⟨2, ![1, N]⟩ (![1] : Fin 1 → Fin 2) hb d2⟩] hc) hsl) hsc = d0 := by
  funext j
  rw [eq_ix1 j]
  exact (shapeCast_1a_a_apply _ hsc (j 0)).trans ((slice2_axis0_apply 0 _ hsl (0 : Fin 1) (j 0) (0 : Fin 3) rfl).trans
    ((rows3_0 _ _ _ hc (j 0)).trans (addAxis0Vec_apply (j 0) d0 hb 0)))

/-- Row 1 cut off the stack is the second vector. -/
theorem takeRow_1 (hsl : (⟨2, ![3, N]⟩ : Shape).Slices ![1, 0] ⟨2, ![1, N]⟩) :
    shapeCast ⟨1, ![N]⟩ (extractStridedSlice ⟨2, ![1, N]⟩ ![1, 0]
      (concatenate ⟨2, ![3, N]⟩ 0
        [⟨⟨2, ![1, N]⟩, broadcastInDim ⟨2, ![1, N]⟩ (![1] : Fin 1 → Fin 2) hb d0⟩,
         ⟨⟨2, ![1, N]⟩, broadcastInDim ⟨2, ![1, N]⟩ (![1] : Fin 1 → Fin 2) hb d1⟩,
         ⟨⟨2, ![1, N]⟩, broadcastInDim ⟨2, ![1, N]⟩ (![1] : Fin 1 → Fin 2) hb d2⟩] hc) hsl) hsc = d1 := by
  funext j
  rw [eq_ix1 j]
  exact (shapeCast_1a_a_apply _ hsc (j 0)).trans ((slice2_axis0_apply 1 _ hsl (0 : Fin 1) (j 0) (1 : Fin 3) rfl).trans
    ((rows3_1 _ _ _ hc (j 0)).trans (addAxis0Vec_apply (j 0) d1 hb 0)))

/-- Row 2 cut off the stack is the third vector. -/
theorem takeRow_2 (hsl : (⟨2, ![3, N]⟩ : Shape).Slices ![2, 0] ⟨2, ![1, N]⟩) :
    shapeCast ⟨1, ![N]⟩ (extractStridedSlice ⟨2, ![1, N]⟩ ![2, 0]
      (concatenate ⟨2, ![3, N]⟩ 0
        [⟨⟨2, ![1, N]⟩, broadcastInDim ⟨2, ![1, N]⟩ (![1] : Fin 1 → Fin 2) hb d0⟩,
         ⟨⟨2, ![1, N]⟩, broadcastInDim ⟨2, ![1, N]⟩ (![1] : Fin 1 → Fin 2) hb d1⟩,
         ⟨⟨2, ![1, N]⟩, broadcastInDim ⟨2, ![1, N]⟩ (![1] : Fin 1 → Fin 2) hb d2⟩] hc) hsl) hsc = d2 := by
  funext j
  rw [eq_ix1 j]
  exact (shapeCast_1a_a_apply _ hsc (j 0)).trans ((slice2_axis0_apply 2 _ hsl (0 : Fin 1) (j 0) (2 : Fin 3) rfl).trans
    ((rows3_2 _ _ _ hc (j 0)).trans (addAxis0Vec_apply (j 0) d2 hb 0)))

end TakeBack

end Cert.Layer
-- ==== Proof.BridgeDeg.lean ====
/-
  Reading a relation's degree vector back out of the stacked [3, 50000] degree table returns the vector that was stacked.
-/
import proofs.«165758_j22333829939343_1_alg».proof.Proof.BridgeVocab
import proofs.«165758_j22333829939343_1_alg».proof.Proof.LayerDeg

noncomputable section

namespace Cert.Bridge

open Idealize.ShloMosaic

variable [Cert.ReferenceIdeal.Facts₀] [Cert.KernelIdeal.Facts₀]
variable (d0 d1 d2 : Vec Ideal Cert.ReferenceIdeal.S50000 .f32)

theorem kdeg_degStack_0 (h : Cert.KernelIdeal.S3x50000.Slices ![0, 0] Cert.KernelIdeal.S1x50000) :
    kdeg (degStack d0 d1 d2) 0 h = d0 := by
  unfold kdeg degStack; exact Cert.Layer.takeRow_0 d0 d1 d2 _ _ _ h

theorem kdeg_degStack_1 (h : Cert.KernelIdeal.S3x50000.Slices ![1, 0] Cert.KernelIdeal.S1x50000) :
    kdeg (degStack d0 d1 d2) 1 h = d1 := by
  unfold kdeg degStack; exact Cert.Layer.takeRow_1 d0 d1 d2 _ _ _ h

theorem kdeg_degStack_2 (h : Cert.KernelIdeal.S3x50000.Slices ![2, 0] Cert.KernelIdeal.S1x50000) :
    kdeg (degStack d0 d1 d2) 2 h = d2 := by
  unfold kdeg degStack; exact Cert.Layer.takeRow_2 d0 d1 d2 _ _ _ h

end Cert.Bridge

end
-- ==== Proof.BridgeReadK0.lean ====
/-
  What the first host stretch of the kernel program leaves, from any contents `V` before it: the two stacked degree
  tables (how many edges leave, and how many enter, each node, per relation), each relation's degrees read back out of
  them, and the first layer's biases recast as [3,1,128].
-/
import proofs.«165758_j22333829939343_1_alg».proof.Proof.Gen.KernelIdeal.Launch
import proofs.«165758_j22333829939343_1_alg».proof.Proof.BridgeVocab
import proofs.«165758_j22333829939343_1_alg».proof.Proof.BridgeLayer
import proofs.«165758_j22333829939343_1_alg».proof.Proof.LibHostReads
import proofs.«165758_j22333829939343_1_alg».proof.Proof.BridgeDeg

set_option maxRecDepth 16384

noncomputable section

namespace Cert.Bridge

open Idealize.ShloMosaic Idealize.ShloMosaic.TcCoe Idealize.ShloMosaic.StableHlo
open Cert.KernelIdeal Cert.KernelIdeal.Gen

variable [Cert.ReferenceIdeal.Facts₀]
variable (V : Valuation τ sig (Elt Ideal))

set_option maxHeartbeats 8000000 in
/-- The out-degree table: per relation the count of edges at each source node, the three vectors stacked. -/
theorem readK0_degOut : StableHlo.after hostOps0 V (Proc.devRef .tc main_v19) = (degStack (degOf (rowOf (V (Proc.devRef .tc main_arg1)) 0 Cert.ReferenceIdeal.Facts₀.slices_S3x800000_S1x800000_0_0)) (degOf (rowOf (V (Proc.devRef .tc main_arg1)) 1 Cert.ReferenceIdeal.Facts₀.slices_S3x800000_S1x800000_1_0)) (degOf (rowOf (V (Proc.devRef .tc main_arg1)) 2 Cert.ReferenceIdeal.Facts₀.slices_S3x800000_S1x800000_2_0))) := by
  dsimp only [hostOps0]
  host_reads
  refine (nary3_read _ _ _ _
    (broadcastInDim S1x50000 ![1] bcast_S50000_S1x50000_1 (degOf (rowOf (V (Proc.devRef .tc main_arg1)) 0 Cert.ReferenceIdeal.Facts₀.slices_S3x800000_S1x800000_0_0)))
    (broadcastInDim S1x50000 ![1] bcast_S50000_S1x50000_1 (degOf (rowOf (V (Proc.devRef .tc main_arg1)) 1 Cert.ReferenceIdeal.Facts₀.slices_S3x800000_S1x800000_1_0)))
    (broadcastInDim S1x50000 ![1] bcast_S50000_S1x50000_1 (degOf (rowOf (V (Proc.devRef .tc main_arg1)) 2 Cert.ReferenceIdeal.Facts₀.slices_S3x800000_S1x800000_2_0)))
    ?hA ?hB ?hC).trans ?fin
  case hA => host_reads <;> rfl
  case hB => host_reads <;> rfl
  case hC => host_reads <;> rfl
  case fin => rfl

set_option maxHeartbeats 8000000 in
/-- The in-degree table: the same over the destination nodes. -/
theorem readK0_degIn : StableHlo.after hostOps0 V (Proc.devRef .tc main_v38) = (degStack (degOf (rowOf (V (Proc.devRef .tc main_arg2)) 0 Cert.ReferenceIdeal.Facts₀.slices_S3x800000_S1x800000_0_0)) (degOf (rowOf (V (Proc.devRef .tc main_arg2)) 1 Cert.ReferenceIdeal.Facts₀.slices_S3x800000_S1x800000_1_0)) (degOf (rowOf (V (Proc.devRef .tc main_arg2)) 2 Cert.ReferenceIdeal.Facts₀.slices_S3x800000_S1x800000_2_0))) := by
  dsimp only [hostOps0]
  host_reads
  refine (nary3_read _ _ _ _
    (broadcastInDim S1x50000 ![1] bcast_S50000_S1x50000_1 (degOf (rowOf (V (Proc.devRef .tc main_arg2)) 0 Cert.ReferenceIdeal.Facts₀.slices_S3x800000_S1x800000_0_0)))
    (broadcastInDim S1x50000 ![1] bcast_S50000_S1x50000_1 (degOf (rowOf (V (Proc.devRef .tc main_arg2)) 1 Cert.ReferenceIdeal.Facts₀.slices_S3x800000_S1x800000_1_0)))
    (broadcastInDim S1x50000 ![1] bcast_S50000_S1x50000_1 (degOf (rowOf (V (Proc.devRef .tc main_arg2)) 2 Cert.ReferenceIdeal.Facts₀.slices_S3x800000_S1x800000_2_0)))
    ?hA ?hB ?hC).trans ?fin
  case hA => host_reads <;> rfl
  case hB => host_reads <;> rfl
  case hC => host_reads <;> rfl
  case fin => rfl

/-- Relation 0's out-degrees read back out of the table the stretch leaves. -/
theorem readK0_kdegOut_0 (h : S3x50000.Slices ![0, 0] S1x50000) :
    kdeg (StableHlo.after hostOps0 V (Proc.devRef .tc main_v19)) 0 h = degOf (rowOf (V (Proc.devRef .tc main_arg1)) 0 Cert.ReferenceIdeal.Facts₀.slices_S3x800000_S1x800000_0_0) := by
  rw [readK0_degOut]; exact kdeg_degStack_0 _ _ _ h

/-- Relation 0's in-degrees read back out of the table the stretch leaves. -/
theorem readK0_kdegIn_0 (h : S3x50000.Slices ![0, 0] S1x50000) :
    kdeg (StableHlo.after hostOps0 V (Proc.devRef .tc main_v38)) 0 h = degOf (rowOf (V (Proc.devRef .tc main_arg2)) 0 Cert.ReferenceIdeal.Facts₀.slices_S3x800000_S1x800000_0_0) := by
  rw [readK0_degIn]; exact kdeg_degStack_0 _ _ _ h

/-- Relation 1's out-degrees read back out of the table the stretch leaves. -/
theorem readK0_kdegOut_1 (h : S3x50000.Slices ![1, 0] S1x50000) :
    kdeg (StableHlo.after hostOps0 V (Proc.devRef .tc main_v19)) 1 h = degOf (rowOf (V (Proc.devRef .tc main_arg1)) 1 Cert.ReferenceIdeal.Facts₀.slices_S3x800000_S1x800000_1_0) := by
  rw [readK0_degOut]; exact kdeg_degStack_1 _ _ _ h

/-- Relation 1's in-degrees read back out of the table the stretch leaves. -/
theorem readK0_kdegIn_1 (h : S3x50000.Slices ![1, 0] S1x50000) :
    kdeg (StableHlo.after hostOps0 V (Proc.devRef .tc main_v38)) 1 h = degOf (rowOf (V (Proc.devRef .tc main_arg2)) 1 Cert.ReferenceIdeal.Facts₀.slices_S3x800000_S1x800000_1_0) := by
  rw [readK0_degIn]; exact kdeg_degStack_1 _ _ _ h

/-- Relation 2's out-degrees read back out of the table the stretch leaves. -/
theorem readK0_kdegOut_2 (h : S3x50000.Slices ![2, 0] S1x50000) :
    kdeg (StableHlo.after hostOps0 V (Proc.devRef .tc main_v19)) 2 h = degOf (rowOf (V (Proc.devRef .tc main_arg1)) 2 Cert.ReferenceIdeal.Facts₀.slices_S3x800000_S1x800000_2_0) := by
  rw [readK0_degOut]; exact kdeg_degStack_2 _ _ _ h

/-- Relation 2's in-degrees read back out of the table the stretch leaves. -/
theorem readK0_kdegIn_2 (h : S3x50000.Slices ![2, 0] S1x50000) :
    kdeg (StableHlo.after hostOps0 V (Proc.devRef .tc main_v38)) 2 h = degOf (rowOf (V (Proc.devRef .tc main_arg2)) 2 Cert.ReferenceIdeal.Facts₀.slices_S3x800000_S1x800000_2_0) := by
  rw [readK0_degIn]; exact kdeg_degStack_2 _ _ _ h

set_option maxHeartbeats 4000000 in
/-- The first layer's biases, recast as [3,1,128]. -/
theorem readK0_bias : StableHlo.after hostOps0 V (Proc.devRef .tc main_v133)
    = shapeCast S3x1x128 (V (Proc.devRef .tc main_arg4)) shapeCasts_S3x128_S3x1x128 := by
  dsimp only [hostOps0]
  host_reads <;> rfl

end Cert.Bridge

end
-- ==== Proof.BridgeReadAggK0.lean ====
/-
  What the first host stretch of the kernel program leaves in the first array region 0 reads, from any contents `V`
  before it: the three relations' degree-normalised aggregates of the input features, stacked. The stretch is read in
  two parts: its first 46 operations build the two stacked degree tables and write no argument; the rest reads those
  tables and the arguments, and its stacking operation is read at its three operands.
-/
import proofs.«165758_j22333829939343_1_alg».proof.Proof.Gen.KernelIdeal.Launch
import proofs.«165758_j22333829939343_1_alg».proof.Proof.BridgeVocab
import proofs.«165758_j22333829939343_1_alg».proof.Proof.BridgeLayer
import proofs.«165758_j22333829939343_1_alg».proof.Proof.LibHostReads
import proofs.«165758_j22333829939343_1_alg».proof.Proof.BridgeDeg

set_option maxRecDepth 16384

noncomputable section

namespace Cert.Bridge

open Idealize.ShloMosaic Idealize.ShloMosaic.TcCoe Idealize.ShloMosaic.StableHlo
open Cert.KernelIdeal Cert.KernelIdeal.Gen

variable [Cert.ReferenceIdeal.Facts₀]
variable (V : Valuation τ sig (Elt Ideal))

/-! ## The first 46 operations -/

set_option maxHeartbeats 8000000 in
theorem pre0_degOut : StableHlo.after (List.take 46 hostOps0) V (Proc.devRef .tc main_v19) = (degStack (degOf (rowOf (V (Proc.devRef .tc main_arg1)) 0 Cert.ReferenceIdeal.Facts₀.slices_S3x800000_S1x800000_0_0)) (degOf (rowOf (V (Proc.devRef .tc main_arg1)) 1 Cert.ReferenceIdeal.Facts₀.slices_S3x800000_S1x800000_1_0)) (degOf (rowOf (V (Proc.devRef .tc main_arg1)) 2 Cert.ReferenceIdeal.Facts₀.slices_S3x800000_S1x800000_2_0))) := by
  dsimp only [hostOps0]
  simp only [List.take_succ_cons, List.take_zero]
  host_reads
  refine (nary3_read _ _ _ _
    (broadcastInDim S1x50000 ![1] bcast_S50000_S1x50000_1 (degOf (rowOf (V (Proc.devRef .tc main_arg1)) 0 Cert.ReferenceIdeal.Facts₀.slices_S3x800000_S1x800000_0_0)))
    (broadcastInDim S1x50000 ![1] bcast_S50000_S1x50000_1 (degOf (rowOf (V (Proc.devRef .tc main_arg1)) 1 Cert.ReferenceIdeal.Facts₀.slices_S3x800000_S1x800000_1_0)))
    (broadcastInDim S1x50000 ![1] bcast_S50000_S1x50000_1 (degOf (rowOf (V (Proc.devRef .tc main_arg1)) 2 Cert.ReferenceIdeal.Facts₀.slices_S3x800000_S1x800000_2_0)))
    ?hA ?hB ?hC).trans ?fin
  case hA => host_reads <;> rfl
  case hB => host_reads <;> rfl
  case hC => host_reads <;> rfl
  case fin => rfl

set_option maxHeartbeats 8000000 in
theorem pre0_degIn : StableHlo.after (List.take 46 hostOps0) V (Proc.devRef .tc main_v38) = (degStack (degOf (rowOf (V (Proc.devRef .tc main_arg2)) 0 Cert.ReferenceIdeal.Facts₀.slices_S3x800000_S1x800000_0_0)) (degOf (rowOf (V (Proc.devRef .tc main_arg2)) 1 Cert.ReferenceIdeal.Facts₀.slices_S3x800000_S1x800000_1_0)) (degOf (rowOf (V (Proc.devRef .tc main_arg2)) 2 Cert.ReferenceIdeal.Facts₀.slices_S3x800000_S1x800000_2_0))) := by
  dsimp only [hostOps0]
  simp only [List.take_succ_cons, List.take_zero]
  host_reads
  refine (nary3_read _ _ _ _
    (broadcastInDim S1x50000 ![1] bcast_S50000_S1x50000_1 (degOf (rowOf (V (Proc.devRef .tc main_arg2)) 0 Cert.ReferenceIdeal.Facts₀.slices_S3x800000_S1x800000_0_0)))
    (broadcastInDim S1x50000 ![1] bcast_S50000_S1x50000_1 (degOf (rowOf (V (Proc.devRef .tc main_arg2)) 1 Cert.ReferenceIdeal.Facts₀.slices_S3x800000_S1x800000_1_0)))
    (broadcastInDim S1x50000 ![1] bcast_S50000_S1x50000_1 (degOf (rowOf (V (Proc.devRef .tc main_arg2)) 2 Cert.ReferenceIdeal.Facts₀.slices_S3x800000_S1x800000_2_0)))
    ?hA ?hB ?hC).trans ?fin
  case hA => host_reads <;> rfl
  case hB => host_reads <;> rfl
  case hC => host_reads <;> rfl
  case fin => rfl

set_option maxHeartbeats 4000000 in
theorem pre0_arg0 : StableHlo.after (List.take 46 hostOps0) V (Proc.devRef .tc main_arg0) = V (Proc.devRef .tc main_arg0) := by
  dsimp only [hostOps0]
  simp only [List.take_succ_cons, List.take_zero]
  host_reads <;> rfl

set_option maxHeartbeats 4000000 in
theorem pre0_arg1 : StableHlo.after (List.take 46 hostOps0) V (Proc.devRef .tc main_arg1) = V (Proc.devRef .tc main_arg1) := by
  dsimp only [hostOps0]
  simp only [List.take_succ_cons, List.take_zero]
  host_reads <;> rfl

set_option maxHeartbeats 4000000 in
theorem pre0_arg2 : StableHlo.after (List.take 46 hostOps0) V (Proc.devRef .tc main_arg2) = V (Proc.devRef .tc main_arg2) := by
  dsimp only [hostOps0]
  simp only [List.take_succ_cons, List.take_zero]
  host_reads <;> rfl

/-! ## The remaining operations, from any contents `W` before them -/

set_option maxHeartbeats 8000000 in
theorem suf0_agg (W : Valuation τ sig (Elt Ideal)) : StableHlo.after (List.drop 46 hostOps0) W (Proc.devRef .tc main_v132)
    = stack3 (aggOf (W (Proc.devRef .tc main_arg0)) (rowOf (W (Proc.devRef .tc main_arg1)) 0 Cert.ReferenceIdeal.Facts₀.slices_S3x800000_S1x800000_0_0) (rowOf (W (Proc.devRef .tc main_arg2)) 0 Cert.ReferenceIdeal.Facts₀.slices_S3x800000_S1x800000_0_0)
        (kdeg (W (Proc.devRef .tc main_v19)) 0 slices_S3x50000_S1x50000_0_0) (kdeg (W (Proc.devRef .tc main_v38)) 0 slices_S3x50000_S1x50000_0_0))
      (aggOf (W (Proc.devRef .tc main_arg0)) (rowOf (W (Proc.devRef .tc main_arg1)) 1 Cert.ReferenceIdeal.Facts₀.slices_S3x800000_S1x800000_1_0) (rowOf (W (Proc.devRef .tc main_arg2)) 1 Cert.ReferenceIdeal.Facts₀.slices_S3x800000_S1x800000_1_0)
        (kdeg (W (Proc.devRef .tc main_v19)) 1 slices_S3x50000_S1x50000_1_0) (kdeg (W (Proc.devRef .tc main_v38)) 1 slices_S3x50000_S1x50000_1_0))
      (aggOf (W (Proc.devRef .tc main_arg0)) (rowOf (W (Proc.devRef .tc main_arg1)) 2 Cert.ReferenceIdeal.Facts₀.slices_S3x800000_S1x800000_2_0) (rowOf (W (Proc.devRef .tc main_arg2)) 2 Cert.ReferenceIdeal.Facts₀.slices_S3x800000_S1x800000_2_0)
        (kdeg (W (Proc.devRef .tc main_v19)) 2 slices_S3x50000_S1x50000_2_0) (kdeg (W (Proc.devRef .tc main_v38)) 2 slices_S3x50000_S1x50000_2_0)) := by
  dsimp only [hostOps0]
  simp only [List.drop_succ_cons, List.drop_zero]
  host_reads
  refine (nary3_read _ _ _ _
    (broadcastInDim S1x50000x128 ![1, 2] bcast_S50000x128_S1x50000x128_1_2 (aggOf (W (Proc.devRef .tc main_arg0)) (rowOf (W (Proc.devRef .tc main_arg1)) 0 Cert.ReferenceIdeal.Facts₀.slices_S3x800000_S1x800000_0_0) (rowOf (W (Proc.devRef .tc main_arg2)) 0 Cert.ReferenceIdeal.Facts₀.slices_S3x800000_S1x800000_0_0)
        (kdeg (W (Proc.devRef .tc main_v19)) 0 slices_S3x50000_S1x50000_0_0) (kdeg (W (Proc.devRef .tc main_v38)) 0 slices_S3x50000_S1x50000_0_0)))
    (broadcastInDim S1x50000x128 ![1, 2] bcast_S50000x128_S1x50000x128_1_2 (aggOf (W (Proc.devRef .tc main_arg0)) (rowOf (W (Proc.devRef .tc main_arg1)) 1 Cert.ReferenceIdeal.Facts₀.slices_S3x800000_S1x800000_1_0) (rowOf (W (Proc.devRef .tc main_arg2)) 1 Cert.ReferenceIdeal.Facts₀.slices_S3x800000_S1x800000_1_0)
        (kdeg (W (Proc.devRef .tc main_v19)) 1 slices_S3x50000_S1x50000_1_0) (kdeg (W (Proc.devRef .tc main_v38)) 1 slices_S3x50000_S1x50000_1_0)))
    (broadcastInDim S1x50000x128 ![1, 2] bcast_S50000x128_S1x50000x128_1_2 (aggOf (W (Proc.devRef .tc main_arg0)) (rowOf (W (Proc.devRef .tc main_arg1)) 2 Cert.ReferenceIdeal.Facts₀.slices_S3x800000_S1x800000_2_0) (rowOf (W (Proc.devRef .tc main_arg2)) 2 Cert.ReferenceIdeal.Facts₀.slices_S3x800000_S1x800000_2_0)
        (kdeg (W (Proc.devRef .tc main_v19)) 2 slices_S3x50000_S1x50000_2_0) (kdeg (W (Proc.devRef .tc main_v38)) 2 slices_S3x50000_S1x50000_2_0)))
    ?hA ?hB ?hC).trans ?fin
  case hA => host_reads <;> rfl
  case hB => host_reads <;> rfl
  case hC => host_reads <;> rfl
  case fin => rfl

/-! ## The whole stretch -/

/-- The stacked aggregates of the input features, each relation's degrees counted over its own rows of the edge tables. -/
theorem readK0_agg : StableHlo.after hostOps0 V (Proc.devRef .tc main_v132)
    = stack3 (aggOf (V (Proc.devRef .tc main_arg0)) (rowOf (V (Proc.devRef .tc main_arg1)) 0 Cert.ReferenceIdeal.Facts₀.slices_S3x800000_S1x800000_0_0) (rowOf (V (Proc.devRef .tc main_arg2)) 0 Cert.ReferenceIdeal.Facts₀.slices_S3x800000_S1x800000_0_0)
        (degOf (rowOf (V (Proc.devRef .tc main_arg1)) 0 Cert.ReferenceIdeal.Facts₀.slices_S3x800000_S1x800000_0_0)) (degOf (rowOf (V (Proc.devRef .tc main_arg2)) 0 Cert.ReferenceIdeal.Facts₀.slices_S3x800000_S1x800000_0_0)))
      (aggOf (V (Proc.devRef .tc main_arg0)) (rowOf (V (Proc.devRef .tc main_arg1)) 1 Cert.ReferenceIdeal.Facts₀.slices_S3x800000_S1x800000_1_0) (rowOf (V (Proc.devRef .tc main_arg2)) 1 Cert.ReferenceIdeal.Facts₀.slices_S3x800000_S1x800000_1_0)
        (degOf (rowOf (V (Proc.devRef .tc main_arg1)) 1 Cert.ReferenceIdeal.Facts₀.slices_S3x800000_S1x800000_1_0)) (degOf (rowOf (V (Proc.devRef .tc main_arg2)) 1 Cert.ReferenceIdeal.Facts₀.slices_S3x800000_S1x800000_1_0)))
      (aggOf (V (Proc.devRef .tc main_arg0)) (rowOf (V (Proc.devRef .tc main_arg1)) 2 Cert.ReferenceIdeal.Facts₀.slices_S3x800000_S1x800000_2_0) (rowOf (V (Proc.devRef .tc main_arg2)) 2 Cert.ReferenceIdeal.Facts₀.slices_S3x800000_S1x800000_2_0)
        (degOf (rowOf (V (Proc.devRef .tc main_arg1)) 2 Cert.ReferenceIdeal.Facts₀.slices_S3x800000_S1x800000_2_0)) (degOf (rowOf (V (Proc.devRef .tc main_arg2)) 2 Cert.ReferenceIdeal.Facts₀.slices_S3x800000_S1x800000_2_0))) := by
  rw [← List.take_append_drop 46 (hostOps0 (F := Ideal)), StableHlo.after_append, suf0_agg,
    pre0_degOut, pre0_degIn, pre0_arg0, pre0_arg1, pre0_arg2,
    kdeg_degStack_0, kdeg_degStack_0, kdeg_degStack_1, kdeg_degStack_1, kdeg_degStack_2, kdeg_degStack_2]

end Cert.Bridge

end
-- ==== Proof.BridgeParams.lean ====
/-
  The per-layer parameter arrays of layers 1 … 4, as both programs cut them out of the stacked arguments:
  layer l's weights are block l-1 of the [4, 3, 128, 128] array and its biases block l-1 of the [4, 3, 128] array,
  each recast without its leading unit axis. Also the vector of 800000 ones the degree counts add up.
-/
import proofs.«165758_j22333829939343_1_alg».proof.ReferenceIdeal
import Idealize.ShloMosaic.PureOps.Ideal

noncomputable section

namespace Cert.Bridge

open Idealize.ShloMosaic Cert.ReferenceIdeal

section
variable [Cert.ReferenceIdeal.Facts₀]
open Cert.ReferenceIdeal.Facts₀

/-- Block `o` of the stacked weights, as a [3, 128, 128] array. -/
def layerW (W5 : Vec Ideal S4x3x128x128 .f32) (o : ℕ) (h : S4x3x128x128.Slices ![o, 0, 0, 0] S1x3x128x128) :
    Vec Ideal S3x128x128 .f32 :=
  shapeCast S3x128x128 (extractStridedSlice S1x3x128x128 ![o, 0, 0, 0] W5 h) shapeCasts_S1x3x128x128_S3x128x128

/-- Block `o` of the stacked biases, as a [3, 128] array. -/
def layerB (B6 : Vec Ideal S4x3x128 .f32) (o : ℕ) (h : S4x3x128.Slices ![o, 0, 0] S1x3x128) : Vec Ideal S3x128 .f32 :=
  shapeCast S3x128 (extractStridedSlice S1x3x128 ![o, 0, 0] B6 h) shapeCasts_S1x3x128_S3x128

/-- One per edge: what the degree counts add up. -/
def edgeOnes : Vec Ideal S800000 .f32 :=
  broadcastInDim S800000 ![] bcast_S_S800000 (constant (F := Ideal) S_ .f32 0x3F800000#32)

end

end Cert.Bridge

end
-- ==== Proof.BridgeReadR0.lean ====
/- Layer 0 of the reference, read off its line of host operations as a pure function of the contents it starts from.
   The line is cut into its stretches: a preamble (the vector of ones the degree counts add up), one block of 47 operations per relation (the relation's two index rows, their degree
   counts, the normalised aggregate of the features, the product with the relation's weights plus its bias row), and the tail (the mean of
   the three, then the leaky rectifier). Each stretch is read by itself from arbitrary contents; a buffer a stretch does not write passes
   through it unchanged; the reads are then chained. -/
import proofs.«165758_j22333829939343_1_alg».proof.Proof.RefRunL0
import proofs.«165758_j22333829939343_1_alg».proof.Proof.BridgeLayer
import proofs.«165758_j22333829939343_1_alg».proof.Proof.BridgeVocab
import proofs.«165758_j22333829939343_1_alg».proof.Proof.BridgeParams
import proofs.«165758_j22333829939343_1_alg».proof.Proof.LibKeeps
import Idealize.ShloMosaic.Lib.Pipeline.Frame

noncomputable section

namespace Cert.Bridge

open Idealize.ShloMosaic Idealize.ShloMosaic.TcCoe Idealize.SL.Sem Idealize.ShloMosaic.StableHlo
open Cert.ReferenceIdeal Cert.ReferenceIdeal.Gen Cert.ReferenceIdeal.RefRun

variable {F : FTy → Type} [FloatOps F]

/-- Layer 0, stretch pre (2 operations). -/
def r0_pre : List (HloOp τ sig (Elt F)) :=
  [ StableHlo.nullary main_cst (constant S_ .f32 0x3F800000#32),
    StableHlo.unary main_cst main_v0 (broadcastInDim S800000 ![] bcast_S_S800000 : (⟨S_, .f32⟩ : BufTy).Contents (Elt F) → (⟨S800000, .f32⟩ : BufTy).Contents (Elt F)) ]

/-- Layer 0, stretch rel0 (47 operations). -/
def r0_rel0 : List (HloOp τ sig (Elt F)) :=
  [ StableHlo.unary main_arg1 main_v1 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v1 main_v2 rfl shapeCasts_S1x800000_S800000,
    StableHlo.unary main_arg2 main_v3 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v3 main_v4 rfl shapeCasts_S1x800000_S800000,
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v2 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v0 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x00000000#32),
    StableHlo.unary main_cst_1 main_v8 (broadcastInDim S50000 ![] bcast_S_S50000 : (⟨S_, .f32⟩ : BufTy).Contents (Elt F) → (⟨S50000, .f32⟩ : BufTy).Contents (Elt F)),
    StableHlo.unary main_v4 main_v9 (broadcastInDim S800000x1 ![0] bcast_S800000_S800000x1_0 : (⟨S800000, .i32⟩ : BufTy).Contents (Elt F) → (⟨S800000x1, .i32⟩ : BufTy).Contents (Elt F)),
    StableHlo.ternary main_v8 main_v9 main_v0 main_v10 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_2 (constant S_ .f32 0x3F800000#32),
    StableHlo.unary main_cst_2 main_v11 (broadcastInDim S50000 ![] bcast_S_S50000 : (⟨S_, .f32⟩ : BufTy).Contents (Elt F) → (⟨S50000, .f32⟩ : BufTy).Contents (Elt F)),
    StableHlo.binary main_v7 main_v11 main_v12 (maximumf : (⟨S50000, .f32⟩ : BufTy).Contents (Elt F) → (⟨S50000, .f32⟩ : BufTy).Contents (Elt F) → (⟨S50000, .f32⟩ : BufTy).Contents (Elt F)),
    StableHlo.unary main_v12 main_v13 (Host.rsqrt : (⟨S50000, .f32⟩ : BufTy).Contents (Elt F) → (⟨S50000, .f32⟩ : BufTy).Contents (Elt F)),
    StableHlo.unary main_v13 main_v14 (broadcastInDim S50000x1 ![0] bcast_S50000_S50000x1_0 : (⟨S50000, .f32⟩ : BufTy).Contents (Elt F) → (⟨S50000x1, .f32⟩ : BufTy).Contents (Elt F)),
    StableHlo.unary main_v14 main_v15 (broadcastInDim S50000x128 ![0, 1] bcast_S50000x1_S50000x128_0_1 : (⟨S50000x1, .f32⟩ : BufTy).Contents (Elt F) → (⟨S50000x128, .f32⟩ : BufTy).Contents (Elt F)),
    StableHlo.binary main_arg0 main_v15 main_v16 (mulf : (⟨S50000x128, .f32⟩ : BufTy).Contents (Elt F) → (⟨S50000x128, .f32⟩ : BufTy).Contents (Elt F) → (⟨S50000x128, .f32⟩ : BufTy).Contents (Elt F)),
    StableHlo.nullary main_c (constantI S_ 32 0#32),
    StableHlo.unary main_c main_v17 (broadcastInDim S800000 ![] bcast_S_S800000 : (⟨S_, .i32⟩ : BufTy).Contents (Elt F) → (⟨S800000, .i32⟩ : BufTy).Contents (Elt F)),
    StableHlo.binary main_v2 main_v17 main_v18 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v19 (broadcastInDim S800000 ![] bcast_S_S800000 : (⟨S_, .i32⟩ : BufTy).Contents (Elt F) → (⟨S800000, .i32⟩ : BufTy).Contents (Elt F)),
    StableHlo.binary main_v2 main_v19 main_v20 (addi : (⟨S800000, .i32⟩ : BufTy).Contents (Elt F) → (⟨S800000, .i32⟩ : BufTy).Contents (Elt F) → (⟨S800000, .i32⟩ : BufTy).Contents (Elt F)),
    StableHlo.ternary main_v18 main_v20 main_v2 main_v21 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v21 main_v22 (broadcastInDim S800000x1 ![0] bcast_S800000_S800000x1_0 : (⟨S800000, .i32⟩ : BufTy).Contents (Elt F) → (⟨S800000x1, .i32⟩ : BufTy).Contents (Elt F)),
    StableHlo.binary main_v16 main_v22 main_v23 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_4 (constant S_ .f32 0x00000000#32),
    StableHlo.unary main_cst_4 main_v24 (broadcastInDim S50000x128 ![] bcast_S_S50000x128 : (⟨S_, .f32⟩ : BufTy).Contents (Elt F) → (⟨S50000x128, .f32⟩ : BufTy).Contents (Elt F)),
    StableHlo.unary main_v4 main_v25 (broadcastInDim S800000x1 ![0] bcast_S800000_S800000x1_0 : (⟨S800000, .i32⟩ : BufTy).Contents (Elt F) → (⟨S800000x1, .i32⟩ : BufTy).Contents (Elt F)),
    StableHlo.ternary main_v24 main_v25 main_v23 main_v26 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_5 (constant S_ .f32 0x3F800000#32),
    StableHlo.unary main_cst_5 main_v27 (broadcastInDim S50000 ![] bcast_S_S50000 : (⟨S_, .f32⟩ : BufTy).Contents (Elt F) → (⟨S50000, .f32⟩ : BufTy).Contents (Elt F)),
    StableHlo.binary main_v10 main_v27 main_v28 (maximumf : (⟨S50000, .f32⟩ : BufTy).Contents (Elt F) → (⟨S50000, .f32⟩ : BufTy).Contents (Elt F) → (⟨S50000, .f32⟩ : BufTy).Contents (Elt F)),
    StableHlo.unary main_v28 main_v29 (Host.rsqrt : (⟨S50000, .f32⟩ : BufTy).Contents (Elt F) → (⟨S50000, .f32⟩ : BufTy).Contents (Elt F)),
    StableHlo.unary main_v29 main_v30 (broadcastInDim S50000x1 ![0] bcast_S50000_S50000x1_0 : (⟨S50000, .f32⟩ : BufTy).Contents (Elt F) → (⟨S50000x1, .f32⟩ : BufTy).Contents (Elt F)),
    StableHlo.unary main_v30 main_v31 (broadcastInDim S50000x128 ![0, 1] bcast_S50000x1_S50000x128_0_1 : (⟨S50000x1, .f32⟩ : BufTy).Contents (Elt F) → (⟨S50000x128, .f32⟩ : BufTy).Contents (Elt F)),
    StableHlo.binary main_v26 main_v31 main_v32 (mulf : (⟨S50000x128, .f32⟩ : BufTy).Contents (Elt F) → (⟨S50000x128, .f32⟩ : BufTy).Contents (Elt F) → (⟨S50000x128, .f32⟩ : BufTy).Contents (Elt F)),
    StableHlo.unary main_arg3 main_v33 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v33 main_v34 rfl shapeCasts_S1x128x128_S128x128,
    StableHlo.binary main_v32 main_v34 main_v35 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v36 ((extractStridedSlice S1x128 ![0, 0] · slices_S3x128_S1x128_0_0) : (⟨S3x128, .f32⟩ : BufTy).Contents (Elt F) → (⟨S1x128, .f32⟩ : BufTy).Contents (Elt F)),
    StableHlo.reshape main_v36 main_v37 rfl shapeCasts_S1x128_S128,
    StableHlo.unary main_v37 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S50000x128 ![0, 1] bcast_S1x128_S50000x128_0_1 : (⟨S1x128, .f32⟩ : BufTy).Contents (Elt F) → (⟨S50000x128, .f32⟩ : BufTy).Contents (Elt F)),
    StableHlo.binary main_v35 main_v39 main_v40 (addf : (⟨S50000x128, .f32⟩ : BufTy).Contents (Elt F) → (⟨S50000x128, .f32⟩ : BufTy).Contents (Elt F) → (⟨S50000x128, .f32⟩ : BufTy).Contents (Elt F)) ]

/-- Layer 0, stretch rel1 (47 operations). -/
def r0_rel1 : List (HloOp τ sig (Elt F)) :=
  [ StableHlo.unary main_arg1 main_v41 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v41 main_v42 rfl shapeCasts_S1x800000_S800000,
    StableHlo.unary main_arg2 main_v43 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v43 main_v44 rfl shapeCasts_S1x800000_S800000,
    StableHlo.nullary main_cst_6 (constant S_ .f32 0x00000000#32),
    StableHlo.unary main_cst_6 main_v45 (broadcastInDim S50000 ![] bcast_S_S50000 : (⟨S_, .f32⟩ : BufTy).Contents (Elt F) → (⟨S50000, .f32⟩ : BufTy).Contents (Elt F)),
    StableHlo.unary main_v42 main_v46 (broadcastInDim S800000x1 ![0] bcast_S800000_S800000x1_0 : (⟨S800000, .i32⟩ : BufTy).Contents (Elt F) → (⟨S800000x1, .i32⟩ : BufTy).Contents (Elt F)),
    StableHlo.ternary main_v45 main_v46 main_v0 main_v47 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_7 (constant S_ .f32 0x00000000#32),
    StableHlo.unary main_cst_7 main_v48 (broadcastInDim S50000 ![] bcast_S_S50000 : (⟨S_, .f32⟩ : BufTy).Contents (Elt F) → (⟨S50000, .f32⟩ : BufTy).Contents (Elt F)),
    StableHlo.unary main_v44 main_v49 (broadcastInDim S800000x1 ![0] bcast_S800000_S800000x1_0 : (⟨S800000, .i32⟩ : BufTy).Contents (Elt F) → (⟨S800000x1, .i32⟩ : BufTy).Contents (Elt F)),
    StableHlo.ternary main_v48 main_v49 main_v0 main_v50 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_8 (constant S_ .f32 0x3F800000#32),
    StableHlo.unary main_cst_8 main_v51 (broadcastInDim S50000 ![] bcast_S_S50000 : (⟨S_, .f32⟩ : BufTy).Contents (Elt F) → (⟨S50000, .f32⟩ : BufTy).Contents (Elt F)),
    StableHlo.binary main_v47 main_v51 main_v52 (maximumf : (⟨S50000, .f32⟩ : BufTy).Contents (Elt F) → (⟨S50000, .f32⟩ : BufTy).Contents (Elt F) → (⟨S50000, .f32⟩ : BufTy).Contents (Elt F)),
    StableHlo.unary main_v52 main_v53 (Host.rsqrt : (⟨S50000, .f32⟩ : BufTy).Contents (Elt F) → (⟨S50000, .f32⟩ : BufTy).Contents (Elt F)),
    StableHlo.unary main_v53 main_v54 (broadcastInDim S50000x1 ![0] bcast_S50000_S50000x1_0 : (⟨S50000, .f32⟩ : BufTy).Contents (Elt F) → (⟨S50000x1, .f32⟩ : BufTy).Contents (Elt F)),
    StableHlo.unary main_v54 main_v55 (broadcastInDim S50000x128 ![0, 1] bcast_S50000x1_S50000x128_0_1 : (⟨S50000x1, .f32⟩ : BufTy).Contents (Elt F) → (⟨S50000x128, .f32⟩ : BufTy).Contents (Elt F)),
    StableHlo.binary main_arg0 main_v55 main_v56 (mulf : (⟨S50000x128, .f32⟩ : BufTy).Contents (Elt F) → (⟨S50000x128, .f32⟩ : BufTy).Contents (Elt F) → (⟨S50000x128, .f32⟩ : BufTy).Contents (Elt F)),
    StableHlo.nullary main_c_9 (constantI S_ 32 0#32),
    StableHlo.unary main_c_9 main_v57 (broadcastInDim S800000 ![] bcast_S_S800000 : (⟨S_, .i32⟩ : BufTy).Contents (Elt F) → (⟨S800000, .i32⟩ : BufTy).Contents (Elt F)),
    StableHlo.binary main_v42 main_v57 main_v58 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v59 (broadcastInDim S800000 ![] bcast_S_S800000 : (⟨S_, .i32⟩ : BufTy).Contents (Elt F) → (⟨S800000, .i32⟩ : BufTy).Contents (Elt F)),
    StableHlo.binary main_v42 main_v59 main_v60 (addi : (⟨S800000, .i32⟩ : BufTy).Contents (Elt F) → (⟨S800000, .i32⟩ : BufTy).Contents (Elt F) → (⟨S800000, .i32⟩ : BufTy).Contents (Elt F)),
    StableHlo.ternary main_v58 main_v60 main_v42 main_v61 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v61 main_v62 (broadcastInDim S800000x1 ![0] bcast_S800000_S800000x1_0 : (⟨S800000, .i32⟩ : BufTy).Contents (Elt F) → (⟨S800000x1, .i32⟩ : BufTy).Contents (Elt F)),
    StableHlo.binary main_v56 main_v62 main_v63 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_11 (constant S_ .f32 0x00000000#32),
    StableHlo.unary main_cst_11 main_v64 (broadcastInDim S50000x128 ![] bcast_S_S50000x128 : (⟨S_, .f32⟩ : BufTy).Contents (Elt F) → (⟨S50000x128, .f32⟩ : BufTy).Contents (Elt F)),
    StableHlo.unary main_v44 main_v65 (broadcastInDim S800000x1 ![0] bcast_S800000_S800000x1_0 : (⟨S800000, .i32⟩ : BufTy).Contents (Elt F) → (⟨S800000x1, .i32⟩ : BufTy).Contents (Elt F)),
    StableHlo.ternary main_v64 main_v65 main_v63 main_v66 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_12 (constant S_ .f32 0x3F800000#32),
    StableHlo.unary main_cst_12 main_v67 (broadcastInDim S50000 ![] bcast_S_S50000 : (⟨S_, .f32⟩ : BufTy).Contents (Elt F) → (⟨S50000, .f32⟩ : BufTy).Contents (Elt F)),
    StableHlo.binary main_v50 main_v67 main_v68 (maximumf : (⟨S50000, .f32⟩ : BufTy).Contents (Elt F) → (⟨S50000, .f32⟩ : BufTy).Contents (Elt F) → (⟨S50000, .f32⟩ : BufTy).Contents (Elt F)),
    StableHlo.unary main_v68 main_v69 (Host.rsqrt : (⟨S50000, .f32⟩ : BufTy).Contents (Elt F) → (⟨S50000, .f32⟩ : BufTy).Contents (Elt F)),
    StableHlo.unary main_v69 main_v70 (broadcastInDim S50000x1 ![0] bcast_S50000_S50000x1_0 : (⟨S50000, .f32⟩ : BufTy).Contents (Elt F) → (⟨S50000x1, .f32⟩ : BufTy).Contents (Elt F)),
    StableHlo.unary main_v70 main_v71 (broadcastInDim S50000x128 ![0, 1] bcast_S50000x1_S50000x128_0_1 : (⟨S50000x1, .f32⟩ : BufTy).Contents (Elt F) → (⟨S50000x128, .f32⟩ : BufTy).Contents (Elt F)),
    StableHlo.binary main_v66 main_v71 main_v72 (mulf : (⟨S50000x128, .f32⟩ : BufTy).Contents (Elt F) → (⟨S50000x128, .f32⟩ : BufTy).Contents (Elt F) → (⟨S50000x128, .f32⟩ : BufTy).Contents (Elt F)),
    StableHlo.unary main_arg3 main_v73 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v73 main_v74 rfl shapeCasts_S1x128x128_S128x128,
    StableHlo.binary main_v72 main_v74 main_v75 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v76 ((extractStridedSlice S1x128 ![1, 0] · slices_S3x128_S1x128_1_0) : (⟨S3x128, .f32⟩ : BufTy).Contents (Elt F) → (⟨S1x128, .f32⟩ : BufTy).Contents (Elt F)),
    StableHlo.reshape main_v76 main_v77 rfl shapeCasts_S1x128_S128,
    StableHlo.unary main_v77 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S50000x128 ![0, 1] bcast_S1x128_S50000x128_0_1 : (⟨S1x128, .f32⟩ : BufTy).Contents (Elt F) → (⟨S50000x128, .f32⟩ : BufTy).Contents (Elt F)),
    StableHlo.binary main_v75 main_v79 main_v80 (addf : (⟨S50000x128, .f32⟩ : BufTy).Contents (Elt F) → (⟨S50000x128, .f32⟩ : BufTy).Contents (Elt F) → (⟨S50000x128, .f32⟩ : BufTy).Contents (Elt F)) ]

/-- Layer 0, stretch rel2 (47 operations). -/
def r0_rel2 : List (HloOp τ sig (Elt F)) :=
  [ StableHlo.unary main_arg1 main_v81 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v81 main_v82 rfl shapeCasts_S1x800000_S800000,
    StableHlo.unary main_arg2 main_v83 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v83 main_v84 rfl shapeCasts_S1x800000_S800000,
    StableHlo.nullary main_cst_13 (constant S_ .f32 0x00000000#32),
    StableHlo.unary main_cst_13 main_v85 (broadcastInDim S50000 ![] bcast_S_S50000 : (⟨S_, .f32⟩ : BufTy).Contents (Elt F) → (⟨S50000, .f32⟩ : BufTy).Contents (Elt F)),
    StableHlo.unary main_v82 main_v86 (broadcastInDim S800000x1 ![0] bcast_S800000_S800000x1_0 : (⟨S800000, .i32⟩ : BufTy).Contents (Elt F) → (⟨S800000x1, .i32⟩ : BufTy).Contents (Elt F)),
    StableHlo.ternary main_v85 main_v86 main_v0 main_v87 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_14 (constant S_ .f32 0x00000000#32),
    StableHlo.unary main_cst_14 main_v88 (broadcastInDim S50000 ![] bcast_S_S50000 : (⟨S_, .f32⟩ : BufTy).Contents (Elt F) → (⟨S50000, .f32⟩ : BufTy).Contents (Elt F)),
    StableHlo.unary main_v84 main_v89 (broadcastInDim S800000x1 ![0] bcast_S800000_S800000x1_0 : (⟨S800000, .i32⟩ : BufTy).Contents (Elt F) → (⟨S800000x1, .i32⟩ : BufTy).Contents (Elt F)),
    StableHlo.ternary main_v88 main_v89 main_v0 main_v90 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_15 (constant S_ .f32 0x3F800000#32),
    StableHlo.unary main_cst_15 main_v91 (broadcastInDim S50000 ![] bcast_S_S50000 : (⟨S_, .f32⟩ : BufTy).Contents (Elt F) → (⟨S50000, .f32⟩ : BufTy).Contents (Elt F)),
    StableHlo.binary main_v87 main_v91 main_v92 (maximumf : (⟨S50000, .f32⟩ : BufTy).Contents (Elt F) → (⟨S50000, .f32⟩ : BufTy).Contents (Elt F) → (⟨S50000, .f32⟩ : BufTy).Contents (Elt F)),
    StableHlo.unary main_v92 main_v93 (Host.rsqrt : (⟨S50000, .f32⟩ : BufTy).Contents (Elt F) → (⟨S50000, .f32⟩ : BufTy).Contents (Elt F)),
    StableHlo.unary main_v93 main_v94 (broadcastInDim S50000x1 ![0] bcast_S50000_S50000x1_0 : (⟨S50000, .f32⟩ : BufTy).Contents (Elt F) → (⟨S50000x1, .f32⟩ : BufTy).Contents (Elt F)),
    StableHlo.unary main_v94 main_v95 (broadcastInDim S50000x128 ![0, 1] bcast_S50000x1_S50000x128_0_1 : (⟨S50000x1, .f32⟩ : BufTy).Contents (Elt F) → (⟨S50000x128, .f32⟩ : BufTy).Contents (Elt F)),
    StableHlo.binary main_arg0 main_v95 main_v96 (mulf : (⟨S50000x128, .f32⟩ : BufTy).Contents (Elt F) → (⟨S50000x128, .f32⟩ : BufTy).Contents (Elt F) → (⟨S50000x128, .f32⟩ : BufTy).Contents (Elt F)),
    StableHlo.nullary main_c_16 (constantI S_ 32 0#32),
    StableHlo.unary main_c_16 main_v97 (broadcastInDim S800000 ![] bcast_S_S800000 : (⟨S_, .i32⟩ : BufTy).Contents (Elt F) → (⟨S800000, .i32⟩ : BufTy).Contents (Elt F)),
    StableHlo.binary main_v82 main_v97 main_v98 (cmpi .slt : (⟨S800000, .i32⟩ : BufTy).Contents (Elt F) → (⟨S800000, .i32⟩ : BufTy).Contents (Elt F) → (⟨S800000, .i1⟩ : BufTy).Contents (Elt F)),
    StableHlo.nullary main_c_17 (constantI S_ 32 50000#32),
    StableHlo.unary main_c_17 main_v99 (broadcastInDim S800000 ![] bcast_S_S800000 : (⟨S_, .i32⟩ : BufTy).Contents (Elt F) → (⟨S800000, .i32⟩ : BufTy).Contents (Elt F)),
    StableHlo.binary main_v82 main_v99 main_v100 (addi : (⟨S800000, .i32⟩ : BufTy).Contents (Elt F) → (⟨S800000, .i32⟩ : BufTy).Contents (Elt F) → (⟨S800000, .i32⟩ : BufTy).Contents (Elt F)),
    StableHlo.ternary main_v98 main_v100 main_v82 main_v101 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v101 main_v102 (broadcastInDim S800000x1 ![0] bcast_S800000_S800000x1_0 : (⟨S800000, .i32⟩ : BufTy).Contents (Elt F) → (⟨S800000x1, .i32⟩ : BufTy).Contents (Elt F)),
    StableHlo.binary main_v96 main_v102 main_v103 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_18 (constant S_ .f32 0x00000000#32),
    StableHlo.unary main_cst_18 main_v104 (broadcastInDim S50000x128 ![] bcast_S_S50000x128 : (⟨S_, .f32⟩ : BufTy).Contents (Elt F) → (⟨S50000x128, .f32⟩ : BufTy).Contents (Elt F)),
    StableHlo.unary main_v84 main_v105 (broadcastInDim S800000x1 ![0] bcast_S800000_S800000x1_0 : (⟨S800000, .i32⟩ : BufTy).Contents (Elt F) → (⟨S800000x1, .i32⟩ : BufTy).Contents (Elt F)),
    StableHlo.ternary main_v104 main_v105 main_v103 main_v106 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_19 (constant S_ .f32 0x3F800000#32),
    StableHlo.unary main_cst_19 main_v107 (broadcastInDim S50000 ![] bcast_S_S50000 : (⟨S_, .f32⟩ : BufTy).Contents (Elt F) → (⟨S50000, .f32⟩ : BufTy).Contents (Elt F)),
    StableHlo.binary main_v90 main_v107 main_v108 (maximumf : (⟨S50000, .f32⟩ : BufTy).Contents (Elt F) → (⟨S50000, .f32⟩ : BufTy).Contents (Elt F) → (⟨S50000, .f32⟩ : BufTy).Contents (Elt F)),
    StableHlo.unary main_v108 main_v109 (Host.rsqrt : (⟨S50000, .f32⟩ : BufTy).Contents (Elt F) → (⟨S50000, .f32⟩ : BufTy).Contents (Elt F)),
    StableHlo.unary main_v109 main_v110 (broadcastInDim S50000x1 ![0] bcast_S50000_S50000x1_0 : (⟨S50000, .f32⟩ : BufTy).Contents (Elt F) → (⟨S50000x1, .f32⟩ : BufTy).Contents (Elt F)),
    StableHlo.unary main_v110 main_v111 (broadcastInDim S50000x128 ![0, 1] bcast_S50000x1_S50000x128_0_1 : (⟨S50000x1, .f32⟩ : BufTy).Contents (Elt F) → (⟨S50000x128, .f32⟩ : BufTy).Contents (Elt F)),
    StableHlo.binary main_v106 main_v111 main_v112 (mulf : (⟨S50000x128, .f32⟩ : BufTy).Contents (Elt F) → (⟨S50000x128, .f32⟩ : BufTy).Contents (Elt F) → (⟨S50000x128, .f32⟩ : BufTy).Contents (Elt F)),
    StableHlo.unary main_arg3 main_v113 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v113 main_v114 rfl shapeCasts_S1x128x128_S128x128,
    StableHlo.binary main_v112 main_v114 main_v115 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v116 ((extractStridedSlice S1x128 ![2, 0] · slices_S3x128_S1x128_2_0) : (⟨S3x128, .f32⟩ : BufTy).Contents (Elt F) → (⟨S1x128, .f32⟩ : BufTy).Contents (Elt F)),
    StableHlo.reshape main_v116 main_v117 rfl shapeCasts_S1x128_S128,
    StableHlo.unary main_v117 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S50000x128 ![0, 1] bcast_S1x128_S50000x128_0_1 : (⟨S1x128, .f32⟩ : BufTy).Contents (Elt F) → (⟨S50000x128, .f32⟩ : BufTy).Contents (Elt F)),
    StableHlo.binary main_v115 main_v119 main_v120 (addf : (⟨S50000x128, .f32⟩ : BufTy).Contents (Elt F) → (⟨S50000x128, .f32⟩ : BufTy).Contents (Elt F) → (⟨S50000x128, .f32⟩ : BufTy).Contents (Elt F)) ]

/-- Layer 0, stretch tail (17 operations). -/
def r0_tail : List (HloOp τ sig (Elt F)) :=
  [ StableHlo.unary main_v40 main_v121 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v80 main_v122 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v120 main_v123 (broadcastInDim S1x50000x128 ![1, 2] bcast_S50000x128_S1x50000x128_1_2 : (⟨S50000x128, .f32⟩ : BufTy).Contents (Elt F) → (⟨S1x50000x128, .f32⟩ : BufTy).Contents (Elt F)),
    StableHlo.nary ![main_v121, main_v122, main_v123] main_v124 (fun u => concatenate S3x50000x128 0 [⟨S1x50000x128, u 0⟩, ⟨S1x50000x128, u 1⟩, ⟨S1x50000x128, u 2⟩] concatenates_S1x50000x128_S1x50000x128_S1x50000x128_S3x50000x128_d0),
    StableHlo.nullary main_cst_20 (constant S_ .f32 0x00000000#32),
    StableHlo.binary main_v124 main_cst_20 main_v125 ((fun x v => Host.reduceAdd x v reducesTo_S3x50000x128_S50000x128_d0 h_S_) : (⟨S3x50000x128, .f32⟩ : BufTy).Contents (Elt F) → (⟨S_, .f32⟩ : BufTy).Contents (Elt F) → (⟨S50000x128, .f32⟩ : BufTy).Contents (Elt F)),
    StableHlo.nullary main_cst_21 (constant S_ .f32 0x40400000#32),
    StableHlo.unary main_cst_21 main_v126 (broadcastInDim S50000x128 ![] bcast_S_S50000x128 : (⟨S_, .f32⟩ : BufTy).Contents (Elt F) → (⟨S50000x128, .f32⟩ : BufTy).Contents (Elt F)),
    StableHlo.binary main_v125 main_v126 main_v127 (Host.divf : (⟨S50000x128, .f32⟩ : BufTy).Contents (Elt F) → (⟨S50000x128, .f32⟩ : BufTy).Contents (Elt F) → (⟨S50000x128, .f32⟩ : BufTy).Contents (Elt F)),
    StableHlo.nullary main_cst_22 (constant S_ .f32 0x3C23D70A#32),
    TRef.nullary main_call0.cst (constant S_ .f32 0x00000000#32),
    TRef.unary main_call0.cst main_call0.v0 (broadcastInDim S50000x128 ![] bcast_S_S50000x128),
    TRef.binary (.of main_v127) main_call0.v0 main_call0.v1 (cmpf .oge),
    TRef.unary (.of main_cst_22) main_call0.v2 id,
    TRef.unary main_call0.v2 main_call0.v3 (broadcastInDim S50000x128 ![] bcast_S_S50000x128),
    TRef.binary main_call0.v3 (.of main_v127) main_call0.v4 mulf,
    TRef.ternary main_call0.v1 (.of main_v127) main_call0.v4 main_call0.call0.v0 select ]

theorem r0_split : (opsL0 : List (HloOp τ sig (Elt F))) = r0_pre ++ (r0_rel0 ++ (r0_rel1 ++ (r0_rel2 ++ r0_tail))) := rfl

def r0_pre_W : List (Ref sig .tc) :=
  [main_cst, main_v0]

theorem r0_pre_writes : (r0_pre : List (HloOp τ sig (Elt F))).Forall fun op => op.writes ⊆ (r0_pre_W.map (Proc.devRef (τ := τ) .tc)).toFinset := by
  host_writes r0_pre

theorem r0_pre_keeps (W : Valuation τ sig (Elt F)) {x : Ref sig .tc} (hx : x ∉ r0_pre_W) :
    after r0_pre W (Proc.devRef .tc x) = W (Proc.devRef .tc x) :=
  after_of_writes_sub r0_pre W r0_pre_writes hx

def r0_rel0_W : List (Ref sig .tc) :=
  [main_v1, main_v2, main_v3, main_v4, main_cst_0, main_v5, main_v6, main_v7, main_cst_1, main_v8, main_v9, main_v10, main_cst_2, main_v11, main_v12, main_v13, main_v14, main_v15, main_v16, main_c, main_v17, main_v18, main_c_3, main_v19, main_v20, main_v21, main_v22, main_v23, main_cst_4, main_v24, main_v25, main_v26, main_cst_5, main_v27, main_v28, main_v29, main_v30, main_v31, main_v32, main_v33, main_v34, main_v35, main_v36, main_v37, main_v38, main_v39, main_v40]

theorem r0_rel0_writes : (r0_rel0 : List (HloOp τ sig (Elt F))).Forall fun op => op.writes ⊆ (r0_rel0_W.map (Proc.devRef (τ := τ) .tc)).toFinset := by
  host_writes r0_rel0

theorem r0_rel0_keeps (W : Valuation τ sig (Elt F)) {x : Ref sig .tc} (hx : x ∉ r0_rel0_W) :
    after r0_rel0 W (Proc.devRef .tc x) = W (Proc.devRef .tc x) :=
  after_of_writes_sub r0_rel0 W r0_rel0_writes hx

def r0_rel1_W : List (Ref sig .tc) :=
  [main_v41, main_v42, main_v43, main_v44, main_cst_6, main_v45, main_v46, main_v47, main_cst_7, main_v48, main_v49, main_v50, main_cst_8, main_v51, main_v52, main_v53, main_v54, main_v55, main_v56, main_c_9, main_v57, main_v58, main_c_10, main_v59, main_v60, main_v61, main_v62, main_v63, main_cst_11, main_v64, main_v65, main_v66, main_cst_12, main_v67, main_v68, main_v69, main_v70, main_v71, main_v72, main_v73, main_v74, main_v75, main_v76, main_v77, main_v78, main_v79, main_v80]

theorem r0_rel1_writes : (r0_rel1 : List (HloOp τ sig (Elt F))).Forall fun op => op.writes ⊆ (r0_rel1_W.map (Proc.devRef (τ := τ) .tc)).toFinset := by
  host_writes r0_rel1

theorem r0_rel1_keeps (W : Valuation τ sig (Elt F)) {x : Ref sig .tc} (hx : x ∉ r0_rel1_W) :
    after r0_rel1 W (Proc.devRef .tc x) = W (Proc.devRef .tc x) :=
  after_of_writes_sub r0_rel1 W r0_rel1_writes hx

def r0_rel2_W : List (Ref sig .tc) :=
  [main_v81, main_v82, main_v83, main_v84, main_cst_13, main_v85, main_v86, main_v87, main_cst_14, main_v88, main_v89, main_v90, main_cst_15, main_v91, main_v92, main_v93, main_v94, main_v95, main_v96, main_c_16, main_v97, main_v98, main_c_17, main_v99, main_v100, main_v101, main_v102, main_v103, main_cst_18, main_v104, main_v105, main_v106, main_cst_19, main_v107, main_v108, main_v109, main_v110, main_v111, main_v112, main_v113, main_v114, main_v115, main_v116, main_v117, main_v118, main_v119, main_v120]

theorem r0_rel2_writes : (r0_rel2 : List (HloOp τ sig (Elt F))).Forall fun op => op.writes ⊆ (r0_rel2_W.map (Proc.devRef (τ := τ) .tc)).toFinset := by
  host_writes r0_rel2

theorem r0_rel2_keeps (W : Valuation τ sig (Elt F)) {x : Ref sig .tc} (hx : x ∉ r0_rel2_W) :
    after r0_rel2 W (Proc.devRef .tc x) = W (Proc.devRef .tc x) :=
  after_of_writes_sub r0_rel2 W r0_rel2_writes hx

/-- The preamble leaves the vector of ones. -/
theorem r0_pre_ones (W : Valuation τ sig (Elt Ideal)) : after r0_pre W (Proc.devRef .tc main_v0) = edgeOnes := by
  unfold r0_pre
  after_results_simp
  rfl

set_option maxHeartbeats 4000000 in
/-- Relation 0's block, from contents whose ones buffer holds the ones: its result is the relation's dense term of the aggregate. -/
theorem r0_rel0_read (W : Valuation τ sig (Elt Ideal)) (h1 : W (Proc.devRef .tc main_v0) = edgeOnes) :
    after r0_rel0 W (Proc.devRef .tc main_v40) =
      refDense (aggOf (W (Proc.devRef .tc main_arg0)) (rowOf (W (Proc.devRef .tc main_arg1)) 0 slices_S3x800000_S1x800000_0_0) (rowOf (W (Proc.devRef .tc main_arg2)) 0 slices_S3x800000_S1x800000_0_0)
          (degOf (rowOf (W (Proc.devRef .tc main_arg1)) 0 slices_S3x800000_S1x800000_0_0)) (degOf (rowOf (W (Proc.devRef .tc main_arg2)) 0 slices_S3x800000_S1x800000_0_0)))
        (W (Proc.devRef .tc main_arg3)) (W (Proc.devRef .tc main_arg4)) 0 slices_S3x128x128_S1x128x128_0_0_0 slices_S3x128_S1x128_0_0 := by
  unfold r0_rel0
  after_results_simp
  rw [h1]
  rfl

set_option maxHeartbeats 4000000 in
/-- Relation 1's block, from contents whose ones buffer holds the ones: its result is the relation's dense term of the aggregate. -/
theorem r0_rel1_read (W : Valuation τ sig (Elt Ideal)) (h1 : W (Proc.devRef .tc main_v0) = edgeOnes) :
    after r0_rel1 W (Proc.devRef .tc main_v80) =
      refDense (aggOf (W (Proc.devRef .tc main_arg0)) (rowOf (W (Proc.devRef .tc main_arg1)) 1 slices_S3x800000_S1x800000_1_0) (rowOf (W (Proc.devRef .tc main_arg2)) 1 slices_S3x800000_S1x800000_1_0)
          (degOf (rowOf (W (Proc.devRef .tc main_arg1)) 1 slices_S3x800000_S1x800000_1_0)) (degOf (rowOf (W (Proc.devRef .tc main_arg2)) 1 slices_S3x800000_S1x800000_1_0)))
        (W (Proc.devRef .tc main_arg3)) (W (Proc.devRef .tc main_arg4)) 1 slices_S3x128x128_S1x128x128_1_0_0 slices_S3x128_S1x128_1_0 := by
  unfold r0_rel1
  after_results_simp
  rw [h1]
  rfl

set_option maxHeartbeats 4000000 in
/-- Relation 2's block, from contents whose ones buffer holds the ones: its result is the relation's dense term of the aggregate. -/
theorem r0_rel2_read (W : Valuation τ sig (Elt Ideal)) (h1 : W (Proc.devRef .tc main_v0) = edgeOnes) :
    after r0_rel2 W (Proc.devRef .tc main_v120) =
      refDense (aggOf (W (Proc.devRef .tc main_arg0)) (rowOf (W (Proc.devRef .tc main_arg1)) 2 slices_S3x800000_S1x800000_2_0) (rowOf (W (Proc.devRef .tc main_arg2)) 2 slices_S3x800000_S1x800000_2_0)
          (degOf (rowOf (W (Proc.devRef .tc main_arg1)) 2 slices_S3x800000_S1x800000_2_0)) (degOf (rowOf (W (Proc.devRef .tc main_arg2)) 2 slices_S3x800000_S1x800000_2_0)))
        (W (Proc.devRef .tc main_arg3)) (W (Proc.devRef .tc main_arg4)) 2 slices_S3x128x128_S1x128x128_2_0_0 slices_S3x128_S1x128_2_0 := by
  unfold r0_rel2
  after_results_simp
  rw [h1]
  rfl

/-- The tail: the mean of the three relations' terms, then the rectifier. -/
theorem r0_tail_read (W : Valuation τ sig (Elt Ideal)) :
    after r0_tail W (Proc.devRef .tc main_v128) = refLeaky (refMean (W (Proc.devRef .tc main_v40)) (W (Proc.devRef .tc main_v80)) (W (Proc.devRef .tc main_v120))) := by
  unfold r0_tail
  after_results_simp
  rfl

/-- The contents after the preamble, and after each relation's block. -/
def r0_W0 (V : Valuation τ sig (Elt Ideal)) : Valuation τ sig (Elt Ideal) := after r0_pre V
@[inherit_doc r0_W0] def r0_W1 (V : Valuation τ sig (Elt Ideal)) : Valuation τ sig (Elt Ideal) := after r0_rel0 (r0_W0 V)
@[inherit_doc r0_W0] def r0_W2 (V : Valuation τ sig (Elt Ideal)) : Valuation τ sig (Elt Ideal) := after r0_rel1 (r0_W1 V)
@[inherit_doc r0_W0] def r0_W3 (V : Valuation τ sig (Elt Ideal)) : Valuation τ sig (Elt Ideal) := after r0_rel2 (r0_W2 V)

theorem r0_chain (V : Valuation τ sig (Elt Ideal)) : after (opsL0 (F := Ideal)) V = after r0_tail (r0_W3 V) := by
  have h := congrArg (fun ops => after ops V) r0_split
  simp only [after_append] at h
  exact h

theorem r0_W0_keep (V : Valuation τ sig (Elt Ideal)) {x : Ref sig .tc} (hx : x ∉ r0_pre_W) :
    r0_W0 V (Proc.devRef .tc x) = V (Proc.devRef .tc x) := r0_pre_keeps _ hx

theorem r0_W1_keep (V : Valuation τ sig (Elt Ideal)) {x : Ref sig .tc} (hx : x ∉ r0_rel0_W) :
    r0_W1 V (Proc.devRef .tc x) = (r0_W0 V) (Proc.devRef .tc x) := r0_rel0_keeps _ hx

theorem r0_W2_keep (V : Valuation τ sig (Elt Ideal)) {x : Ref sig .tc} (hx : x ∉ r0_rel1_W) :
    r0_W2 V (Proc.devRef .tc x) = (r0_W1 V) (Proc.devRef .tc x) := r0_rel1_keeps _ hx

theorem r0_W3_keep (V : Valuation τ sig (Elt Ideal)) {x : Ref sig .tc} (hx : x ∉ r0_rel2_W) :
    r0_W3 V (Proc.devRef .tc x) = (r0_W2 V) (Proc.devRef .tc x) := r0_rel2_keeps _ hx

theorem r0_ones0 (V : Valuation τ sig (Elt Ideal)) : r0_W0 V (Proc.devRef .tc main_v0) = edgeOnes := r0_pre_ones V
theorem r0_ones1 (V : Valuation τ sig (Elt Ideal)) : r0_W1 V (Proc.devRef .tc main_v0) = edgeOnes := (r0_W1_keep V (by decide)).trans (r0_ones0 V)
theorem r0_ones2 (V : Valuation τ sig (Elt Ideal)) : r0_W2 V (Proc.devRef .tc main_v0) = edgeOnes := (r0_W2_keep V (by decide)).trans (r0_ones1 V)

theorem r0_h0 (V : Valuation τ sig (Elt Ideal)) : r0_W0 V (Proc.devRef .tc main_arg0) = (V (Proc.devRef .tc main_arg0)) := r0_W0_keep V (by decide)
theorem r0_h1 (V : Valuation τ sig (Elt Ideal)) : r0_W1 V (Proc.devRef .tc main_arg0) = (V (Proc.devRef .tc main_arg0)) := (r0_W1_keep V (by decide)).trans (r0_h0 V)
theorem r0_h2 (V : Valuation τ sig (Elt Ideal)) : r0_W2 V (Proc.devRef .tc main_arg0) = (V (Proc.devRef .tc main_arg0)) := (r0_W2_keep V (by decide)).trans (r0_h1 V)

theorem r0_src0 (V : Valuation τ sig (Elt Ideal)) : r0_W0 V (Proc.devRef .tc main_arg1) = (V (Proc.devRef .tc main_arg1)) := r0_W0_keep V (by decide)
theorem r0_src1 (V : Valuation τ sig (Elt Ideal)) : r0_W1 V (Proc.devRef .tc main_arg1) = (V (Proc.devRef .tc main_arg1)) := (r0_W1_keep V (by decide)).trans (r0_src0 V)
theorem r0_src2 (V : Valuation τ sig (Elt Ideal)) : r0_W2 V (Proc.devRef .tc main_arg1) = (V (Proc.devRef .tc main_arg1)) := (r0_W2_keep V (by decide)).trans (r0_src1 V)

theorem r0_dst0 (V : Valuation τ sig (Elt Ideal)) : r0_W0 V (Proc.devRef .tc main_arg2) = (V (Proc.devRef .tc main_arg2)) := r0_W0_keep V (by decide)
theorem r0_dst1 (V : Valuation τ sig (Elt Ideal)) : r0_W1 V (Proc.devRef .tc main_arg2) = (V (Proc.devRef .tc main_arg2)) := (r0_W1_keep V (by decide)).trans (r0_dst0 V)
theorem r0_dst2 (V : Valuation τ sig (Elt Ideal)) : r0_W2 V (Proc.devRef .tc main_arg2) = (V (Proc.devRef .tc main_arg2)) := (r0_W2_keep V (by decide)).trans (r0_dst1 V)

theorem r0_wgt0 (V : Valuation τ sig (Elt Ideal)) : r0_W0 V (Proc.devRef .tc main_arg3) = (V (Proc.devRef .tc main_arg3)) := r0_W0_keep V (by decide)
theorem r0_wgt1 (V : Valuation τ sig (Elt Ideal)) : r0_W1 V (Proc.devRef .tc main_arg3) = (V (Proc.devRef .tc main_arg3)) := (r0_W1_keep V (by decide)).trans (r0_wgt0 V)
theorem r0_wgt2 (V : Valuation τ sig (Elt Ideal)) : r0_W2 V (Proc.devRef .tc main_arg3) = (V (Proc.devRef .tc main_arg3)) := (r0_W2_keep V (by decide)).trans (r0_wgt1 V)

theorem r0_bia0 (V : Valuation τ sig (Elt Ideal)) : r0_W0 V (Proc.devRef .tc main_arg4) = (V (Proc.devRef .tc main_arg4)) := r0_W0_keep V (by decide)
theorem r0_bia1 (V : Valuation τ sig (Elt Ideal)) : r0_W1 V (Proc.devRef .tc main_arg4) = (V (Proc.devRef .tc main_arg4)) := (r0_W1_keep V (by decide)).trans (r0_bia0 V)
theorem r0_bia2 (V : Valuation τ sig (Elt Ideal)) : r0_W2 V (Proc.devRef .tc main_arg4) = (V (Proc.devRef .tc main_arg4)) := (r0_W2_keep V (by decide)).trans (r0_bia1 V)

/-- Relation 0's term, as it stands when the tail starts. -/
theorem r0_D0 (V : Valuation τ sig (Elt Ideal)) : r0_W3 V (Proc.devRef .tc main_v40) =
      refDense (aggOf (V (Proc.devRef .tc main_arg0)) (rowOf (V (Proc.devRef .tc main_arg1)) 0 slices_S3x800000_S1x800000_0_0) (rowOf (V (Proc.devRef .tc main_arg2)) 0 slices_S3x800000_S1x800000_0_0)
          (degOf (rowOf (V (Proc.devRef .tc main_arg1)) 0 slices_S3x800000_S1x800000_0_0)) (degOf (rowOf (V (Proc.devRef .tc main_arg2)) 0 slices_S3x800000_S1x800000_0_0)))
        (V (Proc.devRef .tc main_arg3)) (V (Proc.devRef .tc main_arg4)) 0 slices_S3x128x128_S1x128x128_0_0_0 slices_S3x128_S1x128_0_0 := by
  rw [r0_W3_keep V (x := main_v40) (by decide), r0_W2_keep V (x := main_v40) (by decide)]
  unfold r0_W1
  rw [r0_rel0_read _ (r0_ones0 V), r0_h0 V, r0_src0 V, r0_dst0 V, r0_wgt0 V, r0_bia0 V]

/-- Relation 1's term, as it stands when the tail starts. -/
theorem r0_D1 (V : Valuation τ sig (Elt Ideal)) : r0_W3 V (Proc.devRef .tc main_v80) =
      refDense (aggOf (V (Proc.devRef .tc main_arg0)) (rowOf (V (Proc.devRef .tc main_arg1)) 1 slices_S3x800000_S1x800000_1_0) (rowOf (V (Proc.devRef .tc main_arg2)) 1 slices_S3x800000_S1x800000_1_0)
          (degOf (rowOf (V (Proc.devRef .tc main_arg1)) 1 slices_S3x800000_S1x800000_1_0)) (degOf (rowOf (V (Proc.devRef .tc main_arg2)) 1 slices_S3x800000_S1x800000_1_0)))
        (V (Proc.devRef .tc main_arg3)) (V (Proc.devRef .tc main_arg4)) 1 slices_S3x128x128_S1x128x128_1_0_0 slices_S3x128_S1x128_1_0 := by
  rw [r0_W3_keep V (x := main_v80) (by decide)]
  unfold r0_W2
  rw [r0_rel1_read _ (r0_ones1 V), r0_h1 V, r0_src1 V, r0_dst1 V, r0_wgt1 V, r0_bia1 V]

/-- Relation 2's term, as it stands when the tail starts. -/
theorem r0_D2 (V : Valuation τ sig (Elt Ideal)) : r0_W3 V (Proc.devRef .tc main_v120) =
      refDense (aggOf (V (Proc.devRef .tc main_arg0)) (rowOf (V (Proc.devRef .tc main_arg1)) 2 slices_S3x800000_S1x800000_2_0) (rowOf (V (Proc.devRef .tc main_arg2)) 2 slices_S3x800000_S1x800000_2_0)
          (degOf (rowOf (V (Proc.devRef .tc main_arg1)) 2 slices_S3x800000_S1x800000_2_0)) (degOf (rowOf (V (Proc.devRef .tc main_arg2)) 2 slices_S3x800000_S1x800000_2_0)))
        (V (Proc.devRef .tc main_arg3)) (V (Proc.devRef .tc main_arg4)) 2 slices_S3x128x128_S1x128x128_2_0_0 slices_S3x128_S1x128_2_0 := by
  unfold r0_W3
  rw [r0_rel2_read _ (r0_ones2 V), r0_h2 V, r0_src2 V, r0_dst2 V, r0_wgt2 V, r0_bia2 V]

/-- Layer 0's result, from any contents V: the layer function of the three relations' aggregates of the features in `main_arg0`,
    the layer's weights and biases. -/
theorem readR0 (V : Valuation τ sig (Elt Ideal)) :
    after (opsL0 (F := Ideal)) V (Proc.devRef .tc main_v128) =
      refLayer
        (aggOf (V (Proc.devRef .tc main_arg0)) (rowOf (V (Proc.devRef .tc main_arg1)) 0 slices_S3x800000_S1x800000_0_0) (rowOf (V (Proc.devRef .tc main_arg2)) 0 slices_S3x800000_S1x800000_0_0)
          (degOf (rowOf (V (Proc.devRef .tc main_arg1)) 0 slices_S3x800000_S1x800000_0_0)) (degOf (rowOf (V (Proc.devRef .tc main_arg2)) 0 slices_S3x800000_S1x800000_0_0)))
        (aggOf (V (Proc.devRef .tc main_arg0)) (rowOf (V (Proc.devRef .tc main_arg1)) 1 slices_S3x800000_S1x800000_1_0) (rowOf (V (Proc.devRef .tc main_arg2)) 1 slices_S3x800000_S1x800000_1_0)
          (degOf (rowOf (V (Proc.devRef .tc main_arg1)) 1 slices_S3x800000_S1x800000_1_0)) (degOf (rowOf (V (Proc.devRef .tc main_arg2)) 1 slices_S3x800000_S1x800000_1_0)))
        (aggOf (V (Proc.devRef .tc main_arg0)) (rowOf (V (Proc.devRef .tc main_arg1)) 2 slices_S3x800000_S1x800000_2_0) (rowOf (V (Proc.devRef .tc main_arg2)) 2 slices_S3x800000_S1x800000_2_0)
          (degOf (rowOf (V (Proc.devRef .tc main_arg1)) 2 slices_S3x800000_S1x800000_2_0)) (degOf (rowOf (V (Proc.devRef .tc main_arg2)) 2 slices_S3x800000_S1x800000_2_0)))
        (V (Proc.devRef .tc main_arg3)) (V (Proc.devRef .tc main_arg4)) := by
  rw [r0_chain V, r0_tail_read, r0_D0, r0_D1, r0_D2]
  rfl

end Cert.Bridge

end
-- ==== Proof.BridgeArgs.lean ====
/-
  The reference's arguments through its layers: no layer writes an argument array, so after any number of layers an
  argument array holds its launch contents.
-/
import proofs.«165758_j22333829939343_1_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD) {r : Ref sig .tc}

theorem R0_arg : R0 m c (Proc.devRef .tc r) = m ((c.tc : Thread nD τ).loc r) := rfl

theorem R1_arg (h0 : r ∉ opsL0_W) : R1 m c (Proc.devRef .tc r) = m ((c.tc : Thread nD τ).loc r) :=
  R1_keeps m c h0

theorem R2_arg (h0 : r ∉ opsL0_W) (h1 : r ∉ opsL1_W) : R2 m c (Proc.devRef .tc r) = m ((c.tc : Thread nD τ).loc r) :=
  (R2_keeps m c h1).trans (R1_keeps m c h0)

theorem R3_arg (h0 : r ∉ opsL0_W) (h1 : r ∉ opsL1_W) (h2 : r ∉ opsL2_W) :
    R3 m c (Proc.devRef .tc r) = m ((c.tc : Thread nD τ).loc r) :=
  (R3_keeps m c h2).trans ((R2_keeps m c h1).trans (R1_keeps m c h0))

theorem R4_arg (h0 : r ∉ opsL0_W) (h1 : r ∉ opsL1_W) (h2 : r ∉ opsL2_W) (h3 : r ∉ opsL3_W) :
    R4 m c (Proc.devRef .tc r) = m ((c.tc : Thread nD τ).loc r) :=
  (R4_keeps m c h3).trans ((R3_keeps m c h2).trans ((R2_keeps m c h1).trans (R1_keeps m c h0)))

theorem R5_arg (h0 : r ∉ opsL0_W) (h1 : r ∉ opsL1_W) (h2 : r ∉ opsL2_W) (h3 : r ∉ opsL3_W) (h4 : r ∉ opsL4_W) :
    R5 m c (Proc.devRef .tc r) = m ((c.tc : Thread nD τ).loc r) :=
  (R5_keeps m c h4).trans ((R4_keeps m c h3).trans ((R3_keeps m c h2).trans ((R2_keeps m c h1).trans (R1_keeps m c h0))))

end Cert.ReferenceIdeal.RefRun

end
-- ==== Proof.BridgeL0.lean ====
/-
  Layer 0 on both sides: the kernel program's first region leaves in its output array what the reference's
  first layer computes, given the same arguments.
-/
import proofs.«165758_j22333829939343_1_alg».proof.Proof.KRunVals
import proofs.«165758_j22333829939343_1_alg».proof.Proof.BridgeChainK
import proofs.«165758_j22333829939343_1_alg».proof.Proof.KJoin0
import proofs.«165758_j22333829939343_1_alg».proof.Proof.BridgeReadK0
import proofs.«165758_j22333829939343_1_alg».proof.Proof.BridgeReadAggK0
import proofs.«165758_j22333829939343_1_alg».proof.Proof.BridgeReadR0
import proofs.«165758_j22333829939343_1_alg».proof.Proof.RefRun
import proofs.«165758_j22333829939343_1_alg».proof.Proof.BridgeArgs

set_option maxRecDepth 16384

noncomputable section

namespace Cert.Bridge

open Idealize.ShloMosaic Idealize.ShloMosaic.TcCoe Idealize.SL.Sem
open Cert.KernelIdeal Cert.KernelIdeal.Gen Cert.KernelIdeal.Hand

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

set_option maxHeartbeats 4000000 in
theorem layer0_eq (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))) (c : Dev Cert.KernelIdeal.nD) :
    W2 m ρ c (Proc.devRef .tc main_v134)
      = Cert.ReferenceIdeal.RefRun.R1 m' c (Proc.devRef .tc Cert.ReferenceIdeal.main_v128) := by
  obtain ⟨g0, g1, g2, g3, g4, g5, g6, g7, g8⟩ := hagree c
  have hA := readK0_agg (W0 m ρ c)
  have hB := readK0_bias (W0 m ρ c)
  have hR := readR0 (Cert.ReferenceIdeal.RefRun.R0 m' c)
  rw [W0_main_arg0 m ρ c, W0_main_arg1 m ρ c, W0_main_arg2 m ρ c] at hA
  rw [W0_main_arg4 m ρ c] at hB
  have r0 : Cert.ReferenceIdeal.RefRun.R0 m' c (Proc.devRef .tc Cert.ReferenceIdeal.main_arg0) = m ((c.tc : Thread Cert.KernelIdeal.nD Cert.KernelIdeal.τ).loc Cert.KernelIdeal.main_arg0) := g0
  have r1 : Cert.ReferenceIdeal.RefRun.R0 m' c (Proc.devRef .tc Cert.ReferenceIdeal.main_arg1) = m ((c.tc : Thread Cert.KernelIdeal.nD Cert.KernelIdeal.τ).loc Cert.KernelIdeal.main_arg1) := g1
  have r2 : Cert.ReferenceIdeal.RefRun.R0 m' c (Proc.devRef .tc Cert.ReferenceIdeal.main_arg2) = m ((c.tc : Thread Cert.KernelIdeal.nD Cert.KernelIdeal.τ).loc Cert.KernelIdeal.main_arg2) := g2
  have r3 : Cert.ReferenceIdeal.RefRun.R0 m' c (Proc.devRef .tc Cert.ReferenceIdeal.main_arg3) = m ((c.tc : Thread Cert.KernelIdeal.nD Cert.KernelIdeal.τ).loc Cert.KernelIdeal.main_arg3) := g3
  have r4 : Cert.ReferenceIdeal.RefRun.R0 m' c (Proc.devRef .tc Cert.ReferenceIdeal.main_arg4) = m ((c.tc : Thread Cert.KernelIdeal.nD Cert.KernelIdeal.τ).loc Cert.KernelIdeal.main_arg4) := g4
  rw [r0, r1, r2, r3, r4] at hR
  rw [W2_out, final0, Cert.ReferenceIdeal.RefRun.R1_eq]
  refine ((G0_eq_refLayer (V1 m ρ) c _ _ _ _ _ _ hA (W1_main_arg3 m ρ c) hB).trans ?_)
  exact hR.symm

end Cert.Bridge

end
-- ==== Proof.KValue1.lean ====
/-
  Region 1: the values. Each case's found pieces read back as the body's payloads; the accumulator after a
  point is the running sum of its row tile's relations; the output array ends, row tile by row tile, at the
  activated mean of the three relations' tile products.
-/
import proofs.«165758_j22333829939343_1_alg».proof.Proof.KBody1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem hz2_1 : (![0, 0] : Fin 2 → Nat) = fun _ => 0 := funext fun a => by fin_cases a <;> rfl
theorem hz3_1 : (![0, 0, 0] : Fin 3 → Nat) = fun _ => 0 := funext fun a => by fin_cases a <;> rfl

/-- A relation-0 point leaves the accumulator at zero plus the relation's tile product. -/
theorem sout1_A_eq (c : Dev nD) (i : grid1.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond1_0 i) (hc1 : ¬cond1_1 i) (x0 : Vec F S1x2000x128 .f32) (x1 : Vec F S1x128x128 .f32) (x2 : Vec F S1x1x128 .f32) :
    sout1_A_0 c i arg2 harg2 arg3 harg3 arg4 harg4 arg5 harg5 arg6 harg6 hc0 hc1 x0 x1 x2 = k1_pay2 x0 x1 x2 (k1_pay1 (F := F)) := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S2000x128) hz2_1, View.readCov_unit_zero (S := S2000x128) _ hz2_1]
  simp only [View.readAt_eq_ld, harg2.read_unread, harg3.read_unread, harg4.read_unread,
    View.ld_unit_zero (S := S1x2000x128) hz3_1, View.ld_unit_zero (S := S1x128x128) hz3_1, View.ld_unit_zero (S := S1x1x128) hz3_1]

/-- A relation-1 point adds the relation's tile product to the accumulator. -/
theorem sout1_B_eq (c : Dev nD) (i : grid1.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond1_0 i) (hc1 : ¬cond1_1 i) (x0 : Vec F S1x2000x128 .f32) (x1 : Vec F S1x128x128 .f32) (x2 : Vec F S1x1x128 .f32) (xs0 : Vec F S2000x128 .f32) :
    sout1_B_0 c i arg2 harg2 arg3 harg3 arg4 harg4 arg5 harg5 arg6 harg6 hc0 hc1 x0 x1 x2 xs0 = k1_pay2 x0 x1 x2 xs0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  sl_unfold_words
  rw [View.canon_unit_zero hz2_1]
  simp only [View.readAt_eq_ld, harg2.read_unread, harg3.read_unread, harg4.read_unread, harg6.read_unread,
    View.ld_unit_zero (S := S1x2000x128) hz3_1, View.ld_unit_zero (S := S1x128x128) hz3_1, View.ld_unit_zero (S := S1x1x128) hz3_1,
    View.ld_unit_zero (S := S2000x128) hz2_1]

/-- So does a relation-2 point, -/
theorem sout1_C_eq (c : Dev nD) (i : grid1.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond1_0 i) (hc1 : cond1_1 i) (x0 : Vec F S1x2000x128 .f32) (x1 : Vec F S1x128x128 .f32) (x2 : Vec F S1x1x128 .f32) (xs0 : Vec F S2000x128 .f32) :
    sout1_C_0 c i arg2 harg2 arg3 harg3 arg4 harg4 arg5 harg5 arg6 harg6 hc0 hc1 x0 x1 x2 xs0 = k1_pay2 x0 x1 x2 xs0 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero hz2_1]
  simp only [View.readAt_eq_ld, harg2.read_unread, harg3.read_unread, harg4.read_unread, harg6.read_unread,
    View.ld_unit_zero (S := S1x2000x128) hz3_1, View.ld_unit_zero (S := S1x128x128) hz3_1, View.ld_unit_zero (S := S1x1x128) hz3_1,
    View.ld_unit_zero (S := S2000x128) hz2_1]

/-- and it stores the activated mean of the new accumulator into the output block. -/
theorem out1_C_eq (c : Dev nD) (i : grid1.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond1_0 i) (hc1 : cond1_1 i) (x0 : Vec F S1x2000x128 .f32) (x1 : Vec F S1x128x128 .f32) (x2 : Vec F S1x1x128 .f32) (xs0 : Vec F S2000x128 .f32) :
    out1_C_3 c i arg2 harg2 arg3 harg3 arg4 harg4 arg5 harg5 arg6 harg6 hc0 hc1 x0 x1 x2 xs0 = k1_pay3 (k1_pay2 x0 x1 x2 xs0) := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero hz2_1, View.readCov_unit_zero (S := S2000x128) _ hz2_1]
  simp only [View.readAt_eq_ld, harg2.read_unread, harg3.read_unread, harg4.read_unread, harg6.read_unread,
    View.ld_unit_zero (S := S1x2000x128) hz3_1, View.ld_unit_zero (S := S1x128x128) hz3_1, View.ld_unit_zero (S := S1x1x128) hz3_1,
    View.ld_unit_zero (S := S2000x128) hz2_1]

/-! ## The running sum -/

/-- One point's step: the accumulator plus this point's relation's tile product (its three input blocks). -/
def step1 (c : Dev nD) (t : Fin cfg1.N) (acc : Vec F S2000x128 .f32) : Vec F S2000x128 .f32 :=
  k1_pay2 (iblk1 V c 0 t) (iblk1 V c 1 t) (iblk1 V c 2 t) acc

/-- The accumulator after point n: restarted from zero at relation 0. -/
def accAt1 (c : Dev nD) : (n : ℕ) → n < cfg1.N → Vec F S2000x128 .f32
  | 0, h => step1 V c ⟨0, h⟩ (k1_pay1 (F := F))
  | n + 1, h => if (n + 1) % 3 = 0 then step1 V c ⟨n + 1, h⟩ (k1_pay1 (F := F)) else step1 V c ⟨n + 1, h⟩ (accAt1 c n (Nat.lt_of_succ_lt h))

theorem accAt1_succ (c : Dev nD) (n : ℕ) (h : n + 1 < cfg1.N) :
    accAt1 V c (n + 1) h = (if (n + 1) % 3 = 0 then step1 V c ⟨n + 1, h⟩ (k1_pay1 (F := F)) else step1 V c ⟨n + 1, h⟩ (accAt1 V c n (Nat.lt_of_succ_lt h))) := rfl

set_option maxHeartbeats 4000000 in
theorem outsAt1_snd (c : Dev nD) : ∀ (n : ℕ) (h : n < cfg1.N), (outsAt1 V c n h).2 = accAt1 V c n h
  | 0, h => by
    have hc1 : ¬cond1_1 (grid1.coords ⟨0, h⟩) := fun hh => by
      have h2 : (0 : ℕ) % 3 = 2 := (hcond1_1 ⟨0, h⟩).mp hh
      omega
    rw [outsAt1_A V c ⟨0, h⟩ rfl hc1]
    dsimp only
    exact sout1_A_eq (F := F) ..
  | n + 1, h => by
    by_cases h0 : (n + 1) % 3 = 0
    · have hc1 : ¬cond1_1 (grid1.coords ⟨n + 1, h⟩) := fun hh => by
        have h2 : (n + 1) % 3 = 2 := (hcond1_1 ⟨n + 1, h⟩).mp hh
        omega
      rw [outsAt1_A V c ⟨n + 1, h⟩ h0 hc1, accAt1_succ, if_pos h0]
      dsimp only
      exact sout1_A_eq (F := F) ..
    · by_cases h1 : (n + 1) % 3 = 2
      · rw [outsAt1_C V c ⟨n + 1, h⟩ h0 h1, accAt1_succ, if_neg h0]
        dsimp only
        refine (sout1_C_eq (F := F) ..).trans ?_
        show k1_pay2 _ _ _ (outsAt1 V c n _).2 = _
        rw [outsAt1_snd c n]; rfl
      · rw [outsAt1_B V c ⟨n + 1, h⟩ h0 h1, accAt1_succ, if_neg h0]
        dsimp only
        refine (sout1_B_eq (F := F) ..).trans ?_
        show k1_pay2 _ _ _ (outsAt1 V c n _).2 = _
        rw [outsAt1_snd c n]; rfl

set_option maxHeartbeats 4000000 in
/-- At a relation-2 point the output block holds the activated mean of the accumulator. -/
theorem outsAt1_fst (c : Dev nD) (t : Fin cfg1.N) (h1 : t.val % 3 = 2) :
    (outsAt1 V c t.val t.isLt).1 = k1_pay3 (accAt1 V c t.val t.isLt) := by
  have h0 : ¬t.val % 3 = 0 := by omega
  rw [← outsAt1_snd V c t.val t.isLt, outsAt1_C V c t h0 h1]
  dsimp only
  refine (out1_C_eq (F := F) ..).trans ?_
  exact congrArg k1_pay3 (sout1_C_eq (F := F) ..).symm

end Cert.KernelIdeal.Hand

end
-- ==== Proof.KFinal1.lean ====
/-
  Region 1: from blocks to the array. Row tile I of the output array is written back once, after its
  relation-2 point 3·I + 2, and holds the activated mean of that point's accumulator; the 25 row tiles cover
  the array.
-/
import proofs.«165758_j22333829939343_1_alg».proof.Proof.KValue1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

open ValueIdx in
/-- The output array after the region, entry by entry: entry (i, q) lies in row tile i / 2000. -/
def G1 (c : Dev nD) : S50000x128.Idx → Elt F .f32 := fun j =>
  k1_pay3 (accAt1 V c (3 * ((j 0).val / 2000) + 2) (by
      have h0 : (j 0).val < 50000 := (j 0).isLt
      have hN : cfg1.N = 75 := N_1
      have hN' : grid1.N = 75 := N_1
      omega))
    (ix2 (⟨(j 0).val % 2000, Nat.mod_lt _ (by decide)⟩ : Fin 2000) ((j 1 : Fin 128)))

theorem tile1_congr (c : Dev nD) {n n' : ℕ} (hn : n < cfg1.N) (hn' : n' < cfg1.N) (e : n = n') {y y' : S2000x128.Idx} (ey : y = y') :
    k1_pay3 (accAt1 V c n hn) y = k1_pay3 (accAt1 V c n' hn') y' := by
  subst e; subst ey; rfl

/-- The output window's block index at point t is its row tile, t / 3 (decided over the grid). -/
theorem idx_facts1_3 : ∀ t : Fin cfg1.N, win1_3.index t (0 : Fin 2) = t.val / 3 ∧ win1_3.index t (1 : Fin 2) = 0 :=
  (by decide +kernel : ∀ t : Fin grid1.N, win1_3.index t (0 : Fin 2) = t.val / 3 ∧ win1_3.index t (1 : Fin 2) = 0)

/-- What a relation-2 point writes back is its row tile of G1. -/
theorem flushed1_eq (c : Dev nD) (t : Fin cfg1.N) (hf : (cfg1.win 3).flush t = true) :
    (dat1 V c).flushed 3 t = ((cfg1.win 3).blk t).view.read (Elt F) (G1 V c) := by
  have h1 : t.val % 3 = 2 := (flush1_3 t).mp hf
  show (cfg1.win 3).cut (grid1.coords t) ((dat1 V c).after 3 t) = _
  rw [after1_3, outsAt1_fst V c t h1]
  obtain ⟨e0, e1⟩ := idx_facts1_3 t
  funext y
  have hy0 : (y 0).val < 2000 := (y 0).isLt
  have he0 : ((((cfg1.win 3).blk t).view.emb y) 0).val = t.val / 3 * 2000 + (y 0).val := by
    show win1_3.index t (0 : Fin 2) * 2000 + 1 * (y 0).val = _
    rw [e0]; omega
  have he1 : ((((cfg1.win 3).blk t).view.emb y) 1).val = (y 1).val := by
    show win1_3.index t (1 : Fin 2) * 128 + 1 * (y 1).val = _
    rw [e1]; omega
  show k1_pay3 (accAt1 V c t.val t.isLt) y = G1 V c (((cfg1.win 3).blk t).view.emb y)
  unfold G1
  refine tile1_congr V c _ _ (by rw [he0]; omega) (funext fun a => ?_)
  match a with
  | ⟨0, _⟩ => exact Fin.ext (by show (y 0).val = _ % 2000; rw [he0]; omega)
  | ⟨1, _⟩ => exact Fin.ext he1.symm

theorem mem_blk1_3 (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v234).slice (win1_3.rect t)).set ↔ _
  rw [View.set_slice_whole, Rect.mem_set_unit]
  exact Iff.rfl

/-- The output array after the region is G1. -/
theorem final1 (c : Dev nD) : (dat1 V c).arrAt 3 cfg1.N = G1 V c :=
  (dat1 V c).arrAt_eq_of_cover 3 (G1 V c) (flushed1_eq V c) fun i => by
    have h0 : (i 0).val < 50000 := (i 0).isLt
    have h1 : (i 1).val < 128 := (i 1).isLt
    have hN : cfg1.N = 75 := N_1
    have hN' : grid1.N = 75 := N_1
    refine ⟨⟨3 * ((i 0).val / 2000) + 2, by omega⟩, (flush1_3 _).mpr (by show (3 * ((i 0).val / 2000) + 2) % 3 = 2; omega), ?_⟩
    rw [mem_blk1_3]
    obtain ⟨e0, e1⟩ := idx_facts1_3 ⟨3 * ((i 0).val / 2000) + 2, by omega⟩
    have e0' : win1_3.index ⟨3 * ((i 0).val / 2000) + 2, by omega⟩ (0 : Fin 2) = (i 0).val / 2000 := by rw [e0]; show (3 * ((i 0).val / 2000) + 2) / 3 = _; omega
    intro a
    match a with
    | ⟨0, _⟩ => show win1_3.index _ (0 : Fin 2) * 2000 ≤ (i 0).val ∧ (i 0).val < win1_3.index _ (0 : Fin 2) * 2000 + 2000; rw [e0']; omega
    | ⟨1, _⟩ => show win1_3.index _ (1 : Fin 2) * 128 ≤ (i 1).val ∧ (i 1).val < win1_3.index _ (1 : Fin 2) * 128 + 128; rw [e1]; omega

end Cert.KernelIdeal.Hand

end
-- ==== Proof.KEntry1.lean ====
/-
  Region 1 at an entry. Entry (i, q) of the region's output array lies in row tile I = i / 2000, row p = i % 2000. The
  three points of that row tile read relation r's block of the stacked features (rows 2000 I … 2000 I + 1999), its weight
  matrix and its bias row; the accumulator after the third point is three steps from the cleared one; the output entry is
  the leaky rectifier of a third of it. So the entry is a function of the three arrays the region reads, with no tile left
  in it.
-/
import proofs.«165758_j22333829939343_1_alg».proof.Proof.KFinal1
import proofs.«165758_j22333829939343_1_alg».proof.Proof.LayerAlias
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## Where a point's blocks sit in their arrays (decided over the grid) -/

/-- The feature window's block at point t: relation t % 3, row tile t / 3. -/
theorem idx_facts1_0 : ∀ t : Fin cfg1.N, win1_0.index t (0 : Fin 3) = t.val % 3 ∧ win1_0.index t (1 : Fin 3) = t.val / 3 ∧ win1_0.index t (2 : Fin 3) = 0 :=
  (by decide +kernel : ∀ t : Fin grid1.N, win1_0.index t (0 : Fin 3) = t.val % 3 ∧ win1_0.index t (1 : Fin 3) = t.val / 3 ∧ win1_0.index t (2 : Fin 3) = 0)

/-- The weight window's block at point t: relation t % 3. -/
theorem idx_facts1_1 : ∀ t : Fin cfg1.N, win1_1.index t (0 : Fin 3) = t.val % 3 ∧ win1_1.index t (1 : Fin 3) = 0 ∧ win1_1.index t (2 : Fin 3) = 0 :=
  (by decide +kernel : ∀ t : Fin grid1.N, win1_1.index t (0 : Fin 3) = t.val % 3 ∧ win1_1.index t (1 : Fin 3) = 0 ∧ win1_1.index t (2 : Fin 3) = 0)

/-- The bias window's block at point t: relation t % 3. -/
theorem idx_facts1_2 : ∀ t : Fin cfg1.N, win1_2.index t (0 : Fin 3) = t.val % 3 ∧ win1_2.index t (1 : Fin 3) = 0 ∧ win1_2.index t (2 : Fin 3) = 0 :=
  (by decide +kernel : ∀ t : Fin grid1.N, win1_2.index t (0 : Fin 3) = t.val % 3 ∧ win1_2.index t (1 : Fin 3) = 0 ∧ win1_2.index t (2 : Fin 3) = 0)

/-- The three arrays the region reads, as the region finds them. -/
abbrev AGG1 (c : Dev nD) : Vec Ideal S3x50000x128 .f32 := V c (Pipeline.arrRef spec1 0)
abbrev WGT1 (c : Dev nD) : Vec Ideal S3x128x128 .f32 := V c (Pipeline.arrRef spec1 1)
abbrev BIA1 (c : Dev nD) : Vec Ideal S3x1x128 .f32 := V c (Pipeline.arrRef spec1 2)

/-- A point's three input blocks, at their literal shapes. -/
abbrev blkA1 (c : Dev nD) (t : Fin cfg1.N) : Vec Ideal S1x2000x128 .f32 := iblk1 V c 0 t
abbrev blkW1 (c : Dev nD) (t : Fin cfg1.N) : Vec Ideal S1x128x128 .f32 := iblk1 V c 1 t
abbrev blkB1 (c : Dev nD) (t : Fin cfg1.N) : Vec Ideal S1x1x128 .f32 := iblk1 V c 2 t

/-- Entry (0, p, k) of the feature block at point t is entry (t % 3, 2000 (t / 3) + p, k) of the stacked features. -/
theorem iblk1_0_apply (c : Dev nD) (t : Fin cfg1.N) (p : Fin 2000) (k : Fin 128) (r : Fin 3) (i : Fin 50000)
    (hr : r.val = t.val % 3) (hi : i.val = t.val / 3 * 2000 + p.val) :
    blkA1 V c t (ix3 (0 : Fin 1) p k) = AGG1 V c (ix3 r i k) := by
  obtain ⟨e0, e1, e2⟩ := idx_facts1_0 t
  show AGG1 V c (((cfg1.win 0).blk t).view.emb (ix3 (0 : Fin 1) p k)) = _
  refine congrArg (AGG1 V c) (funext fun a => ?_)
  match a with
  | ⟨0, _⟩ => exact Fin.ext (by show win1_0.index t (0 : Fin 3) * 1 + 1 * 0 = r.val; rw [e0]; omega)
  | ⟨1, _⟩ => exact Fin.ext (by show win1_0.index t (1 : Fin 3) * 2000 + 1 * p.val = i.val; rw [e1]; omega)
  | ⟨2, _⟩ => exact Fin.ext (by show win1_0.index t (2 : Fin 3) * 128 + 1 * k.val = k.val; rw [e2]; omega)

/-- Entry (0, k, q) of the weight block at point t is entry (t % 3, k, q) of the weights. -/
theorem iblk1_1_apply (c : Dev nD) (t : Fin cfg1.N) (k : Fin 128) (q : Fin 128) (r : Fin 3) (hr : r.val = t.val % 3) :
    blkW1 V c t (ix3 (0 : Fin 1) k q) = WGT1 V c (ix3 r k q) := by
  obtain ⟨e0, e1, e2⟩ := idx_facts1_1 t
  show WGT1 V c (((cfg1.win 1).blk t).view.emb (ix3 (0 : Fin 1) k q)) = _
  refine congrArg (WGT1 V c) (funext fun a => ?_)
  match a with
  | ⟨0, _⟩ => exact Fin.ext (by show win1_1.index t (0 : Fin 3) * 1 + 1 * 0 = r.val; rw [e0]; omega)
  | ⟨1, _⟩ => exact Fin.ext (by show win1_1.index t (1 : Fin 3) * 128 + 1 * k.val = k.val; rw [e1]; omega)
  | ⟨2, _⟩ => exact Fin.ext (by show win1_1.index t (2 : Fin 3) * 128 + 1 * q.val = q.val; rw [e2]; omega)

/-- Entry (0, 0, q) of the bias block at point t is entry (t % 3, 0, q) of the biases. -/
theorem iblk1_2_apply (c : Dev nD) (t : Fin cfg1.N) (q : Fin 128) (r : Fin 3) (hr : r.val = t.val % 3) :
    blkB1 V c t (ix3 (0 : Fin 1) (0 : Fin 1) q) = BIA1 V c (ix3 r (0 : Fin 1) q) := by
  obtain ⟨e0, e1, e2⟩ := idx_facts1_2 t
  show BIA1 V c (((cfg1.win 2).blk t).view.emb (ix3 (0 : Fin 1) (0 : Fin 1) q)) = _
  refine congrArg (BIA1 V c) (funext fun a => ?_)
  match a with
  | ⟨0, _⟩ => exact Fin.ext (by show win1_2.index t (0 : Fin 3) * 1 + 1 * 0 = r.val; rw [e0]; omega)
  | ⟨1, _⟩ => exact Fin.ext (by show win1_2.index t (1 : Fin 3) * 1 + 1 * 0 = 0; rw [e1])
  | ⟨2, _⟩ => exact Fin.ext (by show win1_2.index t (2 : Fin 3) * 128 + 1 * q.val = q.val; rw [e2]; omega)

/-! ## One relation's contribution at an entry of the output array -/

/-- Relation r's contribution to entry (i, q): row i of its aggregated features times column q of its weights, plus its
    bias entry q. -/
def T1 (c : Dev nD) (r : Fin 3) (i : Fin 50000) (q : Fin 128) : EReal :=
  (∑ k : Fin 128, AGG1 V c (ix3 r i k) * WGT1 V c (ix3 r k q)) + BIA1 V c (ix3 r (0 : Fin 1) q)

/-- The tile product of point t at entry (p, q) is relation t % 3's contribution to entry (2000 (t / 3) + p, q). -/
theorem tile1_eq (c : Dev nD) (t : Fin cfg1.N) (p : Fin 2000) (q : Fin 128) (r : Fin 3) (i : Fin 50000)
    (hr : r.val = t.val % 3) (hi : i.val = t.val / 3 * 2000 + p.val) :
    (∑ k : Fin 128, blkA1 V c t (ix3 (0 : Fin 1) p k)
        * blkW1 V c t (ix3 (0 : Fin 1) k q))
      + blkB1 V c t (ix3 (0 : Fin 1) (0 : Fin 1) q) = T1 V c r i q :=
  congrArg₂ (· + ·)
    (Finset.sum_congr rfl fun k _ => congrArg₂ (· * ·) (iblk1_0_apply V c t p k r i hr hi) (iblk1_1_apply V c t k q r hr))
    (iblk1_2_apply V c t q r hr)

/-! ## The accumulator after a row tile's last point -/

theorem accAt1_restart (c : Dev nD) (n : ℕ) (h : n < cfg1.N) (h0 : n % 3 = 0) :
    accAt1 V c n h = step1 V c ⟨n, h⟩ (k1_pay1 (F := Ideal)) := by
  cases n with
  | zero => rfl
  | succ m => rw [accAt1, if_pos h0]

theorem accAt1_cont (c : Dev nD) (n : ℕ) (h : n + 1 < cfg1.N) (h0 : ¬(n + 1) % 3 = 0) :
    accAt1 V c (n + 1) h = step1 V c ⟨n + 1, h⟩ (accAt1 V c n (Nat.lt_of_succ_lt h)) := by
  rw [accAt1, if_neg h0]

/-- After the relation-2 point of row tile I the accumulator holds three steps from the cleared one. -/
theorem accAt1_three (c : Dev nD) (I : ℕ) (h2 : 3 * I + 2 < cfg1.N) :
    accAt1 V c (3 * I + 2) h2
      = step1 V c ⟨3 * I + 2, h2⟩ (step1 V c ⟨3 * I + 1, by omega⟩ (step1 V c ⟨3 * I, by omega⟩ (k1_pay1 (F := Ideal)))) := by
  have e0 : accAt1 V c (3 * I) (by omega) = step1 V c ⟨3 * I, by omega⟩ (k1_pay1 (F := Ideal)) :=
    accAt1_restart V c (3 * I) (by omega) (by omega)
  have e1 : accAt1 V c (3 * I + 1) (by omega) = step1 V c ⟨3 * I + 1, by omega⟩ (accAt1 V c (3 * I) (by omega)) :=
    accAt1_cont V c (3 * I) (by omega) (by omega)
  have e2 : accAt1 V c (3 * I + 2) h2 = step1 V c ⟨3 * I + 2, h2⟩ (accAt1 V c (3 * I + 1) (by omega)) :=
    accAt1_cont V c (3 * I + 1) h2 (by omega)
  rw [e2, e1, e0]

/-! ## The output array at an entry -/

/-- Entry (i, q) of the region's output array: the leaky rectifier of a third of the three relations' contributions,
    accumulated one after another into zero. -/
theorem G1_entry (c : Dev nD) (i : Fin 50000) (q : Fin 128) :
    G1 V c (ix2 i q) = Cert.Layer.leaky ((((0 + T1 V c 0 i q) + T1 V c 1 i q) + T1 V c 2 i q) * ((1 / 3 : ℝ) : EReal)) := by
  have hN : cfg1.N = 75 := N_1
  have hi := i.isLt
  have h2 : 3 * (i.val / 2000) + 2 < cfg1.N := by omega
  show k1_pay3 (accAt1 V c (3 * (i.val / 2000) + 2) h2) (ix2 (⟨i.val % 2000, Nat.mod_lt _ (by decide)⟩ : Fin 2000) q) = _
  refine (Cert.Layer.pay3_leaky_apply _ _ _).trans (congrArg Cert.Layer.leaky (congrArg (· * ((1 / 3 : ℝ) : EReal)) ?_))
  rw [accAt1_three V c (i.val / 2000) h2]
  refine (Cert.Layer.pay2_steps_apply _ _ _ _ _ _ _ _ _ _ q).trans ?_
  exact congrArg₂ (· + ·) (congrArg₂ (· + ·) (congrArg (0 + ·)
    (tile1_eq V c ⟨3 * (i.val / 2000), by omega⟩ _ q 0 i (by show 0 = (3 * (i.val / 2000)) % 3; omega)
      (by show i.val = 3 * (i.val / 2000) / 3 * 2000 + i.val % 2000; omega)))
    (tile1_eq V c ⟨3 * (i.val / 2000) + 1, by omega⟩ _ q 1 i (by show 1 = (3 * (i.val / 2000) + 1) % 3; omega)
      (by show i.val = (3 * (i.val / 2000) + 1) / 3 * 2000 + i.val % 2000; omega)))
    (tile1_eq V c ⟨3 * (i.val / 2000) + 2, h2⟩ _ q 2 i (by show 2 = (3 * (i.val / 2000) + 2) % 3; omega)
      (by show i.val = (3 * (i.val / 2000) + 2) / 3 * 2000 + i.val % 2000; omega))

end Cert.KernelIdeal.Hand

end
-- ==== Proof.KJoin1.lean ====
/-
  Region 1 against the reference, as arrays: the region's output array, given the arrays the kernel program prepares for
  it, is the reference's layer of the same data.
-/
import proofs.«165758_j22333829939343_1_alg».proof.Proof.KEntry1
import proofs.«165758_j22333829939343_1_alg».proof.Proof.BridgeLayer

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

variable (V : (c : Dev nD) → (b : Ref sig .tc) → Buf (Elt Ideal) ((c : Thread nD τ).loc b))

/-- REGION 1 AGAINST THE REFERENCE'S LAYER: when the region finds the stacked features, the weights and the recast biases
    the kernel program prepares, its output array is the reference's layer of the same features, weights and biases. -/
theorem G1_eq_refLayer [Cert.ReferenceIdeal.Facts₀] (c : Dev nD)
    (a0 a1 a2 : Vec Ideal Cert.ReferenceIdeal.S50000x128 .f32) (W : Vec Ideal Cert.ReferenceIdeal.S3x128x128 .f32)
    (B : Vec Ideal Cert.ReferenceIdeal.S3x128 .f32) (hcast : Cert.ReferenceIdeal.S3x128.ShapeCasts (⟨3, ![3, 1, 128]⟩ : Shape))
    (hA : AGG1 V c = Cert.Bridge.stack3 a0 a1 a2) (hW : WGT1 V c = W)
    (hB : BIA1 V c = shapeCast (⟨3, ![3, 1, 128]⟩ : Shape) B hcast) :
    G1 V c = Cert.Bridge.refLayer a0 a1 a2 W B := by
  funext j
  rw [eq_ix2 j]
  refine (G1_entry V c (j 0) (j 1)).trans ?_
  show Cert.Layer.leaky ((((0 + Cert.Bridge.kernT (AGG1 V c) (WGT1 V c) (BIA1 V c) 0 (j 0) (j 1))
      + Cert.Bridge.kernT (AGG1 V c) (WGT1 V c) (BIA1 V c) 1 (j 0) (j 1))
      + Cert.Bridge.kernT (AGG1 V c) (WGT1 V c) (BIA1 V c) 2 (j 0) (j 1)) * ((1 / 3 : ℝ) : EReal)) = _
  rw [hA, hW, hB]
  exact Cert.Bridge.layer_entry a0 a1 a2 W B hcast (j 0) (j 1)

end Cert.KernelIdeal.Hand

end
-- ==== Proof.BridgeReadK1.lean ====
/-
  What host stretch 1 of the kernel program leaves in two of the arrays region 1 reads, from any contents `V` before it:
  layer 1's weights, cut out of the [4,3,128,128] table, and its biases, cut out of the [4,3,128] table and recast as [3,1,128].
-/
import proofs.«165758_j22333829939343_1_alg».proof.Proof.Gen.KernelIdeal.Launch
import proofs.«165758_j22333829939343_1_alg».proof.Proof.BridgeVocab
import proofs.«165758_j22333829939343_1_alg».proof.Proof.BridgeLayer
import proofs.«165758_j22333829939343_1_alg».proof.Proof.LibHostReads

set_option maxRecDepth 16384

noncomputable section

namespace Cert.Bridge

open Idealize.ShloMosaic Idealize.ShloMosaic.TcCoe Idealize.ShloMosaic.StableHlo
open Cert.KernelIdeal Cert.KernelIdeal.Gen

variable [Cert.ReferenceIdeal.Facts₀]
variable (V : Valuation τ sig (Elt Ideal))

set_option maxHeartbeats 4000000 in
/-- Layer 1's weights: slab 0 of the weight table, recast as [3,128,128]. -/
theorem readK1_wgt : StableHlo.after hostOps1 V (Proc.devRef .tc main_v136)
    = shapeCast S3x128x128 (extractStridedSlice S1x3x128x128 ![0, 0, 0, 0] (V (Proc.devRef .tc main_arg5))
        slices_S4x3x128x128_S1x3x128x128_0_0_0_0) shapeCasts_S1x3x128x128_S3x128x128 := by
  dsimp only [hostOps1]
  host_reads <;> rfl

set_option maxHeartbeats 4000000 in
/-- Layer 1's biases: slab 0 of the bias table as [3,128], recast as [3,1,128]. -/
theorem readK1_bias : StableHlo.after hostOps1 V (Proc.devRef .tc main_v233)
    = shapeCast S3x1x128 (shapeCast S3x128 (extractStridedSlice S1x3x128 ![0, 0, 0] (V (Proc.devRef .tc main_arg6))
        slices_S4x3x128_S1x3x128_0_0_0) shapeCasts_S1x3x128_S3x128) shapeCasts_S3x128_S3x1x128 := by
  dsimp only [hostOps1]
  host_reads <;> rfl

end Cert.Bridge

end
-- ==== Proof.BridgeReadAggK1.lean ====
/-
  What host stretch 1 of the kernel program leaves in the first array region 1 reads, from any contents `V` before
  it: the three relations' degree-normalised aggregates of the previous layer's output, stacked. Each relation's
  aggregate is read through the operations that produce it; the stacking operation is read at its three operands.
-/
import proofs.«165758_j22333829939343_1_alg».proof.Proof.Gen.KernelIdeal.Launch
import proofs.«165758_j22333829939343_1_alg».proof.Proof.BridgeVocab
import proofs.«165758_j22333829939343_1_alg».proof.Proof.BridgeLayer
import proofs.«165758_j22333829939343_1_alg».proof.Proof.LibHostReads

set_option maxRecDepth 16384

noncomputable section

namespace Cert.Bridge

open Idealize.ShloMosaic Idealize.ShloMosaic.TcCoe Idealize.ShloMosaic.StableHlo
open Cert.KernelIdeal Cert.KernelIdeal.Gen

variable [Cert.ReferenceIdeal.Facts₀]
variable (V : Valuation τ sig (Elt Ideal))

set_option maxHeartbeats 8000000 in
/-- The stacked aggregates: per relation r the previous output scaled, gathered along the edges' sources, added at their
    destinations and scaled again, with the degrees read back out of the two stacked degree tables. -/
theorem readK1_agg : StableHlo.after hostOps1 V (Proc.devRef .tc main_v232)
    = stack3 (aggOf (V (Proc.devRef .tc main_v134)) (rowOf (V (Proc.devRef .tc main_arg1)) 0 Cert.ReferenceIdeal.Facts₀.slices_S3x800000_S1x800000_0_0) (rowOf (V (Proc.devRef .tc main_arg2)) 0 Cert.ReferenceIdeal.Facts₀.slices_S3x800000_S1x800000_0_0)
        (kdeg (V (Proc.devRef .tc main_v19)) 0 slices_S3x50000_S1x50000_0_0) (kdeg (V (Proc.devRef .tc main_v38)) 0 slices_S3x50000_S1x50000_0_0))
      (aggOf (V (Proc.devRef .tc main_v134)) (rowOf (V (Proc.devRef .tc main_arg1)) 1 Cert.ReferenceIdeal.Facts₀.slices_S3x800000_S1x800000_1_0) (rowOf (V (Proc.devRef .tc main_arg2)) 1 Cert.ReferenceIdeal.Facts₀.slices_S3x800000_S1x800000_1_0)
        (kdeg (V (Proc.devRef .tc main_v19)) 1 slices_S3x50000_S1x50000_1_0) (kdeg (V (Proc.devRef .tc main_v38)) 1 slices_S3x50000_S1x50000_1_0))
      (aggOf (V (Proc.devRef .tc main_v134)) (rowOf (V (Proc.devRef .tc main_arg1)) 2 Cert.ReferenceIdeal.Facts₀.slices_S3x800000_S1x800000_2_0) (rowOf (V (Proc.devRef .tc main_arg2)) 2 Cert.ReferenceIdeal.Facts₀.slices_S3x800000_S1x800000_2_0)
        (kdeg (V (Proc.devRef .tc main_v19)) 2 slices_S3x50000_S1x50000_2_0) (kdeg (V (Proc.devRef .tc main_v38)) 2 slices_S3x50000_S1x50000_2_0)) := by
  dsimp only [hostOps1]
  host_reads
  refine (nary3_read _ _ _ _
    (broadcastInDim S1x50000x128 ![1, 2] bcast_S50000x128_S1x50000x128_1_2 (aggOf (V (Proc.devRef .tc main_v134)) (rowOf (V (Proc.devRef .tc main_arg1)) 0 Cert.ReferenceIdeal.Facts₀.slices_S3x800000_S1x800000_0_0) (rowOf (V (Proc.devRef .tc main_arg2)) 0 Cert.ReferenceIdeal.Facts₀.slices_S3x800000_S1x800000_0_0)
        (kdeg (V (Proc.devRef .tc main_v19)) 0 slices_S3x50000_S1x50000_0_0) (kdeg (V (Proc.devRef .tc main_v38)) 0 slices_S3x50000_S1x50000_0_0)))
    (broadcastInDim S1x50000x128 ![1, 2] bcast_S50000x128_S1x50000x128_1_2 (aggOf (V (Proc.devRef .tc main_v134)) (rowOf (V (Proc.devRef .tc main_arg1)) 1 Cert.ReferenceIdeal.Facts₀.slices_S3x800000_S1x800000_1_0) (rowOf (V (Proc.devRef .tc main_arg2)) 1 Cert.ReferenceIdeal.Facts₀.slices_S3x800000_S1x800000_1_0)
        (kdeg (V (Proc.devRef .tc main_v19)) 1 slices_S3x50000_S1x50000_1_0) (kdeg (V (Proc.devRef .tc main_v38)) 1 slices_S3x50000_S1x50000_1_0)))
    (broadcastInDim S1x50000x128 ![1, 2] bcast_S50000x128_S1x50000x128_1_2 (aggOf (V (Proc.devRef .tc main_v134)) (rowOf (V (Proc.devRef .tc main_arg1)) 2 Cert.ReferenceIdeal.Facts₀.slices_S3x800000_S1x800000_2_0) (rowOf (V (Proc.devRef .tc main_arg2)) 2 Cert.ReferenceIdeal.Facts₀.slices_S3x800000_S1x800000_2_0)
        (kdeg (V (Proc.devRef .tc main_v19)) 2 slices_S3x50000_S1x50000_2_0) (kdeg (V (Proc.devRef .tc main_v38)) 2 slices_S3x50000_S1x50000_2_0)))
    ?hA ?hB ?hC).trans ?fin
  case hA => host_reads <;> rfl
  case hB => host_reads <;> rfl
  case hC => host_reads <;> rfl
  case fin => rfl

end Cert.Bridge

end
-- ==== Proof.BridgeReadR1.lean ====
/- Layer 1 of the reference, read off its line of host operations as a pure function of the contents it starts from.
   The line is cut into its stretches: a preamble (the vector of ones the degree counts add up, and this layer's weights and biases cut out
   of the stacked arguments), one block of 47 operations per relation (the relation's two index rows, their degree
   counts, the normalised aggregate of the features, the product with the relation's weights plus its bias row), and the tail (the mean of
   the three, then the leaky rectifier). Each stretch is read by itself from arbitrary contents; a buffer a stretch does not write passes
   through it unchanged; the reads are then chained. -/
import proofs.«165758_j22333829939343_1_alg».proof.Proof.RefRunL1
import proofs.«165758_j22333829939343_1_alg».proof.Proof.BridgeLayer
import proofs.«165758_j22333829939343_1_alg».proof.Proof.BridgeVocab
import proofs.«165758_j22333829939343_1_alg».proof.Proof.BridgeParams
import proofs.«165758_j22333829939343_1_alg».proof.Proof.LibKeeps
import Idealize.ShloMosaic.Lib.Pipeline.Frame

noncomputable section

namespace Cert.Bridge

open Idealize.ShloMosaic Idealize.ShloMosaic.TcCoe Idealize.SL.Sem Idealize.ShloMosaic.StableHlo
open Cert.ReferenceIdeal Cert.ReferenceIdeal.Gen Cert.ReferenceIdeal.RefRun

variable {F : FTy → Type} [FloatOps F]

/-- Layer 1, stretch pre (6 operations). -/
def r1_pre : List (HloOp τ sig (Elt F)) :=
  [ StableHlo.unary main_arg5 main_v129 ((extractStridedSlice S1x3x128x128 ![0, 0, 0, 0] · slices_S4x3x128x128_S1x3x128x128_0_0_0_0) : (⟨S4x3x128x128, .f32⟩ : BufTy).Contents (Elt F) → (⟨S1x3x128x128, .f32⟩ : BufTy).Contents (Elt F)),
    StableHlo.reshape main_v129 main_v130 rfl shapeCasts_S1x3x128x128_S3x128x128,
    StableHlo.unary main_arg6 main_v131 ((extractStridedSlice S1x3x128 ![0, 0, 0] · slices_S4x3x128_S1x3x128_0_0_0) : (⟨S4x3x128, .f32⟩ : BufTy).Contents (Elt F) → (⟨S1x3x128, .f32⟩ : BufTy).Contents (Elt F)),
    StableHlo.reshape main_v131 main_v132 rfl shapeCasts_S1x3x128_S3x128,
    StableHlo.nullary main_cst_23 (constant S_ .f32 0x3F800000#32),
    StableHlo.unary main_cst_23 main_v133 (broadcastInDim S800000 ![] bcast_S_S800000 : (⟨S_, .f32⟩ : BufTy).Contents (Elt F) → (⟨S800000, .f32⟩ : BufTy).Contents (Elt F)) ]

/-- Layer 1, stretch rel0 (47 operations). -/
def r1_rel0 : List (HloOp τ sig (Elt F)) :=
  [ StableHlo.unary main_arg1 main_v134 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v134 main_v135 rfl shapeCasts_S1x800000_S800000,
    StableHlo.unary main_arg2 main_v136 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v136 main_v137 rfl shapeCasts_S1x800000_S800000,
    StableHlo.nullary main_cst_24 (constant S_ .f32 0x00000000#32),
    StableHlo.unary main_cst_24 main_v138 (broadcastInDim S50000 ![] bcast_S_S50000 : (⟨S_, .f32⟩ : BufTy).Contents (Elt F) → (⟨S50000, .f32⟩ : BufTy).Contents (Elt F)),
    StableHlo.unary main_v135 main_v139 (broadcastInDim S800000x1 ![0] bcast_S800000_S800000x1_0 : (⟨S800000, .i32⟩ : BufTy).Contents (Elt F) → (⟨S800000x1, .i32⟩ : BufTy).Contents (Elt F)),
    StableHlo.ternary main_v138 main_v139 main_v133 main_v140 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_25 (constant S_ .f32 0x00000000#32),
    StableHlo.unary main_cst_25 main_v141 (broadcastInDim S50000 ![] bcast_S_S50000 : (⟨S_, .f32⟩ : BufTy).Contents (Elt F) → (⟨S50000, .f32⟩ : BufTy).Contents (Elt F)),
    StableHlo.unary main_v137 main_v142 (broadcastInDim S800000x1 ![0] bcast_S800000_S800000x1_0 : (⟨S800000, .i32⟩ : BufTy).Contents (Elt F) → (⟨S800000x1, .i32⟩ : BufTy).Contents (Elt F)),
    StableHlo.ternary main_v141 main_v142 main_v133 main_v143 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_26 (constant S_ .f32 0x3F800000#32),
    StableHlo.unary main_cst_26 main_v144 (broadcastInDim S50000 ![] bcast_S_S50000 : (⟨S_, .f32⟩ : BufTy).Contents (Elt F) → (⟨S50000, .f32⟩ : BufTy).Contents (Elt F)),
    StableHlo.binary main_v140 main_v144 main_v145 (maximumf : (⟨S50000, .f32⟩ : BufTy).Contents (Elt F) → (⟨S50000, .f32⟩ : BufTy).Contents (Elt F) → (⟨S50000, .f32⟩ : BufTy).Contents (Elt F)),
    StableHlo.unary main_v145 main_v146 (Host.rsqrt : (⟨S50000, .f32⟩ : BufTy).Contents (Elt F) → (⟨S50000, .f32⟩ : BufTy).Contents (Elt F)),
    StableHlo.unary main_v146 main_v147 (broadcastInDim S50000x1 ![0] bcast_S50000_S50000x1_0 : (⟨S50000, .f32⟩ : BufTy).Contents (Elt F) → (⟨S50000x1, .f32⟩ : BufTy).Contents (Elt F)),
    StableHlo.unary main_v147 main_v148 (broadcastInDim S50000x128 ![0, 1] bcast_S50000x1_S50000x128_0_1 : (⟨S50000x1, .f32⟩ : BufTy).Contents (Elt F) → (⟨S50000x128, .f32⟩ : BufTy).Contents (Elt F)),
    StableHlo.binary main_v128 main_v148 main_v149 (mulf : (⟨S50000x128, .f32⟩ : BufTy).Contents (Elt F) → (⟨S50000x128, .f32⟩ : BufTy).Contents (Elt F) → (⟨S50000x128, .f32⟩ : BufTy).Contents (Elt F)),
    StableHlo.nullary main_c_27 (constantI S_ 32 0#32),
    StableHlo.unary main_c_27 main_v150 (broadcastInDim S800000 ![] bcast_S_S800000 : (⟨S_, .i32⟩ : BufTy).Contents (Elt F) → (⟨S800000, .i32⟩ : BufTy).Contents (Elt F)),
    StableHlo.binary main_v135 main_v150 main_v151 (cmpi .slt : (⟨S800000, .i32⟩ : BufTy).Contents (Elt F) → (⟨S800000, .i32⟩ : BufTy).Contents (Elt F) → (⟨S800000, .i1⟩ : BufTy).Contents (Elt F)),
    StableHlo.nullary main_c_28 (constantI S_ 32 50000#32),
    StableHlo.unary main_c_28 main_v152 (broadcastInDim S800000 ![] bcast_S_S800000 : (⟨S_, .i32⟩ : BufTy).Contents (Elt F) → (⟨S800000, .i32⟩ : BufTy).Contents (Elt F)),
    StableHlo.binary main_v135 main_v152 main_v153 (addi : (⟨S800000, .i32⟩ : BufTy).Contents (Elt F) → (⟨S800000, .i32⟩ : BufTy).Contents (Elt F) → (⟨S800000, .i32⟩ : BufTy).Contents (Elt F)),
    StableHlo.ternary main_v151 main_v153 main_v135 main_v154 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v154 main_v155 (broadcastInDim S800000x1 ![0] bcast_S800000_S800000x1_0 : (⟨S800000, .i32⟩ : BufTy).Contents (Elt F) → (⟨S800000x1, .i32⟩ : BufTy).Contents (Elt F)),
    StableHlo.binary main_v149 main_v155 main_v156 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_29 (constant S_ .f32 0x00000000#32),
    StableHlo.unary main_cst_29 main_v157 (broadcastInDim S50000x128 ![] bcast_S_S50000x128 : (⟨S_, .f32⟩ : BufTy).Contents (Elt F) → (⟨S50000x128, .f32⟩ : BufTy).Contents (Elt F)),
    StableHlo.unary main_v137 main_v158 (broadcastInDim S800000x1 ![0] bcast_S800000_S800000x1_0 : (⟨S800000, .i32⟩ : BufTy).Contents (Elt F) → (⟨S800000x1, .i32⟩ : BufTy).Contents (Elt F)),
    StableHlo.ternary main_v157 main_v158 main_v156 main_v159 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_30 (constant S_ .f32 0x3F800000#32),
    StableHlo.unary main_cst_30 main_v160 (broadcastInDim S50000 ![] bcast_S_S50000 : (⟨S_, .f32⟩ : BufTy).Contents (Elt F) → (⟨S50000, .f32⟩ : BufTy).Contents (Elt F)),
    StableHlo.binary main_v143 main_v160 main_v161 (maximumf : (⟨S50000, .f32⟩ : BufTy).Contents (Elt F) → (⟨S50000, .f32⟩ : BufTy).Contents (Elt F) → (⟨S50000, .f32⟩ : BufTy).Contents (Elt F)),
    StableHlo.unary main_v161 main_v162 (Host.rsqrt : (⟨S50000, .f32⟩ : BufTy).Contents (Elt F) → (⟨S50000, .f32⟩ : BufTy).Contents (Elt F)),
    StableHlo.unary main_v162 main_v163 (broadcastInDim S50000x1 ![0] bcast_S50000_S50000x1_0 : (⟨S50000, .f32⟩ : BufTy).Contents (Elt F) → (⟨S50000x1, .f32⟩ : BufTy).Contents (Elt F)),
    StableHlo.unary main_v163 main_v164 (broadcastInDim S50000x128 ![0, 1] bcast_S50000x1_S50000x128_0_1 : (⟨S50000x1, .f32⟩ : BufTy).Contents (Elt F) → (⟨S50000x128, .f32⟩ : BufTy).Contents (Elt F)),
    StableHlo.binary main_v159 main_v164 main_v165 (mulf : (⟨S50000x128, .f32⟩ : BufTy).Contents (Elt F) → (⟨S50000x128, .f32⟩ : BufTy).Contents (Elt F) → (⟨S50000x128, .f32⟩ : BufTy).Contents (Elt F)),
    StableHlo.unary main_v130 main_v166 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v166 main_v167 rfl shapeCasts_S1x128x128_S128x128,
    StableHlo.binary main_v165 main_v167 main_v168 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v132 main_v169 ((extractStridedSlice S1x128 ![0, 0] · slices_S3x128_S1x128_0_0) : (⟨S3x128, .f32⟩ : BufTy).Contents (Elt F) → (⟨S1x128, .f32⟩ : BufTy).Contents (Elt F)),
    StableHlo.reshape main_v169 main_v170 rfl shapeCasts_S1x128_S128,
    StableHlo.unary main_v170 main_v171 (broadcastInDim S1x128 ![1] bcast_S128_S1x128_1 : (⟨S128, .f32⟩ : BufTy).Contents (Elt F) → (⟨S1x128, .f32⟩ : BufTy).Contents (Elt F)),
    StableHlo.unary main_v171 main_v172 (broadcastInDim S50000x128 ![0, 1] bcast_S1x128_S50000x128_0_1 : (⟨S1x128, .f32⟩ : BufTy).Contents (Elt F) → (⟨S50000x128, .f32⟩ : BufTy).Contents (Elt F)),
    StableHlo.binary main_v168 main_v172 main_v173 (addf : (⟨S50000x128, .f32⟩ : BufTy).Contents (Elt F) → (⟨S50000x128, .f32⟩ : BufTy).Contents (Elt F) → (⟨S50000x128, .f32⟩ : BufTy).Contents (Elt F)) ]

/-- Layer 1, stretch rel1 (47 operations). -/
def r1_rel1 : List (HloOp τ sig (Elt F)) :=
  [ StableHlo.unary main_arg1 main_v174 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v174 main_v175 rfl shapeCasts_S1x800000_S800000,
    StableHlo.unary main_arg2 main_v176 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v176 main_v177 rfl shapeCasts_S1x800000_S800000,
    StableHlo.nullary main_cst_31 (constant S_ .f32 0x00000000#32),
    StableHlo.unary main_cst_31 main_v178 (broadcastInDim S50000 ![] bcast_S_S50000 : (⟨S_, .f32⟩ : BufTy).Contents (Elt F) → (⟨S50000, .f32⟩ : BufTy).Contents (Elt F)),
    StableHlo.unary main_v175 main_v179 (broadcastInDim S800000x1 ![0] bcast_S800000_S800000x1_0 : (⟨S800000, .i32⟩ : BufTy).Contents (Elt F) → (⟨S800000x1, .i32⟩ : BufTy).Contents (Elt F)),
    StableHlo.ternary main_v178 main_v179 main_v133 main_v180 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_32 (constant S_ .f32 0x00000000#32),
    StableHlo.unary main_cst_32 main_v181 (broadcastInDim S50000 ![] bcast_S_S50000 : (⟨S_, .f32⟩ : BufTy).Contents (Elt F) → (⟨S50000, .f32⟩ : BufTy).Contents (Elt F)),
    StableHlo.unary main_v177 main_v182 (broadcastInDim S800000x1 ![0] bcast_S800000_S800000x1_0 : (⟨S800000, .i32⟩ : BufTy).Contents (Elt F) → (⟨S800000x1, .i32⟩ : BufTy).Contents (Elt F)),
    StableHlo.ternary main_v181 main_v182 main_v133 main_v183 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_33 (constant S_ .f32 0x3F800000#32),
    StableHlo.unary main_cst_33 main_v184 (broadcastInDim S50000 ![] bcast_S_S50000 : (⟨S_, .f32⟩ : BufTy).Contents (Elt F) → (⟨S50000, .f32⟩ : BufTy).Contents (Elt F)),
    StableHlo.binary main_v180 main_v184 main_v185 (maximumf : (⟨S50000, .f32⟩ : BufTy).Contents (Elt F) → (⟨S50000, .f32⟩ : BufTy).Contents (Elt F) → (⟨S50000, .f32⟩ : BufTy).Contents (Elt F)),
    StableHlo.unary main_v185 main_v186 (Host.rsqrt : (⟨S50000, .f32⟩ : BufTy).Contents (Elt F) → (⟨S50000, .f32⟩ : BufTy).Contents (Elt F)),
    StableHlo.unary main_v186 main_v187 (broadcastInDim S50000x1 ![0] bcast_S50000_S50000x1_0 : (⟨S50000, .f32⟩ : BufTy).Contents (Elt F) → (⟨S50000x1, .f32⟩ : BufTy).Contents (Elt F)),
    StableHlo.unary main_v187 main_v188 (broadcastInDim S50000x128 ![0, 1] bcast_S50000x1_S50000x128_0_1 : (⟨S50000x1, .f32⟩ : BufTy).Contents (Elt F) → (⟨S50000x128, .f32⟩ : BufTy).Contents (Elt F)),
    StableHlo.binary main_v128 main_v188 main_v189 (mulf : (⟨S50000x128, .f32⟩ : BufTy).Contents (Elt F) → (⟨S50000x128, .f32⟩ : BufTy).Contents (Elt F) → (⟨S50000x128, .f32⟩ : BufTy).Contents (Elt F)),
    StableHlo.nullary main_c_34 (constantI S_ 32 0#32),
    StableHlo.unary main_c_34 main_v190 (broadcastInDim S800000 ![] bcast_S_S800000 : (⟨S_, .i32⟩ : BufTy).Contents (Elt F) → (⟨S800000, .i32⟩ : BufTy).Contents (Elt F)),
    StableHlo.binary main_v175 main_v190 main_v191 (cmpi .slt : (⟨S800000, .i32⟩ : BufTy).Contents (Elt F) → (⟨S800000, .i32⟩ : BufTy).Contents (Elt F) → (⟨S800000, .i1⟩ : BufTy).Contents (Elt F)),
    StableHlo.nullary main_c_35 (constantI S_ 32 50000#32),
    StableHlo.unary main_c_35 main_v192 (broadcastInDim S800000 ![] bcast_S_S800000 : (⟨S_, .i32⟩ : BufTy).Contents (Elt F) → (⟨S800000, .i32⟩ : BufTy).Contents (Elt F)),
    StableHlo.binary main_v175 main_v192 main_v193 (addi : (⟨S800000, .i32⟩ : BufTy).Contents (Elt F) → (⟨S800000, .i32⟩ : BufTy).Contents (Elt F) → (⟨S800000, .i32⟩ : BufTy).Contents (Elt F)),
    StableHlo.ternary main_v191 main_v193 main_v175 main_v194 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v194 main_v195 (broadcastInDim S800000x1 ![0] bcast_S800000_S800000x1_0 : (⟨S800000, .i32⟩ : BufTy).Contents (Elt F) → (⟨S800000x1, .i32⟩ : BufTy).Contents (Elt F)),
    StableHlo.binary main_v189 main_v195 main_v196 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_36 (constant S_ .f32 0x00000000#32),
    StableHlo.unary main_cst_36 main_v197 (broadcastInDim S50000x128 ![] bcast_S_S50000x128 : (⟨S_, .f32⟩ : BufTy).Contents (Elt F) → (⟨S50000x128, .f32⟩ : BufTy).Contents (Elt F)),
    StableHlo.unary main_v177 main_v198 (broadcastInDim S800000x1 ![0] bcast_S800000_S800000x1_0 : (⟨S800000, .i32⟩ : BufTy).Contents (Elt F) → (⟨S800000x1, .i32⟩ : BufTy).Contents (Elt F)),
    StableHlo.ternary main_v197 main_v198 main_v196 main_v199 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_37 (constant S_ .f32 0x3F800000#32),
    StableHlo.unary main_cst_37 main_v200 (broadcastInDim S50000 ![] bcast_S_S50000 : (⟨S_, .f32⟩ : BufTy).Contents (Elt F) → (⟨S50000, .f32⟩ : BufTy).Contents (Elt F)),
    StableHlo.binary main_v183 main_v200 main_v201 (maximumf : (⟨S50000, .f32⟩ : BufTy).Contents (Elt F) → (⟨S50000, .f32⟩ : BufTy).Contents (Elt F) → (⟨S50000, .f32⟩ : BufTy).Contents (Elt F)),
    StableHlo.unary main_v201 main_v202 (Host.rsqrt : (⟨S50000, .f32⟩ : BufTy).Contents (Elt F) → (⟨S50000, .f32⟩ : BufTy).Contents (Elt F)),
    StableHlo.unary main_v202 main_v203 (broadcastInDim S50000x1 ![0] bcast_S50000_S50000x1_0 : (⟨S50000, .f32⟩ : BufTy).Contents (Elt F) → (⟨S50000x1, .f32⟩ : BufTy).Contents (Elt F)),
    StableHlo.unary main_v203 main_v204 (broadcastInDim S50000x128 ![0, 1] bcast_S50000x1_S50000x128_0_1 : (⟨S50000x1, .f32⟩ : BufTy).Contents (Elt F) → (⟨S50000x128, .f32⟩ : BufTy).Contents (Elt F)),
    StableHlo.binary main_v199 main_v204 main_v205 (mulf : (⟨S50000x128, .f32⟩ : BufTy).Contents (Elt F) → (⟨S50000x128, .f32⟩ : BufTy).Contents (Elt F) → (⟨S50000x128, .f32⟩ : BufTy).Contents (Elt F)),
    StableHlo.unary main_v130 main_v206 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v206 main_v207 rfl shapeCasts_S1x128x128_S128x128,
    StableHlo.binary main_v205 main_v207 main_v208 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v132 main_v209 ((extractStridedSlice S1x128 ![1, 0] · slices_S3x128_S1x128_1_0) : (⟨S3x128, .f32⟩ : BufTy).Contents (Elt F) → (⟨S1x128, .f32⟩ : BufTy).Contents (Elt F)),
    StableHlo.reshape main_v209 main_v210 rfl shapeCasts_S1x128_S128,
    StableHlo.unary main_v210 main_v211 (broadcastInDim S1x128 ![1] bcast_S128_S1x128_1 : (⟨S128, .f32⟩ : BufTy).Contents (Elt F) → (⟨S1x128, .f32⟩ : BufTy).Contents (Elt F)),
    StableHlo.unary main_v211 main_v212 (broadcastInDim S50000x128 ![0, 1] bcast_S1x128_S50000x128_0_1 : (⟨S1x128, .f32⟩ : BufTy).Contents (Elt F) → (⟨S50000x128, .f32⟩ : BufTy).Contents (Elt F)),
    StableHlo.binary main_v208 main_v212 main_v213 (addf : (⟨S50000x128, .f32⟩ : BufTy).Contents (Elt F) → (⟨S50000x128, .f32⟩ : BufTy).Contents (Elt F) → (⟨S50000x128, .f32⟩ : BufTy).Contents (Elt F)) ]

/-- Layer 1, stretch rel2 (47 operations). -/
def r1_rel2 : List (HloOp τ sig (Elt F)) :=
  [ StableHlo.unary main_arg1 main_v214 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v214 main_v215 rfl shapeCasts_S1x800000_S800000,
    StableHlo.unary main_arg2 main_v216 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v216 main_v217 rfl shapeCasts_S1x800000_S800000,
    StableHlo.nullary main_cst_38 (constant S_ .f32 0x00000000#32),
    StableHlo.unary main_cst_38 main_v218 (broadcastInDim S50000 ![] bcast_S_S50000 : (⟨S_, .f32⟩ : BufTy).Contents (Elt F) → (⟨S50000, .f32⟩ : BufTy).Contents (Elt F)),
    StableHlo.unary main_v215 main_v219 (broadcastInDim S800000x1 ![0] bcast_S800000_S800000x1_0 : (⟨S800000, .i32⟩ : BufTy).Contents (Elt F) → (⟨S800000x1, .i32⟩ : BufTy).Contents (Elt F)),
    StableHlo.ternary main_v218 main_v219 main_v133 main_v220 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_39 (constant S_ .f32 0x00000000#32),
    StableHlo.unary main_cst_39 main_v221 (broadcastInDim S50000 ![] bcast_S_S50000 : (⟨S_, .f32⟩ : BufTy).Contents (Elt F) → (⟨S50000, .f32⟩ : BufTy).Contents (Elt F)),
    StableHlo.unary main_v217 main_v222 (broadcastInDim S800000x1 ![0] bcast_S800000_S800000x1_0 : (⟨S800000, .i32⟩ : BufTy).Contents (Elt F) → (⟨S800000x1, .i32⟩ : BufTy).Contents (Elt F)),
    StableHlo.ternary main_v221 main_v222 main_v133 main_v223 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_40 (constant S_ .f32 0x3F800000#32),
    StableHlo.unary main_cst_40 main_v224 (broadcastInDim S50000 ![] bcast_S_S50000 : (⟨S_, .f32⟩ : BufTy).Contents (Elt F) → (⟨S50000, .f32⟩ : BufTy).Contents (Elt F)),
    StableHlo.binary main_v220 main_v224 main_v225 (maximumf : (⟨S50000, .f32⟩ : BufTy).Contents (Elt F) → (⟨S50000, .f32⟩ : BufTy).Contents (Elt F) → (⟨S50000, .f32⟩ : BufTy).Contents (Elt F)),
    StableHlo.unary main_v225 main_v226 (Host.rsqrt : (⟨S50000, .f32⟩ : BufTy).Contents (Elt F) → (⟨S50000, .f32⟩ : BufTy).Contents (Elt F)),
    StableHlo.unary main_v226 main_v227 (broadcastInDim S50000x1 ![0] bcast_S50000_S50000x1_0 : (⟨S50000, .f32⟩ : BufTy).Contents (Elt F) → (⟨S50000x1, .f32⟩ : BufTy).Contents (Elt F)),
    StableHlo.unary main_v227 main_v228 (broadcastInDim S50000x128 ![0, 1] bcast_S50000x1_S50000x128_0_1 : (⟨S50000x1, .f32⟩ : BufTy).Contents (Elt F) → (⟨S50000x128, .f32⟩ : BufTy).Contents (Elt F)),
    StableHlo.binary main_v128 main_v228 main_v229 (mulf : (⟨S50000x128, .f32⟩ : BufTy).Contents (Elt F) → (⟨S50000x128, .f32⟩ : BufTy).Contents (Elt F) → (⟨S50000x128, .f32⟩ : BufTy).Contents (Elt F)),
    StableHlo.nullary main_c_41 (constantI S_ 32 0#32),
    StableHlo.unary main_c_41 main_v230 (broadcastInDim S800000 ![] bcast_S_S800000 : (⟨S_, .i32⟩ : BufTy).Contents (Elt F) → (⟨S800000, .i32⟩ : BufTy).Contents (Elt F)),
    StableHlo.binary main_v215 main_v230 main_v231 (cmpi .slt : (⟨S800000, .i32⟩ : BufTy).Contents (Elt F) → (⟨S800000, .i32⟩ : BufTy).Contents (Elt F) → (⟨S800000, .i1⟩ : BufTy).Contents (Elt F)),
    StableHlo.nullary main_c_42 (constantI S_ 32 50000#32),
    StableHlo.unary main_c_42 main_v232 (broadcastInDim S800000 ![] bcast_S_S800000 : (⟨S_, .i32⟩ : BufTy).Contents (Elt F) → (⟨S800000, .i32⟩ : BufTy).Contents (Elt F)),
    StableHlo.binary main_v215 main_v232 main_v233 (addi : (⟨S800000, .i32⟩ : BufTy).Contents (Elt F) → (⟨S800000, .i32⟩ : BufTy).Contents (Elt F) → (⟨S800000, .i32⟩ : BufTy).Contents (Elt F)),
    StableHlo.ternary main_v231 main_v233 main_v215 main_v234 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v234 main_v235 (broadcastInDim S800000x1 ![0] bcast_S800000_S800000x1_0 : (⟨S800000, .i32⟩ : BufTy).Contents (Elt F) → (⟨S800000x1, .i32⟩ : BufTy).Contents (Elt F)),
    StableHlo.binary main_v229 main_v235 main_v236 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_43 (constant S_ .f32 0x00000000#32),
    StableHlo.unary main_cst_43 main_v237 (broadcastInDim S50000x128 ![] bcast_S_S50000x128 : (⟨S_, .f32⟩ : BufTy).Contents (Elt F) → (⟨S50000x128, .f32⟩ : BufTy).Contents (Elt F)),
    StableHlo.unary main_v217 main_v238 (broadcastInDim S800000x1 ![0] bcast_S800000_S800000x1_0 : (⟨S800000, .i32⟩ : BufTy).Contents (Elt F) → (⟨S800000x1, .i32⟩ : BufTy).Contents (Elt F)),
    StableHlo.ternary main_v237 main_v238 main_v236 main_v239 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_44 (constant S_ .f32 0x3F800000#32),
    StableHlo.unary main_cst_44 main_v240 (broadcastInDim S50000 ![] bcast_S_S50000 : (⟨S_, .f32⟩ : BufTy).Contents (Elt F) → (⟨S50000, .f32⟩ : BufTy).Contents (Elt F)),
    StableHlo.binary main_v223 main_v240 main_v241 (maximumf : (⟨S50000, .f32⟩ : BufTy).Contents (Elt F) → (⟨S50000, .f32⟩ : BufTy).Contents (Elt F) → (⟨S50000, .f32⟩ : BufTy).Contents (Elt F)),
    StableHlo.unary main_v241 main_v242 (Host.rsqrt : (⟨S50000, .f32⟩ : BufTy).Contents (Elt F) → (⟨S50000, .f32⟩ : BufTy).Contents (Elt F)),
    StableHlo.unary main_v242 main_v243 (broadcastInDim S50000x1 ![0] bcast_S50000_S50000x1_0 : (⟨S50000, .f32⟩ : BufTy).Contents (Elt F) → (⟨S50000x1, .f32⟩ : BufTy).Contents (Elt F)),
    StableHlo.unary main_v243 main_v244 (broadcastInDim S50000x128 ![0, 1] bcast_S50000x1_S50000x128_0_1 : (⟨S50000x1, .f32⟩ : BufTy).Contents (Elt F) → (⟨S50000x128, .f32⟩ : BufTy).Contents (Elt F)),
    StableHlo.binary main_v239 main_v244 main_v245 (mulf : (⟨S50000x128, .f32⟩ : BufTy).Contents (Elt F) → (⟨S50000x128, .f32⟩ : BufTy).Contents (Elt F) → (⟨S50000x128, .f32⟩ : BufTy).Contents (Elt F)),
    StableHlo.unary main_v130 main_v246 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v246 main_v247 rfl shapeCasts_S1x128x128_S128x128,
    StableHlo.binary main_v245 main_v247 main_v248 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v132 main_v249 ((extractStridedSlice S1x128 ![2, 0] · slices_S3x128_S1x128_2_0) : (⟨S3x128, .f32⟩ : BufTy).Contents (Elt F) → (⟨S1x128, .f32⟩ : BufTy).Contents (Elt F)),
    StableHlo.reshape main_v249 main_v250 rfl shapeCasts_S1x128_S128,
    StableHlo.unary main_v250 main_v251 (broadcastInDim S1x128 ![1] bcast_S128_S1x128_1 : (⟨S128, .f32⟩ : BufTy).Contents (Elt F) → (⟨S1x128, .f32⟩ : BufTy).Contents (Elt F)),
    StableHlo.unary main_v251 main_v252 (broadcastInDim S50000x128 ![0, 1] bcast_S1x128_S50000x128_0_1 : (⟨S1x128, .f32⟩ : BufTy).Contents (Elt F) → (⟨S50000x128, .f32⟩ : BufTy).Contents (Elt F)),
    StableHlo.binary main_v248 main_v252 main_v253 (addf : (⟨S50000x128, .f32⟩ : BufTy).Contents (Elt F) → (⟨S50000x128, .f32⟩ : BufTy).Contents (Elt F) → (⟨S50000x128, .f32⟩ : BufTy).Contents (Elt F)) ]

/-- Layer 1, stretch tail (17 operations). -/
def r1_tail : List (HloOp τ sig (Elt F)) :=
  [ StableHlo.unary main_v173 main_v254 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v213 main_v255 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v253 main_v256 (broadcastInDim S1x50000x128 ![1, 2] bcast_S50000x128_S1x50000x128_1_2 : (⟨S50000x128, .f32⟩ : BufTy).Contents (Elt F) → (⟨S1x50000x128, .f32⟩ : BufTy).Contents (Elt F)),
    StableHlo.nary ![main_v254, main_v255, main_v256] main_v257 (fun u => concatenate S3x50000x128 0 [⟨S1x50000x128, u 0⟩, ⟨S1x50000x128, u 1⟩, ⟨S1x50000x128, u 2⟩] concatenates_S1x50000x128_S1x50000x128_S1x50000x128_S3x50000x128_d0),
    StableHlo.nullary main_cst_45 (constant S_ .f32 0x00000000#32),
    StableHlo.binary main_v257 main_cst_45 main_v258 ((fun x v => Host.reduceAdd x v reducesTo_S3x50000x128_S50000x128_d0 h_S_) : (⟨S3x50000x128, .f32⟩ : BufTy).Contents (Elt F) → (⟨S_, .f32⟩ : BufTy).Contents (Elt F) → (⟨S50000x128, .f32⟩ : BufTy).Contents (Elt F)),
    StableHlo.nullary main_cst_46 (constant S_ .f32 0x40400000#32),
    StableHlo.unary main_cst_46 main_v259 (broadcastInDim S50000x128 ![] bcast_S_S50000x128 : (⟨S_, .f32⟩ : BufTy).Contents (Elt F) → (⟨S50000x128, .f32⟩ : BufTy).Contents (Elt F)),
    StableHlo.binary main_v258 main_v259 main_v260 (Host.divf : (⟨S50000x128, .f32⟩ : BufTy).Contents (Elt F) → (⟨S50000x128, .f32⟩ : BufTy).Contents (Elt F) → (⟨S50000x128, .f32⟩ : BufTy).Contents (Elt F)),
    StableHlo.nullary main_cst_47 (constant S_ .f32 0x3C23D70A#32),
    TRef.nullary main_call1.cst (constant S_ .f32 0x00000000#32),
    TRef.unary main_call1.cst main_call1.v0 (broadcastInDim S50000x128 ![] bcast_S_S50000x128),
    TRef.binary (.of main_v260) main_call1.v0 main_call1.v1 (cmpf .oge),
    TRef.unary (.of main_cst_47) main_call1.v2 id,
    TRef.unary main_call1.v2 main_call1.v3 (broadcastInDim S50000x128 ![] bcast_S_S50000x128),
    TRef.binary main_call1.v3 (.of main_v260) main_call1.v4 mulf,
    TRef.ternary main_call1.v1 (.of main_v260) main_call1.v4 main_call1.call0.v0 select ]

theorem r1_split : (opsL1 : List (HloOp τ sig (Elt F))) = r1_pre ++ (r1_rel0 ++ (r1_rel1 ++ (r1_rel2 ++ r1_tail))) := rfl

def r1_pre_W : List (Ref sig .tc) :=
  [main_v129, main_v130, main_v131, main_v132, main_cst_23, main_v133]

theorem r1_pre_writes : (r1_pre : List (HloOp τ sig (Elt F))).Forall fun op => op.writes ⊆ (r1_pre_W.map (Proc.devRef (τ := τ) .tc)).toFinset := by
  host_writes r1_pre

theorem r1_pre_keeps (W : Valuation τ sig (Elt F)) {x : Ref sig .tc} (hx : x ∉ r1_pre_W) :
    after r1_pre W (Proc.devRef .tc x) = W (Proc.devRef .tc x) :=
  after_of_writes_sub r1_pre W r1_pre_writes hx

def r1_rel0_W : List (Ref sig .tc) :=
  [main_v134, main_v135, main_v136, main_v137, main_cst_24, main_v138, main_v139, main_v140, main_cst_25, main_v141, main_v142, main_v143, main_cst_26, main_v144, main_v145, main_v146, main_v147, main_v148, main_v149, main_c_27, main_v150, main_v151, main_c_28, main_v152, main_v153, main_v154, main_v155, main_v156, main_cst_29, main_v157, main_v158, main_v159, main_cst_30, main_v160, main_v161, main_v162, main_v163, main_v164, main_v165, main_v166, main_v167, main_v168, main_v169, main_v170, main_v171, main_v172, main_v173]

theorem r1_rel0_writes : (r1_rel0 : List (HloOp τ sig (Elt F))).Forall fun op => op.writes ⊆ (r1_rel0_W.map (Proc.devRef (τ := τ) .tc)).toFinset := by
  host_writes r1_rel0

theorem r1_rel0_keeps (W : Valuation τ sig (Elt F)) {x : Ref sig .tc} (hx : x ∉ r1_rel0_W) :
    after r1_rel0 W (Proc.devRef .tc x) = W (Proc.devRef .tc x) :=
  after_of_writes_sub r1_rel0 W r1_rel0_writes hx

def r1_rel1_W : List (Ref sig .tc) :=
  [main_v174, main_v175, main_v176, main_v177, main_cst_31, main_v178, main_v179, main_v180, main_cst_32, main_v181, main_v182, main_v183, main_cst_33, main_v184, main_v185, main_v186, main_v187, main_v188, main_v189, main_c_34, main_v190, main_v191, main_c_35, main_v192, main_v193, main_v194, main_v195, main_v196, main_cst_36, main_v197, main_v198, main_v199, main_cst_37, main_v200, main_v201, main_v202, main_v203, main_v204, main_v205, main_v206, main_v207, main_v208, main_v209, main_v210, main_v211, main_v212, main_v213]

theorem r1_rel1_writes : (r1_rel1 : List (HloOp τ sig (Elt F))).Forall fun op => op.writes ⊆ (r1_rel1_W.map (Proc.devRef (τ := τ) .tc)).toFinset := by
  host_writes r1_rel1

theorem r1_rel1_keeps (W : Valuation τ sig (Elt F)) {x : Ref sig .tc} (hx : x ∉ r1_rel1_W) :
    after r1_rel1 W (Proc.devRef .tc x) = W (Proc.devRef .tc x) :=
  after_of_writes_sub r1_rel1 W r1_rel1_writes hx

def r1_rel2_W : List (Ref sig .tc) :=
  [main_v214, main_v215, main_v216, main_v217, main_cst_38, main_v218, main_v219, main_v220, main_cst_39, main_v221, main_v222, main_v223, main_cst_40, main_v224, main_v225, main_v226, main_v227, main_v228, main_v229, main_c_41, main_v230, main_v231, main_c_42, main_v232, main_v233, main_v234, main_v235, main_v236, main_cst_43, main_v237, main_v238, main_v239, main_cst_44, main_v240, main_v241, main_v242, main_v243, main_v244, main_v245, main_v246, main_v247, main_v248, main_v249, main_v250, main_v251, main_v252, main_v253]

theorem r1_rel2_writes : (r1_rel2 : List (HloOp τ sig (Elt F))).Forall fun op => op.writes ⊆ (r1_rel2_W.map (Proc.devRef (τ := τ) .tc)).toFinset := by
  host_writes r1_rel2

theorem r1_rel2_keeps (W : Valuation τ sig (Elt F)) {x : Ref sig .tc} (hx : x ∉ r1_rel2_W) :
    after r1_rel2 W (Proc.devRef .tc x) = W (Proc.devRef .tc x) :=
  after_of_writes_sub r1_rel2 W r1_rel2_writes hx

/-- The preamble leaves the vector of ones. -/
theorem r1_pre_ones (W : Valuation τ sig (Elt Ideal)) : after r1_pre W (Proc.devRef .tc main_v133) = edgeOnes := by
  unfold r1_pre
  after_results_simp
  rfl

/-- The preamble leaves this layer's weights. -/
theorem r1_pre_wgt (W : Valuation τ sig (Elt Ideal)) : after r1_pre W (Proc.devRef .tc main_v130) = (layerW (W (Proc.devRef .tc main_arg5)) 0 slices_S4x3x128x128_S1x3x128x128_0_0_0_0) := by
  unfold r1_pre
  after_results_simp
  rfl

/-- The preamble leaves this layer's biases. -/
theorem r1_pre_bia (W : Valuation τ sig (Elt Ideal)) : after r1_pre W (Proc.devRef .tc main_v132) = (layerB (W (Proc.devRef .tc main_arg6)) 0 slices_S4x3x128_S1x3x128_0_0_0) := by
  unfold r1_pre
  after_results_simp
  rfl

set_option maxHeartbeats 4000000 in
/-- Relation 0's block, from contents whose ones buffer holds the ones: its result is the relation's dense term of the aggregate. -/
theorem r1_rel0_read (W : Valuation τ sig (Elt Ideal)) (h1 : W (Proc.devRef .tc main_v133) = edgeOnes) :
    after r1_rel0 W (Proc.devRef .tc main_v173) =
      refDense (aggOf (W (Proc.devRef .tc main_v128)) (rowOf (W (Proc.devRef .tc main_arg1)) 0 slices_S3x800000_S1x800000_0_0) (rowOf (W (Proc.devRef .tc main_arg2)) 0 slices_S3x800000_S1x800000_0_0)
          (degOf (rowOf (W (Proc.devRef .tc main_arg1)) 0 slices_S3x800000_S1x800000_0_0)) (degOf (rowOf (W (Proc.devRef .tc main_arg2)) 0 slices_S3x800000_S1x800000_0_0)))
        (W (Proc.devRef .tc main_v130)) (W (Proc.devRef .tc main_v132)) 0 slices_S3x128x128_S1x128x128_0_0_0 slices_S3x128_S1x128_0_0 := by
  unfold r1_rel0
  after_results_simp
  rw [h1]
  rfl

set_option maxHeartbeats 4000000 in
/-- Relation 1's block, from contents whose ones buffer holds the ones: its result is the relation's dense term of the aggregate. -/
theorem r1_rel1_read (W : Valuation τ sig (Elt Ideal)) (h1 : W (Proc.devRef .tc main_v133) = edgeOnes) :
    after r1_rel1 W (Proc.devRef .tc main_v213) =
      refDense (aggOf (W (Proc.devRef .tc main_v128)) (rowOf (W (Proc.devRef .tc main_arg1)) 1 slices_S3x800000_S1x800000_1_0) (rowOf (W (Proc.devRef .tc main_arg2)) 1 slices_S3x800000_S1x800000_1_0)
          (degOf (rowOf (W (Proc.devRef .tc main_arg1)) 1 slices_S3x800000_S1x800000_1_0)) (degOf (rowOf (W (Proc.devRef .tc main_arg2)) 1 slices_S3x800000_S1x800000_1_0)))
        (W (Proc.devRef .tc main_v130)) (W (Proc.devRef .tc main_v132)) 1 slices_S3x128x128_S1x128x128_1_0_0 slices_S3x128_S1x128_1_0 := by
  unfold r1_rel1
  after_results_simp
  rw [h1]
  rfl

set_option maxHeartbeats 4000000 in
/-- Relation 2's block, from contents whose ones buffer holds the ones: its result is the relation's dense term of the aggregate. -/
theorem r1_rel2_read (W : Valuation τ sig (Elt Ideal)) (h1 : W (Proc.devRef .tc main_v133) = edgeOnes) :
    after r1_rel2 W (Proc.devRef .tc main_v253) =
      refDense (aggOf (W (Proc.devRef .tc main_v128)) (rowOf (W (Proc.devRef .tc main_arg1)) 2 slices_S3x800000_S1x800000_2_0) (rowOf (W (Proc.devRef .tc main_arg2)) 2 slices_S3x800000_S1x800000_2_0)
          (degOf (rowOf (W (Proc.devRef .tc main_arg1)) 2 slices_S3x800000_S1x800000_2_0)) (degOf (rowOf (W (Proc.devRef .tc main_arg2)) 2 slices_S3x800000_S1x800000_2_0)))
        (W (Proc.devRef .tc main_v130)) (W (Proc.devRef .tc main_v132)) 2 slices_S3x128x128_S1x128x128_2_0_0 slices_S3x128_S1x128_2_0 := by
  unfold r1_rel2
  after_results_simp
  rw [h1]
  rfl

/-- The tail: the mean of the three relations' terms, then the rectifier. -/
theorem r1_tail_read (W : Valuation τ sig (Elt Ideal)) :
    after r1_tail W (Proc.devRef .tc main_v261) = refLeaky (refMean (W (Proc.devRef .tc main_v173)) (W (Proc.devRef .tc main_v213)) (W (Proc.devRef .tc main_v253))) := by
  unfold r1_tail
  after_results_simp
  rfl

/-- The contents after the preamble, and after each relation's block. -/
def r1_W0 (V : Valuation τ sig (Elt Ideal)) : Valuation τ sig (Elt Ideal) := after r1_pre V
@[inherit_doc r1_W0] def r1_W1 (V : Valuation τ sig (Elt Ideal)) : Valuation τ sig (Elt Ideal) := after r1_rel0 (r1_W0 V)
@[inherit_doc r1_W0] def r1_W2 (V : Valuation τ sig (Elt Ideal)) : Valuation τ sig (Elt Ideal) := after r1_rel1 (r1_W1 V)
@[inherit_doc r1_W0] def r1_W3 (V : Valuation τ sig (Elt Ideal)) : Valuation τ sig (Elt Ideal) := after r1_rel2 (r1_W2 V)

theorem r1_chain (V : Valuation τ sig (Elt Ideal)) : after (opsL1 (F := Ideal)) V = after r1_tail (r1_W3 V) := by
  have h := congrArg (fun ops => after ops V) r1_split
  simp only [after_append] at h
  exact h

theorem r1_W0_keep (V : Valuation τ sig (Elt Ideal)) {x : Ref sig .tc} (hx : x ∉ r1_pre_W) :
    r1_W0 V (Proc.devRef .tc x) = V (Proc.devRef .tc x) := r1_pre_keeps _ hx

theorem r1_W1_keep (V : Valuation τ sig (Elt Ideal)) {x : Ref sig .tc} (hx : x ∉ r1_rel0_W) :
    r1_W1 V (Proc.devRef .tc x) = (r1_W0 V) (Proc.devRef .tc x) := r1_rel0_keeps _ hx

theorem r1_W2_keep (V : Valuation τ sig (Elt Ideal)) {x : Ref sig .tc} (hx : x ∉ r1_rel1_W) :
    r1_W2 V (Proc.devRef .tc x) = (r1_W1 V) (Proc.devRef .tc x) := r1_rel1_keeps _ hx

theorem r1_W3_keep (V : Valuation τ sig (Elt Ideal)) {x : Ref sig .tc} (hx : x ∉ r1_rel2_W) :
    r1_W3 V (Proc.devRef .tc x) = (r1_W2 V) (Proc.devRef .tc x) := r1_rel2_keeps _ hx

theorem r1_ones0 (V : Valuation τ sig (Elt Ideal)) : r1_W0 V (Proc.devRef .tc main_v133) = edgeOnes := r1_pre_ones V
theorem r1_ones1 (V : Valuation τ sig (Elt Ideal)) : r1_W1 V (Proc.devRef .tc main_v133) = edgeOnes := (r1_W1_keep V (by decide)).trans (r1_ones0 V)
theorem r1_ones2 (V : Valuation τ sig (Elt Ideal)) : r1_W2 V (Proc.devRef .tc main_v133) = edgeOnes := (r1_W2_keep V (by decide)).trans (r1_ones1 V)

theorem r1_h0 (V : Valuation τ sig (Elt Ideal)) : r1_W0 V (Proc.devRef .tc main_v128) = (V (Proc.devRef .tc main_v128)) := r1_W0_keep V (by decide)
theorem r1_h1 (V : Valuation τ sig (Elt Ideal)) : r1_W1 V (Proc.devRef .tc main_v128) = (V (Proc.devRef .tc main_v128)) := (r1_W1_keep V (by decide)).trans (r1_h0 V)
theorem r1_h2 (V : Valuation τ sig (Elt Ideal)) : r1_W2 V (Proc.devRef .tc main_v128) = (V (Proc.devRef .tc main_v128)) := (r1_W2_keep V (by decide)).trans (r1_h1 V)

theorem r1_src0 (V : Valuation τ sig (Elt Ideal)) : r1_W0 V (Proc.devRef .tc main_arg1) = (V (Proc.devRef .tc main_arg1)) := r1_W0_keep V (by decide)
theorem r1_src1 (V : Valuation τ sig (Elt Ideal)) : r1_W1 V (Proc.devRef .tc main_arg1) = (V (Proc.devRef .tc main_arg1)) := (r1_W1_keep V (by decide)).trans (r1_src0 V)
theorem r1_src2 (V : Valuation τ sig (Elt Ideal)) : r1_W2 V (Proc.devRef .tc main_arg1) = (V (Proc.devRef .tc main_arg1)) := (r1_W2_keep V (by decide)).trans (r1_src1 V)

theorem r1_dst0 (V : Valuation τ sig (Elt Ideal)) : r1_W0 V (Proc.devRef .tc main_arg2) = (V (Proc.devRef .tc main_arg2)) := r1_W0_keep V (by decide)
theorem r1_dst1 (V : Valuation τ sig (Elt Ideal)) : r1_W1 V (Proc.devRef .tc main_arg2) = (V (Proc.devRef .tc main_arg2)) := (r1_W1_keep V (by decide)).trans (r1_dst0 V)
theorem r1_dst2 (V : Valuation τ sig (Elt Ideal)) : r1_W2 V (Proc.devRef .tc main_arg2) = (V (Proc.devRef .tc main_arg2)) := (r1_W2_keep V (by decide)).trans (r1_dst1 V)

theorem r1_wgt0 (V : Valuation τ sig (Elt Ideal)) : r1_W0 V (Proc.devRef .tc main_v130) = (layerW (V (Proc.devRef .tc main_arg5)) 0 slices_S4x3x128x128_S1x3x128x128_0_0_0_0) := r1_pre_wgt V
theorem r1_wgt1 (V : Valuation τ sig (Elt Ideal)) : r1_W1 V (Proc.devRef .tc main_v130) = (layerW (V (Proc.devRef .tc main_arg5)) 0 slices_S4x3x128x128_S1x3x128x128_0_0_0_0) := (r1_W1_keep V (by decide)).trans (r1_wgt0 V)
theorem r1_wgt2 (V : Valuation τ sig (Elt Ideal)) : r1_W2 V (Proc.devRef .tc main_v130) = (layerW (V (Proc.devRef .tc main_arg5)) 0 slices_S4x3x128x128_S1x3x128x128_0_0_0_0) := (r1_W2_keep V (by decide)).trans (r1_wgt1 V)

theorem r1_bia0 (V : Valuation τ sig (Elt Ideal)) : r1_W0 V (Proc.devRef .tc main_v132) = (layerB (V (Proc.devRef .tc main_arg6)) 0 slices_S4x3x128_S1x3x128_0_0_0) := r1_pre_bia V
theorem r1_bia1 (V : Valuation τ sig (Elt Ideal)) : r1_W1 V (Proc.devRef .tc main_v132) = (layerB (V (Proc.devRef .tc main_arg6)) 0 slices_S4x3x128_S1x3x128_0_0_0) := (r1_W1_keep V (by decide)).trans (r1_bia0 V)
theorem r1_bia2 (V : Valuation τ sig (Elt Ideal)) : r1_W2 V (Proc.devRef .tc main_v132) = (layerB (V (Proc.devRef .tc main_arg6)) 0 slices_S4x3x128_S1x3x128_0_0_0) := (r1_W2_keep V (by decide)).trans (r1_bia1 V)

/-- Relation 0's term, as it stands when the tail starts. -/
theorem r1_D0 (V : Valuation τ sig (Elt Ideal)) : r1_W3 V (Proc.devRef .tc main_v173) =
      refDense (aggOf (V (Proc.devRef .tc main_v128)) (rowOf (V (Proc.devRef .tc main_arg1)) 0 slices_S3x800000_S1x800000_0_0) (rowOf (V (Proc.devRef .tc main_arg2)) 0 slices_S3x800000_S1x800000_0_0)
          (degOf (rowOf (V (Proc.devRef .tc main_arg1)) 0 slices_S3x800000_S1x800000_0_0)) (degOf (rowOf (V (Proc.devRef .tc main_arg2)) 0 slices_S3x800000_S1x800000_0_0)))
        (layerW (V (Proc.devRef .tc main_arg5)) 0 slices_S4x3x128x128_S1x3x128x128_0_0_0_0) (layerB (V (Proc.devRef .tc main_arg6)) 0 slices_S4x3x128_S1x3x128_0_0_0) 0 slices_S3x128x128_S1x128x128_0_0_0 slices_S3x128_S1x128_0_0 := by
  rw [r1_W3_keep V (x := main_v173) (by decide), r1_W2_keep V (x := main_v173) (by decide)]
  unfold r1_W1
  rw [r1_rel0_read _ (r1_ones0 V), r1_h0 V, r1_src0 V, r1_dst0 V, r1_wgt0 V, r1_bia0 V]

/-- Relation 1's term, as it stands when the tail starts. -/
theorem r1_D1 (V : Valuation τ sig (Elt Ideal)) : r1_W3 V (Proc.devRef .tc main_v213) =
      refDense (aggOf (V (Proc.devRef .tc main_v128)) (rowOf (V (Proc.devRef .tc main_arg1)) 1 slices_S3x800000_S1x800000_1_0) (rowOf (V (Proc.devRef .tc main_arg2)) 1 slices_S3x800000_S1x800000_1_0)
          (degOf (rowOf (V (Proc.devRef .tc main_arg1)) 1 slices_S3x800000_S1x800000_1_0)) (degOf (rowOf (V (Proc.devRef .tc main_arg2)) 1 slices_S3x800000_S1x800000_1_0)))
        (layerW (V (Proc.devRef .tc main_arg5)) 0 slices_S4x3x128x128_S1x3x128x128_0_0_0_0) (layerB (V (Proc.devRef .tc main_arg6)) 0 slices_S4x3x128_S1x3x128_0_0_0) 1 slices_S3x128x128_S1x128x128_1_0_0 slices_S3x128_S1x128_1_0 := by
  rw [r1_W3_keep V (x := main_v213) (by decide)]
  unfold r1_W2
  rw [r1_rel1_read _ (r1_ones1 V), r1_h1 V, r1_src1 V, r1_dst1 V, r1_wgt1 V, r1_bia1 V]

/-- Relation 2's term, as it stands when the tail starts. -/
theorem r1_D2 (V : Valuation τ sig (Elt Ideal)) : r1_W3 V (Proc.devRef .tc main_v253) =
      refDense (aggOf (V (Proc.devRef .tc main_v128)) (rowOf (V (Proc.devRef .tc main_arg1)) 2 slices_S3x800000_S1x800000_2_0) (rowOf (V (Proc.devRef .tc main_arg2)) 2 slices_S3x800000_S1x800000_2_0)
          (degOf (rowOf (V (Proc.devRef .tc main_arg1)) 2 slices_S3x800000_S1x800000_2_0)) (degOf (rowOf (V (Proc.devRef .tc main_arg2)) 2 slices_S3x800000_S1x800000_2_0)))
        (layerW (V (Proc.devRef .tc main_arg5)) 0 slices_S4x3x128x128_S1x3x128x128_0_0_0_0) (layerB (V (Proc.devRef .tc main_arg6)) 0 slices_S4x3x128_S1x3x128_0_0_0) 2 slices_S3x128x128_S1x128x128_2_0_0 slices_S3x128_S1x128_2_0 := by
  unfold r1_W3
  rw [r1_rel2_read _ (r1_ones2 V), r1_h2 V, r1_src2 V, r1_dst2 V, r1_wgt2 V, r1_bia2 V]

/-- Layer 1's result, from any contents V: the layer function of the three relations' aggregates of the features in `main_v128`,
    the layer's weights and biases. -/
theorem readR1 (V : Valuation τ sig (Elt Ideal)) :
    after (opsL1 (F := Ideal)) V (Proc.devRef .tc main_v261) =
      refLayer
        (aggOf (V (Proc.devRef .tc main_v128)) (rowOf (V (Proc.devRef .tc main_arg1)) 0 slices_S3x800000_S1x800000_0_0) (rowOf (V (Proc.devRef .tc main_arg2)) 0 slices_S3x800000_S1x800000_0_0)
          (degOf (rowOf (V (Proc.devRef .tc main_arg1)) 0 slices_S3x800000_S1x800000_0_0)) (degOf (rowOf (V (Proc.devRef .tc main_arg2)) 0 slices_S3x800000_S1x800000_0_0)))
        (aggOf (V (Proc.devRef .tc main_v128)) (rowOf (V (Proc.devRef .tc main_arg1)) 1 slices_S3x800000_S1x800000_1_0) (rowOf (V (Proc.devRef .tc main_arg2)) 1 slices_S3x800000_S1x800000_1_0)
          (degOf (rowOf (V (Proc.devRef .tc main_arg1)) 1 slices_S3x800000_S1x800000_1_0)) (degOf (rowOf (V (Proc.devRef .tc main_arg2)) 1 slices_S3x800000_S1x800000_1_0)))
        (aggOf (V (Proc.devRef .tc main_v128)) (rowOf (V (Proc.devRef .tc main_arg1)) 2 slices_S3x800000_S1x800000_2_0) (rowOf (V (Proc.devRef .tc main_arg2)) 2 slices_S3x800000_S1x800000_2_0)
          (degOf (rowOf (V (Proc.devRef .tc main_arg1)) 2 slices_S3x800000_S1x800000_2_0)) (degOf (rowOf (V (Proc.devRef .tc main_arg2)) 2 slices_S3x800000_S1x800000_2_0)))
        (layerW (V (Proc.devRef .tc main_arg5)) 0 slices_S4x3x128x128_S1x3x128x128_0_0_0_0) (layerB (V (Proc.devRef .tc main_arg6)) 0 slices_S4x3x128_S1x3x128_0_0_0) := by
  rw [r1_chain V, r1_tail_read, r1_D0, r1_D1, r1_D2]
  rfl

end Cert.Bridge

end
-- ==== Proof.BridgeL1.lean ====
/-
  Layer 1 on both sides: given that the previous layer's results agree, the kernel program's region 1 leaves in its
  output array what the reference's layer 1 computes.
-/
import proofs.«165758_j22333829939343_1_alg».proof.Proof.KRunVals
import proofs.«165758_j22333829939343_1_alg».proof.Proof.BridgeChainK
import proofs.«165758_j22333829939343_1_alg».proof.Proof.KJoin1
import proofs.«165758_j22333829939343_1_alg».proof.Proof.BridgeReadK0
import proofs.«165758_j22333829939343_1_alg».proof.Proof.BridgeReadK1
import proofs.«165758_j22333829939343_1_alg».proof.Proof.BridgeReadAggK1
import proofs.«165758_j22333829939343_1_alg».proof.Proof.BridgeReadR1
import proofs.«165758_j22333829939343_1_alg».proof.Proof.RefRun
import proofs.«165758_j22333829939343_1_alg».proof.Proof.BridgeArgs

set_option maxRecDepth 16384

noncomputable section

namespace Cert.Bridge

open Idealize.ShloMosaic Idealize.ShloMosaic.TcCoe Idealize.SL.Sem
open Cert.KernelIdeal Cert.KernelIdeal.Gen Cert.KernelIdeal.Hand

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

set_option maxHeartbeats 4000000 in
theorem layer1_eq (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))) (c : Dev Cert.KernelIdeal.nD)
    (hprev : W2 m ρ c (Proc.devRef .tc main_v134)
      = Cert.ReferenceIdeal.RefRun.R1 m' c (Proc.devRef .tc Cert.ReferenceIdeal.main_v128)) :
    W4 m ρ c (Proc.devRef .tc main_v234)
      = Cert.ReferenceIdeal.RefRun.R2 m' c (Proc.devRef .tc Cert.ReferenceIdeal.main_v261) := by
  obtain ⟨g0, g1, g2, g3, g4, g5, g6, g7, g8⟩ := hagree c
  have hA := readK1_agg (W2 m ρ c)
  have hW := readK1_wgt (W2 m ρ c)
  have hB := readK1_bias (W2 m ρ c)
  have hR := readR1 (Cert.ReferenceIdeal.RefRun.R1 m' c)
  rw [W2_main_arg1 m ρ c, W2_main_arg2 m ρ c, W2_main_v19 m ρ c, W2_main_v38 m ρ c,
    readK0_kdegOut_0 (W0 m ρ c), readK0_kdegIn_0 (W0 m ρ c), readK0_kdegOut_1 (W0 m ρ c), readK0_kdegIn_1 (W0 m ρ c),
    readK0_kdegOut_2 (W0 m ρ c), readK0_kdegIn_2 (W0 m ρ c), W0_main_arg1 m ρ c, W0_main_arg2 m ρ c, hprev] at hA
  rw [W2_main_arg5 m ρ c] at hW
  rw [W2_main_arg6 m ρ c] at hB
  have r1 : Cert.ReferenceIdeal.RefRun.R1 m' c (Proc.devRef .tc Cert.ReferenceIdeal.main_arg1) = m ((c.tc : Thread Cert.KernelIdeal.nD Cert.KernelIdeal.τ).loc Cert.KernelIdeal.main_arg1) := (Cert.ReferenceIdeal.RefRun.R1_arg m' c (by decide)).trans g1
  have r2 : Cert.ReferenceIdeal.RefRun.R1 m' c (Proc.devRef .tc Cert.ReferenceIdeal.main_arg2) = m ((c.tc : Thread Cert.KernelIdeal.nD Cert.KernelIdeal.τ).loc Cert.KernelIdeal.main_arg2) := (Cert.ReferenceIdeal.RefRun.R1_arg m' c (by decide)).trans g2
  have r5 : Cert.ReferenceIdeal.RefRun.R1 m' c (Proc.devRef .tc Cert.ReferenceIdeal.main_arg5) = m ((c.tc : Thread Cert.KernelIdeal.nD Cert.KernelIdeal.τ).loc Cert.KernelIdeal.main_arg5) := (Cert.ReferenceIdeal.RefRun.R1_arg m' c (by decide)).trans g5
  have r6 : Cert.ReferenceIdeal.RefRun.R1 m' c (Proc.devRef .tc Cert.ReferenceIdeal.main_arg6) = m ((c.tc : Thread Cert.KernelIdeal.nD Cert.KernelIdeal.τ).loc Cert.KernelIdeal.main_arg6) := (Cert.ReferenceIdeal.RefRun.R1_arg m' c (by decide)).trans g6
  rw [r1, r2, r5, r6] at hR
  rw [W4_out, final1, Cert.ReferenceIdeal.RefRun.R2_eq]
  refine ((G1_eq_refLayer (V3 m ρ) c _ _ _ _ _ _ hA hW hB).trans ?_)
  exact hR.symm

end Cert.Bridge

end
-- ==== Proof.KValue2.lean ====
/-
  Region 2: the values. Each case's found pieces read back as the body's payloads; the accumulator after a
  point is the running sum of its row tile's relations; the output array ends, row tile by row tile, at the
  activated mean of the three relations' tile products.
-/
import proofs.«165758_j22333829939343_1_alg».proof.Proof.KBody2
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem hz2_2 : (![0, 0] : Fin 2 → Nat) = fun _ => 0 := funext fun a => by fin_cases a <;> rfl
theorem hz3_2 : (![0, 0, 0] : Fin 3 → Nat) = fun _ => 0 := funext fun a => by fin_cases a <;> rfl

/-- A relation-0 point leaves the accumulator at zero plus the relation's tile product. -/
theorem sout2_A_eq (c : Dev nD) (i : grid2.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond2_0 i) (hc1 : ¬cond2_1 i) (x0 : Vec F S1x2000x128 .f32) (x1 : Vec F S1x128x128 .f32) (x2 : Vec F S1x1x128 .f32) :
    sout2_A_0 c i arg2 harg2 arg3 harg3 arg4 harg4 arg5 harg5 arg6 harg6 hc0 hc1 x0 x1 x2 = k2_pay2 x0 x1 x2 (k2_pay1 (F := F)) := by
  unfold sout2_A_0
  rw [View.read_writes_eq_canon _ _ _ (scover2_A_0 c i arg2 harg2 arg3 harg3 arg4 harg4 arg5 harg5 arg6 harg6 hc0 hc1 x0 x1 x2)]
  unfold kernelRun2_A
  dsimp only
  sl_unfold_words
  rw [View.canon_cons_unit_zero (S := S2000x128) hz2_2, View.readCov_unit_zero (S := S2000x128) _ hz2_2]
  simp only [View.readAt_eq_ld, harg2.read_unread, harg3.read_unread, harg4.read_unread,
    View.ld_unit_zero (S := S1x2000x128) hz3_2, View.ld_unit_zero (S := S1x128x128) hz3_2, View.ld_unit_zero (S := S1x1x128) hz3_2]

/-- A relation-1 point adds the relation's tile product to the accumulator. -/
theorem sout2_B_eq (c : Dev nD) (i : grid2.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : ¬cond2_1 i) (x0 : Vec F S1x2000x128 .f32) (x1 : Vec F S1x128x128 .f32) (x2 : Vec F S1x1x128 .f32) (xs0 : Vec F S2000x128 .f32) :
    sout2_B_0 c i arg2 harg2 arg3 harg3 arg4 harg4 arg5 harg5 arg6 harg6 hc0 hc1 x0 x1 x2 xs0 = k2_pay2 x0 x1 x2 xs0 := by
  unfold sout2_B_0
  rw [View.read_writes_eq_canon _ _ _ (scover2_B_0 c i arg2 harg2 arg3 harg3 arg4 harg4 arg5 harg5 arg6 harg6 hc0 hc1 x0 x1 x2 xs0)]
  unfold kernelRun2_B
  dsimp only
  sl_unfold_words
  rw [View.canon_unit_zero hz2_2]
  simp only [View.readAt_eq_ld, harg2.read_unread, harg3.read_unread, harg4.read_unread, harg6.read_unread,
    View.ld_unit_zero (S := S1x2000x128) hz3_2, View.ld_unit_zero (S := S1x128x128) hz3_2, View.ld_unit_zero (S := S1x1x128) hz3_2,
    View.ld_unit_zero (S := S2000x128) hz2_2]

/-- So does a relation-2 point, -/
theorem sout2_C_eq (c : Dev nD) (i : grid2.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : cond2_1 i) (x0 : Vec F S1x2000x128 .f32) (x1 : Vec F S1x128x128 .f32) (x2 : Vec F S1x1x128 .f32) (xs0 : Vec F S2000x128 .f32) :
    sout2_C_0 c i arg2 harg2 arg3 harg3 arg4 harg4 arg5 harg5 arg6 harg6 hc0 hc1 x0 x1 x2 xs0 = k2_pay2 x0 x1 x2 xs0 := by
  unfold sout2_C_0
  rw [View.read_writes_eq_canon _ _ _ (scover2_C_0 c i arg2 harg2 arg3 harg3 arg4 harg4 arg5 harg5 arg6 harg6 hc0 hc1 x0 x1 x2 xs0)]
  unfold kernelRun2_C
  dsimp only
  sl_unfold_words
  rw [View.canon_unit_zero hz2_2]
  simp only [View.readAt_eq_ld, harg2.read_unread, harg3.read_unread, harg4.read_unread, harg6.read_unread,
    View.ld_unit_zero (S := S1x2000x128) hz3_2, View.ld_unit_zero (S := S1x128x128) hz3_2, View.ld_unit_zero (S := S1x1x128) hz3_2,
    View.ld_unit_zero (S := S2000x128) hz2_2]

/-- and it stores the activated mean of the new accumulator into the output block. -/
theorem out2_C_eq (c : Dev nD) (i : grid2.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : cond2_1 i) (x0 : Vec F S1x2000x128 .f32) (x1 : Vec F S1x128x128 .f32) (x2 : Vec F S1x1x128 .f32) (xs0 : Vec F S2000x128 .f32) :
    out2_C_3 c i arg2 harg2 arg3 harg3 arg4 harg4 arg5 harg5 arg6 harg6 hc0 hc1 x0 x1 x2 xs0 = k2_pay3 (k2_pay2 x0 x1 x2 xs0) := by
  unfold out2_C_3
  rw [View.read_writes_eq_canon _ _ _ (cover2_C_3 c i arg2 harg2 arg3 harg3 arg4 harg4 arg5 harg5 arg6 harg6 hc0 hc1 x0 x1 x2 xs0)]
  unfold kernelRun2_C
  dsimp only
  sl_unfold_words
  rw [View.canon_unit_zero hz2_2, View.readCov_unit_zero (S := S2000x128) _ hz2_2]
  simp only [View.readAt_eq_ld, harg2.read_unread, harg3.read_unread, harg4.read_unread, harg6.read_unread,
    View.ld_unit_zero (S := S1x2000x128) hz3_2, View.ld_unit_zero (S := S1x128x128) hz3_2, View.ld_unit_zero (S := S1x1x128) hz3_2,
    View.ld_unit_zero (S := S2000x128) hz2_2]

/-! ## The running sum -/

/-- One point's step: the accumulator plus this point's relation's tile product (its three input blocks). -/
def step2 (c : Dev nD) (t : Fin cfg2.N) (acc : Vec F S2000x128 .f32) : Vec F S2000x128 .f32 :=
  k2_pay2 (iblk2 V c 0 t) (iblk2 V c 1 t) (iblk2 V c 2 t) acc

/-- The accumulator after point n: restarted from zero at relation 0. -/
def accAt2 (c : Dev nD) : (n : ℕ) → n < cfg2.N → Vec F S2000x128 .f32
  | 0, h => step2 V c ⟨0, h⟩ (k2_pay1 (F := F))
  | n + 1, h => if (n + 1) % 3 = 0 then step2 V c ⟨n + 1, h⟩ (k2_pay1 (F := F)) else step2 V c ⟨n + 1, h⟩ (accAt2 c n (Nat.lt_of_succ_lt h))

theorem accAt2_succ (c : Dev nD) (n : ℕ) (h : n + 1 < cfg2.N) :
    accAt2 V c (n + 1) h = (if (n + 1) % 3 = 0 then step2 V c ⟨n + 1, h⟩ (k2_pay1 (F := F)) else step2 V c ⟨n + 1, h⟩ (accAt2 V c n (Nat.lt_of_succ_lt h))) := rfl

set_option maxHeartbeats 4000000 in
theorem outsAt2_snd (c : Dev nD) : ∀ (n : ℕ) (h : n < cfg2.N), (outsAt2 V c n h).2 = accAt2 V c n h
  | 0, h => by
    have hc1 : ¬cond2_1 (grid2.coords ⟨0, h⟩) := fun hh => by
      have h2 : (0 : ℕ) % 3 = 2 := (hcond2_1 ⟨0, h⟩).mp hh
      omega
    rw [outsAt2_A V c ⟨0, h⟩ rfl hc1]
    dsimp only
    exact sout2_A_eq (F := F) ..
  | n + 1, h => by
    by_cases h0 : (n + 1) % 3 = 0
    · have hc1 : ¬cond2_1 (grid2.coords ⟨n + 1, h⟩) := fun hh => by
        have h2 : (n + 1) % 3 = 2 := (hcond2_1 ⟨n + 1, h⟩).mp hh
        omega
      rw [outsAt2_A V c ⟨n + 1, h⟩ h0 hc1, accAt2_succ, if_pos h0]
      dsimp only
      exact sout2_A_eq (F := F) ..
    · by_cases h1 : (n + 1) % 3 = 2
      · rw [outsAt2_C V c ⟨n + 1, h⟩ h0 h1, accAt2_succ, if_neg h0]
        dsimp only
        refine (sout2_C_eq (F := F) ..).trans ?_
        show k2_pay2 _ _ _ (outsAt2 V c n _).2 = _
        rw [outsAt2_snd c n]; rfl
      · rw [outsAt2_B V c ⟨n + 1, h⟩ h0 h1, accAt2_succ, if_neg h0]
        dsimp only
        refine (sout2_B_eq (F := F) ..).trans ?_
        show k2_pay2 _ _ _ (outsAt2 V c n _).2 = _
        rw [outsAt2_snd c n]; rfl

set_option maxHeartbeats 4000000 in
/-- At a relation-2 point the output block holds the activated mean of the accumulator. -/
theorem outsAt2_fst (c : Dev nD) (t : Fin cfg2.N) (h1 : t.val % 3 = 2) :
    (outsAt2 V c t.val t.isLt).1 = k2_pay3 (accAt2 V c t.val t.isLt) := by
  have h0 : ¬t.val % 3 = 0 := by omega
  rw [← outsAt2_snd V c t.val t.isLt, outsAt2_C V c t h0 h1]
  dsimp only
  refine (out2_C_eq (F := F) ..).trans ?_
  exact congrArg k2_pay3 (sout2_C_eq (F := F) ..).symm

end Cert.KernelIdeal.Hand

end
-- ==== Proof.KFinal2.lean ====
/-
  Region 2: from blocks to the array. Row tile I of the output array is written back once, after its
  relation-2 point 3·I + 2, and holds the activated mean of that point's accumulator; the 25 row tiles cover
  the array.
-/
import proofs.«165758_j22333829939343_1_alg».proof.Proof.KValue2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

open ValueIdx in
/-- The output array after the region, entry by entry: entry (i, q) lies in row tile i / 2000. -/
def G2 (c : Dev nD) : S50000x128.Idx → Elt F .f32 := fun j =>
  k2_pay3 (accAt2 V c (3 * ((j 0).val / 2000) + 2) (by
      have h0 : (j 0).val < 50000 := (j 0).isLt
      have hN : cfg2.N = 75 := N_2
      have hN' : grid2.N = 75 := N_2
      omega))
    (ix2 (⟨(j 0).val % 2000, Nat.mod_lt _ (by decide)⟩ : Fin 2000) ((j 1 : Fin 128)))

theorem tile2_congr (c : Dev nD) {n n' : ℕ} (hn : n < cfg2.N) (hn' : n' < cfg2.N) (e : n = n') {y y' : S2000x128.Idx} (ey : y = y') :
    k2_pay3 (accAt2 V c n hn) y = k2_pay3 (accAt2 V c n' hn') y' := by
  subst e; subst ey; rfl

/-- The output window's block index at point t is its row tile, t / 3 (decided over the grid). -/
theorem idx_facts2_3 : ∀ t : Fin cfg2.N, win2_3.index t (0 : Fin 2) = t.val / 3 ∧ win2_3.index t (1 : Fin 2) = 0 :=
  (by decide +kernel : ∀ t : Fin grid2.N, win2_3.index t (0 : Fin 2) = t.val / 3 ∧ win2_3.index t (1 : Fin 2) = 0)

/-- What a relation-2 point writes back is its row tile of G2. -/
theorem flushed2_eq (c : Dev nD) (t : Fin cfg2.N) (hf : (cfg2.win 3).flush t = true) :
    (dat2 V c).flushed 3 t = ((cfg2.win 3).blk t).view.read (Elt F) (G2 V c) := by
  have h1 : t.val % 3 = 2 := (flush2_3 t).mp hf
  show (cfg2.win 3).cut (grid2.coords t) ((dat2 V c).after 3 t) = _
  rw [after2_3, outsAt2_fst V c t h1]
  obtain ⟨e0, e1⟩ := idx_facts2_3 t
  funext y
  have hy0 : (y 0).val < 2000 := (y 0).isLt
  have he0 : ((((cfg2.win 3).blk t).view.emb y) 0).val = t.val / 3 * 2000 + (y 0).val := by
    show win2_3.index t (0 : Fin 2) * 2000 + 1 * (y 0).val = _
    rw [e0]; omega
  have he1 : ((((cfg2.win 3).blk t).view.emb y) 1).val = (y 1).val := by
    show win2_3.index t (1 : Fin 2) * 128 + 1 * (y 1).val = _
    rw [e1]; omega
  show k2_pay3 (accAt2 V c t.val t.isLt) y = G2 V c (((cfg2.win 3).blk t).view.emb y)
  unfold G2
  refine tile2_congr V c _ _ (by rw [he0]; omega) (funext fun a => ?_)
  match a with
  | ⟨0, _⟩ => exact Fin.ext (by show (y 0).val = _ % 2000; rw [he0]; omega)
  | ⟨1, _⟩ => exact Fin.ext he1.symm

theorem mem_blk2_3 (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v334).slice (win2_3.rect t)).set ↔ _
  rw [View.set_slice_whole, Rect.mem_set_unit]
  exact Iff.rfl

/-- The output array after the region is G2. -/
theorem final2 (c : Dev nD) : (dat2 V c).arrAt 3 cfg2.N = G2 V c :=
  (dat2 V c).arrAt_eq_of_cover 3 (G2 V c) (flushed2_eq V c) fun i => by
    have h0 : (i 0).val < 50000 := (i 0).isLt
    have h1 : (i 1).val < 128 := (i 1).isLt
    have hN : cfg2.N = 75 := N_2
    have hN' : grid2.N = 75 := N_2
    refine ⟨⟨3 * ((i 0).val / 2000) + 2, by omega⟩, (flush2_3 _).mpr (by show (3 * ((i 0).val / 2000) + 2) % 3 = 2; omega), ?_⟩
    rw [mem_blk2_3]
    obtain ⟨e0, e1⟩ := idx_facts2_3 ⟨3 * ((i 0).val / 2000) + 2, by omega⟩
    have e0' : win2_3.index ⟨3 * ((i 0).val / 2000) + 2, by omega⟩ (0 : Fin 2) = (i 0).val / 2000 := by rw [e0]; show (3 * ((i 0).val / 2000) + 2) / 3 = _; omega
    intro a
    match a with
    | ⟨0, _⟩ => show win2_3.index _ (0 : Fin 2) * 2000 ≤ (i 0).val ∧ (i 0).val < win2_3.index _ (0 : Fin 2) * 2000 + 2000; rw [e0']; omega
    | ⟨1, _⟩ => show win2_3.index _ (1 : Fin 2) * 128 ≤ (i 1).val ∧ (i 1).val < win2_3.index _ (1 : Fin 2) * 128 + 128; rw [e1]; omega

end Cert.KernelIdeal.Hand

end
-- ==== Proof.KEntry2.lean ====
/-
  Region 2 at an entry. Entry (i, q) of the region's output array lies in row tile I = i / 2000, row p = i % 2000. The
  three points of that row tile read relation r's block of the stacked features (rows 2000 I … 2000 I + 1999), its weight
  matrix and its bias row; the accumulator after the third point is three steps from the cleared one; the output entry is
  the leaky rectifier of a third of it. So the entry is a function of the three arrays the region reads, with no tile left
  in it.
-/
import proofs.«165758_j22333829939343_1_alg».proof.Proof.KFinal2
import proofs.«165758_j22333829939343_1_alg».proof.Proof.LayerAlias
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## Where a point's blocks sit in their arrays (decided over the grid) -/

/-- The feature window's block at point t: relation t % 3, row tile t / 3. -/
theorem idx_facts2_0 : ∀ t : Fin cfg2.N, win2_0.index t (0 : Fin 3) = t.val % 3 ∧ win2_0.index t (1 : Fin 3) = t.val / 3 ∧ win2_0.index t (2 : Fin 3) = 0 :=
  (by decide +kernel : ∀ t : Fin grid2.N, win2_0.index t (0 : Fin 3) = t.val % 3 ∧ win2_0.index t (1 : Fin 3) = t.val / 3 ∧ win2_0.index t (2 : Fin 3) = 0)

/-- The weight window's block at point t: relation t % 3. -/
theorem idx_facts2_1 : ∀ t : Fin cfg2.N, win2_1.index t (0 : Fin 3) = t.val % 3 ∧ win2_1.index t (1 : Fin 3) = 0 ∧ win2_1.index t (2 : Fin 3) = 0 :=
  (by decide +kernel : ∀ t : Fin grid2.N, win2_1.index t (0 : Fin 3) = t.val % 3 ∧ win2_1.index t (1 : Fin 3) = 0 ∧ win2_1.index t (2 : Fin 3) = 0)

/-- The bias window's block at point t: relation t % 3. -/
theorem idx_facts2_2 : ∀ t : Fin cfg2.N, win2_2.index t (0 : Fin 3) = t.val % 3 ∧ win2_2.index t (1 : Fin 3) = 0 ∧ win2_2.index t (2 : Fin 3) = 0 :=
  (by decide +kernel : ∀ t : Fin grid2.N, win2_2.index t (0 : Fin 3) = t.val % 3 ∧ win2_2.index t (1 : Fin 3) = 0 ∧ win2_2.index t (2 : Fin 3) = 0)

/-- The three arrays the region reads, as the region finds them. -/
abbrev AGG2 (c : Dev nD) : Vec Ideal S3x50000x128 .f32 := V c (Pipeline.arrRef spec2 0)
abbrev WGT2 (c : Dev nD) : Vec Ideal S3x128x128 .f32 := V c (Pipeline.arrRef spec2 1)
abbrev BIA2 (c : Dev nD) : Vec Ideal S3x1x128 .f32 := V c (Pipeline.arrRef spec2 2)

/-- A point's three input blocks, at their literal shapes. -/
abbrev blkA2 (c : Dev nD) (t : Fin cfg2.N) : Vec Ideal S1x2000x128 .f32 := iblk2 V c 0 t
abbrev blkW2 (c : Dev nD) (t : Fin cfg2.N) : Vec Ideal S1x128x128 .f32 := iblk2 V c 1 t
abbrev blkB2 (c : Dev nD) (t : Fin cfg2.N) : Vec Ideal S1x1x128 .f32 := iblk2 V c 2 t

/-- Entry (0, p, k) of the feature block at point t is entry (t % 3, 2000 (t / 3) + p, k) of the stacked features. -/
theorem iblk2_0_apply (c : Dev nD) (t : Fin cfg2.N) (p : Fin 2000) (k : Fin 128) (r : Fin 3) (i : Fin 50000)
    (hr : r.val = t.val % 3) (hi : i.val = t.val / 3 * 2000 + p.val) :
    blkA2 V c t (ix3 (0 : Fin 1) p k) = AGG2 V c (ix3 r i k) := by
  obtain ⟨e0, e1, e2⟩ := idx_facts2_0 t
  show AGG2 V c (((cfg2.win 0).blk t).view.emb (ix3 (0 : Fin 1) p k)) = _
  refine congrArg (AGG2 V c) (funext fun a => ?_)
  match a with
  | ⟨0, _⟩ => exact Fin.ext (by show win2_0.index t (0 : Fin 3) * 1 + 1 * 0 = r.val; rw [e0]; omega)
  | ⟨1, _⟩ => exact Fin.ext (by show win2_0.index t (1 : Fin 3) * 2000 + 1 * p.val = i.val; rw [e1]; omega)
  | ⟨2, _⟩ => exact Fin.ext (by show win2_0.index t (2 : Fin 3) * 128 + 1 * k.val = k.val; rw [e2]; omega)

/-- Entry (0, k, q) of the weight block at point t is entry (t % 3, k, q) of the weights. -/
theorem iblk2_1_apply (c : Dev nD) (t : Fin cfg2.N) (k : Fin 128) (q : Fin 128) (r : Fin 3) (hr : r.val = t.val % 3) :
    blkW2 V c t (ix3 (0 : Fin 1) k q) = WGT2 V c (ix3 r k q) := by
  obtain ⟨e0, e1, e2⟩ := idx_facts2_1 t
  show WGT2 V c (((cfg2.win 1).blk t).view.emb (ix3 (0 : Fin 1) k q)) = _
  refine congrArg (WGT2 V c) (funext fun a => ?_)
  match a with
  | ⟨0, _⟩ => exact Fin.ext (by show win2_1.index t (0 : Fin 3) * 1 + 1 * 0 = r.val; rw [e0]; omega)
  | ⟨1, _⟩ => exact Fin.ext (by show win2_1.index t (1 : Fin 3) * 128 + 1 * k.val = k.val; rw [e1]; omega)
  | ⟨2, _⟩ => exact Fin.ext (by show win2_1.index t (2 : Fin 3) * 128 + 1 * q.val = q.val; rw [e2]; omega)

/-- Entry (0, 0, q) of the bias block at point t is entry (t % 3, 0, q) of the biases. -/
theorem iblk2_2_apply (c : Dev nD) (t : Fin cfg2.N) (q : Fin 128) (r : Fin 3) (hr : r.val = t.val % 3) :
    blkB2 V c t (ix3 (0 : Fin 1) (0 : Fin 1) q) = BIA2 V c (ix3 r (0 : Fin 1) q) := by
  obtain ⟨e0, e1, e2⟩ := idx_facts2_2 t
  show BIA2 V c (((cfg2.win 2).blk t).view.emb (ix3 (0 : Fin 1) (0 : Fin 1) q)) = _
  refine congrArg (BIA2 V c) (funext fun a => ?_)
  match a with
  | ⟨0, _⟩ => exact Fin.ext (by show win2_2.index t (0 : Fin 3) * 1 + 1 * 0 = r.val; rw [e0]; omega)
  | ⟨1, _⟩ => exact Fin.ext (by show win2_2.index t (1 : Fin 3) * 1 + 1 * 0 = 0; rw [e1])
  | ⟨2, _⟩ => exact Fin.ext (by show win2_2.index t (2 : Fin 3) * 128 + 1 * q.val = q.val; rw [e2]; omega)

/-! ## One relation's contribution at an entry of the output array -/

/-- Relation r's contribution to entry (i, q): row i of its aggregated features times column q of its weights, plus its
    bias entry q. -/
def T2 (c : Dev nD) (r : Fin 3) (i : Fin 50000) (q : Fin 128) : EReal :=
  (∑ k : Fin 128, AGG2 V c (ix3 r i k) * WGT2 V c (ix3 r k q)) + BIA2 V c (ix3 r (0 : Fin 1) q)

/-- The tile product of point t at entry (p, q) is relation t % 3's contribution to entry (2000 (t / 3) + p, q). -/
theorem tile2_eq (c : Dev nD) (t : Fin cfg2.N) (p : Fin 2000) (q : Fin 128) (r : Fin 3) (i : Fin 50000)
    (hr : r.val = t.val % 3) (hi : i.val = t.val / 3 * 2000 + p.val) :
    (∑ k : Fin 128, blkA2 V c t (ix3 (0 : Fin 1) p k)
        * blkW2 V c t (ix3 (0 : Fin 1) k q))
      + blkB2 V c t (ix3 (0 : Fin 1) (0 : Fin 1) q) = T2 V c r i q :=
  congrArg₂ (· + ·)
    (Finset.sum_congr rfl fun k _ => congrArg₂ (· * ·) (iblk2_0_apply V c t p k r i hr hi) (iblk2_1_apply V c t k q r hr))
    (iblk2_2_apply V c t q r hr)

/-! ## The accumulator after a row tile's last point -/

theorem accAt2_restart (c : Dev nD) (n : ℕ) (h : n < cfg2.N) (h0 : n % 3 = 0) :
    accAt2 V c n h = step2 V c ⟨n, h⟩ (k2_pay1 (F := Ideal)) := by
  cases n with
  | zero => rfl
  | succ m => rw [accAt2, if_pos h0]

theorem accAt2_cont (c : Dev nD) (n : ℕ) (h : n + 1 < cfg2.N) (h0 : ¬(n + 1) % 3 = 0) :
    accAt2 V c (n + 1) h = step2 V c ⟨n + 1, h⟩ (accAt2 V c n (Nat.lt_of_succ_lt h)) := by
  rw [accAt2, if_neg h0]

/-- After the relation-2 point of row tile I the accumulator holds three steps from the cleared one. -/
theorem accAt2_three (c : Dev nD) (I : ℕ) (h2 : 3 * I + 2 < cfg2.N) :
    accAt2 V c (3 * I + 2) h2
      = step2 V c ⟨3 * I + 2, h2⟩ (step2 V c ⟨3 * I + 1, by omega⟩ (step2 V c ⟨3 * I, by omega⟩ (k2_pay1 (F := Ideal)))) := by
  have e0 : accAt2 V c (3 * I) (by omega) = step2 V c ⟨3 * I, by omega⟩ (k2_pay1 (F := Ideal)) :=
    accAt2_restart V c (3 * I) (by omega) (by omega)
  have e1 : accAt2 V c (3 * I + 1) (by omega) = step2 V c ⟨3 * I + 1, by omega⟩ (accAt2 V c (3 * I) (by omega)) :=
    accAt2_cont V c (3 * I) (by omega) (by omega)
  have e2 : accAt2 V c (3 * I + 2) h2 = step2 V c ⟨3 * I + 2, h2⟩ (accAt2 V c (3 * I + 1) (by omega)) :=
    accAt2_cont V c (3 * I + 1) h2 (by omega)
  rw [e2, e1, e0]

/-! ## The output array at an entry -/

/-- Entry (i, q) of the region's output array: the leaky rectifier of a third of the three relations' contributions,
    accumulated one after another into zero. -/
theorem G2_entry (c : Dev nD) (i : Fin 50000) (q : Fin 128) :
    G2 V c (ix2 i q) = Cert.Layer.leaky ((((0 + T2 V c 0 i q) + T2 V c 1 i q) + T2 V c 2 i q) * ((1 / 3 : ℝ) : EReal)) := by
  have hN : cfg2.N = 75 := N_2
  have hi := i.isLt
  have h2 : 3 * (i.val / 2000) + 2 < cfg2.N := by omega
  show k2_pay3 (accAt2 V c (3 * (i.val / 2000) + 2) h2) (ix2 (⟨i.val % 2000, Nat.mod_lt _ (by decide)⟩ : Fin 2000) q) = _
  refine (Cert.Layer.pay3_leaky_apply _ _ _).trans (congrArg Cert.Layer.leaky (congrArg (· * ((1 / 3 : ℝ) : EReal)) ?_))
  rw [accAt2_three V c (i.val / 2000) h2]
  refine (Cert.Layer.pay2_steps_apply _ _ _ _ _ _ _ _ _ _ q).trans ?_
  exact congrArg₂ (· + ·) (congrArg₂ (· + ·) (congrArg (0 + ·)
    (tile2_eq V c ⟨3 * (i.val / 2000), by omega⟩ _ q 0 i (by show 0 = (3 * (i.val / 2000)) % 3; omega)
      (by show i.val = 3 * (i.val / 2000) / 3 * 2000 + i.val % 2000; omega)))
    (tile2_eq V c ⟨3 * (i.val / 2000) + 1, by omega⟩ _ q 1 i (by show 1 = (3 * (i.val / 2000) + 1) % 3; omega)
      (by show i.val = (3 * (i.val / 2000) + 1) / 3 * 2000 + i.val % 2000; omega)))
    (tile2_eq V c ⟨3 * (i.val / 2000) + 2, h2⟩ _ q 2 i (by show 2 = (3 * (i.val / 2000) + 2) % 3; omega)
      (by show i.val = (3 * (i.val / 2000) + 2) / 3 * 2000 + i.val % 2000; omega))

end Cert.KernelIdeal.Hand

end
-- ==== Proof.KJoin2.lean ====
/-
  Region 2 against the reference, as arrays: the region's output array, given the arrays the kernel program prepares for
  it, is the reference's layer of the same data.
-/
import proofs.«165758_j22333829939343_1_alg».proof.Proof.KEntry2
import proofs.«165758_j22333829939343_1_alg».proof.Proof.BridgeLayer

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

variable (V : (c : Dev nD) → (b : Ref sig .tc) → Buf (Elt Ideal) ((c : Thread nD τ).loc b))

/-- REGION 2 AGAINST THE REFERENCE'S LAYER: when the region finds the stacked features, the weights and the recast biases
    the kernel program prepares, its output array is the reference's layer of the same features, weights and biases. -/
theorem G2_eq_refLayer [Cert.ReferenceIdeal.Facts₀] (c : Dev nD)
    (a0 a1 a2 : Vec Ideal Cert.ReferenceIdeal.S50000x128 .f32) (W : Vec Ideal Cert.ReferenceIdeal.S3x128x128 .f32)
    (B : Vec Ideal Cert.ReferenceIdeal.S3x128 .f32) (hcast : Cert.ReferenceIdeal.S3x128.ShapeCasts (⟨3, ![3, 1, 128]⟩ : Shape))
    (hA : AGG2 V c = Cert.Bridge.stack3 a0 a1 a2) (hW : WGT2 V c = W)
    (hB : BIA2 V c = shapeCast (⟨3, ![3, 1, 128]⟩ : Shape) B hcast) :
    G2 V c = Cert.Bridge.refLayer a0 a1 a2 W B := by
  funext j
  rw [eq_ix2 j]
  refine (G2_entry V c (j 0) (j 1)).trans ?_
  show Cert.Layer.leaky ((((0 + Cert.Bridge.kernT (AGG2 V c) (WGT2 V c) (BIA2 V c) 0 (j 0) (j 1))
      + Cert.Bridge.kernT (AGG2 V c) (WGT2 V c) (BIA2 V c) 1 (j 0) (j 1))
      + Cert.Bridge.kernT (AGG2 V c) (WGT2 V c) (BIA2 V c) 2 (j 0) (j 1)) * ((1 / 3 : ℝ) : EReal)) = _
  rw [hA, hW, hB]
  exact Cert.Bridge.layer_entry a0 a1 a2 W B hcast (j 0) (j 1)

end Cert.KernelIdeal.Hand

end
-- ==== Proof.BridgeReadK2.lean ====
/-
  What host stretch 2 of the kernel program leaves in two of the arrays region 2 reads, from any contents `V` before it:
  layer 2's weights, cut out of the [4,3,128,128] table, and its biases, cut out of the [4,3,128] table and recast as [3,1,128].
-/
import proofs.«165758_j22333829939343_1_alg».proof.Proof.Gen.KernelIdeal.Launch
import proofs.«165758_j22333829939343_1_alg».proof.Proof.BridgeVocab
import proofs.«165758_j22333829939343_1_alg».proof.Proof.BridgeLayer
import proofs.«165758_j22333829939343_1_alg».proof.Proof.LibHostReads

set_option maxRecDepth 16384

noncomputable section

namespace Cert.Bridge

open Idealize.ShloMosaic Idealize.ShloMosaic.TcCoe Idealize.ShloMosaic.StableHlo
open Cert.KernelIdeal Cert.KernelIdeal.Gen

variable [Cert.ReferenceIdeal.Facts₀]
variable (V : Valuation τ sig (Elt Ideal))

set_option maxHeartbeats 4000000 in
/-- Layer 2's weights: slab 1 of the weight table, recast as [3,128,128]. -/
theorem readK2_wgt : StableHlo.after hostOps2 V (Proc.devRef .tc main_v236)
    = shapeCast S3x128x128 (extractStridedSlice S1x3x128x128 ![1, 0, 0, 0] (V (Proc.devRef .tc main_arg5))
        slices_S4x3x128x128_S1x3x128x128_1_0_0_0) shapeCasts_S1x3x128x128_S3x128x128 := by
  dsimp only [hostOps2]
  host_reads <;> rfl

set_option maxHeartbeats 4000000 in
/-- Layer 2's biases: slab 1 of the bias table as [3,128], recast as [3,1,128]. -/
theorem readK2_bias : StableHlo.after hostOps2 V (Proc.devRef .tc main_v333)
    = shapeCast S3x1x128 (shapeCast S3x128 (extractStridedSlice S1x3x128 ![1, 0, 0] (V (Proc.devRef .tc main_arg6))
        slices_S4x3x128_S1x3x128_1_0_0) shapeCasts_S1x3x128_S3x128) shapeCasts_S3x128_S3x1x128 := by
  dsimp only [hostOps2]
  host_reads <;> rfl

end Cert.Bridge

end
-- ==== Proof.BridgeReadAggK2.lean ====
/-
  What host stretch 2 of the kernel program leaves in the first array region 2 reads, from any contents `V` before
  it: the three relations' degree-normalised aggregates of the previous layer's output, stacked. Each relation's
  aggregate is read through the operations that produce it; the stacking operation is read at its three operands.
-/
import proofs.«165758_j22333829939343_1_alg».proof.Proof.Gen.KernelIdeal.Launch
import proofs.«165758_j22333829939343_1_alg».proof.Proof.BridgeVocab
import proofs.«165758_j22333829939343_1_alg».proof.Proof.BridgeLayer
import proofs.«165758_j22333829939343_1_alg».proof.Proof.LibHostReads

set_option maxRecDepth 16384

noncomputable section

namespace Cert.Bridge

open Idealize.ShloMosaic Idealize.ShloMosaic.TcCoe Idealize.ShloMosaic.StableHlo
open Cert.KernelIdeal Cert.KernelIdeal.Gen

variable [Cert.ReferenceIdeal.Facts₀]
variable (V : Valuation τ sig (Elt Ideal))

set_option maxHeartbeats 8000000 in
/-- The stacked aggregates: per relation r the previous output scaled, gathered along the edges' sources, added at their
    destinations and scaled again, with the degrees read back out of the two stacked degree tables. -/
theorem readK2_agg : StableHlo.after hostOps2 V (Proc.devRef .tc main_v332)
    = stack3 (aggOf (V (Proc.devRef .tc main_v234)) (rowOf (V (Proc.devRef .tc main_arg1)) 0 Cert.ReferenceIdeal.Facts₀.slices_S3x800000_S1x800000_0_0) (rowOf (V (Proc.devRef .tc main_arg2)) 0 Cert.ReferenceIdeal.Facts₀.slices_S3x800000_S1x800000_0_0)
        (kdeg (V (Proc.devRef .tc main_v19)) 0 slices_S3x50000_S1x50000_0_0) (kdeg (V (Proc.devRef .tc main_v38)) 0 slices_S3x50000_S1x50000_0_0))
      (aggOf (V (Proc.devRef .tc main_v234)) (rowOf (V (Proc.devRef .tc main_arg1)) 1 Cert.ReferenceIdeal.Facts₀.slices_S3x800000_S1x800000_1_0) (rowOf (V (Proc.devRef .tc main_arg2)) 1 Cert.ReferenceIdeal.Facts₀.slices_S3x800000_S1x800000_1_0)
        (kdeg (V (Proc.devRef .tc main_v19)) 1 slices_S3x50000_S1x50000_1_0) (kdeg (V (Proc.devRef .tc main_v38)) 1 slices_S3x50000_S1x50000_1_0))
      (aggOf (V (Proc.devRef .tc main_v234)) (rowOf (V (Proc.devRef .tc main_arg1)) 2 Cert.ReferenceIdeal.Facts₀.slices_S3x800000_S1x800000_2_0) (rowOf (V (Proc.devRef .tc main_arg2)) 2 Cert.ReferenceIdeal.Facts₀.slices_S3x800000_S1x800000_2_0)
        (kdeg (V (Proc.devRef .tc main_v19)) 2 slices_S3x50000_S1x50000_2_0) (kdeg (V (Proc.devRef .tc main_v38)) 2 slices_S3x50000_S1x50000_2_0)) := by
  dsimp only [hostOps2]
  host_reads
  refine (nary3_read _ _ _ _
    (broadcastInDim S1x50000x128 ![1, 2] bcast_S50000x128_S1x50000x128_1_2 (aggOf (V (Proc.devRef .tc main_v234)) (rowOf (V (Proc.devRef .tc main_arg1)) 0 Cert.ReferenceIdeal.Facts₀.slices_S3x800000_S1x800000_0_0) (rowOf (V (Proc.devRef .tc main_arg2)) 0 Cert.ReferenceIdeal.Facts₀.slices_S3x800000_S1x800000_0_0)
        (kdeg (V (Proc.devRef .tc main_v19)) 0 slices_S3x50000_S1x50000_0_0) (kdeg (V (Proc.devRef .tc main_v38)) 0 slices_S3x50000_S1x50000_0_0)))
    (broadcastInDim S1x50000x128 ![1, 2] bcast_S50000x128_S1x50000x128_1_2 (aggOf (V (Proc.devRef .tc main_v234)) (rowOf (V (Proc.devRef .tc main_arg1)) 1 Cert.ReferenceIdeal.Facts₀.slices_S3x800000_S1x800000_1_0) (rowOf (V (Proc.devRef .tc main_arg2)) 1 Cert.ReferenceIdeal.Facts₀.slices_S3x800000_S1x800000_1_0)
        (kdeg (V (Proc.devRef .tc main_v19)) 1 slices_S3x50000_S1x50000_1_0) (kdeg (V (Proc.devRef .tc main_v38)) 1 slices_S3x50000_S1x50000_1_0)))
    (broadcastInDim S1x50000x128 ![1, 2] bcast_S50000x128_S1x50000x128_1_2 (aggOf (V (Proc.devRef .tc main_v234)) (rowOf (V (Proc.devRef .tc main_arg1)) 2 Cert.ReferenceIdeal.Facts₀.slices_S3x800000_S1x800000_2_0) (rowOf (V (Proc.devRef .tc main_arg2)) 2 Cert.ReferenceIdeal.Facts₀.slices_S3x800000_S1x800000_2_0)
        (kdeg (V (Proc.devRef .tc main_v19)) 2 slices_S3x50000_S1x50000_2_0) (kdeg (V (Proc.devRef .tc main_v38)) 2 slices_S3x50000_S1x50000_2_0)))
    ?hA ?hB ?hC).trans ?fin
  case hA => host_reads <;> rfl
  case hB => host_reads <;> rfl
  case hC => host_reads <;> rfl
  case fin => rfl

end Cert.Bridge

end
-- ==== Proof.BridgeReadR2.lean ====
/- Layer 2 of the reference, read off its line of host operations as a pure function of the contents it starts from.
   The line is cut into its stretches: a preamble (the vector of ones the degree counts add up, and this layer's weights and biases cut out
   of the stacked arguments), one block of 47 operations per relation (the relation's two index rows, their degree
   counts, the normalised aggregate of the features, the product with the relation's weights plus its bias row), and the tail (the mean of
   the three, then the leaky rectifier). Each stretch is read by itself from arbitrary contents; a buffer a stretch does not write passes
   through it unchanged; the reads are then chained. -/
import proofs.«165758_j22333829939343_1_alg».proof.Proof.RefRunL2
import proofs.«165758_j22333829939343_1_alg».proof.Proof.BridgeLayer
import proofs.«165758_j22333829939343_1_alg».proof.Proof.BridgeVocab
import proofs.«165758_j22333829939343_1_alg».proof.Proof.BridgeParams
import proofs.«165758_j22333829939343_1_alg».proof.Proof.LibKeeps
import Idealize.ShloMosaic.Lib.Pipeline.Frame

noncomputable section

namespace Cert.Bridge

open Idealize.ShloMosaic Idealize.ShloMosaic.TcCoe Idealize.SL.Sem Idealize.ShloMosaic.StableHlo
open Cert.ReferenceIdeal Cert.ReferenceIdeal.Gen Cert.ReferenceIdeal.RefRun

variable {F : FTy → Type} [FloatOps F]

/-- Layer 2, stretch pre (6 operations). -/
def r2_pre : List (HloOp τ sig (Elt F)) :=
  [ StableHlo.unary main_arg5 main_v262 ((extractStridedSlice S1x3x128x128 ![1, 0, 0, 0] · slices_S4x3x128x128_S1x3x128x128_1_0_0_0) : (⟨S4x3x128x128, .f32⟩ : BufTy).Contents (Elt F) → (⟨S1x3x128x128, .f32⟩ : BufTy).Contents (Elt F)),
    StableHlo.reshape main_v262 main_v263 rfl shapeCasts_S1x3x128x128_S3x128x128,
    StableHlo.unary main_arg6 main_v264 ((extractStridedSlice S1x3x128 ![1, 0, 0] · slices_S4x3x128_S1x3x128_1_0_0) : (⟨S4x3x128, .f32⟩ : BufTy).Contents (Elt F) → (⟨S1x3x128, .f32⟩ : BufTy).Contents (Elt F)),
    StableHlo.reshape main_v264 main_v265 rfl shapeCasts_S1x3x128_S3x128,
    StableHlo.nullary main_cst_48 (constant S_ .f32 0x3F800000#32),
    StableHlo.unary main_cst_48 main_v266 (broadcastInDim S800000 ![] bcast_S_S800000 : (⟨S_, .f32⟩ : BufTy).Contents (Elt F) → (⟨S800000, .f32⟩ : BufTy).Contents (Elt F)) ]

/-- Layer 2, stretch rel0 (47 operations). -/
def r2_rel0 : List (HloOp τ sig (Elt F)) :=
  [ StableHlo.unary main_arg1 main_v267 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v267 main_v268 rfl shapeCasts_S1x800000_S800000,
    StableHlo.unary main_arg2 main_v269 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v269 main_v270 rfl shapeCasts_S1x800000_S800000,
    StableHlo.nullary main_cst_49 (constant S_ .f32 0x00000000#32),
    StableHlo.unary main_cst_49 main_v271 (broadcastInDim S50000 ![] bcast_S_S50000 : (⟨S_, .f32⟩ : BufTy).Contents (Elt F) → (⟨S50000, .f32⟩ : BufTy).Contents (Elt F)),
    StableHlo.unary main_v268 main_v272 (broadcastInDim S800000x1 ![0] bcast_S800000_S800000x1_0 : (⟨S800000, .i32⟩ : BufTy).Contents (Elt F) → (⟨S800000x1, .i32⟩ : BufTy).Contents (Elt F)),
    StableHlo.ternary main_v271 main_v272 main_v266 main_v273 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_50 (constant S_ .f32 0x00000000#32),
    StableHlo.unary main_cst_50 main_v274 (broadcastInDim S50000 ![] bcast_S_S50000 : (⟨S_, .f32⟩ : BufTy).Contents (Elt F) → (⟨S50000, .f32⟩ : BufTy).Contents (Elt F)),
    StableHlo.unary main_v270 main_v275 (broadcastInDim S800000x1 ![0] bcast_S800000_S800000x1_0 : (⟨S800000, .i32⟩ : BufTy).Contents (Elt F) → (⟨S800000x1, .i32⟩ : BufTy).Contents (Elt F)),
    StableHlo.ternary main_v274 main_v275 main_v266 main_v276 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_51 (constant S_ .f32 0x3F800000#32),
    StableHlo.unary main_cst_51 main_v277 (broadcastInDim S50000 ![] bcast_S_S50000 : (⟨S_, .f32⟩ : BufTy).Contents (Elt F) → (⟨S50000, .f32⟩ : BufTy).Contents (Elt F)),
    StableHlo.binary main_v273 main_v277 main_v278 (maximumf : (⟨S50000, .f32⟩ : BufTy).Contents (Elt F) → (⟨S50000, .f32⟩ : BufTy).Contents (Elt F) → (⟨S50000, .f32⟩ : BufTy).Contents (Elt F)),
    StableHlo.unary main_v278 main_v279 (Host.rsqrt : (⟨S50000, .f32⟩ : BufTy).Contents (Elt F) → (⟨S50000, .f32⟩ : BufTy).Contents (Elt F)),
    StableHlo.unary main_v279 main_v280 (broadcastInDim S50000x1 ![0] bcast_S50000_S50000x1_0 : (⟨S50000, .f32⟩ : BufTy).Contents (Elt F) → (⟨S50000x1, .f32⟩ : BufTy).Contents (Elt F)),
    StableHlo.unary main_v280 main_v281 (broadcastInDim S50000x128 ![0, 1] bcast_S50000x1_S50000x128_0_1 : (⟨S50000x1, .f32⟩ : BufTy).Contents (Elt F) → (⟨S50000x128, .f32⟩ : BufTy).Contents (Elt F)),
    StableHlo.binary main_v261 main_v281 main_v282 (mulf : (⟨S50000x128, .f32⟩ : BufTy).Contents (Elt F) → (⟨S50000x128, .f32⟩ : BufTy).Contents (Elt F) → (⟨S50000x128, .f32⟩ : BufTy).Contents (Elt F)),
    StableHlo.nullary main_c_52 (constantI S_ 32 0#32),
    StableHlo.unary main_c_52 main_v283 (broadcastInDim S800000 ![] bcast_S_S800000 : (⟨S_, .i32⟩ : BufTy).Contents (Elt F) → (⟨S800000, .i32⟩ : BufTy).Contents (Elt F)),
    StableHlo.binary main_v268 main_v283 main_v284 (cmpi .slt : (⟨S800000, .i32⟩ : BufTy).Contents (Elt F) → (⟨S800000, .i32⟩ : BufTy).Contents (Elt F) → (⟨S800000, .i1⟩ : BufTy).Contents (Elt F)),
    StableHlo.nullary main_c_53 (constantI S_ 32 50000#32),
    StableHlo.unary main_c_53 main_v285 (broadcastInDim S800000 ![] bcast_S_S800000 : (⟨S_, .i32⟩ : BufTy).Contents (Elt F) → (⟨S800000, .i32⟩ : BufTy).Contents (Elt F)),
    StableHlo.binary main_v268 main_v285 main_v286 (addi : (⟨S800000, .i32⟩ : BufTy).Contents (Elt F) → (⟨S800000, .i32⟩ : BufTy).Contents (Elt F) → (⟨S800000, .i32⟩ : BufTy).Contents (Elt F)),
    StableHlo.ternary main_v284 main_v286 main_v268 main_v287 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v287 main_v288 (broadcastInDim S800000x1 ![0] bcast_S800000_S800000x1_0 : (⟨S800000, .i32⟩ : BufTy).Contents (Elt F) → (⟨S800000x1, .i32⟩ : BufTy).Contents (Elt F)),
    StableHlo.binary main_v282 main_v288 main_v289 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_54 (constant S_ .f32 0x00000000#32),
    StableHlo.unary main_cst_54 main_v290 (broadcastInDim S50000x128 ![] bcast_S_S50000x128 : (⟨S_, .f32⟩ : BufTy).Contents (Elt F) → (⟨S50000x128, .f32⟩ : BufTy).Contents (Elt F)),
    StableHlo.unary main_v270 main_v291 (broadcastInDim S800000x1 ![0] bcast_S800000_S800000x1_0 : (⟨S800000, .i32⟩ : BufTy).Contents (Elt F) → (⟨S800000x1, .i32⟩ : BufTy).Contents (Elt F)),
    StableHlo.ternary main_v290 main_v291 main_v289 main_v292 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_55 (constant S_ .f32 0x3F800000#32),
    StableHlo.unary main_cst_55 main_v293 (broadcastInDim S50000 ![] bcast_S_S50000 : (⟨S_, .f32⟩ : BufTy).Contents (Elt F) → (⟨S50000, .f32⟩ : BufTy).Contents (Elt F)),
    StableHlo.binary main_v276 main_v293 main_v294 (maximumf : (⟨S50000, .f32⟩ : BufTy).Contents (Elt F) → (⟨S50000, .f32⟩ : BufTy).Contents (Elt F) → (⟨S50000, .f32⟩ : BufTy).Contents (Elt F)),
    StableHlo.unary main_v294 main_v295 (Host.rsqrt : (⟨S50000, .f32⟩ : BufTy).Contents (Elt F) → (⟨S50000, .f32⟩ : BufTy).Contents (Elt F)),
    StableHlo.unary main_v295 main_v296 (broadcastInDim S50000x1 ![0] bcast_S50000_S50000x1_0 : (⟨S50000, .f32⟩ : BufTy).Contents (Elt F) → (⟨S50000x1, .f32⟩ : BufTy).Contents (Elt F)),
    StableHlo.unary main_v296 main_v297 (broadcastInDim S50000x128 ![0, 1] bcast_S50000x1_S50000x128_0_1 : (⟨S50000x1, .f32⟩ : BufTy).Contents (Elt F) → (⟨S50000x128, .f32⟩ : BufTy).Contents (Elt F)),
    StableHlo.binary main_v292 main_v297 main_v298 (mulf : (⟨S50000x128, .f32⟩ : BufTy).Contents (Elt F) → (⟨S50000x128, .f32⟩ : BufTy).Contents (Elt F) → (⟨S50000x128, .f32⟩ : BufTy).Contents (Elt F)),
    StableHlo.unary main_v263 main_v299 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v299 main_v300 rfl shapeCasts_S1x128x128_S128x128,
    StableHlo.binary main_v298 main_v300 main_v301 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v265 main_v302 ((extractStridedSlice S1x128 ![0, 0] · slices_S3x128_S1x128_0_0) : (⟨S3x128, .f32⟩ : BufTy).Contents (Elt F) → (⟨S1x128, .f32⟩ : BufTy).Contents (Elt F)),
    StableHlo.reshape main_v302 main_v303 rfl shapeCasts_S1x128_S128,
    StableHlo.unary main_v303 main_v304 (broadcastInDim S1x128 ![1] bcast_S128_S1x128_1 : (⟨S128, .f32⟩ : BufTy).Contents (Elt F) → (⟨S1x128, .f32⟩ : BufTy).Contents (Elt F)),
    StableHlo.unary main_v304 main_v305 (broadcastInDim S50000x128 ![0, 1] bcast_S1x128_S50000x128_0_1 : (⟨S1x128, .f32⟩ : BufTy).Contents (Elt F) → (⟨S50000x128, .f32⟩ : BufTy).Contents (Elt F)),
    StableHlo.binary main_v301 main_v305 main_v306 (addf : (⟨S50000x128, .f32⟩ : BufTy).Contents (Elt F) → (⟨S50000x128, .f32⟩ : BufTy).Contents (Elt F) → (⟨S50000x128, .f32⟩ : BufTy).Contents (Elt F)) ]

/-- Layer 2, stretch rel1 (47 operations). -/
def r2_rel1 : List (HloOp τ sig (Elt F)) :=
  [ StableHlo.unary main_arg1 main_v307 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v307 main_v308 rfl shapeCasts_S1x800000_S800000,
    StableHlo.unary main_arg2 main_v309 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v309 main_v310 rfl shapeCasts_S1x800000_S800000,
    StableHlo.nullary main_cst_56 (constant S_ .f32 0x00000000#32),
    StableHlo.unary main_cst_56 main_v311 (broadcastInDim S50000 ![] bcast_S_S50000 : (⟨S_, .f32⟩ : BufTy).Contents (Elt F) → (⟨S50000, .f32⟩ : BufTy).Contents (Elt F)),
    StableHlo.unary main_v308 main_v312 (broadcastInDim S800000x1 ![0] bcast_S800000_S800000x1_0 : (⟨S800000, .i32⟩ : BufTy).Contents (Elt F) → (⟨S800000x1, .i32⟩ : BufTy).Contents (Elt F)),
    StableHlo.ternary main_v311 main_v312 main_v266 main_v313 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_57 (constant S_ .f32 0x00000000#32),
    StableHlo.unary main_cst_57 main_v314 (broadcastInDim S50000 ![] bcast_S_S50000 : (⟨S_, .f32⟩ : BufTy).Contents (Elt F) → (⟨S50000, .f32⟩ : BufTy).Contents (Elt F)),
    StableHlo.unary main_v310 main_v315 (broadcastInDim S800000x1 ![0] bcast_S800000_S800000x1_0 : (⟨S800000, .i32⟩ : BufTy).Contents (Elt F) → (⟨S800000x1, .i32⟩ : BufTy).Contents (Elt F)),
    StableHlo.ternary main_v314 main_v315 main_v266 main_v316 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_58 (constant S_ .f32 0x3F800000#32),
    StableHlo.unary main_cst_58 main_v317 (broadcastInDim S50000 ![] bcast_S_S50000 : (⟨S_, .f32⟩ : BufTy).Contents (Elt F) → (⟨S50000, .f32⟩ : BufTy).Contents (Elt F)),
    StableHlo.binary main_v313 main_v317 main_v318 (maximumf : (⟨S50000, .f32⟩ : BufTy).Contents (Elt F) → (⟨S50000, .f32⟩ : BufTy).Contents (Elt F) → (⟨S50000, .f32⟩ : BufTy).Contents (Elt F)),
    StableHlo.unary main_v318 main_v319 (Host.rsqrt : (⟨S50000, .f32⟩ : BufTy).Contents (Elt F) → (⟨S50000, .f32⟩ : BufTy).Contents (Elt F)),
    StableHlo.unary main_v319 main_v320 (broadcastInDim S50000x1 ![0] bcast_S50000_S50000x1_0 : (⟨S50000, .f32⟩ : BufTy).Contents (Elt F) → (⟨S50000x1, .f32⟩ : BufTy).Contents (Elt F)),
    StableHlo.unary main_v320 main_v321 (broadcastInDim S50000x128 ![0, 1] bcast_S50000x1_S50000x128_0_1 : (⟨S50000x1, .f32⟩ : BufTy).Contents (Elt F) → (⟨S50000x128, .f32⟩ : BufTy).Contents (Elt F)),
    StableHlo.binary main_v261 main_v321 main_v322 (mulf : (⟨S50000x128, .f32⟩ : BufTy).Contents (Elt F) → (⟨S50000x128, .f32⟩ : BufTy).Contents (Elt F) → (⟨S50000x128, .f32⟩ : BufTy).Contents (Elt F)),
    StableHlo.nullary main_c_59 (constantI S_ 32 0#32),
    StableHlo.unary main_c_59 main_v323 (broadcastInDim S800000 ![] bcast_S_S800000 : (⟨S_, .i32⟩ : BufTy).Contents (Elt F) → (⟨S800000, .i32⟩ : BufTy).Contents (Elt F)),
    StableHlo.binary main_v308 main_v323 main_v324 (cmpi .slt : (⟨S800000, .i32⟩ : BufTy).Contents (Elt F) → (⟨S800000, .i32⟩ : BufTy).Contents (Elt F) → (⟨S800000, .i1⟩ : BufTy).Contents (Elt F)),
    StableHlo.nullary main_c_60 (constantI S_ 32 50000#32),
    StableHlo.unary main_c_60 main_v325 (broadcastInDim S800000 ![] bcast_S_S800000 : (⟨S_, .i32⟩ : BufTy).Contents (Elt F) → (⟨S800000, .i32⟩ : BufTy).Contents (Elt F)),
    StableHlo.binary main_v308 main_v325 main_v326 (addi : (⟨S800000, .i32⟩ : BufTy).Contents (Elt F) → (⟨S800000, .i32⟩ : BufTy).Contents (Elt F) → (⟨S800000, .i32⟩ : BufTy).Contents (Elt F)),
    StableHlo.ternary main_v324 main_v326 main_v308 main_v327 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v327 main_v328 (broadcastInDim S800000x1 ![0] bcast_S800000_S800000x1_0 : (⟨S800000, .i32⟩ : BufTy).Contents (Elt F) → (⟨S800000x1, .i32⟩ : BufTy).Contents (Elt F)),
    StableHlo.binary main_v322 main_v328 main_v329 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_61 (constant S_ .f32 0x00000000#32),
    StableHlo.unary main_cst_61 main_v330 (broadcastInDim S50000x128 ![] bcast_S_S50000x128 : (⟨S_, .f32⟩ : BufTy).Contents (Elt F) → (⟨S50000x128, .f32⟩ : BufTy).Contents (Elt F)),
    StableHlo.unary main_v310 main_v331 (broadcastInDim S800000x1 ![0] bcast_S800000_S800000x1_0 : (⟨S800000, .i32⟩ : BufTy).Contents (Elt F) → (⟨S800000x1, .i32⟩ : BufTy).Contents (Elt F)),
    StableHlo.ternary main_v330 main_v331 main_v329 main_v332 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_62 (constant S_ .f32 0x3F800000#32),
    StableHlo.unary main_cst_62 main_v333 (broadcastInDim S50000 ![] bcast_S_S50000 : (⟨S_, .f32⟩ : BufTy).Contents (Elt F) → (⟨S50000, .f32⟩ : BufTy).Contents (Elt F)),
    StableHlo.binary main_v316 main_v333 main_v334 (maximumf : (⟨S50000, .f32⟩ : BufTy).Contents (Elt F) → (⟨S50000, .f32⟩ : BufTy).Contents (Elt F) → (⟨S50000, .f32⟩ : BufTy).Contents (Elt F)),
    StableHlo.unary main_v334 main_v335 (Host.rsqrt : (⟨S50000, .f32⟩ : BufTy).Contents (Elt F) → (⟨S50000, .f32⟩ : BufTy).Contents (Elt F)),
    StableHlo.unary main_v335 main_v336 (broadcastInDim S50000x1 ![0] bcast_S50000_S50000x1_0 : (⟨S50000, .f32⟩ : BufTy).Contents (Elt F) → (⟨S50000x1, .f32⟩ : BufTy).Contents (Elt F)),
    StableHlo.unary main_v336 main_v337 (broadcastInDim S50000x128 ![0, 1] bcast_S50000x1_S50000x128_0_1 : (⟨S50000x1, .f32⟩ : BufTy).Contents (Elt F) → (⟨S50000x128, .f32⟩ : BufTy).Contents (Elt F)),
    StableHlo.binary main_v332 main_v337 main_v338 (mulf : (⟨S50000x128, .f32⟩ : BufTy).Contents (Elt F) → (⟨S50000x128, .f32⟩ : BufTy).Contents (Elt F) → (⟨S50000x128, .f32⟩ : BufTy).Contents (Elt F)),
    StableHlo.unary main_v263 main_v339 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v339 main_v340 rfl shapeCasts_S1x128x128_S128x128,
    StableHlo.binary main_v338 main_v340 main_v341 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v265 main_v342 ((extractStridedSlice S1x128 ![1, 0] · slices_S3x128_S1x128_1_0) : (⟨S3x128, .f32⟩ : BufTy).Contents (Elt F) → (⟨S1x128, .f32⟩ : BufTy).Contents (Elt F)),
    StableHlo.reshape main_v342 main_v343 rfl shapeCasts_S1x128_S128,
    StableHlo.unary main_v343 main_v344 (broadcastInDim S1x128 ![1] bcast_S128_S1x128_1 : (⟨S128, .f32⟩ : BufTy).Contents (Elt F) → (⟨S1x128, .f32⟩ : BufTy).Contents (Elt F)),
    StableHlo.unary main_v344 main_v345 (broadcastInDim S50000x128 ![0, 1] bcast_S1x128_S50000x128_0_1 : (⟨S1x128, .f32⟩ : BufTy).Contents (Elt F) → (⟨S50000x128, .f32⟩ : BufTy).Contents (Elt F)),
    StableHlo.binary main_v341 main_v345 main_v346 (addf : (⟨S50000x128, .f32⟩ : BufTy).Contents (Elt F) → (⟨S50000x128, .f32⟩ : BufTy).Contents (Elt F) → (⟨S50000x128, .f32⟩ : BufTy).Contents (Elt F)) ]

/-- Layer 2, stretch rel2 (47 operations). -/
def r2_rel2 : List (HloOp τ sig (Elt F)) :=
  [ StableHlo.unary main_arg1 main_v347 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v347 main_v348 rfl shapeCasts_S1x800000_S800000,
    StableHlo.unary main_arg2 main_v349 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v349 main_v350 rfl shapeCasts_S1x800000_S800000,
    StableHlo.nullary main_cst_63 (constant S_ .f32 0x00000000#32),
    StableHlo.unary main_cst_63 main_v351 (broadcastInDim S50000 ![] bcast_S_S50000 : (⟨S_, .f32⟩ : BufTy).Contents (Elt F) → (⟨S50000, .f32⟩ : BufTy).Contents (Elt F)),
    StableHlo.unary main_v348 main_v352 (broadcastInDim S800000x1 ![0] bcast_S800000_S800000x1_0 : (⟨S800000, .i32⟩ : BufTy).Contents (Elt F) → (⟨S800000x1, .i32⟩ : BufTy).Contents (Elt F)),
    StableHlo.ternary main_v351 main_v352 main_v266 main_v353 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_64 (constant S_ .f32 0x00000000#32),
    StableHlo.unary main_cst_64 main_v354 (broadcastInDim S50000 ![] bcast_S_S50000 : (⟨S_, .f32⟩ : BufTy).Contents (Elt F) → (⟨S50000, .f32⟩ : BufTy).Contents (Elt F)),
    StableHlo.unary main_v350 main_v355 (broadcastInDim S800000x1 ![0] bcast_S800000_S800000x1_0 : (⟨S800000, .i32⟩ : BufTy).Contents (Elt F) → (⟨S800000x1, .i32⟩ : BufTy).Contents (Elt F)),
    StableHlo.ternary main_v354 main_v355 main_v266 main_v356 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_65 (constant S_ .f32 0x3F800000#32),
    StableHlo.unary main_cst_65 main_v357 (broadcastInDim S50000 ![] bcast_S_S50000 : (⟨S_, .f32⟩ : BufTy).Contents (Elt F) → (⟨S50000, .f32⟩ : BufTy).Contents (Elt F)),
    StableHlo.binary main_v353 main_v357 main_v358 (maximumf : (⟨S50000, .f32⟩ : BufTy).Contents (Elt F) → (⟨S50000, .f32⟩ : BufTy).Contents (Elt F) → (⟨S50000, .f32⟩ : BufTy).Contents (Elt F)),
    StableHlo.unary main_v358 main_v359 (Host.rsqrt : (⟨S50000, .f32⟩ : BufTy).Contents (Elt F) → (⟨S50000, .f32⟩ : BufTy).Contents (Elt F)),
    StableHlo.unary main_v359 main_v360 (broadcastInDim S50000x1 ![0] bcast_S50000_S50000x1_0 : (⟨S50000, .f32⟩ : BufTy).Contents (Elt F) → (⟨S50000x1, .f32⟩ : BufTy).Contents (Elt F)),
    StableHlo.unary main_v360 main_v361 (broadcastInDim S50000x128 ![0, 1] bcast_S50000x1_S50000x128_0_1 : (⟨S50000x1, .f32⟩ : BufTy).Contents (Elt F) → (⟨S50000x128, .f32⟩ : BufTy).Contents (Elt F)),
    StableHlo.binary main_v261 main_v361 main_v362 (mulf : (⟨S50000x128, .f32⟩ : BufTy).Contents (Elt F) → (⟨S50000x128, .f32⟩ : BufTy).Contents (Elt F) → (⟨S50000x128, .f32⟩ : BufTy).Contents (Elt F)),
    StableHlo.nullary main_c_66 (constantI S_ 32 0#32),
    StableHlo.unary main_c_66 main_v363 (broadcastInDim S800000 ![] bcast_S_S800000 : (⟨S_, .i32⟩ : BufTy).Contents (Elt F) → (⟨S800000, .i32⟩ : BufTy).Contents (Elt F)),
    StableHlo.binary main_v348 main_v363 main_v364 (cmpi .slt : (⟨S800000, .i32⟩ : BufTy).Contents (Elt F) → (⟨S800000, .i32⟩ : BufTy).Contents (Elt F) → (⟨S800000, .i1⟩ : BufTy).Contents (Elt F)),
    StableHlo.nullary main_c_67 (constantI S_ 32 50000#32),
    StableHlo.unary main_c_67 main_v365 (broadcastInDim S800000 ![] bcast_S_S800000 : (⟨S_, .i32⟩ : BufTy).Contents (Elt F) → (⟨S800000, .i32⟩ : BufTy).Contents (Elt F)),
    StableHlo.binary main_v348 main_v365 main_v366 (addi : (⟨S800000, .i32⟩ : BufTy).Contents (Elt F) → (⟨S800000, .i32⟩ : BufTy).Contents (Elt F) → (⟨S800000, .i32⟩ : BufTy).Contents (Elt F)),
    StableHlo.ternary main_v364 main_v366 main_v348 main_v367 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v367 main_v368 (broadcastInDim S800000x1 ![0] bcast_S800000_S800000x1_0 : (⟨S800000, .i32⟩ : BufTy).Contents (Elt F) → (⟨S800000x1, .i32⟩ : BufTy).Contents (Elt F)),
    StableHlo.binary main_v362 main_v368 main_v369 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_68 (constant S_ .f32 0x00000000#32),
    StableHlo.unary main_cst_68 main_v370 (broadcastInDim S50000x128 ![] bcast_S_S50000x128 : (⟨S_, .f32⟩ : BufTy).Contents (Elt F) → (⟨S50000x128, .f32⟩ : BufTy).Contents (Elt F)),
    StableHlo.unary main_v350 main_v371 (broadcastInDim S800000x1 ![0] bcast_S800000_S800000x1_0 : (⟨S800000, .i32⟩ : BufTy).Contents (Elt F) → (⟨S800000x1, .i32⟩ : BufTy).Contents (Elt F)),
    StableHlo.ternary main_v370 main_v371 main_v369 main_v372 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_69 (constant S_ .f32 0x3F800000#32),
    StableHlo.unary main_cst_69 main_v373 (broadcastInDim S50000 ![] bcast_S_S50000 : (⟨S_, .f32⟩ : BufTy).Contents (Elt F) → (⟨S50000, .f32⟩ : BufTy).Contents (Elt F)),
    StableHlo.binary main_v356 main_v373 main_v374 (maximumf : (⟨S50000, .f32⟩ : BufTy).Contents (Elt F) → (⟨S50000, .f32⟩ : BufTy).Contents (Elt F) → (⟨S50000, .f32⟩ : BufTy).Contents (Elt F)),
    StableHlo.unary main_v374 main_v375 (Host.rsqrt : (⟨S50000, .f32⟩ : BufTy).Contents (Elt F) → (⟨S50000, .f32⟩ : BufTy).Contents (Elt F)),
    StableHlo.unary main_v375 main_v376 (broadcastInDim S50000x1 ![0] bcast_S50000_S50000x1_0 : (⟨S50000, .f32⟩ : BufTy).Contents (Elt F) → (⟨S50000x1, .f32⟩ : BufTy).Contents (Elt F)),
    StableHlo.unary main_v376 main_v377 (broadcastInDim S50000x128 ![0, 1] bcast_S50000x1_S50000x128_0_1 : (⟨S50000x1, .f32⟩ : BufTy).Contents (Elt F) → (⟨S50000x128, .f32⟩ : BufTy).Contents (Elt F)),
    StableHlo.binary main_v372 main_v377 main_v378 (mulf : (⟨S50000x128, .f32⟩ : BufTy).Contents (Elt F) → (⟨S50000x128, .f32⟩ : BufTy).Contents (Elt F) → (⟨S50000x128, .f32⟩ : BufTy).Contents (Elt F)),
    StableHlo.unary main_v263 main_v379 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v379 main_v380 rfl shapeCasts_S1x128x128_S128x128,
    StableHlo.binary main_v378 main_v380 main_v381 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v265 main_v382 ((extractStridedSlice S1x128 ![2, 0] · slices_S3x128_S1x128_2_0) : (⟨S3x128, .f32⟩ : BufTy).Contents (Elt F) → (⟨S1x128, .f32⟩ : BufTy).Contents (Elt F)),
    StableHlo.reshape main_v382 main_v383 rfl shapeCasts_S1x128_S128,
    StableHlo.unary main_v383 main_v384 (broadcastInDim S1x128 ![1] bcast_S128_S1x128_1 : (⟨S128, .f32⟩ : BufTy).Contents (Elt F) → (⟨S1x128, .f32⟩ : BufTy).Contents (Elt F)),
    StableHlo.unary main_v384 main_v385 (broadcastInDim S50000x128 ![0, 1] bcast_S1x128_S50000x128_0_1 : (⟨S1x128, .f32⟩ : BufTy).Contents (Elt F) → (⟨S50000x128, .f32⟩ : BufTy).Contents (Elt F)),
    StableHlo.binary main_v381 main_v385 main_v386 (addf : (⟨S50000x128, .f32⟩ : BufTy).Contents (Elt F) → (⟨S50000x128, .f32⟩ : BufTy).Contents (Elt F) → (⟨S50000x128, .f32⟩ : BufTy).Contents (Elt F)) ]

/-- Layer 2, stretch tail (17 operations). -/
def r2_tail : List (HloOp τ sig (Elt F)) :=
  [ StableHlo.unary main_v306 main_v387 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v346 main_v388 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v386 main_v389 (broadcastInDim S1x50000x128 ![1, 2] bcast_S50000x128_S1x50000x128_1_2 : (⟨S50000x128, .f32⟩ : BufTy).Contents (Elt F) → (⟨S1x50000x128, .f32⟩ : BufTy).Contents (Elt F)),
    StableHlo.nary ![main_v387, main_v388, main_v389] main_v390 (fun u => concatenate S3x50000x128 0 [⟨S1x50000x128, u 0⟩, ⟨S1x50000x128, u 1⟩, ⟨S1x50000x128, u 2⟩] concatenates_S1x50000x128_S1x50000x128_S1x50000x128_S3x50000x128_d0),
    StableHlo.nullary main_cst_70 (constant S_ .f32 0x00000000#32),
    StableHlo.binary main_v390 main_cst_70 main_v391 ((fun x v => Host.reduceAdd x v reducesTo_S3x50000x128_S50000x128_d0 h_S_) : (⟨S3x50000x128, .f32⟩ : BufTy).Contents (Elt F) → (⟨S_, .f32⟩ : BufTy).Contents (Elt F) → (⟨S50000x128, .f32⟩ : BufTy).Contents (Elt F)),
    StableHlo.nullary main_cst_71 (constant S_ .f32 0x40400000#32),
    StableHlo.unary main_cst_71 main_v392 (broadcastInDim S50000x128 ![] bcast_S_S50000x128 : (⟨S_, .f32⟩ : BufTy).Contents (Elt F) → (⟨S50000x128, .f32⟩ : BufTy).Contents (Elt F)),
    StableHlo.binary main_v391 main_v392 main_v393 (Host.divf : (⟨S50000x128, .f32⟩ : BufTy).Contents (Elt F) → (⟨S50000x128, .f32⟩ : BufTy).Contents (Elt F) → (⟨S50000x128, .f32⟩ : BufTy).Contents (Elt F)),
    StableHlo.nullary main_cst_72 (constant S_ .f32 0x3C23D70A#32),
    TRef.nullary main_call2.cst (constant S_ .f32 0x00000000#32),
    TRef.unary main_call2.cst main_call2.v0 (broadcastInDim S50000x128 ![] bcast_S_S50000x128),
    TRef.binary (.of main_v393) main_call2.v0 main_call2.v1 (cmpf .oge),
    TRef.unary (.of main_cst_72) main_call2.v2 id,
    TRef.unary main_call2.v2 main_call2.v3 (broadcastInDim S50000x128 ![] bcast_S_S50000x128),
    TRef.binary main_call2.v3 (.of main_v393) main_call2.v4 mulf,
    TRef.ternary main_call2.v1 (.of main_v393) main_call2.v4 main_call2.call0.v0 select ]

theorem r2_split : (opsL2 : List (HloOp τ sig (Elt F))) = r2_pre ++ (r2_rel0 ++ (r2_rel1 ++ (r2_rel2 ++ r2_tail))) := rfl

def r2_pre_W : List (Ref sig .tc) :=
  [main_v262, main_v263, main_v264, main_v265, main_cst_48, main_v266]

theorem r2_pre_writes : (r2_pre : List (HloOp τ sig (Elt F))).Forall fun op => op.writes ⊆ (r2_pre_W.map (Proc.devRef (τ := τ) .tc)).toFinset := by
  host_writes r2_pre

theorem r2_pre_keeps (W : Valuation τ sig (Elt F)) {x : Ref sig .tc} (hx : x ∉ r2_pre_W) :
    after r2_pre W (Proc.devRef .tc x) = W (Proc.devRef .tc x) :=
  after_of_writes_sub r2_pre W r2_pre_writes hx

def r2_rel0_W : List (Ref sig .tc) :=
  [main_v267, main_v268, main_v269, main_v270, main_cst_49, main_v271, main_v272, main_v273, main_cst_50, main_v274, main_v275, main_v276, main_cst_51, main_v277, main_v278, main_v279, main_v280, main_v281, main_v282, main_c_52, main_v283, main_v284, main_c_53, main_v285, main_v286, main_v287, main_v288, main_v289, main_cst_54, main_v290, main_v291, main_v292, main_cst_55, main_v293, main_v294, main_v295, main_v296, main_v297, main_v298, main_v299, main_v300, main_v301, main_v302, main_v303, main_v304, main_v305, main_v306]

theorem r2_rel0_writes : (r2_rel0 : List (HloOp τ sig (Elt F))).Forall fun op => op.writes ⊆ (r2_rel0_W.map (Proc.devRef (τ := τ) .tc)).toFinset := by
  host_writes r2_rel0

theorem r2_rel0_keeps (W : Valuation τ sig (Elt F)) {x : Ref sig .tc} (hx : x ∉ r2_rel0_W) :
    after r2_rel0 W (Proc.devRef .tc x) = W (Proc.devRef .tc x) :=
  after_of_writes_sub r2_rel0 W r2_rel0_writes hx

def r2_rel1_W : List (Ref sig .tc) :=
  [main_v307, main_v308, main_v309, main_v310, main_cst_56, main_v311, main_v312, main_v313, main_cst_57, main_v314, main_v315, main_v316, main_cst_58, main_v317, main_v318, main_v319, main_v320, main_v321, main_v322, main_c_59, main_v323, main_v324, main_c_60, main_v325, main_v326, main_v327, main_v328, main_v329, main_cst_61, main_v330, main_v331, main_v332, main_cst_62, main_v333, main_v334, main_v335, main_v336, main_v337, main_v338, main_v339, main_v340, main_v341, main_v342, main_v343, main_v344, main_v345, main_v346]

theorem r2_rel1_writes : (r2_rel1 : List (HloOp τ sig (Elt F))).Forall fun op => op.writes ⊆ (r2_rel1_W.map (Proc.devRef (τ := τ) .tc)).toFinset := by
  host_writes r2_rel1

theorem r2_rel1_keeps (W : Valuation τ sig (Elt F)) {x : Ref sig .tc} (hx : x ∉ r2_rel1_W) :
    after r2_rel1 W (Proc.devRef .tc x) = W (Proc.devRef .tc x) :=
  after_of_writes_sub r2_rel1 W r2_rel1_writes hx

def r2_rel2_W : List (Ref sig .tc) :=
  [main_v347, main_v348, main_v349, main_v350, main_cst_63, main_v351, main_v352, main_v353, main_cst_64, main_v354, main_v355, main_v356, main_cst_65, main_v357, main_v358, main_v359, main_v360, main_v361, main_v362, main_c_66, main_v363, main_v364, main_c_67, main_v365, main_v366, main_v367, main_v368, main_v369, main_cst_68, main_v370, main_v371, main_v372, main_cst_69, main_v373, main_v374, main_v375, main_v376, main_v377, main_v378, main_v379, main_v380, main_v381, main_v382, main_v383, main_v384, main_v385, main_v386]

theorem r2_rel2_writes : (r2_rel2 : List (HloOp τ sig (Elt F))).Forall fun op => op.writes ⊆ (r2_rel2_W.map (Proc.devRef (τ := τ) .tc)).toFinset := by
  host_writes r2_rel2

theorem r2_rel2_keeps (W : Valuation τ sig (Elt F)) {x : Ref sig .tc} (hx : x ∉ r2_rel2_W) :
    after r2_rel2 W (Proc.devRef .tc x) = W (Proc.devRef .tc x) :=
  after_of_writes_sub r2_rel2 W r2_rel2_writes hx

/-- The preamble leaves the vector of ones. -/
theorem r2_pre_ones (W : Valuation τ sig (Elt Ideal)) : after r2_pre W (Proc.devRef .tc main_v266) = edgeOnes := by
  unfold r2_pre
  after_results_simp
  rfl

/-- The preamble leaves this layer's weights. -/
theorem r2_pre_wgt (W : Valuation τ sig (Elt Ideal)) : after r2_pre W (Proc.devRef .tc main_v263) = (layerW (W (Proc.devRef .tc main_arg5)) 1 slices_S4x3x128x128_S1x3x128x128_1_0_0_0) := by
  unfold r2_pre
  after_results_simp
  rfl

/-- The preamble leaves this layer's biases. -/
theorem r2_pre_bia (W : Valuation τ sig (Elt Ideal)) : after r2_pre W (Proc.devRef .tc main_v265) = (layerB (W (Proc.devRef .tc main_arg6)) 1 slices_S4x3x128_S1x3x128_1_0_0) := by
  unfold r2_pre
  after_results_simp
  rfl

set_option maxHeartbeats 4000000 in
/-- Relation 0's block, from contents whose ones buffer holds the ones: its result is the relation's dense term of the aggregate. -/
theorem r2_rel0_read (W : Valuation τ sig (Elt Ideal)) (h1 : W (Proc.devRef .tc main_v266) = edgeOnes) :
    after r2_rel0 W (Proc.devRef .tc main_v306) =
      refDense (aggOf (W (Proc.devRef .tc main_v261)) (rowOf (W (Proc.devRef .tc main_arg1)) 0 slices_S3x800000_S1x800000_0_0) (rowOf (W (Proc.devRef .tc main_arg2)) 0 slices_S3x800000_S1x800000_0_0)
          (degOf (rowOf (W (Proc.devRef .tc main_arg1)) 0 slices_S3x800000_S1x800000_0_0)) (degOf (rowOf (W (Proc.devRef .tc main_arg2)) 0 slices_S3x800000_S1x800000_0_0)))
        (W (Proc.devRef .tc main_v263)) (W (Proc.devRef .tc main_v265)) 0 slices_S3x128x128_S1x128x128_0_0_0 slices_S3x128_S1x128_0_0 := by
  unfold r2_rel0
  after_results_simp
  rw [h1]
  rfl

set_option maxHeartbeats 4000000 in
/-- Relation 1's block, from contents whose ones buffer holds the ones: its result is the relation's dense term of the aggregate. -/
theorem r2_rel1_read (W : Valuation τ sig (Elt Ideal)) (h1 : W (Proc.devRef .tc main_v266) = edgeOnes) :
    after r2_rel1 W (Proc.devRef .tc main_v346) =
      refDense (aggOf (W (Proc.devRef .tc main_v261)) (rowOf (W (Proc.devRef .tc main_arg1)) 1 slices_S3x800000_S1x800000_1_0) (rowOf (W (Proc.devRef .tc main_arg2)) 1 slices_S3x800000_S1x800000_1_0)
          (degOf (rowOf (W (Proc.devRef .tc main_arg1)) 1 slices_S3x800000_S1x800000_1_0)) (degOf (rowOf (W (Proc.devRef .tc main_arg2)) 1 slices_S3x800000_S1x800000_1_0)))
        (W (Proc.devRef .tc main_v263)) (W (Proc.devRef .tc main_v265)) 1 slices_S3x128x128_S1x128x128_1_0_0 slices_S3x128_S1x128_1_0 := by
  unfold r2_rel1
  after_results_simp
  rw [h1]
  rfl

set_option maxHeartbeats 4000000 in
/-- Relation 2's block, from contents whose ones buffer holds the ones: its result is the relation's dense term of the aggregate. -/
theorem r2_rel2_read (W : Valuation τ sig (Elt Ideal)) (h1 : W (Proc.devRef .tc main_v266) = edgeOnes) :
    after r2_rel2 W (Proc.devRef .tc main_v386) =
      refDense (aggOf (W (Proc.devRef .tc main_v261)) (rowOf (W (Proc.devRef .tc main_arg1)) 2 slices_S3x800000_S1x800000_2_0) (rowOf (W (Proc.devRef .tc main_arg2)) 2 slices_S3x800000_S1x800000_2_0)
          (degOf (rowOf (W (Proc.devRef .tc main_arg1)) 2 slices_S3x800000_S1x800000_2_0)) (degOf (rowOf (W (Proc.devRef .tc main_arg2)) 2 slices_S3x800000_S1x800000_2_0)))
        (W (Proc.devRef .tc main_v263)) (W (Proc.devRef .tc main_v265)) 2 slices_S3x128x128_S1x128x128_2_0_0 slices_S3x128_S1x128_2_0 := by
  unfold r2_rel2
  after_results_simp
  rw [h1]
  rfl

/-- The tail: the mean of the three relations' terms, then the rectifier. -/
theorem r2_tail_read (W : Valuation τ sig (Elt Ideal)) :
    after r2_tail W (Proc.devRef .tc main_v394) = refLeaky (refMean (W (Proc.devRef .tc main_v306)) (W (Proc.devRef .tc main_v346)) (W (Proc.devRef .tc main_v386))) := by
  unfold r2_tail
  after_results_simp
  rfl

/-- The contents after the preamble, and after each relation's block. -/
def r2_W0 (V : Valuation τ sig (Elt Ideal)) : Valuation τ sig (Elt Ideal) := after r2_pre V
@[inherit_doc r2_W0] def r2_W1 (V : Valuation τ sig (Elt Ideal)) : Valuation τ sig (Elt Ideal) := after r2_rel0 (r2_W0 V)
@[inherit_doc r2_W0] def r2_W2 (V : Valuation τ sig (Elt Ideal)) : Valuation τ sig (Elt Ideal) := after r2_rel1 (r2_W1 V)
@[inherit_doc r2_W0] def r2_W3 (V : Valuation τ sig (Elt Ideal)) : Valuation τ sig (Elt Ideal) := after r2_rel2 (r2_W2 V)

theorem r2_chain (V : Valuation τ sig (Elt Ideal)) : after (opsL2 (F := Ideal)) V = after r2_tail (r2_W3 V) := by
  have h := congrArg (fun ops => after ops V) r2_split
  simp only [after_append] at h
  exact h

theorem r2_W0_keep (V : Valuation τ sig (Elt Ideal)) {x : Ref sig .tc} (hx : x ∉ r2_pre_W) :
    r2_W0 V (Proc.devRef .tc x) = V (Proc.devRef .tc x) := r2_pre_keeps _ hx

theorem r2_W1_keep (V : Valuation τ sig (Elt Ideal)) {x : Ref sig .tc} (hx : x ∉ r2_rel0_W) :
    r2_W1 V (Proc.devRef .tc x) = (r2_W0 V) (Proc.devRef .tc x) := r2_rel0_keeps _ hx

theorem r2_W2_keep (V : Valuation τ sig (Elt Ideal)) {x : Ref sig .tc} (hx : x ∉ r2_rel1_W) :
    r2_W2 V (Proc.devRef .tc x) = (r2_W1 V) (Proc.devRef .tc x) := r2_rel1_keeps _ hx

theorem r2_W3_keep (V : Valuation τ sig (Elt Ideal)) {x : Ref sig .tc} (hx : x ∉ r2_rel2_W) :
    r2_W3 V (Proc.devRef .tc x) = (r2_W2 V) (Proc.devRef .tc x) := r2_rel2_keeps _ hx

theorem r2_ones0 (V : Valuation τ sig (Elt Ideal)) : r2_W0 V (Proc.devRef .tc main_v266) = edgeOnes := r2_pre_ones V
theorem r2_ones1 (V : Valuation τ sig (Elt Ideal)) : r2_W1 V (Proc.devRef .tc main_v266) = edgeOnes := (r2_W1_keep V (by decide)).trans (r2_ones0 V)
theorem r2_ones2 (V : Valuation τ sig (Elt Ideal)) : r2_W2 V (Proc.devRef .tc main_v266) = edgeOnes := (r2_W2_keep V (by decide)).trans (r2_ones1 V)

theorem r2_h0 (V : Valuation τ sig (Elt Ideal)) : r2_W0 V (Proc.devRef .tc main_v261) = (V (Proc.devRef .tc main_v261)) := r2_W0_keep V (by decide)
theorem r2_h1 (V : Valuation τ sig (Elt Ideal)) : r2_W1 V (Proc.devRef .tc main_v261) = (V (Proc.devRef .tc main_v261)) := (r2_W1_keep V (by decide)).trans (r2_h0 V)
theorem r2_h2 (V : Valuation τ sig (Elt Ideal)) : r2_W2 V (Proc.devRef .tc main_v261) = (V (Proc.devRef .tc main_v261)) := (r2_W2_keep V (by decide)).trans (r2_h1 V)

theorem r2_src0 (V : Valuation τ sig (Elt Ideal)) : r2_W0 V (Proc.devRef .tc main_arg1) = (V (Proc.devRef .tc main_arg1)) := r2_W0_keep V (by decide)
theorem r2_src1 (V : Valuation τ sig (Elt Ideal)) : r2_W1 V (Proc.devRef .tc main_arg1) = (V (Proc.devRef .tc main_arg1)) := (r2_W1_keep V (by decide)).trans (r2_src0 V)
theorem r2_src2 (V : Valuation τ sig (Elt Ideal)) : r2_W2 V (Proc.devRef .tc main_arg1) = (V (Proc.devRef .tc main_arg1)) := (r2_W2_keep V (by decide)).trans (r2_src1 V)

theorem r2_dst0 (V : Valuation τ sig (Elt Ideal)) : r2_W0 V (Proc.devRef .tc main_arg2) = (V (Proc.devRef .tc main_arg2)) := r2_W0_keep V (by decide)
theorem r2_dst1 (V : Valuation τ sig (Elt Ideal)) : r2_W1 V (Proc.devRef .tc main_arg2) = (V (Proc.devRef .tc main_arg2)) := (r2_W1_keep V (by decide)).trans (r2_dst0 V)
theorem r2_dst2 (V : Valuation τ sig (Elt Ideal)) : r2_W2 V (Proc.devRef .tc main_arg2) = (V (Proc.devRef .tc main_arg2)) := (r2_W2_keep V (by decide)).trans (r2_dst1 V)

theorem r2_wgt0 (V : Valuation τ sig (Elt Ideal)) : r2_W0 V (Proc.devRef .tc main_v263) = (layerW (V (Proc.devRef .tc main_arg5)) 1 slices_S4x3x128x128_S1x3x128x128_1_0_0_0) := r2_pre_wgt V
theorem r2_wgt1 (V : Valuation τ sig (Elt Ideal)) : r2_W1 V (Proc.devRef .tc main_v263) = (layerW (V (Proc.devRef .tc main_arg5)) 1 slices_S4x3x128x128_S1x3x128x128_1_0_0_0) := (r2_W1_keep V (by decide)).trans (r2_wgt0 V)
theorem r2_wgt2 (V : Valuation τ sig (Elt Ideal)) : r2_W2 V (Proc.devRef .tc main_v263) = (layerW (V (Proc.devRef .tc main_arg5)) 1 slices_S4x3x128x128_S1x3x128x128_1_0_0_0) := (r2_W2_keep V (by decide)).trans (r2_wgt1 V)

theorem r2_bia0 (V : Valuation τ sig (Elt Ideal)) : r2_W0 V (Proc.devRef .tc main_v265) = (layerB (V (Proc.devRef .tc main_arg6)) 1 slices_S4x3x128_S1x3x128_1_0_0) := r2_pre_bia V
theorem r2_bia1 (V : Valuation τ sig (Elt Ideal)) : r2_W1 V (Proc.devRef .tc main_v265) = (layerB (V (Proc.devRef .tc main_arg6)) 1 slices_S4x3x128_S1x3x128_1_0_0) := (r2_W1_keep V (by decide)).trans (r2_bia0 V)
theorem r2_bia2 (V : Valuation τ sig (Elt Ideal)) : r2_W2 V (Proc.devRef .tc main_v265) = (layerB (V (Proc.devRef .tc main_arg6)) 1 slices_S4x3x128_S1x3x128_1_0_0) := (r2_W2_keep V (by decide)).trans (r2_bia1 V)

/-- Relation 0's term, as it stands when the tail starts. -/
theorem r2_D0 (V : Valuation τ sig (Elt Ideal)) : r2_W3 V (Proc.devRef .tc main_v306) =
      refDense (aggOf (V (Proc.devRef .tc main_v261)) (rowOf (V (Proc.devRef .tc main_arg1)) 0 slices_S3x800000_S1x800000_0_0) (rowOf (V (Proc.devRef .tc main_arg2)) 0 slices_S3x800000_S1x800000_0_0)
          (degOf (rowOf (V (Proc.devRef .tc main_arg1)) 0 slices_S3x800000_S1x800000_0_0)) (degOf (rowOf (V (Proc.devRef .tc main_arg2)) 0 slices_S3x800000_S1x800000_0_0)))
        (layerW (V (Proc.devRef .tc main_arg5)) 1 slices_S4x3x128x128_S1x3x128x128_1_0_0_0) (layerB (V (Proc.devRef .tc main_arg6)) 1 slices_S4x3x128_S1x3x128_1_0_0) 0 slices_S3x128x128_S1x128x128_0_0_0 slices_S3x128_S1x128_0_0 := by
  rw [r2_W3_keep V (x := main_v306) (by decide), r2_W2_keep V (x := main_v306) (by decide)]
  unfold r2_W1
  rw [r2_rel0_read _ (r2_ones0 V), r2_h0 V, r2_src0 V, r2_dst0 V, r2_wgt0 V, r2_bia0 V]

/-- Relation 1's term, as it stands when the tail starts. -/
theorem r2_D1 (V : Valuation τ sig (Elt Ideal)) : r2_W3 V (Proc.devRef .tc main_v346) =
      refDense (aggOf (V (Proc.devRef .tc main_v261)) (rowOf (V (Proc.devRef .tc main_arg1)) 1 slices_S3x800000_S1x800000_1_0) (rowOf (V (Proc.devRef .tc main_arg2)) 1 slices_S3x800000_S1x800000_1_0)
          (degOf (rowOf (V (Proc.devRef .tc main_arg1)) 1 slices_S3x800000_S1x800000_1_0)) (degOf (rowOf (V (Proc.devRef .tc main_arg2)) 1 slices_S3x800000_S1x800000_1_0)))
        (layerW (V (Proc.devRef .tc main_arg5)) 1 slices_S4x3x128x128_S1x3x128x128_1_0_0_0) (layerB (V (Proc.devRef .tc main_arg6)) 1 slices_S4x3x128_S1x3x128_1_0_0) 1 slices_S3x128x128_S1x128x128_1_0_0 slices_S3x128_S1x128_1_0 := by
  rw [r2_W3_keep V (x := main_v346) (by decide)]
  unfold r2_W2
  rw [r2_rel1_read _ (r2_ones1 V), r2_h1 V, r2_src1 V, r2_dst1 V, r2_wgt1 V, r2_bia1 V]

/-- Relation 2's term, as it stands when the tail starts. -/
theorem r2_D2 (V : Valuation τ sig (Elt Ideal)) : r2_W3 V (Proc.devRef .tc main_v386) =
      refDense (aggOf (V (Proc.devRef .tc main_v261)) (rowOf (V (Proc.devRef .tc main_arg1)) 2 slices_S3x800000_S1x800000_2_0) (rowOf (V (Proc.devRef .tc main_arg2)) 2 slices_S3x800000_S1x800000_2_0)
          (degOf (rowOf (V (Proc.devRef .tc main_arg1)) 2 slices_S3x800000_S1x800000_2_0)) (degOf (rowOf (V (Proc.devRef .tc main_arg2)) 2 slices_S3x800000_S1x800000_2_0)))
        (layerW (V (Proc.devRef .tc main_arg5)) 1 slices_S4x3x128x128_S1x3x128x128_1_0_0_0) (layerB (V (Proc.devRef .tc main_arg6)) 1 slices_S4x3x128_S1x3x128_1_0_0) 2 slices_S3x128x128_S1x128x128_2_0_0 slices_S3x128_S1x128_2_0 := by
  unfold r2_W3
  rw [r2_rel2_read _ (r2_ones2 V), r2_h2 V, r2_src2 V, r2_dst2 V, r2_wgt2 V, r2_bia2 V]

/-- Layer 2's result, from any contents V: the layer function of the three relations' aggregates of the features in `main_v261`,
    the layer's weights and biases. -/
theorem readR2 (V : Valuation τ sig (Elt Ideal)) :
    after (opsL2 (F := Ideal)) V (Proc.devRef .tc main_v394) =
      refLayer
        (aggOf (V (Proc.devRef .tc main_v261)) (rowOf (V (Proc.devRef .tc main_arg1)) 0 slices_S3x800000_S1x800000_0_0) (rowOf (V (Proc.devRef .tc main_arg2)) 0 slices_S3x800000_S1x800000_0_0)
          (degOf (rowOf (V (Proc.devRef .tc main_arg1)) 0 slices_S3x800000_S1x800000_0_0)) (degOf (rowOf (V (Proc.devRef .tc main_arg2)) 0 slices_S3x800000_S1x800000_0_0)))
        (aggOf (V (Proc.devRef .tc main_v261)) (rowOf (V (Proc.devRef .tc main_arg1)) 1 slices_S3x800000_S1x800000_1_0) (rowOf (V (Proc.devRef .tc main_arg2)) 1 slices_S3x800000_S1x800000_1_0)
          (degOf (rowOf (V (Proc.devRef .tc main_arg1)) 1 slices_S3x800000_S1x800000_1_0)) (degOf (rowOf (V (Proc.devRef .tc main_arg2)) 1 slices_S3x800000_S1x800000_1_0)))
        (aggOf (V (Proc.devRef .tc main_v261)) (rowOf (V (Proc.devRef .tc main_arg1)) 2 slices_S3x800000_S1x800000_2_0) (rowOf (V (Proc.devRef .tc main_arg2)) 2 slices_S3x800000_S1x800000_2_0)
          (degOf (rowOf (V (Proc.devRef .tc main_arg1)) 2 slices_S3x800000_S1x800000_2_0)) (degOf (rowOf (V (Proc.devRef .tc main_arg2)) 2 slices_S3x800000_S1x800000_2_0)))
        (layerW (V (Proc.devRef .tc main_arg5)) 1 slices_S4x3x128x128_S1x3x128x128_1_0_0_0) (layerB (V (Proc.devRef .tc main_arg6)) 1 slices_S4x3x128_S1x3x128_1_0_0) := by
  rw [r2_chain V, r2_tail_read, r2_D0, r2_D1, r2_D2]
  rfl

end Cert.Bridge

end
-- ==== Proof.BridgeL2.lean ====
/-
  Layer 2 on both sides: given that the previous layer's results agree, the kernel program's region 2 leaves in its
  output array what the reference's layer 2 computes.
-/
import proofs.«165758_j22333829939343_1_alg».proof.Proof.KRunVals
import proofs.«165758_j22333829939343_1_alg».proof.Proof.BridgeChainK
import proofs.«165758_j22333829939343_1_alg».proof.Proof.KJoin2
import proofs.«165758_j22333829939343_1_alg».proof.Proof.BridgeReadK0
import proofs.«165758_j22333829939343_1_alg».proof.Proof.BridgeReadK2
import proofs.«165758_j22333829939343_1_alg».proof.Proof.BridgeReadAggK2
import proofs.«165758_j22333829939343_1_alg».proof.Proof.BridgeReadR2
import proofs.«165758_j22333829939343_1_alg».proof.Proof.RefRun
import proofs.«165758_j22333829939343_1_alg».proof.Proof.BridgeArgs

set_option maxRecDepth 16384

noncomputable section

namespace Cert.Bridge

open Idealize.ShloMosaic Idealize.ShloMosaic.TcCoe Idealize.SL.Sem
open Cert.KernelIdeal Cert.KernelIdeal.Gen Cert.KernelIdeal.Hand

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

set_option maxHeartbeats 4000000 in
theorem layer2_eq (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))) (c : Dev Cert.KernelIdeal.nD)
    (hprev : W4 m ρ c (Proc.devRef .tc main_v234)
      = Cert.ReferenceIdeal.RefRun.R2 m' c (Proc.devRef .tc Cert.ReferenceIdeal.main_v261)) :
    W6 m ρ c (Proc.devRef .tc main_v334)
      = Cert.ReferenceIdeal.RefRun.R3 m' c (Proc.devRef .tc Cert.ReferenceIdeal.main_v394) := by
  obtain ⟨g0, g1, g2, g3, g4, g5, g6, g7, g8⟩ := hagree c
  have hA := readK2_agg (W4 m ρ c)
  have hW := readK2_wgt (W4 m ρ c)
  have hB := readK2_bias (W4 m ρ c)
  have hR := readR2 (Cert.ReferenceIdeal.RefRun.R2 m' c)
  rw [W4_main_arg1 m ρ c, W4_main_arg2 m ρ c, W4_main_v19 m ρ c, W4_main_v38 m ρ c,
    readK0_kdegOut_0 (W0 m ρ c), readK0_kdegIn_0 (W0 m ρ c), readK0_kdegOut_1 (W0 m ρ c), readK0_kdegIn_1 (W0 m ρ c),
    readK0_kdegOut_2 (W0 m ρ c), readK0_kdegIn_2 (W0 m ρ c), W0_main_arg1 m ρ c, W0_main_arg2 m ρ c, hprev] at hA
  rw [W4_main_arg5 m ρ c] at hW
  rw [W4_main_arg6 m ρ c] at hB
  have r1 : Cert.ReferenceIdeal.RefRun.R2 m' c (Proc.devRef .tc Cert.ReferenceIdeal.main_arg1) = m ((c.tc : Thread Cert.KernelIdeal.nD Cert.KernelIdeal.τ).loc Cert.KernelIdeal.main_arg1) := (Cert.ReferenceIdeal.RefRun.R2_arg m' c (by decide) (by decide)).trans g1
  have r2 : Cert.ReferenceIdeal.RefRun.R2 m' c (Proc.devRef .tc Cert.ReferenceIdeal.main_arg2) = m ((c.tc : Thread Cert.KernelIdeal.nD Cert.KernelIdeal.τ).loc Cert.KernelIdeal.main_arg2) := (Cert.ReferenceIdeal.RefRun.R2_arg m' c (by decide) (by decide)).trans g2
  have r5 : Cert.ReferenceIdeal.RefRun.R2 m' c (Proc.devRef .tc Cert.ReferenceIdeal.main_arg5) = m ((c.tc : Thread Cert.KernelIdeal.nD Cert.KernelIdeal.τ).loc Cert.KernelIdeal.main_arg5) := (Cert.ReferenceIdeal.RefRun.R2_arg m' c (by decide) (by decide)).trans g5
  have r6 : Cert.ReferenceIdeal.RefRun.R2 m' c (Proc.devRef .tc Cert.ReferenceIdeal.main_arg6) = m ((c.tc : Thread Cert.KernelIdeal.nD Cert.KernelIdeal.τ).loc Cert.KernelIdeal.main_arg6) := (Cert.ReferenceIdeal.RefRun.R2_arg m' c (by decide) (by decide)).trans g6
  rw [r1, r2, r5, r6] at hR
  rw [W6_out, final2, Cert.ReferenceIdeal.RefRun.R3_eq]
  refine ((G2_eq_refLayer (V5 m ρ) c _ _ _ _ _ _ hA hW hB).trans ?_)
  exact hR.symm

end Cert.Bridge

end
-- ==== Proof.KValue3.lean ====
/-
  Region 3: the values. Each case's found pieces read back as the body's payloads; the accumulator after a
  point is the running sum of its row tile's relations; the output array ends, row tile by row tile, at the
  activated mean of the three relations' tile products.
-/
import proofs.«165758_j22333829939343_1_alg».proof.Proof.KBody3
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem hz2_3 : (![0, 0] : Fin 2 → Nat) = fun _ => 0 := funext fun a => by fin_cases a <;> rfl
theorem hz3_3 : (![0, 0, 0] : Fin 3 → Nat) = fun _ => 0 := funext fun a => by fin_cases a <;> rfl

/-- A relation-0 point leaves the accumulator at zero plus the relation's tile product. -/
theorem sout3_A_eq (c : Dev nD) (i : grid3.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond3_0 i) (hc1 : ¬cond3_1 i) (x0 : Vec F S1x2000x128 .f32) (x1 : Vec F S1x128x128 .f32) (x2 : Vec F S1x1x128 .f32) :
    sout3_A_0 c i arg2 harg2 arg3 harg3 arg4 harg4 arg5 harg5 arg6 harg6 hc0 hc1 x0 x1 x2 = k3_pay2 x0 x1 x2 (k3_pay1 (F := F)) := by
  unfold sout3_A_0
  rw [View.read_writes_eq_canon _ _ _ (scover3_A_0 c i arg2 harg2 arg3 harg3 arg4 harg4 arg5 harg5 arg6 harg6 hc0 hc1 x0 x1 x2)]
  unfold kernelRun3_A
  dsimp only
  sl_unfold_words
  rw [View.canon_cons_unit_zero (S := S2000x128) hz2_3, View.readCov_unit_zero (S := S2000x128) _ hz2_3]
  simp only [View.readAt_eq_ld, harg2.read_unread, harg3.read_unread, harg4.read_unread,
    View.ld_unit_zero (S := S1x2000x128) hz3_3, View.ld_unit_zero (S := S1x128x128) hz3_3, View.ld_unit_zero (S := S1x1x128) hz3_3]

/-- A relation-1 point adds the relation's tile product to the accumulator. -/
theorem sout3_B_eq (c : Dev nD) (i : grid3.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond3_0 i) (hc1 : ¬cond3_1 i) (x0 : Vec F S1x2000x128 .f32) (x1 : Vec F S1x128x128 .f32) (x2 : Vec F S1x1x128 .f32) (xs0 : Vec F S2000x128 .f32) :
    sout3_B_0 c i arg2 harg2 arg3 harg3 arg4 harg4 arg5 harg5 arg6 harg6 hc0 hc1 x0 x1 x2 xs0 = k3_pay2 x0 x1 x2 xs0 := by
  unfold sout3_B_0
  rw [View.read_writes_eq_canon _ _ _ (scover3_B_0 c i arg2 harg2 arg3 harg3 arg4 harg4 arg5 harg5 arg6 harg6 hc0 hc1 x0 x1 x2 xs0)]
  unfold kernelRun3_B
  dsimp only
  sl_unfold_words
  rw [View.canon_unit_zero hz2_3]
  simp only [View.readAt_eq_ld, harg2.read_unread, harg3.read_unread, harg4.read_unread, harg6.read_unread,
    View.ld_unit_zero (S := S1x2000x128) hz3_3, View.ld_unit_zero (S := S1x128x128) hz3_3, View.ld_unit_zero (S := S1x1x128) hz3_3,
    View.ld_unit_zero (S := S2000x128) hz2_3]

/-- So does a relation-2 point, -/
theorem sout3_C_eq (c : Dev nD) (i : grid3.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond3_0 i) (hc1 : cond3_1 i) (x0 : Vec F S1x2000x128 .f32) (x1 : Vec F S1x128x128 .f32) (x2 : Vec F S1x1x128 .f32) (xs0 : Vec F S2000x128 .f32) :
    sout3_C_0 c i arg2 harg2 arg3 harg3 arg4 harg4 arg5 harg5 arg6 harg6 hc0 hc1 x0 x1 x2 xs0 = k3_pay2 x0 x1 x2 xs0 := by
  unfold sout3_C_0
  rw [View.read_writes_eq_canon _ _ _ (scover3_C_0 c i arg2 harg2 arg3 harg3 arg4 harg4 arg5 harg5 arg6 harg6 hc0 hc1 x0 x1 x2 xs0)]
  unfold kernelRun3_C
  dsimp only
  sl_unfold_words
  rw [View.canon_unit_zero hz2_3]
  simp only [View.readAt_eq_ld, harg2.read_unread, harg3.read_unread, harg4.read_unread, harg6.read_unread,
    View.ld_unit_zero (S := S1x2000x128) hz3_3, View.ld_unit_zero (S := S1x128x128) hz3_3, View.ld_unit_zero (S := S1x1x128) hz3_3,
    View.ld_unit_zero (S := S2000x128) hz2_3]

/-- and it stores the activated mean of the new accumulator into the output block. -/
theorem out3_C_eq (c : Dev nD) (i : grid3.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond3_0 i) (hc1 : cond3_1 i) (x0 : Vec F S1x2000x128 .f32) (x1 : Vec F S1x128x128 .f32) (x2 : Vec F S1x1x128 .f32) (xs0 : Vec F S2000x128 .f32) :
    out3_C_3 c i arg2 harg2 arg3 harg3 arg4 harg4 arg5 harg5 arg6 harg6 hc0 hc1 x0 x1 x2 xs0 = k3_pay3 (k3_pay2 x0 x1 x2 xs0) := by
  unfold out3_C_3
  rw [View.read_writes_eq_canon _ _ _ (cover3_C_3 c i arg2 harg2 arg3 harg3 arg4 harg4 arg5 harg5 arg6 harg6 hc0 hc1 x0 x1 x2 xs0)]
  unfold kernelRun3_C
  dsimp only
  sl_unfold_words
  rw [View.canon_unit_zero hz2_3, View.readCov_unit_zero (S := S2000x128) _ hz2_3]
  simp only [View.readAt_eq_ld, harg2.read_unread, harg3.read_unread, harg4.read_unread, harg6.read_unread,
    View.ld_unit_zero (S := S1x2000x128) hz3_3, View.ld_unit_zero (S := S1x128x128) hz3_3, View.ld_unit_zero (S := S1x1x128) hz3_3,
    View.ld_unit_zero (S := S2000x128) hz2_3]

/-! ## The running sum -/

/-- One point's step: the accumulator plus this point's relation's tile product (its three input blocks). -/
def step3 (c : Dev nD) (t : Fin cfg3.N) (acc : Vec F S2000x128 .f32) : Vec F S2000x128 .f32 :=
  k3_pay2 (iblk3 V c 0 t) (iblk3 V c 1 t) (iblk3 V c 2 t) acc

/-- The accumulator after point n: restarted from zero at relation 0. -/
def accAt3 (c : Dev nD) : (n : ℕ) → n < cfg3.N → Vec F S2000x128 .f32
  | 0, h => step3 V c ⟨0, h⟩ (k3_pay1 (F := F))
  | n + 1, h => if (n + 1) % 3 = 0 then step3 V c ⟨n + 1, h⟩ (k3_pay1 (F := F)) else step3 V c ⟨n + 1, h⟩ (accAt3 c n (Nat.lt_of_succ_lt h))

theorem accAt3_succ (c : Dev nD) (n : ℕ) (h : n + 1 < cfg3.N) :
    accAt3 V c (n + 1) h = (if (n + 1) % 3 = 0 then step3 V c ⟨n + 1, h⟩ (k3_pay1 (F := F)) else step3 V c ⟨n + 1, h⟩ (accAt3 V c n (Nat.lt_of_succ_lt h))) := rfl

set_option maxHeartbeats 4000000 in
theorem outsAt3_snd (c : Dev nD) : ∀ (n : ℕ) (h : n < cfg3.N), (outsAt3 V c n h).2 = accAt3 V c n h
  | 0, h => by
    have hc1 : ¬cond3_1 (grid3.coords ⟨0, h⟩) := fun hh => by
      have h2 : (0 : ℕ) % 3 = 2 := (hcond3_1 ⟨0, h⟩).mp hh
      omega
    rw [outsAt3_A V c ⟨0, h⟩ rfl hc1]
    dsimp only
    exact sout3_A_eq (F := F) ..
  | n + 1, h => by
    by_cases h0 : (n + 1) % 3 = 0
    · have hc1 : ¬cond3_1 (grid3.coords ⟨n + 1, h⟩) := fun hh => by
        have h2 : (n + 1) % 3 = 2 := (hcond3_1 ⟨n + 1, h⟩).mp hh
        omega
      rw [outsAt3_A V c ⟨n + 1, h⟩ h0 hc1, accAt3_succ, if_pos h0]
      dsimp only
      exact sout3_A_eq (F := F) ..
    · by_cases h1 : (n + 1) % 3 = 2
      · rw [outsAt3_C V c ⟨n + 1, h⟩ h0 h1, accAt3_succ, if_neg h0]
        dsimp only
        refine (sout3_C_eq (F := F) ..).trans ?_
        show k3_pay2 _ _ _ (outsAt3 V c n _).2 = _
        rw [outsAt3_snd c n]; rfl
      · rw [outsAt3_B V c ⟨n + 1, h⟩ h0 h1, accAt3_succ, if_neg h0]
        dsimp only
        refine (sout3_B_eq (F := F) ..).trans ?_
        show k3_pay2 _ _ _ (outsAt3 V c n _).2 = _
        rw [outsAt3_snd c n]; rfl

set_option maxHeartbeats 4000000 in
/-- At a relation-2 point the output block holds the activated mean of the accumulator. -/
theorem outsAt3_fst (c : Dev nD) (t : Fin cfg3.N) (h1 : t.val % 3 = 2) :
    (outsAt3 V c t.val t.isLt).1 = k3_pay3 (accAt3 V c t.val t.isLt) := by
  have h0 : ¬t.val % 3 = 0 := by omega
  rw [← outsAt3_snd V c t.val t.isLt, outsAt3_C V c t h0 h1]
  dsimp only
  refine (out3_C_eq (F := F) ..).trans ?_
  exact congrArg k3_pay3 (sout3_C_eq (F := F) ..).symm

end Cert.KernelIdeal.Hand

end
-- ==== Proof.KFinal3.lean ====
/-
  Region 3: from blocks to the array. Row tile I of the output array is written back once, after its
  relation-2 point 3·I + 2, and holds the activated mean of that point's accumulator; the 25 row tiles cover
  the array.
-/
import proofs.«165758_j22333829939343_1_alg».proof.Proof.KValue3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

open ValueIdx in
/-- The output array after the region, entry by entry: entry (i, q) lies in row tile i / 2000. -/
def G3 (c : Dev nD) : S50000x128.Idx → Elt F .f32 := fun j =>
  k3_pay3 (accAt3 V c (3 * ((j 0).val / 2000) + 2) (by
      have h0 : (j 0).val < 50000 := (j 0).isLt
      have hN : cfg3.N = 75 := N_3
      have hN' : grid3.N = 75 := N_3
      omega))
    (ix2 (⟨(j 0).val % 2000, Nat.mod_lt _ (by decide)⟩ : Fin 2000) ((j 1 : Fin 128)))

theorem tile3_congr (c : Dev nD) {n n' : ℕ} (hn : n < cfg3.N) (hn' : n' < cfg3.N) (e : n = n') {y y' : S2000x128.Idx} (ey : y = y') :
    k3_pay3 (accAt3 V c n hn) y = k3_pay3 (accAt3 V c n' hn') y' := by
  subst e; subst ey; rfl

/-- The output window's block index at point t is its row tile, t / 3 (decided over the grid). -/
theorem idx_facts3_3 : ∀ t : Fin cfg3.N, win3_3.index t (0 : Fin 2) = t.val / 3 ∧ win3_3.index t (1 : Fin 2) = 0 :=
  (by decide +kernel : ∀ t : Fin grid3.N, win3_3.index t (0 : Fin 2) = t.val / 3 ∧ win3_3.index t (1 : Fin 2) = 0)

/-- What a relation-2 point writes back is its row tile of G3. -/
theorem flushed3_eq (c : Dev nD) (t : Fin cfg3.N) (hf : (cfg3.win 3).flush t = true) :
    (dat3 V c).flushed 3 t = ((cfg3.win 3).blk t).view.read (Elt F) (G3 V c) := by
  have h1 : t.val % 3 = 2 := (flush3_3 t).mp hf
  show (cfg3.win 3).cut (grid3.coords t) ((dat3 V c).after 3 t) = _
  rw [after3_3, outsAt3_fst V c t h1]
  obtain ⟨e0, e1⟩ := idx_facts3_3 t
  funext y
  have hy0 : (y 0).val < 2000 := (y 0).isLt
  have he0 : ((((cfg3.win 3).blk t).view.emb y) 0).val = t.val / 3 * 2000 + (y 0).val := by
    show win3_3.index t (0 : Fin 2) * 2000 + 1 * (y 0).val = _
    rw [e0]; omega
  have he1 : ((((cfg3.win 3).blk t).view.emb y) 1).val = (y 1).val := by
    show win3_3.index t (1 : Fin 2) * 128 + 1 * (y 1).val = _
    rw [e1]; omega
  show k3_pay3 (accAt3 V c t.val t.isLt) y = G3 V c (((cfg3.win 3).blk t).view.emb y)
  unfold G3
  refine tile3_congr V c _ _ (by rw [he0]; omega) (funext fun a => ?_)
  match a with
  | ⟨0, _⟩ => exact Fin.ext (by show (y 0).val = _ % 2000; rw [he0]; omega)
  | ⟨1, _⟩ => exact Fin.ext he1.symm

theorem mem_blk3_3 (t : Fin cfg3.N) (i : S50000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v434).slice (win3_3.rect t)).set ↔ _
  rw [View.set_slice_whole, Rect.mem_set_unit]
  exact Iff.rfl

/-- The output array after the region is G3. -/
theorem final3 (c : Dev nD) : (dat3 V c).arrAt 3 cfg3.N = G3 V c :=
  (dat3 V c).arrAt_eq_of_cover 3 (G3 V c) (flushed3_eq V c) fun i => by
    have h0 : (i 0).val < 50000 := (i 0).isLt
    have h1 : (i 1).val < 128 := (i 1).isLt
    have hN : cfg3.N = 75 := N_3
    have hN' : grid3.N = 75 := N_3
    refine ⟨⟨3 * ((i 0).val / 2000) + 2, by omega⟩, (flush3_3 _).mpr (by show (3 * ((i 0).val / 2000) + 2) % 3 = 2; omega), ?_⟩
    rw [mem_blk3_3]
    obtain ⟨e0, e1⟩ := idx_facts3_3 ⟨3 * ((i 0).val / 2000) + 2, by omega⟩
    have e0' : win3_3.index ⟨3 * ((i 0).val / 2000) + 2, by omega⟩ (0 : Fin 2) = (i 0).val / 2000 := by rw [e0]; show (3 * ((i 0).val / 2000) + 2) / 3 = _; omega
    intro a
    match a with
    | ⟨0, _⟩ => show win3_3.index _ (0 : Fin 2) * 2000 ≤ (i 0).val ∧ (i 0).val < win3_3.index _ (0 : Fin 2) * 2000 + 2000; rw [e0']; omega
    | ⟨1, _⟩ => show win3_3.index _ (1 : Fin 2) * 128 ≤ (i 1).val ∧ (i 1).val < win3_3.index _ (1 : Fin 2) * 128 + 128; rw [e1]; omega

end Cert.KernelIdeal.Hand

end
-- ==== Proof.KEntry3.lean ====
/-
  Region 3 at an entry. Entry (i, q) of the region's output array lies in row tile I = i / 2000, row p = i % 2000. The
  three points of that row tile read relation r's block of the stacked features (rows 2000 I … 2000 I + 1999), its weight
  matrix and its bias row; the accumulator after the third point is three steps from the cleared one; the output entry is
  the leaky rectifier of a third of it. So the entry is a function of the three arrays the region reads, with no tile left
  in it.
-/
import proofs.«165758_j22333829939343_1_alg».proof.Proof.KFinal3
import proofs.«165758_j22333829939343_1_alg».proof.Proof.LayerAlias
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## Where a point's blocks sit in their arrays (decided over the grid) -/

/-- The feature window's block at point t: relation t % 3, row tile t / 3. -/
theorem idx_facts3_0 : ∀ t : Fin cfg3.N, win3_0.index t (0 : Fin 3) = t.val % 3 ∧ win3_0.index t (1 : Fin 3) = t.val / 3 ∧ win3_0.index t (2 : Fin 3) = 0 :=
  (by decide +kernel : ∀ t : Fin grid3.N, win3_0.index t (0 : Fin 3) = t.val % 3 ∧ win3_0.index t (1 : Fin 3) = t.val / 3 ∧ win3_0.index t (2 : Fin 3) = 0)

/-- The weight window's block at point t: relation t % 3. -/
theorem idx_facts3_1 : ∀ t : Fin cfg3.N, win3_1.index t (0 : Fin 3) = t.val % 3 ∧ win3_1.index t (1 : Fin 3) = 0 ∧ win3_1.index t (2 : Fin 3) = 0 :=
  (by decide +kernel : ∀ t : Fin grid3.N, win3_1.index t (0 : Fin 3) = t.val % 3 ∧ win3_1.index t (1 : Fin 3) = 0 ∧ win3_1.index t (2 : Fin 3) = 0)

/-- The bias window's block at point t: relation t % 3. -/
theorem idx_facts3_2 : ∀ t : Fin cfg3.N, win3_2.index t (0 : Fin 3) = t.val % 3 ∧ win3_2.index t (1 : Fin 3) = 0 ∧ win3_2.index t (2 : Fin 3) = 0 :=
  (by decide +kernel : ∀ t : Fin grid3.N, win3_2.index t (0 : Fin 3) = t.val % 3 ∧ win3_2.index t (1 : Fin 3) = 0 ∧ win3_2.index t (2 : Fin 3) = 0)

/-- The three arrays the region reads, as the region finds them. -/
abbrev AGG3 (c : Dev nD) : Vec Ideal S3x50000x128 .f32 := V c (Pipeline.arrRef spec3 0)
abbrev WGT3 (c : Dev nD) : Vec Ideal S3x128x128 .f32 := V c (Pipeline.arrRef spec3 1)
abbrev BIA3 (c : Dev nD) : Vec Ideal S3x1x128 .f32 := V c (Pipeline.arrRef spec3 2)

/-- A point's three input blocks, at their literal shapes. -/
abbrev blkA3 (c : Dev nD) (t : Fin cfg3.N) : Vec Ideal S1x2000x128 .f32 := iblk3 V c 0 t
abbrev blkW3 (c : Dev nD) (t : Fin cfg3.N) : Vec Ideal S1x128x128 .f32 := iblk3 V c 1 t
abbrev blkB3 (c : Dev nD) (t : Fin cfg3.N) : Vec Ideal S1x1x128 .f32 := iblk3 V c 2 t

/-- Entry (0, p, k) of the feature block at point t is entry (t % 3, 2000 (t / 3) + p, k) of the stacked features. -/
theorem iblk3_0_apply (c : Dev nD) (t : Fin cfg3.N) (p : Fin 2000) (k : Fin 128) (r : Fin 3) (i : Fin 50000)
    (hr : r.val = t.val % 3) (hi : i.val = t.val / 3 * 2000 + p.val) :
    blkA3 V c t (ix3 (0 : Fin 1) p k) = AGG3 V c (ix3 r i k) := by
  obtain ⟨e0, e1, e2⟩ := idx_facts3_0 t
  show AGG3 V c (((cfg3.win 0).blk t).view.emb (ix3 (0 : Fin 1) p k)) = _
  refine congrArg (AGG3 V c) (funext fun a => ?_)
  match a with
  | ⟨0, _⟩ => exact Fin.ext (by show win3_0.index t (0 : Fin 3) * 1 + 1 * 0 = r.val; rw [e0]; omega)
  | ⟨1, _⟩ => exact Fin.ext (by show win3_0.index t (1 : Fin 3) * 2000 + 1 * p.val = i.val; rw [e1]; omega)
  | ⟨2, _⟩ => exact Fin.ext (by show win3_0.index t (2 : Fin 3) * 128 + 1 * k.val = k.val; rw [e2]; omega)

/-- Entry (0, k, q) of the weight block at point t is entry (t % 3, k, q) of the weights. -/
theorem iblk3_1_apply (c : Dev nD) (t : Fin cfg3.N) (k : Fin 128) (q : Fin 128) (r : Fin 3) (hr : r.val = t.val % 3) :
    blkW3 V c t (ix3 (0 : Fin 1) k q) = WGT3 V c (ix3 r k q) := by
  obtain ⟨e0, e1, e2⟩ := idx_facts3_1 t
  show WGT3 V c (((cfg3.win 1).blk t).view.emb (ix3 (0 : Fin 1) k q)) = _
  refine congrArg (WGT3 V c) (funext fun a => ?_)
  match a with
  | ⟨0, _⟩ => exact Fin.ext (by show win3_1.index t (0 : Fin 3) * 1 + 1 * 0 = r.val; rw [e0]; omega)
  | ⟨1, _⟩ => exact Fin.ext (by show win3_1.index t (1 : Fin 3) * 128 + 1 * k.val = k.val; rw [e1]; omega)
  | ⟨2, _⟩ => exact Fin.ext (by show win3_1.index t (2 : Fin 3) * 128 + 1 * q.val = q.val; rw [e2]; omega)

/-- Entry (0, 0, q) of the bias block at point t is entry (t % 3, 0, q) of the biases. -/
theorem iblk3_2_apply (c : Dev nD) (t : Fin cfg3.N) (q : Fin 128) (r : Fin 3) (hr : r.val = t.val % 3) :
    blkB3 V c t (ix3 (0 : Fin 1) (0 : Fin 1) q) = BIA3 V c (ix3 r (0 : Fin 1) q) := by
  obtain ⟨e0, e1, e2⟩ := idx_facts3_2 t
  show BIA3 V c (((cfg3.win 2).blk t).view.emb (ix3 (0 : Fin 1) (0 : Fin 1) q)) = _
  refine congrArg (BIA3 V c) (funext fun a => ?_)
  match a with
  | ⟨0, _⟩ => exact Fin.ext (by show win3_2.index t (0 : Fin 3) * 1 + 1 * 0 = r.val; rw [e0]; omega)
  | ⟨1, _⟩ => exact Fin.ext (by show win3_2.index t (1 : Fin 3) * 1 + 1 * 0 = 0; rw [e1])
  | ⟨2, _⟩ => exact Fin.ext (by show win3_2.index t (2 : Fin 3) * 128 + 1 * q.val = q.val; rw [e2]; omega)

/-! ## One relation's contribution at an entry of the output array -/

/-- Relation r's contribution to entry (i, q): row i of its aggregated features times column q of its weights, plus its
    bias entry q. -/
def T3 (c : Dev nD) (r : Fin 3) (i : Fin 50000) (q : Fin 128) : EReal :=
  (∑ k : Fin 128, AGG3 V c (ix3 r i k) * WGT3 V c (ix3 r k q)) + BIA3 V c (ix3 r (0 : Fin 1) q)

/-- The tile product of point t at entry (p, q) is relation t % 3's contribution to entry (2000 (t / 3) + p, q). -/
theorem tile3_eq (c : Dev nD) (t : Fin cfg3.N) (p : Fin 2000) (q : Fin 128) (r : Fin 3) (i : Fin 50000)
    (hr : r.val = t.val % 3) (hi : i.val = t.val / 3 * 2000 + p.val) :
    (∑ k : Fin 128, blkA3 V c t (ix3 (0 : Fin 1) p k)
        * blkW3 V c t (ix3 (0 : Fin 1) k q))
      + blkB3 V c t (ix3 (0 : Fin 1) (0 : Fin 1) q) = T3 V c r i q :=
  congrArg₂ (· + ·)
    (Finset.sum_congr rfl fun k _ => congrArg₂ (· * ·) (iblk3_0_apply V c t p k r i hr hi) (iblk3_1_apply V c t k q r hr))
    (iblk3_2_apply V c t q r hr)

/-! ## The accumulator after a row tile's last point -/

theorem accAt3_restart (c : Dev nD) (n : ℕ) (h : n < cfg3.N) (h0 : n % 3 = 0) :
    accAt3 V c n h = step3 V c ⟨n, h⟩ (k3_pay1 (F := Ideal)) := by
  cases n with
  | zero => rfl
  | succ m => rw [accAt3, if_pos h0]

theorem accAt3_cont (c : Dev nD) (n : ℕ) (h : n + 1 < cfg3.N) (h0 : ¬(n + 1) % 3 = 0) :
    accAt3 V c (n + 1) h = step3 V c ⟨n + 1, h⟩ (accAt3 V c n (Nat.lt_of_succ_lt h)) := by
  rw [accAt3, if_neg h0]

/-- After the relation-2 point of row tile I the accumulator holds three steps from the cleared one. -/
theorem accAt3_three (c : Dev nD) (I : ℕ) (h2 : 3 * I + 2 < cfg3.N) :
    accAt3 V c (3 * I + 2) h2
      = step3 V c ⟨3 * I + 2, h2⟩ (step3 V c ⟨3 * I + 1, by omega⟩ (step3 V c ⟨3 * I, by omega⟩ (k3_pay1 (F := Ideal)))) := by
  have e0 : accAt3 V c (3 * I) (by omega) = step3 V c ⟨3 * I, by omega⟩ (k3_pay1 (F := Ideal)) :=
    accAt3_restart V c (3 * I) (by omega) (by omega)
  have e1 : accAt3 V c (3 * I + 1) (by omega) = step3 V c ⟨3 * I + 1, by omega⟩ (accAt3 V c (3 * I) (by omega)) :=
    accAt3_cont V c (3 * I) (by omega) (by omega)
  have e2 : accAt3 V c (3 * I + 2) h2 = step3 V c ⟨3 * I + 2, h2⟩ (accAt3 V c (3 * I + 1) (by omega)) :=
    accAt3_cont V c (3 * I + 1) h2 (by omega)
  rw [e2, e1, e0]

/-! ## The output array at an entry -/

/-- Entry (i, q) of the region's output array: the leaky rectifier of a third of the three relations' contributions,
    accumulated one after another into zero. -/
theorem G3_entry (c : Dev nD) (i : Fin 50000) (q : Fin 128) :
    G3 V c (ix2 i q) = Cert.Layer.leaky ((((0 + T3 V c 0 i q) + T3 V c 1 i q) + T3 V c 2 i q) * ((1 / 3 : ℝ) : EReal)) := by
  have hN : cfg3.N = 75 := N_3
  have hi := i.isLt
  have h2 : 3 * (i.val / 2000) + 2 < cfg3.N := by omega
  show k3_pay3 (accAt3 V c (3 * (i.val / 2000) + 2) h2) (ix2 (⟨i.val % 2000, Nat.mod_lt _ (by decide)⟩ : Fin 2000) q) = _
  refine (Cert.Layer.pay3_leaky_apply _ _ _).trans (congrArg Cert.Layer.leaky (congrArg (· * ((1 / 3 : ℝ) : EReal)) ?_))
  rw [accAt3_three V c (i.val / 2000) h2]
  refine (Cert.Layer.pay2_steps_apply _ _ _ _ _ _ _ _ _ _ q).trans ?_
  exact congrArg₂ (· + ·) (congrArg₂ (· + ·) (congrArg (0 + ·)
    (tile3_eq V c ⟨3 * (i.val / 2000), by omega⟩ _ q 0 i (by show 0 = (3 * (i.val / 2000)) % 3; omega)
      (by show i.val = 3 * (i.val / 2000) / 3 * 2000 + i.val % 2000; omega)))
    (tile3_eq V c ⟨3 * (i.val / 2000) + 1, by omega⟩ _ q 1 i (by show 1 = (3 * (i.val / 2000) + 1) % 3; omega)
      (by show i.val = (3 * (i.val / 2000) + 1) / 3 * 2000 + i.val % 2000; omega)))
    (tile3_eq V c ⟨3 * (i.val / 2000) + 2, h2⟩ _ q 2 i (by show 2 = (3 * (i.val / 2000) + 2) % 3; omega)
      (by show i.val = (3 * (i.val / 2000) + 2) / 3 * 2000 + i.val % 2000; omega))

end Cert.KernelIdeal.Hand

end
-- ==== Proof.KJoin3.lean ====
/-
  Region 3 against the reference, as arrays: the region's output array, given the arrays the kernel program prepares for
  it, is the reference's layer of the same data.
-/
import proofs.«165758_j22333829939343_1_alg».proof.Proof.KEntry3
import proofs.«165758_j22333829939343_1_alg».proof.Proof.BridgeLayer

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

variable (V : (c : Dev nD) → (b : Ref sig .tc) → Buf (Elt Ideal) ((c : Thread nD τ).loc b))

/-- REGION 3 AGAINST THE REFERENCE'S LAYER: when the region finds the stacked features, the weights and the recast biases
    the kernel program prepares, its output array is the reference's layer of the same features, weights and biases. -/
theorem G3_eq_refLayer [Cert.ReferenceIdeal.Facts₀] (c : Dev nD)
    (a0 a1 a2 : Vec Ideal Cert.ReferenceIdeal.S50000x128 .f32) (W : Vec Ideal Cert.ReferenceIdeal.S3x128x128 .f32)
    (B : Vec Ideal Cert.ReferenceIdeal.S3x128 .f32) (hcast : Cert.ReferenceIdeal.S3x128.ShapeCasts (⟨3, ![3, 1, 128]⟩ : Shape))
    (hA : AGG3 V c = Cert.Bridge.stack3 a0 a1 a2) (hW : WGT3 V c = W)
    (hB : BIA3 V c = shapeCast (⟨3, ![3, 1, 128]⟩ : Shape) B hcast) :
    G3 V c = Cert.Bridge.refLayer a0 a1 a2 W B := by
  funext j
  rw [eq_ix2 j]
  refine (G3_entry V c (j 0) (j 1)).trans ?_
  show Cert.Layer.leaky ((((0 + Cert.Bridge.kernT (AGG3 V c) (WGT3 V c) (BIA3 V c) 0 (j 0) (j 1))
      + Cert.Bridge.kernT (AGG3 V c) (WGT3 V c) (BIA3 V c) 1 (j 0) (j 1))
      + Cert.Bridge.kernT (AGG3 V c) (WGT3 V c) (BIA3 V c) 2 (j 0) (j 1)) * ((1 / 3 : ℝ) : EReal)) = _
  rw [hA, hW, hB]
  exact Cert.Bridge.layer_entry a0 a1 a2 W B hcast (j 0) (j 1)

end Cert.KernelIdeal.Hand

end
-- ==== Proof.BridgeReadK3.lean ====
/-
  What host stretch 3 of the kernel program leaves in two of the arrays region 3 reads, from any contents `V` before it:
  layer 3's weights, cut out of the [4,3,128,128] table, and its biases, cut out of the [4,3,128] table and recast as [3,1,128].
-/
import proofs.«165758_j22333829939343_1_alg».proof.Proof.Gen.KernelIdeal.Launch
import proofs.«165758_j22333829939343_1_alg».proof.Proof.BridgeVocab
import proofs.«165758_j22333829939343_1_alg».proof.Proof.BridgeLayer
import proofs.«165758_j22333829939343_1_alg».proof.Proof.LibHostReads

set_option maxRecDepth 16384

noncomputable section

namespace Cert.Bridge

open Idealize.ShloMosaic Idealize.ShloMosaic.TcCoe Idealize.ShloMosaic.StableHlo
open Cert.KernelIdeal Cert.KernelIdeal.Gen

variable [Cert.ReferenceIdeal.Facts₀]
variable (V : Valuation τ sig (Elt Ideal))

set_option maxHeartbeats 4000000 in
/-- Layer 3's weights: slab 2 of the weight table, recast as [3,128,128]. -/
theorem readK3_wgt : StableHlo.after hostOps3 V (Proc.devRef .tc main_v336)
    = shapeCast S3x128x128 (extractStridedSlice S1x3x128x128 ![2, 0, 0, 0] (V (Proc.devRef .tc main_arg5))
        slices_S4x3x128x128_S1x3x128x128_2_0_0_0) shapeCasts_S1x3x128x128_S3x128x128 := by
  dsimp only [hostOps3]
  host_reads <;> rfl

set_option maxHeartbeats 4000000 in
/-- Layer 3's biases: slab 2 of the bias table as [3,128], recast as [3,1,128]. -/
theorem readK3_bias : StableHlo.after hostOps3 V (Proc.devRef .tc main_v433)
    = shapeCast S3x1x128 (shapeCast S3x128 (extractStridedSlice S1x3x128 ![2, 0, 0] (V (Proc.devRef .tc main_arg6))
        slices_S4x3x128_S1x3x128_2_0_0) shapeCasts_S1x3x128_S3x128) shapeCasts_S3x128_S3x1x128 := by
  dsimp only [hostOps3]
  host_reads <;> rfl

end Cert.Bridge

end
-- ==== Proof.BridgeReadAggK3.lean ====
/-
  What host stretch 3 of the kernel program leaves in the first array region 3 reads, from any contents `V` before
  it: the three relations' degree-normalised aggregates of the previous layer's output, stacked. Each relation's
  aggregate is read through the operations that produce it; the stacking operation is read at its three operands.
-/
import proofs.«165758_j22333829939343_1_alg».proof.Proof.Gen.KernelIdeal.Launch
import proofs.«165758_j22333829939343_1_alg».proof.Proof.BridgeVocab
import proofs.«165758_j22333829939343_1_alg».proof.Proof.BridgeLayer
import proofs.«165758_j22333829939343_1_alg».proof.Proof.LibHostReads

set_option maxRecDepth 16384

noncomputable section

namespace Cert.Bridge

open Idealize.ShloMosaic Idealize.ShloMosaic.TcCoe Idealize.ShloMosaic.StableHlo
open Cert.KernelIdeal Cert.KernelIdeal.Gen

variable [Cert.ReferenceIdeal.Facts₀]
variable (V : Valuation τ sig (Elt Ideal))

set_option maxHeartbeats 8000000 in
/-- The stacked aggregates: per relation r the previous output scaled, gathered along the edges' sources, added at their
    destinations and scaled again, with the degrees read back out of the two stacked degree tables. -/
theorem readK3_agg : StableHlo.after hostOps3 V (Proc.devRef .tc main_v432)
    = stack3 (aggOf (V (Proc.devRef .tc main_v334)) (rowOf (V (Proc.devRef .tc main_arg1)) 0 Cert.ReferenceIdeal.Facts₀.slices_S3x800000_S1x800000_0_0) (rowOf (V (Proc.devRef .tc main_arg2)) 0 Cert.ReferenceIdeal.Facts₀.slices_S3x800000_S1x800000_0_0)
        (kdeg (V (Proc.devRef .tc main_v19)) 0 slices_S3x50000_S1x50000_0_0) (kdeg (V (Proc.devRef .tc main_v38)) 0 slices_S3x50000_S1x50000_0_0))
      (aggOf (V (Proc.devRef .tc main_v334)) (rowOf (V (Proc.devRef .tc main_arg1)) 1 Cert.ReferenceIdeal.Facts₀.slices_S3x800000_S1x800000_1_0) (rowOf (V (Proc.devRef .tc main_arg2)) 1 Cert.ReferenceIdeal.Facts₀.slices_S3x800000_S1x800000_1_0)
        (kdeg (V (Proc.devRef .tc main_v19)) 1 slices_S3x50000_S1x50000_1_0) (kdeg (V (Proc.devRef .tc main_v38)) 1 slices_S3x50000_S1x50000_1_0))
      (aggOf (V (Proc.devRef .tc main_v334)) (rowOf (V (Proc.devRef .tc main_arg1)) 2 Cert.ReferenceIdeal.Facts₀.slices_S3x800000_S1x800000_2_0) (rowOf (V (Proc.devRef .tc main_arg2)) 2 Cert.ReferenceIdeal.Facts₀.slices_S3x800000_S1x800000_2_0)
        (kdeg (V (Proc.devRef .tc main_v19)) 2 slices_S3x50000_S1x50000_2_0) (kdeg (V (Proc.devRef .tc main_v38)) 2 slices_S3x50000_S1x50000_2_0)) := by
  dsimp only [hostOps3]
  host_reads
  refine (nary3_read _ _ _ _
    (broadcastInDim S1x50000x128 ![1, 2] bcast_S50000x128_S1x50000x128_1_2 (aggOf (V (Proc.devRef .tc main_v334)) (rowOf (V (Proc.devRef .tc main_arg1)) 0 Cert.ReferenceIdeal.Facts₀.slices_S3x800000_S1x800000_0_0) (rowOf (V (Proc.devRef .tc main_arg2)) 0 Cert.ReferenceIdeal.Facts₀.slices_S3x800000_S1x800000_0_0)
        (kdeg (V (Proc.devRef .tc main_v19)) 0 slices_S3x50000_S1x50000_0_0) (kdeg (V (Proc.devRef .tc main_v38)) 0 slices_S3x50000_S1x50000_0_0)))
    (broadcastInDim S1x50000x128 ![1, 2] bcast_S50000x128_S1x50000x128_1_2 (aggOf (V (Proc.devRef .tc main_v334)) (rowOf (V (Proc.devRef .tc main_arg1)) 1 Cert.ReferenceIdeal.Facts₀.slices_S3x800000_S1x800000_1_0) (rowOf (V (Proc.devRef .tc main_arg2)) 1 Cert.ReferenceIdeal.Facts₀.slices_S3x800000_S1x800000_1_0)
        (kdeg (V (Proc.devRef .tc main_v19)) 1 slices_S3x50000_S1x50000_1_0) (kdeg (V (Proc.devRef .tc main_v38)) 1 slices_S3x50000_S1x50000_1_0)))
    (broadcastInDim S1x50000x128 ![1, 2] bcast_S50000x128_S1x50000x128_1_2 (aggOf (V (Proc.devRef .tc main_v334)) (rowOf (V (Proc.devRef .tc main_arg1)) 2 Cert.ReferenceIdeal.Facts₀.slices_S3x800000_S1x800000_2_0) (rowOf (V (Proc.devRef .tc main_arg2)) 2 Cert.ReferenceIdeal.Facts₀.slices_S3x800000_S1x800000_2_0)
        (kdeg (V (Proc.devRef .tc main_v19)) 2 slices_S3x50000_S1x50000_2_0) (kdeg (V (Proc.devRef .tc main_v38)) 2 slices_S3x50000_S1x50000_2_0)))
    ?hA ?hB ?hC).trans ?fin
  case hA => host_reads <;> rfl
  case hB => host_reads <;> rfl
  case hC => host_reads <;> rfl
  case fin => rfl

end Cert.Bridge

end
-- ==== Proof.BridgeReadR3.lean ====
/- Layer 3 of the reference, read off its line of host operations as a pure function of the contents it starts from.
   The line is cut into its stretches: a preamble (the vector of ones the degree counts add up, and this layer's weights and biases cut out
   of the stacked arguments), one block of 47 operations per relation (the relation's two index rows, their degree
   counts, the normalised aggregate of the features, the product with the relation's weights plus its bias row), and the tail (the mean of
   the three, then the leaky rectifier). Each stretch is read by itself from arbitrary contents; a buffer a stretch does not write passes
   through it unchanged; the reads are then chained. -/
import proofs.«165758_j22333829939343_1_alg».proof.Proof.RefRunL3
import proofs.«165758_j22333829939343_1_alg».proof.Proof.BridgeLayer
import proofs.«165758_j22333829939343_1_alg».proof.Proof.BridgeVocab
import proofs.«165758_j22333829939343_1_alg».proof.Proof.BridgeParams
import proofs.«165758_j22333829939343_1_alg».proof.Proof.LibKeeps
import Idealize.ShloMosaic.Lib.Pipeline.Frame

noncomputable section

namespace Cert.Bridge

open Idealize.ShloMosaic Idealize.ShloMosaic.TcCoe Idealize.SL.Sem Idealize.ShloMosaic.StableHlo
open Cert.ReferenceIdeal Cert.ReferenceIdeal.Gen Cert.ReferenceIdeal.RefRun

variable {F : FTy → Type} [FloatOps F]

/-- Layer 3, stretch pre (6 operations). -/
def r3_pre : List (HloOp τ sig (Elt F)) :=
  [ StableHlo.unary main_arg5 main_v395 ((extractStridedSlice S1x3x128x128 ![2, 0, 0, 0] · slices_S4x3x128x128_S1x3x128x128_2_0_0_0) : (⟨S4x3x128x128, .f32⟩ : BufTy).Contents (Elt F) → (⟨S1x3x128x128, .f32⟩ : BufTy).Contents (Elt F)),
    StableHlo.reshape main_v395 main_v396 rfl shapeCasts_S1x3x128x128_S3x128x128,
    StableHlo.unary main_arg6 main_v397 ((extractStridedSlice S1x3x128 ![2, 0, 0] · slices_S4x3x128_S1x3x128_2_0_0) : (⟨S4x3x128, .f32⟩ : BufTy).Contents (Elt F) → (⟨S1x3x128, .f32⟩ : BufTy).Contents (Elt F)),
    StableHlo.reshape main_v397 main_v398 rfl shapeCasts_S1x3x128_S3x128,
    StableHlo.nullary main_cst_73 (constant S_ .f32 0x3F800000#32),
    StableHlo.unary main_cst_73 main_v399 (broadcastInDim S800000 ![] bcast_S_S800000 : (⟨S_, .f32⟩ : BufTy).Contents (Elt F) → (⟨S800000, .f32⟩ : BufTy).Contents (Elt F)) ]

/-- Layer 3, stretch rel0 (47 operations). -/
def r3_rel0 : List (HloOp τ sig (Elt F)) :=
  [ StableHlo.unary main_arg1 main_v400 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v400 main_v401 rfl shapeCasts_S1x800000_S800000,
    StableHlo.unary main_arg2 main_v402 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v402 main_v403 rfl shapeCasts_S1x800000_S800000,
    StableHlo.nullary main_cst_74 (constant S_ .f32 0x00000000#32),
    StableHlo.unary main_cst_74 main_v404 (broadcastInDim S50000 ![] bcast_S_S50000 : (⟨S_, .f32⟩ : BufTy).Contents (Elt F) → (⟨S50000, .f32⟩ : BufTy).Contents (Elt F)),
    StableHlo.unary main_v401 main_v405 (broadcastInDim S800000x1 ![0] bcast_S800000_S800000x1_0 : (⟨S800000, .i32⟩ : BufTy).Contents (Elt F) → (⟨S800000x1, .i32⟩ : BufTy).Contents (Elt F)),
    StableHlo.ternary main_v404 main_v405 main_v399 main_v406 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_75 (constant S_ .f32 0x00000000#32),
    StableHlo.unary main_cst_75 main_v407 (broadcastInDim S50000 ![] bcast_S_S50000 : (⟨S_, .f32⟩ : BufTy).Contents (Elt F) → (⟨S50000, .f32⟩ : BufTy).Contents (Elt F)),
    StableHlo.unary main_v403 main_v408 (broadcastInDim S800000x1 ![0] bcast_S800000_S800000x1_0 : (⟨S800000, .i32⟩ : BufTy).Contents (Elt F) → (⟨S800000x1, .i32⟩ : BufTy).Contents (Elt F)),
    StableHlo.ternary main_v407 main_v408 main_v399 main_v409 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_76 (constant S_ .f32 0x3F800000#32),
    StableHlo.unary main_cst_76 main_v410 (broadcastInDim S50000 ![] bcast_S_S50000 : (⟨S_, .f32⟩ : BufTy).Contents (Elt F) → (⟨S50000, .f32⟩ : BufTy).Contents (Elt F)),
    StableHlo.binary main_v406 main_v410 main_v411 (maximumf : (⟨S50000, .f32⟩ : BufTy).Contents (Elt F) → (⟨S50000, .f32⟩ : BufTy).Contents (Elt F) → (⟨S50000, .f32⟩ : BufTy).Contents (Elt F)),
    StableHlo.unary main_v411 main_v412 (Host.rsqrt : (⟨S50000, .f32⟩ : BufTy).Contents (Elt F) → (⟨S50000, .f32⟩ : BufTy).Contents (Elt F)),
    StableHlo.unary main_v412 main_v413 (broadcastInDim S50000x1 ![0] bcast_S50000_S50000x1_0 : (⟨S50000, .f32⟩ : BufTy).Contents (Elt F) → (⟨S50000x1, .f32⟩ : BufTy).Contents (Elt F)),
    StableHlo.unary main_v413 main_v414 (broadcastInDim S50000x128 ![0, 1] bcast_S50000x1_S50000x128_0_1 : (⟨S50000x1, .f32⟩ : BufTy).Contents (Elt F) → (⟨S50000x128, .f32⟩ : BufTy).Contents (Elt F)),
    StableHlo.binary main_v394 main_v414 main_v415 (mulf : (⟨S50000x128, .f32⟩ : BufTy).Contents (Elt F) → (⟨S50000x128, .f32⟩ : BufTy).Contents (Elt F) → (⟨S50000x128, .f32⟩ : BufTy).Contents (Elt F)),
    StableHlo.nullary main_c_77 (constantI S_ 32 0#32),
    StableHlo.unary main_c_77 main_v416 (broadcastInDim S800000 ![] bcast_S_S800000 : (⟨S_, .i32⟩ : BufTy).Contents (Elt F) → (⟨S800000, .i32⟩ : BufTy).Contents (Elt F)),
    StableHlo.binary main_v401 main_v416 main_v417 (cmpi .slt : (⟨S800000, .i32⟩ : BufTy).Contents (Elt F) → (⟨S800000, .i32⟩ : BufTy).Contents (Elt F) → (⟨S800000, .i1⟩ : BufTy).Contents (Elt F)),
    StableHlo.nullary main_c_78 (constantI S_ 32 50000#32),
    StableHlo.unary main_c_78 main_v418 (broadcastInDim S800000 ![] bcast_S_S800000 : (⟨S_, .i32⟩ : BufTy).Contents (Elt F) → (⟨S800000, .i32⟩ : BufTy).Contents (Elt F)),
    StableHlo.binary main_v401 main_v418 main_v419 (addi : (⟨S800000, .i32⟩ : BufTy).Contents (Elt F) → (⟨S800000, .i32⟩ : BufTy).Contents (Elt F) → (⟨S800000, .i32⟩ : BufTy).Contents (Elt F)),
    StableHlo.ternary main_v417 main_v419 main_v401 main_v420 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v420 main_v421 (broadcastInDim S800000x1 ![0] bcast_S800000_S800000x1_0 : (⟨S800000, .i32⟩ : BufTy).Contents (Elt F) → (⟨S800000x1, .i32⟩ : BufTy).Contents (Elt F)),
    StableHlo.binary main_v415 main_v421 main_v422 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_79 (constant S_ .f32 0x00000000#32),
    StableHlo.unary main_cst_79 main_v423 (broadcastInDim S50000x128 ![] bcast_S_S50000x128 : (⟨S_, .f32⟩ : BufTy).Contents (Elt F) → (⟨S50000x128, .f32⟩ : BufTy).Contents (Elt F)),
    StableHlo.unary main_v403 main_v424 (broadcastInDim S800000x1 ![0] bcast_S800000_S800000x1_0 : (⟨S800000, .i32⟩ : BufTy).Contents (Elt F) → (⟨S800000x1, .i32⟩ : BufTy).Contents (Elt F)),
    StableHlo.ternary main_v423 main_v424 main_v422 main_v425 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_80 (constant S_ .f32 0x3F800000#32),
    StableHlo.unary main_cst_80 main_v426 (broadcastInDim S50000 ![] bcast_S_S50000 : (⟨S_, .f32⟩ : BufTy).Contents (Elt F) → (⟨S50000, .f32⟩ : BufTy).Contents (Elt F)),
    StableHlo.binary main_v409 main_v426 main_v427 (maximumf : (⟨S50000, .f32⟩ : BufTy).Contents (Elt F) → (⟨S50000, .f32⟩ : BufTy).Contents (Elt F) → (⟨S50000, .f32⟩ : BufTy).Contents (Elt F)),
    StableHlo.unary main_v427 main_v428 (Host.rsqrt : (⟨S50000, .f32⟩ : BufTy).Contents (Elt F) → (⟨S50000, .f32⟩ : BufTy).Contents (Elt F)),
    StableHlo.unary main_v428 main_v429 (broadcastInDim S50000x1 ![0] bcast_S50000_S50000x1_0 : (⟨S50000, .f32⟩ : BufTy).Contents (Elt F) → (⟨S50000x1, .f32⟩ : BufTy).Contents (Elt F)),
    StableHlo.unary main_v429 main_v430 (broadcastInDim S50000x128 ![0, 1] bcast_S50000x1_S50000x128_0_1 : (⟨S50000x1, .f32⟩ : BufTy).Contents (Elt F) → (⟨S50000x128, .f32⟩ : BufTy).Contents (Elt F)),
    StableHlo.binary main_v425 main_v430 main_v431 (mulf : (⟨S50000x128, .f32⟩ : BufTy).Contents (Elt F) → (⟨S50000x128, .f32⟩ : BufTy).Contents (Elt F) → (⟨S50000x128, .f32⟩ : BufTy).Contents (Elt F)),
    StableHlo.unary main_v396 main_v432 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v432 main_v433 rfl shapeCasts_S1x128x128_S128x128,
    StableHlo.binary main_v431 main_v433 main_v434 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v398 main_v435 ((extractStridedSlice S1x128 ![0, 0] · slices_S3x128_S1x128_0_0) : (⟨S3x128, .f32⟩ : BufTy).Contents (Elt F) → (⟨S1x128, .f32⟩ : BufTy).Contents (Elt F)),
    StableHlo.reshape main_v435 main_v436 rfl shapeCasts_S1x128_S128,
    StableHlo.unary main_v436 main_v437 (broadcastInDim S1x128 ![1] bcast_S128_S1x128_1 : (⟨S128, .f32⟩ : BufTy).Contents (Elt F) → (⟨S1x128, .f32⟩ : BufTy).Contents (Elt F)),
    StableHlo.unary main_v437 main_v438 (broadcastInDim S50000x128 ![0, 1] bcast_S1x128_S50000x128_0_1 : (⟨S1x128, .f32⟩ : BufTy).Contents (Elt F) → (⟨S50000x128, .f32⟩ : BufTy).Contents (Elt F)),
    StableHlo.binary main_v434 main_v438 main_v439 (addf : (⟨S50000x128, .f32⟩ : BufTy).Contents (Elt F) → (⟨S50000x128, .f32⟩ : BufTy).Contents (Elt F) → (⟨S50000x128, .f32⟩ : BufTy).Contents (Elt F)) ]

/-- Layer 3, stretch rel1 (47 operations). -/
def r3_rel1 : List (HloOp τ sig (Elt F)) :=
  [ StableHlo.unary main_arg1 main_v440 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v440 main_v441 rfl shapeCasts_S1x800000_S800000,
    StableHlo.unary main_arg2 main_v442 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v442 main_v443 rfl shapeCasts_S1x800000_S800000,
    StableHlo.nullary main_cst_81 (constant S_ .f32 0x00000000#32),
    StableHlo.unary main_cst_81 main_v444 (broadcastInDim S50000 ![] bcast_S_S50000 : (⟨S_, .f32⟩ : BufTy).Contents (Elt F) → (⟨S50000, .f32⟩ : BufTy).Contents (Elt F)),
    StableHlo.unary main_v441 main_v445 (broadcastInDim S800000x1 ![0] bcast_S800000_S800000x1_0 : (⟨S800000, .i32⟩ : BufTy).Contents (Elt F) → (⟨S800000x1, .i32⟩ : BufTy).Contents (Elt F)),
    StableHlo.ternary main_v444 main_v445 main_v399 main_v446 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_82 (constant S_ .f32 0x00000000#32),
    StableHlo.unary main_cst_82 main_v447 (broadcastInDim S50000 ![] bcast_S_S50000 : (⟨S_, .f32⟩ : BufTy).Contents (Elt F) → (⟨S50000, .f32⟩ : BufTy).Contents (Elt F)),
    StableHlo.unary main_v443 main_v448 (broadcastInDim S800000x1 ![0] bcast_S800000_S800000x1_0 : (⟨S800000, .i32⟩ : BufTy).Contents (Elt F) → (⟨S800000x1, .i32⟩ : BufTy).Contents (Elt F)),
    StableHlo.ternary main_v447 main_v448 main_v399 main_v449 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_83 (constant S_ .f32 0x3F800000#32),
    StableHlo.unary main_cst_83 main_v450 (broadcastInDim S50000 ![] bcast_S_S50000 : (⟨S_, .f32⟩ : BufTy).Contents (Elt F) → (⟨S50000, .f32⟩ : BufTy).Contents (Elt F)),
    StableHlo.binary main_v446 main_v450 main_v451 (maximumf : (⟨S50000, .f32⟩ : BufTy).Contents (Elt F) → (⟨S50000, .f32⟩ : BufTy).Contents (Elt F) → (⟨S50000, .f32⟩ : BufTy).Contents (Elt F)),
    StableHlo.unary main_v451 main_v452 (Host.rsqrt : (⟨S50000, .f32⟩ : BufTy).Contents (Elt F) → (⟨S50000, .f32⟩ : BufTy).Contents (Elt F)),
    StableHlo.unary main_v452 main_v453 (broadcastInDim S50000x1 ![0] bcast_S50000_S50000x1_0 : (⟨S50000, .f32⟩ : BufTy).Contents (Elt F) → (⟨S50000x1, .f32⟩ : BufTy).Contents (Elt F)),
    StableHlo.unary main_v453 main_v454 (broadcastInDim S50000x128 ![0, 1] bcast_S50000x1_S50000x128_0_1 : (⟨S50000x1, .f32⟩ : BufTy).Contents (Elt F) → (⟨S50000x128, .f32⟩ : BufTy).Contents (Elt F)),
    StableHlo.binary main_v394 main_v454 main_v455 (mulf : (⟨S50000x128, .f32⟩ : BufTy).Contents (Elt F) → (⟨S50000x128, .f32⟩ : BufTy).Contents (Elt F) → (⟨S50000x128, .f32⟩ : BufTy).Contents (Elt F)),
    StableHlo.nullary main_c_84 (constantI S_ 32 0#32),
    StableHlo.unary main_c_84 main_v456 (broadcastInDim S800000 ![] bcast_S_S800000 : (⟨S_, .i32⟩ : BufTy).Contents (Elt F) → (⟨S800000, .i32⟩ : BufTy).Contents (Elt F)),
    StableHlo.binary main_v441 main_v456 main_v457 (cmpi .slt : (⟨S800000, .i32⟩ : BufTy).Contents (Elt F) → (⟨S800000, .i32⟩ : BufTy).Contents (Elt F) → (⟨S800000, .i1⟩ : BufTy).Contents (Elt F)),
    StableHlo.nullary main_c_85 (constantI S_ 32 50000#32),
    StableHlo.unary main_c_85 main_v458 (broadcastInDim S800000 ![] bcast_S_S800000 : (⟨S_, .i32⟩ : BufTy).Contents (Elt F) → (⟨S800000, .i32⟩ : BufTy).Contents (Elt F)),
    StableHlo.binary main_v441 main_v458 main_v459 (addi : (⟨S800000, .i32⟩ : BufTy).Contents (Elt F) → (⟨S800000, .i32⟩ : BufTy).Contents (Elt F) → (⟨S800000, .i32⟩ : BufTy).Contents (Elt F)),
    StableHlo.ternary main_v457 main_v459 main_v441 main_v460 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v460 main_v461 (broadcastInDim S800000x1 ![0] bcast_S800000_S800000x1_0 : (⟨S800000, .i32⟩ : BufTy).Contents (Elt F) → (⟨S800000x1, .i32⟩ : BufTy).Contents (Elt F)),
    StableHlo.binary main_v455 main_v461 main_v462 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_86 (constant S_ .f32 0x00000000#32),
    StableHlo.unary main_cst_86 main_v463 (broadcastInDim S50000x128 ![] bcast_S_S50000x128 : (⟨S_, .f32⟩ : BufTy).Contents (Elt F) → (⟨S50000x128, .f32⟩ : BufTy).Contents (Elt F)),
    StableHlo.unary main_v443 main_v464 (broadcastInDim S800000x1 ![0] bcast_S800000_S800000x1_0 : (⟨S800000, .i32⟩ : BufTy).Contents (Elt F) → (⟨S800000x1, .i32⟩ : BufTy).Contents (Elt F)),
    StableHlo.ternary main_v463 main_v464 main_v462 main_v465 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_87 (constant S_ .f32 0x3F800000#32),
    StableHlo.unary main_cst_87 main_v466 (broadcastInDim S50000 ![] bcast_S_S50000 : (⟨S_, .f32⟩ : BufTy).Contents (Elt F) → (⟨S50000, .f32⟩ : BufTy).Contents (Elt F)),
    StableHlo.binary main_v449 main_v466 main_v467 (maximumf : (⟨S50000, .f32⟩ : BufTy).Contents (Elt F) → (⟨S50000, .f32⟩ : BufTy).Contents (Elt F) → (⟨S50000, .f32⟩ : BufTy).Contents (Elt F)),
    StableHlo.unary main_v467 main_v468 (Host.rsqrt : (⟨S50000, .f32⟩ : BufTy).Contents (Elt F) → (⟨S50000, .f32⟩ : BufTy).Contents (Elt F)),
    StableHlo.unary main_v468 main_v469 (broadcastInDim S50000x1 ![0] bcast_S50000_S50000x1_0 : (⟨S50000, .f32⟩ : BufTy).Contents (Elt F) → (⟨S50000x1, .f32⟩ : BufTy).Contents (Elt F)),
    StableHlo.unary main_v469 main_v470 (broadcastInDim S50000x128 ![0, 1] bcast_S50000x1_S50000x128_0_1 : (⟨S50000x1, .f32⟩ : BufTy).Contents (Elt F) → (⟨S50000x128, .f32⟩ : BufTy).Contents (Elt F)),
    StableHlo.binary main_v465 main_v470 main_v471 (mulf : (⟨S50000x128, .f32⟩ : BufTy).Contents (Elt F) → (⟨S50000x128, .f32⟩ : BufTy).Contents (Elt F) → (⟨S50000x128, .f32⟩ : BufTy).Contents (Elt F)),
    StableHlo.unary main_v396 main_v472 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v472 main_v473 rfl shapeCasts_S1x128x128_S128x128,
    StableHlo.binary main_v471 main_v473 main_v474 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v398 main_v475 ((extractStridedSlice S1x128 ![1, 0] · slices_S3x128_S1x128_1_0) : (⟨S3x128, .f32⟩ : BufTy).Contents (Elt F) → (⟨S1x128, .f32⟩ : BufTy).Contents (Elt F)),
    StableHlo.reshape main_v475 main_v476 rfl shapeCasts_S1x128_S128,
    StableHlo.unary main_v476 main_v477 (broadcastInDim S1x128 ![1] bcast_S128_S1x128_1 : (⟨S128, .f32⟩ : BufTy).Contents (Elt F) → (⟨S1x128, .f32⟩ : BufTy).Contents (Elt F)),
    StableHlo.unary main_v477 main_v478 (broadcastInDim S50000x128 ![0, 1] bcast_S1x128_S50000x128_0_1 : (⟨S1x128, .f32⟩ : BufTy).Contents (Elt F) → (⟨S50000x128, .f32⟩ : BufTy).Contents (Elt F)),
    StableHlo.binary main_v474 main_v478 main_v479 (addf : (⟨S50000x128, .f32⟩ : BufTy).Contents (Elt F) → (⟨S50000x128, .f32⟩ : BufTy).Contents (Elt F) → (⟨S50000x128, .f32⟩ : BufTy).Contents (Elt F)) ]

/-- Layer 3, stretch rel2 (47 operations). -/
def r3_rel2 : List (HloOp τ sig (Elt F)) :=
  [ StableHlo.unary main_arg1 main_v480 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v480 main_v481 rfl shapeCasts_S1x800000_S800000,
    StableHlo.unary main_arg2 main_v482 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v482 main_v483 rfl shapeCasts_S1x800000_S800000,
    StableHlo.nullary main_cst_88 (constant S_ .f32 0x00000000#32),
    StableHlo.unary main_cst_88 main_v484 (broadcastInDim S50000 ![] bcast_S_S50000 : (⟨S_, .f32⟩ : BufTy).Contents (Elt F) → (⟨S50000, .f32⟩ : BufTy).Contents (Elt F)),
    StableHlo.unary main_v481 main_v485 (broadcastInDim S800000x1 ![0] bcast_S800000_S800000x1_0 : (⟨S800000, .i32⟩ : BufTy).Contents (Elt F) → (⟨S800000x1, .i32⟩ : BufTy).Contents (Elt F)),
    StableHlo.ternary main_v484 main_v485 main_v399 main_v486 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_89 (constant S_ .f32 0x00000000#32),
    StableHlo.unary main_cst_89 main_v487 (broadcastInDim S50000 ![] bcast_S_S50000 : (⟨S_, .f32⟩ : BufTy).Contents (Elt F) → (⟨S50000, .f32⟩ : BufTy).Contents (Elt F)),
    StableHlo.unary main_v483 main_v488 (broadcastInDim S800000x1 ![0] bcast_S800000_S800000x1_0 : (⟨S800000, .i32⟩ : BufTy).Contents (Elt F) → (⟨S800000x1, .i32⟩ : BufTy).Contents (Elt F)),
    StableHlo.ternary main_v487 main_v488 main_v399 main_v489 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_90 (constant S_ .f32 0x3F800000#32),
    StableHlo.unary main_cst_90 main_v490 (broadcastInDim S50000 ![] bcast_S_S50000 : (⟨S_, .f32⟩ : BufTy).Contents (Elt F) → (⟨S50000, .f32⟩ : BufTy).Contents (Elt F)),
    StableHlo.binary main_v486 main_v490 main_v491 (maximumf : (⟨S50000, .f32⟩ : BufTy).Contents (Elt F) → (⟨S50000, .f32⟩ : BufTy).Contents (Elt F) → (⟨S50000, .f32⟩ : BufTy).Contents (Elt F)),
    StableHlo.unary main_v491 main_v492 (Host.rsqrt : (⟨S50000, .f32⟩ : BufTy).Contents (Elt F) → (⟨S50000, .f32⟩ : BufTy).Contents (Elt F)),
    StableHlo.unary main_v492 main_v493 (broadcastInDim S50000x1 ![0] bcast_S50000_S50000x1_0 : (⟨S50000, .f32⟩ : BufTy).Contents (Elt F) → (⟨S50000x1, .f32⟩ : BufTy).Contents (Elt F)),
    StableHlo.unary main_v493 main_v494 (broadcastInDim S50000x128 ![0, 1] bcast_S50000x1_S50000x128_0_1 : (⟨S50000x1, .f32⟩ : BufTy).Contents (Elt F) → (⟨S50000x128, .f32⟩ : BufTy).Contents (Elt F)),
    StableHlo.binary main_v394 main_v494 main_v495 (mulf : (⟨S50000x128, .f32⟩ : BufTy).Contents (Elt F) → (⟨S50000x128, .f32⟩ : BufTy).Contents (Elt F) → (⟨S50000x128, .f32⟩ : BufTy).Contents (Elt F)),
    StableHlo.nullary main_c_91 (constantI S_ 32 0#32),
    StableHlo.unary main_c_91 main_v496 (broadcastInDim S800000 ![] bcast_S_S800000 : (⟨S_, .i32⟩ : BufTy).Contents (Elt F) → (⟨S800000, .i32⟩ : BufTy).Contents (Elt F)),
    StableHlo.binary main_v481 main_v496 main_v497 (cmpi .slt : (⟨S800000, .i32⟩ : BufTy).Contents (Elt F) → (⟨S800000, .i32⟩ : BufTy).Contents (Elt F) → (⟨S800000, .i1⟩ : BufTy).Contents (Elt F)),
    StableHlo.nullary main_c_92 (constantI S_ 32 50000#32),
    StableHlo.unary main_c_92 main_v498 (broadcastInDim S800000 ![] bcast_S_S800000 : (⟨S_, .i32⟩ : BufTy).Contents (Elt F) → (⟨S800000, .i32⟩ : BufTy).Contents (Elt F)),
    StableHlo.binary main_v481 main_v498 main_v499 (addi : (⟨S800000, .i32⟩ : BufTy).Contents (Elt F) → (⟨S800000, .i32⟩ : BufTy).Contents (Elt F) → (⟨S800000, .i32⟩ : BufTy).Contents (Elt F)),
    StableHlo.ternary main_v497 main_v499 main_v481 main_v500 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v500 main_v501 (broadcastInDim S800000x1 ![0] bcast_S800000_S800000x1_0 : (⟨S800000, .i32⟩ : BufTy).Contents (Elt F) → (⟨S800000x1, .i32⟩ : BufTy).Contents (Elt F)),
    StableHlo.binary main_v495 main_v501 main_v502 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_93 (constant S_ .f32 0x00000000#32),
    StableHlo.unary main_cst_93 main_v503 (broadcastInDim S50000x128 ![] bcast_S_S50000x128 : (⟨S_, .f32⟩ : BufTy).Contents (Elt F) → (⟨S50000x128, .f32⟩ : BufTy).Contents (Elt F)),
    StableHlo.unary main_v483 main_v504 (broadcastInDim S800000x1 ![0] bcast_S800000_S800000x1_0 : (⟨S800000, .i32⟩ : BufTy).Contents (Elt F) → (⟨S800000x1, .i32⟩ : BufTy).Contents (Elt F)),
    StableHlo.ternary main_v503 main_v504 main_v502 main_v505 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_94 (constant S_ .f32 0x3F800000#32),
    StableHlo.unary main_cst_94 main_v506 (broadcastInDim S50000 ![] bcast_S_S50000 : (⟨S_, .f32⟩ : BufTy).Contents (Elt F) → (⟨S50000, .f32⟩ : BufTy).Contents (Elt F)),
    StableHlo.binary main_v489 main_v506 main_v507 (maximumf : (⟨S50000, .f32⟩ : BufTy).Contents (Elt F) → (⟨S50000, .f32⟩ : BufTy).Contents (Elt F) → (⟨S50000, .f32⟩ : BufTy).Contents (Elt F)),
    StableHlo.unary main_v507 main_v508 (Host.rsqrt : (⟨S50000, .f32⟩ : BufTy).Contents (Elt F) → (⟨S50000, .f32⟩ : BufTy).Contents (Elt F)),
    StableHlo.unary main_v508 main_v509 (broadcastInDim S50000x1 ![0] bcast_S50000_S50000x1_0 : (⟨S50000, .f32⟩ : BufTy).Contents (Elt F) → (⟨S50000x1, .f32⟩ : BufTy).Contents (Elt F)),
    StableHlo.unary main_v509 main_v510 (broadcastInDim S50000x128 ![0, 1] bcast_S50000x1_S50000x128_0_1 : (⟨S50000x1, .f32⟩ : BufTy).Contents (Elt F) → (⟨S50000x128, .f32⟩ : BufTy).Contents (Elt F)),
    StableHlo.binary main_v505 main_v510 main_v511 (mulf : (⟨S50000x128, .f32⟩ : BufTy).Contents (Elt F) → (⟨S50000x128, .f32⟩ : BufTy).Contents (Elt F) → (⟨S50000x128, .f32⟩ : BufTy).Contents (Elt F)),
    StableHlo.unary main_v396 main_v512 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v512 main_v513 rfl shapeCasts_S1x128x128_S128x128,
    StableHlo.binary main_v511 main_v513 main_v514 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v398 main_v515 ((extractStridedSlice S1x128 ![2, 0] · slices_S3x128_S1x128_2_0) : (⟨S3x128, .f32⟩ : BufTy).Contents (Elt F) → (⟨S1x128, .f32⟩ : BufTy).Contents (Elt F)),
    StableHlo.reshape main_v515 main_v516 rfl shapeCasts_S1x128_S128,
    StableHlo.unary main_v516 main_v517 (broadcastInDim S1x128 ![1] bcast_S128_S1x128_1 : (⟨S128, .f32⟩ : BufTy).Contents (Elt F) → (⟨S1x128, .f32⟩ : BufTy).Contents (Elt F)),
    StableHlo.unary main_v517 main_v518 (broadcastInDim S50000x128 ![0, 1] bcast_S1x128_S50000x128_0_1 : (⟨S1x128, .f32⟩ : BufTy).Contents (Elt F) → (⟨S50000x128, .f32⟩ : BufTy).Contents (Elt F)),
    StableHlo.binary main_v514 main_v518 main_v519 (addf : (⟨S50000x128, .f32⟩ : BufTy).Contents (Elt F) → (⟨S50000x128, .f32⟩ : BufTy).Contents (Elt F) → (⟨S50000x128, .f32⟩ : BufTy).Contents (Elt F)) ]

/-- Layer 3, stretch tail (17 operations). -/
def r3_tail : List (HloOp τ sig (Elt F)) :=
  [ StableHlo.unary main_v439 main_v520 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v479 main_v521 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v519 main_v522 (broadcastInDim S1x50000x128 ![1, 2] bcast_S50000x128_S1x50000x128_1_2 : (⟨S50000x128, .f32⟩ : BufTy).Contents (Elt F) → (⟨S1x50000x128, .f32⟩ : BufTy).Contents (Elt F)),
    StableHlo.nary ![main_v520, main_v521, main_v522] main_v523 (fun u => concatenate S3x50000x128 0 [⟨S1x50000x128, u 0⟩, ⟨S1x50000x128, u 1⟩, ⟨S1x50000x128, u 2⟩] concatenates_S1x50000x128_S1x50000x128_S1x50000x128_S3x50000x128_d0),
    StableHlo.nullary main_cst_95 (constant S_ .f32 0x00000000#32),
    StableHlo.binary main_v523 main_cst_95 main_v524 ((fun x v => Host.reduceAdd x v reducesTo_S3x50000x128_S50000x128_d0 h_S_) : (⟨S3x50000x128, .f32⟩ : BufTy).Contents (Elt F) → (⟨S_, .f32⟩ : BufTy).Contents (Elt F) → (⟨S50000x128, .f32⟩ : BufTy).Contents (Elt F)),
    StableHlo.nullary main_cst_96 (constant S_ .f32 0x40400000#32),
    StableHlo.unary main_cst_96 main_v525 (broadcastInDim S50000x128 ![] bcast_S_S50000x128 : (⟨S_, .f32⟩ : BufTy).Contents (Elt F) → (⟨S50000x128, .f32⟩ : BufTy).Contents (Elt F)),
    StableHlo.binary main_v524 main_v525 main_v526 (Host.divf : (⟨S50000x128, .f32⟩ : BufTy).Contents (Elt F) → (⟨S50000x128, .f32⟩ : BufTy).Contents (Elt F) → (⟨S50000x128, .f32⟩ : BufTy).Contents (Elt F)),
    StableHlo.nullary main_cst_97 (constant S_ .f32 0x3C23D70A#32),
    TRef.nullary main_call3.cst (constant S_ .f32 0x00000000#32),
    TRef.unary main_call3.cst main_call3.v0 (broadcastInDim S50000x128 ![] bcast_S_S50000x128),
    TRef.binary (.of main_v526) main_call3.v0 main_call3.v1 (cmpf .oge),
    TRef.unary (.of main_cst_97) main_call3.v2 id,
    TRef.unary main_call3.v2 main_call3.v3 (broadcastInDim S50000x128 ![] bcast_S_S50000x128),
    TRef.binary main_call3.v3 (.of main_v526) main_call3.v4 mulf,
    TRef.ternary main_call3.v1 (.of main_v526) main_call3.v4 main_call3.call0.v0 select ]

theorem r3_split : (opsL3 : List (HloOp τ sig (Elt F))) = r3_pre ++ (r3_rel0 ++ (r3_rel1 ++ (r3_rel2 ++ r3_tail))) := rfl

def r3_pre_W : List (Ref sig .tc) :=
  [main_v395, main_v396, main_v397, main_v398, main_cst_73, main_v399]

theorem r3_pre_writes : (r3_pre : List (HloOp τ sig (Elt F))).Forall fun op => op.writes ⊆ (r3_pre_W.map (Proc.devRef (τ := τ) .tc)).toFinset := by
  host_writes r3_pre

theorem r3_pre_keeps (W : Valuation τ sig (Elt F)) {x : Ref sig .tc} (hx : x ∉ r3_pre_W) :
    after r3_pre W (Proc.devRef .tc x) = W (Proc.devRef .tc x) :=
  after_of_writes_sub r3_pre W r3_pre_writes hx

def r3_rel0_W : List (Ref sig .tc) :=
  [main_v400, main_v401, main_v402, main_v403, main_cst_74, main_v404, main_v405, main_v406, main_cst_75, main_v407, main_v408, main_v409, main_cst_76, main_v410, main_v411, main_v412, main_v413, main_v414, main_v415, main_c_77, main_v416, main_v417, main_c_78, main_v418, main_v419, main_v420, main_v421, main_v422, main_cst_79, main_v423, main_v424, main_v425, main_cst_80, main_v426, main_v427, main_v428, main_v429, main_v430, main_v431, main_v432, main_v433, main_v434, main_v435, main_v436, main_v437, main_v438, main_v439]

theorem r3_rel0_writes : (r3_rel0 : List (HloOp τ sig (Elt F))).Forall fun op => op.writes ⊆ (r3_rel0_W.map (Proc.devRef (τ := τ) .tc)).toFinset := by
  host_writes r3_rel0

theorem r3_rel0_keeps (W : Valuation τ sig (Elt F)) {x : Ref sig .tc} (hx : x ∉ r3_rel0_W) :
    after r3_rel0 W (Proc.devRef .tc x) = W (Proc.devRef .tc x) :=
  after_of_writes_sub r3_rel0 W r3_rel0_writes hx

def r3_rel1_W : List (Ref sig .tc) :=
  [main_v440, main_v441, main_v442, main_v443, main_cst_81, main_v444, main_v445, main_v446, main_cst_82, main_v447, main_v448, main_v449, main_cst_83, main_v450, main_v451, main_v452, main_v453, main_v454, main_v455, main_c_84, main_v456, main_v457, main_c_85, main_v458, main_v459, main_v460, main_v461, main_v462, main_cst_86, main_v463, main_v464, main_v465, main_cst_87, main_v466, main_v467, main_v468, main_v469, main_v470, main_v471, main_v472, main_v473, main_v474, main_v475, main_v476, main_v477, main_v478, main_v479]

theorem r3_rel1_writes : (r3_rel1 : List (HloOp τ sig (Elt F))).Forall fun op => op.writes ⊆ (r3_rel1_W.map (Proc.devRef (τ := τ) .tc)).toFinset := by
  host_writes r3_rel1

theorem r3_rel1_keeps (W : Valuation τ sig (Elt F)) {x : Ref sig .tc} (hx : x ∉ r3_rel1_W) :
    after r3_rel1 W (Proc.devRef .tc x) = W (Proc.devRef .tc x) :=
  after_of_writes_sub r3_rel1 W r3_rel1_writes hx

def r3_rel2_W : List (Ref sig .tc) :=
  [main_v480, main_v481, main_v482, main_v483, main_cst_88, main_v484, main_v485, main_v486, main_cst_89, main_v487, main_v488, main_v489, main_cst_90, main_v490, main_v491, main_v492, main_v493, main_v494, main_v495, main_c_91, main_v496, main_v497, main_c_92, main_v498, main_v499, main_v500, main_v501, main_v502, main_cst_93, main_v503, main_v504, main_v505, main_cst_94, main_v506, main_v507, main_v508, main_v509, main_v510, main_v511, main_v512, main_v513, main_v514, main_v515, main_v516, main_v517, main_v518, main_v519]

theorem r3_rel2_writes : (r3_rel2 : List (HloOp τ sig (Elt F))).Forall fun op => op.writes ⊆ (r3_rel2_W.map (Proc.devRef (τ := τ) .tc)).toFinset := by
  host_writes r3_rel2

theorem r3_rel2_keeps (W : Valuation τ sig (Elt F)) {x : Ref sig .tc} (hx : x ∉ r3_rel2_W) :
    after r3_rel2 W (Proc.devRef .tc x) = W (Proc.devRef .tc x) :=
  after_of_writes_sub r3_rel2 W r3_rel2_writes hx

/-- The preamble leaves the vector of ones. -/
theorem r3_pre_ones (W : Valuation τ sig (Elt Ideal)) : after r3_pre W (Proc.devRef .tc main_v399) = edgeOnes := by
  unfold r3_pre
  after_results_simp
  rfl

/-- The preamble leaves this layer's weights. -/
theorem r3_pre_wgt (W : Valuation τ sig (Elt Ideal)) : after r3_pre W (Proc.devRef .tc main_v396) = (layerW (W (Proc.devRef .tc main_arg5)) 2 slices_S4x3x128x128_S1x3x128x128_2_0_0_0) := by
  unfold r3_pre
  after_results_simp
  rfl

/-- The preamble leaves this layer's biases. -/
theorem r3_pre_bia (W : Valuation τ sig (Elt Ideal)) : after r3_pre W (Proc.devRef .tc main_v398) = (layerB (W (Proc.devRef .tc main_arg6)) 2 slices_S4x3x128_S1x3x128_2_0_0) := by
  unfold r3_pre
  after_results_simp
  rfl

set_option maxHeartbeats 4000000 in
/-- Relation 0's block, from contents whose ones buffer holds the ones: its result is the relation's dense term of the aggregate. -/
theorem r3_rel0_read (W : Valuation τ sig (Elt Ideal)) (h1 : W (Proc.devRef .tc main_v399) = edgeOnes) :
    after r3_rel0 W (Proc.devRef .tc main_v439) =
      refDense (aggOf (W (Proc.devRef .tc main_v394)) (rowOf (W (Proc.devRef .tc main_arg1)) 0 slices_S3x800000_S1x800000_0_0) (rowOf (W (Proc.devRef .tc main_arg2)) 0 slices_S3x800000_S1x800000_0_0)
          (degOf (rowOf (W (Proc.devRef .tc main_arg1)) 0 slices_S3x800000_S1x800000_0_0)) (degOf (rowOf (W (Proc.devRef .tc main_arg2)) 0 slices_S3x800000_S1x800000_0_0)))
        (W (Proc.devRef .tc main_v396)) (W (Proc.devRef .tc main_v398)) 0 slices_S3x128x128_S1x128x128_0_0_0 slices_S3x128_S1x128_0_0 := by
  unfold r3_rel0
  after_results_simp
  rw [h1]
  rfl

set_option maxHeartbeats 4000000 in
/-- Relation 1's block, from contents whose ones buffer holds the ones: its result is the relation's dense term of the aggregate. -/
theorem r3_rel1_read (W : Valuation τ sig (Elt Ideal)) (h1 : W (Proc.devRef .tc main_v399) = edgeOnes) :
    after r3_rel1 W (Proc.devRef .tc main_v479) =
      refDense (aggOf (W (Proc.devRef .tc main_v394)) (rowOf (W (Proc.devRef .tc main_arg1)) 1 slices_S3x800000_S1x800000_1_0) (rowOf (W (Proc.devRef .tc main_arg2)) 1 slices_S3x800000_S1x800000_1_0)
          (degOf (rowOf (W (Proc.devRef .tc main_arg1)) 1 slices_S3x800000_S1x800000_1_0)) (degOf (rowOf (W (Proc.devRef .tc main_arg2)) 1 slices_S3x800000_S1x800000_1_0)))
        (W (Proc.devRef .tc main_v396)) (W (Proc.devRef .tc main_v398)) 1 slices_S3x128x128_S1x128x128_1_0_0 slices_S3x128_S1x128_1_0 := by
  unfold r3_rel1
  after_results_simp
  rw [h1]
  rfl

set_option maxHeartbeats 4000000 in
/-- Relation 2's block, from contents whose ones buffer holds the ones: its result is the relation's dense term of the aggregate. -/
theorem r3_rel2_read (W : Valuation τ sig (Elt Ideal)) (h1 : W (Proc.devRef .tc main_v399) = edgeOnes) :
    after r3_rel2 W (Proc.devRef .tc main_v519) =
      refDense (aggOf (W (Proc.devRef .tc main_v394)) (rowOf (W (Proc.devRef .tc main_arg1)) 2 slices_S3x800000_S1x800000_2_0) (rowOf (W (Proc.devRef .tc main_arg2)) 2 slices_S3x800000_S1x800000_2_0)
          (degOf (rowOf (W (Proc.devRef .tc main_arg1)) 2 slices_S3x800000_S1x800000_2_0)) (degOf (rowOf (W (Proc.devRef .tc main_arg2)) 2 slices_S3x800000_S1x800000_2_0)))
        (W (Proc.devRef .tc main_v396)) (W (Proc.devRef .tc main_v398)) 2 slices_S3x128x128_S1x128x128_2_0_0 slices_S3x128_S1x128_2_0 := by
  unfold r3_rel2
  after_results_simp
  rw [h1]
  rfl

/-- The tail: the mean of the three relations' terms, then the rectifier. -/
theorem r3_tail_read (W : Valuation τ sig (Elt Ideal)) :
    after r3_tail W (Proc.devRef .tc main_v527) = refLeaky (refMean (W (Proc.devRef .tc main_v439)) (W (Proc.devRef .tc main_v479)) (W (Proc.devRef .tc main_v519))) := by
  unfold r3_tail
  after_results_simp
  rfl

/-- The contents after the preamble, and after each relation's block. -/
def r3_W0 (V : Valuation τ sig (Elt Ideal)) : Valuation τ sig (Elt Ideal) := after r3_pre V
@[inherit_doc r3_W0] def r3_W1 (V : Valuation τ sig (Elt Ideal)) : Valuation τ sig (Elt Ideal) := after r3_rel0 (r3_W0 V)
@[inherit_doc r3_W0] def r3_W2 (V : Valuation τ sig (Elt Ideal)) : Valuation τ sig (Elt Ideal) := after r3_rel1 (r3_W1 V)
@[inherit_doc r3_W0] def r3_W3 (V : Valuation τ sig (Elt Ideal)) : Valuation τ sig (Elt Ideal) := after r3_rel2 (r3_W2 V)

theorem r3_chain (V : Valuation τ sig (Elt Ideal)) : after (opsL3 (F := Ideal)) V = after r3_tail (r3_W3 V) := by
  have h := congrArg (fun ops => after ops V) r3_split
  simp only [after_append] at h
  exact h

theorem r3_W0_keep (V : Valuation τ sig (Elt Ideal)) {x : Ref sig .tc} (hx : x ∉ r3_pre_W) :
    r3_W0 V (Proc.devRef .tc x) = V (Proc.devRef .tc x) := r3_pre_keeps _ hx

theorem r3_W1_keep (V : Valuation τ sig (Elt Ideal)) {x : Ref sig .tc} (hx : x ∉ r3_rel0_W) :
    r3_W1 V (Proc.devRef .tc x) = (r3_W0 V) (Proc.devRef .tc x) := r3_rel0_keeps _ hx

theorem r3_W2_keep (V : Valuation τ sig (Elt Ideal)) {x : Ref sig .tc} (hx : x ∉ r3_rel1_W) :
    r3_W2 V (Proc.devRef .tc x) = (r3_W1 V) (Proc.devRef .tc x) := r3_rel1_keeps _ hx

theorem r3_W3_keep (V : Valuation τ sig (Elt Ideal)) {x : Ref sig .tc} (hx : x ∉ r3_rel2_W) :
    r3_W3 V (Proc.devRef .tc x) = (r3_W2 V) (Proc.devRef .tc x) := r3_rel2_keeps _ hx

theorem r3_ones0 (V : Valuation τ sig (Elt Ideal)) : r3_W0 V (Proc.devRef .tc main_v399) = edgeOnes := r3_pre_ones V
theorem r3_ones1 (V : Valuation τ sig (Elt Ideal)) : r3_W1 V (Proc.devRef .tc main_v399) = edgeOnes := (r3_W1_keep V (by decide)).trans (r3_ones0 V)
theorem r3_ones2 (V : Valuation τ sig (Elt Ideal)) : r3_W2 V (Proc.devRef .tc main_v399) = edgeOnes := (r3_W2_keep V (by decide)).trans (r3_ones1 V)

theorem r3_h0 (V : Valuation τ sig (Elt Ideal)) : r3_W0 V (Proc.devRef .tc main_v394) = (V (Proc.devRef .tc main_v394)) := r3_W0_keep V (by decide)
theorem r3_h1 (V : Valuation τ sig (Elt Ideal)) : r3_W1 V (Proc.devRef .tc main_v394) = (V (Proc.devRef .tc main_v394)) := (r3_W1_keep V (by decide)).trans (r3_h0 V)
theorem r3_h2 (V : Valuation τ sig (Elt Ideal)) : r3_W2 V (Proc.devRef .tc main_v394) = (V (Proc.devRef .tc main_v394)) := (r3_W2_keep V (by decide)).trans (r3_h1 V)

theorem r3_src0 (V : Valuation τ sig (Elt Ideal)) : r3_W0 V (Proc.devRef .tc main_arg1) = (V (Proc.devRef .tc main_arg1)) := r3_W0_keep V (by decide)
theorem r3_src1 (V : Valuation τ sig (Elt Ideal)) : r3_W1 V (Proc.devRef .tc main_arg1) = (V (Proc.devRef .tc main_arg1)) := (r3_W1_keep V (by decide)).trans (r3_src0 V)
theorem r3_src2 (V : Valuation τ sig (Elt Ideal)) : r3_W2 V (Proc.devRef .tc main_arg1) = (V (Proc.devRef .tc main_arg1)) := (r3_W2_keep V (by decide)).trans (r3_src1 V)

theorem r3_dst0 (V : Valuation τ sig (Elt Ideal)) : r3_W0 V (Proc.devRef .tc main_arg2) = (V (Proc.devRef .tc main_arg2)) := r3_W0_keep V (by decide)
theorem r3_dst1 (V : Valuation τ sig (Elt Ideal)) : r3_W1 V (Proc.devRef .tc main_arg2) = (V (Proc.devRef .tc main_arg2)) := (r3_W1_keep V (by decide)).trans (r3_dst0 V)
theorem r3_dst2 (V : Valuation τ sig (Elt Ideal)) : r3_W2 V (Proc.devRef .tc main_arg2) = (V (Proc.devRef .tc main_arg2)) := (r3_W2_keep V (by decide)).trans (r3_dst1 V)

theorem r3_wgt0 (V : Valuation τ sig (Elt Ideal)) : r3_W0 V (Proc.devRef .tc main_v396) = (layerW (V (Proc.devRef .tc main_arg5)) 2 slices_S4x3x128x128_S1x3x128x128_2_0_0_0) := r3_pre_wgt V
theorem r3_wgt1 (V : Valuation τ sig (Elt Ideal)) : r3_W1 V (Proc.devRef .tc main_v396) = (layerW (V (Proc.devRef .tc main_arg5)) 2 slices_S4x3x128x128_S1x3x128x128_2_0_0_0) := (r3_W1_keep V (by decide)).trans (r3_wgt0 V)
theorem r3_wgt2 (V : Valuation τ sig (Elt Ideal)) : r3_W2 V (Proc.devRef .tc main_v396) = (layerW (V (Proc.devRef .tc main_arg5)) 2 slices_S4x3x128x128_S1x3x128x128_2_0_0_0) := (r3_W2_keep V (by decide)).trans (r3_wgt1 V)

theorem r3_bia0 (V : Valuation τ sig (Elt Ideal)) : r3_W0 V (Proc.devRef .tc main_v398) = (layerB (V (Proc.devRef .tc main_arg6)) 2 slices_S4x3x128_S1x3x128_2_0_0) := r3_pre_bia V
theorem r3_bia1 (V : Valuation τ sig (Elt Ideal)) : r3_W1 V (Proc.devRef .tc main_v398) = (layerB (V (Proc.devRef .tc main_arg6)) 2 slices_S4x3x128_S1x3x128_2_0_0) := (r3_W1_keep V (by decide)).trans (r3_bia0 V)
theorem r3_bia2 (V : Valuation τ sig (Elt Ideal)) : r3_W2 V (Proc.devRef .tc main_v398) = (layerB (V (Proc.devRef .tc main_arg6)) 2 slices_S4x3x128_S1x3x128_2_0_0) := (r3_W2_keep V (by decide)).trans (r3_bia1 V)

/-- Relation 0's term, as it stands when the tail starts. -/
theorem r3_D0 (V : Valuation τ sig (Elt Ideal)) : r3_W3 V (Proc.devRef .tc main_v439) =
      refDense (aggOf (V (Proc.devRef .tc main_v394)) (rowOf (V (Proc.devRef .tc main_arg1)) 0 slices_S3x800000_S1x800000_0_0) (rowOf (V (Proc.devRef .tc main_arg2)) 0 slices_S3x800000_S1x800000_0_0)
          (degOf (rowOf (V (Proc.devRef .tc main_arg1)) 0 slices_S3x800000_S1x800000_0_0)) (degOf (rowOf (V (Proc.devRef .tc main_arg2)) 0 slices_S3x800000_S1x800000_0_0)))
        (layerW (V (Proc.devRef .tc main_arg5)) 2 slices_S4x3x128x128_S1x3x128x128_2_0_0_0) (layerB (V (Proc.devRef .tc main_arg6)) 2 slices_S4x3x128_S1x3x128_2_0_0) 0 slices_S3x128x128_S1x128x128_0_0_0 slices_S3x128_S1x128_0_0 := by
  rw [r3_W3_keep V (x := main_v439) (by decide), r3_W2_keep V (x := main_v439) (by decide)]
  unfold r3_W1
  rw [r3_rel0_read _ (r3_ones0 V), r3_h0 V, r3_src0 V, r3_dst0 V, r3_wgt0 V, r3_bia0 V]

/-- Relation 1's term, as it stands when the tail starts. -/
theorem r3_D1 (V : Valuation τ sig (Elt Ideal)) : r3_W3 V (Proc.devRef .tc main_v479) =
      refDense (aggOf (V (Proc.devRef .tc main_v394)) (rowOf (V (Proc.devRef .tc main_arg1)) 1 slices_S3x800000_S1x800000_1_0) (rowOf (V (Proc.devRef .tc main_arg2)) 1 slices_S3x800000_S1x800000_1_0)
          (degOf (rowOf (V (Proc.devRef .tc main_arg1)) 1 slices_S3x800000_S1x800000_1_0)) (degOf (rowOf (V (Proc.devRef .tc main_arg2)) 1 slices_S3x800000_S1x800000_1_0)))
        (layerW (V (Proc.devRef .tc main_arg5)) 2 slices_S4x3x128x128_S1x3x128x128_2_0_0_0) (layerB (V (Proc.devRef .tc main_arg6)) 2 slices_S4x3x128_S1x3x128_2_0_0) 1 slices_S3x128x128_S1x128x128_1_0_0 slices_S3x128_S1x128_1_0 := by
  rw [r3_W3_keep V (x := main_v479) (by decide)]
  unfold r3_W2
  rw [r3_rel1_read _ (r3_ones1 V), r3_h1 V, r3_src1 V, r3_dst1 V, r3_wgt1 V, r3_bia1 V]

/-- Relation 2's term, as it stands when the tail starts. -/
theorem r3_D2 (V : Valuation τ sig (Elt Ideal)) : r3_W3 V (Proc.devRef .tc main_v519) =
      refDense (aggOf (V (Proc.devRef .tc main_v394)) (rowOf (V (Proc.devRef .tc main_arg1)) 2 slices_S3x800000_S1x800000_2_0) (rowOf (V (Proc.devRef .tc main_arg2)) 2 slices_S3x800000_S1x800000_2_0)
          (degOf (rowOf (V (Proc.devRef .tc main_arg1)) 2 slices_S3x800000_S1x800000_2_0)) (degOf (rowOf (V (Proc.devRef .tc main_arg2)) 2 slices_S3x800000_S1x800000_2_0)))
        (layerW (V (Proc.devRef .tc main_arg5)) 2 slices_S4x3x128x128_S1x3x128x128_2_0_0_0) (layerB (V (Proc.devRef .tc main_arg6)) 2 slices_S4x3x128_S1x3x128_2_0_0) 2 slices_S3x128x128_S1x128x128_2_0_0 slices_S3x128_S1x128_2_0 := by
  unfold r3_W3
  rw [r3_rel2_read _ (r3_ones2 V), r3_h2 V, r3_src2 V, r3_dst2 V, r3_wgt2 V, r3_bia2 V]

/-- Layer 3's result, from any contents V: the layer function of the three relations' aggregates of the features in `main_v394`,
    the layer's weights and biases. -/
theorem readR3 (V : Valuation τ sig (Elt Ideal)) :
    after (opsL3 (F := Ideal)) V (Proc.devRef .tc main_v527) =
      refLayer
        (aggOf (V (Proc.devRef .tc main_v394)) (rowOf (V (Proc.devRef .tc main_arg1)) 0 slices_S3x800000_S1x800000_0_0) (rowOf (V (Proc.devRef .tc main_arg2)) 0 slices_S3x800000_S1x800000_0_0)
          (degOf (rowOf (V (Proc.devRef .tc main_arg1)) 0 slices_S3x800000_S1x800000_0_0)) (degOf (rowOf (V (Proc.devRef .tc main_arg2)) 0 slices_S3x800000_S1x800000_0_0)))
        (aggOf (V (Proc.devRef .tc main_v394)) (rowOf (V (Proc.devRef .tc main_arg1)) 1 slices_S3x800000_S1x800000_1_0) (rowOf (V (Proc.devRef .tc main_arg2)) 1 slices_S3x800000_S1x800000_1_0)
          (degOf (rowOf (V (Proc.devRef .tc main_arg1)) 1 slices_S3x800000_S1x800000_1_0)) (degOf (rowOf (V (Proc.devRef .tc main_arg2)) 1 slices_S3x800000_S1x800000_1_0)))
        (aggOf (V (Proc.devRef .tc main_v394)) (rowOf (V (Proc.devRef .tc main_arg1)) 2 slices_S3x800000_S1x800000_2_0) (rowOf (V (Proc.devRef .tc main_arg2)) 2 slices_S3x800000_S1x800000_2_0)
          (degOf (rowOf (V (Proc.devRef .tc main_arg1)) 2 slices_S3x800000_S1x800000_2_0)) (degOf (rowOf (V (Proc.devRef .tc main_arg2)) 2 slices_S3x800000_S1x800000_2_0)))
        (layerW (V (Proc.devRef .tc main_arg5)) 2 slices_S4x3x128x128_S1x3x128x128_2_0_0_0) (layerB (V (Proc.devRef .tc main_arg6)) 2 slices_S4x3x128_S1x3x128_2_0_0) := by
  rw [r3_chain V, r3_tail_read, r3_D0, r3_D1, r3_D2]
  rfl

end Cert.Bridge

end
-- ==== Proof.BridgeL3.lean ====
/-
  Layer 3 on both sides: given that the previous layer's results agree, the kernel program's region 3 leaves in its
  output array what the reference's layer 3 computes.
-/
import proofs.«165758_j22333829939343_1_alg».proof.Proof.KRunVals
import proofs.«165758_j22333829939343_1_alg».proof.Proof.BridgeChainK
import proofs.«165758_j22333829939343_1_alg».proof.Proof.KJoin3
import proofs.«165758_j22333829939343_1_alg».proof.Proof.BridgeReadK0
import proofs.«165758_j22333829939343_1_alg».proof.Proof.BridgeReadK3
import proofs.«165758_j22333829939343_1_alg».proof.Proof.BridgeReadAggK3
import proofs.«165758_j22333829939343_1_alg».proof.Proof.BridgeReadR3
import proofs.«165758_j22333829939343_1_alg».proof.Proof.RefRun
import proofs.«165758_j22333829939343_1_alg».proof.Proof.BridgeArgs

set_option maxRecDepth 16384

noncomputable section

namespace Cert.Bridge

open Idealize.ShloMosaic Idealize.ShloMosaic.TcCoe Idealize.SL.Sem
open Cert.KernelIdeal Cert.KernelIdeal.Gen Cert.KernelIdeal.Hand

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

set_option maxHeartbeats 4000000 in
theorem layer3_eq (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))) (c : Dev Cert.KernelIdeal.nD)
    (hprev : W6 m ρ c (Proc.devRef .tc main_v334)
      = Cert.ReferenceIdeal.RefRun.R3 m' c (Proc.devRef .tc Cert.ReferenceIdeal.main_v394)) :
    W8 m ρ c (Proc.devRef .tc main_v434)
      = Cert.ReferenceIdeal.RefRun.R4 m' c (Proc.devRef .tc Cert.ReferenceIdeal.main_v527) := by
  obtain ⟨g0, g1, g2, g3, g4, g5, g6, g7, g8⟩ := hagree c
  have hA := readK3_agg (W6 m ρ c)
  have hW := readK3_wgt (W6 m ρ c)
  have hB := readK3_bias (W6 m ρ c)
  have hR := readR3 (Cert.ReferenceIdeal.RefRun.R3 m' c)
  rw [W6_main_arg1 m ρ c, W6_main_arg2 m ρ c, W6_main_v19 m ρ c, W6_main_v38 m ρ c,
    readK0_kdegOut_0 (W0 m ρ c), readK0_kdegIn_0 (W0 m ρ c), readK0_kdegOut_1 (W0 m ρ c), readK0_kdegIn_1 (W0 m ρ c),
    readK0_kdegOut_2 (W0 m ρ c), readK0_kdegIn_2 (W0 m ρ c), W0_main_arg1 m ρ c, W0_main_arg2 m ρ c, hprev] at hA
  rw [W6_main_arg5 m ρ c] at hW
  rw [W6_main_arg6 m ρ c] at hB
  have r1 : Cert.ReferenceIdeal.RefRun.R3 m' c (Proc.devRef .tc Cert.ReferenceIdeal.main_arg1) = m ((c.tc : Thread Cert.KernelIdeal.nD Cert.KernelIdeal.τ).loc Cert.KernelIdeal.main_arg1) := (Cert.ReferenceIdeal.RefRun.R3_arg m' c (by decide) (by decide) (by decide)).trans g1
  have r2 : Cert.ReferenceIdeal.RefRun.R3 m' c (Proc.devRef .tc Cert.ReferenceIdeal.main_arg2) = m ((c.tc : Thread Cert.KernelIdeal.nD Cert.KernelIdeal.τ).loc Cert.KernelIdeal.main_arg2) := (Cert.ReferenceIdeal.RefRun.R3_arg m' c (by decide) (by decide) (by decide)).trans g2
  have r5 : Cert.ReferenceIdeal.RefRun.R3 m' c (Proc.devRef .tc Cert.ReferenceIdeal.main_arg5) = m ((c.tc : Thread Cert.KernelIdeal.nD Cert.KernelIdeal.τ).loc Cert.KernelIdeal.main_arg5) := (Cert.ReferenceIdeal.RefRun.R3_arg m' c (by decide) (by decide) (by decide)).trans g5
  have r6 : Cert.ReferenceIdeal.RefRun.R3 m' c (Proc.devRef .tc Cert.ReferenceIdeal.main_arg6) = m ((c.tc : Thread Cert.KernelIdeal.nD Cert.KernelIdeal.τ).loc Cert.KernelIdeal.main_arg6) := (Cert.ReferenceIdeal.RefRun.R3_arg m' c (by decide) (by decide) (by decide)).trans g6
  rw [r1, r2, r5, r6] at hR
  rw [W8_out, final3, Cert.ReferenceIdeal.RefRun.R4_eq]
  refine ((G3_eq_refLayer (V7 m ρ) c _ _ _ _ _ _ hA hW hB).trans ?_)
  exact hR.symm

end Cert.Bridge

end
-- ==== Proof.KValue4.lean ====
/-
  Region 4: the values. Each case's found pieces read back as the body's payloads; the accumulator after a
  point is the running sum of its row tile's relations; the output array ends, row tile by row tile, at the
  activated mean of the three relations' tile products.
-/
import proofs.«165758_j22333829939343_1_alg».proof.Proof.KBody4
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem hz2_4 : (![0, 0] : Fin 2 → Nat) = fun _ => 0 := funext fun a => by fin_cases a <;> rfl
theorem hz3_4 : (![0, 0, 0] : Fin 3 → Nat) = fun _ => 0 := funext fun a => by fin_cases a <;> rfl

/-- A relation-0 point leaves the accumulator at zero plus the relation's tile product. -/
theorem sout4_A_eq (c : Dev nD) (i : grid4.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : cond4_0 i) (hc1 : ¬cond4_1 i) (x0 : Vec F S1x2000x128 .f32) (x1 : Vec F S1x128x128 .f32) (x2 : Vec F S1x1x128 .f32) :
    sout4_A_0 c i arg2 harg2 arg3 harg3 arg4 harg4 arg5 harg5 arg6 harg6 hc0 hc1 x0 x1 x2 = k4_pay2 x0 x1 x2 (k4_pay1 (F := F)) := by
  unfold sout4_A_0
  rw [View.read_writes_eq_canon _ _ _ (scover4_A_0 c i arg2 harg2 arg3 harg3 arg4 harg4 arg5 harg5 arg6 harg6 hc0 hc1 x0 x1 x2)]
  unfold kernelRun4_A
  dsimp only
  sl_unfold_words
  rw [View.canon_cons_unit_zero (S := S2000x128) hz2_4, View.readCov_unit_zero (S := S2000x128) _ hz2_4]
  simp only [View.readAt_eq_ld, harg2.read_unread, harg3.read_unread, harg4.read_unread,
    View.ld_unit_zero (S := S1x2000x128) hz3_4, View.ld_unit_zero (S := S1x128x128) hz3_4, View.ld_unit_zero (S := S1x1x128) hz3_4]

/-- A relation-1 point adds the relation's tile product to the accumulator. -/
theorem sout4_B_eq (c : Dev nD) (i : grid4.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond4_0 i) (hc1 : ¬cond4_1 i) (x0 : Vec F S1x2000x128 .f32) (x1 : Vec F S1x128x128 .f32) (x2 : Vec F S1x1x128 .f32) (xs0 : Vec F S2000x128 .f32) :
    sout4_B_0 c i arg2 harg2 arg3 harg3 arg4 harg4 arg5 harg5 arg6 harg6 hc0 hc1 x0 x1 x2 xs0 = k4_pay2 x0 x1 x2 xs0 := by
  unfold sout4_B_0
  rw [View.read_writes_eq_canon _ _ _ (scover4_B_0 c i arg2 harg2 arg3 harg3 arg4 harg4 arg5 harg5 arg6 harg6 hc0 hc1 x0 x1 x2 xs0)]
  unfold kernelRun4_B
  dsimp only
  sl_unfold_words
  rw [View.canon_unit_zero hz2_4]
  simp only [View.readAt_eq_ld, harg2.read_unread, harg3.read_unread, harg4.read_unread, harg6.read_unread,
    View.ld_unit_zero (S := S1x2000x128) hz3_4, View.ld_unit_zero (S := S1x128x128) hz3_4, View.ld_unit_zero (S := S1x1x128) hz3_4,
    View.ld_unit_zero (S := S2000x128) hz2_4]

/-- So does a relation-2 point, -/
theorem sout4_C_eq (c : Dev nD) (i : grid4.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond4_0 i) (hc1 : cond4_1 i) (x0 : Vec F S1x2000x128 .f32) (x1 : Vec F S1x128x128 .f32) (x2 : Vec F S1x1x128 .f32) (xs0 : Vec F S2000x128 .f32) :
    sout4_C_0 c i arg2 harg2 arg3 harg3 arg4 harg4 arg5 harg5 arg6 harg6 hc0 hc1 x0 x1 x2 xs0 = k4_pay2 x0 x1 x2 xs0 := by
  unfold sout4_C_0
  rw [View.read_writes_eq_canon _ _ _ (scover4_C_0 c i arg2 harg2 arg3 harg3 arg4 harg4 arg5 harg5 arg6 harg6 hc0 hc1 x0 x1 x2 xs0)]
  unfold kernelRun4_C
  dsimp only
  sl_unfold_words
  rw [View.canon_unit_zero hz2_4]
  simp only [View.readAt_eq_ld, harg2.read_unread, harg3.read_unread, harg4.read_unread, harg6.read_unread,
    View.ld_unit_zero (S := S1x2000x128) hz3_4, View.ld_unit_zero (S := S1x128x128) hz3_4, View.ld_unit_zero (S := S1x1x128) hz3_4,
    View.ld_unit_zero (S := S2000x128) hz2_4]

/-- and it stores the activated mean of the new accumulator into the output block. -/
theorem out4_C_eq (c : Dev nD) (i : grid4.Coords) (arg2 : Memref sig .tc .vmem S1x2000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S2000x128 .f32) (harg5 : arg5.IsWhole) (arg6 : Memref sig .tc .vmem S2000x128 .f32) (harg6 : arg6.IsWhole) (hc0 : ¬cond4_0 i) (hc1 : cond4_1 i) (x0 : Vec F S1x2000x128 .f32) (x1 : Vec F S1x128x128 .f32) (x2 : Vec F S1x1x128 .f32) (xs0 : Vec F S2000x128 .f32) :
    out4_C_3 c i arg2 harg2 arg3 harg3 arg4 harg4 arg5 harg5 arg6 harg6 hc0 hc1 x0 x1 x2 xs0 = k4_pay3 (k4_pay2 x0 x1 x2 xs0) := by
  unfold out4_C_3
  rw [View.read_writes_eq_canon _ _ _ (cover4_C_3 c i arg2 harg2 arg3 harg3 arg4 harg4 arg5 harg5 arg6 harg6 hc0 hc1 x0 x1 x2 xs0)]
  unfold kernelRun4_C
  dsimp only
  sl_unfold_words
  rw [View.canon_unit_zero hz2_4, View.readCov_unit_zero (S := S2000x128) _ hz2_4]
  simp only [View.readAt_eq_ld, harg2.read_unread, harg3.read_unread, harg4.read_unread, harg6.read_unread,
    View.ld_unit_zero (S := S1x2000x128) hz3_4, View.ld_unit_zero (S := S1x128x128) hz3_4, View.ld_unit_zero (S := S1x1x128) hz3_4,
    View.ld_unit_zero (S := S2000x128) hz2_4]

/-! ## The running sum -/

/-- One point's step: the accumulator plus this point's relation's tile product (its three input blocks). -/
def step4 (c : Dev nD) (t : Fin cfg4.N) (acc : Vec F S2000x128 .f32) : Vec F S2000x128 .f32 :=
  k4_pay2 (iblk4 V c 0 t) (iblk4 V c 1 t) (iblk4 V c 2 t) acc

/-- The accumulator after point n: restarted from zero at relation 0. -/
def accAt4 (c : Dev nD) : (n : ℕ) → n < cfg4.N → Vec F S2000x128 .f32
  | 0, h => step4 V c ⟨0, h⟩ (k4_pay1 (F := F))
  | n + 1, h => if (n + 1) % 3 = 0 then step4 V c ⟨n + 1, h⟩ (k4_pay1 (F := F)) else step4 V c ⟨n + 1, h⟩ (accAt4 c n (Nat.lt_of_succ_lt h))

theorem accAt4_succ (c : Dev nD) (n : ℕ) (h : n + 1 < cfg4.N) :
    accAt4 V c (n + 1) h = (if (n + 1) % 3 = 0 then step4 V c ⟨n + 1, h⟩ (k4_pay1 (F := F)) else step4 V c ⟨n + 1, h⟩ (accAt4 V c n (Nat.lt_of_succ_lt h))) := rfl

set_option maxHeartbeats 4000000 in
theorem outsAt4_snd (c : Dev nD) : ∀ (n : ℕ) (h : n < cfg4.N), (outsAt4 V c n h).2 = accAt4 V c n h
  | 0, h => by
    have hc1 : ¬cond4_1 (grid4.coords ⟨0, h⟩) := fun hh => by
      have h2 : (0 : ℕ) % 3 = 2 := (hcond4_1 ⟨0, h⟩).mp hh
      omega
    rw [outsAt4_A V c ⟨0, h⟩ rfl hc1]
    dsimp only
    exact sout4_A_eq (F := F) ..
  | n + 1, h => by
    by_cases h0 : (n + 1) % 3 = 0
    · have hc1 : ¬cond4_1 (grid4.coords ⟨n + 1, h⟩) := fun hh => by
        have h2 : (n + 1) % 3 = 2 := (hcond4_1 ⟨n + 1, h⟩).mp hh
        omega
      rw [outsAt4_A V c ⟨n + 1, h⟩ h0 hc1, accAt4_succ, if_pos h0]
      dsimp only
      exact sout4_A_eq (F := F) ..
    · by_cases h1 : (n + 1) % 3 = 2
      · rw [outsAt4_C V c ⟨n + 1, h⟩ h0 h1, accAt4_succ, if_neg h0]
        dsimp only
        refine (sout4_C_eq (F := F) ..).trans ?_
        show k4_pay2 _ _ _ (outsAt4 V c n _).2 = _
        rw [outsAt4_snd c n]; rfl
      · rw [outsAt4_B V c ⟨n + 1, h⟩ h0 h1, accAt4_succ, if_neg h0]
        dsimp only
        refine (sout4_B_eq (F := F) ..).trans ?_
        show k4_pay2 _ _ _ (outsAt4 V c n _).2 = _
        rw [outsAt4_snd c n]; rfl

set_option maxHeartbeats 4000000 in
/-- At a relation-2 point the output block holds the activated mean of the accumulator. -/
theorem outsAt4_fst (c : Dev nD) (t : Fin cfg4.N) (h1 : t.val % 3 = 2) :
    (outsAt4 V c t.val t.isLt).1 = k4_pay3 (accAt4 V c t.val t.isLt) := by
  have h0 : ¬t.val % 3 = 0 := by omega
  rw [← outsAt4_snd V c t.val t.isLt, outsAt4_C V c t h0 h1]
  dsimp only
  refine (out4_C_eq (F := F) ..).trans ?_
  exact congrArg k4_pay3 (sout4_C_eq (F := F) ..).symm

end Cert.KernelIdeal.Hand

end
-- ==== Proof.KFinal4.lean ====
/-
  Region 4: from blocks to the array. Row tile I of the output array is written back once, after its
  relation-2 point 3·I + 2, and holds the activated mean of that point's accumulator; the 25 row tiles cover
  the array.
-/
import proofs.«165758_j22333829939343_1_alg».proof.Proof.KValue4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

open ValueIdx in
/-- The output array after the region, entry by entry: entry (i, q) lies in row tile i / 2000. -/
def G4 (c : Dev nD) : S50000x128.Idx → Elt F .f32 := fun j =>
  k4_pay3 (accAt4 V c (3 * ((j 0).val / 2000) + 2) (by
      have h0 : (j 0).val < 50000 := (j 0).isLt
      have hN : cfg4.N = 75 := N_4
      have hN' : grid4.N = 75 := N_4
      omega))
    (ix2 (⟨(j 0).val % 2000, Nat.mod_lt _ (by decide)⟩ : Fin 2000) ((j 1 : Fin 128)))

theorem tile4_congr (c : Dev nD) {n n' : ℕ} (hn : n < cfg4.N) (hn' : n' < cfg4.N) (e : n = n') {y y' : S2000x128.Idx} (ey : y = y') :
    k4_pay3 (accAt4 V c n hn) y = k4_pay3 (accAt4 V c n' hn') y' := by
  subst e; subst ey; rfl

/-- The output window's block index at point t is its row tile, t / 3 (decided over the grid). -/
theorem idx_facts4_3 : ∀ t : Fin cfg4.N, win4_3.index t (0 : Fin 2) = t.val / 3 ∧ win4_3.index t (1 : Fin 2) = 0 :=
  (by decide +kernel : ∀ t : Fin grid4.N, win4_3.index t (0 : Fin 2) = t.val / 3 ∧ win4_3.index t (1 : Fin 2) = 0)

/-- What a relation-2 point writes back is its row tile of G4. -/
theorem flushed4_eq (c : Dev nD) (t : Fin cfg4.N) (hf : (cfg4.win 3).flush t = true) :
    (dat4 V c).flushed 3 t = ((cfg4.win 3).blk t).view.read (Elt F) (G4 V c) := by
  have h1 : t.val % 3 = 2 := (flush4_3 t).mp hf
  show (cfg4.win 3).cut (grid4.coords t) ((dat4 V c).after 3 t) = _
  rw [after4_3, outsAt4_fst V c t h1]
  obtain ⟨e0, e1⟩ := idx_facts4_3 t
  funext y
  have hy0 : (y 0).val < 2000 := (y 0).isLt
  have he0 : ((((cfg4.win 3).blk t).view.emb y) 0).val = t.val / 3 * 2000 + (y 0).val := by
    show win4_3.index t (0 : Fin 2) * 2000 + 1 * (y 0).val = _
    rw [e0]; omega
  have he1 : ((((cfg4.win 3).blk t).view.emb y) 1).val = (y 1).val := by
    show win4_3.index t (1 : Fin 2) * 128 + 1 * (y 1).val = _
    rw [e1]; omega
  show k4_pay3 (accAt4 V c t.val t.isLt) y = G4 V c (((cfg4.win 3).blk t).view.emb y)
  unfold G4
  refine tile4_congr V c _ _ (by rw [he0]; omega) (funext fun a => ?_)
  match a with
  | ⟨0, _⟩ => exact Fin.ext (by show (y 0).val = _ % 2000; rw [he0]; omega)
  | ⟨1, _⟩ => exact Fin.ext he1.symm

theorem mem_blk4_3 (t : Fin cfg4.N) (i : S50000x128.Idx) :
    i ∈ ((cfg4.win 3).blk t).view.set ↔ ∀ a : Fin 2, win4_3.index t a * S2000x128.size a ≤ (i a).val ∧ (i a).val < win4_3.index t a * S2000x128.size a + S2000x128.size a := by
  show i ∈ ((View.whole main_v534).slice (win4_3.rect t)).set ↔ _
  rw [View.set_slice_whole, Rect.mem_set_unit]
  exact Iff.rfl

/-- The output array after the region is G4. -/
theorem final4 (c : Dev nD) : (dat4 V c).arrAt 3 cfg4.N = G4 V c :=
  (dat4 V c).arrAt_eq_of_cover 3 (G4 V c) (flushed4_eq V c) fun i => by
    have h0 : (i 0).val < 50000 := (i 0).isLt
    have h1 : (i 1).val < 128 := (i 1).isLt
    have hN : cfg4.N = 75 := N_4
    have hN' : grid4.N = 75 := N_4
    refine ⟨⟨3 * ((i 0).val / 2000) + 2, by omega⟩, (flush4_3 _).mpr (by show (3 * ((i 0).val / 2000) + 2) % 3 = 2; omega), ?_⟩
    rw [mem_blk4_3]
    obtain ⟨e0, e1⟩ := idx_facts4_3 ⟨3 * ((i 0).val / 2000) + 2, by omega⟩
    have e0' : win4_3.index ⟨3 * ((i 0).val / 2000) + 2, by omega⟩ (0 : Fin 2) = (i 0).val / 2000 := by rw [e0]; show (3 * ((i 0).val / 2000) + 2) / 3 = _; omega
    intro a
    match a with
    | ⟨0, _⟩ => show win4_3.index _ (0 : Fin 2) * 2000 ≤ (i 0).val ∧ (i 0).val < win4_3.index _ (0 : Fin 2) * 2000 + 2000; rw [e0']; omega
    | ⟨1, _⟩ => show win4_3.index _ (1 : Fin 2) * 128 ≤ (i 1).val ∧ (i 1).val < win4_3.index _ (1 : Fin 2) * 128 + 128; rw [e1]; omega

end Cert.KernelIdeal.Hand

end
-- ==== Proof.KEntry4.lean ====
/-
  Region 4 at an entry. Entry (i, q) of the region's output array lies in row tile I = i / 2000, row p = i % 2000. The
  three points of that row tile read relation r's block of the stacked features (rows 2000 I … 2000 I + 1999), its weight
  matrix and its bias row; the accumulator after the third point is three steps from the cleared one; the output entry is
  a third of it (the last layer has no rectifier). So the entry is a function of the three arrays the region reads, with no tile left
  in it.
-/
import proofs.«165758_j22333829939343_1_alg».proof.Proof.KFinal4
import proofs.«165758_j22333829939343_1_alg».proof.Proof.LayerAlias
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## Where a point's blocks sit in their arrays (decided over the grid) -/

/-- The feature window's block at point t: relation t % 3, row tile t / 3. -/
theorem idx_facts4_0 : ∀ t : Fin cfg4.N, win4_0.index t (0 : Fin 3) = t.val % 3 ∧ win4_0.index t (1 : Fin 3) = t.val / 3 ∧ win4_0.index t (2 : Fin 3) = 0 :=
  (by decide +kernel : ∀ t : Fin grid4.N, win4_0.index t (0 : Fin 3) = t.val % 3 ∧ win4_0.index t (1 : Fin 3) = t.val / 3 ∧ win4_0.index t (2 : Fin 3) = 0)

/-- The weight window's block at point t: relation t % 3. -/
theorem idx_facts4_1 : ∀ t : Fin cfg4.N, win4_1.index t (0 : Fin 3) = t.val % 3 ∧ win4_1.index t (1 : Fin 3) = 0 ∧ win4_1.index t (2 : Fin 3) = 0 :=
  (by decide +kernel : ∀ t : Fin grid4.N, win4_1.index t (0 : Fin 3) = t.val % 3 ∧ win4_1.index t (1 : Fin 3) = 0 ∧ win4_1.index t (2 : Fin 3) = 0)

/-- The bias window's block at point t: relation t % 3. -/
theorem idx_facts4_2 : ∀ t : Fin cfg4.N, win4_2.index t (0 : Fin 3) = t.val % 3 ∧ win4_2.index t (1 : Fin 3) = 0 ∧ win4_2.index t (2 : Fin 3) = 0 :=
  (by decide +kernel : ∀ t : Fin grid4.N, win4_2.index t (0 : Fin 3) = t.val % 3 ∧ win4_2.index t (1 : Fin 3) = 0 ∧ win4_2.index t (2 : Fin 3) = 0)

/-- The three arrays the region reads, as the region finds them. -/
abbrev AGG4 (c : Dev nD) : Vec Ideal S3x50000x128 .f32 := V c (Pipeline.arrRef spec4 0)
abbrev WGT4 (c : Dev nD) : Vec Ideal S3x128x128 .f32 := V c (Pipeline.arrRef spec4 1)
abbrev BIA4 (c : Dev nD) : Vec Ideal S3x1x128 .f32 := V c (Pipeline.arrRef spec4 2)

/-- A point's three input blocks, at their literal shapes. -/
abbrev blkA4 (c : Dev nD) (t : Fin cfg4.N) : Vec Ideal S1x2000x128 .f32 := iblk4 V c 0 t
abbrev blkW4 (c : Dev nD) (t : Fin cfg4.N) : Vec Ideal S1x128x128 .f32 := iblk4 V c 1 t
abbrev blkB4 (c : Dev nD) (t : Fin cfg4.N) : Vec Ideal S1x1x128 .f32 := iblk4 V c 2 t

/-- Entry (0, p, k) of the feature block at point t is entry (t % 3, 2000 (t / 3) + p, k) of the stacked features. -/
theorem iblk4_0_apply (c : Dev nD) (t : Fin cfg4.N) (p : Fin 2000) (k : Fin 128) (r : Fin 3) (i : Fin 50000)
    (hr : r.val = t.val % 3) (hi : i.val = t.val / 3 * 2000 + p.val) :
    blkA4 V c t (ix3 (0 : Fin 1) p k) = AGG4 V c (ix3 r i k) := by
  obtain ⟨e0, e1, e2⟩ := idx_facts4_0 t
  show AGG4 V c (((cfg4.win 0).blk t).view.emb (ix3 (0 : Fin 1) p k)) = _
  refine congrArg (AGG4 V c) (funext fun a => ?_)
  match a with
  | ⟨0, _⟩ => exact Fin.ext (by show win4_0.index t (0 : Fin 3) * 1 + 1 * 0 = r.val; rw [e0]; omega)
  | ⟨1, _⟩ => exact Fin.ext (by show win4_0.index t (1 : Fin 3) * 2000 + 1 * p.val = i.val; rw [e1]; omega)
  | ⟨2, _⟩ => exact Fin.ext (by show win4_0.index t (2 : Fin 3) * 128 + 1 * k.val = k.val; rw [e2]; omega)

/-- Entry (0, k, q) of the weight block at point t is entry (t % 3, k, q) of the weights. -/
theorem iblk4_1_apply (c : Dev nD) (t : Fin cfg4.N) (k : Fin 128) (q : Fin 128) (r : Fin 3) (hr : r.val = t.val % 3) :
    blkW4 V c t (ix3 (0 : Fin 1) k q) = WGT4 V c (ix3 r k q) := by
  obtain ⟨e0, e1, e2⟩ := idx_facts4_1 t
  show WGT4 V c (((cfg4.win 1).blk t).view.emb (ix3 (0 : Fin 1) k q)) = _
  refine congrArg (WGT4 V c) (funext fun a => ?_)
  match a with
  | ⟨0, _⟩ => exact Fin.ext (by show win4_1.index t (0 : Fin 3) * 1 + 1 * 0 = r.val; rw [e0]; omega)
  | ⟨1, _⟩ => exact Fin.ext (by show win4_1.index t (1 : Fin 3) * 128 + 1 * k.val = k.val; rw [e1]; omega)
  | ⟨2, _⟩ => exact Fin.ext (by show win4_1.index t (2 : Fin 3) * 128 + 1 * q.val = q.val; rw [e2]; omega)

/-- Entry (0, 0, q) of the bias block at point t is entry (t % 3, 0, q) of the biases. -/
theorem iblk4_2_apply (c : Dev nD) (t : Fin cfg4.N) (q : Fin 128) (r : Fin 3) (hr : r.val = t.val % 3) :
    blkB4 V c t (ix3 (0 : Fin 1) (0 : Fin 1) q) = BIA4 V c (ix3 r (0 : Fin 1) q) := by
  obtain ⟨e0, e1, e2⟩ := idx_facts4_2 t
  show BIA4 V c (((cfg4.win 2).blk t).view.emb (ix3 (0 : Fin 1) (0 : Fin 1) q)) = _
  refine congrArg (BIA4 V c) (funext fun a => ?_)
  match a with
  | ⟨0, _⟩ => exact Fin.ext (by show win4_2.index t (0 : Fin 3) * 1 + 1 * 0 = r.val; rw [e0]; omega)
  | ⟨1, _⟩ => exact Fin.ext (by show win4_2.index t (1 : Fin 3) * 1 + 1 * 0 = 0; rw [e1])
  | ⟨2, _⟩ => exact Fin.ext (by show win4_2.index t (2 : Fin 3) * 128 + 1 * q.val = q.val; rw [e2]; omega)

/-! ## One relation's contribution at an entry of the output array -/

/-- Relation r's contribution to entry (i, q): row i of its aggregated features times column q of its weights, plus its
    bias entry q. -/
def T4 (c : Dev nD) (r : Fin 3) (i : Fin 50000) (q : Fin 128) : EReal :=
  (∑ k : Fin 128, AGG4 V c (ix3 r i k) * WGT4 V c (ix3 r k q)) + BIA4 V c (ix3 r (0 : Fin 1) q)

/-- The tile product of point t at entry (p, q) is relation t % 3's contribution to entry (2000 (t / 3) + p, q). -/
theorem tile4_eq (c : Dev nD) (t : Fin cfg4.N) (p : Fin 2000) (q : Fin 128) (r : Fin 3) (i : Fin 50000)
    (hr : r.val = t.val % 3) (hi : i.val = t.val / 3 * 2000 + p.val) :
    (∑ k : Fin 128, blkA4 V c t (ix3 (0 : Fin 1) p k)
        * blkW4 V c t (ix3 (0 : Fin 1) k q))
      + blkB4 V c t (ix3 (0 : Fin 1) (0 : Fin 1) q) = T4 V c r i q :=
  congrArg₂ (· + ·)
    (Finset.sum_congr rfl fun k _ => congrArg₂ (· * ·) (iblk4_0_apply V c t p k r i hr hi) (iblk4_1_apply V c t k q r hr))
    (iblk4_2_apply V c t q r hr)

/-! ## The accumulator after a row tile's last point -/

theorem accAt4_restart (c : Dev nD) (n : ℕ) (h : n < cfg4.N) (h0 : n % 3 = 0) :
    accAt4 V c n h = step4 V c ⟨n, h⟩ (k4_pay1 (F := Ideal)) := by
  cases n with
  | zero => rfl
  | succ m => rw [accAt4, if_pos h0]

theorem accAt4_cont (c : Dev nD) (n : ℕ) (h : n + 1 < cfg4.N) (h0 : ¬(n + 1) % 3 = 0) :
    accAt4 V c (n + 1) h = step4 V c ⟨n + 1, h⟩ (accAt4 V c n (Nat.lt_of_succ_lt h)) := by
  rw [accAt4, if_neg h0]

/-- After the relation-2 point of row tile I the accumulator holds three steps from the cleared one. -/
theorem accAt4_three (c : Dev nD) (I : ℕ) (h2 : 3 * I + 2 < cfg4.N) :
    accAt4 V c (3 * I + 2) h2
      = step4 V c ⟨3 * I + 2, h2⟩ (step4 V c ⟨3 * I + 1, by omega⟩ (step4 V c ⟨3 * I, by omega⟩ (k4_pay1 (F := Ideal)))) := by
  have e0 : accAt4 V c (3 * I) (by omega) = step4 V c ⟨3 * I, by omega⟩ (k4_pay1 (F := Ideal)) :=
    accAt4_restart V c (3 * I) (by omega) (by omega)
  have e1 : accAt4 V c (3 * I + 1) (by omega) = step4 V c ⟨3 * I + 1, by omega⟩ (accAt4 V c (3 * I) (by omega)) :=
    accAt4_cont V c (3 * I) (by omega) (by omega)
  have e2 : accAt4 V c (3 * I + 2) h2 = step4 V c ⟨3 * I + 2, h2⟩ (accAt4 V c (3 * I + 1) (by omega)) :=
    accAt4_cont V c (3 * I + 1) h2 (by omega)
  rw [e2, e1, e0]

/-! ## The output array at an entry -/

/-- Entry (i, q) of the region's output array: a third of the three relations' contributions, accumulated one
    after another into zero (the last layer has no rectifier). -/
theorem G4_entry (c : Dev nD) (i : Fin 50000) (q : Fin 128) :
    G4 V c (ix2 i q) = (((0 + T4 V c 0 i q) + T4 V c 1 i q) + T4 V c 2 i q) * ((1 / 3 : ℝ) : EReal) := by
  have hN : cfg4.N = 75 := N_4
  have hi := i.isLt
  have h2 : 3 * (i.val / 2000) + 2 < cfg4.N := by omega
  show k4_pay3 (accAt4 V c (3 * (i.val / 2000) + 2) h2) (ix2 (⟨i.val % 2000, Nat.mod_lt _ (by decide)⟩ : Fin 2000) q) = _
  refine (Cert.Layer.pay3_scale_apply _ _ _).trans (congrArg (· * ((1 / 3 : ℝ) : EReal)) ?_)
  rw [accAt4_three V c (i.val / 2000) h2]
  refine (Cert.Layer.pay2_steps_apply _ _ _ _ _ _ _ _ _ _ q).trans ?_
  exact congrArg₂ (· + ·) (congrArg₂ (· + ·) (congrArg (0 + ·)
    (tile4_eq V c ⟨3 * (i.val / 2000), by omega⟩ _ q 0 i (by show 0 = (3 * (i.val / 2000)) % 3; omega)
      (by show i.val = 3 * (i.val / 2000) / 3 * 2000 + i.val % 2000; omega)))
    (tile4_eq V c ⟨3 * (i.val / 2000) + 1, by omega⟩ _ q 1 i (by show 1 = (3 * (i.val / 2000) + 1) % 3; omega)
      (by show i.val = (3 * (i.val / 2000) + 1) / 3 * 2000 + i.val % 2000; omega)))
    (tile4_eq V c ⟨3 * (i.val / 2000) + 2, h2⟩ _ q 2 i (by show 2 = (3 * (i.val / 2000) + 2) % 3; omega)
      (by show i.val = (3 * (i.val / 2000) + 2) / 3 * 2000 + i.val % 2000; omega))

end Cert.KernelIdeal.Hand

end
-- ==== Proof.KJoin4.lean ====
/-
  Region 4 against the reference, as arrays: the region's output array, given the arrays the kernel program prepares for
  it, is the reference's layer of the same data.
-/
import proofs.«165758_j22333829939343_1_alg».proof.Proof.KEntry4
import proofs.«165758_j22333829939343_1_alg».proof.Proof.BridgeLayer

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

variable (V : (c : Dev nD) → (b : Ref sig .tc) → Buf (Elt Ideal) ((c : Thread nD τ).loc b))

/-- REGION 4 AGAINST THE REFERENCE'S LAYER: when the region finds the stacked features, the weights and the recast biases
    the kernel program prepares, its output array is the reference's layer of the same features, weights and biases. -/
theorem G4_eq_refLayerLast [Cert.ReferenceIdeal.Facts₀] (c : Dev nD)
    (a0 a1 a2 : Vec Ideal Cert.ReferenceIdeal.S50000x128 .f32) (W : Vec Ideal Cert.ReferenceIdeal.S3x128x128 .f32)
    (B : Vec Ideal Cert.ReferenceIdeal.S3x128 .f32) (hcast : Cert.ReferenceIdeal.S3x128.ShapeCasts (⟨3, ![3, 1, 128]⟩ : Shape))
    (hA : AGG4 V c = Cert.Bridge.stack3 a0 a1 a2) (hW : WGT4 V c = W)
    (hB : BIA4 V c = shapeCast (⟨3, ![3, 1, 128]⟩ : Shape) B hcast) :
    G4 V c = Cert.Bridge.refLayerLast a0 a1 a2 W B := by
  funext j
  rw [eq_ix2 j]
  refine (G4_entry V c (j 0) (j 1)).trans ?_
  show (((0 + Cert.Bridge.kernT (AGG4 V c) (WGT4 V c) (BIA4 V c) 0 (j 0) (j 1))
      + Cert.Bridge.kernT (AGG4 V c) (WGT4 V c) (BIA4 V c) 1 (j 0) (j 1))
      + Cert.Bridge.kernT (AGG4 V c) (WGT4 V c) (BIA4 V c) 2 (j 0) (j 1)) * ((1 / 3 : ℝ) : EReal) = _
  rw [hA, hW, hB]
  exact Cert.Bridge.layer_entry_last a0 a1 a2 W B hcast (j 0) (j 1)

end Cert.KernelIdeal.Hand

end
-- ==== Proof.BridgeReadK4.lean ====
/-
  What host stretch 4 of the kernel program leaves in two of the arrays region 4 reads, from any contents `V` before it:
  layer 4's weights, cut out of the [4,3,128,128] table, and its biases, cut out of the [4,3,128] table and recast as [3,1,128].
-/
import proofs.«165758_j22333829939343_1_alg».proof.Proof.Gen.KernelIdeal.Launch
import proofs.«165758_j22333829939343_1_alg».proof.Proof.BridgeVocab
import proofs.«165758_j22333829939343_1_alg».proof.Proof.BridgeLayer
import proofs.«165758_j22333829939343_1_alg».proof.Proof.LibHostReads

set_option maxRecDepth 16384

noncomputable section

namespace Cert.Bridge

open Idealize.ShloMosaic Idealize.ShloMosaic.TcCoe Idealize.ShloMosaic.StableHlo
open Cert.KernelIdeal Cert.KernelIdeal.Gen

variable [Cert.ReferenceIdeal.Facts₀]
variable (V : Valuation τ sig (Elt Ideal))

set_option maxHeartbeats 4000000 in
/-- Layer 4's weights: slab 3 of the weight table, recast as [3,128,128]. -/
theorem readK4_wgt : StableHlo.after hostOps4 V (Proc.devRef .tc main_v436)
    = shapeCast S3x128x128 (extractStridedSlice S1x3x128x128 ![3, 0, 0, 0] (V (Proc.devRef .tc main_arg5))
        slices_S4x3x128x128_S1x3x128x128_3_0_0_0) shapeCasts_S1x3x128x128_S3x128x128 := by
  dsimp only [hostOps4]
  host_reads <;> rfl

set_option maxHeartbeats 4000000 in
/-- Layer 4's biases: slab 3 of the bias table as [3,128], recast as [3,1,128]. -/
theorem readK4_bias : StableHlo.after hostOps4 V (Proc.devRef .tc main_v533)
    = shapeCast S3x1x128 (shapeCast S3x128 (extractStridedSlice S1x3x128 ![3, 0, 0] (V (Proc.devRef .tc main_arg6))
        slices_S4x3x128_S1x3x128_3_0_0) shapeCasts_S1x3x128_S3x128) shapeCasts_S3x128_S3x1x128 := by
  dsimp only [hostOps4]
  host_reads <;> rfl

end Cert.Bridge

end
-- ==== Proof.BridgeReadAggK4.lean ====
/-
  What host stretch 4 of the kernel program leaves in the first array region 4 reads, from any contents `V` before
  it: the three relations' degree-normalised aggregates of the previous layer's output, stacked. Each relation's
  aggregate is read through the operations that produce it; the stacking operation is read at its three operands.
-/
import proofs.«165758_j22333829939343_1_alg».proof.Proof.Gen.KernelIdeal.Launch
import proofs.«165758_j22333829939343_1_alg».proof.Proof.BridgeVocab
import proofs.«165758_j22333829939343_1_alg».proof.Proof.BridgeLayer
import proofs.«165758_j22333829939343_1_alg».proof.Proof.LibHostReads

set_option maxRecDepth 16384

noncomputable section

namespace Cert.Bridge

open Idealize.ShloMosaic Idealize.ShloMosaic.TcCoe Idealize.ShloMosaic.StableHlo
open Cert.KernelIdeal Cert.KernelIdeal.Gen

variable [Cert.ReferenceIdeal.Facts₀]
variable (V : Valuation τ sig (Elt Ideal))

set_option maxHeartbeats 8000000 in
/-- The stacked aggregates: per relation r the previous output scaled, gathered along the edges' sources, added at their
    destinations and scaled again, with the degrees read back out of the two stacked degree tables. -/
theorem readK4_agg : StableHlo.after hostOps4 V (Proc.devRef .tc main_v532)
    = stack3 (aggOf (V (Proc.devRef .tc main_v434)) (rowOf (V (Proc.devRef .tc main_arg1)) 0 Cert.ReferenceIdeal.Facts₀.slices_S3x800000_S1x800000_0_0) (rowOf (V (Proc.devRef .tc main_arg2)) 0 Cert.ReferenceIdeal.Facts₀.slices_S3x800000_S1x800000_0_0)
        (kdeg (V (Proc.devRef .tc main_v19)) 0 slices_S3x50000_S1x50000_0_0) (kdeg (V (Proc.devRef .tc main_v38)) 0 slices_S3x50000_S1x50000_0_0))
      (aggOf (V (Proc.devRef .tc main_v434)) (rowOf (V (Proc.devRef .tc main_arg1)) 1 Cert.ReferenceIdeal.Facts₀.slices_S3x800000_S1x800000_1_0) (rowOf (V (Proc.devRef .tc main_arg2)) 1 Cert.ReferenceIdeal.Facts₀.slices_S3x800000_S1x800000_1_0)
        (kdeg (V (Proc.devRef .tc main_v19)) 1 slices_S3x50000_S1x50000_1_0) (kdeg (V (Proc.devRef .tc main_v38)) 1 slices_S3x50000_S1x50000_1_0))
      (aggOf (V (Proc.devRef .tc main_v434)) (rowOf (V (Proc.devRef .tc main_arg1)) 2 Cert.ReferenceIdeal.Facts₀.slices_S3x800000_S1x800000_2_0) (rowOf (V (Proc.devRef .tc main_arg2)) 2 Cert.ReferenceIdeal.Facts₀.slices_S3x800000_S1x800000_2_0)
        (kdeg (V (Proc.devRef .tc main_v19)) 2 slices_S3x50000_S1x50000_2_0) (kdeg (V (Proc.devRef .tc main_v38)) 2 slices_S3x50000_S1x50000_2_0)) := by
  dsimp only [hostOps4]
  host_reads
  refine (nary3_read _ _ _ _
    (broadcastInDim S1x50000x128 ![1, 2] bcast_S50000x128_S1x50000x128_1_2 (aggOf (V (Proc.devRef .tc main_v434)) (rowOf (V (Proc.devRef .tc main_arg1)) 0 Cert.ReferenceIdeal.Facts₀.slices_S3x800000_S1x800000_0_0) (rowOf (V (Proc.devRef .tc main_arg2)) 0 Cert.ReferenceIdeal.Facts₀.slices_S3x800000_S1x800000_0_0)
        (kdeg (V (Proc.devRef .tc main_v19)) 0 slices_S3x50000_S1x50000_0_0) (kdeg (V (Proc.devRef .tc main_v38)) 0 slices_S3x50000_S1x50000_0_0)))
    (broadcastInDim S1x50000x128 ![1, 2] bcast_S50000x128_S1x50000x128_1_2 (aggOf (V (Proc.devRef .tc main_v434)) (rowOf (V (Proc.devRef .tc main_arg1)) 1 Cert.ReferenceIdeal.Facts₀.slices_S3x800000_S1x800000_1_0) (rowOf (V (Proc.devRef .tc main_arg2)) 1 Cert.ReferenceIdeal.Facts₀.slices_S3x800000_S1x800000_1_0)
        (kdeg (V (Proc.devRef .tc main_v19)) 1 slices_S3x50000_S1x50000_1_0) (kdeg (V (Proc.devRef .tc main_v38)) 1 slices_S3x50000_S1x50000_1_0)))
    (broadcastInDim S1x50000x128 ![1, 2] bcast_S50000x128_S1x50000x128_1_2 (aggOf (V (Proc.devRef .tc main_v434)) (rowOf (V (Proc.devRef .tc main_arg1)) 2 Cert.ReferenceIdeal.Facts₀.slices_S3x800000_S1x800000_2_0) (rowOf (V (Proc.devRef .tc main_arg2)) 2 Cert.ReferenceIdeal.Facts₀.slices_S3x800000_S1x800000_2_0)
        (kdeg (V (Proc.devRef .tc main_v19)) 2 slices_S3x50000_S1x50000_2_0) (kdeg (V (Proc.devRef .tc main_v38)) 2 slices_S3x50000_S1x50000_2_0)))
    ?hA ?hB ?hC).trans ?fin
  case hA => host_reads <;> rfl
  case hB => host_reads <;> rfl
  case hC => host_reads <;> rfl
  case fin => rfl

end Cert.Bridge

end
-- ==== Proof.BridgeReadR4.lean ====
/- Layer 4 of the reference, read off its line of host operations as a pure function of the contents it starts from.
   The line is cut into its stretches: a preamble (the vector of ones the degree counts add up, and this layer's weights and biases cut out
   of the stacked arguments), one block of 47 operations per relation (the relation's two index rows, their degree
   counts, the normalised aggregate of the features, the product with the relation's weights plus its bias row), and the tail (the mean of
   the three; this last layer has no rectifier). Each stretch is read by itself from arbitrary contents; a buffer a stretch does not write passes
   through it unchanged; the reads are then chained. -/
import proofs.«165758_j22333829939343_1_alg».proof.Proof.RefRunL4
import proofs.«165758_j22333829939343_1_alg».proof.Proof.BridgeLayer
import proofs.«165758_j22333829939343_1_alg».proof.Proof.BridgeVocab
import proofs.«165758_j22333829939343_1_alg».proof.Proof.BridgeParams
import proofs.«165758_j22333829939343_1_alg».proof.Proof.LibKeeps
import Idealize.ShloMosaic.Lib.Pipeline.Frame

noncomputable section

namespace Cert.Bridge

open Idealize.ShloMosaic Idealize.ShloMosaic.TcCoe Idealize.SL.Sem Idealize.ShloMosaic.StableHlo
open Cert.ReferenceIdeal Cert.ReferenceIdeal.Gen Cert.ReferenceIdeal.RefRun

variable {F : FTy → Type} [FloatOps F]

/-- Layer 4, stretch pre (6 operations). -/
def r4_pre : List (HloOp τ sig (Elt F)) :=
  [ StableHlo.unary main_arg5 main_v528 ((extractStridedSlice S1x3x128x128 ![3, 0, 0, 0] · slices_S4x3x128x128_S1x3x128x128_3_0_0_0) : (⟨S4x3x128x128, .f32⟩ : BufTy).Contents (Elt F) → (⟨S1x3x128x128, .f32⟩ : BufTy).Contents (Elt F)),
    StableHlo.reshape main_v528 main_v529 rfl shapeCasts_S1x3x128x128_S3x128x128,
    StableHlo.unary main_arg6 main_v530 ((extractStridedSlice S1x3x128 ![3, 0, 0] · slices_S4x3x128_S1x3x128_3_0_0) : (⟨S4x3x128, .f32⟩ : BufTy).Contents (Elt F) → (⟨S1x3x128, .f32⟩ : BufTy).Contents (Elt F)),
    StableHlo.reshape main_v530 main_v531 rfl shapeCasts_S1x3x128_S3x128,
    StableHlo.nullary main_cst_98 (constant S_ .f32 0x3F800000#32),
    StableHlo.unary main_cst_98 main_v532 (broadcastInDim S800000 ![] bcast_S_S800000 : (⟨S_, .f32⟩ : BufTy).Contents (Elt F) → (⟨S800000, .f32⟩ : BufTy).Contents (Elt F)) ]

/-- Layer 4, stretch rel0 (47 operations). -/
def r4_rel0 : List (HloOp τ sig (Elt F)) :=
  [ StableHlo.unary main_arg1 main_v533 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v533 main_v534 rfl shapeCasts_S1x800000_S800000,
    StableHlo.unary main_arg2 main_v535 ((extractStridedSlice S1x800000 ![0, 0] · slices_S3x800000_S1x800000_0_0) : (⟨S3x800000, .i32⟩ : BufTy).Contents (Elt F) → (⟨S1x800000, .i32⟩ : BufTy).Contents (Elt F)),
    StableHlo.reshape main_v535 main_v536 rfl shapeCasts_S1x800000_S800000,
    StableHlo.nullary main_cst_99 (constant S_ .f32 0x00000000#32),
    StableHlo.unary main_cst_99 main_v537 (broadcastInDim S50000 ![] bcast_S_S50000 : (⟨S_, .f32⟩ : BufTy).Contents (Elt F) → (⟨S50000, .f32⟩ : BufTy).Contents (Elt F)),
    StableHlo.unary main_v534 main_v538 (broadcastInDim S800000x1 ![0] bcast_S800000_S800000x1_0 : (⟨S800000, .i32⟩ : BufTy).Contents (Elt F) → (⟨S800000x1, .i32⟩ : BufTy).Contents (Elt F)),
    StableHlo.ternary main_v537 main_v538 main_v532 main_v539 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_100 (constant S_ .f32 0x00000000#32),
    StableHlo.unary main_cst_100 main_v540 (broadcastInDim S50000 ![] bcast_S_S50000 : (⟨S_, .f32⟩ : BufTy).Contents (Elt F) → (⟨S50000, .f32⟩ : BufTy).Contents (Elt F)),
    StableHlo.unary main_v536 main_v541 (broadcastInDim S800000x1 ![0] bcast_S800000_S800000x1_0 : (⟨S800000, .i32⟩ : BufTy).Contents (Elt F) → (⟨S800000x1, .i32⟩ : BufTy).Contents (Elt F)),
    StableHlo.ternary main_v540 main_v541 main_v532 main_v542 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_101 (constant S_ .f32 0x3F800000#32),
    StableHlo.unary main_cst_101 main_v543 (broadcastInDim S50000 ![] bcast_S_S50000 : (⟨S_, .f32⟩ : BufTy).Contents (Elt F) → (⟨S50000, .f32⟩ : BufTy).Contents (Elt F)),
    StableHlo.binary main_v539 main_v543 main_v544 (maximumf : (⟨S50000, .f32⟩ : BufTy).Contents (Elt F) → (⟨S50000, .f32⟩ : BufTy).Contents (Elt F) → (⟨S50000, .f32⟩ : BufTy).Contents (Elt F)),
    StableHlo.unary main_v544 main_v545 (Host.rsqrt : (⟨S50000, .f32⟩ : BufTy).Contents (Elt F) → (⟨S50000, .f32⟩ : BufTy).Contents (Elt F)),
    StableHlo.unary main_v545 main_v546 (broadcastInDim S50000x1 ![0] bcast_S50000_S50000x1_0 : (⟨S50000, .f32⟩ : BufTy).Contents (Elt F) → (⟨S50000x1, .f32⟩ : BufTy).Contents (Elt F)),
    StableHlo.unary main_v546 main_v547 (broadcastInDim S50000x128 ![0, 1] bcast_S50000x1_S50000x128_0_1 : (⟨S50000x1, .f32⟩ : BufTy).Contents (Elt F) → (⟨S50000x128, .f32⟩ : BufTy).Contents (Elt F)),
    StableHlo.binary main_v527 main_v547 main_v548 (mulf : (⟨S50000x128, .f32⟩ : BufTy).Contents (Elt F) → (⟨S50000x128, .f32⟩ : BufTy).Contents (Elt F) → (⟨S50000x128, .f32⟩ : BufTy).Contents (Elt F)),
    StableHlo.nullary main_c_102 (constantI S_ 32 0#32),
    StableHlo.unary main_c_102 main_v549 (broadcastInDim S800000 ![] bcast_S_S800000 : (⟨S_, .i32⟩ : BufTy).Contents (Elt F) → (⟨S800000, .i32⟩ : BufTy).Contents (Elt F)),
    StableHlo.binary main_v534 main_v549 main_v550 (cmpi .slt : (⟨S800000, .i32⟩ : BufTy).Contents (Elt F) → (⟨S800000, .i32⟩ : BufTy).Contents (Elt F) → (⟨S800000, .i1⟩ : BufTy).Contents (Elt F)),
    StableHlo.nullary main_c_103 (constantI S_ 32 50000#32),
    StableHlo.unary main_c_103 main_v551 (broadcastInDim S800000 ![] bcast_S_S800000 : (⟨S_, .i32⟩ : BufTy).Contents (Elt F) → (⟨S800000, .i32⟩ : BufTy).Contents (Elt F)),
    StableHlo.binary main_v534 main_v551 main_v552 (addi : (⟨S800000, .i32⟩ : BufTy).Contents (Elt F) → (⟨S800000, .i32⟩ : BufTy).Contents (Elt F) → (⟨S800000, .i32⟩ : BufTy).Contents (Elt F)),
    StableHlo.ternary main_v550 main_v552 main_v534 main_v553 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v553 main_v554 (broadcastInDim S800000x1 ![0] bcast_S800000_S800000x1_0 : (⟨S800000, .i32⟩ : BufTy).Contents (Elt F) → (⟨S800000x1, .i32⟩ : BufTy).Contents (Elt F)),
    StableHlo.binary main_v548 main_v554 main_v555 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_104 (constant S_ .f32 0x00000000#32),
    StableHlo.unary main_cst_104 main_v556 (broadcastInDim S50000x128 ![] bcast_S_S50000x128 : (⟨S_, .f32⟩ : BufTy).Contents (Elt F) → (⟨S50000x128, .f32⟩ : BufTy).Contents (Elt F)),
    StableHlo.unary main_v536 main_v557 (broadcastInDim S800000x1 ![0] bcast_S800000_S800000x1_0 : (⟨S800000, .i32⟩ : BufTy).Contents (Elt F) → (⟨S800000x1, .i32⟩ : BufTy).Contents (Elt F)),
    StableHlo.ternary main_v556 main_v557 main_v555 main_v558 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_105 (constant S_ .f32 0x3F800000#32),
    StableHlo.unary main_cst_105 main_v559 (broadcastInDim S50000 ![] bcast_S_S50000 : (⟨S_, .f32⟩ : BufTy).Contents (Elt F) → (⟨S50000, .f32⟩ : BufTy).Contents (Elt F)),
    StableHlo.binary main_v542 main_v559 main_v560 (maximumf : (⟨S50000, .f32⟩ : BufTy).Contents (Elt F) → (⟨S50000, .f32⟩ : BufTy).Contents (Elt F) → (⟨S50000, .f32⟩ : BufTy).Contents (Elt F)),
    StableHlo.unary main_v560 main_v561 (Host.rsqrt : (⟨S50000, .f32⟩ : BufTy).Contents (Elt F) → (⟨S50000, .f32⟩ : BufTy).Contents (Elt F)),
    StableHlo.unary main_v561 main_v562 (broadcastInDim S50000x1 ![0] bcast_S50000_S50000x1_0 : (⟨S50000, .f32⟩ : BufTy).Contents (Elt F) → (⟨S50000x1, .f32⟩ : BufTy).Contents (Elt F)),
    StableHlo.unary main_v562 main_v563 (broadcastInDim S50000x128 ![0, 1] bcast_S50000x1_S50000x128_0_1 : (⟨S50000x1, .f32⟩ : BufTy).Contents (Elt F) → (⟨S50000x128, .f32⟩ : BufTy).Contents (Elt F)),
    StableHlo.binary main_v558 main_v563 main_v564 (mulf : (⟨S50000x128, .f32⟩ : BufTy).Contents (Elt F) → (⟨S50000x128, .f32⟩ : BufTy).Contents (Elt F) → (⟨S50000x128, .f32⟩ : BufTy).Contents (Elt F)),
    StableHlo.unary main_v529 main_v565 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v565 main_v566 rfl shapeCasts_S1x128x128_S128x128,
    StableHlo.binary main_v564 main_v566 main_v567 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v531 main_v568 ((extractStridedSlice S1x128 ![0, 0] · slices_S3x128_S1x128_0_0) : (⟨S3x128, .f32⟩ : BufTy).Contents (Elt F) → (⟨S1x128, .f32⟩ : BufTy).Contents (Elt F)),
    StableHlo.reshape main_v568 main_v569 rfl shapeCasts_S1x128_S128,
    StableHlo.unary main_v569 main_v570 (broadcastInDim S1x128 ![1] bcast_S128_S1x128_1 : (⟨S128, .f32⟩ : BufTy).Contents (Elt F) → (⟨S1x128, .f32⟩ : BufTy).Contents (Elt F)),
    StableHlo.unary main_v570 main_v571 (broadcastInDim S50000x128 ![0, 1] bcast_S1x128_S50000x128_0_1 : (⟨S1x128, .f32⟩ : BufTy).Contents (Elt F) → (⟨S50000x128, .f32⟩ : BufTy).Contents (Elt F)),
    StableHlo.binary main_v567 main_v571 main_v572 (addf : (⟨S50000x128, .f32⟩ : BufTy).Contents (Elt F) → (⟨S50000x128, .f32⟩ : BufTy).Contents (Elt F) → (⟨S50000x128, .f32⟩ : BufTy).Contents (Elt F)) ]

/-- Layer 4, stretch rel1 (47 operations). -/
def r4_rel1 : List (HloOp τ sig (Elt F)) :=
  [ StableHlo.unary main_arg1 main_v573 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v573 main_v574 rfl shapeCasts_S1x800000_S800000,
    StableHlo.unary main_arg2 main_v575 ((extractStridedSlice S1x800000 ![1, 0] · slices_S3x800000_S1x800000_1_0) : (⟨S3x800000, .i32⟩ : BufTy).Contents (Elt F) → (⟨S1x800000, .i32⟩ : BufTy).Contents (Elt F)),
    StableHlo.reshape main_v575 main_v576 rfl shapeCasts_S1x800000_S800000,
    StableHlo.nullary main_cst_106 (constant S_ .f32 0x00000000#32),
    StableHlo.unary main_cst_106 main_v577 (broadcastInDim S50000 ![] bcast_S_S50000 : (⟨S_, .f32⟩ : BufTy).Contents (Elt F) → (⟨S50000, .f32⟩ : BufTy).Contents (Elt F)),
    StableHlo.unary main_v574 main_v578 (broadcastInDim S800000x1 ![0] bcast_S800000_S800000x1_0 : (⟨S800000, .i32⟩ : BufTy).Contents (Elt F) → (⟨S800000x1, .i32⟩ : BufTy).Contents (Elt F)),
    StableHlo.ternary main_v577 main_v578 main_v532 main_v579 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_107 (constant S_ .f32 0x00000000#32),
    StableHlo.unary main_cst_107 main_v580 (broadcastInDim S50000 ![] bcast_S_S50000 : (⟨S_, .f32⟩ : BufTy).Contents (Elt F) → (⟨S50000, .f32⟩ : BufTy).Contents (Elt F)),
    StableHlo.unary main_v576 main_v581 (broadcastInDim S800000x1 ![0] bcast_S800000_S800000x1_0 : (⟨S800000, .i32⟩ : BufTy).Contents (Elt F) → (⟨S800000x1, .i32⟩ : BufTy).Contents (Elt F)),
    StableHlo.ternary main_v580 main_v581 main_v532 main_v582 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_108 (constant S_ .f32 0x3F800000#32),
    StableHlo.unary main_cst_108 main_v583 (broadcastInDim S50000 ![] bcast_S_S50000 : (⟨S_, .f32⟩ : BufTy).Contents (Elt F) → (⟨S50000, .f32⟩ : BufTy).Contents (Elt F)),
    StableHlo.binary main_v579 main_v583 main_v584 (maximumf : (⟨S50000, .f32⟩ : BufTy).Contents (Elt F) → (⟨S50000, .f32⟩ : BufTy).Contents (Elt F) → (⟨S50000, .f32⟩ : BufTy).Contents (Elt F)),
    StableHlo.unary main_v584 main_v585 (Host.rsqrt : (⟨S50000, .f32⟩ : BufTy).Contents (Elt F) → (⟨S50000, .f32⟩ : BufTy).Contents (Elt F)),
    StableHlo.unary main_v585 main_v586 (broadcastInDim S50000x1 ![0] bcast_S50000_S50000x1_0 : (⟨S50000, .f32⟩ : BufTy).Contents (Elt F) → (⟨S50000x1, .f32⟩ : BufTy).Contents (Elt F)),
    StableHlo.unary main_v586 main_v587 (broadcastInDim S50000x128 ![0, 1] bcast_S50000x1_S50000x128_0_1 : (⟨S50000x1, .f32⟩ : BufTy).Contents (Elt F) → (⟨S50000x128, .f32⟩ : BufTy).Contents (Elt F)),
    StableHlo.binary main_v527 main_v587 main_v588 (mulf : (⟨S50000x128, .f32⟩ : BufTy).Contents (Elt F) → (⟨S50000x128, .f32⟩ : BufTy).Contents (Elt F) → (⟨S50000x128, .f32⟩ : BufTy).Contents (Elt F)),
    StableHlo.nullary main_c_109 (constantI S_ 32 0#32),
    StableHlo.unary main_c_109 main_v589 (broadcastInDim S800000 ![] bcast_S_S800000 : (⟨S_, .i32⟩ : BufTy).Contents (Elt F) → (⟨S800000, .i32⟩ : BufTy).Contents (Elt F)),
    StableHlo.binary main_v574 main_v589 main_v590 (cmpi .slt : (⟨S800000, .i32⟩ : BufTy).Contents (Elt F) → (⟨S800000, .i32⟩ : BufTy).Contents (Elt F) → (⟨S800000, .i1⟩ : BufTy).Contents (Elt F)),
    StableHlo.nullary main_c_110 (constantI S_ 32 50000#32),
    StableHlo.unary main_c_110 main_v591 (broadcastInDim S800000 ![] bcast_S_S800000 : (⟨S_, .i32⟩ : BufTy).Contents (Elt F) → (⟨S800000, .i32⟩ : BufTy).Contents (Elt F)),
    StableHlo.binary main_v574 main_v591 main_v592 (addi : (⟨S800000, .i32⟩ : BufTy).Contents (Elt F) → (⟨S800000, .i32⟩ : BufTy).Contents (Elt F) → (⟨S800000, .i32⟩ : BufTy).Contents (Elt F)),
    StableHlo.ternary main_v590 main_v592 main_v574 main_v593 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v593 main_v594 (broadcastInDim S800000x1 ![0] bcast_S800000_S800000x1_0 : (⟨S800000, .i32⟩ : BufTy).Contents (Elt F) → (⟨S800000x1, .i32⟩ : BufTy).Contents (Elt F)),
    StableHlo.binary main_v588 main_v594 main_v595 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_111 (constant S_ .f32 0x00000000#32),
    StableHlo.unary main_cst_111 main_v596 (broadcastInDim S50000x128 ![] bcast_S_S50000x128 : (⟨S_, .f32⟩ : BufTy).Contents (Elt F) → (⟨S50000x128, .f32⟩ : BufTy).Contents (Elt F)),
    StableHlo.unary main_v576 main_v597 (broadcastInDim S800000x1 ![0] bcast_S800000_S800000x1_0 : (⟨S800000, .i32⟩ : BufTy).Contents (Elt F) → (⟨S800000x1, .i32⟩ : BufTy).Contents (Elt F)),
    StableHlo.ternary main_v596 main_v597 main_v595 main_v598 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_112 (constant S_ .f32 0x3F800000#32),
    StableHlo.unary main_cst_112 main_v599 (broadcastInDim S50000 ![] bcast_S_S50000 : (⟨S_, .f32⟩ : BufTy).Contents (Elt F) → (⟨S50000, .f32⟩ : BufTy).Contents (Elt F)),
    StableHlo.binary main_v582 main_v599 main_v600 (maximumf : (⟨S50000, .f32⟩ : BufTy).Contents (Elt F) → (⟨S50000, .f32⟩ : BufTy).Contents (Elt F) → (⟨S50000, .f32⟩ : BufTy).Contents (Elt F)),
    StableHlo.unary main_v600 main_v601 (Host.rsqrt : (⟨S50000, .f32⟩ : BufTy).Contents (Elt F) → (⟨S50000, .f32⟩ : BufTy).Contents (Elt F)),
    StableHlo.unary main_v601 main_v602 (broadcastInDim S50000x1 ![0] bcast_S50000_S50000x1_0 : (⟨S50000, .f32⟩ : BufTy).Contents (Elt F) → (⟨S50000x1, .f32⟩ : BufTy).Contents (Elt F)),
    StableHlo.unary main_v602 main_v603 (broadcastInDim S50000x128 ![0, 1] bcast_S50000x1_S50000x128_0_1 : (⟨S50000x1, .f32⟩ : BufTy).Contents (Elt F) → (⟨S50000x128, .f32⟩ : BufTy).Contents (Elt F)),
    StableHlo.binary main_v598 main_v603 main_v604 (mulf : (⟨S50000x128, .f32⟩ : BufTy).Contents (Elt F) → (⟨S50000x128, .f32⟩ : BufTy).Contents (Elt F) → (⟨S50000x128, .f32⟩ : BufTy).Contents (Elt F)),
    StableHlo.unary main_v529 main_v605 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v605 main_v606 rfl shapeCasts_S1x128x128_S128x128,
    StableHlo.binary main_v604 main_v606 main_v607 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v531 main_v608 ((extractStridedSlice S1x128 ![1, 0] · slices_S3x128_S1x128_1_0) : (⟨S3x128, .f32⟩ : BufTy).Contents (Elt F) → (⟨S1x128, .f32⟩ : BufTy).Contents (Elt F)),
    StableHlo.reshape main_v608 main_v609 rfl shapeCasts_S1x128_S128,
    StableHlo.unary main_v609 main_v610 (broadcastInDim S1x128 ![1] bcast_S128_S1x128_1 : (⟨S128, .f32⟩ : BufTy).Contents (Elt F) → (⟨S1x128, .f32⟩ : BufTy).Contents (Elt F)),
    StableHlo.unary main_v610 main_v611 (broadcastInDim S50000x128 ![0, 1] bcast_S1x128_S50000x128_0_1 : (⟨S1x128, .f32⟩ : BufTy).Contents (Elt F) → (⟨S50000x128, .f32⟩ : BufTy).Contents (Elt F)),
    StableHlo.binary main_v607 main_v611 main_v612 (addf : (⟨S50000x128, .f32⟩ : BufTy).Contents (Elt F) → (⟨S50000x128, .f32⟩ : BufTy).Contents (Elt F) → (⟨S50000x128, .f32⟩ : BufTy).Contents (Elt F)) ]

/-- Layer 4, stretch rel2 (47 operations). -/
def r4_rel2 : List (HloOp τ sig (Elt F)) :=
  [ StableHlo.unary main_arg1 main_v613 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v613 main_v614 rfl shapeCasts_S1x800000_S800000,
    StableHlo.unary main_arg2 main_v615 ((extractStridedSlice S1x800000 ![2, 0] · slices_S3x800000_S1x800000_2_0) : (⟨S3x800000, .i32⟩ : BufTy).Contents (Elt F) → (⟨S1x800000, .i32⟩ : BufTy).Contents (Elt F)),
    StableHlo.reshape main_v615 main_v616 rfl shapeCasts_S1x800000_S800000,
    StableHlo.nullary main_cst_113 (constant S_ .f32 0x00000000#32),
    StableHlo.unary main_cst_113 main_v617 (broadcastInDim S50000 ![] bcast_S_S50000 : (⟨S_, .f32⟩ : BufTy).Contents (Elt F) → (⟨S50000, .f32⟩ : BufTy).Contents (Elt F)),
    StableHlo.unary main_v614 main_v618 (broadcastInDim S800000x1 ![0] bcast_S800000_S800000x1_0 : (⟨S800000, .i32⟩ : BufTy).Contents (Elt F) → (⟨S800000x1, .i32⟩ : BufTy).Contents (Elt F)),
    StableHlo.ternary main_v617 main_v618 main_v532 main_v619 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_114 (constant S_ .f32 0x00000000#32),
    StableHlo.unary main_cst_114 main_v620 (broadcastInDim S50000 ![] bcast_S_S50000 : (⟨S_, .f32⟩ : BufTy).Contents (Elt F) → (⟨S50000, .f32⟩ : BufTy).Contents (Elt F)),
    StableHlo.unary main_v616 main_v621 (broadcastInDim S800000x1 ![0] bcast_S800000_S800000x1_0 : (⟨S800000, .i32⟩ : BufTy).Contents (Elt F) → (⟨S800000x1, .i32⟩ : BufTy).Contents (Elt F)),
    StableHlo.ternary main_v620 main_v621 main_v532 main_v622 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_115 (constant S_ .f32 0x3F800000#32),
    StableHlo.unary main_cst_115 main_v623 (broadcastInDim S50000 ![] bcast_S_S50000 : (⟨S_, .f32⟩ : BufTy).Contents (Elt F) → (⟨S50000, .f32⟩ : BufTy).Contents (Elt F)),
    StableHlo.binary main_v619 main_v623 main_v624 (maximumf : (⟨S50000, .f32⟩ : BufTy).Contents (Elt F) → (⟨S50000, .f32⟩ : BufTy).Contents (Elt F) → (⟨S50000, .f32⟩ : BufTy).Contents (Elt F)),
    StableHlo.unary main_v624 main_v625 (Host.rsqrt : (⟨S50000, .f32⟩ : BufTy).Contents (Elt F) → (⟨S50000, .f32⟩ : BufTy).Contents (Elt F)),
    StableHlo.unary main_v625 main_v626 (broadcastInDim S50000x1 ![0] bcast_S50000_S50000x1_0 : (⟨S50000, .f32⟩ : BufTy).Contents (Elt F) → (⟨S50000x1, .f32⟩ : BufTy).Contents (Elt F)),
    StableHlo.unary main_v626 main_v627 (broadcastInDim S50000x128 ![0, 1] bcast_S50000x1_S50000x128_0_1 : (⟨S50000x1, .f32⟩ : BufTy).Contents (Elt F) → (⟨S50000x128, .f32⟩ : BufTy).Contents (Elt F)),
    StableHlo.binary main_v527 main_v627 main_v628 (mulf : (⟨S50000x128, .f32⟩ : BufTy).Contents (Elt F) → (⟨S50000x128, .f32⟩ : BufTy).Contents (Elt F) → (⟨S50000x128, .f32⟩ : BufTy).Contents (Elt F)),
    StableHlo.nullary main_c_116 (constantI S_ 32 0#32),
    StableHlo.unary main_c_116 main_v629 (broadcastInDim S800000 ![] bcast_S_S800000 : (⟨S_, .i32⟩ : BufTy).Contents (Elt F) → (⟨S800000, .i32⟩ : BufTy).Contents (Elt F)),
    StableHlo.binary main_v614 main_v629 main_v630 (cmpi .slt : (⟨S800000, .i32⟩ : BufTy).Contents (Elt F) → (⟨S800000, .i32⟩ : BufTy).Contents (Elt F) → (⟨S800000, .i1⟩ : BufTy).Contents (Elt F)),
    StableHlo.nullary main_c_117 (constantI S_ 32 50000#32),
    StableHlo.unary main_c_117 main_v631 (broadcastInDim S800000 ![] bcast_S_S800000 : (⟨S_, .i32⟩ : BufTy).Contents (Elt F) → (⟨S800000, .i32⟩ : BufTy).Contents (Elt F)),
    StableHlo.binary main_v614 main_v631 main_v632 (addi : (⟨S800000, .i32⟩ : BufTy).Contents (Elt F) → (⟨S800000, .i32⟩ : BufTy).Contents (Elt F) → (⟨S800000, .i32⟩ : BufTy).Contents (Elt F)),
    StableHlo.ternary main_v630 main_v632 main_v614 main_v633 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v633 main_v634 (broadcastInDim S800000x1 ![0] bcast_S800000_S800000x1_0 : (⟨S800000, .i32⟩ : BufTy).Contents (Elt F) → (⟨S800000x1, .i32⟩ : BufTy).Contents (Elt F)),
    StableHlo.binary main_v628 main_v634 main_v635 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_118 (constant S_ .f32 0x00000000#32),
    StableHlo.unary main_cst_118 main_v636 (broadcastInDim S50000x128 ![] bcast_S_S50000x128 : (⟨S_, .f32⟩ : BufTy).Contents (Elt F) → (⟨S50000x128, .f32⟩ : BufTy).Contents (Elt F)),
    StableHlo.unary main_v616 main_v637 (broadcastInDim S800000x1 ![0] bcast_S800000_S800000x1_0 : (⟨S800000, .i32⟩ : BufTy).Contents (Elt F) → (⟨S800000x1, .i32⟩ : BufTy).Contents (Elt F)),
    StableHlo.ternary main_v636 main_v637 main_v635 main_v638 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_119 (constant S_ .f32 0x3F800000#32),
    StableHlo.unary main_cst_119 main_v639 (broadcastInDim S50000 ![] bcast_S_S50000 : (⟨S_, .f32⟩ : BufTy).Contents (Elt F) → (⟨S50000, .f32⟩ : BufTy).Contents (Elt F)),
    StableHlo.binary main_v622 main_v639 main_v640 (maximumf : (⟨S50000, .f32⟩ : BufTy).Contents (Elt F) → (⟨S50000, .f32⟩ : BufTy).Contents (Elt F) → (⟨S50000, .f32⟩ : BufTy).Contents (Elt F)),
    StableHlo.unary main_v640 main_v641 (Host.rsqrt : (⟨S50000, .f32⟩ : BufTy).Contents (Elt F) → (⟨S50000, .f32⟩ : BufTy).Contents (Elt F)),
    StableHlo.unary main_v641 main_v642 (broadcastInDim S50000x1 ![0] bcast_S50000_S50000x1_0 : (⟨S50000, .f32⟩ : BufTy).Contents (Elt F) → (⟨S50000x1, .f32⟩ : BufTy).Contents (Elt F)),
    StableHlo.unary main_v642 main_v643 (broadcastInDim S50000x128 ![0, 1] bcast_S50000x1_S50000x128_0_1 : (⟨S50000x1, .f32⟩ : BufTy).Contents (Elt F) → (⟨S50000x128, .f32⟩ : BufTy).Contents (Elt F)),
    StableHlo.binary main_v638 main_v643 main_v644 (mulf : (⟨S50000x128, .f32⟩ : BufTy).Contents (Elt F) → (⟨S50000x128, .f32⟩ : BufTy).Contents (Elt F) → (⟨S50000x128, .f32⟩ : BufTy).Contents (Elt F)),
    StableHlo.unary main_v529 main_v645 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v645 main_v646 rfl shapeCasts_S1x128x128_S128x128,
    StableHlo.binary main_v644 main_v646 main_v647 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v531 main_v648 ((extractStridedSlice S1x128 ![2, 0] · slices_S3x128_S1x128_2_0) : (⟨S3x128, .f32⟩ : BufTy).Contents (Elt F) → (⟨S1x128, .f32⟩ : BufTy).Contents (Elt F)),
    StableHlo.reshape main_v648 main_v649 rfl shapeCasts_S1x128_S128,
    StableHlo.unary main_v649 main_v650 (broadcastInDim S1x128 ![1] bcast_S128_S1x128_1 : (⟨S128, .f32⟩ : BufTy).Contents (Elt F) → (⟨S1x128, .f32⟩ : BufTy).Contents (Elt F)),
    StableHlo.unary main_v650 main_v651 (broadcastInDim S50000x128 ![0, 1] bcast_S1x128_S50000x128_0_1 : (⟨S1x128, .f32⟩ : BufTy).Contents (Elt F) → (⟨S50000x128, .f32⟩ : BufTy).Contents (Elt F)),
    StableHlo.binary main_v647 main_v651 main_v652 (addf : (⟨S50000x128, .f32⟩ : BufTy).Contents (Elt F) → (⟨S50000x128, .f32⟩ : BufTy).Contents (Elt F) → (⟨S50000x128, .f32⟩ : BufTy).Contents (Elt F)) ]

/-- Layer 4, stretch tail (9 operations). -/
def r4_tail : List (HloOp τ sig (Elt F)) :=
  [ StableHlo.unary main_v572 main_v653 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v612 main_v654 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v652 main_v655 (broadcastInDim S1x50000x128 ![1, 2] bcast_S50000x128_S1x50000x128_1_2 : (⟨S50000x128, .f32⟩ : BufTy).Contents (Elt F) → (⟨S1x50000x128, .f32⟩ : BufTy).Contents (Elt F)),
    StableHlo.nary ![main_v653, main_v654, main_v655] main_v656 (fun u => concatenate S3x50000x128 0 [⟨S1x50000x128, u 0⟩, ⟨S1x50000x128, u 1⟩, ⟨S1x50000x128, u 2⟩] concatenates_S1x50000x128_S1x50000x128_S1x50000x128_S3x50000x128_d0),
    StableHlo.nullary main_cst_120 (constant S_ .f32 0x00000000#32),
    StableHlo.binary main_v656 main_cst_120 main_v657 ((fun x v => Host.reduceAdd x v reducesTo_S3x50000x128_S50000x128_d0 h_S_) : (⟨S3x50000x128, .f32⟩ : BufTy).Contents (Elt F) → (⟨S_, .f32⟩ : BufTy).Contents (Elt F) → (⟨S50000x128, .f32⟩ : BufTy).Contents (Elt F)),
    StableHlo.nullary main_cst_121 (constant S_ .f32 0x40400000#32),
    StableHlo.unary main_cst_121 main_v658 (broadcastInDim S50000x128 ![] bcast_S_S50000x128 : (⟨S_, .f32⟩ : BufTy).Contents (Elt F) → (⟨S50000x128, .f32⟩ : BufTy).Contents (Elt F)),
    StableHlo.binary main_v657 main_v658 main_v659 (Host.divf : (⟨S50000x128, .f32⟩ : BufTy).Contents (Elt F) → (⟨S50000x128, .f32⟩ : BufTy).Contents (Elt F) → (⟨S50000x128, .f32⟩ : BufTy).Contents (Elt F)) ]

theorem r4_split : (opsL4 : List (HloOp τ sig (Elt F))) = r4_pre ++ (r4_rel0 ++ (r4_rel1 ++ (r4_rel2 ++ r4_tail))) := rfl

def r4_pre_W : List (Ref sig .tc) :=
  [main_v528, main_v529, main_v530, main_v531, main_cst_98, main_v532]

theorem r4_pre_writes : (r4_pre : List (HloOp τ sig (Elt F))).Forall fun op => op.writes ⊆ (r4_pre_W.map (Proc.devRef (τ := τ) .tc)).toFinset := by
  host_writes r4_pre

theorem r4_pre_keeps (W : Valuation τ sig (Elt F)) {x : Ref sig .tc} (hx : x ∉ r4_pre_W) :
    after r4_pre W (Proc.devRef .tc x) = W (Proc.devRef .tc x) :=
  after_of_writes_sub r4_pre W r4_pre_writes hx

def r4_rel0_W : List (Ref sig .tc) :=
  [main_v533, main_v534, main_v535, main_v536, main_cst_99, main_v537, main_v538, main_v539, main_cst_100, main_v540, main_v541, main_v542, main_cst_101, main_v543, main_v544, main_v545, main_v546, main_v547, main_v548, main_c_102, main_v549, main_v550, main_c_103, main_v551, main_v552, main_v553, main_v554, main_v555, main_cst_104, main_v556, main_v557, main_v558, main_cst_105, main_v559, main_v560, main_v561, main_v562, main_v563, main_v564, main_v565, main_v566, main_v567, main_v568, main_v569, main_v570, main_v571, main_v572]

theorem r4_rel0_writes : (r4_rel0 : List (HloOp τ sig (Elt F))).Forall fun op => op.writes ⊆ (r4_rel0_W.map (Proc.devRef (τ := τ) .tc)).toFinset := by
  host_writes r4_rel0

theorem r4_rel0_keeps (W : Valuation τ sig (Elt F)) {x : Ref sig .tc} (hx : x ∉ r4_rel0_W) :
    after r4_rel0 W (Proc.devRef .tc x) = W (Proc.devRef .tc x) :=
  after_of_writes_sub r4_rel0 W r4_rel0_writes hx

def r4_rel1_W : List (Ref sig .tc) :=
  [main_v573, main_v574, main_v575, main_v576, main_cst_106, main_v577, main_v578, main_v579, main_cst_107, main_v580, main_v581, main_v582, main_cst_108, main_v583, main_v584, main_v585, main_v586, main_v587, main_v588, main_c_109, main_v589, main_v590, main_c_110, main_v591, main_v592, main_v593, main_v594, main_v595, main_cst_111, main_v596, main_v597, main_v598, main_cst_112, main_v599, main_v600, main_v601, main_v602, main_v603, main_v604, main_v605, main_v606, main_v607, main_v608, main_v609, main_v610, main_v611, main_v612]

theorem r4_rel1_writes : (r4_rel1 : List (HloOp τ sig (Elt F))).Forall fun op => op.writes ⊆ (r4_rel1_W.map (Proc.devRef (τ := τ) .tc)).toFinset := by
  host_writes r4_rel1

theorem r4_rel1_keeps (W : Valuation τ sig (Elt F)) {x : Ref sig .tc} (hx : x ∉ r4_rel1_W) :
    after r4_rel1 W (Proc.devRef .tc x) = W (Proc.devRef .tc x) :=
  after_of_writes_sub r4_rel1 W r4_rel1_writes hx

def r4_rel2_W : List (Ref sig .tc) :=
  [main_v613, main_v614, main_v615, main_v616, main_cst_113, main_v617, main_v618, main_v619, main_cst_114, main_v620, main_v621, main_v622, main_cst_115, main_v623, main_v624, main_v625, main_v626, main_v627, main_v628, main_c_116, main_v629, main_v630, main_c_117, main_v631, main_v632, main_v633, main_v634, main_v635, main_cst_118, main_v636, main_v637, main_v638, main_cst_119, main_v639, main_v640, main_v641, main_v642, main_v643, main_v644, main_v645, main_v646, main_v647, main_v648, main_v649, main_v650, main_v651, main_v652]

theorem r4_rel2_writes : (r4_rel2 : List (HloOp τ sig (Elt F))).Forall fun op => op.writes ⊆ (r4_rel2_W.map (Proc.devRef (τ := τ) .tc)).toFinset := by
  host_writes r4_rel2

theorem r4_rel2_keeps (W : Valuation τ sig (Elt F)) {x : Ref sig .tc} (hx : x ∉ r4_rel2_W) :
    after r4_rel2 W (Proc.devRef .tc x) = W (Proc.devRef .tc x) :=
  after_of_writes_sub r4_rel2 W r4_rel2_writes hx

/-- The preamble leaves the vector of ones. -/
theorem r4_pre_ones (W : Valuation τ sig (Elt Ideal)) : after r4_pre W (Proc.devRef .tc main_v532) = edgeOnes := by
  unfold r4_pre
  after_results_simp
  rfl

/-- The preamble leaves this layer's weights. -/
theorem r4_pre_wgt (W : Valuation τ sig (Elt Ideal)) : after r4_pre W (Proc.devRef .tc main_v529) = (layerW (W (Proc.devRef .tc main_arg5)) 3 slices_S4x3x128x128_S1x3x128x128_3_0_0_0) := by
  unfold r4_pre
  after_results_simp
  rfl

/-- The preamble leaves this layer's biases. -/
theorem r4_pre_bia (W : Valuation τ sig (Elt Ideal)) : after r4_pre W (Proc.devRef .tc main_v531) = (layerB (W (Proc.devRef .tc main_arg6)) 3 slices_S4x3x128_S1x3x128_3_0_0) := by
  unfold r4_pre
  after_results_simp
  rfl

set_option maxHeartbeats 4000000 in
/-- Relation 0's block, from contents whose ones buffer holds the ones: its result is the relation's dense term of the aggregate. -/
theorem r4_rel0_read (W : Valuation τ sig (Elt Ideal)) (h1 : W (Proc.devRef .tc main_v532) = edgeOnes) :
    after r4_rel0 W (Proc.devRef .tc main_v572) =
      refDense (aggOf (W (Proc.devRef .tc main_v527)) (rowOf (W (Proc.devRef .tc main_arg1)) 0 slices_S3x800000_S1x800000_0_0) (rowOf (W (Proc.devRef .tc main_arg2)) 0 slices_S3x800000_S1x800000_0_0)
          (degOf (rowOf (W (Proc.devRef .tc main_arg1)) 0 slices_S3x800000_S1x800000_0_0)) (degOf (rowOf (W (Proc.devRef .tc main_arg2)) 0 slices_S3x800000_S1x800000_0_0)))
        (W (Proc.devRef .tc main_v529)) (W (Proc.devRef .tc main_v531)) 0 slices_S3x128x128_S1x128x128_0_0_0 slices_S3x128_S1x128_0_0 := by
  unfold r4_rel0
  after_results_simp
  rw [h1]
  rfl

set_option maxHeartbeats 4000000 in
/-- Relation 1's block, from contents whose ones buffer holds the ones: its result is the relation's dense term of the aggregate. -/
theorem r4_rel1_read (W : Valuation τ sig (Elt Ideal)) (h1 : W (Proc.devRef .tc main_v532) = edgeOnes) :
    after r4_rel1 W (Proc.devRef .tc main_v612) =
      refDense (aggOf (W (Proc.devRef .tc main_v527)) (rowOf (W (Proc.devRef .tc main_arg1)) 1 slices_S3x800000_S1x800000_1_0) (rowOf (W (Proc.devRef .tc main_arg2)) 1 slices_S3x800000_S1x800000_1_0)
          (degOf (rowOf (W (Proc.devRef .tc main_arg1)) 1 slices_S3x800000_S1x800000_1_0)) (degOf (rowOf (W (Proc.devRef .tc main_arg2)) 1 slices_S3x800000_S1x800000_1_0)))
        (W (Proc.devRef .tc main_v529)) (W (Proc.devRef .tc main_v531)) 1 slices_S3x128x128_S1x128x128_1_0_0 slices_S3x128_S1x128_1_0 := by
  unfold r4_rel1
  after_results_simp
  rw [h1]
  rfl

set_option maxHeartbeats 4000000 in
/-- Relation 2's block, from contents whose ones buffer holds the ones: its result is the relation's dense term of the aggregate. -/
theorem r4_rel2_read (W : Valuation τ sig (Elt Ideal)) (h1 : W (Proc.devRef .tc main_v532) = edgeOnes) :
    after r4_rel2 W (Proc.devRef .tc main_v652) =
      refDense (aggOf (W (Proc.devRef .tc main_v527)) (rowOf (W (Proc.devRef .tc main_arg1)) 2 slices_S3x800000_S1x800000_2_0) (rowOf (W (Proc.devRef .tc main_arg2)) 2 slices_S3x800000_S1x800000_2_0)
          (degOf (rowOf (W (Proc.devRef .tc main_arg1)) 2 slices_S3x800000_S1x800000_2_0)) (degOf (rowOf (W (Proc.devRef .tc main_arg2)) 2 slices_S3x800000_S1x800000_2_0)))
        (W (Proc.devRef .tc main_v529)) (W (Proc.devRef .tc main_v531)) 2 slices_S3x128x128_S1x128x128_2_0_0 slices_S3x128_S1x128_2_0 := by
  unfold r4_rel2
  after_results_simp
  rw [h1]
  rfl

/-- The tail: the mean of the three relations' terms. -/
theorem r4_tail_read (W : Valuation τ sig (Elt Ideal)) :
    after r4_tail W (Proc.devRef .tc main_v659) = refMean (W (Proc.devRef .tc main_v572)) (W (Proc.devRef .tc main_v612)) (W (Proc.devRef .tc main_v652)) := by
  unfold r4_tail
  after_results_simp
  rfl

/-- The contents after the preamble, and after each relation's block. -/
def r4_W0 (V : Valuation τ sig (Elt Ideal)) : Valuation τ sig (Elt Ideal) := after r4_pre V
@[inherit_doc r4_W0] def r4_W1 (V : Valuation τ sig (Elt Ideal)) : Valuation τ sig (Elt Ideal) := after r4_rel0 (r4_W0 V)
@[inherit_doc r4_W0] def r4_W2 (V : Valuation τ sig (Elt Ideal)) : Valuation τ sig (Elt Ideal) := after r4_rel1 (r4_W1 V)
@[inherit_doc r4_W0] def r4_W3 (V : Valuation τ sig (Elt Ideal)) : Valuation τ sig (Elt Ideal) := after r4_rel2 (r4_W2 V)

theorem r4_chain (V : Valuation τ sig (Elt Ideal)) : after (opsL4 (F := Ideal)) V = after r4_tail (r4_W3 V) := by
  have h := congrArg (fun ops => after ops V) r4_split
  simp only [after_append] at h
  exact h

theorem r4_W0_keep (V : Valuation τ sig (Elt Ideal)) {x : Ref sig .tc} (hx : x ∉ r4_pre_W) :
    r4_W0 V (Proc.devRef .tc x) = V (Proc.devRef .tc x) := r4_pre_keeps _ hx

theorem r4_W1_keep (V : Valuation τ sig (Elt Ideal)) {x : Ref sig .tc} (hx : x ∉ r4_rel0_W) :
    r4_W1 V (Proc.devRef .tc x) = (r4_W0 V) (Proc.devRef .tc x) := r4_rel0_keeps _ hx

theorem r4_W2_keep (V : Valuation τ sig (Elt Ideal)) {x : Ref sig .tc} (hx : x ∉ r4_rel1_W) :
    r4_W2 V (Proc.devRef .tc x) = (r4_W1 V) (Proc.devRef .tc x) := r4_rel1_keeps _ hx

theorem r4_W3_keep (V : Valuation τ sig (Elt Ideal)) {x : Ref sig .tc} (hx : x ∉ r4_rel2_W) :
    r4_W3 V (Proc.devRef .tc x) = (r4_W2 V) (Proc.devRef .tc x) := r4_rel2_keeps _ hx

theorem r4_ones0 (V : Valuation τ sig (Elt Ideal)) : r4_W0 V (Proc.devRef .tc main_v532) = edgeOnes := r4_pre_ones V
theorem r4_ones1 (V : Valuation τ sig (Elt Ideal)) : r4_W1 V (Proc.devRef .tc main_v532) = edgeOnes := (r4_W1_keep V (by decide)).trans (r4_ones0 V)
theorem r4_ones2 (V : Valuation τ sig (Elt Ideal)) : r4_W2 V (Proc.devRef .tc main_v532) = edgeOnes := (r4_W2_keep V (by decide)).trans (r4_ones1 V)

theorem r4_h0 (V : Valuation τ sig (Elt Ideal)) : r4_W0 V (Proc.devRef .tc main_v527) = (V (Proc.devRef .tc main_v527)) := r4_W0_keep V (by decide)
theorem r4_h1 (V : Valuation τ sig (Elt Ideal)) : r4_W1 V (Proc.devRef .tc main_v527) = (V (Proc.devRef .tc main_v527)) := (r4_W1_keep V (by decide)).trans (r4_h0 V)
theorem r4_h2 (V : Valuation τ sig (Elt Ideal)) : r4_W2 V (Proc.devRef .tc main_v527) = (V (Proc.devRef .tc main_v527)) := (r4_W2_keep V (by decide)).trans (r4_h1 V)

theorem r4_src0 (V : Valuation τ sig (Elt Ideal)) : r4_W0 V (Proc.devRef .tc main_arg1) = (V (Proc.devRef .tc main_arg1)) := r4_W0_keep V (by decide)
theorem r4_src1 (V : Valuation τ sig (Elt Ideal)) : r4_W1 V (Proc.devRef .tc main_arg1) = (V (Proc.devRef .tc main_arg1)) := (r4_W1_keep V (by decide)).trans (r4_src0 V)
theorem r4_src2 (V : Valuation τ sig (Elt Ideal)) : r4_W2 V (Proc.devRef .tc main_arg1) = (V (Proc.devRef .tc main_arg1)) := (r4_W2_keep V (by decide)).trans (r4_src1 V)

theorem r4_dst0 (V : Valuation τ sig (Elt Ideal)) : r4_W0 V (Proc.devRef .tc main_arg2) = (V (Proc.devRef .tc main_arg2)) := r4_W0_keep V (by decide)
theorem r4_dst1 (V : Valuation τ sig (Elt Ideal)) : r4_W1 V (Proc.devRef .tc main_arg2) = (V (Proc.devRef .tc main_arg2)) := (r4_W1_keep V (by decide)).trans (r4_dst0 V)
theorem r4_dst2 (V : Valuation τ sig (Elt Ideal)) : r4_W2 V (Proc.devRef .tc main_arg2) = (V (Proc.devRef .tc main_arg2)) := (r4_W2_keep V (by decide)).trans (r4_dst1 V)

theorem r4_wgt0 (V : Valuation τ sig (Elt Ideal)) : r4_W0 V (Proc.devRef .tc main_v529) = (layerW (V (Proc.devRef .tc main_arg5)) 3 slices_S4x3x128x128_S1x3x128x128_3_0_0_0) := r4_pre_wgt V
theorem r4_wgt1 (V : Valuation τ sig (Elt Ideal)) : r4_W1 V (Proc.devRef .tc main_v529) = (layerW (V (Proc.devRef .tc main_arg5)) 3 slices_S4x3x128x128_S1x3x128x128_3_0_0_0) := (r4_W1_keep V (by decide)).trans (r4_wgt0 V)
theorem r4_wgt2 (V : Valuation τ sig (Elt Ideal)) : r4_W2 V (Proc.devRef .tc main_v529) = (layerW (V (Proc.devRef .tc main_arg5)) 3 slices_S4x3x128x128_S1x3x128x128_3_0_0_0) := (r4_W2_keep V (by decide)).trans (r4_wgt1 V)

theorem r4_bia0 (V : Valuation τ sig (Elt Ideal)) : r4_W0 V (Proc.devRef .tc main_v531) = (layerB (V (Proc.devRef .tc main_arg6)) 3 slices_S4x3x128_S1x3x128_3_0_0) := r4_pre_bia V
theorem r4_bia1 (V : Valuation τ sig (Elt Ideal)) : r4_W1 V (Proc.devRef .tc main_v531) = (layerB (V (Proc.devRef .tc main_arg6)) 3 slices_S4x3x128_S1x3x128_3_0_0) := (r4_W1_keep V (by decide)).trans (r4_bia0 V)
theorem r4_bia2 (V : Valuation τ sig (Elt Ideal)) : r4_W2 V (Proc.devRef .tc main_v531) = (layerB (V (Proc.devRef .tc main_arg6)) 3 slices_S4x3x128_S1x3x128_3_0_0) := (r4_W2_keep V (by decide)).trans (r4_bia1 V)

/-- Relation 0's term, as it stands when the tail starts. -/
theorem r4_D0 (V : Valuation τ sig (Elt Ideal)) : r4_W3 V (Proc.devRef .tc main_v572) =
      refDense (aggOf (V (Proc.devRef .tc main_v527)) (rowOf (V (Proc.devRef .tc main_arg1)) 0 slices_S3x800000_S1x800000_0_0) (rowOf (V (Proc.devRef .tc main_arg2)) 0 slices_S3x800000_S1x800000_0_0)
          (degOf (rowOf (V (Proc.devRef .tc main_arg1)) 0 slices_S3x800000_S1x800000_0_0)) (degOf (rowOf (V (Proc.devRef .tc main_arg2)) 0 slices_S3x800000_S1x800000_0_0)))
        (layerW (V (Proc.devRef .tc main_arg5)) 3 slices_S4x3x128x128_S1x3x128x128_3_0_0_0) (layerB (V (Proc.devRef .tc main_arg6)) 3 slices_S4x3x128_S1x3x128_3_0_0) 0 slices_S3x128x128_S1x128x128_0_0_0 slices_S3x128_S1x128_0_0 := by
  rw [r4_W3_keep V (x := main_v572) (by decide), r4_W2_keep V (x := main_v572) (by decide)]
  unfold r4_W1
  rw [r4_rel0_read _ (r4_ones0 V), r4_h0 V, r4_src0 V, r4_dst0 V, r4_wgt0 V, r4_bia0 V]

/-- Relation 1's term, as it stands when the tail starts. -/
theorem r4_D1 (V : Valuation τ sig (Elt Ideal)) : r4_W3 V (Proc.devRef .tc main_v612) =
      refDense (aggOf (V (Proc.devRef .tc main_v527)) (rowOf (V (Proc.devRef .tc main_arg1)) 1 slices_S3x800000_S1x800000_1_0) (rowOf (V (Proc.devRef .tc main_arg2)) 1 slices_S3x800000_S1x800000_1_0)
          (degOf (rowOf (V (Proc.devRef .tc main_arg1)) 1 slices_S3x800000_S1x800000_1_0)) (degOf (rowOf (V (Proc.devRef .tc main_arg2)) 1 slices_S3x800000_S1x800000_1_0)))
        (layerW (V (Proc.devRef .tc main_arg5)) 3 slices_S4x3x128x128_S1x3x128x128_3_0_0_0) (layerB (V (Proc.devRef .tc main_arg6)) 3 slices_S4x3x128_S1x3x128_3_0_0) 1 slices_S3x128x128_S1x128x128_1_0_0 slices_S3x128_S1x128_1_0 := by
  rw [r4_W3_keep V (x := main_v612) (by decide)]
  unfold r4_W2
  rw [r4_rel1_read _ (r4_ones1 V), r4_h1 V, r4_src1 V, r4_dst1 V, r4_wgt1 V, r4_bia1 V]

/-- Relation 2's term, as it stands when the tail starts. -/
theorem r4_D2 (V : Valuation τ sig (Elt Ideal)) : r4_W3 V (Proc.devRef .tc main_v652) =
      refDense (aggOf (V (Proc.devRef .tc main_v527)) (rowOf (V (Proc.devRef .tc main_arg1)) 2 slices_S3x800000_S1x800000_2_0) (rowOf (V (Proc.devRef .tc main_arg2)) 2 slices_S3x800000_S1x800000_2_0)
          (degOf (rowOf (V (Proc.devRef .tc main_arg1)) 2 slices_S3x800000_S1x800000_2_0)) (degOf (rowOf (V (Proc.devRef .tc main_arg2)) 2 slices_S3x800000_S1x800000_2_0)))
        (layerW (V (Proc.devRef .tc main_arg5)) 3 slices_S4x3x128x128_S1x3x128x128_3_0_0_0) (layerB (V (Proc.devRef .tc main_arg6)) 3 slices_S4x3x128_S1x3x128_3_0_0) 2 slices_S3x128x128_S1x128x128_2_0_0 slices_S3x128_S1x128_2_0 := by
  unfold r4_W3
  rw [r4_rel2_read _ (r4_ones2 V), r4_h2 V, r4_src2 V, r4_dst2 V, r4_wgt2 V, r4_bia2 V]

/-- Layer 4's result, from any contents V: the layer function of the three relations' aggregates of the features in `main_v527`,
    the layer's weights and biases. -/
theorem readR4 (V : Valuation τ sig (Elt Ideal)) :
    after (opsL4 (F := Ideal)) V (Proc.devRef .tc main_v659) =
      refLayerLast
        (aggOf (V (Proc.devRef .tc main_v527)) (rowOf (V (Proc.devRef .tc main_arg1)) 0 slices_S3x800000_S1x800000_0_0) (rowOf (V (Proc.devRef .tc main_arg2)) 0 slices_S3x800000_S1x800000_0_0)
          (degOf (rowOf (V (Proc.devRef .tc main_arg1)) 0 slices_S3x800000_S1x800000_0_0)) (degOf (rowOf (V (Proc.devRef .tc main_arg2)) 0 slices_S3x800000_S1x800000_0_0)))
        (aggOf (V (Proc.devRef .tc main_v527)) (rowOf (V (Proc.devRef .tc main_arg1)) 1 slices_S3x800000_S1x800000_1_0) (rowOf (V (Proc.devRef .tc main_arg2)) 1 slices_S3x800000_S1x800000_1_0)
          (degOf (rowOf (V (Proc.devRef .tc main_arg1)) 1 slices_S3x800000_S1x800000_1_0)) (degOf (rowOf (V (Proc.devRef .tc main_arg2)) 1 slices_S3x800000_S1x800000_1_0)))
        (aggOf (V (Proc.devRef .tc main_v527)) (rowOf (V (Proc.devRef .tc main_arg1)) 2 slices_S3x800000_S1x800000_2_0) (rowOf (V (Proc.devRef .tc main_arg2)) 2 slices_S3x800000_S1x800000_2_0)
          (degOf (rowOf (V (Proc.devRef .tc main_arg1)) 2 slices_S3x800000_S1x800000_2_0)) (degOf (rowOf (V (Proc.devRef .tc main_arg2)) 2 slices_S3x800000_S1x800000_2_0)))
        (layerW (V (Proc.devRef .tc main_arg5)) 3 slices_S4x3x128x128_S1x3x128x128_3_0_0_0) (layerB (V (Proc.devRef .tc main_arg6)) 3 slices_S4x3x128_S1x3x128_3_0_0) := by
  rw [r4_chain V, r4_tail_read, r4_D0, r4_D1, r4_D2]
  rfl

end Cert.Bridge

end
-- ==== Proof.BridgeL4.lean ====
/-
  Layer 4 on both sides: given that the previous layer's results agree, the kernel program's region 4 leaves in its
  output array what the reference's layer 4 computes.
-/
import proofs.«165758_j22333829939343_1_alg».proof.Proof.KRunVals
import proofs.«165758_j22333829939343_1_alg».proof.Proof.BridgeChainK
import proofs.«165758_j22333829939343_1_alg».proof.Proof.KJoin4
import proofs.«165758_j22333829939343_1_alg».proof.Proof.BridgeReadK0
import proofs.«165758_j22333829939343_1_alg».proof.Proof.BridgeReadK4
import proofs.«165758_j22333829939343_1_alg».proof.Proof.BridgeReadAggK4
import proofs.«165758_j22333829939343_1_alg».proof.Proof.BridgeReadR4
import proofs.«165758_j22333829939343_1_alg».proof.Proof.RefRun
import proofs.«165758_j22333829939343_1_alg».proof.Proof.BridgeArgs

set_option maxRecDepth 16384

noncomputable section

namespace Cert.Bridge

open Idealize.ShloMosaic Idealize.ShloMosaic.TcCoe Idealize.SL.Sem
open Cert.KernelIdeal Cert.KernelIdeal.Gen Cert.KernelIdeal.Hand

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

set_option maxHeartbeats 4000000 in
theorem layer4_eq (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))) (c : Dev Cert.KernelIdeal.nD)
    (hprev : W8 m ρ c (Proc.devRef .tc main_v434)
      = Cert.ReferenceIdeal.RefRun.R4 m' c (Proc.devRef .tc Cert.ReferenceIdeal.main_v527)) :
    W10 m ρ c (Proc.devRef .tc main_v534)
      = Cert.ReferenceIdeal.RefRun.R5 m' c (Proc.devRef .tc Cert.ReferenceIdeal.main_v659) := by
  obtain ⟨g0, g1, g2, g3, g4, g5, g6, g7, g8⟩ := hagree c
  have hA := readK4_agg (W8 m ρ c)
  have hW := readK4_wgt (W8 m ρ c)
  have hB := readK4_bias (W8 m ρ c)
  have hR := readR4 (Cert.ReferenceIdeal.RefRun.R4 m' c)
  rw [W8_main_arg1 m ρ c, W8_main_arg2 m ρ c, W8_main_v19 m ρ c, W8_main_v38 m ρ c,
    readK0_kdegOut_0 (W0 m ρ c), readK0_kdegIn_0 (W0 m ρ c), readK0_kdegOut_1 (W0 m ρ c), readK0_kdegIn_1 (W0 m ρ c),
    readK0_kdegOut_2 (W0 m ρ c), readK0_kdegIn_2 (W0 m ρ c), W0_main_arg1 m ρ c, W0_main_arg2 m ρ c, hprev] at hA
  rw [W8_main_arg5 m ρ c] at hW
  rw [W8_main_arg6 m ρ c] at hB
  have r1 : Cert.ReferenceIdeal.RefRun.R4 m' c (Proc.devRef .tc Cert.ReferenceIdeal.main_arg1) = m ((c.tc : Thread Cert.KernelIdeal.nD Cert.KernelIdeal.τ).loc Cert.KernelIdeal.main_arg1) := (Cert.ReferenceIdeal.RefRun.R4_arg m' c (by decide) (by decide) (by decide) (by decide)).trans g1
  have r2 : Cert.ReferenceIdeal.RefRun.R4 m' c (Proc.devRef .tc Cert.ReferenceIdeal.main_arg2) = m ((c.tc : Thread Cert.KernelIdeal.nD Cert.KernelIdeal.τ).loc Cert.KernelIdeal.main_arg2) := (Cert.ReferenceIdeal.RefRun.R4_arg m' c (by decide) (by decide) (by decide) (by decide)).trans g2
  have r5 : Cert.ReferenceIdeal.RefRun.R4 m' c (Proc.devRef .tc Cert.ReferenceIdeal.main_arg5) = m ((c.tc : Thread Cert.KernelIdeal.nD Cert.KernelIdeal.τ).loc Cert.KernelIdeal.main_arg5) := (Cert.ReferenceIdeal.RefRun.R4_arg m' c (by decide) (by decide) (by decide) (by decide)).trans g5
  have r6 : Cert.ReferenceIdeal.RefRun.R4 m' c (Proc.devRef .tc Cert.ReferenceIdeal.main_arg6) = m ((c.tc : Thread Cert.KernelIdeal.nD Cert.KernelIdeal.τ).loc Cert.KernelIdeal.main_arg6) := (Cert.ReferenceIdeal.RefRun.R4_arg m' c (by decide) (by decide) (by decide) (by decide)).trans g6
  rw [r1, r2, r5, r6] at hR
  rw [W10_out, final4, Cert.ReferenceIdeal.RefRun.R5_eq]
  refine ((G4_eq_refLayerLast (V9 m ρ) c _ _ _ _ _ _ hA hW hB).trans ?_)
  exact hR.symm

end Cert.Bridge

end
-- ==== Proof.KFinal5.lean ====
/-
  Region 5: from blocks to the array. Every point writes its row tile back; row tile t of the result is the
  tile product h·W + b of row tile t of h.
-/
import proofs.«165758_j22333829939343_1_alg».proof.Proof.KRegion5
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem hz2_5 : (![0, 0] : Fin 2 → Nat) = fun _ => 0 := funext fun a => by fin_cases a <;> rfl

/-- One row tile of the result: the payload of the point's three input blocks. -/
def tile5 (c : Dev nD) (t : Fin cfg5.N) : Vec F S2000x64 .f32 :=
  k5_pay1 (iblk5 V c 0 t) (iblk5 V c 1 t) (iblk5 V c 2 t)

theorem out5_eq (x0 : Vec F S2000x128 .f32) (x1 : Vec F S128x64 .f32) (x2 : Vec F S1x64 .f32) :
    out5_3 x0 x1 x2 = k5_pay1 x0 x1 x2 := by
  unfold out5_3
  rw [View.canon_unit_zero hz2_5]
  simp only [View.ld_unit_zero (S := S2000x128) hz2_5, View.ld_unit_zero (S := S128x64) hz2_5, View.ld_unit_zero (S := S1x64) hz2_5]

open ValueIdx in
/-- The result array after the region, entry by entry: entry (i, q) lies in row tile i / 2000. -/
def G5 (c : Dev nD) : S50000x64.Idx → Elt F .f32 := fun j =>
  tile5 V c ⟨(j 0).val / 2000, by
      have h0 : (j 0).val < 50000 := (j 0).isLt
      have hN : cfg5.N = 25 := N_5
      have hN' : grid5.N = 25 := N_5
      omega⟩
    (ix2 (⟨(j 0).val % 2000, Nat.mod_lt _ (by decide)⟩ : Fin 2000) ((j 1 : Fin 64)))

theorem tile5_congr (c : Dev nD) {t t' : Fin cfg5.N} (e : t = t') {y y' : S2000x64.Idx} (ey : y = y') :
    tile5 V c t y = tile5 V c t' y' := by
  subst e; subst ey; rfl

theorem idx_facts5_3 : ∀ t : Fin cfg5.N, win5_3.index t (0 : Fin 2) = t.val ∧ win5_3.index t (1 : Fin 2) = 0 :=
  (by decide +kernel : ∀ t : Fin grid5.N, win5_3.index t (0 : Fin 2) = t.val ∧ win5_3.index t (1 : Fin 2) = 0)

theorem flushed5_eq (c : Dev nD) (t : Fin cfg5.N) (hf : (cfg5.win 3).flush t = true) :
    (dat5 V c).flushed 3 t = ((cfg5.win 3).blk t).view.read (Elt F) (G5 V c) := by
  show (cfg5.win 3).cut (grid5.coords t) ((dat5 V c).after 3 t) = _
  rw [after5_3, out5_eq]
  obtain ⟨e0, e1⟩ := idx_facts5_3 t
  funext y
  have hy0 : (y 0).val < 2000 := (y 0).isLt
  have he0 : ((((cfg5.win 3).blk t).view.emb y) 0).val = t.val * 2000 + (y 0).val := by
    show win5_3.index t (0 : Fin 2) * 2000 + 1 * (y 0).val = _
    rw [e0]; omega
  have he1 : ((((cfg5.win 3).blk t).view.emb y) 1).val = (y 1).val := by
    show win5_3.index t (1 : Fin 2) * 64 + 1 * (y 1).val = _
    rw [e1]; omega
  show tile5 V c t y = G5 V c (((cfg5.win 3).blk t).view.emb y)
  unfold G5
  refine tile5_congr V c (Fin.ext (by show t.val = _ / 2000; rw [he0]; omega)) (funext fun a => ?_)
  match a with
  | ⟨0, _⟩ => exact Fin.ext (by show (y 0).val = _ % 2000; rw [he0]; omega)
  | ⟨1, _⟩ => exact Fin.ext he1.symm

theorem mem_blk5_3 (t : Fin cfg5.N) (i : S50000x64.Idx) :
    i ∈ ((cfg5.win 3).blk t).view.set ↔ ∀ a : Fin 2, win5_3.index t a * S2000x64.size a ≤ (i a).val ∧ (i a).val < win5_3.index t a * S2000x64.size a + S2000x64.size a := by
  show i ∈ ((View.whole main_v536).slice (win5_3.rect t)).set ↔ _
  rw [View.set_slice_whole, Rect.mem_set_unit]
  exact Iff.rfl

/-- The result array after the region is G5. -/
theorem final5 (c : Dev nD) : (dat5 V c).arrAt 3 cfg5.N = G5 V c :=
  (dat5 V c).arrAt_eq_of_cover 3 (G5 V c) (flushed5_eq V c) fun i => by
    have h0 : (i 0).val < 50000 := (i 0).isLt
    have h1 : (i 1).val < 64 := (i 1).isLt
    have hN : cfg5.N = 25 := N_5
    have hN' : grid5.N = 25 := N_5
    refine ⟨⟨(i 0).val / 2000, by omega⟩, flush5_3 _, ?_⟩
    rw [mem_blk5_3]
    obtain ⟨e0, e1⟩ := idx_facts5_3 ⟨(i 0).val / 2000, by omega⟩
    have e0' : win5_3.index ⟨(i 0).val / 2000, by omega⟩ (0 : Fin 2) = (i 0).val / 2000 := e0
    intro a
    match a with
    | ⟨0, _⟩ => show win5_3.index _ (0 : Fin 2) * 2000 ≤ (i 0).val ∧ (i 0).val < win5_3.index _ (0 : Fin 2) * 2000 + 2000; rw [e0']; omega
    | ⟨1, _⟩ => show win5_3.index _ (1 : Fin 2) * 64 ≤ (i 1).val ∧ (i 1).val < win5_3.index _ (1 : Fin 2) * 64 + 64; rw [e1]; omega

end Cert.KernelIdeal.Hand

end
-- ==== Proof.KEntry5.lean ====
/-
  Region 5 at an entry. Entry (i, q) of the result lies in row tile i / 2000, row i % 2000; that point reads row tile
  i / 2000 of the features, the whole output weight matrix and the whole bias row; so the entry is row i of the features
  times column q of the weights plus the bias entry q.
-/
import proofs.«165758_j22333829939343_1_alg».proof.Proof.KFinal5
import proofs.«165758_j22333829939343_1_alg».proof.Proof.LayerAlias
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## Where a point's blocks sit in their arrays (decided over the grid) -/

/-- The feature window's block at point t is row tile t. -/
theorem idx_facts5_0 : ∀ t : Fin cfg5.N, win5_0.index t (0 : Fin 2) = t.val ∧ win5_0.index t (1 : Fin 2) = 0 :=
  (by decide +kernel : ∀ t : Fin grid5.N, win5_0.index t (0 : Fin 2) = t.val ∧ win5_0.index t (1 : Fin 2) = 0)

/-- The weight window's block is the whole matrix at every point. -/
theorem idx_facts5_1 : ∀ t : Fin cfg5.N, win5_1.index t (0 : Fin 2) = 0 ∧ win5_1.index t (1 : Fin 2) = 0 :=
  (by decide +kernel : ∀ t : Fin grid5.N, win5_1.index t (0 : Fin 2) = 0 ∧ win5_1.index t (1 : Fin 2) = 0)

/-- The bias window's block is the whole row at every point. -/
theorem idx_facts5_2 : ∀ t : Fin cfg5.N, win5_2.index t (0 : Fin 2) = 0 ∧ win5_2.index t (1 : Fin 2) = 0 :=
  (by decide +kernel : ∀ t : Fin grid5.N, win5_2.index t (0 : Fin 2) = 0 ∧ win5_2.index t (1 : Fin 2) = 0)

/-- The three arrays the region reads, as the region finds them. -/
abbrev HID5 (c : Dev nD) : Vec Ideal S50000x128 .f32 := V c (Pipeline.arrRef spec5 0)
abbrev WGT5 (c : Dev nD) : Vec Ideal S128x64 .f32 := V c (Pipeline.arrRef spec5 1)
abbrev BIA5 (c : Dev nD) : Vec Ideal S1x64 .f32 := V c (Pipeline.arrRef spec5 2)

/-- A point's three input blocks, at their literal shapes. -/
abbrev blkH5 (c : Dev nD) (t : Fin cfg5.N) : Vec Ideal S2000x128 .f32 := iblk5 V c 0 t
abbrev blkW5 (c : Dev nD) (t : Fin cfg5.N) : Vec Ideal S128x64 .f32 := iblk5 V c 1 t
abbrev blkB5 (c : Dev nD) (t : Fin cfg5.N) : Vec Ideal S1x64 .f32 := iblk5 V c 2 t

/-- Entry (p, k) of the feature block at point t is entry (2000 t + p, k) of the features. -/
theorem iblk5_0_apply (c : Dev nD) (t : Fin cfg5.N) (p : Fin 2000) (k : Fin 128) (i : Fin 50000)
    (hi : i.val = t.val * 2000 + p.val) : blkH5 V c t (ix2 p k) = HID5 V c (ix2 i k) := by
  obtain ⟨e0, e1⟩ := idx_facts5_0 t
  show HID5 V c (((cfg5.win 0).blk t).view.emb (ix2 p k)) = _
  refine congrArg (HID5 V c) (funext fun a => ?_)
  match a with
  | ⟨0, _⟩ => exact Fin.ext (by show win5_0.index t (0 : Fin 2) * 2000 + 1 * p.val = i.val; rw [e0]; omega)
  | ⟨1, _⟩ => exact Fin.ext (by show win5_0.index t (1 : Fin 2) * 128 + 1 * k.val = k.val; rw [e1]; omega)

/-- The weight block is the weight matrix. -/
theorem iblk5_1_apply (c : Dev nD) (t : Fin cfg5.N) (k : Fin 128) (q : Fin 64) :
    blkW5 V c t (ix2 k q) = WGT5 V c (ix2 k q) := by
  obtain ⟨e0, e1⟩ := idx_facts5_1 t
  show WGT5 V c (((cfg5.win 1).blk t).view.emb (ix2 k q)) = _
  refine congrArg (WGT5 V c) (funext fun a => ?_)
  match a with
  | ⟨0, _⟩ => exact Fin.ext (by show win5_1.index t (0 : Fin 2) * 128 + 1 * k.val = k.val; rw [e0]; omega)
  | ⟨1, _⟩ => exact Fin.ext (by show win5_1.index t (1 : Fin 2) * 64 + 1 * q.val = q.val; rw [e1]; omega)

/-- The bias block is the bias row. -/
theorem iblk5_2_apply (c : Dev nD) (t : Fin cfg5.N) (q : Fin 64) :
    blkB5 V c t (ix2 (0 : Fin 1) q) = BIA5 V c (ix2 (0 : Fin 1) q) := by
  obtain ⟨e0, e1⟩ := idx_facts5_2 t
  show BIA5 V c (((cfg5.win 2).blk t).view.emb (ix2 (0 : Fin 1) q)) = _
  refine congrArg (BIA5 V c) (funext fun a => ?_)
  match a with
  | ⟨0, _⟩ => exact Fin.ext (by show win5_2.index t (0 : Fin 2) * 1 + 1 * 0 = 0; rw [e0])
  | ⟨1, _⟩ => exact Fin.ext (by show win5_2.index t (1 : Fin 2) * 64 + 1 * q.val = q.val; rw [e1]; omega)

/-! ## The result array at an entry -/

/-- Entry (i, q) of the result: row i of the features times column q of the output weights plus the bias entry q. -/
theorem G5_entry (c : Dev nD) (i : Fin 50000) (q : Fin 64) :
    G5 V c (ix2 i q) = (∑ k : Fin 128, HID5 V c (ix2 i k) * WGT5 V c (ix2 k q)) + BIA5 V c (ix2 (0 : Fin 1) q) := by
  have hN : cfg5.N = 25 := N_5
  have hi := i.isLt
  have ht : i.val / 2000 < cfg5.N := by omega
  show tile5 V c ⟨i.val / 2000, ht⟩ (ix2 (⟨i.val % 2000, Nat.mod_lt _ (by decide)⟩ : Fin 2000) q) = _
  unfold tile5
  refine (Cert.Layer.payOut_apply _ _ _ _ q).trans ?_
  exact congrArg₂ (· + ·)
    (Finset.sum_congr rfl fun k _ => congrArg₂ (· * ·)
      (iblk5_0_apply V c ⟨i.val / 2000, ht⟩ _ k i (by show i.val = i.val / 2000 * 2000 + i.val % 2000; omega))
      (iblk5_1_apply V c ⟨i.val / 2000, ht⟩ k q))
    (iblk5_2_apply V c ⟨i.val / 2000, ht⟩ q)

end Cert.KernelIdeal.Hand

end
-- ==== Proof.KJoin5.lean ====
/-
  Region 5 against the reference, as arrays: the region's output array, given the arrays the kernel program prepares for
  it, is the reference's output step of the same data.
-/
import proofs.«165758_j22333829939343_1_alg».proof.Proof.KEntry5
import proofs.«165758_j22333829939343_1_alg».proof.Proof.BridgeLayer

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

variable (V : (c : Dev nD) → (b : Ref sig .tc) → Buf (Elt Ideal) ((c : Thread nD τ).loc b))

/-- REGION 5 AGAINST THE REFERENCE'S OUTPUT STEP: when the region finds the last layer's features, the output weights and
    the bias vector recast as a row, its result array is the reference's output step of the same. -/
theorem G5_eq_refOut [Cert.ReferenceIdeal.Facts₀] (c : Dev nD)
    (h : Vec Ideal Cert.ReferenceIdeal.S50000x128 .f32) (Wo : Vec Ideal Cert.ReferenceIdeal.S128x64 .f32)
    (bo : Vec Ideal Cert.ReferenceIdeal.S64 .f32) (hcast : Cert.ReferenceIdeal.S64.ShapeCasts Cert.ReferenceIdeal.S1x64)
    (hH : HID5 V c = h) (hW : WGT5 V c = Wo) (hB : BIA5 V c = shapeCast Cert.ReferenceIdeal.S1x64 bo hcast) :
    G5 V c = Cert.Bridge.refOut h Wo bo := by
  funext j
  rw [eq_ix2 j]
  refine (G5_entry V c (j 0) (j 1)).trans ?_
  rw [hH, hW, hB]
  exact Cert.Bridge.out_entry h Wo bo hcast (j 0) (j 1)

end Cert.KernelIdeal.Hand

end
-- ==== Proof.BridgeReadK5.lean ====
/-
  What the last host stretch of the kernel program leaves, from any contents `V` before it: the output bias vector
  recast as a [1,64] row, which the last region reads.
-/
import proofs.«165758_j22333829939343_1_alg».proof.Proof.Gen.KernelIdeal.Launch
import proofs.«165758_j22333829939343_1_alg».proof.Proof.BridgeVocab
import proofs.«165758_j22333829939343_1_alg».proof.Proof.BridgeLayer
import proofs.«165758_j22333829939343_1_alg».proof.Proof.LibHostReads

set_option maxRecDepth 16384

noncomputable section

namespace Cert.Bridge

open Idealize.ShloMosaic Idealize.ShloMosaic.TcCoe Idealize.ShloMosaic.StableHlo
open Cert.KernelIdeal Cert.KernelIdeal.Gen

variable [Cert.ReferenceIdeal.Facts₀]
variable (V : Valuation τ sig (Elt Ideal))

/-- The output biases as a [1,64] row. -/
theorem readK5_bias : StableHlo.after hostOps5 V (Proc.devRef .tc main_v535)
    = shapeCast S1x64 (V (Proc.devRef .tc main_arg8)) shapeCasts_S64_S1x64 := by
  dsimp only [hostOps5]
  host_reads <;> rfl

end Cert.Bridge

end
-- ==== Proof.BridgeReadR5.lean ====
/- The reference's output projection read off its four host operations: the result is the product of the last layer's features
   with the output weights, plus the output bias row. -/
import proofs.«165758_j22333829939343_1_alg».proof.Proof.RefRunL5
import proofs.«165758_j22333829939343_1_alg».proof.Proof.BridgeLayer

noncomputable section

namespace Cert.Bridge

open Idealize.ShloMosaic Idealize.ShloMosaic.TcCoe Idealize.SL.Sem Idealize.ShloMosaic.StableHlo
open Cert.ReferenceIdeal Cert.ReferenceIdeal.Gen Cert.ReferenceIdeal.RefRun

/-- The output projection's result, from any contents V. -/
theorem readR5 (V : Valuation τ sig (Elt Ideal)) :
    after (opsFinal (F := Ideal)) V (Proc.devRef .tc main_v663) =
      refOut (V (Proc.devRef .tc main_v659)) (V (Proc.devRef .tc main_arg7)) (V (Proc.devRef .tc main_arg8)) := by
  after_results_simp
  rfl

end Cert.Bridge

end
-- ==== Proof.BridgeL5.lean ====
/-
  The output step on both sides: given that the last layer's results agree, the kernel program's final region leaves in
  the result array what the reference's output step computes.
-/
import proofs.«165758_j22333829939343_1_alg».proof.Proof.KRunVals
import proofs.«165758_j22333829939343_1_alg».proof.Proof.BridgeChainK
import proofs.«165758_j22333829939343_1_alg».proof.Proof.KJoin5
import proofs.«165758_j22333829939343_1_alg».proof.Proof.BridgeReadK5
import proofs.«165758_j22333829939343_1_alg».proof.Proof.BridgeReadR5
import proofs.«165758_j22333829939343_1_alg».proof.Proof.RefRun
import proofs.«165758_j22333829939343_1_alg».proof.Proof.BridgeArgs

set_option maxRecDepth 16384

noncomputable section

namespace Cert.Bridge

open Idealize.ShloMosaic Idealize.ShloMosaic.TcCoe Idealize.SL.Sem
open Cert.KernelIdeal Cert.KernelIdeal.Gen Cert.KernelIdeal.Hand

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

set_option maxHeartbeats 4000000 in
theorem layer5_eq (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))) (c : Dev Cert.KernelIdeal.nD)
    (hprev : W10 m ρ c (Proc.devRef .tc main_v534)
      = Cert.ReferenceIdeal.RefRun.R5 m' c (Proc.devRef .tc Cert.ReferenceIdeal.main_v659)) :
    W12 m ρ c (Proc.devRef .tc main_v536)
      = Cert.ReferenceIdeal.RefRun.R6 m' c (Proc.devRef .tc Cert.ReferenceIdeal.main_v663) := by
  obtain ⟨g0, g1, g2, g3, g4, g5, g6, g7, g8⟩ := hagree c
  have hB := readK5_bias (W10 m ρ c)
  rw [W10_main_arg8 m ρ c] at hB
  have hH : W11 m ρ c (Proc.devRef .tc main_v534)
      = Cert.ReferenceIdeal.RefRun.R5 m' c (Proc.devRef .tc Cert.ReferenceIdeal.main_v659) :=
    (W11_prev m ρ c).trans ((W10_out m ρ c).symm.trans hprev)
  have hR := readR5 (Cert.ReferenceIdeal.RefRun.R5 m' c)
  have r7 : Cert.ReferenceIdeal.RefRun.R5 m' c (Proc.devRef .tc Cert.ReferenceIdeal.main_arg7) = m ((c.tc : Thread Cert.KernelIdeal.nD Cert.KernelIdeal.τ).loc Cert.KernelIdeal.main_arg7) := (Cert.ReferenceIdeal.RefRun.R5_arg m' c (by decide) (by decide) (by decide) (by decide) (by decide)).trans g7
  have r8 : Cert.ReferenceIdeal.RefRun.R5 m' c (Proc.devRef .tc Cert.ReferenceIdeal.main_arg8) = m ((c.tc : Thread Cert.KernelIdeal.nD Cert.KernelIdeal.τ).loc Cert.KernelIdeal.main_arg8) := (Cert.ReferenceIdeal.RefRun.R5_arg m' c (by decide) (by decide) (by decide) (by decide) (by decide)).trans g8
  rw [r7, r8] at hR
  rw [W12_out, final5, Cert.ReferenceIdeal.RefRun.R6_eq]
  refine ((G5_eq_refOut (V11 m ρ) c _ _ _ _ hH (W11_main_arg7 m ρ c) hB).trans ?_)
  exact hR.symm

end Cert.Bridge

end
-- ==== Proof.BridgeAll.lean ====
/-
  The value bridge: on the same arguments, the reference's result array is what the kernel program's last region leaves
  in its output window. Layer by layer the two programs' intermediate results agree (each layer's equation takes the
  previous one's), and the output step carries the last of them to the results.
-/
import proofs.«165758_j22333829939343_1_alg».proof.Proof.BridgeL0
import proofs.«165758_j22333829939343_1_alg».proof.Proof.BridgeL1
import proofs.«165758_j22333829939343_1_alg».proof.Proof.BridgeL2
import proofs.«165758_j22333829939343_1_alg».proof.Proof.BridgeL3
import proofs.«165758_j22333829939343_1_alg».proof.Proof.BridgeL4
import proofs.«165758_j22333829939343_1_alg».proof.Proof.BridgeL5

set_option maxRecDepth 16384

noncomputable section

namespace Cert.Bridge

open Idealize.ShloMosaic Idealize.ShloMosaic.TcCoe Idealize.SL.Sem
open Cert.KernelIdeal Cert.KernelIdeal.Gen Cert.KernelIdeal.Hand

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

theorem result_eq (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))) (c : Dev Cert.KernelIdeal.nD) :
    Cert.ReferenceIdeal.RefRun.R6 m' c (Proc.devRef .tc Cert.ReferenceIdeal.main_v663)
      = (dat5 (V11 m ρ) c).arrAt 3 cfg5.N :=
  have h0 := layer0_eq m ρ m' hagree c
  have h1 := layer1_eq m ρ m' hagree c h0
  have h2 := layer2_eq m ρ m' hagree c h1
  have h3 := layer3_eq m ρ m' hagree c h2
  have h4 := layer4_eq m ρ m' hagree c h3
  have h5 := layer5_eq m ρ m' hagree c h4
  h5.symm.trans (W12_result m ρ c)

end Cert.Bridge

end
-- ==== Proof.lean ====
/-
  The certificate of the relational graph-convolution network: five layers, each the mean over three relations
  of a degree-normalised neighbourhood sum times a weight matrix plus a bias, a leaky rectifier after all but the
  last, and a final linear projection.

  The kernel program computes the neighbourhood sums on the host and each layer's dense part in one fused
  kernel region walked over 25 row tiles by 3 relations, accumulating the relations' tile products in a scratch
  buffer and storing the activated mean at the last relation; the reference computes the same on the host with
  a stacked mean. Over the extended reals the two agree entry by entry: the accumulation ((0 + t0) + t1) + t2
  is the stacked sum 0 + (t0 + t1 + t2) by associativity, and the product with the named constant 1/3 is the
  quotient by 3. No finiteness of the inputs is used.

  The three frames come from the programs' runs: the kernel program's run over its six regions (at any float
  instance), the reference's run as a sequence of host operations.
-/
import proofs.«165758_j22333829939343_1_alg».proof.Defs
import proofs.«165758_j22333829939343_1_alg».proof.Proof.Gen.Kernel
import proofs.«165758_j22333829939343_1_alg».proof.Proof.Gen.KernelIdeal
import proofs.«165758_j22333829939343_1_alg».proof.Proof.Gen.ReferenceIdeal
import proofs.«165758_j22333829939343_1_alg».proof.Proof.Gen.Pre_finite_inputs
import proofs.«165758_j22333829939343_1_alg».proof.Proof.KRunMain
import proofs.«165758_j22333829939343_1_alg».proof.Proof.BRunMain
import proofs.«165758_j22333829939343_1_alg».proof.Proof.RefRun
import proofs.«165758_j22333829939343_1_alg».proof.Proof.BridgeAll
import Idealize.ShloMosaic.Adequacy
import Idealize.ShloMosaic.Init

noncomputable section

namespace Cert.Proof

open Idealize.ShloMosaic Idealize.SL.Sem

/-- The kernel program as printed terminates from any memory and leaves its arguments unchanged. -/
theorem frame_k [hPre : Cert.Pre_finite_inputs.Facts] :
    Cert.frame_Kernel (hKernel := Cert.Kernel.Gen.facts) (hPre_finite_inputs := hPre) :=
  fun m ρ _ => Cert.Kernel.Hand.frame (F := Bits) m ρ

/-- So does its idealization. -/
theorem frame_ki [hPre : Cert.Pre_finite_inputs.Facts] :
    Cert.frame_KernelIdeal (hKernelIdeal := Cert.KernelIdeal.Gen.facts) (hPre_finite_inputs := hPre) :=
  fun m ρ _ => Cert.KernelIdeal.Hand.frame (F := Ideal) m ρ

/-- The reference's run, its result dropped. -/
theorem frame_ri [hPre : Cert.Pre_finite_inputs.Facts] :
    Cert.frame_ReferenceIdeal (hReferenceIdeal := Cert.ReferenceIdeal.Gen.facts) (hPre_finite_inputs := hPre) :=
  fun m g _ => (θ_run _ _ _).mono (fun _ h c => (h c).2) (Cert.ReferenceIdeal.RefRun.run (F := Ideal) m g)

/-- The five ledger entries are one statement: the table gives the name "inv_3" the value 1/3. -/
theorem preserves : Cert.preserves_Kernel_KernelIdeal :=
  have s := IdealRules.named_const.statement Cert.KernelIdeal.κ "inv_3" .f32 0x3EAAAAAB#32 ((1 / 3 : ℝ) : EReal) rfl
  ⟨s, s, s, s, s⟩

/-- Both idealized programs end with the same result array. -/
theorem algebraic [hPre : Cert.Pre_finite_inputs.Facts] :
    Cert.algebraic_KernelIdeal_ReferenceIdeal (hKernelIdeal := Cert.KernelIdeal.Gen.facts)
      (hReferenceIdeal := Cert.ReferenceIdeal.Gen.facts) (hPre_finite_inputs := hPre) := by
  intro m ρ m' ρ' _ hagree
  refine ⟨fun c => (Cert.KernelIdeal.Hand.dat5 (Cert.KernelIdeal.Hand.V11 m ρ) c).arrAt 3 Cert.KernelIdeal.cfg5.N,
    Cert.KernelIdeal.Hand.run_alg (F := Ideal) m ρ, ?_⟩
  refine (θ_run Cert.ReferenceIdeal.defs _ _).mono (fun _ h c => ⟨(h c).1.trans ?_, (h c).2⟩)
    (Cert.ReferenceIdeal.RefRun.run (F := Ideal) m' ρ')
  exact Cert.Bridge.result_eq m ρ m' hagree c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
